-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x10475x3 : Shape := ⟨3, ![1024, 10475, 3]⟩
abbrev S8192 : Shape := ⟨1, ![8192]⟩
abbrev S4096 : Shape := ⟨1, ![4096]⟩
abbrev S_ : Shape := ⟨0, ![]⟩

class Facts : Prop where
  bcast_S_S1024x10475x3 : S_.BroadcastsInDim S1024x10475x3 (![] : Fin 0 → Fin S1024x10475x3.rank)
  reducesTo_S1024x10475x3_S_d0_1_2 : S1024x10475x3.ReducesTo [0, 1, 2] S_
  h_S_ : 0 < S_.numel
  bcast_S_S8192 : S_.BroadcastsInDim S8192 (![] : Fin 0 → Fin S8192.rank)
  reducesTo_S8192_S_d0 : S8192.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S4096 32) (main_v10 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v10 main_v16
  let main_c_6 : IVec S_ 32 := constantI S_ 32 0#32
  let main_v18 : IVec S4096 32 := broadcastInDim S4096 ![] bcast_S_S4096 main_c_6
  let main_v19 : IVec S4096 1 := cmpi .sge main_arg3 main_v18
  let main_c_7 : IVec S_ 32 := constantI S_ 32 31#32
  let main_v20 : IVec S4096 32 := broadcastInDim S4096 ![] bcast_S_S4096 main_c_7
  let main_v21 : IVec S4096 1 := cmpi .sle main_arg3 main_v20
  let main_v22 : IVec S4096 1 := andi main_v19 main_v21
  let main_c_8 : IVec S_ 1 := constantI S_ 1 1#1
  let main_v23 : IVec S_ 1 := (fun x v => Host.reduce IntOp.andi x v reducesTo_S4096_S_d0 h_S_) main_v22 main_c_8
  let main_v24 : IVec S_ 1 := andi main_v17 main_v23
  main_v24

def fn {F : FTy → Type} [FloatOps F] (main_arg0 : FVec F S1024x10475x3 .f32) (main_arg1 : IVec S8192 32) (main_arg2 : IVec S4096 32) (main_arg3 : IVec S4096 32) : IVec S_ 1 :=
  let main_v0 : FVec F S1024x10475x3 .f32 := Host.absf main_arg0
  let main_cst : FVec F S_ .f32 := constant S_ .f32 0x7F800000#32
  let main_v1 : FVec F S1024x10475x3 .f32 := broadcastInDim S1024x10475x3 ![] bcast_S_S1024x10475x3 main_cst
  let main_v2 : IVec S1024x10475x3 1 := cmpf .olt main_v0 main_v1
  let main_c : IVec S_ 1 := constantI S_ 1 1#1
  let main_v3 : IVec S_ 1 := (fun x v => Host.reduce IntOp.andi x v reducesTo_S1024x10475x3_S_d0_1_2 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 10474#32
  let main_v6 : IVec S8192 32 := broadcastInDim S8192 ![] bcast_S_S8192 main_c_1
  let main_v7 : IVec S8192 1 := cmpi .sle main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  let main_c_3 : IVec S_ 32 := constantI S_ 32 0#32
  let main_v11 : IVec S4096 32 := broadcastInDim S4096 ![] bcast_S_S4096 main_c_3
  let main_v12 : IVec S4096 1 := cmpi .sge main_arg2 main_v11
  let main_c_4 : IVec S_ 32 := constantI S_ 32 10474#32
  let main_v13 : IVec S4096 32 := broadcastInDim S4096 ![] bcast_S_S4096 main_c_4
  let main_v14 : IVec S4096 1 := cmpi .sle main_arg2 main_v13
  let main_v15 : IVec S4096 1 := andi main_v12 main_v14
  let main_c_5 : IVec S_ 1 := constantI S_ 1 1#1
  fn_part1 (F := F) main_arg3 main_v10 main_v15 main_c_5
-- ==== Kernel.lean ====
abbrev S1024x10475x3 : Shape := ⟨3, ![1024, 10475, 3]⟩
abbrev S8192 : Shape := ⟨1, ![8192]⟩
abbrev S4096 : Shape := ⟨1, ![4096]⟩
abbrev S1024x31425 : Shape := ⟨2, ![1024, 31425]⟩
abbrev S1024x24672 : Shape := ⟨2, ![1024, 24672]⟩
abbrev S31425 : Shape := ⟨1, ![31425]⟩
abbrev S24672 : Shape := ⟨1, ![24672]⟩
abbrev S96 : Shape := ⟨1, ![96]⟩
abbrev S1536 : Shape := ⟨1, ![1536]⟩
abbrev S_ : Shape := ⟨0, ![]⟩
abbrev S16 : Shape := ⟨1, ![16]⟩
abbrev S1x31425 : Shape := ⟨2, ![1, 31425]⟩
abbrev S1x24672 : Shape := ⟨2, ![1, 24672]⟩
abbrev S1024x8224x3 : Shape := ⟨3, ![1024, 8224, 3]⟩

abbrev nBuf : Table → Nat
  | .hbm => 7
  | .local .scVector .vmem => 7
  | _ => 0

abbrev bufTy : (tb : Table) → Fin (nBuf tb) → BufTy
  | .hbm, ⟨0, _⟩ => ⟨S1024x10475x3, .f32⟩
  | .hbm, ⟨1, _⟩ => ⟨S8192, .i32⟩
  | .hbm, ⟨2, _⟩ => ⟨S4096, .i32⟩
  | .hbm, ⟨3, _⟩ => ⟨S4096, .i32⟩
  | .hbm, ⟨4, _⟩ => ⟨S1024x31425, .f32⟩
  | .hbm, ⟨5, _⟩ => ⟨S1024x24672, .f32⟩
  | .hbm, ⟨6, _⟩ => ⟨S1024x8224x3, .f32⟩
  | .local .scVector .vmem, ⟨0, _⟩ => ⟨S31425, .f32⟩
  | .local .scVector .vmem, ⟨1, _⟩ => ⟨S24672, .f32⟩
  | .local .scVector .vmem, ⟨2, _⟩ => ⟨S8192, .i32⟩
  | .local .scVector .vmem, ⟨3, _⟩ => ⟨S4096, .i32⟩
  | .local .scVector .vmem, ⟨4, _⟩ => ⟨S4096, .i32⟩
  | .local .scVector .vmem, ⟨5, _⟩ => ⟨S96, .f32⟩
  | .local .scVector .vmem, ⟨6, _⟩ => ⟨S1536, .f32⟩
  | _, _ => ⟨S1024x10475x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 4, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c96_i32_2 : BitVec 32 := 96#32
  let v7 : BitVec 32 := Scalar.addi c0_i32_1 c96_i32_2
  let c1_i32 : BitVec 32 := 1#32
  ⟨c0_i32_1, v7, c1_i32⟩
def k0_mult1 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c16_i32 : BitVec 32 := 16#32
  let v235 : BitVec 32 := Scalar.muli arg16 c16_i32
  v235
def k0_off1 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c16_i32 : BitVec 32 := 16#32
  let v235 : BitVec 32 := Scalar.muli arg16 c16_i32
  let v236 : BitVec 32 := v235
  let v237 : Index := Scalar.indexCast v236
  ![v237.toNat]
@[reducible] def k0_t2_loop : Scf.Loop 32 :=
  let c0_i32_5 : BitVec 32 := 0#32
  let c256_i32 : BitVec 32 := 256#32
  let v9 : BitVec 32 := Scalar.addi c0_i32_5 c256_i32
  let c1_i32_6 : BitVec 32 := 1#32
  ⟨c0_i32_5, v9, c1_i32_6⟩
def k0_mult2 (k0_t2 : Fin k0_t2_loop.trips) : BitVec 32 :=
  let c0_i32_5 : BitVec 32 := 0#32
  let c1_i32_6 : BitVec 32 := 1#32
  let arg16 : BitVec 32 := Scf.iv c0_i32_5 c1_i32_6 k0_t2
  let c16_i32 : BitVec 32 := 16#32
  let v235 : BitVec 32 := Scalar.muli arg16 c16_i32
  v235
def k0_off2 (k0_t2 : Fin k0_t2_loop.trips) : Fin 1 → Nat :=
  let c0_i32_5 : BitVec 32 := 0#32
  let c1_i32_6 : BitVec 32 := 1#32
  let arg16 : BitVec 32 := Scf.iv c0_i32_5 c1_i32_6 k0_t2
  let c16_i32 : BitVec 32 := 16#32
  let v235 : BitVec 32 := Scalar.muli arg16 c16_i32
  let v236 : BitVec 32 := v235
  let v237 : Index := Scalar.indexCast v236
  ![v237.toNat]

def k0_chk1 (v243 : IVec S16 32) : Prop :=
  (∀ a x, ((![v243] : Fin 1 → IVec S16 32) a x).toNat < S1536.size a)
instance k0_chk1.dec : ∀ (v243 : IVec S16 32), Decidable (k0_chk1 v243) := fun v243 => decidable_of_iff' _ (Iff.of_eq (k0_chk1.eq_1 v243))
theorem k0_idx1_inb : ∀ (v243 : IVec S16 32) (k0_hw1 : k0_chk1 v243), ∀ a x, ((![v243] : Fin 1 → IVec S16 32) a x).toNat < S1536.size a := fun v243 k0_hw1 => k0_hw1

def k0_chk2 (v245 : IVec S16 32) : Prop :=
  (∀ a x, ((![v245] : Fin 1 → IVec S16 32) a x).toNat < S1536.size a)
instance k0_chk2.dec : ∀ (v245 : IVec S16 32), Decidable (k0_chk2 v245) := fun v245 => decidable_of_iff' _ (Iff.of_eq (k0_chk2.eq_1 v245))
theorem k0_idx2_inb : ∀ (v245 : IVec S16 32) (k0_hw2 : k0_chk2 v245), ∀ a x, ((![v245] : Fin 1 → IVec S16 32) a x).toNat < S1536.size a := fun v245 k0_hw2 => k0_hw2

def k0_chk3 (v247 : IVec S16 32) : Prop :=
  (∀ a x, ((![v247] : Fin 1 → IVec S16 32) a x).toNat < S1536.size a)
instance k0_chk3.dec : ∀ (v247 : IVec S16 32), Decidable (k0_chk3 v247) := fun v247 => decidable_of_iff' _ (Iff.of_eq (k0_chk3.eq_1 v247))
theorem k0_idx3_inb : ∀ (v247 : IVec S16 32) (k0_hw3 : k0_chk3 v247), ∀ a x, ((![v247] : Fin 1 → IVec S16 32) a x).toNat < S1536.size a := fun v247 k0_hw3 => k0_hw3
@[reducible] def k0_t3_loop : Scf.Loop 32 :=
  let c0_i32_27 : BitVec 32 := 0#32
  let c32_i32 : BitVec 32 := 32#32
  let v233 : BitVec 32 := Scalar.addi c0_i32_27 c32_i32
  let c1_i32_28 : BitVec 32 := 1#32
  ⟨c0_i32_27, v233, c1_i32_28⟩
def k0_off3 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_30 : BitVec 32 := 32#32
  let v235 : BitVec 32 := Scalar.muli v1 c32_i32_30
  let c0_i32_27 : BitVec 32 := 0#32
  let c1_i32_28 : BitVec 32 := 1#32
  let arg16 : BitVec 32 := Scf.iv c0_i32_27 c1_i32_28 k0_t3
  let v236 : BitVec 32 := Scalar.addi v235 arg16
  let c0_i32_148_r3 : BitVec 32 := 0#32
  ![v236.toNat, 0]
@[reducible] def k0_t4_loop : Scf.Loop 32 :=
  let c0_i32_32 : BitVec 32 := 0#32
  let c96_i32_33 : BitVec 32 := 96#32
  let v237 : BitVec 32 := Scalar.addi c0_i32_32 c96_i32_33
  let c1_i32_34 : BitVec 32 := 1#32
  ⟨c0_i32_32, v237, c1_i32_34⟩
def k0_mult3 (k0_t4 : Fin k0_t4_loop.trips) : BitVec 32 :=
  let c0_i32_32 : BitVec 32 := 0#32
  let c1_i32_34 : BitVec 32 := 1#32
  let arg18 : BitVec 32 := Scf.iv c0_i32_32 c1_i32_34 k0_t4
  let c16_i32 : BitVec 32 := 16#32
  let v453 : BitVec 32 := Scalar.muli arg18 c16_i32
  v453
def k0_off4 (k0_t4 : Fin k0_t4_loop.trips) : Fin 1 → Nat :=
  let c0_i32_32 : BitVec 32 := 0#32
  let c1_i32_34 : BitVec 32 := 1#32
  let arg18 : BitVec 32 := Scf.iv c0_i32_32 c1_i32_34 k0_t4
  let c16_i32 : BitVec 32 := 16#32
  let v453 : BitVec 32 := Scalar.muli arg18 c16_i32
  let v454 : BitVec 32 := v453
  let v455 : Index := Scalar.indexCast v454
  ![v455.toNat]
@[reducible] def k0_t5_loop : Scf.Loop 32 :=
  let c0_i32_37 : BitVec 32 := 0#32
  let c512_i32 : BitVec 32 := 512#32
  let v239 : BitVec 32 := Scalar.addi c0_i32_37 c512_i32
  let c1_i32_38 : BitVec 32 := 1#32
  ⟨c0_i32_37, v239, c1_i32_38⟩
def k0_mult4 (k0_t5 : Fin k0_t5_loop.trips) : BitVec 32 :=
  let c0_i32_37 : BitVec 32 := 0#32
  let c1_i32_38 : BitVec 32 := 1#32
  let arg18 : BitVec 32 := Scf.iv c0_i32_37 c1_i32_38 k0_t5
  let c16_i32 : BitVec 32 := 16#32
  let v453 : BitVec 32 := Scalar.muli arg18 c16_i32
  v453
def k0_off5 (k0_t5 : Fin k0_t5_loop.trips) : Fin 1 → Nat :=
  let c0_i32_37 : BitVec 32 := 0#32
  let c1_i32_38 : BitVec 32 := 1#32
  let arg18 : BitVec 32 := Scf.iv c0_i32_37 c1_i32_38 k0_t5
  let c16_i32 : BitVec 32 := 16#32
  let v453 : BitVec 32 := Scalar.muli arg18 c16_i32
  let v454 : BitVec 32 := v453
  let v455 : Index := Scalar.indexCast v454
  ![v455.toNat]

def k0_chk4 (v465 : IVec S16 32) : Prop :=
  (∀ a x, ((![v465] : Fin 1 → IVec S16 32) a x).toNat < S31425.size a)
instance k0_chk4.dec : ∀ (v465 : IVec S16 32), Decidable (k0_chk4 v465) := fun v465 => decidable_of_iff' _ (Iff.of_eq (k0_chk4.eq_1 v465))
theorem k0_idx4_inb : ∀ (v465 : IVec S16 32) (k0_hw4 : k0_chk4 v465), ∀ a x, ((![v465] : Fin 1 → IVec S16 32) a x).toNat < S31425.size a := fun v465 k0_hw4 => k0_hw4

def k0_chk5 (v468 : IVec S16 32) : Prop :=
  (∀ a x, ((![v468] : Fin 1 → IVec S16 32) a x).toNat < S24672.size a)
instance k0_chk5.dec : ∀ (v468 : IVec S16 32), Decidable (k0_chk5 v468) := fun v468 => decidable_of_iff' _ (Iff.of_eq (k0_chk5.eq_1 v468))
theorem k0_idx5_inb : ∀ (v468 : IVec S16 32) (k0_hw5 : k0_chk5 v468), ∀ a x, ((![v468] : Fin 1 → IVec S16 32) a x).toNat < S24672.size a := fun v468 k0_hw5 => k0_hw5

def k0_chk6 (v470 : IVec S16 32) : Prop :=
  (∀ a x, ((![v470] : Fin 1 → IVec S16 32) a x).toNat < S31425.size a)
instance k0_chk6.dec : ∀ (v470 : IVec S16 32), Decidable (k0_chk6 v470) := fun v470 => decidable_of_iff' _ (Iff.of_eq (k0_chk6.eq_1 v470))
theorem k0_idx6_inb : ∀ (v470 : IVec S16 32) (k0_hw6 : k0_chk6 v470), ∀ a x, ((![v470] : Fin 1 → IVec S16 32) a x).toNat < S31425.size a := fun v470 k0_hw6 => k0_hw6

def k0_chk7 (v473 : IVec S16 32) : Prop :=
  (∀ a x, ((![v473] : Fin 1 → IVec S16 32) a x).toNat < S24672.size a)
instance k0_chk7.dec : ∀ (v473 : IVec S16 32), Decidable (k0_chk7 v473) := fun v473 => decidable_of_iff' _ (Iff.of_eq (k0_chk7.eq_1 v473))
theorem k0_idx7_inb : ∀ (v473 : IVec S16 32) (k0_hw7 : k0_chk7 v473), ∀ a x, ((![v473] : Fin 1 → IVec S16 32) a x).toNat < S24672.size a := fun v473 k0_hw7 => k0_hw7

def k0_chk8 (v475 : IVec S16 32) : Prop :=
  (∀ a x, ((![v475] : Fin 1 → IVec S16 32) a x).toNat < S31425.size a)
instance k0_chk8.dec : ∀ (v475 : IVec S16 32), Decidable (k0_chk8 v475) := fun v475 => decidable_of_iff' _ (Iff.of_eq (k0_chk8.eq_1 v475))
theorem k0_idx8_inb : ∀ (v475 : IVec S16 32) (k0_hw8 : k0_chk8 v475), ∀ a x, ((![v475] : Fin 1 → IVec S16 32) a x).toNat < S31425.size a := fun v475 k0_hw8 => k0_hw8

def k0_chk9 (v478 : IVec S16 32) : Prop :=
  (∀ a x, ((![v478] : Fin 1 → IVec S16 32) a x).toNat < S24672.size a)
instance k0_chk9.dec : ∀ (v478 : IVec S16 32), Decidable (k0_chk9 v478) := fun v478 => decidable_of_iff' _ (Iff.of_eq (k0_chk9.eq_1 v478))
theorem k0_idx9_inb : ∀ (v478 : IVec S16 32) (k0_hw9 : k0_chk9 v478), ∀ a x, ((![v478] : Fin 1 → IVec S16 32) a x).toNat < S24672.size a := fun v478 k0_hw9 => k0_hw9
@[reducible] def k0_t6_loop : Scf.Loop 32 :=
  let c0_i32_41 : BitVec 32 := 0#32
  let c256_i32_42 : BitVec 32 := 256#32
  let v241 : BitVec 32 := Scalar.addi c0_i32_41 c256_i32_42
  let c1_i32_43 : BitVec 32 := 1#32
  ⟨c0_i32_41, v241, c1_i32_43⟩
def k0_mult5 (k0_t6 : Fin k0_t6_loop.trips) : BitVec 32 :=
  let c0_i32_41 : BitVec 32 := 0#32
  let c1_i32_43 : BitVec 32 := 1#32
  let arg18 : BitVec 32 := Scf.iv c0_i32_41 c1_i32_43 k0_t6
  let c16_i32 : BitVec 32 := 16#32
  let v453 : BitVec 32 := Scalar.muli arg18 c16_i32
  v453
def k0_off6 (k0_t6 : Fin k0_t6_loop.trips) : Fin 1 → Nat :=
  let c0_i32_41 : BitVec 32 := 0#32
  let c1_i32_43 : BitVec 32 := 1#32
  let arg18 : BitVec 32 := Scf.iv c0_i32_41 c1_i32_43 k0_t6
  let c16_i32 : BitVec 32 := 16#32
  let v453 : BitVec 32 := Scalar.muli arg18 c16_i32
  let v454 : BitVec 32 := v453
  let v455 : Index := Scalar.indexCast v454
  ![v455.toNat]
def k0_mult6 (k0_t6 : Fin k0_t6_loop.trips) : BitVec 32 :=
  let c0_i32_41 : BitVec 32 := 0#32
  let c1_i32_43 : BitVec 32 := 1#32
  let arg18 : BitVec 32 := Scf.iv c0_i32_41 c1_i32_43 k0_t6
  let c16_i32_148 : BitVec 32 := 16#32
  let v457 : BitVec 32 := Scalar.muli arg18 c16_i32_148
  v457

def k0_chk10 (v467 : IVec S16 32) : Prop :=
  (∀ a x, ((![v467] : Fin 1 → IVec S16 32) a x).toNat < S31425.size a)
instance k0_chk10.dec : ∀ (v467 : IVec S16 32), Decidable (k0_chk10 v467) := fun v467 => decidable_of_iff' _ (Iff.of_eq (k0_chk10.eq_1 v467))
theorem k0_idx10_inb : ∀ (v467 : IVec S16 32) (k0_hw10 : k0_chk10 v467), ∀ a x, ((![v467] : Fin 1 → IVec S16 32) a x).toNat < S31425.size a := fun v467 k0_hw10 => k0_hw10

def k0_chk11 (v470 : IVec S16 32) : Prop :=
  (∀ a x, ((![v470] : Fin 1 → IVec S16 32) a x).toNat < S1536.size a)
instance k0_chk11.dec : ∀ (v470 : IVec S16 32), Decidable (k0_chk11 v470) := fun v470 => decidable_of_iff' _ (Iff.of_eq (k0_chk11.eq_1 v470))
theorem k0_idx11_inb : ∀ (v470 : IVec S16 32) (k0_hw11 : k0_chk11 v470), ∀ a x, ((![v470] : Fin 1 → IVec S16 32) a x).toNat < S1536.size a := fun v470 k0_hw11 => k0_hw11

def k0_chk12 (v472 : IVec S16 32) : Prop :=
  (∀ a x, ((![v472] : Fin 1 → IVec S16 32) a x).toNat < S31425.size a)
instance k0_chk12.dec : ∀ (v472 : IVec S16 32), Decidable (k0_chk12 v472) := fun v472 => decidable_of_iff' _ (Iff.of_eq (k0_chk12.eq_1 v472))
theorem k0_idx12_inb : ∀ (v472 : IVec S16 32) (k0_hw12 : k0_chk12 v472), ∀ a x, ((![v472] : Fin 1 → IVec S16 32) a x).toNat < S31425.size a := fun v472 k0_hw12 => k0_hw12

def k0_chk13 (v475 : IVec S16 32) : Prop :=
  (∀ a x, ((![v475] : Fin 1 → IVec S16 32) a x).toNat < S1536.size a)
instance k0_chk13.dec : ∀ (v475 : IVec S16 32), Decidable (k0_chk13 v475) := fun v475 => decidable_of_iff' _ (Iff.of_eq (k0_chk13.eq_1 v475))
theorem k0_idx13_inb : ∀ (v475 : IVec S16 32) (k0_hw13 : k0_chk13 v475), ∀ a x, ((![v475] : Fin 1 → IVec S16 32) a x).toNat < S1536.size a := fun v475 k0_hw13 => k0_hw13

def k0_chk14 (v477 : IVec S16 32) : Prop :=
  (∀ a x, ((![v477] : Fin 1 → IVec S16 32) a x).toNat < S31425.size a)
instance k0_chk14.dec : ∀ (v477 : IVec S16 32), Decidable (k0_chk14 v477) := fun v477 => decidable_of_iff' _ (Iff.of_eq (k0_chk14.eq_1 v477))
theorem k0_idx14_inb : ∀ (v477 : IVec S16 32) (k0_hw14 : k0_chk14 v477), ∀ a x, ((![v477] : Fin 1 → IVec S16 32) a x).toNat < S31425.size a := fun v477 k0_hw14 => k0_hw14

def k0_chk15 (v480 : IVec S16 32) : Prop :=
  (∀ a x, ((![v480] : Fin 1 → IVec S16 32) a x).toNat < S1536.size a)
instance k0_chk15.dec : ∀ (v480 : IVec S16 32), Decidable (k0_chk15 v480) := fun v480 => decidable_of_iff' _ (Iff.of_eq (k0_chk15.eq_1 v480))
theorem k0_idx15_inb : ∀ (v480 : IVec S16 32) (k0_hw15 : k0_chk15 v480), ∀ a x, ((![v480] : Fin 1 → IVec S16 32) a x).toNat < S1536.size a := fun v480 k0_hw15 => k0_hw15
def k0_off7 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_30 : BitVec 32 := 32#32
  let v235 : BitVec 32 := Scalar.muli v1 c32_i32_30
  let c0_i32_27 : BitVec 32 := 0#32
  let c1_i32_28 : BitVec 32 := 1#32
  let arg16 : BitVec 32 := Scf.iv c0_i32_27 c1_i32_28 k0_t3
  let v236 : BitVec 32 := Scalar.addi v235 arg16
  let c0_i32_148_r4 : BitVec 32 := 0#32
  ![v236.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x10475x3_S1024x31425 : S1024x10475x3.ShapeCasts S1024x31425
  iota_S16_d0_w32_scVector : S16.Iotas .scVector 32 [0]
  h_S16 : 0 < S16.numel
  h_S1536 : 0 < S1536.numel
  inb_S1536_S16_0 : ∀ a, (![0] : Fin 1 → Nat) a + S16.size a ≤ S1536.size a
  inb_S1536_S16_96 : ∀ a, (![96] : Fin 1 → Nat) a + S16.size a ≤ S1536.size a
  inb_S1536_S16_192 : ∀ a, (![192] : Fin 1 → Nat) a + S16.size a ≤ S1536.size a
  inb_S1536_S16_288 : ∀ a, (![288] : Fin 1 → Nat) a + S16.size a ≤ S1536.size a
  inb_S1536_S16_384 : ∀ a, (![384] : Fin 1 → Nat) a + S16.size a ≤ S1536.size a
  inb_S1536_S16_480 : ∀ a, (![480] : Fin 1 → Nat) a + S16.size a ≤ S1536.size a
  inb_S1536_S16_576 : ∀ a, (![576] : Fin 1 → Nat) a + S16.size a ≤ S1536.size a
  inb_S1536_S16_672 : ∀ a, (![672] : Fin 1 → Nat) a + S16.size a ≤ S1536.size a
  inb_S1536_S16_768 : ∀ a, (![768] : Fin 1 → Nat) a + S16.size a ≤ S1536.size a
  inb_S1536_S16_864 : ∀ a, (![864] : Fin 1 → Nat) a + S16.size a ≤ S1536.size a
  inb_S1536_S16_960 : ∀ a, (![960] : Fin 1 → Nat) a + S16.size a ≤ S1536.size a
  inb_S1536_S16_1056 : ∀ a, (![1056] : Fin 1 → Nat) a + S16.size a ≤ S1536.size a
  inb_S1536_S16_1152 : ∀ a, (![1152] : Fin 1 → Nat) a + S16.size a ≤ S1536.size a
  inb_S1536_S16_1248 : ∀ a, (![1248] : Fin 1 → Nat) a + S16.size a ≤ S1536.size a
  inb_S1536_S16_1344 : ∀ a, (![1344] : Fin 1 → Nat) a + S16.size a ≤ S1536.size a
  inb_S1536_S16_1440 : ∀ a, (![1440] : Fin 1 → Nat) a + S16.size a ≤ S1536.size a
  inb_S96_S16_0 : ∀ a, (![0] : Fin 1 → Nat) a + S16.size a ≤ S96.size a
  inb_S1536_S16_16 : ∀ a, (![16] : Fin 1 → Nat) a + S16.size a ≤ S1536.size a
  inb_S1536_S16_112 : ∀ a, (![112] : Fin 1 → Nat) a + S16.size a ≤ S1536.size a
  inb_S1536_S16_208 : ∀ a, (![208] : Fin 1 → Nat) a + S16.size a ≤ S1536.size a
  inb_S1536_S16_304 : ∀ a, (![304] : Fin 1 → Nat) a + S16.size a ≤ S1536.size a
  inb_S1536_S16_400 : ∀ a, (![400] : Fin 1 → Nat) a + S16.size a ≤ S1536.size a
  inb_S1536_S16_496 : ∀ a, (![496] : Fin 1 → Nat) a + S16.size a ≤ S1536.size a
  inb_S1536_S16_592 : ∀ a, (![592] : Fin 1 → Nat) a + S16.size a ≤ S1536.size a
  inb_S1536_S16_688 : ∀ a, (![688] : Fin 1 → Nat) a + S16.size a ≤ S1536.size a
  inb_S1536_S16_784 : ∀ a, (![784] : Fin 1 → Nat) a + S16.size a ≤ S1536.size a
  inb_S1536_S16_880 : ∀ a, (![880] : Fin 1 → Nat) a + S16.size a ≤ S1536.size a
  inb_S1536_S16_976 : ∀ a, (![976] : Fin 1 → Nat) a + S16.size a ≤ S1536.size a
  inb_S1536_S16_1072 : ∀ a, (![1072] : Fin 1 → Nat) a + S16.size a ≤ S1536.size a
  inb_S1536_S16_1168 : ∀ a, (![1168] : Fin 1 → Nat) a + S16.size a ≤ S1536.size a
  inb_S1536_S16_1264 : ∀ a, (![1264] : Fin 1 → Nat) a + S16.size a ≤ S1536.size a
  inb_S1536_S16_1360 : ∀ a, (![1360] : Fin 1 → Nat) a + S16.size a ≤ S1536.size a
  inb_S1536_S16_1456 : ∀ a, (![1456] : Fin 1 → Nat) a + S16.size a ≤ S1536.size a
  inb_S96_S16_16 : ∀ a, (![16] : Fin 1 → Nat) a + S16.size a ≤ S96.size a
  inb_S1536_S16_32 : ∀ a, (![32] : Fin 1 → Nat) a + S16.size a ≤ S1536.size a
  inb_S1536_S16_128 : ∀ a, (![128] : Fin 1 → Nat) a + S16.size a ≤ S1536.size a
  inb_S1536_S16_224 : ∀ a, (![224] : Fin 1 → Nat) a + S16.size a ≤ S1536.size a
  inb_S1536_S16_320 : ∀ a, (![320] : Fin 1 → Nat) a + S16.size a ≤ S1536.size a
  inb_S1536_S16_416 : ∀ a, (![416] : Fin 1 → Nat) a + S16.size a ≤ S1536.size a
  inb_S1536_S16_512 : ∀ a, (![512] : Fin 1 → Nat) a + S16.size a ≤ S1536.size a
  inb_S1536_S16_608 : ∀ a, (![608] : Fin 1 → Nat) a + S16.size a ≤ S1536.size a
  inb_S1536_S16_704 : ∀ a, (![704] : Fin 1 → Nat) a + S16.size a ≤ S1536.size a
  inb_S1536_S16_800 : ∀ a, (![800] : Fin 1 → Nat) a + S16.size a ≤ S1536.size a
  inb_S1536_S16_896 : ∀ a, (![896] : Fin 1 → Nat) a + S16.size a ≤ S1536.size a
  inb_S1536_S16_992 : ∀ a, (![992] : Fin 1 → Nat) a + S16.size a ≤ S1536.size a
  inb_S1536_S16_1088 : ∀ a, (![1088] : Fin 1 → Nat) a + S16.size a ≤ S1536.size a
  inb_S1536_S16_1184 : ∀ a, (![1184] : Fin 1 → Nat) a + S16.size a ≤ S1536.size a
  inb_S1536_S16_1280 : ∀ a, (![1280] : Fin 1 → Nat) a + S16.size a ≤ S1536.size a
  inb_S1536_S16_1376 : ∀ a, (![1376] : Fin 1 → Nat) a + S16.size a ≤ S1536.size a
  inb_S1536_S16_1472 : ∀ a, (![1472] : Fin 1 → Nat) a + S16.size a ≤ S1536.size a
  inb_S96_S16_32 : ∀ a, (![32] : Fin 1 → Nat) a + S16.size a ≤ S96.size a
  inb_S1536_S16_48 : ∀ a, (![48] : Fin 1 → Nat) a + S16.size a ≤ S1536.size a
  inb_S1536_S16_144 : ∀ a, (![144] : Fin 1 → Nat) a + S16.size a ≤ S1536.size a
  inb_S1536_S16_240 : ∀ a, (![240] : Fin 1 → Nat) a + S16.size a ≤ S1536.size a
  inb_S1536_S16_336 : ∀ a, (![336] : Fin 1 → Nat) a + S16.size a ≤ S1536.size a
  inb_S1536_S16_432 : ∀ a, (![432] : Fin 1 → Nat) a + S16.size a ≤ S1536.size a
  inb_S1536_S16_528 : ∀ a, (![528] : Fin 1 → Nat) a + S16.size a ≤ S1536.size a
  inb_S1536_S16_624 : ∀ a, (![624] : Fin 1 → Nat) a + S16.size a ≤ S1536.size a
  inb_S1536_S16_720 : ∀ a, (![720] : Fin 1 → Nat) a + S16.size a ≤ S1536.size a
  inb_S1536_S16_816 : ∀ a, (![816] : Fin 1 → Nat) a + S16.size a ≤ S1536.size a
  inb_S1536_S16_912 : ∀ a, (![912] : Fin 1 → Nat) a + S16.size a ≤ S1536.size a
  inb_S1536_S16_1008 : ∀ a, (![1008] : Fin 1 → Nat) a + S16.size a ≤ S1536.size a
  inb_S1536_S16_1104 : ∀ a, (![1104] : Fin 1 → Nat) a + S16.size a ≤ S1536.size a
  inb_S1536_S16_1200 : ∀ a, (![1200] : Fin 1 → Nat) a + S16.size a ≤ S1536.size a
  inb_S1536_S16_1296 : ∀ a, (![1296] : Fin 1 → Nat) a + S16.size a ≤ S1536.size a
  inb_S1536_S16_1392 : ∀ a, (![1392] : Fin 1 → Nat) a + S16.size a ≤ S1536.size a
  inb_S1536_S16_1488 : ∀ a, (![1488] : Fin 1 → Nat) a + S16.size a ≤ S1536.size a
  inb_S96_S16_48 : ∀ a, (![48] : Fin 1 → Nat) a + S16.size a ≤ S96.size a
  inb_S1536_S16_64 : ∀ a, (![64] : Fin 1 → Nat) a + S16.size a ≤ S1536.size a
  inb_S1536_S16_160 : ∀ a, (![160] : Fin 1 → Nat) a + S16.size a ≤ S1536.size a
  inb_S1536_S16_256 : ∀ a, (![256] : Fin 1 → Nat) a + S16.size a ≤ S1536.size a
  inb_S1536_S16_352 : ∀ a, (![352] : Fin 1 → Nat) a + S16.size a ≤ S1536.size a
  inb_S1536_S16_448 : ∀ a, (![448] : Fin 1 → Nat) a + S16.size a ≤ S1536.size a
  inb_S1536_S16_544 : ∀ a, (![544] : Fin 1 → Nat) a + S16.size a ≤ S1536.size a
  inb_S1536_S16_640 : ∀ a, (![640] : Fin 1 → Nat) a + S16.size a ≤ S1536.size a
  inb_S1536_S16_736 : ∀ a, (![736] : Fin 1 → Nat) a + S16.size a ≤ S1536.size a
  inb_S1536_S16_832 : ∀ a, (![832] : Fin 1 → Nat) a + S16.size a ≤ S1536.size a
  inb_S1536_S16_928 : ∀ a, (![928] : Fin 1 → Nat) a + S16.size a ≤ S1536.size a
  inb_S1536_S16_1024 : ∀ a, (![1024] : Fin 1 → Nat) a + S16.size a ≤ S1536.size a
  inb_S1536_S16_1120 : ∀ a, (![1120] : Fin 1 → Nat) a + S16.size a ≤ S1536.size a
  inb_S1536_S16_1216 : ∀ a, (![1216] : Fin 1 → Nat) a + S16.size a ≤ S1536.size a
  inb_S1536_S16_1312 : ∀ a, (![1312] : Fin 1 → Nat) a + S16.size a ≤ S1536.size a
  inb_S1536_S16_1408 : ∀ a, (![1408] : Fin 1 → Nat) a + S16.size a ≤ S1536.size a
  inb_S1536_S16_1504 : ∀ a, (![1504] : Fin 1 → Nat) a + S16.size a ≤ S1536.size a
  inb_S96_S16_64 : ∀ a, (![64] : Fin 1 → Nat) a + S16.size a ≤ S96.size a
  inb_S1536_S16_80 : ∀ a, (![80] : Fin 1 → Nat) a + S16.size a ≤ S1536.size a
  inb_S1536_S16_176 : ∀ a, (![176] : Fin 1 → Nat) a + S16.size a ≤ S1536.size a
  inb_S1536_S16_272 : ∀ a, (![272] : Fin 1 → Nat) a + S16.size a ≤ S1536.size a
  inb_S1536_S16_368 : ∀ a, (![368] : Fin 1 → Nat) a + S16.size a ≤ S1536.size a
  inb_S1536_S16_464 : ∀ a, (![464] : Fin 1 → Nat) a + S16.size a ≤ S1536.size a
  inb_S1536_S16_560 : ∀ a, (![560] : Fin 1 → Nat) a + S16.size a ≤ S1536.size a
  inb_S1536_S16_656 : ∀ a, (![656] : Fin 1 → Nat) a + S16.size a ≤ S1536.size a
  inb_S1536_S16_752 : ∀ a, (![752] : Fin 1 → Nat) a + S16.size a ≤ S1536.size a
  inb_S1536_S16_848 : ∀ a, (![848] : Fin 1 → Nat) a + S16.size a ≤ S1536.size a
  inb_S1536_S16_944 : ∀ a, (![944] : Fin 1 → Nat) a + S16.size a ≤ S1536.size a
  inb_S1536_S16_1040 : ∀ a, (![1040] : Fin 1 → Nat) a + S16.size a ≤ S1536.size a
  inb_S1536_S16_1136 : ∀ a, (![1136] : Fin 1 → Nat) a + S16.size a ≤ S1536.size a
  inb_S1536_S16_1232 : ∀ a, (![1232] : Fin 1 → Nat) a + S16.size a ≤ S1536.size a
  inb_S1536_S16_1328 : ∀ a, (![1328] : Fin 1 → Nat) a + S16.size a ≤ S1536.size a
  inb_S1536_S16_1424 : ∀ a, (![1424] : Fin 1 → Nat) a + S16.size a ≤ S1536.size a
  inb_S1536_S16_1520 : ∀ a, (![1520] : Fin 1 → Nat) a + S16.size a ≤ S1536.size a
  inb_S96_S16_80 : ∀ a, (![80] : Fin 1 → Nat) a + S16.size a ≤ S96.size a
  squeezes_S1x31425_S31425 : S1x31425.Squeezes S31425
  h_S31425 : 0 < S31425.numel
  h_S24672 : 0 < S24672.numel
  inb_S24672_S16_24576 : ∀ a, (![24576] : Fin 1 → Nat) a + S16.size a ≤ S24672.size a
  inb_S24672_S16_24592 : ∀ a, (![24592] : Fin 1 → Nat) a + S16.size a ≤ S24672.size a
  inb_S24672_S16_24608 : ∀ a, (![24608] : Fin 1 → Nat) a + S16.size a ≤ S24672.size a
  inb_S24672_S16_24624 : ∀ a, (![24624] : Fin 1 → Nat) a + S16.size a ≤ S24672.size a
  inb_S24672_S16_24640 : ∀ a, (![24640] : Fin 1 → Nat) a + S16.size a ≤ S24672.size a
  inb_S24672_S16_24656 : ∀ a, (![24656] : Fin 1 → Nat) a + S16.size a ≤ S24672.size a
  squeezes_S1x24672_S24672 : S1x24672.Squeezes S24672
  shapeCasts_S1024x24672_S1024x8224x3 : S1024x24672.ShapeCasts S1024x8224x3
  hcc0_scratch7 : 0 + S_.numel ≤ 7
  hcc0_scratch8 : 1 + S_.numel ≤ 7
  hcc0_scoped0 : 2 + S_.numel ≤ 7
  hcc0_scoped1 : 3 + S_.numel ≤ 7
  hcc0_scoped2 : 4 + S_.numel ≤ 7
  hcc0_scoped3 : 5 + S_.numel ≤ 7
  hcc0_scoped4 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16.size a ≤ S1536.size a
  k0_t2_ok : k0_t2_loop.OK
  k0_mult2_dvd : ∀ k0_t2 : Fin k0_t2_loop.trips, 16 ∣ (k0_mult2 k0_t2).toNat
  k0_off2_inb : ∀ k0_t2 : Fin k0_t2_loop.trips, ∀ a, (k0_off2 k0_t2) a + S16.size a ≤ S4096.size a
  k0_t3_ok : k0_t3_loop.OK
  k0_off3_inb : ∀ (i : grid0.Coords) (k0_t3 : Fin k0_t3_loop.trips), ∀ a, (k0_off3 i k0_t3) a + S1x31425.size a ≤ S1024x31425.size a
  k0_t4_ok : k0_t4_loop.OK
  k0_mult3_dvd : ∀ k0_t4 : Fin k0_t4_loop.trips, 16 ∣ (k0_mult3 k0_t4).toNat
  k0_off4_inb : ∀ k0_t4 : Fin k0_t4_loop.trips, ∀ a, (k0_off4 k0_t4) a + S16.size a ≤ S1536.size a
  k0_t5_ok : k0_t5_loop.OK
  k0_mult4_dvd : ∀ k0_t5 : Fin k0_t5_loop.trips, 16 ∣ (k0_mult4 k0_t5).toNat
  k0_off5_inb : ∀ k0_t5 : Fin k0_t5_loop.trips, ∀ a, (k0_off5 k0_t5) a + S16.size a ≤ S8192.size a
  k0_t6_ok : k0_t6_loop.OK
  k0_mult5_dvd : ∀ k0_t6 : Fin k0_t6_loop.trips, 16 ∣ (k0_mult5 k0_t6).toNat
  k0_off6_inb : ∀ k0_t6 : Fin k0_t6_loop.trips, ∀ a, (k0_off6 k0_t6) a + S16.size a ≤ S4096.size a
  k0_mult6_dvd : ∀ k0_t6 : Fin k0_t6_loop.trips, 16 ∣ (k0_mult6 k0_t6).toNat
  k0_off7_inb : ∀ (i : grid0.Coords) (k0_t3 : Fin k0_t3_loop.trips), ∀ a, (k0_off7 i k0_t3) a + S1x24672.size a ≤ S1024x24672.size a

variable [Facts₀]

abbrev cc0_scratch7 : DmaSems sig S_ := SemArray.consecutive 0 S_ hcc0_scratch7
abbrev cc0_scratch8 : DmaSems sig S_ := SemArray.consecutive 1 S_ hcc0_scratch8
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4

class Facts : Prop extends Facts₀ where

variable [Facts]
-- ==== ReferenceIdeal.lean ====
abbrev S1024x10475x3 : Shape := ⟨3, ![1024, 10475, 3]⟩
abbrev S8192 : Shape := ⟨1, ![8192]⟩
abbrev S4096 : Shape := ⟨1, ![4096]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1024x8192x3 : Shape := ⟨3, ![1024, 8192, 3]⟩
abbrev S4096x1 : Shape := ⟨2, ![4096, 1]⟩
abbrev S1024x4096x3 : Shape := ⟨3, ![1024, 4096, 3]⟩
abbrev S32x3 : Shape := ⟨2, ![32, 3]⟩
abbrev S1024x32x3 : Shape := ⟨3, ![1024, 32, 3]⟩
abbrev S32 : Shape := ⟨1, ![32]⟩
abbrev S1x32x1 : Shape := ⟨3, ![1, 32, 1]⟩
abbrev S1024x8224x3 : Shape := ⟨3, ![1024, 8224, 3]⟩

abbrev nBuf : Space → Nat
  | .hbm => 68
  | .vmem => 0
  | .smem => 0
  | _ => 0

abbrev bufTy : (tb : Table) → Fin (tcTables nBuf tb) → BufTy
  | .hbm, ⟨0, _⟩ => ⟨S1024x10475x3, .f32⟩
  | .hbm, ⟨1, _⟩ => ⟨S8192, .i32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S1, .i32⟩
  | .hbm, ⟨13, _⟩ => ⟨S_, .i32⟩
  | .hbm, ⟨14, _⟩ => ⟨S8192x1, .i32⟩
  | .hbm, ⟨15, _⟩ => ⟨S8192x1, .i1⟩
  | .hbm, ⟨16, _⟩ => ⟨S1x1, .i32⟩
  | .hbm, ⟨17, _⟩ => ⟨S8192x1, .i32⟩
  | .hbm, ⟨18, _⟩ => ⟨S8192x1, .i1⟩
  | .hbm, ⟨19, _⟩ => ⟨S8192x1, .i1⟩
  | .hbm, ⟨20, _⟩ => ⟨S_, .i1⟩
  | .hbm, ⟨21, _⟩ => ⟨S8192, .i1⟩
  | .hbm, ⟨22, _⟩ => ⟨S1024x8192x3, .f32⟩
  | .hbm, ⟨23, _⟩ => ⟨S1024x8192x3, .i1⟩
  | .hbm, ⟨24, _⟩ => ⟨S_, .f32⟩
  | .hbm, ⟨25, _⟩ => ⟨S1024x8192x3, .f32⟩
  | .hbm, ⟨26, _⟩ => ⟨S1024x8192x3, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S1x1, .i32⟩
  | .hbm, ⟨40, _⟩ => ⟨S4096x1, .i32⟩
  | .hbm, ⟨41, _⟩ => ⟨S4096x1, .i1⟩
  | .hbm, ⟨42, _⟩ => ⟨S4096x1, .i1⟩
  | .hbm, ⟨43, _⟩ => ⟨S_, .i1⟩
  | .hbm, ⟨44, _⟩ => ⟨S4096, .i1⟩
  | .hbm, ⟨45, _⟩ => ⟨S1024x4096x3, .f32⟩
  | .hbm, ⟨46, _⟩ => ⟨S1024x4096x3, .i1⟩
  | .hbm, ⟨47, _⟩ => ⟨S_, .f32⟩
  | .hbm, ⟨48, _⟩ => ⟨S1024x4096x3, .f32⟩
  | .hbm, ⟨49, _⟩ => ⟨S1024x4096x3, .f32⟩
  | .hbm, ⟨50, _⟩ => ⟨S_, .f32⟩
  | .hbm, ⟨51, _⟩ => ⟨S32x3, .f32⟩
  | .hbm, ⟨52, _⟩ => ⟨S4096x1, .i32⟩
  | .hbm, ⟨53, _⟩ => ⟨S1024x32x3, .f32⟩
  | .hbm, ⟨54, _⟩ => ⟨S1024x32x3, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S32, .f32⟩
  | .hbm, ⟨59, _⟩ => ⟨S4096x1, .i32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S1x32x1, .f32⟩
  | .hbm, ⟨65, _⟩ => ⟨S1024x32x3, .f32⟩
  | .hbm, ⟨66, _⟩ => ⟨S1024x32x3, .f32⟩
  | .hbm, ⟨67, _⟩ => ⟨S1024x8224x3, .f32⟩
  | _, _ => ⟨S1024x10475x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_cst : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_cst_0 : Ref sig .tc := ⟨.hbm, 55, rfl⟩
abbrev main_v6 : Ref sig .tc := ⟨.hbm, 56, rfl⟩
abbrev main_cst_1 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_cst_2 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S1024x8192x3_1 : S8192.BroadcastsInDim S1024x8192x3 (![1] : Fin 1 → Fin S1024x8192x3.rank)
  bcast_S_S1024x8192x3 : S_.BroadcastsInDim S1024x8192x3 (![] : Fin 0 → Fin S1024x8192x3.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S1024x4096x3_1 : S4096.BroadcastsInDim S1024x4096x3 (![1] : Fin 1 → Fin S1024x4096x3.rank)
  bcast_S_S1024x4096x3 : S_.BroadcastsInDim S1024x4096x3 (![] : Fin 0 → Fin S1024x4096x3.rank)
  bcast_S_S32x3 : S_.BroadcastsInDim S32x3 (![] : Fin 0 → Fin S32x3.rank)
  bcast_S32x3_S1024x32x3_1_2 : S32x3.BroadcastsInDim S1024x32x3 (![1, 2] : Fin 2 → Fin S1024x32x3.rank)
  bcast_S_S32 : S_.BroadcastsInDim S32 (![] : Fin 0 → Fin S32.rank)
  bcast_S32_S1x32x1_1 : S32.BroadcastsInDim S1x32x1 (![1] : Fin 1 → Fin S1x32x1.rank)
  bcast_S1x32x1_S1024x32x3_0_1_2 : S1x32x1.BroadcastsInDim S1024x32x3 (![0, 1, 2] : Fin 3 → Fin S1024x32x3.rank)
  concatenates_S1024x8192x3_S1024x32x3_S1024x8224x3_d1 : Shape.Concatenates [S1024x8192x3, S1024x32x3] S1024x8224x3 1
  gather_S1024x10475x3_S8192x1_S1024x8192x3_02_1_n_n_1_1_102413_wf : GatherDims.WF S1024x10475x3 S8192x1 S1024x8192x3 [0, 2] [1] [] [1] [] 1 ![1024, 1, 3]
  gather_S1024x10475x3_S4096x1_S1024x4096x3_02_1_n_n_1_1_102413_wf : GatherDims.WF S1024x10475x3 S4096x1 S1024x4096x3 [0, 2] [1] [] [1] [] 1 ![1024, 1, 3]
  scatter_S1024x32x3_S4096x1_S1024x4096x3_02_1_1_1_wf : ScatterDims.WF S1024x32x3 S4096x1 S1024x4096x3 [0, 2] [1] [1] 1
  scatter_S32_S4096x1_S4096_n_0_0_1_wf : ScatterDims.WF S32 S4096x1 S4096 [] [0] [0] 1

variable [Facts₀]

def gather_S1024x10475x3_S8192x1_S1024x8192x3_02_1_n_n_1_1_102413 : GatherDims S1024x10475x3 S8192x1 S1024x8192x3 where
  offsetDims := [0, 2]
  collapsedSliceDims := [1]
  operandBatchingDims := []
  startIndicesBatchingDims := []
  startIndexMap := [1]
  indexVectorDim := 1
  sliceSizes := ![1024, 1, 3]
  wf := gather_S1024x10475x3_S8192x1_S1024x8192x3_02_1_n_n_1_1_102413_wf
def gather_S1024x10475x3_S4096x1_S1024x4096x3_02_1_n_n_1_1_102413 : GatherDims S1024x10475x3 S4096x1 S1024x4096x3 where
  offsetDims := [0, 2]
  collapsedSliceDims := [1]
  operandBatchingDims := []
  startIndicesBatchingDims := []
  startIndexMap := [1]
  indexVectorDim := 1
  sliceSizes := ![1024, 1, 3]
  wf := gather_S1024x10475x3_S4096x1_S1024x4096x3_02_1_n_n_1_1_102413_wf
def scatter_S1024x32x3_S4096x1_S1024x4096x3_02_1_1_1 : ScatterDims S1024x32x3 S4096x1 S1024x4096x3 where
  updateWindowDims := [0, 2]
  insertedWindowDims := [1]
  scatterDimsToOperandDims := [1]
  indexVectorDim := 1
  wf := scatter_S1024x32x3_S4096x1_S1024x4096x3_02_1_1_1_wf
def scatter_S32_S4096x1_S4096_n_0_0_1 : ScatterDims S32 S4096x1 S4096 where
  updateWindowDims := []
  insertedWindowDims := [0]
  scatterDimsToOperandDims := [0]
  indexVectorDim := 1
  wf := scatter_S32_S4096x1_S4096_n_0_0_1_wf

class Facts : Prop extends Facts₀ where

variable [Facts]
-- ==== Proof.RefTerm.lean ====
/-
  The reference program's result as ONE pure term of its four argument arrays, stage by stage.

  Each of the two "take" functions wraps a negative vertex number by adding 10475, gathers the vertex rows at the
  (clamped) numbers, and replaces a row whose wrapped number is outside [0, 10474] by NaN; the band sums and the band
  counts are accumulating scatters into arrays of zeros; the centroids are the sums divided by max(count, 1); the result
  is the gathered segment rows followed by the 32 centroid rows.
-/
import proofs.«203378_g9921374454198_cont_sun_m_1167_43_alg».proof.Proof.Gen.ReferenceIdeal
import Idealize.ShloMosaic.Lib.ValueIdx

noncomputable section

namespace Cert.Proof.Ref

open Cert.ReferenceIdeal Cert.ReferenceIdeal.Gen Idealize.ShloMosaic

variable {F : FTy → Type} [FloatOps F]

/-! ## The take over 8192 vertex numbers -/

/-- A negative vertex number plus 10475, any other unchanged. -/
def wrap8 (i : IVec S8192 32) : IVec S8192 32 :=
  select (cmpi .slt i (broadcastInDim S8192 ![] bcast_S_S8192 (constantI S_ 32 0#32)))
    (addi i (broadcastInDim S8192 ![] bcast_S_S8192 (constantI S_ 32 10475#32))) i

/-- The wrapped numbers as a column of start indices. -/
def idx8 (i : IVec S8192 32) : IVec S8192x1 32 :=
  broadcastInDim S8192x1 ![0] bcast_S8192_S8192x1_0 (wrap8 i)

/-- Per vertex number: is the wrapped number in [0, 10474]. -/
def mask8 (i : IVec S8192 32) : IVec S8192 1 :=
  Host.reduce IntOp.andi
    (andi (cmpi .sge (idx8 i) (broadcastInDim S8192x1 ![] bcast_S_S8192x1 (constantI S_ 32 0#32)))
      (cmpi .sle (idx8 i) (broadcastInDim S8192x1 ![0, 1] bcast_S1x1_S8192x1_0_1
        (broadcastInDim S1x1 ![1] bcast_S1_S1x1_1 (constantI S1 32 10474#32)))))
    (constantI S_ 1 1#1) reducesTo_S8192x1_S8192_d1 h_S_

/-- The gathered vertex rows, NaN where the number is out of range. -/
def take8 (x : FVec F S1024x10475x3 .f32) (i : IVec S8192 32) : FVec F S1024x8192x3 .f32 :=
  select (broadcastInDim S1024x8192x3 ![1] bcast_S8192_S1024x8192x3_1 (mask8 i))
    (Host.gather gather_S1024x10475x3_S8192x1_S1024x8192x3_02_1_n_n_1_1_102413 x (idx8 i))
    (broadcastInDim S1024x8192x3 ![] bcast_S_S1024x8192x3 (constant S_ .f32 0x7FC00000#32))

/-! ## The take over 4096 vertex numbers -/

/-- A negative vertex number plus 10475, any other unchanged. -/
def wrap4 (i : IVec S4096 32) : IVec S4096 32 :=
  select (cmpi .slt i (broadcastInDim S4096 ![] bcast_S_S4096 (constantI S_ 32 0#32)))
    (addi i (broadcastInDim S4096 ![] bcast_S_S4096 (constantI S_ 32 10475#32))) i

/-- The wrapped numbers as a column of start indices. -/
def idx4 (i : IVec S4096 32) : IVec S4096x1 32 :=
  broadcastInDim S4096x1 ![0] bcast_S4096_S4096x1_0 (wrap4 i)

/-- Per vertex number: is the wrapped number in [0, 10474]. -/
def mask4 (i : IVec S4096 32) : IVec S4096 1 :=
  Host.reduce IntOp.andi
    (andi (cmpi .sge (idx4 i) (broadcastInDim S4096x1 ![] bcast_S_S4096x1 (constantI S_ 32 0#32)))
      (cmpi .sle (idx4 i) (broadcastInDim S4096x1 ![0, 1] bcast_S1x1_S4096x1_0_1
        (broadcastInDim S1x1 ![1] bcast_S1_S1x1_1 (constantI S1 32 10474#32)))))
    (constantI S_ 1 1#1) reducesTo_S4096x1_S4096_d1 h_S_

/-- The gathered vertex rows, NaN where the number is out of range. -/
def take4 (x : FVec F S1024x10475x3 .f32) (i : IVec S4096 32) : FVec F S1024x4096x3 .f32 :=
  select (broadcastInDim S1024x4096x3 ![1] bcast_S4096_S1024x4096x3_1 (mask4 i))
    (Host.gather gather_S1024x10475x3_S4096x1_S1024x4096x3_02_1_n_n_1_1_102413 x (idx4 i))
    (broadcastInDim S1024x4096x3 ![] bcast_S_S1024x4096x3 (constant S_ .f32 0x7FC00000#32))

/-! ## The band sums, the band counts, the centroids, the result -/

/-- The band numbers as a column of scatter indices. -/
def bidCol (bid : IVec S4096 32) : IVec S4096x1 32 :=
  broadcastInDim S4096x1 ![0] bcast_S4096_S4096x1_0 bid

/-- Per batch, band and coordinate: the rows `u` accumulated by band, from zero. -/
def sumsOf (u : FVec F S1024x4096x3 .f32) (bid : IVec S4096 32) : FVec F S1024x32x3 .f32 :=
  Host.scatterAdd scatter_S1024x32x3_S4096x1_S1024x4096x3_02_1_1_1
    (broadcastInDim S1024x32x3 ![1, 2] bcast_S32x3_S1024x32x3_1_2
      (broadcastInDim S32x3 ![] bcast_S_S32x3 (constant S_ .f32 0x00000000#32)))
    (bidCol bid) u

/-- Per band: the accumulated ones of the band's pairs, from zero. -/
def counts (bid : IVec S4096 32) : FVec F S32 .f32 :=
  Host.scatterAdd scatter_S32_S4096x1_S4096_n_0_0_1
    (broadcastInDim S32 ![] bcast_S_S32 (constant S_ .f32 0x00000000#32))
    (bidCol bid)
    (broadcastInDim S4096 ![] bcast_S_S4096 (constant S_ .f32 0x3F800000#32))

/-- max(count, 1) spread over batches and coordinates. -/
def denom (bid : IVec S4096 32) : FVec F S1024x32x3 .f32 :=
  broadcastInDim S1024x32x3 ![0, 1, 2] bcast_S1x32x1_S1024x32x3_0_1_2
    (broadcastInDim S1x32x1 ![1] bcast_S32_S1x32x1_1
      (maximumf (counts (F := F) bid) (broadcastInDim S32 ![] bcast_S_S32 (constant S_ .f32 0x3F800000#32))))

/-- The centroids of the rows `u`. -/
def meansOf (u : FVec F S1024x4096x3 .f32) (bid : IVec S4096 32) : FVec F S1024x32x3 .f32 :=
  Host.divf (sumsOf u bid) (denom (F := F) bid)

/-- The rows `a`, then the centroid rows of `u`. -/
def outOf (a : FVec F S1024x8192x3 .f32) (u : FVec F S1024x4096x3 .f32) (bid : IVec S4096 32) : FVec F S1024x8224x3 .f32 :=
  concatenate S1024x8224x3 1 [⟨S1024x8192x3, a⟩, ⟨S1024x32x3, meansOf u bid⟩]
    concatenates_S1024x8192x3_S1024x32x3_S1024x8224x3_d1

/-- The result: the gathered segment rows, then the centroids of the gathered band rows. -/
def out (x : FVec F S1024x10475x3 .f32) (seg : IVec S8192 32) (bv bid : IVec S4096 32) : FVec F S1024x8224x3 .f32 :=
  outOf (take8 x seg) (take4 x bv) bid

/-! ## The numbers in range -/

open Idealize.ShloMosaic.ValueIdx in
/-- Every segment vertex number and every band vertex number in [0, 10474], every band number in [0, 31], read signed. -/
structure InRange (seg : IVec S8192 32) (bv bid : IVec S4096 32) : Prop where
  seg : ∀ e : Fin 8192, 0 ≤ (seg (ix1 e)).toInt ∧ (seg (ix1 e)).toInt ≤ 10474
  bv : ∀ e : Fin 4096, 0 ≤ (bv (ix1 e)).toInt ∧ (bv (ix1 e)).toInt ≤ 10474
  bid : ∀ e : Fin 4096, 0 ≤ (bid (ix1 e)).toInt ∧ (bid (ix1 e)).toInt ≤ 31

end Cert.Proof.Ref

end
-- ==== Proof.RefOps.lean ====
/-
  The reference program's @main as a straight line of 64 host operations: the two take functions (23 operations each: the
  constants and their broadcasts, the negative-index wrap with its nested select, the range mask, the gather, the
  select against NaN) unfolded at their call sites over the calls' own buffers, then @main's own 18 operations.
-/
import proofs.«203378_g9921374454198_cont_sun_m_1167_43_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The first take's 23 operations (over 8192 vertex numbers), into its call's own buffers. -/
abbrev takeOps0 : List (HloOp τ sig (Elt F)) :=
  [
    TRef.nullary main_call0.c (constantI S_ 32 0#32),
    TRef.unary main_call0.c main_call0.v0 (broadcastInDim S8192 ![] bcast_S_S8192),
    TRef.binary (.of main_arg1) main_call0.v0 main_call0.v1 (cmpi .slt),
    TRef.nullary main_call0.c_0 (constantI S_ 32 10475#32),
    TRef.unary main_call0.c_0 main_call0.v2 (broadcastInDim S8192 ![] bcast_S_S8192),
    TRef.binary (.of main_arg1) main_call0.v2 main_call0.v3 addi,
    TRef.ternary main_call0.v1 main_call0.v3 (.of main_arg1) main_call0.call0.v0 select,
    TRef.unary main_call0.call0.v0 main_call0.v5 (broadcastInDim S8192x1 ![0] bcast_S8192_S8192x1_0),
    TRef.nullary main_call0.c_1 (constantI S1 32 10474#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg0) main_call0.v5 main_call0.v13 (fun x i => Host.gather gather_S1024x10475x3_S8192x1_S1024x8192x3_02_1_n_n_1_1_102413 x i),
    TRef.unary main_call0.v12 main_call0.v14 (broadcastInDim S1024x8192x3 ![1] bcast_S8192_S1024x8192x3_1),
    TRef.nullary main_call0.cst (constant S_ .f32 0x7FC00000#32),
    TRef.unary main_call0.cst main_call0.v15 (broadcastInDim S1024x8192x3 ![] bcast_S_S1024x8192x3),
    TRef.ternary main_call0.v14 main_call0.v13 main_call0.v15 main_call0.v16 select ]

/-- The second take's 23 operations (over 4096 vertex numbers), into its call's own buffers. -/
abbrev takeOps1 : List (HloOp τ sig (Elt F)) :=
  [
    TRef.nullary main_call1.c (constantI S_ 32 0#32),
    TRef.unary main_call1.c main_call1.v0 (broadcastInDim S4096 ![] bcast_S_S4096),
    TRef.binary (.of main_arg2) main_call1.v0 main_call1.v1 (cmpi .slt),
    TRef.nullary main_call1.c_0 (constantI S_ 32 10475#32),
    TRef.unary main_call1.c_0 main_call1.v2 (broadcastInDim S4096 ![] bcast_S_S4096),
    TRef.binary (.of main_arg2) main_call1.v2 main_call1.v3 addi,
    TRef.ternary main_call1.v1 main_call1.v3 (.of main_arg2) main_call1.call0.v0 select,
    TRef.unary main_call1.call0.v0 main_call1.v5 (broadcastInDim S4096x1 ![0] bcast_S4096_S4096x1_0),
    TRef.nullary main_call1.c_1 (constantI S1 32 10474#32),
    TRef.nullary main_call1.c_2 (constantI S_ 32 0#32),
    TRef.unary main_call1.c_2 main_call1.v6 (broadcastInDim S4096x1 ![] bcast_S_S4096x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4096x1 ![0, 1] bcast_S1x1_S4096x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x1_S4096_d1 h_S_),
    TRef.binary (.of main_arg0) main_call1.v5 main_call1.v13 (fun x i => Host.gather gather_S1024x10475x3_S4096x1_S1024x4096x3_02_1_n_n_1_1_102413 x i),
    TRef.unary main_call1.v12 main_call1.v14 (broadcastInDim S1024x4096x3 ![1] bcast_S4096_S1024x4096x3_1),
    TRef.nullary main_call1.cst (constant S_ .f32 0x7FC00000#32),
    TRef.unary main_call1.cst main_call1.v15 (broadcastInDim S1024x4096x3 ![] bcast_S_S1024x4096x3),
    TRef.ternary main_call1.v14 main_call1.v13 main_call1.v15 main_call1.v16 select ]

/-- @main's own 18 operations after the two calls. -/
abbrev mainOps : List (HloOp τ sig (Elt F)) :=
  [
    nullary main_cst (constant S_ .f32 0x00000000#32),
    unary main_cst main_v2 (broadcastInDim S32x3 ![] bcast_S_S32x3 : (⟨S_, .f32⟩ : BufTy).Contents (Elt F) → (⟨S32x3, .f32⟩ : BufTy).Contents (Elt F)),
    unary main_arg3 main_v3 (broadcastInDim S4096x1 ![0] bcast_S4096_S4096x1_0 : (⟨S4096, .i32⟩ : BufTy).Contents (Elt F) → (⟨S4096x1, .i32⟩ : BufTy).Contents (Elt F)),
    unary main_v2 main_v4 (broadcastInDim S1024x32x3 ![1, 2] bcast_S32x3_S1024x32x3_1_2 : (⟨S32x3, .f32⟩ : BufTy).Contents (Elt F) → (⟨S1024x32x3, .f32⟩ : BufTy).Contents (Elt F)),
    ternary main_v4 main_v3 main_v1 main_v5 ((fun x i u => Host.scatterAdd scatter_S1024x32x3_S4096x1_S1024x4096x3_02_1_1_1 x i u) : (⟨S1024x32x3, .f32⟩ : BufTy).Contents (Elt F) → (⟨S4096x1, .i32⟩ : BufTy).Contents (Elt F) → (⟨S1024x4096x3, .f32⟩ : BufTy).Contents (Elt F) → (⟨S1024x32x3, .f32⟩ : BufTy).Contents (Elt F)),
    nullary main_cst_0 (constant S_ .f32 0x3F800000#32),
    unary main_cst_0 main_v6 (broadcastInDim S4096 ![] bcast_S_S4096 : (⟨S_, .f32⟩ : BufTy).Contents (Elt F) → (⟨S4096, .f32⟩ : BufTy).Contents (Elt F)),
    nullary main_cst_1 (constant S_ .f32 0x00000000#32),
    unary main_cst_1 main_v7 (broadcastInDim S32 ![] bcast_S_S32 : (⟨S_, .f32⟩ : BufTy).Contents (Elt F) → (⟨S32, .f32⟩ : BufTy).Contents (Elt F)),
    unary main_arg3 main_v8 (broadcastInDim S4096x1 ![0] bcast_S4096_S4096x1_0 : (⟨S4096, .i32⟩ : BufTy).Contents (Elt F) → (⟨S4096x1, .i32⟩ : BufTy).Contents (Elt F)),
    ternary main_v7 main_v8 main_v6 main_v9 ((fun x i u => Host.scatterAdd scatter_S32_S4096x1_S4096_n_0_0_1 x i u) : (⟨S32, .f32⟩ : BufTy).Contents (Elt F) → (⟨S4096x1, .i32⟩ : BufTy).Contents (Elt F) → (⟨S4096, .f32⟩ : BufTy).Contents (Elt F) → (⟨S32, .f32⟩ : BufTy).Contents (Elt F)),
    nullary main_cst_2 (constant S_ .f32 0x3F800000#32),
    unary main_cst_2 main_v10 (broadcastInDim S32 ![] bcast_S_S32 : (⟨S_, .f32⟩ : BufTy).Contents (Elt F) → (⟨S32, .f32⟩ : BufTy).Contents (Elt F)),
    binary main_v9 main_v10 main_v11 (maximumf : (⟨S32, .f32⟩ : BufTy).Contents (Elt F) → (⟨S32, .f32⟩ : BufTy).Contents (Elt F) → (⟨S32, .f32⟩ : BufTy).Contents (Elt F)),
    unary main_v11 main_v12 (broadcastInDim S1x32x1 ![1] bcast_S32_S1x32x1_1 : (⟨S32, .f32⟩ : BufTy).Contents (Elt F) → (⟨S1x32x1, .f32⟩ : BufTy).Contents (Elt F)),
    unary main_v12 main_v13 (broadcastInDim S1024x32x3 ![0, 1, 2] bcast_S1x32x1_S1024x32x3_0_1_2 : (⟨S1x32x1, .f32⟩ : BufTy).Contents (Elt F) → (⟨S1024x32x3, .f32⟩ : BufTy).Contents (Elt F)),
    binary main_v5 main_v13 main_v14 (Host.divf : (⟨S1024x32x3, .f32⟩ : BufTy).Contents (Elt F) → (⟨S1024x32x3, .f32⟩ : BufTy).Contents (Elt F) → (⟨S1024x32x3, .f32⟩ : BufTy).Contents (Elt F)),
    binary main_v0 main_v14 main_v15 ((fun a b => concatenate S1024x8224x3 1 [⟨S1024x8192x3, a⟩, ⟨S1024x32x3, b⟩] concatenates_S1024x8192x3_S1024x32x3_S1024x8224x3_d1) : (⟨S1024x8192x3, .f32⟩ : BufTy).Contents (Elt F) → (⟨S1024x32x3, .f32⟩ : BufTy).Contents (Elt F) → (⟨S1024x8224x3, .f32⟩ : BufTy).Contents (Elt F)) ]

/-- @main's operations in order, the calls unfolded. -/
abbrev ops : List (HloOp τ sig (Elt F)) := takeOps0 ++ (takeOps1 ++ mainOps)

set_option maxRecDepth 4096 in
set_option maxHeartbeats 1000000 in
/-- The first call is its straight line: the function's definition unfolded, the nested select in place, the sequencing
    reassociated. -/
theorem take0_eq : fn_take.body (F := F) (.of main_arg0) (.of main_arg1) main_call0 = seq takeOps0 := by
  simp only [fn_take.body, fn_where.body, seq, bind_assoc, pure_bind]

set_option maxRecDepth 4096 in
set_option maxHeartbeats 1000000 in
/-- The second call likewise. -/
theorem take1_eq : fn_take_0.body (F := F) (.of main_arg0) (.of main_arg2) main_call1 = seq takeOps1 := by
  simp only [fn_take_0.body, fn_where_1.body, seq, bind_assoc, pure_bind]

/-- @main is that straight line: the two calls, then its own operations. -/
theorem main_eq (c : Dev nD) : main (F := F) c = seq ops := by
  rw [ops, seq_append, seq_append, ← take0_eq, ← take1_eq]
  rfl

theorem scopedRefs_eq : (Finset.univ.filter fun b : Ref sig .tc => b.isScoped) = ∅ := by decide
theorem scopedSems_eq : (Finset.univ.filter fun sm : SemLoc sig => sm.isScoped .tc) = ∅ := by decide

theorem takeOps0_sub : (takeOps0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem takeOps1_sub : (takeOps1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem mainOps_sub : (mainOps : List (HloOp τ sig (Elt F))).Forall fun op => op.bufs ⊆ tcRefs τ sig :=
  ⟨nullary_bufs_sub .., unary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..⟩

theorem ops_sub : (ops : List (HloOp τ sig (Elt F))).Forall fun op => op.bufs ⊆ tcRefs τ sig :=
  List.forall_iff_forall_mem.mpr fun op hop => by
    rcases List.mem_append.mp hop with h | h
    · exact List.forall_iff_forall_mem.mp takeOps0_sub op h
    rcases List.mem_append.mp h with h | h
    · exact List.forall_iff_forall_mem.mp takeOps1_sub op h
    · exact List.forall_iff_forall_mem.mp mainOps_sub op h

/-- From any memory with zero counters every weakly fair execution of @main terminates, and every buffer ends at the
    operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefRun.lean ====
/-
  The reference program's run read back: every weakly fair execution of @main terminates with the result buffer at the
  pure term `out` of the four argument arrays, the arguments unchanged. The 64 operations are folded in three stretches
  (the first take, the second take, @main's own), each read at the buffers the next one needs.
-/
import proofs.«203378_g9921374454198_cont_sun_m_1167_43_alg».proof.Proof.RefTerm
import proofs.«203378_g9921374454198_cont_sun_m_1167_43_alg».proof.Proof.RefOps

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The fold over two stretches is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The first take -/

attribute [local irreducible] Host.reduce Host.gather in
theorem take0_v0 (W : Valuation τ sig (Elt F)) :
    after takeOps0 W (main_v0 : DevRef τ sig) = take8 (W (main_arg0 : DevRef τ sig)) (W (main_arg1 : DevRef τ sig)) := by
  after_results_simp
  rfl

theorem take0_arg0 (W : Valuation τ sig (Elt F)) : after takeOps0 W (main_arg0 : DevRef τ sig) = W (main_arg0 : DevRef τ sig) := by
  after_results_simp
theorem take0_arg1 (W : Valuation τ sig (Elt F)) : after takeOps0 W (main_arg1 : DevRef τ sig) = W (main_arg1 : DevRef τ sig) := by
  after_results_simp
theorem take0_arg2 (W : Valuation τ sig (Elt F)) : after takeOps0 W (main_arg2 : DevRef τ sig) = W (main_arg2 : DevRef τ sig) := by
  after_results_simp
theorem take0_arg3 (W : Valuation τ sig (Elt F)) : after takeOps0 W (main_arg3 : DevRef τ sig) = W (main_arg3 : DevRef τ sig) := by
  after_results_simp

/-! ## The second take -/

attribute [local irreducible] Host.reduce Host.gather in
theorem take1_v1 (W : Valuation τ sig (Elt F)) :
    after takeOps1 W (main_v1 : DevRef τ sig) = take4 (W (main_arg0 : DevRef τ sig)) (W (main_arg2 : DevRef τ sig)) := by
  after_results_simp
  rfl

theorem take1_v0 (W : Valuation τ sig (Elt F)) : after takeOps1 W (main_v0 : DevRef τ sig) = W (main_v0 : DevRef τ sig) := by
  after_results_simp
theorem take1_arg0 (W : Valuation τ sig (Elt F)) : after takeOps1 W (main_arg0 : DevRef τ sig) = W (main_arg0 : DevRef τ sig) := by
  after_results_simp
theorem take1_arg1 (W : Valuation τ sig (Elt F)) : after takeOps1 W (main_arg1 : DevRef τ sig) = W (main_arg1 : DevRef τ sig) := by
  after_results_simp
theorem take1_arg2 (W : Valuation τ sig (Elt F)) : after takeOps1 W (main_arg2 : DevRef τ sig) = W (main_arg2 : DevRef τ sig) := by
  after_results_simp
theorem take1_arg3 (W : Valuation τ sig (Elt F)) : after takeOps1 W (main_arg3 : DevRef τ sig) = W (main_arg3 : DevRef τ sig) := by
  after_results_simp

/-! ## @main's own operations -/

attribute [local irreducible] Host.scatterAdd concatenate in
theorem main_v15_eq (W : Valuation τ sig (Elt F)) :
    after mainOps W (main_v15 : DevRef τ sig)
      = outOf (W (main_v0 : DevRef τ sig)) (W (main_v1 : DevRef τ sig)) (W (main_arg3 : DevRef τ sig)) := by
  after_results_simp
  rfl

theorem main_arg0_eq (W : Valuation τ sig (Elt F)) : after mainOps W (main_arg0 : DevRef τ sig) = W (main_arg0 : DevRef τ sig) := by
  after_results_simp
theorem main_arg1_eq (W : Valuation τ sig (Elt F)) : after mainOps W (main_arg1 : DevRef τ sig) = W (main_arg1 : DevRef τ sig) := by
  after_results_simp
theorem main_arg2_eq (W : Valuation τ sig (Elt F)) : after mainOps W (main_arg2 : DevRef τ sig) = W (main_arg2 : DevRef τ sig) := by
  after_results_simp
theorem main_arg3_eq (W : Valuation τ sig (Elt F)) : after mainOps W (main_arg3 : DevRef τ sig) = W (main_arg3 : DevRef τ sig) := by
  after_results_simp

/-! ## The whole line -/

theorem ops_v15 (V : Valuation τ sig (Elt F)) :
    after ops V (main_v15 : DevRef τ sig)
      = out (V (main_arg0 : DevRef τ sig)) (V (main_arg1 : DevRef τ sig)) (V (main_arg2 : DevRef τ sig)) (V (main_arg3 : DevRef τ sig)) := by
  rw [ops, after_append, after_append, main_v15_eq, take1_v0, take0_v0, take1_v1, take0_arg0, take0_arg2, take1_arg3, take0_arg3]
  rfl

theorem ops_arg0 (V : Valuation τ sig (Elt F)) : after ops V (main_arg0 : DevRef τ sig) = V (main_arg0 : DevRef τ sig) := by
  rw [ops, after_append, after_append, main_arg0_eq, take1_arg0, take0_arg0]
theorem ops_arg1 (V : Valuation τ sig (Elt F)) : after ops V (main_arg1 : DevRef τ sig) = V (main_arg1 : DevRef τ sig) := by
  rw [ops, after_append, after_append, main_arg1_eq, take1_arg1, take0_arg1]
theorem ops_arg2 (V : Valuation τ sig (Elt F)) : after ops V (main_arg2 : DevRef τ sig) = V (main_arg2 : DevRef τ sig) := by
  rw [ops, after_append, after_append, main_arg2_eq, take1_arg2, take0_arg2]
theorem ops_arg3 (V : Valuation τ sig (Elt F)) : after ops V (main_arg3 : DevRef τ sig) = V (main_arg3 : DevRef τ sig) := by
  rw [ops, after_append, after_append, main_arg3_eq, take1_arg3, take0_arg3]

/-- From any memory with zero counters every weakly fair execution of @main terminates with the result at `out` of the
    arguments' launch contents and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v15).trans (ops_v15 _),
      (h c main_arg0).trans (ops_arg0 _), (h c main_arg1).trans (ops_arg1 _),
      (h c main_arg2).trans (ops_arg2 _), (h c main_arg3).trans (ops_arg3 _)⟩)
    (run_ops m ρ)

end Cert.Proof.Ref

end
-- ==== Proof.RefPre.lean ====
/-
  The precondition decoded: `input_domain` all ones says, entry by entry, that every segment vertex number and every band
  vertex number is in [0, 10474] and every band number in [0, 31], read signed. (It also says the vertices are finite,
  which the value of the reference does not need.)
-/
import proofs.«203378_g9921374454198_cont_sun_m_1167_43_alg».proof.Defs
import proofs.«203378_g9921374454198_cont_sun_m_1167_43_alg».proof.Proof.RefTerm
import proofs.«203378_g9921374454198_cont_sun_m_1167_43_alg».proof.Proof.Gen.Pre_input_domain
import Idealize.ShloMosaic.Lib.ReduceAll
import Idealize.ShloMosaic.Lib.ValueIdx

noncomputable section

namespace Cert.Proof.Ref

open Idealize.ShloMosaic Idealize.ShloMosaic.ValueIdx Idealize.SL.Sem Cert.ReferenceIdeal

instance : Subsingleton Cert.Pre_input_domain.S_.Idx := ⟨fun a b => funext fun d => d.elim0⟩

/-- A word between two literals, from the two comparison bits. -/
theorem between (x lo hi : BitVec 32) (l h : Int) (hl : lo.toInt = l) (hh : hi.toInt = h)
    (hx : IntOp.andi (IntOp.cmpi .sge x lo) (IntOp.cmpi .sle x hi) = 1#1) : l ≤ x.toInt ∧ x.toInt ≤ h := by
  obtain ⟨ha, hb⟩ := IntOp.andi_eq_one.mp hx
  have ha' := IntOp.cmpi_sge.mp ha
  have hb' := IntOp.cmpi_sle.mp hb
  omega

theorem inRange_of_fn (x : FVec Ideal S1024x10475x3 .f32) (seg : IVec S8192 32) (bv bid : IVec S4096 32)
    (h : Cert.Pre_input_domain.fn (F := Ideal) x seg bv bid = fun _ => 1#1) : InRange seg bv bid := by
  have e := congrFun h ix0
  unfold Cert.Pre_input_domain.fn Cert.Pre_input_domain.fn_part1 at e
  simp only [andi] at e
  simp only [IntOp.andi_eq_one] at e
  obtain ⟨⟨⟨-, h9⟩, h16⟩, h23⟩ := e
  refine ⟨fun k => ?_, fun k => ?_, fun k => ?_⟩
  · exact between (seg (ix1 k)) 0#32 10474#32 0 10474 (by decide) (by decide)
      (Host.reduce_andi_all _ _ _ _ ix0 h9 (ix1 k))
  · exact between (bv (ix1 k)) 0#32 10474#32 0 10474 (by decide) (by decide)
      (Host.reduce_andi_all _ _ _ _ ix0 h16 (ix1 k))
  · exact between (bid (ix1 k)) 0#32 31#32 0 31 (by decide) (by decide)
      (Host.reduce_andi_all _ _ _ _ ix0 h23 (ix1 k))

/-- The precondition of the reference, entry by entry, on every device. -/
theorem inRange_of_pre (m : (ℓ : Loc nD τ sig) → Buf (Elt Ideal) ℓ) (hpre : Cert.Pre_ReferenceIdeal m) (c : Dev nD) :
    InRange (m ((c.tc : Thread nD τ).loc main_arg1)) (m ((c.tc : Thread nD τ).loc main_arg2))
      (m ((c.tc : Thread nD τ).loc main_arg3)) :=
  inRange_of_fn (m ((c.tc : Thread nD τ).loc main_arg0)) _ _ _ (hpre c)

end Cert.Proof.Ref

end
-- ==== Proof.RefIdx.lean ====
/-
  Index arithmetic of the reference's gathers and accumulating scatters, free of the program:

  * a gather of whole rows of a [1024, 10475, 3] array at a column of M start indices reads, at (b, i, c), the operand
    at (b, the i-th start index read signed and clamped into [0, 10474], c);
  * an update of an accumulating scatter lands on an operand index exactly when start plus window coordinate is that
    index on every axis; for the row scatter [B, M, D] → [B, NB, D] along axis 1 that is: same b, same c, and the
    e-th scatter index read signed is the band; for the scalar scatter [M] → [NB]: the e-th scatter index is the band;
  * hence over the extended reals each accumulated element is the operand's plus the sum, over the M updates, of those
    whose scatter index is the band;
  * a reduce by `and` of an array of ones, from one, is one.
-/
import Idealize.ShloMosaic.Lib.ValueIdx
import Idealize.ShloMosaic.Lib.IdealHost
import Idealize.ShloMosaic.Lib.ReduceAll
import Idealize.ShloMosaic.PureOps

noncomputable section

namespace Cert.Proof.Ref

open Idealize.ShloMosaic Idealize.ShloMosaic.ValueIdx

/-! ## The row gather -/

variable {α : Type}

abbrev rowDims (M : Nat)
    (wf : GatherDims.WF ⟨3, ![1024, 10475, 3]⟩ ⟨2, ![M, 1]⟩ ⟨3, ![1024, M, 3]⟩ [0, 2] [1] [] [1] [] 1 ![1024, 1, 3]) :
    GatherDims ⟨3, ![1024, 10475, 3]⟩ ⟨2, ![M, 1]⟩ ⟨3, ![1024, M, 3]⟩ where
  offsetDims := [0, 2]
  collapsedSliceDims := [1]
  operandBatchingDims := []
  startIndicesBatchingDims := []
  startIndexMap := [1]
  indexVectorDim := 1
  sliceSizes := ![1024, 1, 3]
  wf := wf

section
variable {M w : Nat}
  (wf : GatherDims.WF ⟨3, ![1024, 10475, 3]⟩ ⟨2, ![M, 1]⟩ ⟨3, ![1024, M, 3]⟩ [0, 2] [1] [] [1] [] 1 ![1024, 1, 3])
  (idx : IVec ⟨2, ![M, 1]⟩ w) (b : Fin 1024) (i : Fin M) (c : Fin 3)

theorem rowDims_coord0 :
    (rowDims M wf).start (ix3 b i c) idx (0 : Fin 3) + (rowDims M wf).batchCoord (ix3 b i c) (0 : Fin 3)
      + (rowDims M wf).offCoord (ix3 b i c) (0 : Fin 3) = b.val := by
  have hs : (rowDims M wf).start (ix3 b i c) idx (0 : Fin 3) = 0 := by
    unfold GatherDims.start; rw [dif_neg (show (0 : Fin 3) ∉ ([1] : List (Fin 3)) by decide)]
  have hk : (0 : Fin 3) ∈ (rowDims M wf).sKept :=
    (GatherDims.mem_sKept _ _).mpr ⟨(show (0 : Fin 3) ∉ ([1] : List (Fin 3)) by decide), List.not_mem_nil⟩
  rw [hs, GatherDims.batchCoord_eq_zero _ _ _ List.not_mem_nil, Nat.add_zero, Nat.zero_add]
  unfold GatherDims.offCoord
  rw [dif_pos hk]
  rfl

theorem rowDims_coord2 :
    (rowDims M wf).start (ix3 b i c) idx (2 : Fin 3) + (rowDims M wf).batchCoord (ix3 b i c) (2 : Fin 3)
      + (rowDims M wf).offCoord (ix3 b i c) (2 : Fin 3) = c.val := by
  have hs : (rowDims M wf).start (ix3 b i c) idx (2 : Fin 3) = 0 := by
    unfold GatherDims.start; rw [dif_neg (show (2 : Fin 3) ∉ ([1] : List (Fin 3)) by decide)]
  have hk : (2 : Fin 3) ∈ (rowDims M wf).sKept :=
    (GatherDims.mem_sKept _ _).mpr ⟨(show (2 : Fin 3) ∉ ([1] : List (Fin 3)) by decide), List.not_mem_nil⟩
  rw [hs, GatherDims.batchCoord_eq_zero _ _ _ List.not_mem_nil, Nat.add_zero, Nat.zero_add]
  unfold GatherDims.offCoord
  rw [dif_pos hk]
  rfl

theorem rowDims_coord1 :
    (rowDims M wf).start (ix3 b i c) idx (1 : Fin 3) + (rowDims M wf).batchCoord (ix3 b i c) (1 : Fin 3)
      + (rowDims M wf).offCoord (ix3 b i c) (1 : Fin 3) = min (idx (ix2 i (0 : Fin 1))).toInt.toNat 10474 := by
  have hm : (1 : Fin 3) ∈ (rowDims M wf).startIndexMap := List.mem_singleton.mpr rfl
  have hsi : (rowDims M wf).siIdx (ix3 b i c) ⟨List.idxOf (1 : Fin 3) (rowDims M wf).startIndexMap,
      List.idxOf_lt_length_iff.2 hm⟩ = ix2 i (0 : Fin 1) := by
    funext d; refine Fin.ext ?_
    match d with
    | ⟨0, _⟩ => rfl
    | ⟨1, _⟩ => rfl
  rw [GatherDims.batchCoord_eq_zero _ _ _ List.not_mem_nil,
    GatherDims.offCoord_eq_zero _ _ _ (fun h => ((GatherDims.mem_sKept _ _).mp h).1 (List.mem_singleton.mpr rfl)),
    Nat.add_zero]
  unfold GatherDims.start
  rw [dif_pos hm, hsi]
  rfl

end

theorem gather_rows_apply {M w : Nat}
    (wf : GatherDims.WF ⟨3, ![1024, 10475, 3]⟩ ⟨2, ![M, 1]⟩ ⟨3, ![1024, M, 3]⟩ [0, 2] [1] [] [1] [] 1 ![1024, 1, 3])
    (x : (⟨3, ![1024, 10475, 3]⟩ : Shape).Idx → α) (idx : IVec ⟨2, ![M, 1]⟩ w) (b : Fin 1024) (i : Fin M) (c : Fin 3) :
    Host.gather (rowDims M wf) x idx (ix3 b i c)
      = x (ix3 b ⟨min (idx (ix2 i (0 : Fin 1))).toInt.toNat 10474, by omega⟩ c) := by
  unfold Host.gather
  congr 1
  funext a
  refine Fin.ext ?_
  match a with
  | ⟨0, _⟩ => exact rowDims_coord0 wf idx b i c
  | ⟨1, _⟩ => exact rowDims_coord1 wf idx b i c
  | ⟨2, _⟩ => exact rowDims_coord2 wf idx b i c

/-! ## Where an update of a scatter lands -/

/-- An update lands on `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have := congrFun (Option.some.inj h) a
      have hv := congrArg Fin.val this
      simp only at hv
      have := (hb a).1
      omega
    · exact absurd h (by simp)
  · intro h
    have hb : ∀ a, 0 ≤ d.start j idx a + d.window j a ∧ d.start j idx a + d.window j a < s.size a := fun a => by
      have := h a; have := (i a).isLt; omega
    rw [dif_pos hb]
    refine congrArg some (funext fun a => Fin.ext ?_)
    have := h a
    simp only
    omega

/-! The row scatter: operand [B, NB, D], indices [M, 1], updates [B, M, D], rows scattered along axis 1. -/
abbrev rowScat (B NB M D : Nat)
    (wf : ScatterDims.WF ⟨3, ![B, NB, D]⟩ ⟨2, ![M, 1]⟩ ⟨3, ![B, M, D]⟩ [0, 2] [1] [1] 1) :
    ScatterDims ⟨3, ![B, NB, D]⟩ ⟨2, ![M, 1]⟩ ⟨3, ![B, M, D]⟩ where
  updateWindowDims := [0, 2]
  insertedWindowDims := [1]
  scatterDimsToOperandDims := [1]
  indexVectorDim := 1
  wf := wf

section
variable {B NB M D w : Nat}
  (wf : ScatterDims.WF ⟨3, ![B, NB, D]⟩ ⟨2, ![M, 1]⟩ ⟨3, ![B, M, D]⟩ [0, 2] [1] [1] 1)
  (idx : IVec ⟨2, ![M, 1]⟩ w) (b : Fin B) (e : Fin M) (c : Fin D)

theorem rowScat_start0 : (rowScat B NB M D wf).start (ix3 b e c) idx (0 : Fin 3) = 0 := by
  unfold ScatterDims.start; rw [dif_neg (show (0 : Fin 3) ∉ ([1] : List (Fin 3)) by decide)]
theorem rowScat_start2 : (rowScat B NB M D wf).start (ix3 b e c) idx (2 : Fin 3) = 0 := by
  unfold ScatterDims.start; rw [dif_neg (show (2 : Fin 3) ∉ ([1] : List (Fin 3)) by decide)]
theorem rowScat_start1 : (rowScat B NB M D wf).start (ix3 b e c) idx (1 : Fin 3) = (idx (ix2 e (0 : Fin 1))).toInt := by
  have hm : (1 : Fin 3) ∈ (rowScat B NB M D wf).scatterDimsToOperandDims := List.mem_singleton.mpr rfl
  have hsi : (rowScat B NB M D wf).siIdx (ix3 b e c) ⟨List.idxOf (1 : Fin 3) (rowScat B NB M D wf).scatterDimsToOperandDims,
      List.idxOf_lt_length_iff.2 hm⟩ = ix2 e (0 : Fin 1) := by
    funext d; refine Fin.ext ?_
    match d with
    | ⟨0, _⟩ => rfl
    | ⟨1, _⟩ => rfl
  unfold ScatterDims.start
  rw [dif_pos hm, hsi]
theorem rowScat_window0 : (rowScat B NB M D wf).window (ix3 b e c) (0 : Fin 3) = b.val := by
  have hk : (0 : Fin 3) ∈ (rowScat B NB M D wf).sKept := by
    show (0 : Fin 3) ∈ (List.finRange 3).filter (fun a => a ∉ ([1] : List (Fin 3))); decide
  unfold ScatterDims.window; rw [dif_pos hk]; rfl
theorem rowScat_window2 : (rowScat B NB M D wf).window (ix3 b e c) (2 : Fin 3) = c.val := by
  have hk : (2 : Fin 3) ∈ (rowScat B NB M D wf).sKept := by
    show (2 : Fin 3) ∈ (List.finRange 3).filter (fun a => a ∉ ([1] : List (Fin 3))); decide
  unfold ScatterDims.window; rw [dif_pos hk]; rfl
theorem rowScat_window1 : (rowScat B NB M D wf).window (ix3 b e c) (1 : Fin 3) = 0 := by
  have hk : (1 : Fin 3) ∉ (rowScat B NB M D wf).sKept := by
    show (1 : Fin 3) ∉ (List.finRange 3).filter (fun a => a ∉ ([1] : List (Fin 3))); decide
  unfold ScatterDims.window; rw [dif_neg hk]

/-- The update at (b', e, c') lands on (b, β, c) exactly when b' = b, c' = c and the e-th scatter index, read signed, is β. -/
theorem rowScat_lands (b' : Fin B) (c' : Fin D) (β : Fin NB) :
    (rowScat B NB M D wf).resultIdx? (ix3 b' e c') idx = some (ix3 b β c)
      ↔ b' = b ∧ c' = c ∧ (idx (ix2 e (0 : Fin 1))).toInt = (β.val : Int) := by
  rw [resultIdx?_eq_some_iff]
  constructor
  · intro h
    have h0 := h (0 : Fin 3); have h1 := h (1 : Fin 3); have h2 := h (2 : Fin 3)
    rw [rowScat_start0, rowScat_window0] at h0
    rw [rowScat_start1, rowScat_window1] at h1
    rw [rowScat_start2, rowScat_window2] at h2
    refine ⟨Fin.ext ?_, Fin.ext ?_, ?_⟩
    · have : ((ix3 b β c (0 : Fin 3)).val : Int) = b.val := rfl
      omega
    · have : ((ix3 b β c (2 : Fin 3)).val : Int) = c.val := rfl
      omega
    · have : ((ix3 b β c (1 : Fin 3)).val : Int) = β.val := rfl
      omega
  · rintro ⟨rfl, rfl, h⟩ a
    match a with
    | ⟨0, _⟩ =>
      show (rowScat B NB M D wf).start (ix3 b' e c') idx (0 : Fin 3) + ((rowScat B NB M D wf).window (ix3 b' e c') (0 : Fin 3) : Int) = (b'.val : Int)
      rw [rowScat_start0, rowScat_window0]; omega
    | ⟨1, _⟩ =>
      show (rowScat B NB M D wf).start (ix3 b' e c') idx (1 : Fin 3) + ((rowScat B NB M D wf).window (ix3 b' e c') (1 : Fin 3) : Int) = (β.val : Int)
      rw [rowScat_start1, rowScat_window1, h]; omega
    | ⟨2, _⟩ =>
      show (rowScat B NB M D wf).start (ix3 b' e c') idx (2 : Fin 3) + ((rowScat B NB M D wf).window (ix3 b' e c') (2 : Fin 3) : Int) = (c'.val : Int)
      rw [rowScat_start2, rowScat_window2]; omega
end

/-! ## The scalar scatter: operand [NB], indices [M, 1], updates [M] -/

abbrev cntScat (NB M : Nat) (wf : ScatterDims.WF ⟨1, ![NB]⟩ ⟨2, ![M, 1]⟩ ⟨1, ![M]⟩ [] [0] [0] 1) :
    ScatterDims ⟨1, ![NB]⟩ ⟨2, ![M, 1]⟩ ⟨1, ![M]⟩ where
  updateWindowDims := []
  insertedWindowDims := [0]
  scatterDimsToOperandDims := [0]
  indexVectorDim := 1
  wf := wf

section
variable {NB M w : Nat} (wf : ScatterDims.WF ⟨1, ![NB]⟩ ⟨2, ![M, 1]⟩ ⟨1, ![M]⟩ [] [0] [0] 1)
  (idx : IVec ⟨2, ![M, 1]⟩ w) (e : Fin M)

theorem cntScat_start : (cntScat NB M wf).start (ix1 e) idx (0 : Fin 1) = (idx (ix2 e (0 : Fin 1))).toInt := by
  have hm : (0 : Fin 1) ∈ (cntScat NB M wf).scatterDimsToOperandDims := List.mem_singleton.mpr rfl
  have hsi : (cntScat NB M wf).siIdx (ix1 e) ⟨List.idxOf (0 : Fin 1) (cntScat NB M wf).scatterDimsToOperandDims,
      List.idxOf_lt_length_iff.2 hm⟩ = ix2 e (0 : Fin 1) := by
    funext d; refine Fin.ext ?_
    match d with
    | ⟨0, _⟩ => rfl
    | ⟨1, _⟩ => rfl
  unfold ScatterDims.start
  rw [dif_pos hm, hsi]

theorem cntScat_window : (cntScat NB M wf).window (ix1 e) (0 : Fin 1) = 0 := by
  have hk : (0 : Fin 1) ∉ (cntScat NB M wf).sKept := by
    show (0 : Fin 1) ∉ (List.finRange 1).filter (fun a => a ∉ ([0] : List (Fin 1))); decide
  unfold ScatterDims.window; rw [dif_neg hk]

/-- The e-th update lands on band β exactly when the e-th scatter index, read signed, is β. -/
theorem cntScat_lands (β : Fin NB) :
    (cntScat NB M wf).resultIdx? (ix1 e) idx = some (ix1 β) ↔ (idx (ix2 e (0 : Fin 1))).toInt = (β.val : Int) := by
  rw [resultIdx?_eq_some_iff]
  constructor
  · intro h
    have h0 := h (0 : Fin 1)
    rw [cntScat_start, cntScat_window] at h0
    have : ((ix1 β (0 : Fin 1)).val : Int) = β.val := rfl
    omega
  · intro h a
    match a with
    | ⟨0, _⟩ =>
      show (cntScat NB M wf).start (ix1 e) idx (0 : Fin 1) + ((cntScat NB M wf).window (ix1 e) (0 : Fin 1) : Int) = (β.val : Int)
      rw [cntScat_start, cntScat_window, h]; omega
end

/-! ## The accumulated elements over the extended reals -/

open scoped BigOperators

/-- The row scatter's element (b, β, c): the operand's plus the rows (b, e, c) of the updates whose scatter index is β. -/
theorem hostScatterAdd_rows_apply {B NB M D w : Nat}
    (wf : ScatterDims.WF ⟨3, ![B, NB, D]⟩ ⟨2, ![M, 1]⟩ ⟨3, ![B, M, D]⟩ [0, 2] [1] [1] 1)
    (x : (⟨3, ![B, NB, D]⟩ : Shape).Idx → EReal) (idx : IVec ⟨2, ![M, 1]⟩ w)
    (upd : (⟨3, ![B, M, D]⟩ : Shape).Idx → EReal) (b : Fin B) (β : Fin NB) (c : Fin D) :
    Ideal.hostScatterAdd (rowScat B NB M D wf) x idx upd (ix3 b β c)
      = x (ix3 b β c) + ∑ e : Fin M, if (idx (ix2 e (0 : Fin 1))).toInt = (β.val : Int) then upd (ix3 b e c) else 0 := by
  unfold Ideal.hostScatterAdd
  refine congrArg (x (ix3 b β c) + ·) ?_
  rw [← Finset.sum_filter]
  symm
  refine Finset.sum_bij (fun e _ => ix3 b e c) ?_ ?_ ?_ ?_
  · intro e he
    rw [Finset.mem_filter] at he ⊢
    exact ⟨Finset.mem_univ _, (rowScat_lands wf idx b e c b c β).mpr ⟨rfl, rfl, he.2⟩⟩
  · intro e _ e' _ h
    exact congrFun h (1 : Fin 3)
  · intro j hj
    rw [Finset.mem_filter] at hj
    have hj2 := hj.2
    rw [eq_ix3 j] at hj2
    obtain ⟨h0, h2, h1⟩ := (rowScat_lands wf idx b (j 1) c (j 0) (j 2) β).mp hj2
    refine ⟨j 1, Finset.mem_filter.mpr ⟨Finset.mem_univ _, h1⟩, ?_⟩
    show ix3 b (j 1) c = j
    rw [← h0, ← h2]
    exact (eq_ix3 j).symm
  · intro e _; rfl

/-- The scalar scatter's element β: the operand's plus the updates whose scatter index is β. -/
theorem hostScatterAdd_cnt_apply {NB M w : Nat}
    (wf : ScatterDims.WF ⟨1, ![NB]⟩ ⟨2, ![M, 1]⟩ ⟨1, ![M]⟩ [] [0] [0] 1)
    (x : (⟨1, ![NB]⟩ : Shape).Idx → EReal) (idx : IVec ⟨2, ![M, 1]⟩ w)
    (upd : (⟨1, ![M]⟩ : Shape).Idx → EReal) (β : Fin NB) :
    Ideal.hostScatterAdd (cntScat NB M wf) x idx upd (ix1 β)
      = x (ix1 β) + ∑ e : Fin M, if (idx (ix2 e (0 : Fin 1))).toInt = (β.val : Int) then upd (ix1 e) else 0 := by
  unfold Ideal.hostScatterAdd
  refine congrArg (x (ix1 β) + ·) ?_
  rw [← Finset.sum_filter]
  symm
  refine Finset.sum_bij (fun e _ => ix1 e) ?_ ?_ ?_ ?_
  · intro e he
    rw [Finset.mem_filter] at he ⊢
    exact ⟨Finset.mem_univ _, (cntScat_lands wf idx e β).mpr he.2⟩
  · intro e _ e' _ h
    exact congrFun h (0 : Fin 1)
  · intro j hj
    rw [Finset.mem_filter] at hj
    have hj2 := hj.2
    rw [eq_ix1 j] at hj2
    refine ⟨j 0, Finset.mem_filter.mpr ⟨Finset.mem_univ _, (cntScat_lands wf idx (j 0) β).mp hj2⟩, ?_⟩
    exact (eq_ix1 j).symm
  · intro e _; rfl

/-! ## A reduce by `and` of ones -/

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_ones f l fun n hn => h n (List.mem_cons_of_mem _ hn)

/-- A `stablehlo.reduce` by `and`, from one, of an array that is one everywhere is one everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ fun n _ => hx n

end Cert.Proof.Ref

end
-- ==== Proof.Spec.lean ====
/-
  The specification both programs are compared with, as ONE function of the four argument arrays, entry by entry,
  over the extended reals.

  The arguments: `verts` (1024 batches × 10475 vertices × 3 coordinates), `seg` (8192 vertex numbers), and a list of
  4096 (vertex number `bv e`, band number `bid e`) pairs. The result has 8224 = 8192 + 32 rows per batch:

  * row `i < 8192` of batch `b` is vertex `seg i` of that batch (a gather);
  * row `8192 + β` is the CENTROID of band `β`: the sum of the vertices `bv e` over the pairs with `bid e = β`,
    divided by the number of such pairs, or by 1 when there is none.

  Vertex numbers are words; an entry whose number is not below 10475 reads as 0 here (the precondition keeps every
  number in range, so that arm is never taken where the specification is used).
-/
import Idealize.ShloMosaic.PureOps.Ideal
import Idealize.ShloMosaic.Lib.ValueIdx

noncomputable section

namespace Cert.Proof.Spec

open Idealize.ShloMosaic Idealize.ShloMosaic.ValueIdx

abbrev SV : Shape := ⟨3, ![1024, 10475, 3]⟩
abbrev SSeg : Shape := ⟨1, ![8192]⟩
abbrev SBand : Shape := ⟨1, ![4096]⟩
abbrev SOut : Shape := ⟨3, ![1024, 8224, 3]⟩

/-- Coordinate `c` of vertex `v` of batch `b`, by plain numbers; 0 outside the array. -/
def vtx (verts : SV.Idx → EReal) (b v c : Nat) : EReal :=
  if h : b < 1024 ∧ v < 10475 ∧ c < 3 then verts (ix3 ⟨b, h.1⟩ ⟨v, h.2.1⟩ ⟨c, h.2.2⟩) else 0

/-- How many of the 4096 pairs carry band number `β`. -/
def count (bid : SBand.Idx → BitVec 32) (β : Nat) : EReal :=
  ∑ e : Fin 4096, if (bid (ix1 e)).toNat = β then (1 : EReal) else 0

/-- The sum, over the pairs of band `β`, of coordinate `c` of the pair's vertex in batch `b`. -/
def bandSum (verts : SV.Idx → EReal) (bv bid : SBand.Idx → BitVec 32) (b β c : Nat) : EReal :=
  ∑ e : Fin 4096, if (bid (ix1 e)).toNat = β then vtx verts b (bv (ix1 e)).toNat c else 0

/-- The result: the gathered segment vertices, then the 32 band centroids. -/
def G (verts : SV.Idx → EReal) (seg : SSeg.Idx → BitVec 32) (bv bid : SBand.Idx → BitVec 32) : SOut.Idx → EReal :=
  fun j =>
    if h : (j 1).val < 8192 then vtx verts (j 0).val (seg (ix1 ⟨(j 1).val, h⟩)).toNat (j 2).val
    else Ideal.div (bandSum verts bv bid (j 0).val ((j 1).val - 8192) (j 2).val) (max (count bid ((j 1).val - 8192)) 1)

end Cert.Proof.Spec

end
-- ==== Proof.RefRead.lean ====
/-
  The reference's pure term read at an index, over the extended reals, for vertex and band numbers in range:
  the negative-index wrap is the identity, the range mask is one, the gather reads the named vertex, the accumulating
  scatters are the sums over the pairs of the band, the concatenation is its two pieces.
-/
import proofs.«203378_g9921374454198_cont_sun_m_1167_43_alg».proof.Proof.RefTerm
import proofs.«203378_g9921374454198_cont_sun_m_1167_43_alg».proof.Proof.RefIdx
import proofs.«203378_g9921374454198_cont_sun_m_1167_43_alg».proof.Proof.Spec
import Idealize.ShloMosaic.Lib.Pipeline.Value
import Idealize.ShloMosaic.Lib.IdealHost
import Idealize.ShloMosaic.Lib.Affine
import Idealize.ShloMosaic.PureOps.Ideal.Laws

noncomputable section

namespace Cert.Proof.Ref

open Cert.ReferenceIdeal Cert.ReferenceIdeal.Gen Idealize.ShloMosaic Idealize.ShloMosaic.ValueIdx
open scoped BigOperators

/-! ## Words -/

/-- A nonnegative word is not replaced by the wrap. -/
theorem wrap_id (x y : BitVec 32) (h : 0 ≤ x.toInt) : Scalar.select (IntOp.cmpi .slt x 0#32) y x = x := by
  have hn : ¬ IntOp.cmpi .slt x 0#32 = 1#1 := fun h1 => by
    have := IntOp.cmpi_slt.mp h1
    have z : (0#32 : BitVec 32).toInt = 0 := by decide
    omega
  rw [eq_zero_of_ne_one hn, select_zero]

/-- A word between two literals passes both comparisons. -/
theorem between_one (x lo hi : BitVec 32) (h1 : lo.toInt ≤ x.toInt) (h2 : x.toInt ≤ hi.toInt) :
    IntOp.andi (IntOp.cmpi .sge x lo) (IntOp.cmpi .sle x hi) = 1#1 :=
  IntOp.andi_eq_one.mpr ⟨IntOp.cmpi_sge.mpr h1, IntOp.cmpi_sle.mpr h2⟩

/-- A nonnegative word reads the same signed and unsigned. -/
theorem toInt_toNat (x : BitVec 32) (h : 0 ≤ x.toInt) : x.toInt = (x.toNat : Int) := by
  have h32 := x.isLt
  unfold BitVec.toInt at h ⊢
  split at h <;> split <;> omega

/-! ## The take over 8192 numbers -/

section Take8
variable (i : IVec S8192 32) (hi : ∀ e : Fin 8192, 0 ≤ (i (ix1 e)).toInt ∧ (i (ix1 e)).toInt ≤ 10474)
include hi

theorem wrap8_apply (e : Fin 8192) : wrap8 i (ix1 e) = i (ix1 e) :=
  wrap_id _ _ (hi e).1

theorem idx8_apply (e : Fin 8192) (z : Fin 1) : idx8 i (ix2 e z) = i (ix1 e) := by
  unfold idx8
  exact (broadcastInDim_apply _ _ _ (ix2 e z) (ix1 e) (fun a => match a with | ⟨0, _⟩ => rfl)).trans (wrap8_apply i hi e)

theorem mask8_one (j : S8192.Idx) : mask8 i j = 1#1 := by
  unfold mask8
  refine reduce_andi_of_all _ _ _ _ (fun k => ?_) (fun _ => rfl) j
  obtain ⟨e, z, rfl⟩ : ∃ (e : Fin 8192) (z : Fin 1), k = ix2 e z := ⟨k 0, k 1, eq_ix2 k⟩
  show IntOp.andi (IntOp.cmpi .sge (idx8 i (ix2 e z)) 0#32) (IntOp.cmpi .sle (idx8 i (ix2 e z)) 10474#32) = 1#1
  rw [idx8_apply i hi e z]
  have z : (0#32 : BitVec 32).toInt = 0 := by decide
  have t : (10474#32 : BitVec 32).toInt = 10474 := by decide
  exact between_one _ _ _ (by rw [z]; exact (hi _).1) (by rw [t]; exact (hi _).2)

theorem take8_apply (x : FVec Ideal S1024x10475x3 .f32) (b : Fin 1024) (e : Fin 8192) (c : Fin 3) :
    take8 (F := Ideal) x i (ix3 b e c) = Spec.vtx x b.val (i (ix1 e)).toNat c.val := by
  have hlo := (hi e).1
  have hhi := (hi e).2
  have hnat := toInt_toNat _ hlo
  have hv : (i (ix1 e)).toNat < 10475 := by omega
  unfold take8
  rw [select_apply]
  rw [show broadcastInDim S1024x8192x3 ![1] bcast_S8192_S1024x8192x3_1 (mask8 i) (ix3 b e c) = 1#1 from mask8_one i hi _,
    select_one]
  refine (gather_rows_apply gather_S1024x10475x3_S8192x1_S1024x8192x3_02_1_n_n_1_1_102413_wf x (idx8 i) b e c).trans ?_
  unfold Spec.vtx
  rw [dif_pos ⟨b.isLt, hv, c.isLt⟩]
  refine congrArg x ?_
  have hk : idx8 i (ix2 e (0 : Fin 1)) = i (ix1 e) := idx8_apply i hi e 0
  funext a
  refine Fin.ext ?_
  match a with
  | ⟨0, _⟩ => rfl
  | ⟨1, _⟩ =>
    show min (idx8 i (ix2 e (0 : Fin 1))).toInt.toNat 10474 = (i (ix1 e)).toNat
    rw [hk]; omega
  | ⟨2, _⟩ => rfl

end Take8

/-! ## The take over 4096 numbers -/

section Take4
variable (i : IVec S4096 32) (hi : ∀ e : Fin 4096, 0 ≤ (i (ix1 e)).toInt ∧ (i (ix1 e)).toInt ≤ 10474)
include hi

theorem wrap4_apply (e : Fin 4096) : wrap4 i (ix1 e) = i (ix1 e) :=
  wrap_id _ _ (hi e).1

theorem idx4_apply (e : Fin 4096) (z : Fin 1) : idx4 i (ix2 e z) = i (ix1 e) := by
  unfold idx4
  exact (broadcastInDim_apply _ _ _ (ix2 e z) (ix1 e) (fun a => match a with | ⟨0, _⟩ => rfl)).trans (wrap4_apply i hi e)

theorem mask4_one (j : S4096.Idx) : mask4 i j = 1#1 := by
  unfold mask4
  refine reduce_andi_of_all _ _ _ _ (fun k => ?_) (fun _ => rfl) j
  obtain ⟨e, z, rfl⟩ : ∃ (e : Fin 4096) (z : Fin 1), k = ix2 e z := ⟨k 0, k 1, eq_ix2 k⟩
  show IntOp.andi (IntOp.cmpi .sge (idx4 i (ix2 e z)) 0#32) (IntOp.cmpi .sle (idx4 i (ix2 e z)) 10474#32) = 1#1
  rw [idx4_apply i hi e z]
  have z : (0#32 : BitVec 32).toInt = 0 := by decide
  have t : (10474#32 : BitVec 32).toInt = 10474 := by decide
  exact between_one _ _ _ (by rw [z]; exact (hi _).1) (by rw [t]; exact (hi _).2)

theorem take4_apply (x : FVec Ideal S1024x10475x3 .f32) (b : Fin 1024) (e : Fin 4096) (c : Fin 3) :
    take4 (F := Ideal) x i (ix3 b e c) = Spec.vtx x b.val (i (ix1 e)).toNat c.val := by
  have hlo := (hi e).1
  have hhi := (hi e).2
  have hnat := toInt_toNat _ hlo
  have hv : (i (ix1 e)).toNat < 10475 := by omega
  unfold take4
  rw [select_apply]
  rw [show broadcastInDim S1024x4096x3 ![1] bcast_S4096_S1024x4096x3_1 (mask4 i) (ix3 b e c) = 1#1 from mask4_one i hi _,
    select_one]
  refine (gather_rows_apply gather_S1024x10475x3_S4096x1_S1024x4096x3_02_1_n_n_1_1_102413_wf x (idx4 i) b e c).trans ?_
  unfold Spec.vtx
  rw [dif_pos ⟨b.isLt, hv, c.isLt⟩]
  refine congrArg x ?_
  have hk : idx4 i (ix2 e (0 : Fin 1)) = i (ix1 e) := idx4_apply i hi e 0
  funext a
  refine Fin.ext ?_
  match a with
  | ⟨0, _⟩ => rfl
  | ⟨1, _⟩ =>
    show min (idx4 i (ix2 e (0 : Fin 1))).toInt.toNat 10474 = (i (ix1 e)).toNat
    rw [hk]; omega
  | ⟨2, _⟩ => rfl

end Take4

/-! ## The band sums, counts and centroids -/

theorem bidCol_apply (bid : IVec S4096 32) (e : Fin 4096) : bidCol bid (ix2 e (0 : Fin 1)) = bid (ix1 e) := by
  unfold bidCol
  exact broadcastInDim_apply _ _ _ (ix2 e (0 : Fin 1)) (ix1 e) (fun a => match a with | ⟨0, _⟩ => rfl)

/-- Per batch, band, coordinate: the sum of the rows of the pairs whose band number, read signed, is the band. -/
theorem sumsOf_apply (u : FVec Ideal S1024x4096x3 .f32) (bid : IVec S4096 32) (b : Fin 1024) (β : Fin 32) (c : Fin 3) :
    sumsOf (F := Ideal) u bid (ix3 b β c)
      = ∑ e : Fin 4096, if (bid (ix1 e)).toInt = (β.val : Int) then u (ix3 b e c) else 0 := by
  unfold sumsOf
  refine (hostScatterAdd_rows_apply scatter_S1024x32x3_S4096x1_S1024x4096x3_02_1_1_1_wf _ (bidCol bid) u b β c).trans ?_
  rw [show broadcastInDim S1024x32x3 ![1, 2] bcast_S32x3_S1024x32x3_1_2
      (broadcastInDim S32x3 ![] bcast_S_S32x3 (constant (F := Ideal) S_ .f32 0x00000000#32)) (ix3 b β c)
        = Ideal.ofBits .f32 0x00000000#32 from rfl, Ideal.ofBits_zero_f32, zero_add]
  refine Finset.sum_congr rfl fun e _ => ?_
  rw [bidCol_apply]

/-- Per band: the number of pairs whose band number, read signed, is the band. -/
theorem counts_apply (bid : IVec S4096 32) (β : Fin 32) :
    counts (F := Ideal) bid (ix1 β) = ∑ e : Fin 4096, if (bid (ix1 e)).toInt = (β.val : Int) then (1 : EReal) else 0 := by
  unfold counts
  refine (hostScatterAdd_cnt_apply scatter_S32_S4096x1_S4096_n_0_0_1_wf _ (bidCol bid) _ β).trans ?_
  rw [show broadcastInDim S32 ![] bcast_S_S32 (constant (F := Ideal) S_ .f32 0x00000000#32) (ix1 β)
        = Ideal.ofBits .f32 0x00000000#32 from rfl, Ideal.ofBits_zero_f32, zero_add]
  refine Finset.sum_congr rfl fun e _ => ?_
  rw [bidCol_apply,
    show broadcastInDim S4096 ![] bcast_S_S4096 (constant (F := Ideal) S_ .f32 0x3F800000#32) (ix1 e)
        = Ideal.ofBits .f32 0x3F800000#32 from rfl, Ideal.ofBits_one_f32]

theorem denom_apply (bid : IVec S4096 32) (b : Fin 1024) (β : Fin 32) (c : Fin 3) :
    denom (F := Ideal) bid (ix3 b β c) = max (counts (F := Ideal) bid (ix1 β)) 1 := by
  unfold denom
  rw [broadcastInDim_apply _ _ _ (ix3 b β c) (ix3 (0 : Fin 1) β (0 : Fin 1))
      (fun a => match a with | ⟨0, _⟩ => rfl | ⟨1, _⟩ => rfl | ⟨2, _⟩ => rfl),
    broadcastInDim_apply _ _ _ (ix3 (0 : Fin 1) β (0 : Fin 1)) (ix1 β) (fun a => match a with | ⟨0, _⟩ => rfl),
    maximumf_apply,
    show broadcastInDim S32 ![] bcast_S_S32 (constant (F := Ideal) S_ .f32 0x3F800000#32) (ix1 β)
        = Ideal.ofBits .f32 0x3F800000#32 from rfl, Ideal.ofBits_one_f32]

theorem meansOf_apply (u : FVec Ideal S1024x4096x3 .f32) (bid : IVec S4096 32) (b : Fin 1024) (β : Fin 32) (c : Fin 3) :
    meansOf (F := Ideal) u bid (ix3 b β c)
      = Ideal.div (sumsOf (F := Ideal) u bid (ix3 b β c)) (max (counts (F := Ideal) bid (ix1 β)) 1) := by
  unfold meansOf
  show Ideal.div _ (denom (F := Ideal) bid (ix3 b β c)) = _
  rw [denom_apply]

/-! ## The result's two pieces -/

theorem outOf_apply_lt (a : FVec Ideal S1024x8192x3 .f32) (u : FVec Ideal S1024x4096x3 .f32) (bid : IVec S4096 32)
    (b : Fin 1024) (r : Fin 8224) (c : Fin 3) (h : r.val < 8192) :
    outOf (F := Ideal) a u bid (ix3 b r c) = a (ix3 b (⟨r.val, h⟩ : Fin 8192) c) := by
  unfold outOf
  exact concatenate_pair_apply_left (t := S1024x8224x3) (s₁ := S1024x8192x3) (s₂ := S1024x32x3) _ _ _ _ (ix3 b r c) rfl (ix3 b (⟨r.val, h⟩ : Fin 8192) c)
    (fun d => match d with | ⟨0, _⟩ => rfl | ⟨1, _⟩ => rfl | ⟨2, _⟩ => rfl)

theorem outOf_apply_ge (a : FVec Ideal S1024x8192x3 .f32) (u : FVec Ideal S1024x4096x3 .f32) (bid : IVec S4096 32)
    (b : Fin 1024) (r : Fin 8224) (c : Fin 3) (h : ¬ r.val < 8192) :
    outOf (F := Ideal) a u bid (ix3 b r c) = meansOf (F := Ideal) u bid (ix3 b (⟨r.val - 8192, by have := r.isLt; omega⟩ : Fin 32) c) := by
  unfold outOf
  exact concatenate_pair_apply_right (t := S1024x8224x3) (s₁ := S1024x8192x3) (s₂ := S1024x32x3) _ _ _ _ (ix3 b r c) rfl rfl (ix3 b (⟨r.val - 8192, by have := r.isLt; omega⟩ : Fin 32) c)
    (fun d => match d with | ⟨0, _⟩ => fun _ => rfl | ⟨1, _⟩ => fun hne => absurd rfl hne | ⟨2, _⟩ => fun _ => rfl)
    (by show r.val - 8192 + 8192 = r.val; omega)

end Cert.Proof.Ref

end
-- ==== Proof.RefValue.lean ====
/-
  For vertex and band numbers in range the reference's pure term IS the specification, entry by entry:
  a row below 8192 is the gathered segment vertex; row 8192 + β is the band's vertex sum over max(count, 1), the sums
  taken over the pairs whose band number — the same read signed or unsigned, being nonnegative — is β.
-/
import proofs.«203378_g9921374454198_cont_sun_m_1167_43_alg».proof.Proof.RefRead

noncomputable section

namespace Cert.Proof.Ref

open Cert.ReferenceIdeal Idealize.ShloMosaic Idealize.ShloMosaic.ValueIdx
open scoped BigOperators

/-- The specification at a row below 8192. -/
theorem G_lt (x : FVec Ideal S1024x10475x3 .f32) (seg : IVec S8192 32) (bv bid : IVec S4096 32)
    (b : Fin 1024) (r : Fin 8224) (c : Fin 3) (h : r.val < 8192) :
    Spec.G x seg bv bid (ix3 b r c) = Spec.vtx x b.val (seg (ix1 (⟨r.val, h⟩ : Fin 8192))).toNat c.val :=
  dif_pos h

/-- The specification at a row from 8192 on. -/
theorem G_ge (x : FVec Ideal S1024x10475x3 .f32) (seg : IVec S8192 32) (bv bid : IVec S4096 32)
    (b : Fin 1024) (r : Fin 8224) (c : Fin 3) (h : ¬ r.val < 8192) :
    Spec.G x seg bv bid (ix3 b r c)
      = Ideal.div (Spec.bandSum x bv bid b.val (r.val - 8192) c.val) (max (Spec.count bid (r.val - 8192)) 1) :=
  dif_neg h

/-- A nonnegative band number is the band read signed exactly when it is read unsigned. -/
theorem band_iff (w : BitVec 32) (h : 0 ≤ w.toInt) (n : Nat) : w.toInt = (n : Int) ↔ w.toNat = n := by
  have := toInt_toNat w h
  omega

theorem out_eq_G (x : FVec Ideal S1024x10475x3 .f32) (seg : IVec S8192 32) (bv bid : IVec S4096 32)
    (h : InRange seg bv bid) : out (F := Ideal) x seg bv bid = Spec.G x seg bv bid := by
  funext j
  obtain ⟨b, r, c, rfl⟩ : ∃ (b : Fin 1024) (r : Fin 8224) (c : Fin 3), j = ix3 b r c := ⟨j 0, j 1, j 2, eq_ix3 j⟩
  unfold out
  by_cases hr : r.val < 8192
  · rw [outOf_apply_lt _ _ _ b r c hr, G_lt x seg bv bid b r c hr, take8_apply seg h.seg]
  · rw [outOf_apply_ge _ _ _ b r c hr, G_ge x seg bv bid b r c hr, meansOf_apply, sumsOf_apply, counts_apply]
    unfold Spec.bandSum Spec.count
    have hs : (∑ e : Fin 4096, if (bid (ix1 e)).toInt = ((r.val - 8192 : Nat) : Int)
          then take4 (F := Ideal) x bv (ix3 b e c) else 0)
        = ∑ e : Fin 4096, if (bid (ix1 e)).toNat = r.val - 8192 then Spec.vtx x b.val (bv (ix1 e)).toNat c.val else 0 :=
      Finset.sum_congr rfl fun e _ => by
        rw [take4_apply bv h.bv x b e c]
        exact if_congr (band_iff _ (h.bid e).1 _) rfl rfl
    have hc : (∑ e : Fin 4096, if (bid (ix1 e)).toInt = ((r.val - 8192 : Nat) : Int) then (1 : EReal) else 0)
        = ∑ e : Fin 4096, if (bid (ix1 e)).toNat = r.val - 8192 then (1 : EReal) else 0 :=
      Finset.sum_congr rfl fun e _ => if_congr (band_iff _ (h.bid e).1 _) rfl rfl
    exact congrArg₂ (fun s n => Ideal.div s (max n 1)) hs hc

end Cert.Proof.Ref

end
-- ==== Proof.Ref.lean ====
/-
  The reference program's run against the specification: under the precondition every weakly fair execution of @main
  terminates with the result array equal to the specification `G` of the four argument arrays and the arguments
  unchanged — the run read back as the pure term `out`, the precondition decoded entry by entry, and `out = G` for
  numbers in range.
-/
import proofs.«203378_g9921374454198_cont_sun_m_1167_43_alg».proof.Proof.RefRun
import proofs.«203378_g9921374454198_cont_sun_m_1167_43_alg».proof.Proof.RefPre
import proofs.«203378_g9921374454198_cont_sun_m_1167_43_alg».proof.Proof.RefValue

noncomputable section

namespace Cert.Proof.Ref

open Idealize.ShloMosaic Idealize.SL.Sem Cert.ReferenceIdeal

theorem run (m : (ℓ : Loc nD τ sig) → Buf (Elt Ideal) ℓ) (ρ : Dev nD → PrngReg) (hpre : Cert.Pre_ReferenceIdeal m) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v15)
            = Cert.Proof.Spec.G (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run (Cert.ReferenceIdeal.defs (F := Ideal)) _ _).mono (fun _ h c => by
      obtain ⟨h15, h0, h1, h2, h3⟩ := h c
      exact ⟨h15.trans (out_eq_G _ _ _ _ (inRange_of_pre m hpre c)), h0, h1, h2, h3⟩)
    (run_out m ρ)

/-- The run without the precondition: it terminates and leaves the four arguments unchanged. -/
theorem run_frame (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run (Cert.ReferenceIdeal.defs (F := Ideal)) _ _).mono (fun _ h c => (h c).2) (run_out m ρ)

end Cert.Proof.Ref

end
-- ==== Proof.KModel.lean ====
/-
  What the kernel leaves in the flattened result array, as ONE function of what it reads, entry by entry, written with
  the float operations in the order the kernel applies them (so it is meaningful at any float instance).

  The kernel reads the flattened vertices `X` ([1024, 31425]: row b holds batch b's 10475 vertices, 3 words each), the
  8192 segment vertex numbers `seg`, and 4096 pairs (vertex number `bv e`, band number `bid e`). It works on vectors of
  16 lanes: pair e = 16·j + r is handled at step j in lane r. Per lane r it keeps 96 = 32 bands × 3 coordinates running
  sums (slot q = 3·band + coordinate), so that no two lanes of one step ever add into the same place; the 16 lanes'
  sums are added up at the end, lane 0 first.

  * `cntAcc bid k r q`   — after k steps, how many pairs of lane r carried band q / 3 (a float, counted by adding 1.0);
  * `bandAcc X bv bid b k r q` — after k steps, lane r's sum of coordinate q % 3 of the vertices of band q / 3 in batch b;
  * `laneSum a`          — a(0) + a(1) + … + a(15), added from zero in that order;
  * `invCnt bid q`       — 1 / max(count, 1);
  * row b of the result: entry 3·i + c for i < 8192 is coordinate c of vertex `seg i`; entry 24576 + q is
    (total band sum at q) · invCnt q.
-/
import Idealize.ShloMosaic.PureOps
import Idealize.ShloMosaic.Lib.ValueIdx

noncomputable section

namespace Cert.Proof.KModel

open Idealize.ShloMosaic Idealize.ShloMosaic.ValueIdx

variable {F : FTy → Type} [FloatOps F]

abbrev SX : Shape := ⟨2, ![1024, 31425]⟩
abbrev SO : Shape := ⟨2, ![1024, 24672]⟩
abbrev SSeg : Shape := ⟨1, ![8192]⟩
abbrev SBand : Shape := ⟨1, ![4096]⟩

def zeroF : F .f32 := Scalar.ofBits .f32 0x00000000#32
def oneF : F .f32 := Scalar.ofBits .f32 0x3F800000#32

/-- Word n of a table, as a number; 0 past the table's end (never read there). -/
def wordAt {n : Nat} (t : (⟨1, ![n]⟩ : Shape).Idx → BitVec 32) (i : Nat) : Nat :=
  if h : i < n then (t (ix1 ⟨i, h⟩)).toNat else 0

/-- Word p of row b of the flattened vertices; zero outside the array (never read there). -/
def xAt (X : SX.Idx → F .f32) (b p : Nat) : F .f32 :=
  if h : b < 1024 ∧ p < 31425 then X (ix2 ⟨b, h.1⟩ ⟨p, h.2⟩) else zeroF

/-- Lane r's count at slot q after k steps. -/
def cntAcc (bid : SBand.Idx → BitVec 32) : Nat → Nat → Nat → F .f32
  | 0, _, _ => zeroF
  | k + 1, r, q => if wordAt bid (k * 16 + r) = q / 3 then FloatOps.idxAddf (cntAcc bid k r q) oneF else cntAcc bid k r q

/-- Lane r's sum at slot q, for batch b, after k steps. -/
def bandAcc (X : SX.Idx → F .f32) (bv bid : SBand.Idx → BitVec 32) (b : Nat) : Nat → Nat → Nat → F .f32
  | 0, _, _ => zeroF
  | k + 1, r, q =>
      if wordAt bid (k * 16 + r) = q / 3 then FloatOps.idxAddf (bandAcc X bv bid b k r q) (xAt X b (wordAt bv (k * 16 + r) * 3 + q % 3))
      else bandAcc X bv bid b k r q

/-- The sixteen lanes' values added up from zero, lane 0 first. -/
def laneSum (a : Nat → F .f32) : F .f32 := (List.range 16).foldl (fun s r => FloatOps.addf s (a r)) zeroF

def invCnt (bid : SBand.Idx → BitVec 32) (q : Nat) : F .f32 :=
  FloatOps.divf oneF (FloatOps.maximumf (laneSum fun r => cntAcc bid 256 r q) oneF)

/-- Entry p of row b of the result. -/
def rowOut (X : SX.Idx → F .f32) (seg : SSeg.Idx → BitVec 32) (bv bid : SBand.Idx → BitVec 32) (b p : Nat) : F .f32 :=
  if p < 24576 then xAt X b (wordAt seg (p / 3) * 3 + p % 3)
  else FloatOps.mulf (laneSum fun r => bandAcc X bv bid b 256 r (p - 24576)) (invCnt bid (p - 24576))

/-- The whole flattened result. -/
def KO (X : SX.Idx → F .f32) (seg : SSeg.Idx → BitVec 32) (bv bid : SBand.Idx → BitVec 32) : SO.Idx → F .f32 :=
  fun j => rowOut X seg bv bid (j 0).val (j 1).val

end Cert.Proof.KModel

end
-- ==== Proof.LibSums.lean ====
/-
  Sums, free of any program: a left fold of additions over 0, 1, …, n − 1 from zero is the sum over that range; a sum
  over n blocks of m consecutive numbers is the sum over the first n·m numbers; a finite sum of zeros and ones in the
  extended reals is a real number; multiplying by 1 / max(count, 1) is dividing by max(count, 1) when the count is real.
-/
import Idealize.ShloMosaic.PureOps.Ideal
import Mathlib.Algebra.BigOperators.Intervals

noncomputable section

namespace Cert.Proof.LibSums

open Idealize.ShloMosaic
open scoped BigOperators

/-- Adding a(0), a(1), …, a(n − 1) in that order onto zero gives their sum. -/
theorem foldl_range_add {M : Type} [AddCommMonoid M] (a : ℕ → M) (n : ℕ) :
    (List.range n).foldl (fun s r => s + a r) 0 = ∑ r ∈ Finset.range n, a r := by
  induction n with
  | zero => simp
  | succ n ih =>
    rw [List.range_succ, List.foldl_append, ih, Finset.sum_range_succ]
    rfl

/-- n blocks of m consecutive numbers are the first n·m numbers. -/
theorem sum_range_mul {M : Type} [AddCommMonoid M] (f : ℕ → M) (n m : ℕ) :
    ∑ j ∈ Finset.range n, ∑ r ∈ Finset.range m, f (j * m + r) = ∑ e ∈ Finset.range (n * m), f e := by
  induction n with
  | zero => simp
  | succ n ih => rw [Finset.sum_range_succ, ih, Nat.succ_mul, Finset.sum_range_add]

/-- Lane by lane, then step by step, is pair by pair: 16 lanes of 256 steps, pair 16·j + r at step j in lane r. -/
theorem sum_lanes_steps {M : Type} [AddCommMonoid M] (f : ℕ → M) (n m : ℕ) :
    ∑ r ∈ Finset.range m, ∑ j ∈ Finset.range n, f (j * m + r) = ∑ e : Fin (n * m), f e.val := by
  rw [Finset.sum_comm, sum_range_mul, Finset.sum_range]

/-- A finite sum of zeros and ones in the extended reals is a real number. -/
theorem exists_real_sum_ite {ι : Type} (s : Finset ι) (p : ι → Prop) [DecidablePred p] :
    ∃ n : ℝ, (∑ e ∈ s, if p e then (1 : EReal) else 0) = (n : EReal) := by
  classical
  induction s using Finset.induction_on with
  | empty => exact ⟨0, by simp⟩
  | insert a s ha ih =>
    obtain ⟨n, hn⟩ := ih
    rw [Finset.sum_insert ha, hn]
    by_cases h : p a
    · exact ⟨1 + n, by rw [if_pos h, EReal.coe_add, EReal.coe_one]⟩
    · exact ⟨n, by rw [if_neg h, zero_add]⟩

/-- For a real count, times one over max(count, 1) is divided by max(count, 1). -/
theorem mul_div_one_max (s C : EReal) (hC : ∃ n : ℝ, C = (n : EReal)) :
    s * Ideal.div 1 (max C 1) = Ideal.div s (max C 1) := by
  obtain ⟨n, rfl⟩ := hC
  have hm : max (n : EReal) 1 = ((max n 1 : ℝ) : EReal) := by
    rw [← EReal.coe_one]
    exact (EReal.coe_strictMono.monotone.map_max).symm
  have hne : max n 1 ≠ 0 := by
    have : (1 : ℝ) ≤ max n 1 := le_max_right _ _
    intro h; rw [h] at this; exact absurd this (by norm_num)
  rw [hm, Ideal.div_coe hne, Ideal.div_coe hne, one_mul]

end Cert.Proof.LibSums

end
-- ==== Proof.KValue.lean ====
/-
  The kernel's result model, unflattened, IS the specification, over the extended reals.

  Over the extended reals every addition the kernel makes is the exact sum, so the order in which it adds does not
  matter: a lane's running sum after 256 steps is the sum over its 256 pairs of the terms whose band matches; the 16
  lanes added up give the sum over all 4096 pairs (pair 16·j + r is step j of lane r); the count is a real number, so
  multiplying by 1 / max(count, 1) is dividing by max(count, 1). Flat word p of a row is coordinate p % 3 of vertex
  p / 3, and flat entry 3·r + c of a result row is coordinate c of result row r: the two reshapes keep row-major order.
-/
import proofs.«203378_g9921374454198_cont_sun_m_1167_43_alg».proof.Proof.KModel
import proofs.«203378_g9921374454198_cont_sun_m_1167_43_alg».proof.Proof.Spec
import proofs.«203378_g9921374454198_cont_sun_m_1167_43_alg».proof.Proof.LibSums
import Idealize.ShloMosaic.Lib.Pipeline.Value
import Idealize.ShloMosaic.Lib.IdealHost
import Idealize.ShloMosaic.PureOps.Ideal.Laws

noncomputable section

namespace Cert.Proof.KValue

open Cert.Proof Cert.Proof.KModel Cert.Proof.LibSums Idealize.ShloMosaic Idealize.ShloMosaic.ValueIdx
open scoped BigOperators

/-! ## The constants and the tables -/

theorem zeroF_eq : (zeroF : Ideal .f32) = 0 := Ideal.ofBits_zero_f32
theorem oneF_eq : (oneF : Ideal .f32) = 1 := Ideal.ofBits_one_f32

/-- Inside the table, `wordAt` is the table's word. -/
theorem wordAt_fin {n : Nat} (t : (⟨1, ![n]⟩ : Shape).Idx → BitVec 32) (e : Fin n) : wordAt t e.val = (t (ix1 e)).toNat := by
  unfold wordAt
  rw [dif_pos e.isLt]

/-! ## The running sums -/

/-- Lane r's count at slot q after k steps: the number of its first k pairs whose band is q / 3. -/
theorem cntAcc_eq (bid : SBand.Idx → BitVec 32) (k r q : Nat) :
    cntAcc (F := Ideal) bid k r q = ∑ j ∈ Finset.range k, if wordAt bid (j * 16 + r) = q / 3 then (1 : EReal) else 0 := by
  induction k with
  | zero => exact zeroF_eq.trans (Finset.sum_range_zero _).symm
  | succ k ih =>
    have e : cntAcc (F := Ideal) bid (k + 1) r q
        = if wordAt bid (k * 16 + r) = q / 3 then cntAcc (F := Ideal) bid k r q + oneF else cntAcc (F := Ideal) bid k r q := rfl
    rw [e, Finset.sum_range_succ, ← ih, oneF_eq]
    by_cases h : wordAt bid (k * 16 + r) = q / 3
    · rw [if_pos h, if_pos h]
    · rw [if_neg h, if_neg h, add_zero]

/-- Lane r's sum at slot q after k steps: over its first k pairs whose band is q / 3, the word of the pair's vertex. -/
theorem bandAcc_eq (X : SX.Idx → Ideal .f32) (bv bid : SBand.Idx → BitVec 32) (b k r q : Nat) :
    bandAcc (F := Ideal) X bv bid b k r q
      = ∑ j ∈ Finset.range k, if wordAt bid (j * 16 + r) = q / 3 then xAt X b (wordAt bv (j * 16 + r) * 3 + q % 3) else 0 := by
  induction k with
  | zero => exact zeroF_eq.trans (Finset.sum_range_zero _).symm
  | succ k ih =>
    have e : bandAcc (F := Ideal) X bv bid b (k + 1) r q
        = if wordAt bid (k * 16 + r) = q / 3
            then bandAcc (F := Ideal) X bv bid b k r q + xAt X b (wordAt bv (k * 16 + r) * 3 + q % 3)
            else bandAcc (F := Ideal) X bv bid b k r q := rfl
    rw [e, Finset.sum_range_succ, ← ih]
    by_cases h : wordAt bid (k * 16 + r) = q / 3
    · rw [if_pos h, if_pos h]
    · rw [if_neg h, if_neg h, add_zero]

/-- The sixteen lanes added up from zero are their sum. -/
theorem laneSum_eq (a : Nat → Ideal .f32) : laneSum a = ∑ r ∈ Finset.range 16, a r := by
  unfold laneSum
  rw [zeroF_eq]
  exact foldl_range_add a 16

/-- All lanes' counts at slot q: the number of pairs whose band is q / 3. -/
theorem laneSum_cnt (bid : SBand.Idx → BitVec 32) (q : Nat) :
    laneSum (fun r => cntAcc (F := Ideal) bid 256 r q) = Spec.count bid (q / 3) := by
  rw [laneSum_eq]
  simp only [cntAcc_eq]
  rw [sum_lanes_steps (fun e => if wordAt bid e = q / 3 then (1 : EReal) else 0) 256 16]
  unfold Spec.count
  exact Finset.sum_congr rfl fun e _ => by rw [wordAt_fin bid e]

/-- All lanes' sums at slot q: over the pairs whose band is q / 3, the word of the pair's vertex. -/
theorem laneSum_band (X : SX.Idx → Ideal .f32) (bv bid : SBand.Idx → BitVec 32) (b q : Nat) :
    laneSum (fun r => bandAcc (F := Ideal) X bv bid b 256 r q)
      = ∑ e : Fin 4096, if (bid (ix1 e)).toNat = q / 3 then xAt X b ((bv (ix1 e)).toNat * 3 + q % 3) else 0 := by
  rw [laneSum_eq]
  simp only [bandAcc_eq]
  rw [sum_lanes_steps (fun e => if wordAt bid e = q / 3 then xAt X b (wordAt bv e * 3 + q % 3) else 0) 256 16]
  exact Finset.sum_congr rfl fun e _ => by rw [wordAt_fin bid e, wordAt_fin bv e]

/-- One over max(count, 1). -/
theorem invCnt_eq (bid : SBand.Idx → BitVec 32) (q : Nat) :
    invCnt (F := Ideal) bid q = Ideal.div 1 (max (Spec.count bid (q / 3)) 1) := by
  unfold invCnt
  rw [laneSum_cnt, oneF_eq]
  rfl

/-! ## Through the first reshape: a flat word is a coordinate of a vertex -/

theorem xAt_reshape (verts : Spec.SV.Idx → EReal) (hin : Spec.SV.ShapeCasts SX) (b v c : Nat) (hb : b < 1024) (hc : c < 3) :
    xAt (F := Ideal) (fun i => shapeCast SX verts hin i) b (v * 3 + c) = Spec.vtx verts b v c := by
  unfold xAt Spec.vtx
  by_cases hv : v < 10475
  · rw [dif_pos (⟨hb, by omega⟩ : b < 1024 ∧ v * 3 + c < 31425), dif_pos (⟨hb, hv, hc⟩ : b < 1024 ∧ v < 10475 ∧ c < 3)]
    refine shapeCast_apply verts hin (ix2 (⟨b, hb⟩ : Fin 1024) (⟨v * 3 + c, by omega⟩ : Fin 31425))
      (ix3 (⟨b, hb⟩ : Fin 1024) (⟨v, hv⟩ : Fin 10475) (⟨c, hc⟩ : Fin 3)) ?_
    rw [Shape.rowMajor_val_three, Shape.rowMajor_val_two]
    show (b * 10475 + v) * 3 + c = b * 31425 + (v * 3 + c)
    omega
  · rw [dif_neg (fun h : b < 1024 ∧ v * 3 + c < 31425 => hv (by omega)),
      dif_neg (fun h : b < 1024 ∧ v < 10475 ∧ c < 3 => hv h.2.1)]
    exact zeroF_eq

/-! ## A row of the result -/

section Row
variable (verts : Spec.SV.Idx → EReal) (hin : Spec.SV.ShapeCasts SX) (seg : Spec.SSeg.Idx → BitVec 32)
  (bv bid : Spec.SBand.Idx → BitVec 32)

/-- Entry 3·r + c for r < 8192: coordinate c of segment vertex r. -/
theorem rowOut_lt (b r c : Nat) (hb : b < 1024) (hr : r < 8192) (hc : c < 3) :
    rowOut (F := Ideal) (fun i => shapeCast SX verts hin i) seg bv bid b (r * 3 + c)
      = Spec.vtx verts b (seg (ix1 (⟨r, hr⟩ : Fin 8192))).toNat c := by
  unfold rowOut
  rw [if_pos (by omega : r * 3 + c < 24576), show (r * 3 + c) / 3 = r by omega, show (r * 3 + c) % 3 = c by omega,
    wordAt_fin seg (⟨r, hr⟩ : Fin 8192)]
  exact xAt_reshape verts hin b _ c hb hc

/-- Entry 3·r + c for r ≥ 8192: the centroid of band r − 8192 at coordinate c. -/
theorem rowOut_ge (b r c : Nat) (hb : b < 1024) (hr : ¬ r < 8192) (hc : c < 3) :
    rowOut (F := Ideal) (fun i => shapeCast SX verts hin i) seg bv bid b (r * 3 + c)
      = Ideal.div (Spec.bandSum verts bv bid b (r - 8192) c) (max (Spec.count bid (r - 8192)) 1) := by
  unfold rowOut
  have hq : r * 3 + c - 24576 = (r - 8192) * 3 + c := by omega
  have hd : ((r - 8192) * 3 + c) / 3 = r - 8192 := by omega
  have hm : ((r - 8192) * 3 + c) % 3 = c := by omega
  rw [if_neg (by omega : ¬ r * 3 + c < 24576), hq, laneSum_band, invCnt_eq, hd, hm]
  have hs : (∑ e : Fin 4096, if (bid (ix1 e)).toNat = r - 8192
        then xAt (F := Ideal) (fun i => shapeCast SX verts hin i) b ((bv (ix1 e)).toNat * 3 + c) else 0)
      = Spec.bandSum verts bv bid b (r - 8192) c := by
    unfold Spec.bandSum
    exact Finset.sum_congr rfl fun e _ => by rw [xAt_reshape verts hin b _ c hb hc]
  rw [hs]
  exact mul_div_one_max _ _ (exists_real_sum_ite Finset.univ fun e : Fin 4096 => (bid (ix1 e)).toNat = r - 8192)

end Row

/-! ## The whole result -/

/-- The specification at a row below 8192. -/
theorem G_lt (verts : Spec.SV.Idx → EReal) (seg : Spec.SSeg.Idx → BitVec 32) (bv bid : Spec.SBand.Idx → BitVec 32)
    (b : Fin 1024) (r : Fin 8224) (c : Fin 3) (h : r.val < 8192) :
    Spec.G verts seg bv bid (ix3 b r c) = Spec.vtx verts b.val (seg (ix1 (⟨r.val, h⟩ : Fin 8192))).toNat c.val :=
  dif_pos h

/-- The specification at a row from 8192 on. -/
theorem G_ge (verts : Spec.SV.Idx → EReal) (seg : Spec.SSeg.Idx → BitVec 32) (bv bid : Spec.SBand.Idx → BitVec 32)
    (b : Fin 1024) (r : Fin 8224) (c : Fin 3) (h : ¬ r.val < 8192) :
    Spec.G verts seg bv bid (ix3 b r c)
      = Ideal.div (Spec.bandSum verts bv bid b.val (r.val - 8192) c.val) (max (Spec.count bid (r.val - 8192)) 1) :=
  dif_neg h

/-- The kernel's flattened result, unflattened, is the specification (for ANY contents of the integer tables: both
    read the tables' words unsigned, and a vertex number past the array reads as zero on both sides). -/
theorem KO_eq_G (verts : Spec.SV.Idx → EReal) (seg : Spec.SSeg.Idx → BitVec 32) (bv bid : Spec.SBand.Idx → BitVec 32)
    (hcastIn : Spec.SV.ShapeCasts (⟨2, ![1024, 31425]⟩ : Shape))
    (hcastOut : (⟨2, ![1024, 24672]⟩ : Shape).ShapeCasts (⟨3, ![1024, 8224, 3]⟩ : Shape)) :
    (fun i => shapeCast (⟨3, ![1024, 8224, 3]⟩ : Shape)
        (KO (F := Ideal) (fun i => shapeCast (⟨2, ![1024, 31425]⟩ : Shape) verts hcastIn i) seg bv bid) hcastOut i)
      = Spec.G verts seg bv bid := by
  funext j
  obtain ⟨b, r, c, rfl⟩ : ∃ (b : Fin 1024) (r : Fin 8224) (c : Fin 3), j = ix3 b r c := ⟨j 0, j 1, j 2, eq_ix3 j⟩
  have hb := b.isLt
  have hr := r.isLt
  have hc := c.isLt
  refine (shapeCast_apply _ hcastOut (ix3 b r c) (ix2 b (⟨r.val * 3 + c.val, by omega⟩ : Fin 24672)) ?_).trans ?_
  · rw [Shape.rowMajor_val_three, Shape.rowMajor_val_two]
    show b.val * 24672 + (r.val * 3 + c.val) = (b.val * 8224 + r.val) * 3 + c.val
    omega
  show rowOut (F := Ideal) (fun i => shapeCast SX verts hcastIn i) seg bv bid b.val (r.val * 3 + c.val) = _
  by_cases h : r.val < 8192
  · rw [rowOut_lt verts hcastIn seg bv bid b.val r.val c.val hb h hc]
    exact (G_lt verts seg bv bid b r c h).symm
  · rw [rowOut_ge verts hcastIn seg bv bid b.val r.val c.val hb h hc]
    exact (G_ge verts seg bv bid b r c h).symm

end Cert.Proof.KValue

end
-- ==== Proof.KI.Setup.lean ====
/-
  The idealized kernel's program as the launch theorem sees it, the resource algebra, the arrays' places, and the
  CONTRACT of one vector subcore's task: what a task is handed, and what it hands back.

  The device has two SparseCores of sixteen vector subcores each. Task (c, i) — SparseCore c, subcore i — is worker
  number w = 2·i + c and serves the 32 batches 32·w, …, 32·w + 31. It reads the three index tables whole and rows of
  the flattened vertex array, and writes rows 32·w + bi of the flattened result. So a task is handed a READ SHARE of
  each of the four arrays it reads (one of 32 equal tokens of the whole array), and the 32 result rows that are its own,
  outright; it hands the shares back unchanged and the rows holding the expected contents.
-/
import proofs.«203378_g9921374454198_cont_sun_m_1167_43_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203378_g9921374454198_cont_sun_m_1167_43_alg».proof.Proof.Gen.KernelIdeal
import proofs.«203378_g9921374454198_cont_sun_m_1167_43_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-! ## The resource algebra: the handshakes' rounds beside the local transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays' places -/

/-- The four arguments, the flattened vertices (`main_v0`), the flattened result (`main_v1`) and the result, on device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2

/-! ## Workers, rows, shares -/

theorem hdivO : 1024 ∣ S1024x24672.size 0 := ⟨1, rfl⟩
/-- Row `r` of the flattened result, one of 1024 equal parts along the batch axis. -/
abbrev rowO (r : Fin 1024) : Rect S1024x24672 := Rect.part (s := S1024x24672) (a₀ := 0) hdivO r
abbrev rowSetO (r : Fin 1024) : Finset S1024x24672.Idx :=
  ((Memref.whole main_v1_scv : Memref sig .scVector .hbm S1024x24672 .f32).view.slice (rowO r)).set

/-- Task (c, i)'s number among the 32 tasks (which read share is its own). -/
def tileNo (c : Fin 2) (i : Fin 16) : Fin 32 := ⟨c.val * 16 + i.val, by omega⟩
/-- The batch task (c, i) serves at trip `bi`: 32·(2·i + c) + bi. -/
def tileRow (c : Fin 2) (i : Fin 16) (bi : Fin 32) : Fin 1024 := ⟨(i.val * 2 + c.val) * 32 + bi.val, by omega⟩

variable (m : (ℓ : Loc nD τ sig) → Buf (Elt F) ℓ)
-- `X d`: what `main_v0` holds when the kernel is called; `KO d`: what `main_v1` is to hold when it returns.
variable (X : (d : Dev nD) → Buf (Elt F) (v0Loc d)) (KO : (d : Dev nD) → Buf (Elt F) (v1Loc d))

/-- Read share number `n` (of 32) of the arrays a task reads. -/
def readShares (d : Dev nD) (n : Fin 32) : sProp 𝕄 :=
  iprop((v0Loc d ↦{Transfers.shareTok fullShare 32 n} X d) ∗ (a1Loc d ↦{Transfers.shareTok fullShare 32 n} m (a1Loc d))
    ∗ (a2Loc d ↦{Transfers.shareTok fullShare 32 n} m (a2Loc d)) ∗ (a3Loc d ↦{Transfers.shareTok fullShare 32 n} m (a3Loc d)))

/-- What task (c, i) is handed: its read shares, and its 32 result rows at their launch contents. -/
def TileGo (d : Dev nD) (c : Fin 2) (i : Fin 16) : sProp 𝕄 :=
  iprop(readShares m X d (tileNo c i)
    ∗ bigSep Finset.univ fun bi : Fin 32 => v1Loc d ↦[rowSetO (tileRow c i bi)]{fullShare} m (v1Loc d))

/-- What it hands back: the shares, and each of its rows at the expected contents. -/
def TileTd (d : Dev nD) (c : Fin 2) (i : Fin 16) : sProp 𝕄 :=
  iprop(readShares m X d (tileNo c i)
    ∗ bigSep Finset.univ fun bi : Fin 32 =>
        iprop(∃ f, ⌜∀ j ∈ rowSetO (tileRow c i bi), f j = KO d j⌝ ∗ v1Loc d ↦[rowSetO (tileRow c i bi)]{fullShare} f))

/-! ## The task's contract -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

/-- The kernel function on the whole arrays and a subcore's own scratch, as the body table calls it. -/
abbrev body [FloatOps F] (L : grid0.Coords) :=
  cc0__body (F := F) L (Memref.whole main_v0_scv) (Memref.isWhole_whole _) (Memref.whole main_arg1_scv) (Memref.isWhole_whole _)
    (Memref.whole main_arg2_scv) (Memref.isWhole_whole _) (Memref.whole main_arg3_scv) (Memref.isWhole_whole _)
    (Memref.whole main_v1_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    cc0_scratch7 cc0_scratch8 cc0_scoped0 cc0_scoped1 cc0_scoped2 cc0_scoped3 cc0_scoped4

/-- One task, at a symbolic place: from what it is handed, its scoped storage and what its thread owes the launch, the
    kernel function runs to the end and hands back what the contract says. -/
def TileSpec [FloatOps F] : Prop :=
  ∀ (d : Dev nD) (L : grid0.Coords) (O : CellTallies nD τ sig (HIx 1)) (W : Waits sig (HIx 1)), (∀ g, O g none = 0) →
    iprop(levAts (K (F := F)).L (K (F := F)).lev ∗ TileGo m X d (cL L) (iL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (body (F := F) L)
          fun _ => (iprop(TileTd m X KO d (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

end Cert.Proof.KI

end
-- ==== Proof.KI.LaunchPay.lean ====
/-
  The launch of the one SparseCore call, first part: what the handshakes carry, the obligation of one task
  from the task's contract, and how a SparseCore's operands split among its sixteen tasks.

  The call hands SparseCore c the sixteen tasks' operands side by side (each task's read shares and its 32 result
  rows), so the split among the tasks is a regrouping and nothing else.
-/
import proofs.«203378_g9921374454198_cont_sun_m_1167_43_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ)
variable (X : (d : Dev nD) → Buf (Elt F) (v0Loc d)) (KO : (d : Dev nD) → Buf (Elt F) (v1Loc d))

/-! ## What the handshakes carry -/

/-- What SparseCore c's sixteen tasks are handed, side by side; and what they hand back. -/
def CoreGo (d : Dev nD) (c : Fin 2) : sProp 𝕄 := bigSep Finset.univ fun i : Fin 16 => TileGo m X d c i
def CoreTd (d : Dev nD) (c : Fin 2) : sProp 𝕄 := bigSep Finset.univ fun i : Fin 16 => TileTd m X KO d c i

instance readShares_storable (d : Dev nD) (n : Fin 32) : BI.Storable (upEmb : UEmb _ 𝕄) (readShares m X d n) := by
  unfold readShares; infer_instance
instance TileGo_storable (d : Dev nD) (c : Fin 2) (i : Fin 16) : BI.Storable (upEmb : UEmb _ 𝕄) (TileGo m X d c i) := by
  unfold TileGo; infer_instance
instance TileTd_storable (d : Dev nD) (c : Fin 2) (i : Fin 16) : BI.Storable (upEmb : UEmb _ 𝕄) (TileTd m X KO d c i) := by
  unfold TileTd; infer_instance
instance CoreGo_storable (d : Dev nD) (c : Fin 2) : BI.Storable (upEmb : UEmb _ 𝕄) (CoreGo m X d c) := by
  unfold CoreGo; infer_instance
instance CoreTd_storable (d : Dev nD) (c : Fin 2) : BI.Storable (upEmb : UEmb _ 𝕄) (CoreTd m X KO d c) := by
  unfold CoreTd; infer_instance

/-- The one call's payloads: a SparseCore's start carries its tasks' operands, a task's go its own. -/
def P : (K (F := F)).Pay (nD := nD) (Val := Elt F) (Name := ℕ) (U := UU) where
  st := fun q d c => match q with | 0 => CoreGo m X d (Fin.cast nCore_zero c)
  dn := fun q d c => match q with | 0 => CoreTd m X KO d (Fin.cast nCore_zero c)
  go := fun q d c i => match q with | 0 => TileGo m X d (Fin.cast nCore_zero c) (Fin.cast nSub_zero i)
  td := fun q d c i => match q with | 0 => TileTd m X KO d (Fin.cast nCore_zero c) (Fin.cast nSub_zero i)
  x := fun _ _ => iprop(emp)

theorem P_st (d : Dev nD) (c : Fin ((K (F := F)).nCore 0)) : (P m X KO).st 0 d c = CoreGo m X d (Fin.cast nCore_zero c) := rfl
theorem P_dn (d : Dev nD) (c : Fin ((K (F := F)).nCore 0)) : (P m X KO).dn 0 d c = CoreTd m X KO d (Fin.cast nCore_zero c) := rfl
theorem P_go (d : Dev nD) (c : Fin ((K (F := F)).nCore 0)) (i : Fin ((K (F := F)).nSub 0)) :
    (P m X KO).go 0 d c i = TileGo m X d (Fin.cast nCore_zero c) (Fin.cast nSub_zero i) := rfl
theorem P_td (d : Dev nD) (c : Fin ((K (F := F)).nCore 0)) (i : Fin ((K (F := F)).nSub 0)) :
    (P m X KO).td 0 d c i = TileTd m X KO d (Fin.cast nCore_zero c) (Fin.cast nSub_zero i) := rfl
theorem P_x (q : Fin 1) (thr : Thread nD τ) : (P m X KO).x q thr = iprop(emp) := rfl

instance P_storable : (P (F := F) m X KO).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## The obligation of one task, from its contract -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => body (F := F) (coordsV c s)) ⟨⟩ c s := rfl

omit [FloatOps F] in
theorem obl_pre {A B C : sProp 𝕄} : iprop(A ∗ emp ∗ B ∗ C) ⊢ iprop(A ∗ B ∗ C) := by
  iintro ⟨HA, -, HB, HC⟩
  isplitl [HA]; · iexact HA
  isplitl [HB]; · iexact HB
  iexact HC

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileSpec m X KO) : (K (F := F)).TileObl (D (F := F)) 𝒱 (P m X KO) v₀ 0 := by
  intro d c i O W hO _ _
  -- this kernel owes nothing for a protocol of its own
  simp only [show (P m X KO).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, _root_.and_self, ↓reduceDIte]
  rw [P_x, P_go, P_td]
  exact obl_pre.trans ((htile d (coordsV ⟨_, hc.1⟩ ⟨_, hc.2⟩) O W hO).trans (wp_mono frame _ _ fun _ => obl_post))

/-! ## A SparseCore's operands among its tasks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem vecSplit : (K (F := F)).VecSplit' (P m X KO) 0 := by
  intro d c
  rw [P_st, P_dn]
  simp only [P_go, P_td]
  rw [bigSep_tasks (F := F) (fun i => TileGo m X d (Fin.cast nCore_zero c) i),
    bigSep_tasks (F := F) (fun i => TileTd m X KO d (Fin.cast nCore_zero c) i)]
  unfold CoreGo CoreTd
  iintro H; imodintro
  isplitl [H]; · iexact H
  iintro H; iexact H

end Cert.Proof.KI

end
-- ==== Proof.KI.LaunchDeal.lean ====
/-
  The launch of the one SparseCore call, second part: dealing the arrays to the 32 tasks and taking them back.

  Each array the tasks read is cut into 32 read shares and a remainder that stays with the TensorCore over the call;
  the result array is cut into its 1024 rows. Task (c, i) gets share number 16·c + i and the rows 32·(2·i + c) + bi,
  bi < 32: both maps are bijections (onto the 32 shares, onto the 1024 rows), so the shares and the rows regroup per
  SparseCore and per task with nothing left over, and regroup back. A row that comes back holding, on its own
  elements, the expected contents is the expected array's row; the rows together are the expected array whole.
-/
import proofs.«203378_g9921374454198_cont_sun_m_1167_43_alg».proof.Proof.KI.LaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The 32 tasks and the 1024 rows, counted -/

/-- Task (c, i) ↦ its number 16·c + i: a bijection onto the 32 shares. -/
def taskEquiv : Fin 2 × Fin 16 ≃ Fin 32 where
  toFun p := tileNo p.1 p.2
  invFun n := (⟨n.val / 16, by omega⟩, ⟨n.val % 16, by omega⟩)
  left_inv := fun ⟨⟨c, hc⟩, ⟨i, hi⟩⟩ => by
    refine Prod.ext (Fin.ext ?_) (Fin.ext ?_)
    · show (c * 16 + i) / 16 = c; omega
    · show (c * 16 + i) % 16 = i; omega
  right_inv := fun ⟨n, hn⟩ => Fin.ext (by show n / 16 * 16 + n % 16 = n; omega)

/-- Task (c, i) and trip bi ↦ the row 32·(2·i + c) + bi: a bijection onto the 1024 rows. -/
def rowEquiv : (Fin 2 × Fin 16) × Fin 32 ≃ Fin 1024 where
  toFun p := tileRow p.1.1 p.1.2 p.2
  invFun r := ((⟨r.val / 32 % 2, by omega⟩, ⟨r.val / 64, by omega⟩), ⟨r.val % 32, by omega⟩)
  left_inv := fun ⟨⟨⟨c, hc⟩, ⟨i, hi⟩⟩, ⟨b, hb⟩⟩ => by
    refine Prod.ext (Prod.ext (Fin.ext ?_) (Fin.ext ?_)) (Fin.ext ?_)
    · show ((i * 2 + c) * 32 + b) / 32 % 2 = c; omega
    · show ((i * 2 + c) * 32 + b) / 64 = i; omega
    · show ((i * 2 + c) * 32 + b) % 32 = b; omega
  right_inv := fun ⟨r, hr⟩ => Fin.ext (by show (r / 64 * 2 + r / 32 % 2) * 32 + r % 32 = r; omega)

theorem regroupN (Φ : Fin 32 → sProp 𝕄) :
    (bigSep Finset.univ fun c : Fin 2 => bigSep Finset.univ fun i : Fin 16 => Φ (tileNo c i)) = bigSep Finset.univ Φ := by
  rw [bigSep_univ_equiv taskEquiv Φ, bigSep_univ_prod]; rfl

theorem regroupR (Ψ : Fin 1024 → sProp 𝕄) :
    (bigSep Finset.univ fun c : Fin 2 => bigSep Finset.univ fun i : Fin 16 => bigSep Finset.univ fun bi : Fin 32 => Ψ (tileRow c i bi))
      = bigSep Finset.univ Ψ := by
  rw [bigSep_univ_equiv rowEquiv Ψ, bigSep_univ_prod (fun p : (Fin 2 × Fin 16) × Fin 32 => Ψ (rowEquiv p)),
    bigSep_univ_prod (fun p : Fin 2 × Fin 16 => bigSep Finset.univ fun bi : Fin 32 => Ψ (rowEquiv (p, bi)))]
  rfl

/-! ## The result array and its rows -/

theorem rowSetO_eq (r : Fin 1024) : rowSetO r = (rowO r).set := by
  show ((View.whole (main_v1_scv : Ref sig .scVector)).slice (rowO r)).set = _
  rw [View.set_slice]; exact Finset.map_refl
theorem rows_disjoint : ∀ i ∈ (Finset.univ : Finset (Fin 1024)), ∀ j ∈ (Finset.univ : Finset (Fin 1024)), i ≠ j → Disjoint (rowSetO i) (rowSetO j) :=
  fun i _ j _ h => by rw [rowSetO_eq, rowSetO_eq]; exact Rect.part_disjoint hdivO h
theorem rows_cover : (Finset.univ : Finset (Fin 1024)).biUnion rowSetO = Finset.univ :=
  (Finset.biUnion_congr rfl fun i _ => rowSetO_eq i).trans (Rect.biUnion_part hdivO)

theorem v1_rows (d : Dev nD) (f : Buf (Elt F) (v1Loc d)) :
    (v1Loc d ↦{fullShare} f : sProp 𝕄) = bigSep Finset.univ fun r : Fin 1024 => v1Loc d ↦[rowSetO r]{fullShare} f := by
  rw [← pointsTo_biUnion Finset.univ (ℓ := v1Loc d) rowSetO rows_disjoint, rows_cover]; try rfl

variable (m : (ℓ : Loc nD τ sig) → Buf (Elt F) ℓ)
variable (X : (d : Dev nD) → Buf (Elt F) (v0Loc d)) (KO : (d : Dev nD) → Buf (Elt F) (v1Loc d))

/-- A row that holds the expected contents on its own elements is the expected array's row. -/
theorem row_back (d : Dev nD) (r : Fin 1024) :
    (iprop(∃ f, ⌜∀ j ∈ rowSetO r, f j = KO d j⌝ ∗ v1Loc d ↦[rowSetO r]{fullShare} f) : sProp 𝕄) ⊢ v1Loc d ↦[rowSetO r]{fullShare} KO d := by
  iintro ⟨%f, %hf, H⟩
  iapply (Entails.of_eq (pointsTo_congr hf)); iexact H

/-- The 1024 rows, each holding the expected contents on its own elements, are the expected array whole. -/
theorem rows_back (d : Dev nD) :
    (bigSep Finset.univ fun r : Fin 1024 => iprop(∃ f, ⌜∀ j ∈ rowSetO r, f j = KO d j⌝ ∗ v1Loc d ↦[rowSetO r]{fullShare} f) : sProp 𝕄)
      ⊢ v1Loc d ↦{fullShare} KO d := by
  rw [v1_rows d (KO d)]
  exact bigSep_mono fun r _ => row_back KO d r

/-! ## An array every task reads: 32 read shares and a remainder -/

theorem shares_eq {ℓ : Loc nD τ sig} (f : Buf (Elt F) ℓ) :
    (ℓ ↦{fullShare} f : sProp 𝕄)
      = iprop((ℓ ↦{Transfers.shareDrop fullShare 32} f) ∗ bigSep Finset.univ fun n : Fin 32 => ℓ ↦{Transfers.shareTok fullShare 32 n} f) :=
  BI.equiv_iff.mp ⟨(Transfers.pointsTo_toks fullShare 32).1, (Transfers.pointsTo_toks fullShare 32).2⟩

/-- What stays with the TensorCore over the call: the remainder of each array the tasks read. -/
def Rem (d : Dev nD) : sProp 𝕄 :=
  iprop((v0Loc d ↦{Transfers.shareDrop fullShare 32} X d) ∗ (a1Loc d ↦{Transfers.shareDrop fullShare 32} m (a1Loc d))
    ∗ (a2Loc d ↦{Transfers.shareDrop fullShare 32} m (a2Loc d)) ∗ (a3Loc d ↦{Transfers.shareDrop fullShare 32} m (a3Loc d)))

theorem readShares_all (d : Dev nD) :
    (bigSep Finset.univ fun n : Fin 32 => readShares m X d n)
      = iprop((bigSep Finset.univ fun n : Fin 32 => v0Loc d ↦{Transfers.shareTok fullShare 32 n} X d)
        ∗ (bigSep Finset.univ fun n : Fin 32 => a1Loc d ↦{Transfers.shareTok fullShare 32 n} m (a1Loc d))
        ∗ (bigSep Finset.univ fun n : Fin 32 => a2Loc d ↦{Transfers.shareTok fullShare 32 n} m (a2Loc d))
        ∗ (bigSep Finset.univ fun n : Fin 32 => a3Loc d ↦{Transfers.shareTok fullShare 32 n} m (a3Loc d))) := by
  unfold readShares
  rw [bigSep_sep', bigSep_sep', bigSep_sep']

/-! ## The two SparseCores' operands, flat -/

theorem coresGo_eq (d : Dev nD) :
    (bigSep Finset.univ fun c : Fin 2 => CoreGo m X d c)
      = iprop((bigSep Finset.univ fun n : Fin 32 => readShares m X d n)
          ∗ bigSep Finset.univ fun r : Fin 1024 => v1Loc d ↦[rowSetO r]{fullShare} m (v1Loc d)) := by
  unfold CoreGo TileGo
  simp only [bigSep_sep']
  rw [regroupN (fun n => readShares m X d n), regroupR (fun r => v1Loc d ↦[rowSetO r]{fullShare} m (v1Loc d))]

theorem coresTd_eq (d : Dev nD) :
    (bigSep Finset.univ fun c : Fin 2 => CoreTd m X KO d c)
      = iprop((bigSep Finset.univ fun n : Fin 32 => readShares m X d n)
          ∗ bigSep Finset.univ fun r : Fin 1024 =>
              iprop(∃ f, ⌜∀ j ∈ rowSetO r, f j = KO d j⌝ ∗ v1Loc d ↦[rowSetO r]{fullShare} f)) := by
  unfold CoreTd TileTd
  simp only [bigSep_sep']
  rw [regroupN (fun n => readShares m X d n),
    regroupR (fun r => iprop(∃ f, ⌜∀ j ∈ rowSetO r, f j = KO d j⌝ ∗ v1Loc d ↦[rowSetO r]{fullShare} f))]

/-! ## Dealing, and taking back -/

/-- The five arrays whole: the remainders, and the two SparseCores' operands. -/
theorem deal (d : Dev nD) :
    iprop((v0Loc d ↦{fullShare} X d) ∗ (a1Loc d ↦{fullShare} m (a1Loc d)) ∗ (a2Loc d ↦{fullShare} m (a2Loc d))
        ∗ (a3Loc d ↦{fullShare} m (a3Loc d)) ∗ (v1Loc d ↦{fullShare} m (v1Loc d)))
      ⊢ (iprop(Rem m X d ∗ bigSep Finset.univ fun c : Fin 2 => CoreGo m X d c) : sProp 𝕄) := by
  rw [coresGo_eq, readShares_all, shares_eq (X d), shares_eq (m (a1Loc d)), shares_eq (m (a2Loc d)), shares_eq (m (a3Loc d)), v1_rows]
  unfold Rem
  iintro ⟨⟨R0, T0⟩, ⟨R1, T1⟩, ⟨R2, T2⟩, ⟨R3, T3⟩, Hr⟩
  isplitl [R0 R1 R2 R3]
  · isplitl [R0]; · iexact R0
    isplitl [R1]; · iexact R1
    isplitl [R2]; · iexact R2
    iexact R3
  isplitl [T0 T1 T2 T3]
  · isplitl [T0]; · iexact T0
    isplitl [T1]; · iexact T1
    isplitl [T2]; · iexact T2
    iexact T3
  iexact Hr

/-- Back: the remainders and what the two SparseCores return are the four read arrays whole, unchanged, and the
    result array whole at the expected contents. -/
theorem undeal (d : Dev nD) :
    (iprop(Rem m X d ∗ bigSep Finset.univ fun c : Fin 2 => CoreTd m X KO d c) : sProp 𝕄)
      ⊢ iprop((v0Loc d ↦{fullShare} X d) ∗ (a1Loc d ↦{fullShare} m (a1Loc d)) ∗ (a2Loc d ↦{fullShare} m (a2Loc d))
        ∗ (a3Loc d ↦{fullShare} m (a3Loc d)) ∗ (v1Loc d ↦{fullShare} KO d)) := by
  rw [coresTd_eq, readShares_all, shares_eq (X d), shares_eq (m (a1Loc d)), shares_eq (m (a2Loc d)), shares_eq (m (a3Loc d))]
  unfold Rem
  iintro ⟨⟨R0, R1, R2, R3⟩, ⟨T0, T1, T2, T3⟩, Hr⟩
  isplitl [R0 T0]; · isplitl [R0]; · iexact R0
                     iexact T0
  isplitl [R1 T1]; · isplitl [R1]; · iexact R1
                     iexact T1
  isplitl [R2 T2]; · isplitl [R2]; · iexact R2
                     iexact T2
  isplitl [R3 T3]; · isplitl [R3]; · iexact R3
                     iexact T3
  iapply (rows_back KO d); iexact Hr

end Cert.Proof.KI

end
-- ==== Proof.KI.Launch.lean ====
/-
  The launch of the one SparseCore call, last part: @main on the TensorCore and the run of the whole program.

  @main flattens the vertex array (a host reshape), calls the SparseCores, and unflattens the result (a second host
  reshape). Around the call the TensorCore cuts the four arrays the tasks read into read shares and the result array
  into rows, deals them to the two SparseCores, and takes them back: the read arrays come back unchanged, the result
  array at the contents every task's contract states row by row. From one task's contract the library's launch theorem
  then gives the run of all 35 threads.
-/
import proofs.«203378_g9921374454198_cont_sun_m_1167_43_alg».proof.Proof.KI.LaunchDeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## What the two host reshapes compute -/

/-- The vertex array flattened: the same elements in row-major order, one row per batch. -/
abbrev reshapeIn {d : Dev nD} (f : Buf (Elt F) (a0Loc d)) : Buf (Elt F) (v0Loc d) :=
  fun i => shapeCast (main_v0 : Ref sig .tc).ty.shape f shapeCasts_S1024x10475x3_S1024x31425 i
/-- The flat result unflattened. -/
abbrev reshapeOut {d : Dev nD} (f : Buf (Elt F) (v1Loc d)) : Buf (Elt F) (v2Loc d) :=
  fun i => shapeCast (main_v2 : Ref sig .tc).ty.shape f shapeCasts_S1024x24672_S1024x8224x3 i

variable (m : (ℓ : Loc nD τ sig) → Buf (Elt F) ℓ) (ρ : Dev nD → PrngReg)
variable (X : (d : Dev nD) → Buf (Elt F) (v0Loc d)) (KO : (d : Dev nD) → Buf (Elt F) (v1Loc d))

/-! ## The launch element: the handshakes' rounds; the counters are not needed -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m X KO).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

abbrev opIn : HloOp τ sig (Elt F) := StableHlo.reshape main_arg0 main_v0 rfl shapeCasts_S1024x10475x3_S1024x31425
abbrev opOut : HloOp τ sig (Elt F) := StableHlo.reshape main_v1 main_v2 rfl shapeCasts_S1024x24672_S1024x8224x3

/-- The TensorCore's seven arrays, all unscoped. -/
abbrev S7 : Finset (DevRef τ sig) := {a0', a1', a2', a3', v0', v1', v2'}

theorem held_S7 (d : Dev nD) (W : Valuation τ sig (Elt F)) :
    (held (T d) S7 W : sProp 𝕄) = iprop((a0Loc d ↦{fullShare} W a0') ∗ (a1Loc d ↦{fullShare} W a1') ∗ (a2Loc d ↦{fullShare} W a2')
      ∗ (a3Loc d ↦{fullShare} W a3') ∗ (v0Loc d ↦{fullShare} W v0') ∗ (v1Loc d ↦{fullShare} W v1') ∗ (v2Loc d ↦{fullShare} W v2')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (v0Loc d ↦{fullShare} W main_v0) ∗ (v1Loc d ↦{fullShare} W main_v1) ∗ (v2Loc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; and, over the call, the flattened vertices in main_v0 and the expected result in main_v1. -/
def V0 (d : Dev nD) : Valuation τ sig (Elt F) := fun b => m (d, b)
def V1 (d : Dev nD) : Valuation τ sig (Elt F) := Function.update (Function.update (V0 m d) v0' (X d)) v1' (KO d)

theorem unscoped_held (d : Dev nD) : (unscopedBufs d (fun b => m ((SparseCore.T d).loc b)) : sProp 𝕄) = held (T d) S7 (V0 m d) := by
  rw [unscopedBufs_eq, held_S7]; rfl

theorem V1_a0 (d : Dev nD) : V1 m X KO d a0' = m (a0Loc d) :=
  (Function.update_of_ne (show a0' ≠ v1' by decide) _ _).trans (Function.update_of_ne (show a0' ≠ v0' by decide) _ _)
theorem V1_a1 (d : Dev nD) : V1 m X KO d a1' = m (a1Loc d) :=
  (Function.update_of_ne (show a1' ≠ v1' by decide) _ _).trans (Function.update_of_ne (show a1' ≠ v0' by decide) _ _)
theorem V1_a2 (d : Dev nD) : V1 m X KO d a2' = m (a2Loc d) :=
  (Function.update_of_ne (show a2' ≠ v1' by decide) _ _).trans (Function.update_of_ne (show a2' ≠ v0' by decide) _ _)
theorem V1_a3 (d : Dev nD) : V1 m X KO d a3' = m (a3Loc d) :=
  (Function.update_of_ne (show a3' ≠ v1' by decide) _ _).trans (Function.update_of_ne (show a3' ≠ v0' by decide) _ _)
theorem V1_v2 (d : Dev nD) : V1 m X KO d v2' = m (v2Loc d) :=
  (Function.update_of_ne (show v2' ≠ v1' by decide) _ _).trans (Function.update_of_ne (show v2' ≠ v0' by decide) _ _)
theorem V1_v0 (d : Dev nD) : V1 m X KO d v0' = X d :=
  (Function.update_of_ne (show v0' ≠ v1' by decide) _ _).trans (Function.update_self _ _ _)
theorem V1_v1 (d : Dev nD) : V1 m X KO d v1' = KO d := Function.update_self _ _ _

theorem hIn : (opIn (F := F)).bufs ⊆ S7 := show ({a0', v0'} : Finset (DevRef τ sig)) ⊆ S7 by decide
theorem hOut : (opOut (F := F)).bufs ⊆ S7 := show ({v1', v2'} : Finset (DevRef τ sig)) ⊆ S7 by decide

theorem opIn_ne (W : Valuation τ sig (Elt F)) {b : DevRef τ sig} (h : b ∉ ({v0'} : Finset (DevRef τ sig))) : (opIn (F := F)).result W b = W b :=
  (opIn (F := F)).result_of_not_mem W h
theorem opOut_ne (W : Valuation τ sig (Elt F)) {b : DevRef τ sig} (h : b ∉ ({v2'} : Finset (DevRef τ sig))) : (opOut (F := F)).result W b = W b :=
  (opOut (F := F)).result_of_not_mem W h
theorem opIn_v0 (W : Valuation τ sig (Elt F)) (d : Dev nD) : (opIn (F := F)).result W v0' = reshapeIn (d := d) (W a0') :=
  StableHlo.reshape_result main_arg0 main_v0 rfl shapeCasts_S1024x10475x3_S1024x31425 _ _ W
theorem opOut_v2 (W : Valuation τ sig (Elt F)) (d : Dev nD) : (opOut (F := F)).result W v2' = reshapeOut (d := d) (W v1') :=
  StableHlo.reshape_result main_v1 main_v2 rfl shapeCasts_S1024x24672_S1024x8224x3 _ _ W

/-- After the first reshape: the flattened vertices in main_v0, everything else as launched. -/
theorem held_In (hX : ∀ d, X d = reshapeIn (m (a0Loc d))) (d : Dev nD) :
    (held (T d) S7 ((opIn (F := F)).result (V0 m d)) : sProp 𝕄)
      = iprop((a0Loc d ↦{fullShare} m (a0Loc d)) ∗ (a1Loc d ↦{fullShare} m (a1Loc d)) ∗ (a2Loc d ↦{fullShare} m (a2Loc d))
        ∗ (a3Loc d ↦{fullShare} m (a3Loc d)) ∗ (v0Loc d ↦{fullShare} X d) ∗ (v1Loc d ↦{fullShare} m (v1Loc d)) ∗ (v2Loc d ↦{fullShare} m (v2Loc d))) := by
  rw [held_S7, opIn_ne _ (show a0' ∉ ({v0'} : Finset (DevRef τ sig)) by decide), opIn_ne _ (show a1' ∉ ({v0'} : Finset (DevRef τ sig)) by decide),
    opIn_ne _ (show a2' ∉ ({v0'} : Finset (DevRef τ sig)) by decide), opIn_ne _ (show a3' ∉ ({v0'} : Finset (DevRef τ sig)) by decide),
    opIn_ne _ (show v1' ∉ ({v0'} : Finset (DevRef τ sig)) by decide), opIn_ne _ (show v2' ∉ ({v0'} : Finset (DevRef τ sig)) by decide),
    opIn_v0 _ d, hX d]
  rfl

/-- After the second reshape: the result unflattened in main_v2, the arguments as launched. -/
theorem held_Out (d : Dev nD) :
    (held (T d) S7 ((opOut (F := F)).result (V1 m X KO d)) : sProp 𝕄)
      = iprop((a0Loc d ↦{fullShare} m (a0Loc d)) ∗ (a1Loc d ↦{fullShare} m (a1Loc d)) ∗ (a2Loc d ↦{fullShare} m (a2Loc d))
        ∗ (a3Loc d ↦{fullShare} m (a3Loc d)) ∗ (v0Loc d ↦{fullShare} X d) ∗ (v1Loc d ↦{fullShare} KO d) ∗ (v2Loc d ↦{fullShare} reshapeOut (KO d))) := by
  rw [held_S7, opOut_ne _ (show a0' ∉ ({v2'} : Finset (DevRef τ sig)) by decide), opOut_ne _ (show a1' ∉ ({v2'} : Finset (DevRef τ sig)) by decide),
    opOut_ne _ (show a2' ∉ ({v2'} : Finset (DevRef τ sig)) by decide), opOut_ne _ (show a3' ∉ ({v2'} : Finset (DevRef τ sig)) by decide),
    opOut_ne _ (show v0' ∉ ({v2'} : Finset (DevRef τ sig)) by decide), opOut_ne _ (show v1' ∉ ({v2'} : Finset (DevRef τ sig)) by decide),
    opOut_v2 _ d, V1_a0, V1_a1, V1_a2, V1_a3, V1_v0, V1_v1]

theorem held_V1 (d : Dev nD) :
    (held (T d) S7 (V1 m X KO d) : sProp 𝕄)
      = iprop((a0Loc d ↦{fullShare} m (a0Loc d)) ∗ (a1Loc d ↦{fullShare} m (a1Loc d)) ∗ (a2Loc d ↦{fullShare} m (a2Loc d))
        ∗ (a3Loc d ↦{fullShare} m (a3Loc d)) ∗ (v0Loc d ↦{fullShare} X d) ∗ (v1Loc d ↦{fullShare} KO d) ∗ (v2Loc d ↦{fullShare} m (v2Loc d))) := by
  rw [held_S7, V1_a0, V1_a1, V1_a2, V1_a3, V1_v0, V1_v1, V1_v2]

/-- What the call takes for the two SparseCores, and what it hands back. -/
theorem st0_eq (d : Dev nD) : (bigSep Finset.univ fun c : Fin ((K (F := F)).nCore 0) => (P m X KO).st 0 d c) = bigSep Finset.univ fun c : Fin 2 => CoreGo m X d c :=
  bigSep_congr fun _ _ => rfl
theorem dn0_eq (d : Dev nD) : (bigSep Finset.univ fun c : Fin ((K (F := F)).nCore 0) => (P m X KO).dn 0 d c) = bigSep Finset.univ fun c : Fin 2 => CoreTd m X KO d c :=
  bigSep_congr fun _ _ => rfl

/-! ## @main on the TensorCore -/

/-- What @main leaves the claim: the four arguments whole at their launch contents, the result whole at the expected
    contents unflattened. -/
abbrev FIN (d : Dev nD) : sProp 𝕄 :=
  iprop((v2Loc d ↦{fullShare} reshapeOut (KO d)) ∗ (a0Loc d ↦{fullShare} m (a0Loc d)) ∗ (a1Loc d ↦{fullShare} m (a1Loc d))
    ∗ (a2Loc d ↦{fullShare} m (a2Loc d)) ∗ (a3Loc d ↦{fullShare} m (a3Loc d)))

variable [FloatOps F]

theorem hmain (hX : ∀ d, X d = reshapeIn (m (a0Loc d))) (κ : GSem nD τ sig → ℕ) (d : Dev nD) :
    iprop((K (F := F)).ctx EH (P m X KO) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m KO d) := by
  unfold SparseCore.Cfg.tcRes
  rw [unscoped_held]
  simp only [main, wp_bind, wp_pure]
  iintro ⟨#Hctx, Hst, ⟨Hb, Hheld, -, -⟩, -⟩
  -- the vertices flattened
  iapply (wp_hlo_within 𝒱 (SparseCore.T d) none Set.univ (op := opIn) (S := S7) hIn (V := V0 m d)) $$ [Hb Hheld]
  · isplitl [Hb]; · iexact Hb
    iexact Hheld
  iintro ⟨Hb, Hheld⟩
  ihave Hh := (Entails.of_eq (held_In (F := F) m X hX d)) $$ Hheld
  icases Hh with ⟨H0, H1, H2, H3, Hv0, Hv1, Hv2⟩
  rw [wp_ret]; imodintro
  -- the arrays dealt: read shares and rows to the two SparseCores, the remainders kept
  ihave Hd := (deal m X d) $$ [Hv0 H1 H2 H3 Hv1]
  · isplitl [Hv0]; · iexact Hv0
    isplitl [H1]; · iexact H1
    isplitl [H2]; · iexact H2
    isplitl [H3]; · iexact H3
    iexact Hv1
  icases Hd with ⟨Hrem, Hgo⟩
  iapply ((K (F := F)).wp_run (D (F := F)) 𝒱 (EH := EH) (P := P m X KO) κ d 0) $$ [Hst Hgo H0 Hv2 Hrem Hb]
  isplitr; · iexact Hctx
  isplitl [Hst]; · iexact Hst
  isplitl [Hgo]
  · rw [st0_eq]; iexact Hgo
  iintro ⟨Hst, Hdn⟩
  ihave Hdn' := (Entails.of_eq (dn0_eq m X KO d)) $$ Hdn
  ihave Hu := (undeal m X KO d) $$ [Hrem Hdn']
  · isplitl [Hrem]; · iexact Hrem
    iexact Hdn'
  icases Hu with ⟨Hv0, H1, H2, H3, Hv1⟩
  -- the result unflattened
  iapply (wp_hlo_within 𝒱 (SparseCore.T d) none Set.univ (op := opOut) (S := S7) hOut (V := V1 m X KO d)) $$ [Hb H0 H1 H2 H3 Hv0 Hv1 Hv2]
  · isplitl [Hb]; · iexact Hb
    rw [held_V1]
    isplitl [H0]; · iexact H0
    isplitl [H1]; · iexact H1
    isplitl [H2]; · iexact H2
    isplitl [H3]; · iexact H3
    isplitl [Hv0]; · iexact Hv0
    isplitl [Hv1]; · iexact Hv1
    iexact Hv2
  iintro ⟨Hb, Hheld⟩
  ihave Hh := (Entails.of_eq (held_Out (F := F) m X KO d)) $$ Hheld
  icases Hh with ⟨H0, H1, H2, H3, -, -, Hv2⟩
  rw [wp_ret]; imodintro; imodintro
  isplitl [Hst]; · iexact Hst
  isplitl [Hv2]; · iexact Hv2
  isplitl [H0]; · iexact H0
  isplitl [H1]; · iexact H1
  isplitl [H2]; · iexact H2
  iexact H3

/-! ## The final memory reads the claim -/

def fq (d : Dev nD) (s' : Phys nD τ sig (Elt F)) : Prop :=
  s'.mem.mem (v2Loc d) = reshapeOut (KO d) ∧ s'.mem.mem (a0Loc d) = m (a0Loc d) ∧ s'.mem.mem (a1Loc d) = m (a1Loc d)
    ∧ s'.mem.mem (a2Loc d) = m (a2Loc d) ∧ s'.mem.mem (a3Loc d) = m (a3Loc d)

omit [FloatOps F] in
theorem hfin (d : Dev nD) (s' : Phys nD τ sig (Elt F)) : iprop(FIN m KO d ∗ SI s') ⊢ (⌜fq m KO d s'⌝ : sProp 𝕄) := by
  iintro ⟨⟨Hv2, H0, H1, H2, H3⟩, HSI⟩
  ihave H := (persistent_entails_right (SI_pointsTo_agree (st := s') (ℓ := v2Loc d) (I := Finset.univ) (q := fullShare) (f := reshapeOut (KO d)))) $$ [HSI Hv2]
  · isplitl [HSI] <;> iassumption
  icases H with ⟨%h2, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2', HSI, -⟩
  ihave H := (SI_pointsTo_agree (st := s') (ℓ := a3Loc d) (I := Finset.univ) (q := fullShare) (f := m (a3Loc d))) $$ [HSI H3]
  · isplitl [HSI] <;> iassumption
  icases H with %h3
  ipureintro
  exact ⟨funext fun i => h2 i (Finset.mem_univ i), funext fun i => h0 i (Finset.mem_univ i), funext fun i => h1 i (Finset.mem_univ i),
    funext fun i => h2' i (Finset.mem_univ i), funext fun i => h3 i (Finset.mem_univ i)⟩

/-! ## The program's run -/

def QC : PUnit × MemSt nD τ sig (Elt F) → Prop := fun r => ∀ c : Dev nD, r.2.mem (v2Loc c) = reshapeOut (KO c)
  ∧ r.2.mem (a0Loc c) = m (a0Loc c) ∧ r.2.mem (a1Loc c) = m (a1Loc c) ∧ r.2.mem (a2Loc c) = m (a2Loc c) ∧ r.2.mem (a3Loc c) = m (a3Loc c)

/-- From one task's contract: every weakly fair execution of the 35 threads terminates, and leaves the result array
    at the expected contents unflattened and the four arguments as they were. -/
theorem run_main [∀ e, Nonempty (Elt F e)] (hX : ∀ d, X d = reshapeIn (m (a0Loc d))) (htile : TileSpec m X KO) :
    θ_run (Cert.KernelIdeal.defs (F := F)) (Cert.KernelIdeal.threads (F := F)) ⟨m, fun _ => 0, ρ⟩
      (fun r => ∀ c : Dev nD, r.2.mem (v2Loc c) = reshapeOut (KO c)
        ∧ r.2.mem (a0Loc c) = m (a0Loc c) ∧ r.2.mem (a1Loc c) = m (a1Loc c) ∧ r.2.mem (a2Loc c) = m (a2Loc c) ∧ r.2.mem (a3Loc c) = m (a3Loc c)) :=
  SparseCore.Cfg.θ_run_sc (K := K (F := F)) (D := D (F := F)) (𝒱 := 𝒱) (EH := EH) (P := P m X KO) facts v₀
    (fun q hq => match q with | 0 => nomatch hq)
    (fun q _ => match q with | 0 => tileObl m X KO htile)
    (fun q _ => match q with | 0 => SparseCore.Cfg.VecSplit.of_plain (vecSplit m X KO))
    m ρ main (fun _ => iprop(emp)) (FIN m KO) (u₀ (F := F)) (sep_elim_left.trans (hu₀ m X KO)) (hmain m ρ X KO hX) (fq m KO) (hfin m KO) (QC m KO) (fun _ h => h)

end Cert.Proof.KI

end
-- ==== Proof.KValueKI.lean ====
/-
  The same equation spelt with the two host reshapes of the kernel's program: the flattened vertices go in, the flat
  result comes out unflattened, and that is the specification.
-/
import proofs.«203378_g9921374454198_cont_sun_m_1167_43_alg».proof.Proof.KValue
import proofs.«203378_g9921374454198_cont_sun_m_1167_43_alg».proof.Proof.KI.Launch

noncomputable section

namespace Cert.Proof.KValue

open Cert.KernelIdeal Cert.KernelIdeal.Gen Idealize.ShloMosaic Cert.Proof.KI

theorem reshapeOut_KO_eq_G {d : Dev nD} (verts : Buf (Elt Ideal) (a0Loc d)) (seg : Spec.SSeg.Idx → BitVec 32)
    (bv bid : Spec.SBand.Idx → BitVec 32) :
    reshapeOut (F := Ideal) (d := d) (KModel.KO (F := Ideal) (reshapeIn (F := Ideal) (d := d) verts) seg bv bid)
      = Spec.G verts seg bv bid :=
  KO_eq_G verts seg bv bid shapeCasts_S1024x10475x3_S1024x31425 shapeCasts_S1024x24672_S1024x8224x3

end Cert.Proof.KValue

end
-- ==== Proof.KI.Core.lean ====
/-
  The contract of one vector subcore's task over EXPLICIT resources: the task's scratch buffers and the semaphores of
  its own transfers named one by one, and every array spelt through the memref the kernel function is called with.
  It is the task's contract (the one the launch consumes) with the subcore's scoped storage opened.
-/
import proofs.«203378_g9921374454198_cont_sun_m_1167_43_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel function's memrefs, spelt as the body table passes them
local notation "V0W" => (Memref.whole Cert.KernelIdeal.main_v0_scv : Memref Cert.KernelIdeal.sig Kind.scVector Space.hbm Cert.KernelIdeal.S1024x31425 EltTy.f32)
local notation "A1W" => (Memref.whole Cert.KernelIdeal.main_arg1_scv : Memref Cert.KernelIdeal.sig Kind.scVector Space.hbm Cert.KernelIdeal.S8192 EltTy.i32)
local notation "A2W" => (Memref.whole Cert.KernelIdeal.main_arg2_scv : Memref Cert.KernelIdeal.sig Kind.scVector Space.hbm Cert.KernelIdeal.S4096 EltTy.i32)
local notation "A3W" => (Memref.whole Cert.KernelIdeal.main_arg3_scv : Memref Cert.KernelIdeal.sig Kind.scVector Space.hbm Cert.KernelIdeal.S4096 EltTy.i32)
local notation "V1W" => (Memref.whole Cert.KernelIdeal.main_v1_scv : Memref Cert.KernelIdeal.sig Kind.scVector Space.hbm Cert.KernelIdeal.S1024x24672 EltTy.f32)
local notation "S0W" => (Memref.whole Cert.KernelIdeal.cc0_scratch0 : Memref Cert.KernelIdeal.sig Kind.scVector Space.vmem Cert.KernelIdeal.S31425 EltTy.f32)
local notation "S1W" => (Memref.whole Cert.KernelIdeal.cc0_scratch1 : Memref Cert.KernelIdeal.sig Kind.scVector Space.vmem Cert.KernelIdeal.S24672 EltTy.f32)
local notation "S2W" => (Memref.whole Cert.KernelIdeal.cc0_scratch2 : Memref Cert.KernelIdeal.sig Kind.scVector Space.vmem Cert.KernelIdeal.S8192 EltTy.i32)
local notation "S3W" => (Memref.whole Cert.KernelIdeal.cc0_scratch3 : Memref Cert.KernelIdeal.sig Kind.scVector Space.vmem Cert.KernelIdeal.S4096 EltTy.i32)
local notation "S4W" => (Memref.whole Cert.KernelIdeal.cc0_scratch4 : Memref Cert.KernelIdeal.sig Kind.scVector Space.vmem Cert.KernelIdeal.S4096 EltTy.i32)
local notation "S5W" => (Memref.whole Cert.KernelIdeal.cc0_scratch5 : Memref Cert.KernelIdeal.sig Kind.scVector Space.vmem Cert.KernelIdeal.S96 EltTy.f32)
local notation "S6W" => (Memref.whole Cert.KernelIdeal.cc0_scratch6 : Memref Cert.KernelIdeal.sig Kind.scVector Space.vmem Cert.KernelIdeal.S1536 EltTy.f32)

variable (m : (ℓ : Loc nD τ sig) → Buf (Elt F) ℓ)
variable (X : (d : Dev nD) → Buf (Elt F) (v0Loc d)) (KO : (d : Dev nD) → Buf (Elt F) (v1Loc d))

-- the thread the task at grid point L runs on, spelt out wherever it stands
local notation "thrV(" d ", " L ")" => V d (cV L) (jV L)

/-- Read share number n of the four arrays a task reads, each through the kernel function's memref. -/
def readShares' (d : Dev nD) (L : grid0.Coords) (n : Fin 32) : sProp 𝕄 :=
  iprop(((V0W).view.loc thrV(d, L) ↦{Transfers.shareTok fullShare 32 n} X d)
    ∗ ((A1W).view.loc thrV(d, L) ↦{Transfers.shareTok fullShare 32 n} m (a1Loc d))
    ∗ ((A2W).view.loc thrV(d, L) ↦{Transfers.shareTok fullShare 32 n} m (a2Loc d))
    ∗ ((A3W).view.loc thrV(d, L) ↦{Transfers.shareTok fullShare 32 n} m (a3Loc d)))

/-- What the task at L is handed, and what it hands back: as TileGo and TileTd, through the memrefs. -/
def TileGo' (d : Dev nD) (L : grid0.Coords) : sProp 𝕄 :=
  iprop(readShares' m X d L (tileNo (cL L) (iL L))
    ∗ bigSep Finset.univ fun bi : Fin 32 => (V1W).view.loc thrV(d, L) ↦[rowSetO (tileRow (cL L) (iL L) bi)]{fullShare} m (v1Loc d))

def TileTd' (d : Dev nD) (L : grid0.Coords) : sProp 𝕄 :=
  iprop(readShares' m X d L (tileNo (cL L) (iL L))
    ∗ bigSep Finset.univ fun bi : Fin 32 =>
        iprop(∃ f, ⌜∀ j ∈ rowSetO (tileRow (cL L) (iL L) bi), f j = KO d j⌝
          ∗ (V1W).view.loc thrV(d, L) ↦[rowSetO (tileRow (cL L) (iL L) bi)]{fullShare} f))

/-- One task over explicit resources: from the evidence that its waits are admissible, what it is handed, its seven
    scratch buffers at whatever they hold, the five semaphores of its own transfers at zero and what its thread owes,
    the kernel function runs to the end and hands back what the contract says, the scratch buffers at some contents,
    the semaphores at zero again. -/
def CoreSpec [FloatOps F] : Prop :=
  ∀ (d : Dev nD) (L : grid0.Coords) (O : CellTallies nD τ sig (HIx 1)) (W : Waits sig (HIx 1)), (∀ g, O g none = 0) →
    ∀ (g0 : Buf (Elt F) ((S0W).view.loc thrV(d, L))) (g1 : Buf (Elt F) ((S1W).view.loc thrV(d, L)))
      (g2 : Buf (Elt F) ((S2W).view.loc thrV(d, L))) (g3 : Buf (Elt F) ((S3W).view.loc thrV(d, L)))
      (g4 : Buf (Elt F) ((S4W).view.loc thrV(d, L))) (g5 : Buf (Elt F) ((S5W).view.loc thrV(d, L)))
      (g6 : Buf (Elt F) ((S6W).view.loc thrV(d, L))),
    iprop(Transfers.MayWaits thrV(d, L) (none : HIx 1) O ∗ TileGo' m X d L
        ∗ ((S0W).view.loc thrV(d, L) ↦{fullShare} g0) ∗ ((S1W).view.loc thrV(d, L) ↦{fullShare} g1)
        ∗ ((S2W).view.loc thrV(d, L) ↦{fullShare} g2) ∗ ((S3W).view.loc thrV(d, L) ↦{fullShare} g3)
        ∗ ((S4W).view.loc thrV(d, L) ↦{fullShare} g4) ∗ ((S5W).view.loc thrV(d, L) ↦{fullShare} g5)
        ∗ ((S6W).view.loc thrV(d, L) ↦{fullShare} g6)
        ∗ semVal (thrV(d, L), SemLoc.dma cc0_scoped0.sem) 0 ∗ semVal (thrV(d, L), SemLoc.dma cc0_scoped1.sem) 0
        ∗ semVal (thrV(d, L), SemLoc.dma cc0_scoped2.sem) 0 ∗ semVal (thrV(d, L), SemLoc.dma cc0_scoped3.sem) 0
        ∗ semVal (thrV(d, L), SemLoc.dma cc0_scoped4.sem) 0
        ∗ owes thrV(d, L) O W)
      ⊢ wp frame (wpE (defs₀ (F := F)) 𝒱₀ thrV(d, L) none) Set.univ (body (F := F) L)
          fun _ => (iprop(TileTd' m X KO d L
            ∗ (∃ g, (S0W).view.loc thrV(d, L) ↦{fullShare} g) ∗ (∃ g, (S1W).view.loc thrV(d, L) ↦{fullShare} g)
            ∗ (∃ g, (S2W).view.loc thrV(d, L) ↦{fullShare} g) ∗ (∃ g, (S3W).view.loc thrV(d, L) ↦{fullShare} g)
            ∗ (∃ g, (S4W).view.loc thrV(d, L) ↦{fullShare} g) ∗ (∃ g, (S5W).view.loc thrV(d, L) ↦{fullShare} g)
            ∗ (∃ g, (S6W).view.loc thrV(d, L) ↦{fullShare} g)
            ∗ semVal (thrV(d, L), SemLoc.dma cc0_scoped0.sem) 0 ∗ semVal (thrV(d, L), SemLoc.dma cc0_scoped1.sem) 0
            ∗ semVal (thrV(d, L), SemLoc.dma cc0_scoped2.sem) 0 ∗ semVal (thrV(d, L), SemLoc.dma cc0_scoped3.sem) 0
            ∗ semVal (thrV(d, L), SemLoc.dma cc0_scoped4.sem) 0
            ∗ ∃ W', ⌜∀ p ∈ W', p ∈ W ∨ p.2 = none⌝ ∗ owes thrV(d, L) O W') : sProp 𝕄)

end Cert.Proof.KI

end
-- ==== Proof.KI.Wrap.lean ====
/-
  From the task's contract over explicit resources to the contract the launch consumes: a vector subcore's scoped
  storage is its own buffers, each whole at some contents, and its own semaphores at zero; among them are the seven
  scratch buffers and the five semaphores of the task's own transfers. They are taken out, the task runs on them while
  the rest is set aside, and they are put back.
-/
import proofs.«203378_g9921374454198_cont_sun_m_1167_43_alg».proof.Proof.KI.Core
import proofs.«203378_g9921374454198_cont_sun_m_1167_43_alg».proof.Proof.KI.LaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "S0W" => (Memref.whole Cert.KernelIdeal.cc0_scratch0 : Memref Cert.KernelIdeal.sig Kind.scVector Space.vmem Cert.KernelIdeal.S31425 EltTy.f32)
local notation "S1W" => (Memref.whole Cert.KernelIdeal.cc0_scratch1 : Memref Cert.KernelIdeal.sig Kind.scVector Space.vmem Cert.KernelIdeal.S24672 EltTy.f32)
local notation "S2W" => (Memref.whole Cert.KernelIdeal.cc0_scratch2 : Memref Cert.KernelIdeal.sig Kind.scVector Space.vmem Cert.KernelIdeal.S8192 EltTy.i32)
local notation "S3W" => (Memref.whole Cert.KernelIdeal.cc0_scratch3 : Memref Cert.KernelIdeal.sig Kind.scVector Space.vmem Cert.KernelIdeal.S4096 EltTy.i32)
local notation "S4W" => (Memref.whole Cert.KernelIdeal.cc0_scratch4 : Memref Cert.KernelIdeal.sig Kind.scVector Space.vmem Cert.KernelIdeal.S4096 EltTy.i32)
local notation "S5W" => (Memref.whole Cert.KernelIdeal.cc0_scratch5 : Memref Cert.KernelIdeal.sig Kind.scVector Space.vmem Cert.KernelIdeal.S96 EltTy.f32)
local notation "S6W" => (Memref.whole Cert.KernelIdeal.cc0_scratch6 : Memref Cert.KernelIdeal.sig Kind.scVector Space.vmem Cert.KernelIdeal.S1536 EltTy.f32)

variable (m : (ℓ : Loc nD τ sig) → Buf (Elt F) ℓ)
variable (X : (d : Dev nD) → Buf (Elt F) (v0Loc d)) (KO : (d : Dev nD) → Buf (Elt F) (v1Loc d))

/-! ## The arrays through the kernel function's memrefs are the TensorCore's arrays -/

theorem TileGo'_eq (d : Dev nD) (L : grid0.Coords) : (TileGo' m X d L : sProp 𝕄) = TileGo m X d (cL L) (iL L) := by
  unfold TileGo' TileGo readShares' readShares
  simp only [Memref.view_whole, View.set_whole]
theorem TileTd'_eq (d : Dev nD) (L : grid0.Coords) : (TileTd' m X KO d L : sProp 𝕄) = TileTd m X KO d (cL L) (iL L) := by
  unfold TileTd' TileTd readShares' readShares
  simp only [Memref.view_whole, View.set_whole]

/-! ## The scratch buffers among the subcore's own buffers -/

/-- The seven scratch buffers, as a vector subcore names them. -/
abbrev scratchRefs : Finset (Ref sig .scVector) := {cc0_scratch0, cc0_scratch1, cc0_scratch2, cc0_scratch3, cc0_scratch4, cc0_scratch5, cc0_scratch6}
/-- The same as buffers of subcore (c, i). -/
abbrev scratchOf (c : Fin τ.nSC) (i : Fin τ.nSub) : Finset (DevRef τ sig) :=
  scratchRefs.map ⟨(Proc.scVector c i).devRef, Proc.devRef_injective _⟩

theorem scratchOf_sub (c : Fin τ.nSC) (i : Fin τ.nSub) : scratchOf c i ⊆ ownRefs (τ := τ) (.scVector c i) := by
  intro b hb
  obtain ⟨r, hr, rfl⟩ := Finset.mem_map.mp hb
  simp only [scratchRefs, Finset.mem_insert, Finset.mem_singleton] at hr
  rcases hr with rfl | rfl | rfl | rfl | rfl | rfl | rfl <;> exact SparseCore.Cfg.mem_ownRefs_of_owner rfl

/-- A subcore's own buffers: the seven scratch buffers, each whole at some contents, and the rest. -/
theorem ownBufs_scratch (d : Dev nD) (c : Fin τ.nSC) (i : Fin τ.nSub) :
    (ownBufs (V d c i) : sProp 𝕄)
      = iprop(((∃ g, (S0W).view.loc (V d c i) ↦{fullShare} g) ∗ (∃ g, (S1W).view.loc (V d c i) ↦{fullShare} g)
          ∗ (∃ g, (S2W).view.loc (V d c i) ↦{fullShare} g) ∗ (∃ g, (S3W).view.loc (V d c i) ↦{fullShare} g)
          ∗ (∃ g, (S4W).view.loc (V d c i) ↦{fullShare} g) ∗ (∃ g, (S5W).view.loc (V d c i) ↦{fullShare} g)
          ∗ (∃ g, (S6W).view.loc (V d c i) ↦{fullShare} g))
          ∗ bigSep (ownRefs (τ := τ) (.scVector c i) \ scratchOf c i) fun b => iprop(∃ f, ((d, b) : Loc nD τ sig) ↦{fullShare} f)) := by
  unfold SparseCore.Cfg.ownBufs
  rw [show ((V d c i : Thread nD τ).2) = Proc.scVector c i from rfl, SparseCore.bigSep_sdiff_split' (scratchOf_sub c i)]
  congr 1
  unfold scratchOf scratchRefs
  have h0 : (cc0_scratch0 : Ref sig .scVector) ∉ ({cc0_scratch1, cc0_scratch2, cc0_scratch3, cc0_scratch4, cc0_scratch5, cc0_scratch6} : Finset (Ref sig .scVector)) := by decide
  have h1 : (cc0_scratch1 : Ref sig .scVector) ∉ ({cc0_scratch2, cc0_scratch3, cc0_scratch4, cc0_scratch5, cc0_scratch6} : Finset (Ref sig .scVector)) := by decide
  have h2 : (cc0_scratch2 : Ref sig .scVector) ∉ ({cc0_scratch3, cc0_scratch4, cc0_scratch5, cc0_scratch6} : Finset (Ref sig .scVector)) := by decide
  have h3 : (cc0_scratch3 : Ref sig .scVector) ∉ ({cc0_scratch4, cc0_scratch5, cc0_scratch6} : Finset (Ref sig .scVector)) := by decide
  have h4 : (cc0_scratch4 : Ref sig .scVector) ∉ ({cc0_scratch5, cc0_scratch6} : Finset (Ref sig .scVector)) := by decide
  have h5 : (cc0_scratch5 : Ref sig .scVector) ∉ ({cc0_scratch6} : Finset (Ref sig .scVector)) := by decide
  rw [bigSep_map, SparseCore.bigSep_insert' h0, SparseCore.bigSep_insert' h1, SparseCore.bigSep_insert' h2,
    SparseCore.bigSep_insert' h3, SparseCore.bigSep_insert' h4, SparseCore.bigSep_insert' h5, bigSep_singleton]
  rfl

/-! ## The transfers' semaphores among the subcore's own semaphores -/

abbrev scopedSems : Finset (DmaSem sig) := {cc0_scoped0.sem, cc0_scoped1.sem, cc0_scoped2.sem, cc0_scoped3.sem, cc0_scoped4.sem}
abbrev scopedOf (thr : Thread nD τ) : Finset (GSem nD τ sig) :=
  scopedSems.map ⟨fun s => (thr, SemLoc.dma s), fun _ _ e => SemLoc.dma.inj (Prod.mk.inj e).2⟩

theorem scopedOf_sub (d : Dev nD) (c : Fin τ.nSC) (i : Fin τ.nSub) : scopedOf (V d c i) ⊆ ownCells (V d c i) := by
  intro g hg
  obtain ⟨s, hs, rfl⟩ := Finset.mem_map.mp hg
  simp only [scopedSems, Finset.mem_insert, Finset.mem_singleton] at hs
  refine mem_ownCells.mpr ⟨rfl, ?_⟩
  rcases hs with rfl | rfl | rfl | rfl | rfl
  · show (SemLoc.dma cc0_scoped0.sem : SemLoc sig).isScoped .scVector = true; decide
  · show (SemLoc.dma cc0_scoped1.sem : SemLoc sig).isScoped .scVector = true; decide
  · show (SemLoc.dma cc0_scoped2.sem : SemLoc sig).isScoped .scVector = true; decide
  · show (SemLoc.dma cc0_scoped3.sem : SemLoc sig).isScoped .scVector = true; decide
  · show (SemLoc.dma cc0_scoped4.sem : SemLoc sig).isScoped .scVector = true; decide

/-- A subcore's own semaphores at zero: the five of the task's transfers, and the rest. -/
theorem ownSems0_scoped (d : Dev nD) (c : Fin τ.nSC) (i : Fin τ.nSub) :
    (ownSems0 (V d c i) : sProp 𝕄)
      = iprop((semVal (V d c i, SemLoc.dma cc0_scoped0.sem) 0 ∗ semVal (V d c i, SemLoc.dma cc0_scoped1.sem) 0
          ∗ semVal (V d c i, SemLoc.dma cc0_scoped2.sem) 0 ∗ semVal (V d c i, SemLoc.dma cc0_scoped3.sem) 0
          ∗ semVal (V d c i, SemLoc.dma cc0_scoped4.sem) 0)
          ∗ bigSep (ownCells (V d c i) \ scopedOf (V d c i)) fun g => semVal g 0) := by
  unfold SparseCore.Cfg.ownSems0
  rw [SparseCore.bigSep_sdiff_split' (scopedOf_sub d c i)]
  congr 1
  unfold scopedOf scopedSems
  have h0 : (cc0_scoped0.sem : DmaSem sig) ∉ ({cc0_scoped1.sem, cc0_scoped2.sem, cc0_scoped3.sem, cc0_scoped4.sem} : Finset (DmaSem sig)) := by decide
  have h1 : (cc0_scoped1.sem : DmaSem sig) ∉ ({cc0_scoped2.sem, cc0_scoped3.sem, cc0_scoped4.sem} : Finset (DmaSem sig)) := by decide
  have h2 : (cc0_scoped2.sem : DmaSem sig) ∉ ({cc0_scoped3.sem, cc0_scoped4.sem} : Finset (DmaSem sig)) := by decide
  have h3 : (cc0_scoped3.sem : DmaSem sig) ∉ ({cc0_scoped4.sem} : Finset (DmaSem sig)) := by decide
  rw [bigSep_map, SparseCore.bigSep_insert' h0, SparseCore.bigSep_insert' h1, SparseCore.bigSep_insert' h2,
    SparseCore.bigSep_insert' h3, bigSep_singleton]
  rfl

/-! ## The wrapper -/

variable [FloatOps F]

theorem tileSpec_of_core (h : CoreSpec m X KO) : TileSpec m X KO := by
  intro d L O W hO
  rw [(K (F := F)).scopedBufs_V facts d (cV L) (jV L), SparseCore.Cfg.scopedSems0_V (Val := Elt F) d (cV L) (jV L),
    ownBufs_scratch, ownSems0_scoped, ← TileGo'_eq, ← TileTd'_eq]
  iintro ⟨#Hlv, Hgo, ⟨⟨⟨%g0, B0⟩, ⟨%g1, B1⟩, ⟨%g2, B2⟩, ⟨%g3, B3⟩, ⟨%g4, B4⟩, ⟨%g5, B5⟩, ⟨%g6, B6⟩⟩, Brest⟩, ⟨⟨C0, C1, C2, C3, C4⟩, Crest⟩, HO⟩
  ihave Hmw := ((K (F := F)).mayWaits_none (thr := V d (cV L) (jV L)) hO) $$ Hlv
  -- the task runs on what is taken out; the rest of the subcore's storage waits beside the run and is put back after it
  iapply (wp_wand_r frame _ Set.univ)
  isplitl [Hmw Hgo B0 B1 B2 B3 B4 B5 B6 C0 C1 C2 C3 C4 HO]
  · iapply (h d L O W hO g0 g1 g2 g3 g4 g5 g6)
    isplitl [Hmw]; · iexact Hmw
    isplitl [Hgo]; · iexact Hgo
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [C0]; · iexact C0
    isplitl [C1]; · iexact C1
    isplitl [C2]; · iexact C2
    isplitl [C3]; · iexact C3
    isplitl [C4]; · iexact C4
    iexact HO
  iintro %_ ⟨Htd, B0, B1, B2, B3, B4, B5, B6, C0, C1, C2, C3, C4, HO⟩
  isplitl [Htd]; · iexact Htd
  isplitl [B0 B1 B2 B3 B4 B5 B6 Brest]
  · isplitl [B0 B1 B2 B3 B4 B5 B6]
    · isplitl [B0]; · iexact B0
      isplitl [B1]; · iexact B1
      isplitl [B2]; · iexact B2
      isplitl [B3]; · iexact B3
      isplitl [B4]; · iexact B4
      isplitl [B5]; · iexact B5
      iexact B6
    · iexact Brest
  isplitl [C0 C1 C2 C3 C4 Crest]
  · isplitl [C0 C1 C2 C3 C4]
    · isplitl [C0]; · iexact C0
      isplitl [C1]; · iexact C1
      isplitl [C2]; · iexact C2
      isplitl [C3]; · iexact C3
      iexact C4
    · iexact Crest
  iexact HO

end Cert.Proof.KI

end
-- ==== Proof.KI.Pre.lean ====
/-
  The precondition decoded for the kernel's side: `input_domain` all ones says, entry by entry, that every segment
  vertex number and every band vertex number is at most 10474 and every band number at most 31, read unsigned (each is
  nonnegative read signed, so both readings agree). What it says of the vertices (finite) is not needed here.
-/
import proofs.«203378_g9921374454198_cont_sun_m_1167_43_alg».proof.Proof.KI.Setup
import proofs.«203378_g9921374454198_cont_sun_m_1167_43_alg».proof.Proof.Gen.Pre_input_domain
import Idealize.ShloMosaic.Lib.ReduceAll
import Idealize.ShloMosaic.Lib.ValueIdx

noncomputable section

namespace Cert.Proof.KI

open Cert.KernelIdeal Cert.KernelIdeal.Gen
open Idealize.ShloMosaic Idealize.ShloMosaic.ValueIdx Idealize.SL.Sem

/-- Every vertex number at most 10474 and every band number at most 31, read unsigned. -/
structure Ranges (seg : S8192.Idx → BitVec 32) (bv bid : S4096.Idx → BitVec 32) : Prop where
  seg_le : ∀ i, (seg i).toNat ≤ 10474
  bv_le : ∀ i, (bv i).toNat ≤ 10474
  bid_le : ∀ i, (bid i).toNat ≤ 31

instance : Subsingleton Cert.Pre_input_domain.S_.Idx := ⟨fun a b => funext fun d => d.elim0⟩

/-- A word passing `0 ≤ x` and `x ≤ hi` signed, for a literal `hi` below 2³¹, is at most `hi` unsigned. -/
theorem toNat_le_of_between (x lo hi : BitVec 32) (n : Nat) (hl : lo.toInt = 0) (hh : hi.toInt = (n : Int))
    (hx : IntOp.andi (IntOp.cmpi .sge x lo) (IntOp.cmpi .sle x hi) = 1#1) : x.toNat ≤ n := by
  obtain ⟨ha, hb⟩ := IntOp.andi_eq_one.mp hx
  have ha' := IntOp.cmpi_sge.mp ha
  have hb' := IntOp.cmpi_sle.mp hb
  have h32 := x.isLt
  rw [hl] at ha'
  rw [hh] at hb'
  unfold BitVec.toInt at ha' hb'
  split at ha' <;> omega

/-- The predicate all ones gives the ranges, at any float instance (the integer comparisons do not depend on it). -/
theorem ranges_of_fn {F : FTy → Type} [FloatOps F] (x : FVec F S1024x10475x3 .f32) (seg : IVec S8192 32)
    (bv bid : IVec S4096 32) (h : Cert.Pre_input_domain.fn (F := F) x seg bv bid = fun _ => 1#1) : Ranges seg bv bid := by
  have e := congrFun h ix0
  unfold Cert.Pre_input_domain.fn Cert.Pre_input_domain.fn_part1 at e
  simp only [andi] at e
  simp only [IntOp.andi_eq_one] at e
  obtain ⟨⟨⟨-, h9⟩, h16⟩, h23⟩ := e
  refine ⟨fun i => ?_, fun i => ?_, fun i => ?_⟩
  · exact toNat_le_of_between (seg i) 0#32 10474#32 10474 (by decide) (by decide)
      (Host.reduce_andi_all _ _ _ _ ix0 h9 i)
  · exact toNat_le_of_between (bv i) 0#32 10474#32 10474 (by decide) (by decide)
      (Host.reduce_andi_all _ _ _ _ ix0 h16 i)
  · exact toNat_le_of_between (bid i) 0#32 31#32 31 (by decide) (by decide)
      (Host.reduce_andi_all _ _ _ _ ix0 h23 i)

/-- The kernel's precondition, entry by entry, on every device. -/
theorem ranges_of_pre (m : (ℓ : Loc nD τ sig) → Buf (Elt Ideal) ℓ) (h : Cert.Pre_KernelIdeal m) :
    ∀ d : Dev nD, Ranges (m (a1Loc d)) (m (a2Loc d)) (m (a3Loc d)) :=
  fun d => ranges_of_fn (F := Ideal) (m (a0Loc d)) (m (a1Loc d)) (m (a2Loc d)) (m (a3Loc d)) (h d)

end Cert.Proof.KI

end
-- ==== Proof.KB.Setup.lean ====
/-
  The word-level kernel's program as the launch theorem sees it, the resource algebra, the arrays' places, and the
  CONTRACT of one vector subcore's task: what a task is handed, and what it hands back.

  The device has two SparseCores of sixteen vector subcores each. Task (c, i) — SparseCore c, subcore i — is worker
  number w = 2·i + c and serves the 32 batches 32·w, …, 32·w + 31. It reads the three index tables whole and rows of
  the flattened vertex array, and writes rows 32·w + bi of the flattened result. So a task is handed a READ SHARE of
  each of the four arrays it reads (one of 32 equal tokens of the whole array), and the 32 result rows that are its own,
  outright; it hands the shares back unchanged and the rows holding the expected contents.
-/
import proofs.«203378_g9921374454198_cont_sun_m_1167_43_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203378_g9921374454198_cont_sun_m_1167_43_alg».proof.Proof.Gen.Kernel
import proofs.«203378_g9921374454198_cont_sun_m_1167_43_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-! ## The resource algebra: the handshakes' rounds beside the local transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays' places -/

/-- The four arguments, the flattened vertices (`main_v0`), the flattened result (`main_v1`) and the result, on device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2

/-! ## Workers, rows, shares -/

theorem hdivO : 1024 ∣ S1024x24672.size 0 := ⟨1, rfl⟩
/-- Row `r` of the flattened result, one of 1024 equal parts along the batch axis. -/
abbrev rowO (r : Fin 1024) : Rect S1024x24672 := Rect.part (s := S1024x24672) (a₀ := 0) hdivO r
abbrev rowSetO (r : Fin 1024) : Finset S1024x24672.Idx :=
  ((Memref.whole main_v1_scv : Memref sig .scVector .hbm S1024x24672 .f32).view.slice (rowO r)).set

/-- Task (c, i)'s number among the 32 tasks (which read share is its own). -/
def tileNo (c : Fin 2) (i : Fin 16) : Fin 32 := ⟨c.val * 16 + i.val, by omega⟩
/-- The batch task (c, i) serves at trip `bi`: 32·(2·i + c) + bi. -/
def tileRow (c : Fin 2) (i : Fin 16) (bi : Fin 32) : Fin 1024 := ⟨(i.val * 2 + c.val) * 32 + bi.val, by omega⟩

variable (m : (ℓ : Loc nD τ sig) → Buf (Elt F) ℓ)
-- `X d`: what `main_v0` holds when the kernel is called; `KO d`: what `main_v1` is to hold when it returns.
variable (X : (d : Dev nD) → Buf (Elt F) (v0Loc d)) (KO : (d : Dev nD) → Buf (Elt F) (v1Loc d))

/-- Read share number `n` (of 32) of the arrays a task reads. -/
def readShares (d : Dev nD) (n : Fin 32) : sProp 𝕄 :=
  iprop((v0Loc d ↦{Transfers.shareTok fullShare 32 n} X d) ∗ (a1Loc d ↦{Transfers.shareTok fullShare 32 n} m (a1Loc d))
    ∗ (a2Loc d ↦{Transfers.shareTok fullShare 32 n} m (a2Loc d)) ∗ (a3Loc d ↦{Transfers.shareTok fullShare 32 n} m (a3Loc d)))

/-- What task (c, i) is handed: its read shares, and its 32 result rows at their launch contents. -/
def TileGo (d : Dev nD) (c : Fin 2) (i : Fin 16) : sProp 𝕄 :=
  iprop(readShares m X d (tileNo c i)
    ∗ bigSep Finset.univ fun bi : Fin 32 => v1Loc d ↦[rowSetO (tileRow c i bi)]{fullShare} m (v1Loc d))

/-- What it hands back: the shares, and each of its rows at the expected contents. -/
def TileTd (d : Dev nD) (c : Fin 2) (i : Fin 16) : sProp 𝕄 :=
  iprop(readShares m X d (tileNo c i)
    ∗ bigSep Finset.univ fun bi : Fin 32 =>
        iprop(∃ f, ⌜∀ j ∈ rowSetO (tileRow c i bi), f j = KO d j⌝ ∗ v1Loc d ↦[rowSetO (tileRow c i bi)]{fullShare} f))

/-! ## The task's contract -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

/-- The kernel function on the whole arrays and a subcore's own scratch, as the body table calls it. -/
abbrev body [FloatOps F] (L : grid0.Coords) :=
  cc0__body (F := F) L (Memref.whole main_v0_scv) (Memref.isWhole_whole _) (Memref.whole main_arg1_scv) (Memref.isWhole_whole _)
    (Memref.whole main_arg2_scv) (Memref.isWhole_whole _) (Memref.whole main_arg3_scv) (Memref.isWhole_whole _)
    (Memref.whole main_v1_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    cc0_scratch7 cc0_scratch8 cc0_scoped0 cc0_scoped1 cc0_scoped2 cc0_scoped3 cc0_scoped4

/-- One task, at a symbolic place: from what it is handed, its scoped storage and what its thread owes the launch, the
    kernel function runs to the end and hands back what the contract says. -/
def TileSpec [FloatOps F] : Prop :=
  ∀ (d : Dev nD) (L : grid0.Coords) (O : CellTallies nD τ sig (HIx 1)) (W : Waits sig (HIx 1)), (∀ g, O g none = 0) →
    iprop(levAts (K (F := F)).L (K (F := F)).lev ∗ TileGo m X d (cL L) (iL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (body (F := F) L)
          fun _ => (iprop(TileTd m X KO d (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

end Cert.Proof.KB

end
-- ==== Proof.KB.LaunchPay.lean ====
/-
  The launch of the one SparseCore call, first part: what the handshakes carry, the obligation of one task
  from the task's contract, and how a SparseCore's operands split among its sixteen tasks.

  The call hands SparseCore c the sixteen tasks' operands side by side (each task's read shares and its 32 result
  rows), so the split among the tasks is a regrouping and nothing else.
-/
import proofs.«203378_g9921374454198_cont_sun_m_1167_43_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ)
variable (X : (d : Dev nD) → Buf (Elt F) (v0Loc d)) (KO : (d : Dev nD) → Buf (Elt F) (v1Loc d))

/-! ## What the handshakes carry -/

/-- What SparseCore c's sixteen tasks are handed, side by side; and what they hand back. -/
def CoreGo (d : Dev nD) (c : Fin 2) : sProp 𝕄 := bigSep Finset.univ fun i : Fin 16 => TileGo m X d c i
def CoreTd (d : Dev nD) (c : Fin 2) : sProp 𝕄 := bigSep Finset.univ fun i : Fin 16 => TileTd m X KO d c i

instance readShares_storable (d : Dev nD) (n : Fin 32) : BI.Storable (upEmb : UEmb _ 𝕄) (readShares m X d n) := by
  unfold readShares; infer_instance
instance TileGo_storable (d : Dev nD) (c : Fin 2) (i : Fin 16) : BI.Storable (upEmb : UEmb _ 𝕄) (TileGo m X d c i) := by
  unfold TileGo; infer_instance
instance TileTd_storable (d : Dev nD) (c : Fin 2) (i : Fin 16) : BI.Storable (upEmb : UEmb _ 𝕄) (TileTd m X KO d c i) := by
  unfold TileTd; infer_instance
instance CoreGo_storable (d : Dev nD) (c : Fin 2) : BI.Storable (upEmb : UEmb _ 𝕄) (CoreGo m X d c) := by
  unfold CoreGo; infer_instance
instance CoreTd_storable (d : Dev nD) (c : Fin 2) : BI.Storable (upEmb : UEmb _ 𝕄) (CoreTd m X KO d c) := by
  unfold CoreTd; infer_instance

/-- The one call's payloads: a SparseCore's start carries its tasks' operands, a task's go its own. -/
def P : (K (F := F)).Pay (nD := nD) (Val := Elt F) (Name := ℕ) (U := UU) where
  st := fun q d c => match q with | 0 => CoreGo m X d (Fin.cast nCore_zero c)
  dn := fun q d c => match q with | 0 => CoreTd m X KO d (Fin.cast nCore_zero c)
  go := fun q d c i => match q with | 0 => TileGo m X d (Fin.cast nCore_zero c) (Fin.cast nSub_zero i)
  td := fun q d c i => match q with | 0 => TileTd m X KO d (Fin.cast nCore_zero c) (Fin.cast nSub_zero i)
  x := fun _ _ => iprop(emp)

theorem P_st (d : Dev nD) (c : Fin ((K (F := F)).nCore 0)) : (P m X KO).st 0 d c = CoreGo m X d (Fin.cast nCore_zero c) := rfl
theorem P_dn (d : Dev nD) (c : Fin ((K (F := F)).nCore 0)) : (P m X KO).dn 0 d c = CoreTd m X KO d (Fin.cast nCore_zero c) := rfl
theorem P_go (d : Dev nD) (c : Fin ((K (F := F)).nCore 0)) (i : Fin ((K (F := F)).nSub 0)) :
    (P m X KO).go 0 d c i = TileGo m X d (Fin.cast nCore_zero c) (Fin.cast nSub_zero i) := rfl
theorem P_td (d : Dev nD) (c : Fin ((K (F := F)).nCore 0)) (i : Fin ((K (F := F)).nSub 0)) :
    (P m X KO).td 0 d c i = TileTd m X KO d (Fin.cast nCore_zero c) (Fin.cast nSub_zero i) := rfl
theorem P_x (q : Fin 1) (thr : Thread nD τ) : (P m X KO).x q thr = iprop(emp) := rfl

instance P_storable : (P (F := F) m X KO).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## The obligation of one task, from its contract -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => body (F := F) (coordsV c s)) ⟨⟩ c s := rfl

omit [FloatOps F] in
theorem obl_pre {A B C : sProp 𝕄} : iprop(A ∗ emp ∗ B ∗ C) ⊢ iprop(A ∗ B ∗ C) := by
  iintro ⟨HA, -, HB, HC⟩
  isplitl [HA]; · iexact HA
  isplitl [HB]; · iexact HB
  iexact HC

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileSpec m X KO) : (K (F := F)).TileObl (D (F := F)) 𝒱 (P m X KO) v₀ 0 := by
  intro d c i O W hO _ _
  -- this kernel owes nothing for a protocol of its own
  simp only [show (P m X KO).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, _root_.and_self, ↓reduceDIte]
  rw [P_x, P_go, P_td]
  exact obl_pre.trans ((htile d (coordsV ⟨_, hc.1⟩ ⟨_, hc.2⟩) O W hO).trans (wp_mono frame _ _ fun _ => obl_post))

/-! ## A SparseCore's operands among its tasks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem vecSplit : (K (F := F)).VecSplit' (P m X KO) 0 := by
  intro d c
  rw [P_st, P_dn]
  simp only [P_go, P_td]
  rw [bigSep_tasks (F := F) (fun i => TileGo m X d (Fin.cast nCore_zero c) i),
    bigSep_tasks (F := F) (fun i => TileTd m X KO d (Fin.cast nCore_zero c) i)]
  unfold CoreGo CoreTd
  iintro H; imodintro
  isplitl [H]; · iexact H
  iintro H; iexact H

end Cert.Proof.KB

end
-- ==== Proof.KB.LaunchDeal.lean ====
/-
  The launch of the one SparseCore call, second part: dealing the arrays to the 32 tasks and taking them back.

  Each array the tasks read is cut into 32 read shares and a remainder that stays with the TensorCore over the call;
  the result array is cut into its 1024 rows. Task (c, i) gets share number 16·c + i and the rows 32·(2·i + c) + bi,
  bi < 32: both maps are bijections (onto the 32 shares, onto the 1024 rows), so the shares and the rows regroup per
  SparseCore and per task with nothing left over, and regroup back. A row that comes back holding, on its own
  elements, the expected contents is the expected array's row; the rows together are the expected array whole.
-/
import proofs.«203378_g9921374454198_cont_sun_m_1167_43_alg».proof.Proof.KB.LaunchPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The 32 tasks and the 1024 rows, counted -/

/-- Task (c, i) ↦ its number 16·c + i: a bijection onto the 32 shares. -/
def taskEquiv : Fin 2 × Fin 16 ≃ Fin 32 where
  toFun p := tileNo p.1 p.2
  invFun n := (⟨n.val / 16, by omega⟩, ⟨n.val % 16, by omega⟩)
  left_inv := fun ⟨⟨c, hc⟩, ⟨i, hi⟩⟩ => by
    refine Prod.ext (Fin.ext ?_) (Fin.ext ?_)
    · show (c * 16 + i) / 16 = c; omega
    · show (c * 16 + i) % 16 = i; omega
  right_inv := fun ⟨n, hn⟩ => Fin.ext (by show n / 16 * 16 + n % 16 = n; omega)

/-- Task (c, i) and trip bi ↦ the row 32·(2·i + c) + bi: a bijection onto the 1024 rows. -/
def rowEquiv : (Fin 2 × Fin 16) × Fin 32 ≃ Fin 1024 where
  toFun p := tileRow p.1.1 p.1.2 p.2
  invFun r := ((⟨r.val / 32 % 2, by omega⟩, ⟨r.val / 64, by omega⟩), ⟨r.val % 32, by omega⟩)
  left_inv := fun ⟨⟨⟨c, hc⟩, ⟨i, hi⟩⟩, ⟨b, hb⟩⟩ => by
    refine Prod.ext (Prod.ext (Fin.ext ?_) (Fin.ext ?_)) (Fin.ext ?_)
    · show ((i * 2 + c) * 32 + b) / 32 % 2 = c; omega
    · show ((i * 2 + c) * 32 + b) / 64 = i; omega
    · show ((i * 2 + c) * 32 + b) % 32 = b; omega
  right_inv := fun ⟨r, hr⟩ => Fin.ext (by show (r / 64 * 2 + r / 32 % 2) * 32 + r % 32 = r; omega)

theorem regroupN (Φ : Fin 32 → sProp 𝕄) :
    (bigSep Finset.univ fun c : Fin 2 => bigSep Finset.univ fun i : Fin 16 => Φ (tileNo c i)) = bigSep Finset.univ Φ := by
  rw [bigSep_univ_equiv taskEquiv Φ, bigSep_univ_prod]; rfl

theorem regroupR (Ψ : Fin 1024 → sProp 𝕄) :
    (bigSep Finset.univ fun c : Fin 2 => bigSep Finset.univ fun i : Fin 16 => bigSep Finset.univ fun bi : Fin 32 => Ψ (tileRow c i bi))
      = bigSep Finset.univ Ψ := by
  rw [bigSep_univ_equiv rowEquiv Ψ, bigSep_univ_prod (fun p : (Fin 2 × Fin 16) × Fin 32 => Ψ (rowEquiv p)),
    bigSep_univ_prod (fun p : Fin 2 × Fin 16 => bigSep Finset.univ fun bi : Fin 32 => Ψ (rowEquiv (p, bi)))]
  rfl

/-! ## The result array and its rows -/

theorem rowSetO_eq (r : Fin 1024) : rowSetO r = (rowO r).set := by
  show ((View.whole (main_v1_scv : Ref sig .scVector)).slice (rowO r)).set = _
  rw [View.set_slice]; exact Finset.map_refl
theorem rows_disjoint : ∀ i ∈ (Finset.univ : Finset (Fin 1024)), ∀ j ∈ (Finset.univ : Finset (Fin 1024)), i ≠ j → Disjoint (rowSetO i) (rowSetO j) :=
  fun i _ j _ h => by rw [rowSetO_eq, rowSetO_eq]; exact Rect.part_disjoint hdivO h
theorem rows_cover : (Finset.univ : Finset (Fin 1024)).biUnion rowSetO = Finset.univ :=
  (Finset.biUnion_congr rfl fun i _ => rowSetO_eq i).trans (Rect.biUnion_part hdivO)

theorem v1_rows (d : Dev nD) (f : Buf (Elt F) (v1Loc d)) :
    (v1Loc d ↦{fullShare} f : sProp 𝕄) = bigSep Finset.univ fun r : Fin 1024 => v1Loc d ↦[rowSetO r]{fullShare} f := by
  rw [← pointsTo_biUnion Finset.univ (ℓ := v1Loc d) rowSetO rows_disjoint, rows_cover]; try rfl

variable (m : (ℓ : Loc nD τ sig) → Buf (Elt F) ℓ)
variable (X : (d : Dev nD) → Buf (Elt F) (v0Loc d)) (KO : (d : Dev nD) → Buf (Elt F) (v1Loc d))

/-- A row that holds the expected contents on its own elements is the expected array's row. -/
theorem row_back (d : Dev nD) (r : Fin 1024) :
    (iprop(∃ f, ⌜∀ j ∈ rowSetO r, f j = KO d j⌝ ∗ v1Loc d ↦[rowSetO r]{fullShare} f) : sProp 𝕄) ⊢ v1Loc d ↦[rowSetO r]{fullShare} KO d := by
  iintro ⟨%f, %hf, H⟩
  iapply (Entails.of_eq (pointsTo_congr hf)); iexact H

/-- The 1024 rows, each holding the expected contents on its own elements, are the expected array whole. -/
theorem rows_back (d : Dev nD) :
    (bigSep Finset.univ fun r : Fin 1024 => iprop(∃ f, ⌜∀ j ∈ rowSetO r, f j = KO d j⌝ ∗ v1Loc d ↦[rowSetO r]{fullShare} f) : sProp 𝕄)
      ⊢ v1Loc d ↦{fullShare} KO d := by
  rw [v1_rows d (KO d)]
  exact bigSep_mono fun r _ => row_back KO d r

/-! ## An array every task reads: 32 read shares and a remainder -/

theorem shares_eq {ℓ : Loc nD τ sig} (f : Buf (Elt F) ℓ) :
    (ℓ ↦{fullShare} f : sProp 𝕄)
      = iprop((ℓ ↦{Transfers.shareDrop fullShare 32} f) ∗ bigSep Finset.univ fun n : Fin 32 => ℓ ↦{Transfers.shareTok fullShare 32 n} f) :=
  BI.equiv_iff.mp ⟨(Transfers.pointsTo_toks fullShare 32).1, (Transfers.pointsTo_toks fullShare 32).2⟩

/-- What stays with the TensorCore over the call: the remainder of each array the tasks read. -/
def Rem (d : Dev nD) : sProp 𝕄 :=
  iprop((v0Loc d ↦{Transfers.shareDrop fullShare 32} X d) ∗ (a1Loc d ↦{Transfers.shareDrop fullShare 32} m (a1Loc d))
    ∗ (a2Loc d ↦{Transfers.shareDrop fullShare 32} m (a2Loc d)) ∗ (a3Loc d ↦{Transfers.shareDrop fullShare 32} m (a3Loc d)))

theorem readShares_all (d : Dev nD) :
    (bigSep Finset.univ fun n : Fin 32 => readShares m X d n)
      = iprop((bigSep Finset.univ fun n : Fin 32 => v0Loc d ↦{Transfers.shareTok fullShare 32 n} X d)
        ∗ (bigSep Finset.univ fun n : Fin 32 => a1Loc d ↦{Transfers.shareTok fullShare 32 n} m (a1Loc d))
        ∗ (bigSep Finset.univ fun n : Fin 32 => a2Loc d ↦{Transfers.shareTok fullShare 32 n} m (a2Loc d))
        ∗ (bigSep Finset.univ fun n : Fin 32 => a3Loc d ↦{Transfers.shareTok fullShare 32 n} m (a3Loc d))) := by
  unfold readShares
  rw [bigSep_sep', bigSep_sep', bigSep_sep']

/-! ## The two SparseCores' operands, flat -/

theorem coresGo_eq (d : Dev nD) :
    (bigSep Finset.univ fun c : Fin 2 => CoreGo m X d c)
      = iprop((bigSep Finset.univ fun n : Fin 32 => readShares m X d n)
          ∗ bigSep Finset.univ fun r : Fin 1024 => v1Loc d ↦[rowSetO r]{fullShare} m (v1Loc d)) := by
  unfold CoreGo TileGo
  simp only [bigSep_sep']
  rw [regroupN (fun n => readShares m X d n), regroupR (fun r => v1Loc d ↦[rowSetO r]{fullShare} m (v1Loc d))]

theorem coresTd_eq (d : Dev nD) :
    (bigSep Finset.univ fun c : Fin 2 => CoreTd m X KO d c)
      = iprop((bigSep Finset.univ fun n : Fin 32 => readShares m X d n)
          ∗ bigSep Finset.univ fun r : Fin 1024 =>
              iprop(∃ f, ⌜∀ j ∈ rowSetO r, f j = KO d j⌝ ∗ v1Loc d ↦[rowSetO r]{fullShare} f)) := by
  unfold CoreTd TileTd
  simp only [bigSep_sep']
  rw [regroupN (fun n => readShares m X d n),
    regroupR (fun r => iprop(∃ f, ⌜∀ j ∈ rowSetO r, f j = KO d j⌝ ∗ v1Loc d ↦[rowSetO r]{fullShare} f))]

/-! ## Dealing, and taking back -/

/-- The five arrays whole: the remainders, and the two SparseCores' operands. -/
theorem deal (d : Dev nD) :
    iprop((v0Loc d ↦{fullShare} X d) ∗ (a1Loc d ↦{fullShare} m (a1Loc d)) ∗ (a2Loc d ↦{fullShare} m (a2Loc d))
        ∗ (a3Loc d ↦{fullShare} m (a3Loc d)) ∗ (v1Loc d ↦{fullShare} m (v1Loc d)))
      ⊢ (iprop(Rem m X d ∗ bigSep Finset.univ fun c : Fin 2 => CoreGo m X d c) : sProp 𝕄) := by
  rw [coresGo_eq, readShares_all, shares_eq (X d), shares_eq (m (a1Loc d)), shares_eq (m (a2Loc d)), shares_eq (m (a3Loc d)), v1_rows]
  unfold Rem
  iintro ⟨⟨R0, T0⟩, ⟨R1, T1⟩, ⟨R2, T2⟩, ⟨R3, T3⟩, Hr⟩
  isplitl [R0 R1 R2 R3]
  · isplitl [R0]; · iexact R0
    isplitl [R1]; · iexact R1
    isplitl [R2]; · iexact R2
    iexact R3
  isplitl [T0 T1 T2 T3]
  · isplitl [T0]; · iexact T0
    isplitl [T1]; · iexact T1
    isplitl [T2]; · iexact T2
    iexact T3
  iexact Hr

/-- Back: the remainders and what the two SparseCores return are the four read arrays whole, unchanged, and the
    result array whole at the expected contents. -/
theorem undeal (d : Dev nD) :
    (iprop(Rem m X d ∗ bigSep Finset.univ fun c : Fin 2 => CoreTd m X KO d c) : sProp 𝕄)
      ⊢ iprop((v0Loc d ↦{fullShare} X d) ∗ (a1Loc d ↦{fullShare} m (a1Loc d)) ∗ (a2Loc d ↦{fullShare} m (a2Loc d))
        ∗ (a3Loc d ↦{fullShare} m (a3Loc d)) ∗ (v1Loc d ↦{fullShare} KO d)) := by
  rw [coresTd_eq, readShares_all, shares_eq (X d), shares_eq (m (a1Loc d)), shares_eq (m (a2Loc d)), shares_eq (m (a3Loc d))]
  unfold Rem
  iintro ⟨⟨R0, R1, R2, R3⟩, ⟨T0, T1, T2, T3⟩, Hr⟩
  isplitl [R0 T0]; · isplitl [R0]; · iexact R0
                     iexact T0
  isplitl [R1 T1]; · isplitl [R1]; · iexact R1
                     iexact T1
  isplitl [R2 T2]; · isplitl [R2]; · iexact R2
                     iexact T2
  isplitl [R3 T3]; · isplitl [R3]; · iexact R3
                     iexact T3
  iapply (rows_back KO d); iexact Hr

end Cert.Proof.KB

end
-- ==== Proof.KB.Launch.lean ====
/-
  The launch of the one SparseCore call, last part: @main on the TensorCore and the run of the whole program.

  @main flattens the vertex array (a host reshape), calls the SparseCores, and unflattens the result (a second host
  reshape). Around the call the TensorCore cuts the four arrays the tasks read into read shares and the result array
  into rows, deals them to the two SparseCores, and takes them back: the read arrays come back unchanged, the result
  array at the contents every task's contract states row by row. From one task's contract the library's launch theorem
  then gives the run of all 35 threads.
-/
import proofs.«203378_g9921374454198_cont_sun_m_1167_43_alg».proof.Proof.KB.LaunchDeal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## What the two host reshapes compute -/

/-- The vertex array flattened: the same elements in row-major order, one row per batch. -/
abbrev reshapeIn {d : Dev nD} (f : Buf (Elt F) (a0Loc d)) : Buf (Elt F) (v0Loc d) :=
  fun i => shapeCast (main_v0 : Ref sig .tc).ty.shape f shapeCasts_S1024x10475x3_S1024x31425 i
/-- The flat result unflattened. -/
abbrev reshapeOut {d : Dev nD} (f : Buf (Elt F) (v1Loc d)) : Buf (Elt F) (v2Loc d) :=
  fun i => shapeCast (main_v2 : Ref sig .tc).ty.shape f shapeCasts_S1024x24672_S1024x8224x3 i

variable (m : (ℓ : Loc nD τ sig) → Buf (Elt F) ℓ) (ρ : Dev nD → PrngReg)
variable (X : (d : Dev nD) → Buf (Elt F) (v0Loc d)) (KO : (d : Dev nD) → Buf (Elt F) (v1Loc d))

/-! ## The launch element: the handshakes' rounds; the counters are not needed -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m X KO).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

abbrev opIn : HloOp τ sig (Elt F) := StableHlo.reshape main_arg0 main_v0 rfl shapeCasts_S1024x10475x3_S1024x31425
abbrev opOut : HloOp τ sig (Elt F) := StableHlo.reshape main_v1 main_v2 rfl shapeCasts_S1024x24672_S1024x8224x3

/-- The TensorCore's seven arrays, all unscoped. -/
abbrev S7 : Finset (DevRef τ sig) := {a0', a1', a2', a3', v0', v1', v2'}

theorem held_S7 (d : Dev nD) (W : Valuation τ sig (Elt F)) :
    (held (T d) S7 W : sProp 𝕄) = iprop((a0Loc d ↦{fullShare} W a0') ∗ (a1Loc d ↦{fullShare} W a1') ∗ (a2Loc d ↦{fullShare} W a2')
      ∗ (a3Loc d ↦{fullShare} W a3') ∗ (v0Loc d ↦{fullShare} W v0') ∗ (v1Loc d ↦{fullShare} W v1') ∗ (v2Loc d ↦{fullShare} W v2')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (v0Loc d ↦{fullShare} W main_v0) ∗ (v1Loc d ↦{fullShare} W main_v1) ∗ (v2Loc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; and, over the call, the flattened vertices in main_v0 and the expected result in main_v1. -/
def V0 (d : Dev nD) : Valuation τ sig (Elt F) := fun b => m (d, b)
def V1 (d : Dev nD) : Valuation τ sig (Elt F) := Function.update (Function.update (V0 m d) v0' (X d)) v1' (KO d)

theorem unscoped_held (d : Dev nD) : (unscopedBufs d (fun b => m ((SparseCore.T d).loc b)) : sProp 𝕄) = held (T d) S7 (V0 m d) := by
  rw [unscopedBufs_eq, held_S7]; rfl

theorem V1_a0 (d : Dev nD) : V1 m X KO d a0' = m (a0Loc d) :=
  (Function.update_of_ne (show a0' ≠ v1' by decide) _ _).trans (Function.update_of_ne (show a0' ≠ v0' by decide) _ _)
theorem V1_a1 (d : Dev nD) : V1 m X KO d a1' = m (a1Loc d) :=
  (Function.update_of_ne (show a1' ≠ v1' by decide) _ _).trans (Function.update_of_ne (show a1' ≠ v0' by decide) _ _)
theorem V1_a2 (d : Dev nD) : V1 m X KO d a2' = m (a2Loc d) :=
  (Function.update_of_ne (show a2' ≠ v1' by decide) _ _).trans (Function.update_of_ne (show a2' ≠ v0' by decide) _ _)
theorem V1_a3 (d : Dev nD) : V1 m X KO d a3' = m (a3Loc d) :=
  (Function.update_of_ne (show a3' ≠ v1' by decide) _ _).trans (Function.update_of_ne (show a3' ≠ v0' by decide) _ _)
theorem V1_v2 (d : Dev nD) : V1 m X KO d v2' = m (v2Loc d) :=
  (Function.update_of_ne (show v2' ≠ v1' by decide) _ _).trans (Function.update_of_ne (show v2' ≠ v0' by decide) _ _)
theorem V1_v0 (d : Dev nD) : V1 m X KO d v0' = X d :=
  (Function.update_of_ne (show v0' ≠ v1' by decide) _ _).trans (Function.update_self _ _ _)
theorem V1_v1 (d : Dev nD) : V1 m X KO d v1' = KO d := Function.update_self _ _ _

theorem hIn : (opIn (F := F)).bufs ⊆ S7 := show ({a0', v0'} : Finset (DevRef τ sig)) ⊆ S7 by decide
theorem hOut : (opOut (F := F)).bufs ⊆ S7 := show ({v1', v2'} : Finset (DevRef τ sig)) ⊆ S7 by decide

theorem opIn_ne (W : Valuation τ sig (Elt F)) {b : DevRef τ sig} (h : b ∉ ({v0'} : Finset (DevRef τ sig))) : (opIn (F := F)).result W b = W b :=
  (opIn (F := F)).result_of_not_mem W h
theorem opOut_ne (W : Valuation τ sig (Elt F)) {b : DevRef τ sig} (h : b ∉ ({v2'} : Finset (DevRef τ sig))) : (opOut (F := F)).result W b = W b :=
  (opOut (F := F)).result_of_not_mem W h
theorem opIn_v0 (W : Valuation τ sig (Elt F)) (d : Dev nD) : (opIn (F := F)).result W v0' = reshapeIn (d := d) (W a0') :=
  StableHlo.reshape_result main_arg0 main_v0 rfl shapeCasts_S1024x10475x3_S1024x31425 _ _ W
theorem opOut_v2 (W : Valuation τ sig (Elt F)) (d : Dev nD) : (opOut (F := F)).result W v2' = reshapeOut (d := d) (W v1') :=
  StableHlo.reshape_result main_v1 main_v2 rfl shapeCasts_S1024x24672_S1024x8224x3 _ _ W

/-- After the first reshape: the flattened vertices in main_v0, everything else as launched. -/
theorem held_In (hX : ∀ d, X d = reshapeIn (m (a0Loc d))) (d : Dev nD) :
    (held (T d) S7 ((opIn (F := F)).result (V0 m d)) : sProp 𝕄)
      = iprop((a0Loc d ↦{fullShare} m (a0Loc d)) ∗ (a1Loc d ↦{fullShare} m (a1Loc d)) ∗ (a2Loc d ↦{fullShare} m (a2Loc d))
        ∗ (a3Loc d ↦{fullShare} m (a3Loc d)) ∗ (v0Loc d ↦{fullShare} X d) ∗ (v1Loc d ↦{fullShare} m (v1Loc d)) ∗ (v2Loc d ↦{fullShare} m (v2Loc d))) := by
  rw [held_S7, opIn_ne _ (show a0' ∉ ({v0'} : Finset (DevRef τ sig)) by decide), opIn_ne _ (show a1' ∉ ({v0'} : Finset (DevRef τ sig)) by decide),
    opIn_ne _ (show a2' ∉ ({v0'} : Finset (DevRef τ sig)) by decide), opIn_ne _ (show a3' ∉ ({v0'} : Finset (DevRef τ sig)) by decide),
    opIn_ne _ (show v1' ∉ ({v0'} : Finset (DevRef τ sig)) by decide), opIn_ne _ (show v2' ∉ ({v0'} : Finset (DevRef τ sig)) by decide),
    opIn_v0 _ d, hX d]
  rfl

/-- After the second reshape: the result unflattened in main_v2, the arguments as launched. -/
theorem held_Out (d : Dev nD) :
    (held (T d) S7 ((opOut (F := F)).result (V1 m X KO d)) : sProp 𝕄)
      = iprop((a0Loc d ↦{fullShare} m (a0Loc d)) ∗ (a1Loc d ↦{fullShare} m (a1Loc d)) ∗ (a2Loc d ↦{fullShare} m (a2Loc d))
        ∗ (a3Loc d ↦{fullShare} m (a3Loc d)) ∗ (v0Loc d ↦{fullShare} X d) ∗ (v1Loc d ↦{fullShare} KO d) ∗ (v2Loc d ↦{fullShare} reshapeOut (KO d))) := by
  rw [held_S7, opOut_ne _ (show a0' ∉ ({v2'} : Finset (DevRef τ sig)) by decide), opOut_ne _ (show a1' ∉ ({v2'} : Finset (DevRef τ sig)) by decide),
    opOut_ne _ (show a2' ∉ ({v2'} : Finset (DevRef τ sig)) by decide), opOut_ne _ (show a3' ∉ ({v2'} : Finset (DevRef τ sig)) by decide),
    opOut_ne _ (show v0' ∉ ({v2'} : Finset (DevRef τ sig)) by decide), opOut_ne _ (show v1' ∉ ({v2'} : Finset (DevRef τ sig)) by decide),
    opOut_v2 _ d, V1_a0, V1_a1, V1_a2, V1_a3, V1_v0, V1_v1]

theorem held_V1 (d : Dev nD) :
    (held (T d) S7 (V1 m X KO d) : sProp 𝕄)
      = iprop((a0Loc d ↦{fullShare} m (a0Loc d)) ∗ (a1Loc d ↦{fullShare} m (a1Loc d)) ∗ (a2Loc d ↦{fullShare} m (a2Loc d))
        ∗ (a3Loc d ↦{fullShare} m (a3Loc d)) ∗ (v0Loc d ↦{fullShare} X d) ∗ (v1Loc d ↦{fullShare} KO d) ∗ (v2Loc d ↦{fullShare} m (v2Loc d))) := by
  rw [held_S7, V1_a0, V1_a1, V1_a2, V1_a3, V1_v0, V1_v1, V1_v2]

/-- What the call takes for the two SparseCores, and what it hands back. -/
theorem st0_eq (d : Dev nD) : (bigSep Finset.univ fun c : Fin ((K (F := F)).nCore 0) => (P m X KO).st 0 d c) = bigSep Finset.univ fun c : Fin 2 => CoreGo m X d c :=
  bigSep_congr fun _ _ => rfl
theorem dn0_eq (d : Dev nD) : (bigSep Finset.univ fun c : Fin ((K (F := F)).nCore 0) => (P m X KO).dn 0 d c) = bigSep Finset.univ fun c : Fin 2 => CoreTd m X KO d c :=
  bigSep_congr fun _ _ => rfl

/-! ## @main on the TensorCore -/

/-- What @main leaves the claim: the four arguments whole at their launch contents, the result whole at the expected
    contents unflattened. -/
abbrev FIN (d : Dev nD) : sProp 𝕄 :=
  iprop((v2Loc d ↦{fullShare} reshapeOut (KO d)) ∗ (a0Loc d ↦{fullShare} m (a0Loc d)) ∗ (a1Loc d ↦{fullShare} m (a1Loc d))
    ∗ (a2Loc d ↦{fullShare} m (a2Loc d)) ∗ (a3Loc d ↦{fullShare} m (a3Loc d)))

variable [FloatOps F]

theorem hmain (hX : ∀ d, X d = reshapeIn (m (a0Loc d))) (κ : GSem nD τ sig → ℕ) (d : Dev nD) :
    iprop((K (F := F)).ctx EH (P m X KO) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m KO d) := by
  unfold SparseCore.Cfg.tcRes
  rw [unscoped_held]
  simp only [main, wp_bind, wp_pure]
  iintro ⟨#Hctx, Hst, ⟨Hb, Hheld, -, -⟩, -⟩
  -- the vertices flattened
  iapply (wp_hlo_within 𝒱 (SparseCore.T d) none Set.univ (op := opIn) (S := S7) hIn (V := V0 m d)) $$ [Hb Hheld]
  · isplitl [Hb]; · iexact Hb
    iexact Hheld
  iintro ⟨Hb, Hheld⟩
  ihave Hh := (Entails.of_eq (held_In (F := F) m X hX d)) $$ Hheld
  icases Hh with ⟨H0, H1, H2, H3, Hv0, Hv1, Hv2⟩
  rw [wp_ret]; imodintro
  -- the arrays dealt: read shares and rows to the two SparseCores, the remainders kept
  ihave Hd := (deal m X d) $$ [Hv0 H1 H2 H3 Hv1]
  · isplitl [Hv0]; · iexact Hv0
    isplitl [H1]; · iexact H1
    isplitl [H2]; · iexact H2
    isplitl [H3]; · iexact H3
    iexact Hv1
  icases Hd with ⟨Hrem, Hgo⟩
  iapply ((K (F := F)).wp_run (D (F := F)) 𝒱 (EH := EH) (P := P m X KO) κ d 0) $$ [Hst Hgo H0 Hv2 Hrem Hb]
  isplitr; · iexact Hctx
  isplitl [Hst]; · iexact Hst
  isplitl [Hgo]
  · rw [st0_eq]; iexact Hgo
  iintro ⟨Hst, Hdn⟩
  ihave Hdn' := (Entails.of_eq (dn0_eq m X KO d)) $$ Hdn
  ihave Hu := (undeal m X KO d) $$ [Hrem Hdn']
  · isplitl [Hrem]; · iexact Hrem
    iexact Hdn'
  icases Hu with ⟨Hv0, H1, H2, H3, Hv1⟩
  -- the result unflattened
  iapply (wp_hlo_within 𝒱 (SparseCore.T d) none Set.univ (op := opOut) (S := S7) hOut (V := V1 m X KO d)) $$ [Hb H0 H1 H2 H3 Hv0 Hv1 Hv2]
  · isplitl [Hb]; · iexact Hb
    rw [held_V1]
    isplitl [H0]; · iexact H0
    isplitl [H1]; · iexact H1
    isplitl [H2]; · iexact H2
    isplitl [H3]; · iexact H3
    isplitl [Hv0]; · iexact Hv0
    isplitl [Hv1]; · iexact Hv1
    iexact Hv2
  iintro ⟨Hb, Hheld⟩
  ihave Hh := (Entails.of_eq (held_Out (F := F) m X KO d)) $$ Hheld
  icases Hh with ⟨H0, H1, H2, H3, -, -, Hv2⟩
  rw [wp_ret]; imodintro; imodintro
  isplitl [Hst]; · iexact Hst
  isplitl [Hv2]; · iexact Hv2
  isplitl [H0]; · iexact H0
  isplitl [H1]; · iexact H1
  isplitl [H2]; · iexact H2
  iexact H3

/-! ## The final memory reads the claim -/

def fq (d : Dev nD) (s' : Phys nD τ sig (Elt F)) : Prop :=
  s'.mem.mem (v2Loc d) = reshapeOut (KO d) ∧ s'.mem.mem (a0Loc d) = m (a0Loc d) ∧ s'.mem.mem (a1Loc d) = m (a1Loc d)
    ∧ s'.mem.mem (a2Loc d) = m (a2Loc d) ∧ s'.mem.mem (a3Loc d) = m (a3Loc d)

omit [FloatOps F] in
theorem hfin (d : Dev nD) (s' : Phys nD τ sig (Elt F)) : iprop(FIN m KO d ∗ SI s') ⊢ (⌜fq m KO d s'⌝ : sProp 𝕄) := by
  iintro ⟨⟨Hv2, H0, H1, H2, H3⟩, HSI⟩
  ihave H := (persistent_entails_right (SI_pointsTo_agree (st := s') (ℓ := v2Loc d) (I := Finset.univ) (q := fullShare) (f := reshapeOut (KO d)))) $$ [HSI Hv2]
  · isplitl [HSI] <;> iassumption
  icases H with ⟨%h2, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2', HSI, -⟩
  ihave H := (SI_pointsTo_agree (st := s') (ℓ := a3Loc d) (I := Finset.univ) (q := fullShare) (f := m (a3Loc d))) $$ [HSI H3]
  · isplitl [HSI] <;> iassumption
  icases H with %h3
  ipureintro
  exact ⟨funext fun i => h2 i (Finset.mem_univ i), funext fun i => h0 i (Finset.mem_univ i), funext fun i => h1 i (Finset.mem_univ i),
    funext fun i => h2' i (Finset.mem_univ i), funext fun i => h3 i (Finset.mem_univ i)⟩

/-! ## The program's run -/

def QC : PUnit × MemSt nD τ sig (Elt F) → Prop := fun r => ∀ c : Dev nD, r.2.mem (v2Loc c) = reshapeOut (KO c)
  ∧ r.2.mem (a0Loc c) = m (a0Loc c) ∧ r.2.mem (a1Loc c) = m (a1Loc c) ∧ r.2.mem (a2Loc c) = m (a2Loc c) ∧ r.2.mem (a3Loc c) = m (a3Loc c)

/-- From one task's contract: every weakly fair execution of the 35 threads terminates, and leaves the result array
    at the expected contents unflattened and the four arguments as they were. -/
theorem run_main [∀ e, Nonempty (Elt F e)] (hX : ∀ d, X d = reshapeIn (m (a0Loc d))) (htile : TileSpec m X KO) :
    θ_run (Cert.Kernel.defs (F := F)) (Cert.Kernel.threads (F := F)) ⟨m, fun _ => 0, ρ⟩
      (fun r => ∀ c : Dev nD, r.2.mem (v2Loc c) = reshapeOut (KO c)
        ∧ r.2.mem (a0Loc c) = m (a0Loc c) ∧ r.2.mem (a1Loc c) = m (a1Loc c) ∧ r.2.mem (a2Loc c) = m (a2Loc c) ∧ r.2.mem (a3Loc c) = m (a3Loc c)) :=
  SparseCore.Cfg.θ_run_sc (K := K (F := F)) (D := D (F := F)) (𝒱 := 𝒱) (EH := EH) (P := P m X KO) facts v₀
    (fun q hq => match q with | 0 => nomatch hq)
    (fun q _ => match q with | 0 => tileObl m X KO htile)
    (fun q _ => match q with | 0 => SparseCore.Cfg.VecSplit.of_plain (vecSplit m X KO))
    m ρ main (fun _ => iprop(emp)) (FIN m KO) (u₀ (F := F)) (sep_elim_left.trans (hu₀ m X KO)) (hmain m ρ X KO hX) (fq m KO) (hfin m KO) (QC m KO) (fun _ h => h)

end Cert.Proof.KB

end
-- ==== Proof.KB.Core.lean ====
/-
  The contract of one vector subcore's task over EXPLICIT resources: the task's scratch buffers and the semaphores of
  its own transfers named one by one, and every array spelt through the memref the kernel function is called with.
  It is the task's contract (the one the launch consumes) with the subcore's scoped storage opened.
-/
import proofs.«203378_g9921374454198_cont_sun_m_1167_43_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel function's memrefs, spelt as the body table passes them
local notation "V0W" => (Memref.whole Cert.Kernel.main_v0_scv : Memref Cert.Kernel.sig Kind.scVector Space.hbm Cert.Kernel.S1024x31425 EltTy.f32)
local notation "A1W" => (Memref.whole Cert.Kernel.main_arg1_scv : Memref Cert.Kernel.sig Kind.scVector Space.hbm Cert.Kernel.S8192 EltTy.i32)
local notation "A2W" => (Memref.whole Cert.Kernel.main_arg2_scv : Memref Cert.Kernel.sig Kind.scVector Space.hbm Cert.Kernel.S4096 EltTy.i32)
local notation "A3W" => (Memref.whole Cert.Kernel.main_arg3_scv : Memref Cert.Kernel.sig Kind.scVector Space.hbm Cert.Kernel.S4096 EltTy.i32)
local notation "V1W" => (Memref.whole Cert.Kernel.main_v1_scv : Memref Cert.Kernel.sig Kind.scVector Space.hbm Cert.Kernel.S1024x24672 EltTy.f32)
local notation "S0W" => (Memref.whole Cert.Kernel.cc0_scratch0 : Memref Cert.Kernel.sig Kind.scVector Space.vmem Cert.Kernel.S31425 EltTy.f32)
local notation "S1W" => (Memref.whole Cert.Kernel.cc0_scratch1 : Memref Cert.Kernel.sig Kind.scVector Space.vmem Cert.Kernel.S24672 EltTy.f32)
local notation "S2W" => (Memref.whole Cert.Kernel.cc0_scratch2 : Memref Cert.Kernel.sig Kind.scVector Space.vmem Cert.Kernel.S8192 EltTy.i32)
local notation "S3W" => (Memref.whole Cert.Kernel.cc0_scratch3 : Memref Cert.Kernel.sig Kind.scVector Space.vmem Cert.Kernel.S4096 EltTy.i32)
local notation "S4W" => (Memref.whole Cert.Kernel.cc0_scratch4 : Memref Cert.Kernel.sig Kind.scVector Space.vmem Cert.Kernel.S4096 EltTy.i32)
local notation "S5W" => (Memref.whole Cert.Kernel.cc0_scratch5 : Memref Cert.Kernel.sig Kind.scVector Space.vmem Cert.Kernel.S96 EltTy.f32)
local notation "S6W" => (Memref.whole Cert.Kernel.cc0_scratch6 : Memref Cert.Kernel.sig Kind.scVector Space.vmem Cert.Kernel.S1536 EltTy.f32)

variable (m : (ℓ : Loc nD τ sig) → Buf (Elt F) ℓ)
variable (X : (d : Dev nD) → Buf (Elt F) (v0Loc d)) (KO : (d : Dev nD) → Buf (Elt F) (v1Loc d))

-- the thread the task at grid point L runs on, spelt out wherever it stands
local notation "thrV(" d ", " L ")" => V d (cV L) (jV L)

/-- Read share number n of the four arrays a task reads, each through the kernel function's memref. -/
def readShares' (d : Dev nD) (L : grid0.Coords) (n : Fin 32) : sProp 𝕄 :=
  iprop(((V0W).view.loc thrV(d, L) ↦{Transfers.shareTok fullShare 32 n} X d)
    ∗ ((A1W).view.loc thrV(d, L) ↦{Transfers.shareTok fullShare 32 n} m (a1Loc d))
    ∗ ((A2W).view.loc thrV(d, L) ↦{Transfers.shareTok fullShare 32 n} m (a2Loc d))
    ∗ ((A3W).view.loc thrV(d, L) ↦{Transfers.shareTok fullShare 32 n} m (a3Loc d)))

/-- What the task at L is handed, and what it hands back: as TileGo and TileTd, through the memrefs. -/
def TileGo' (d : Dev nD) (L : grid0.Coords) : sProp 𝕄 :=
  iprop(readShares' m X d L (tileNo (cL L) (iL L))
    ∗ bigSep Finset.univ fun bi : Fin 32 => (V1W).view.loc thrV(d, L) ↦[rowSetO (tileRow (cL L) (iL L) bi)]{fullShare} m (v1Loc d))

def TileTd' (d : Dev nD) (L : grid0.Coords) : sProp 𝕄 :=
  iprop(readShares' m X d L (tileNo (cL L) (iL L))
    ∗ bigSep Finset.univ fun bi : Fin 32 =>
        iprop(∃ f, ⌜∀ j ∈ rowSetO (tileRow (cL L) (iL L) bi), f j = KO d j⌝
          ∗ (V1W).view.loc thrV(d, L) ↦[rowSetO (tileRow (cL L) (iL L) bi)]{fullShare} f))

/-- One task over explicit resources: from the evidence that its waits are admissible, what it is handed, its seven
    scratch buffers at whatever they hold, the five semaphores of its own transfers at zero and what its thread owes,
    the kernel function runs to the end and hands back what the contract says, the scratch buffers at some contents,
    the semaphores at zero again. -/
def CoreSpec [FloatOps F] : Prop :=
  ∀ (d : Dev nD) (L : grid0.Coords) (O : CellTallies nD τ sig (HIx 1)) (W : Waits sig (HIx 1)), (∀ g, O g none = 0) →
    ∀ (g0 : Buf (Elt F) ((S0W).view.loc thrV(d, L))) (g1 : Buf (Elt F) ((S1W).view.loc thrV(d, L)))
      (g2 : Buf (Elt F) ((S2W).view.loc thrV(d, L))) (g3 : Buf (Elt F) ((S3W).view.loc thrV(d, L)))
      (g4 : Buf (Elt F) ((S4W).view.loc thrV(d, L))) (g5 : Buf (Elt F) ((S5W).view.loc thrV(d, L)))
      (g6 : Buf (Elt F) ((S6W).view.loc thrV(d, L))),
    iprop(Transfers.MayWaits thrV(d, L) (none : HIx 1) O ∗ TileGo' m X d L
        ∗ ((S0W).view.loc thrV(d, L) ↦{fullShare} g0) ∗ ((S1W).view.loc thrV(d, L) ↦{fullShare} g1)
        ∗ ((S2W).view.loc thrV(d, L) ↦{fullShare} g2) ∗ ((S3W).view.loc thrV(d, L) ↦{fullShare} g3)
        ∗ ((S4W).view.loc thrV(d, L) ↦{fullShare} g4) ∗ ((S5W).view.loc thrV(d, L) ↦{fullShare} g5)
        ∗ ((S6W).view.loc thrV(d, L) ↦{fullShare} g6)
        ∗ semVal (thrV(d, L), SemLoc.dma cc0_scoped0.sem) 0 ∗ semVal (thrV(d, L), SemLoc.dma cc0_scoped1.sem) 0
        ∗ semVal (thrV(d, L), SemLoc.dma cc0_scoped2.sem) 0 ∗ semVal (thrV(d, L), SemLoc.dma cc0_scoped3.sem) 0
        ∗ semVal (thrV(d, L), SemLoc.dma cc0_scoped4.sem) 0
        ∗ owes thrV(d, L) O W)
      ⊢ wp frame (wpE (defs₀ (F := F)) 𝒱₀ thrV(d, L) none) Set.univ (body (F := F) L)
          fun _ => (iprop(TileTd' m X KO d L
            ∗ (∃ g, (S0W).view.loc thrV(d, L) ↦{fullShare} g) ∗ (∃ g, (S1W).view.loc thrV(d, L) ↦{fullShare} g)
            ∗ (∃ g, (S2W).view.loc thrV(d, L) ↦{fullShare} g) ∗ (∃ g, (S3W).view.loc thrV(d, L) ↦{fullShare} g)
            ∗ (∃ g, (S4W).view.loc thrV(d, L) ↦{fullShare} g) ∗ (∃ g, (S5W).view.loc thrV(d, L) ↦{fullShare} g)
            ∗ (∃ g, (S6W).view.loc thrV(d, L) ↦{fullShare} g)
            ∗ semVal (thrV(d, L), SemLoc.dma cc0_scoped0.sem) 0 ∗ semVal (thrV(d, L), SemLoc.dma cc0_scoped1.sem) 0
            ∗ semVal (thrV(d, L), SemLoc.dma cc0_scoped2.sem) 0 ∗ semVal (thrV(d, L), SemLoc.dma cc0_scoped3.sem) 0
            ∗ semVal (thrV(d, L), SemLoc.dma cc0_scoped4.sem) 0
            ∗ ∃ W', ⌜∀ p ∈ W', p ∈ W ∨ p.2 = none⌝ ∗ owes thrV(d, L) O W') : sProp 𝕄)

end Cert.Proof.KB

end
-- ==== Proof.KB.Wrap.lean ====
/-
  From the task's contract over explicit resources to the contract the launch consumes: a vector subcore's scoped
  storage is its own buffers, each whole at some contents, and its own semaphores at zero; among them are the seven
  scratch buffers and the five semaphores of the task's own transfers. They are taken out, the task runs on them while
  the rest is set aside, and they are put back.
-/
import proofs.«203378_g9921374454198_cont_sun_m_1167_43_alg».proof.Proof.KB.Core
import proofs.«203378_g9921374454198_cont_sun_m_1167_43_alg».proof.Proof.KB.LaunchPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "S0W" => (Memref.whole Cert.Kernel.cc0_scratch0 : Memref Cert.Kernel.sig Kind.scVector Space.vmem Cert.Kernel.S31425 EltTy.f32)
local notation "S1W" => (Memref.whole Cert.Kernel.cc0_scratch1 : Memref Cert.Kernel.sig Kind.scVector Space.vmem Cert.Kernel.S24672 EltTy.f32)
local notation "S2W" => (Memref.whole Cert.Kernel.cc0_scratch2 : Memref Cert.Kernel.sig Kind.scVector Space.vmem Cert.Kernel.S8192 EltTy.i32)
local notation "S3W" => (Memref.whole Cert.Kernel.cc0_scratch3 : Memref Cert.Kernel.sig Kind.scVector Space.vmem Cert.Kernel.S4096 EltTy.i32)
local notation "S4W" => (Memref.whole Cert.Kernel.cc0_scratch4 : Memref Cert.Kernel.sig Kind.scVector Space.vmem Cert.Kernel.S4096 EltTy.i32)
local notation "S5W" => (Memref.whole Cert.Kernel.cc0_scratch5 : Memref Cert.Kernel.sig Kind.scVector Space.vmem Cert.Kernel.S96 EltTy.f32)
local notation "S6W" => (Memref.whole Cert.Kernel.cc0_scratch6 : Memref Cert.Kernel.sig Kind.scVector Space.vmem Cert.Kernel.S1536 EltTy.f32)

variable (m : (ℓ : Loc nD τ sig) → Buf (Elt F) ℓ)
variable (X : (d : Dev nD) → Buf (Elt F) (v0Loc d)) (KO : (d : Dev nD) → Buf (Elt F) (v1Loc d))

/-! ## The arrays through the kernel function's memrefs are the TensorCore's arrays -/

theorem TileGo'_eq (d : Dev nD) (L : grid0.Coords) : (TileGo' m X d L : sProp 𝕄) = TileGo m X d (cL L) (iL L) := by
  unfold TileGo' TileGo readShares' readShares
  simp only [Memref.view_whole, View.set_whole]
theorem TileTd'_eq (d : Dev nD) (L : grid0.Coords) : (TileTd' m X KO d L : sProp 𝕄) = TileTd m X KO d (cL L) (iL L) := by
  unfold TileTd' TileTd readShares' readShares
  simp only [Memref.view_whole, View.set_whole]

/-! ## The scratch buffers among the subcore's own buffers -/

/-- The seven scratch buffers, as a vector subcore names them. -/
abbrev scratchRefs : Finset (Ref sig .scVector) := {cc0_scratch0, cc0_scratch1, cc0_scratch2, cc0_scratch3, cc0_scratch4, cc0_scratch5, cc0_scratch6}
/-- The same as buffers of subcore (c, i). -/
abbrev scratchOf (c : Fin τ.nSC) (i : Fin τ.nSub) : Finset (DevRef τ sig) :=
  scratchRefs.map ⟨(Proc.scVector c i).devRef, Proc.devRef_injective _⟩

theorem scratchOf_sub (c : Fin τ.nSC) (i : Fin τ.nSub) : scratchOf c i ⊆ ownRefs (τ := τ) (.scVector c i) := by
  intro b hb
  obtain ⟨r, hr, rfl⟩ := Finset.mem_map.mp hb
  simp only [scratchRefs, Finset.mem_insert, Finset.mem_singleton] at hr
  rcases hr with rfl | rfl | rfl | rfl | rfl | rfl | rfl <;> exact SparseCore.Cfg.mem_ownRefs_of_owner rfl

/-- A subcore's own buffers: the seven scratch buffers, each whole at some contents, and the rest. -/
theorem ownBufs_scratch (d : Dev nD) (c : Fin τ.nSC) (i : Fin τ.nSub) :
    (ownBufs (V d c i) : sProp 𝕄)
      = iprop(((∃ g, (S0W).view.loc (V d c i) ↦{fullShare} g) ∗ (∃ g, (S1W).view.loc (V d c i) ↦{fullShare} g)
          ∗ (∃ g, (S2W).view.loc (V d c i) ↦{fullShare} g) ∗ (∃ g, (S3W).view.loc (V d c i) ↦{fullShare} g)
          ∗ (∃ g, (S4W).view.loc (V d c i) ↦{fullShare} g) ∗ (∃ g, (S5W).view.loc (V d c i) ↦{fullShare} g)
          ∗ (∃ g, (S6W).view.loc (V d c i) ↦{fullShare} g))
          ∗ bigSep (ownRefs (τ := τ) (.scVector c i) \ scratchOf c i) fun b => iprop(∃ f, ((d, b) : Loc nD τ sig) ↦{fullShare} f)) := by
  unfold SparseCore.Cfg.ownBufs
  rw [show ((V d c i : Thread nD τ).2) = Proc.scVector c i from rfl, SparseCore.bigSep_sdiff_split' (scratchOf_sub c i)]
  congr 1
  unfold scratchOf scratchRefs
  have h0 : (cc0_scratch0 : Ref sig .scVector) ∉ ({cc0_scratch1, cc0_scratch2, cc0_scratch3, cc0_scratch4, cc0_scratch5, cc0_scratch6} : Finset (Ref sig .scVector)) := by decide
  have h1 : (cc0_scratch1 : Ref sig .scVector) ∉ ({cc0_scratch2, cc0_scratch3, cc0_scratch4, cc0_scratch5, cc0_scratch6} : Finset (Ref sig .scVector)) := by decide
  have h2 : (cc0_scratch2 : Ref sig .scVector) ∉ ({cc0_scratch3, cc0_scratch4, cc0_scratch5, cc0_scratch6} : Finset (Ref sig .scVector)) := by decide
  have h3 : (cc0_scratch3 : Ref sig .scVector) ∉ ({cc0_scratch4, cc0_scratch5, cc0_scratch6} : Finset (Ref sig .scVector)) := by decide
  have h4 : (cc0_scratch4 : Ref sig .scVector) ∉ ({cc0_scratch5, cc0_scratch6} : Finset (Ref sig .scVector)) := by decide
  have h5 : (cc0_scratch5 : Ref sig .scVector) ∉ ({cc0_scratch6} : Finset (Ref sig .scVector)) := by decide
  rw [bigSep_map, SparseCore.bigSep_insert' h0, SparseCore.bigSep_insert' h1, SparseCore.bigSep_insert' h2,
    SparseCore.bigSep_insert' h3, SparseCore.bigSep_insert' h4, SparseCore.bigSep_insert' h5, bigSep_singleton]
  rfl

/-! ## The transfers' semaphores among the subcore's own semaphores -/

abbrev scopedSems : Finset (DmaSem sig) := {cc0_scoped0.sem, cc0_scoped1.sem, cc0_scoped2.sem, cc0_scoped3.sem, cc0_scoped4.sem}
abbrev scopedOf (thr : Thread nD τ) : Finset (GSem nD τ sig) :=
  scopedSems.map ⟨fun s => (thr, SemLoc.dma s), fun _ _ e => SemLoc.dma.inj (Prod.mk.inj e).2⟩

theorem scopedOf_sub (d : Dev nD) (c : Fin τ.nSC) (i : Fin τ.nSub) : scopedOf (V d c i) ⊆ ownCells (V d c i) := by
  intro g hg
  obtain ⟨s, hs, rfl⟩ := Finset.mem_map.mp hg
  simp only [scopedSems, Finset.mem_insert, Finset.mem_singleton] at hs
  refine mem_ownCells.mpr ⟨rfl, ?_⟩
  rcases hs with rfl | rfl | rfl | rfl | rfl
  · show (SemLoc.dma cc0_scoped0.sem : SemLoc sig).isScoped .scVector = true; decide
  · show (SemLoc.dma cc0_scoped1.sem : SemLoc sig).isScoped .scVector = true; decide
  · show (SemLoc.dma cc0_scoped2.sem : SemLoc sig).isScoped .scVector = true; decide
  · show (SemLoc.dma cc0_scoped3.sem : SemLoc sig).isScoped .scVector = true; decide
  · show (SemLoc.dma cc0_scoped4.sem : SemLoc sig).isScoped .scVector = true; decide

/-- A subcore's own semaphores at zero: the five of the task's transfers, and the rest. -/
theorem ownSems0_scoped (d : Dev nD) (c : Fin τ.nSC) (i : Fin τ.nSub) :
    (ownSems0 (V d c i) : sProp 𝕄)
      = iprop((semVal (V d c i, SemLoc.dma cc0_scoped0.sem) 0 ∗ semVal (V d c i, SemLoc.dma cc0_scoped1.sem) 0
          ∗ semVal (V d c i, SemLoc.dma cc0_scoped2.sem) 0 ∗ semVal (V d c i, SemLoc.dma cc0_scoped3.sem) 0
          ∗ semVal (V d c i, SemLoc.dma cc0_scoped4.sem) 0)
          ∗ bigSep (ownCells (V d c i) \ scopedOf (V d c i)) fun g => semVal g 0) := by
  unfold SparseCore.Cfg.ownSems0
  rw [SparseCore.bigSep_sdiff_split' (scopedOf_sub d c i)]
  congr 1
  unfold scopedOf scopedSems
  have h0 : (cc0_scoped0.sem : DmaSem sig) ∉ ({cc0_scoped1.sem, cc0_scoped2.sem, cc0_scoped3.sem, cc0_scoped4.sem} : Finset (DmaSem sig)) := by decide
  have h1 : (cc0_scoped1.sem : DmaSem sig) ∉ ({cc0_scoped2.sem, cc0_scoped3.sem, cc0_scoped4.sem} : Finset (DmaSem sig)) := by decide
  have h2 : (cc0_scoped2.sem : DmaSem sig) ∉ ({cc0_scoped3.sem, cc0_scoped4.sem} : Finset (DmaSem sig)) := by decide
  have h3 : (cc0_scoped3.sem : DmaSem sig) ∉ ({cc0_scoped4.sem} : Finset (DmaSem sig)) := by decide
  rw [bigSep_map, SparseCore.bigSep_insert' h0, SparseCore.bigSep_insert' h1, SparseCore.bigSep_insert' h2,
    SparseCore.bigSep_insert' h3, bigSep_singleton]
  rfl

/-! ## The wrapper -/

variable [FloatOps F]

theorem tileSpec_of_core (h : CoreSpec m X KO) : TileSpec m X KO := by
  intro d L O W hO
  rw [(K (F := F)).scopedBufs_V facts d (cV L) (jV L), SparseCore.Cfg.scopedSems0_V (Val := Elt F) d (cV L) (jV L),
    ownBufs_scratch, ownSems0_scoped, ← TileGo'_eq, ← TileTd'_eq]
  iintro ⟨#Hlv, Hgo, ⟨⟨⟨%g0, B0⟩, ⟨%g1, B1⟩, ⟨%g2, B2⟩, ⟨%g3, B3⟩, ⟨%g4, B4⟩, ⟨%g5, B5⟩, ⟨%g6, B6⟩⟩, Brest⟩, ⟨⟨C0, C1, C2, C3, C4⟩, Crest⟩, HO⟩
  ihave Hmw := ((K (F := F)).mayWaits_none (thr := V d (cV L) (jV L)) hO) $$ Hlv
  -- the task runs on what is taken out; the rest of the subcore's storage waits beside the run and is put back after it
  iapply (wp_wand_r frame _ Set.univ)
  isplitl [Hmw Hgo B0 B1 B2 B3 B4 B5 B6 C0 C1 C2 C3 C4 HO]
  · iapply (h d L O W hO g0 g1 g2 g3 g4 g5 g6)
    isplitl [Hmw]; · iexact Hmw
    isplitl [Hgo]; · iexact Hgo
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [C0]; · iexact C0
    isplitl [C1]; · iexact C1
    isplitl [C2]; · iexact C2
    isplitl [C3]; · iexact C3
    isplitl [C4]; · iexact C4
    iexact HO
  iintro %_ ⟨Htd, B0, B1, B2, B3, B4, B5, B6, C0, C1, C2, C3, C4, HO⟩
  isplitl [Htd]; · iexact Htd
  isplitl [B0 B1 B2 B3 B4 B5 B6 Brest]
  · isplitl [B0 B1 B2 B3 B4 B5 B6]
    · isplitl [B0]; · iexact B0
      isplitl [B1]; · iexact B1
      isplitl [B2]; · iexact B2
      isplitl [B3]; · iexact B3
      isplitl [B4]; · iexact B4
      isplitl [B5]; · iexact B5
      iexact B6
    · iexact Brest
  isplitl [C0 C1 C2 C3 C4 Crest]
  · isplitl [C0 C1 C2 C3 C4]
    · isplitl [C0]; · iexact C0
      isplitl [C1]; · iexact C1
      isplitl [C2]; · iexact C2
      isplitl [C3]; · iexact C3
      iexact C4
    · iexact Crest
  iexact HO

end Cert.Proof.KB

end
-- ==== Proof.KB.Pre.lean ====
/-
  The precondition decoded for the kernel's side: `input_domain` all ones says, entry by entry, that every segment
  vertex number and every band vertex number is at most 10474 and every band number at most 31, read unsigned (each is
  nonnegative read signed, so both readings agree). What it says of the vertices (finite) is not needed here.
-/
import proofs.«203378_g9921374454198_cont_sun_m_1167_43_alg».proof.Proof.KB.Setup
import proofs.«203378_g9921374454198_cont_sun_m_1167_43_alg».proof.Proof.Gen.Pre_input_domain
import Idealize.ShloMosaic.Lib.ReduceAll
import Idealize.ShloMosaic.Lib.ValueIdx

noncomputable section

namespace Cert.Proof.KB

open Cert.Kernel Cert.Kernel.Gen
open Idealize.ShloMosaic Idealize.ShloMosaic.ValueIdx Idealize.SL.Sem

/-- Every vertex number at most 10474 and every band number at most 31, read unsigned. -/
structure Ranges (seg : S8192.Idx → BitVec 32) (bv bid : S4096.Idx → BitVec 32) : Prop where
  seg_le : ∀ i, (seg i).toNat ≤ 10474
  bv_le : ∀ i, (bv i).toNat ≤ 10474
  bid_le : ∀ i, (bid i).toNat ≤ 31

instance : Subsingleton Cert.Pre_input_domain.S_.Idx := ⟨fun a b => funext fun d => d.elim0⟩

/-- A word passing `0 ≤ x` and `x ≤ hi` signed, for a literal `hi` below 2³¹, is at most `hi` unsigned. -/
theorem toNat_le_of_between (x lo hi : BitVec 32) (n : Nat) (hl : lo.toInt = 0) (hh : hi.toInt = (n : Int))
    (hx : IntOp.andi (IntOp.cmpi .sge x lo) (IntOp.cmpi .sle x hi) = 1#1) : x.toNat ≤ n := by
  obtain ⟨ha, hb⟩ := IntOp.andi_eq_one.mp hx
  have ha' := IntOp.cmpi_sge.mp ha
  have hb' := IntOp.cmpi_sle.mp hb
  have h32 := x.isLt
  rw [hl] at ha'
  rw [hh] at hb'
  unfold BitVec.toInt at ha' hb'
  split at ha' <;> omega

/-- The predicate all ones gives the ranges, at any float instance (the integer comparisons do not depend on it). -/
theorem ranges_of_fn {F : FTy → Type} [FloatOps F] (x : FVec F S1024x10475x3 .f32) (seg : IVec S8192 32)
    (bv bid : IVec S4096 32) (h : Cert.Pre_input_domain.fn (F := F) x seg bv bid = fun _ => 1#1) : Ranges seg bv bid := by
  have e := congrFun h ix0
  unfold Cert.Pre_input_domain.fn Cert.Pre_input_domain.fn_part1 at e
  simp only [andi] at e
  simp only [IntOp.andi_eq_one] at e
  obtain ⟨⟨⟨-, h9⟩, h16⟩, h23⟩ := e
  refine ⟨fun i => ?_, fun i => ?_, fun i => ?_⟩
  · exact toNat_le_of_between (seg i) 0#32 10474#32 10474 (by decide) (by decide)
      (Host.reduce_andi_all _ _ _ _ ix0 h9 i)
  · exact toNat_le_of_between (bv i) 0#32 10474#32 10474 (by decide) (by decide)
      (Host.reduce_andi_all _ _ _ _ ix0 h16 i)
  · exact toNat_le_of_between (bid i) 0#32 31#32 31 (by decide) (by decide)
      (Host.reduce_andi_all _ _ _ _ ix0 h23 i)

/-- The kernel's precondition, entry by entry, on every device. -/
theorem ranges_of_pre (m : (ℓ : Loc nD τ sig) → Buf (Elt Bits) ℓ) (h : Cert.Pre_Kernel m) :
    ∀ d : Dev nD, Ranges (m (a1Loc d)) (m (a2Loc d)) (m (a3Loc d)) :=
  fun d => ranges_of_fn (F := Bits) (m (a0Loc d)) (m (a1Loc d)) (m (a2Loc d)) (m (a3Loc d)) (h d)

end Cert.Proof.KB

end
-- ==== Proof.KI.Inv.lean ====
import proofs.«203378_g9921374454198_cont_sun_m_1167_43_alg».proof.Proof.KI.Setup
import proofs.«203378_g9921374454198_cont_sun_m_1167_43_alg».proof.Proof.KModel

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "V0W" => (Memref.whole Cert.KernelIdeal.main_v0_scv : Memref Cert.KernelIdeal.sig Kind.scVector Space.hbm Cert.KernelIdeal.S1024x31425 EltTy.f32)
local notation "A1W" => (Memref.whole Cert.KernelIdeal.main_arg1_scv : Memref Cert.KernelIdeal.sig Kind.scVector Space.hbm Cert.KernelIdeal.S8192 EltTy.i32)
local notation "A2W" => (Memref.whole Cert.KernelIdeal.main_arg2_scv : Memref Cert.KernelIdeal.sig Kind.scVector Space.hbm Cert.KernelIdeal.S4096 EltTy.i32)
local notation "A3W" => (Memref.whole Cert.KernelIdeal.main_arg3_scv : Memref Cert.KernelIdeal.sig Kind.scVector Space.hbm Cert.KernelIdeal.S4096 EltTy.i32)
local notation "V1W" => (Memref.whole Cert.KernelIdeal.main_v1_scv : Memref Cert.KernelIdeal.sig Kind.scVector Space.hbm Cert.KernelIdeal.S1024x24672 EltTy.f32)
local notation "S0W" => (Memref.whole Cert.KernelIdeal.cc0_scratch0 : Memref Cert.KernelIdeal.sig Kind.scVector Space.vmem Cert.KernelIdeal.S31425 EltTy.f32)
local notation "S1W" => (Memref.whole Cert.KernelIdeal.cc0_scratch1 : Memref Cert.KernelIdeal.sig Kind.scVector Space.vmem Cert.KernelIdeal.S24672 EltTy.f32)
local notation "S2W" => (Memref.whole Cert.KernelIdeal.cc0_scratch2 : Memref Cert.KernelIdeal.sig Kind.scVector Space.vmem Cert.KernelIdeal.S8192 EltTy.i32)
local notation "S3W" => (Memref.whole Cert.KernelIdeal.cc0_scratch3 : Memref Cert.KernelIdeal.sig Kind.scVector Space.vmem Cert.KernelIdeal.S4096 EltTy.i32)
local notation "S4W" => (Memref.whole Cert.KernelIdeal.cc0_scratch4 : Memref Cert.KernelIdeal.sig Kind.scVector Space.vmem Cert.KernelIdeal.S4096 EltTy.i32)
local notation "S5W" => (Memref.whole Cert.KernelIdeal.cc0_scratch5 : Memref Cert.KernelIdeal.sig Kind.scVector Space.vmem Cert.KernelIdeal.S96 EltTy.f32)
local notation "S6W" => (Memref.whole Cert.KernelIdeal.cc0_scratch6 : Memref Cert.KernelIdeal.sig Kind.scVector Space.vmem Cert.KernelIdeal.S1536 EltTy.f32)

open Idealize.ShloMosaic.ValueIdx

variable (d : Dev nD) (L : grid0.Coords)

/-- The vector subcore at grid point `L` of device `d`. -/
abbrev thr : Thread nD τ := V d (cV L) (jV L)

/-! ## What the scratch buffers hold, as facts about their contents

The running-sum scratch (1536 words: 16 lanes × 96 slots) and the row being assembled (24672 words) are described
entry by entry against the kernel's value model (`KModel`). -/

/-- Words below `n` of the running-sum scratch are zero. -/
def ZeroTo (f : Vec F S1536 .f32) (n : Nat) : Prop :=
  ∀ p (hp : p < 1536), p < n → f (ValueIdx.ix1 ⟨p, hp⟩) = KModel.zeroF

/-- After `k` steps of counting: lane `r`, slot `q` holds the model's count. -/
def CntAt (bid : Vec F S4096 .i32) (f : Vec F S1536 .f32) (k : Nat) : Prop :=
  ∀ r q (hr : r < 16) (hq : q < 96), f (ValueIdx.ix1 ⟨r * 96 + q, by omega⟩) = KModel.cntAcc bid k r q

/-- After `k` steps of the band sums for batch `b`. -/
def BandAt (X : Vec F S1024x31425 .f32) (bv bid : Vec F S4096 .i32) (b : Nat) (f : Vec F S1536 .f32) (k : Nat) : Prop :=
  ∀ r q (hr : r < 16) (hq : q < 96), f (ValueIdx.ix1 ⟨r * 96 + q, by omega⟩) = KModel.bandAcc X bv bid b k r q

/-- After `k` steps of the gather: the first `48·k` words of the row hold the gathered coordinates. -/
def SegAt (X : Vec F S1024x31425 .f32) (seg : Vec F S8192 .i32) (b : Nat) (f : Vec F S24672 .f32) (k : Nat) : Prop :=
  ∀ p (hp : p < 24672), p < 48 * k → f (ValueIdx.ix1 ⟨p, hp⟩) = KModel.xAt X b (KModel.wordAt seg (p / 3) * 3 + p % 3)

/-- The staged vertex row is row `b` of the flattened vertices. -/
def SlabIs (X : Vec F S1024x31425 .f32) (b : Nat) (slab : Vec F S31425 .f32) : Prop :=
  ∀ p (hp : p < 31425), slab (ValueIdx.ix1 ⟨p, hp⟩) = KModel.xAt X b p

/-! ## The loops' invariants -/

/-- The zeroing loop: after `k` trips the first `16·k` words are zero. -/
def invZ (k : Nat) (_ : BitVec 32) : sProp 𝕄 :=
  iprop(∃ f : Vec F S1536 .f32, ⌜ZeroTo f (16 * k)⌝ ∗ (S6W).view.loc (thr d L) ↦{fullShare} f)

/-- The counting loop. -/
def invCnt (bid : Vec F S4096 .i32) (k : Nat) (_ : BitVec 32) : sProp 𝕄 :=
  iprop((∃ f : Vec F S1536 .f32, ⌜CntAt bid f k⌝ ∗ (S6W).view.loc (thr d L) ↦{fullShare} f)
    ∗ ((S4W).view.loc (thr d L) ↦{fullShare} bid))

/-- The gather loop of batch `b`. -/
def invSeg (X : Vec F S1024x31425 .f32) (b : Nat) (slab : Vec F S31425 .f32) (seg : Vec F S8192 .i32) (k : Nat) (_ : BitVec 32) : sProp 𝕄 :=
  iprop((∃ f : Vec F S24672 .f32, ⌜SegAt X seg b f k⌝ ∗ (S1W).view.loc (thr d L) ↦{fullShare} f)
    ∗ ((S0W).view.loc (thr d L) ↦{fullShare} slab) ∗ ((S2W).view.loc (thr d L) ↦{fullShare} seg))

/-- The band-sum loop of batch `b`. -/
def invBand (X : Vec F S1024x31425 .f32) (b : Nat) (slab : Vec F S31425 .f32) (bv bid : Vec F S4096 .i32) (k : Nat) (_ : BitVec 32) : sProp 𝕄 :=
  iprop((∃ f : Vec F S1536 .f32, ⌜BandAt X bv bid b f k⌝ ∗ (S6W).view.loc (thr d L) ↦{fullShare} f)
    ∗ ((S0W).view.loc (thr d L) ↦{fullShare} slab) ∗ ((S3W).view.loc (thr d L) ↦{fullShare} bv)
    ∗ ((S4W).view.loc (thr d L) ↦{fullShare} bid))

/-! ## The held scratch, respelt for the indexed load and store rules -/

omit [FloatOps F] in
theorem pts_acc0 (f : Buf (Elt F) ((S0W).view.loc (thr d L))) :
    ((((S0W).access (Rect.whole _)).loc (thr d L) ↦[((S0W).access (Rect.whole _)).set]{fullShare} f : sProp 𝕄))
      = ((S0W).view.loc (thr d L) ↦{fullShare} f) := by
  rw [Memref.set_access_whole]
omit [FloatOps F] in
theorem pts_accq0 (q : PosShare TreeShare) (f : Buf (Elt F) ((S0W).view.loc (thr d L))) :
    ((((S0W).access (Rect.whole _)).loc (thr d L) ↦{q} f : sProp 𝕄))
      = ((S0W).view.loc (thr d L) ↦{q} f) := rfl

omit [FloatOps F] in
theorem pts_acc1 (f : Buf (Elt F) ((S1W).view.loc (thr d L))) :
    ((((S1W).access (Rect.whole _)).loc (thr d L) ↦[((S1W).access (Rect.whole _)).set]{fullShare} f : sProp 𝕄))
      = ((S1W).view.loc (thr d L) ↦{fullShare} f) := by
  rw [Memref.set_access_whole]
omit [FloatOps F] in
theorem pts_accq1 (q : PosShare TreeShare) (f : Buf (Elt F) ((S1W).view.loc (thr d L))) :
    ((((S1W).access (Rect.whole _)).loc (thr d L) ↦{q} f : sProp 𝕄))
      = ((S1W).view.loc (thr d L) ↦{q} f) := rfl

omit [FloatOps F] in
theorem pts_acc6 (f : Buf (Elt F) ((S6W).view.loc (thr d L))) :
    ((((S6W).access (Rect.whole _)).loc (thr d L) ↦[((S6W).access (Rect.whole _)).set]{fullShare} f : sProp 𝕄))
      = ((S6W).view.loc (thr d L) ↦{fullShare} f) := by
  rw [Memref.set_access_whole]
omit [FloatOps F] in
theorem pts_accq6 (q : PosShare TreeShare) (f : Buf (Elt F) ((S6W).view.loc (thr d L))) :
    ((((S6W).access (Rect.whole _)).loc (thr d L) ↦{q} f : sProp 𝕄))
      = ((S6W).view.loc (thr d L) ↦{q} f) := rfl

end Cert.Proof.KI

end
-- ==== Proof.KI.InvB.lean ====
import proofs.«203378_g9921374454198_cont_sun_m_1167_43_alg».proof.Proof.KI.Setup
import proofs.«203378_g9921374454198_cont_sun_m_1167_43_alg».proof.Proof.KI.Core
import proofs.«203378_g9921374454198_cont_sun_m_1167_43_alg».proof.Proof.KI.Inv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "V0W" => (Memref.whole Cert.KernelIdeal.main_v0_scv : Memref Cert.KernelIdeal.sig Kind.scVector Space.hbm Cert.KernelIdeal.S1024x31425 EltTy.f32)
local notation "A1W" => (Memref.whole Cert.KernelIdeal.main_arg1_scv : Memref Cert.KernelIdeal.sig Kind.scVector Space.hbm Cert.KernelIdeal.S8192 EltTy.i32)
local notation "A2W" => (Memref.whole Cert.KernelIdeal.main_arg2_scv : Memref Cert.KernelIdeal.sig Kind.scVector Space.hbm Cert.KernelIdeal.S4096 EltTy.i32)
local notation "A3W" => (Memref.whole Cert.KernelIdeal.main_arg3_scv : Memref Cert.KernelIdeal.sig Kind.scVector Space.hbm Cert.KernelIdeal.S4096 EltTy.i32)
local notation "V1W" => (Memref.whole Cert.KernelIdeal.main_v1_scv : Memref Cert.KernelIdeal.sig Kind.scVector Space.hbm Cert.KernelIdeal.S1024x24672 EltTy.f32)
local notation "S0W" => (Memref.whole Cert.KernelIdeal.cc0_scratch0 : Memref Cert.KernelIdeal.sig Kind.scVector Space.vmem Cert.KernelIdeal.S31425 EltTy.f32)
local notation "S1W" => (Memref.whole Cert.KernelIdeal.cc0_scratch1 : Memref Cert.KernelIdeal.sig Kind.scVector Space.vmem Cert.KernelIdeal.S24672 EltTy.f32)
local notation "S2W" => (Memref.whole Cert.KernelIdeal.cc0_scratch2 : Memref Cert.KernelIdeal.sig Kind.scVector Space.vmem Cert.KernelIdeal.S8192 EltTy.i32)
local notation "S3W" => (Memref.whole Cert.KernelIdeal.cc0_scratch3 : Memref Cert.KernelIdeal.sig Kind.scVector Space.vmem Cert.KernelIdeal.S4096 EltTy.i32)
local notation "S4W" => (Memref.whole Cert.KernelIdeal.cc0_scratch4 : Memref Cert.KernelIdeal.sig Kind.scVector Space.vmem Cert.KernelIdeal.S4096 EltTy.i32)
local notation "S5W" => (Memref.whole Cert.KernelIdeal.cc0_scratch5 : Memref Cert.KernelIdeal.sig Kind.scVector Space.vmem Cert.KernelIdeal.S96 EltTy.f32)
local notation "S6W" => (Memref.whole Cert.KernelIdeal.cc0_scratch6 : Memref Cert.KernelIdeal.sig Kind.scVector Space.vmem Cert.KernelIdeal.S1536 EltTy.f32)

open Idealize.ShloMosaic.ValueIdx

variable (m : (ℓ : Loc nD τ sig) → Buf (Elt F) ℓ) (KO : (d : Dev nD) → Buf (Elt F) (v1Loc d)) (d : Dev nD) (L : grid0.Coords)

/-! ## The batch loop's invariant

A task serves 32 batches, one per trip. Before trip `k` the rows of the batches already served hold the expected
contents, the others still hold what they held at the launch; the three index tables sit in their scratch buffers, the
reciprocal counts in theirs; the staging row, the row being assembled and the running sums hold anything. -/

/-- A served row: it holds the expected contents. -/
abbrev rowDone (bi : Fin 32) : sProp 𝕄 :=
  iprop(∃ f, ⌜∀ j ∈ rowSetO (tileRow (cL L) (iL L) bi), f j = KO d j⌝
    ∗ (V1W).view.loc (thr d L) ↦[rowSetO (tileRow (cL L) (iL L) bi)]{fullShare} f)
/-- A row not yet served: at its launch contents. -/
abbrev rowTodo (bi : Fin 32) : sProp 𝕄 :=
  iprop((V1W).view.loc (thr d L) ↦[rowSetO (tileRow (cL L) (iL L) bi)]{fullShare} m (v1Loc d))

def invB (O : CellTallies nD τ sig (HIx 1)) (W : Waits sig (HIx 1)) (sh : PosShare TreeShare)
    (Xd : Vec F S1024x31425 .f32) (seg : Vec F S8192 .i32) (bv bid : Vec F S4096 .i32) (c5 : Vec F S96 .f32)
    (k : Nat) (_ : BitVec 32) : sProp 𝕄 :=
  iprop(Transfers.MayWaits (thr d L) (none : HIx 1) O
    ∗ ((V0W).view.loc (thr d L) ↦{sh} Xd)
    ∗ (bigSep (Finset.univ.filter fun bi : Fin 32 => bi.val < k) (rowDone KO d L))
    ∗ (bigSep (Finset.univ.filter fun bi : Fin 32 => k ≤ bi.val) (rowTodo m d L))
    ∗ (∃ f, (S0W).view.loc (thr d L) ↦{fullShare} f) ∗ (∃ f, (S1W).view.loc (thr d L) ↦{fullShare} f)
    ∗ ((S2W).view.loc (thr d L) ↦{fullShare} seg) ∗ ((S3W).view.loc (thr d L) ↦{fullShare} bv)
    ∗ ((S4W).view.loc (thr d L) ↦{fullShare} bid) ∗ ((S5W).view.loc (thr d L) ↦{fullShare} c5)
    ∗ (∃ f, (S6W).view.loc (thr d L) ↦{fullShare} f)
    ∗ semVal (thr d L, SemLoc.dma cc0_scoped3.sem) 0 ∗ semVal (thr d L, SemLoc.dma cc0_scoped4.sem) 0
    ∗ ∃ W', ⌜∀ p ∈ W', p ∈ W ∨ p.2 = none⌝ ∗ owes (thr d L) O W')

/-! ## Rows served and rows to serve, one step -/

theorem filter_le_step (k : Fin 32) :
    (Finset.univ.filter fun bi : Fin 32 => k.val ≤ bi.val) = insert k (Finset.univ.filter fun bi : Fin 32 => k.val + 1 ≤ bi.val) := by
  ext bi; simp only [Finset.mem_filter, Finset.mem_univ, true_and, Finset.mem_insert]
  constructor
  · intro h; rcases Nat.eq_or_lt_of_le h with h | h
    · exact .inl (Fin.ext h.symm)
    · exact .inr h
  · rintro (h | h)
    · subst h; exact le_rfl
    · omega
theorem not_mem_filter_le_succ (k : Fin 32) : k ∉ (Finset.univ.filter fun bi : Fin 32 => k.val + 1 ≤ bi.val) := by
  simp
theorem filter_lt_step (k : Fin 32) :
    (Finset.univ.filter fun bi : Fin 32 => bi.val < k.val + 1) = insert k (Finset.univ.filter fun bi : Fin 32 => bi.val < k.val) := by
  ext bi; simp only [Finset.mem_filter, Finset.mem_univ, true_and, Finset.mem_insert]
  constructor
  · intro h; rcases Nat.eq_or_lt_of_le (Nat.lt_succ_iff.mp h) with h | h
    · exact .inl (Fin.ext h)
    · exact .inr h
  · rintro (h | h)
    · subst h; omega
    · omega
theorem not_mem_filter_lt (k : Fin 32) : k ∉ (Finset.univ.filter fun bi : Fin 32 => bi.val < k.val) := by
  simp
theorem filter_lt_zero : (Finset.univ.filter fun bi : Fin 32 => bi.val < 0) = ∅ := by
  ext bi; simp
theorem filter_le_zero : (Finset.univ.filter fun bi : Fin 32 => 0 ≤ bi.val) = Finset.univ := by
  ext bi; simp
theorem filter_lt_all : (Finset.univ.filter fun bi : Fin 32 => bi.val < 32) = Finset.univ := by
  ext bi; simp
theorem filter_le_all : (Finset.univ.filter fun bi : Fin 32 => 32 ≤ bi.val) = ∅ := by
  ext bi; simp

theorem filter_le_step' (k : Nat) (hk : k < 32) :
    (Finset.univ.filter fun bi : Fin 32 => k ≤ bi.val) = insert (⟨k, hk⟩ : Fin 32) (Finset.univ.filter fun bi : Fin 32 => k + 1 ≤ bi.val) :=
  filter_le_step ⟨k, hk⟩
theorem filter_lt_step' (k : Nat) (hk : k < 32) :
    (Finset.univ.filter fun bi : Fin 32 => bi.val < k + 1) = insert (⟨k, hk⟩ : Fin 32) (Finset.univ.filter fun bi : Fin 32 => bi.val < k) :=
  filter_lt_step ⟨k, hk⟩

omit [FloatOps F] in
/-- The rows still to serve, with the next one taken out. -/
theorem todo_take (Φ : Fin 32 → sProp 𝕄) (k : Nat) (hk : k < 32) :
    bigSep (Finset.univ.filter fun bi : Fin 32 => k ≤ bi.val) Φ
      = iprop(Φ ⟨k, hk⟩ ∗ bigSep (Finset.univ.filter fun bi : Fin 32 => k + 1 ≤ bi.val) Φ) := by
  rw [filter_le_step' k hk, SparseCore.bigSep_insert' (not_mem_filter_le_succ ⟨k, hk⟩)]
omit [FloatOps F] in
/-- The rows served, with one more put in. -/
theorem done_put (Φ : Fin 32 → sProp 𝕄) (k : Nat) (hk : k < 32) :
    bigSep (Finset.univ.filter fun bi : Fin 32 => bi.val < k + 1) Φ
      = iprop(Φ ⟨k, hk⟩ ∗ bigSep (Finset.univ.filter fun bi : Fin 32 => bi.val < k) Φ) := by
  rw [filter_lt_step' k hk, SparseCore.bigSep_insert' (not_mem_filter_lt ⟨k, hk⟩)]

omit [FloatOps F] in
/-- A points-to's contents, given a name. -/
theorem pts_name {ℓ : Loc nD τ sig} {S : Finset (Idx ℓ)} {q : PosShare TreeShare} (c : Buf (Elt F) ℓ) :
    (ℓ ↦[S]{q} c : sProp 𝕄) ⊢ iprop(∃ s, ⌜s = c⌝ ∗ ℓ ↦[S]{q} s) := by
  iintro H; iexists c; isplitr
  · ipureintro; rfl
  · iexact H

end Cert.Proof.KI

end
-- ==== Proof.KI.Views.lean ====
/-
  What a 1-D scratch buffer holds, read at a word: a 16-lane load reads the words at its offset plus the lane; after
  16-lane stores a word holds the payload lane of the LAST store that covers it, else what was there before.
  Stated for any whole 1-D buffer and then spelt for the kernel's scratch buffers.
-/
import proofs.«203378_g9921374454198_cont_sun_m_1167_43_alg».proof.Proof.KI.Setup
import Idealize.ShloMosaic.Lib.WritesUnit
import Idealize.ShloMosaic.Lib.ValueIdx

noncomputable section

namespace Cert.Proof.KI.Views

open Cert.KernelIdeal Cert.KernelIdeal.Gen
open Idealize.ShloMosaic Idealize.ShloMosaic.ValueIdx

/-! ## Any 1-D buffer -/

section Generic

variable {sig : RefSig} {κ : Kind} {sp : Space} {n : Nat} {e : EltTy} {Val : EltTy → Type}

/-- A lane of a 16-lane window inside `n` words is a word below `n`. -/
theorem lane_lt (off : Fin 1 → Nat) (h : ∀ a, off a + (![16] : Fin 1 → Nat) a ≤ (⟨1, ![n]⟩ : Shape).size a)
    (x : (⟨1, ![16]⟩ : Shape).Idx) : off 0 + (x 0).val < n := by
  have h0 : off 0 + 16 ≤ n := h 0
  have hx : (x 0).val < 16 := (x 0).isLt
  omega

/-- A 16-lane load at offset `off`: lane `x` reads word `off + x`. -/
theorem readAt16 (v : View sig κ sp (⟨1, ![n]⟩ : Shape) e) (off : Fin 1 → Nat)
    (h : ∀ a, off a + (![16] : Fin 1 → Nat) a ≤ (⟨1, ![n]⟩ : Shape).size a) (c : v.ty.Contents Val)
    (x : (⟨1, ![16]⟩ : Shape).Idx) :
    v.readAt Val (Rect.unit (s := (⟨1, ![n]⟩ : Shape)) off ![16] h).toLoadRect c x
      = v.read Val c (ix1 ⟨off 0 + (x 0).val, lane_lt off h x⟩) := by
  rw [View.readAt_apply]
  refine congrArg (v.read Val c) (funext fun a => Fin.ext ?_)
  match a with
  | ⟨0, _⟩ =>
    show off 0 + 1 * (x 0).val = off 0 + (x 0).val
    rw [Nat.one_mul]

/-- One 16-lane store on top of a list of stores, read at word `p`: the store's lane `p − off` if it covers `p`, else
    what the rest of the list left. -/
theorem writes16_cons (v : View sig κ sp (⟨1, ![n]⟩ : Shape) e) (f : v.ty.Contents Val) (off : Fin 1 → Nat)
    (h : ∀ a, off a + (![16] : Fin 1 → Nat) a ≤ (⟨1, ![n]⟩ : Shape).size a) (w : (⟨1, ![16]⟩ : Shape).Idx → Val e)
    (L : List (View.Piece Val (⟨1, ![n]⟩ : Shape) e)) (p : Nat) (hp : p < n) :
    v.read Val (v.writes Val f ((⟨Rect.unit (s := (⟨1, ![n]⟩ : Shape)) off ![16] h, w⟩ : View.Piece Val _ e) :: L)) (ix1 ⟨p, hp⟩)
      = if hm : off 0 ≤ p ∧ p < off 0 + 16 then w (ix1 ⟨p - off 0, by omega⟩)
        else v.read Val (v.writes Val f L) (ix1 ⟨p, hp⟩) := by
  by_cases hm : off 0 ≤ p ∧ p < off 0 + 16
  · rw [dif_pos hm]
    exact View.read_writes_cons_unit_of_mem v f h w L (ix1 ⟨p, hp⟩) (ix1 ⟨p - off 0, by omega⟩) rfl
      (fun a => match a with
        | ⟨0, _⟩ => by
          show p = off 0 + (p - off 0)
          omega)
  · rw [dif_neg hm]
    exact View.read_writes_cons_unit_of_not_mem v f h w L (ix1 ⟨p, hp⟩) rfl (0 : Fin 1) (by
      show p < off 0 ∨ off 0 + 16 ≤ p
      omega)

/-- Word `p` of a window `[off, off + size)` as the window's own lane `p − off`. -/
abbrev laneIdx (r : Rect (⟨1, ![n]⟩ : Shape)) (p : Nat) (h : r.off 0 ≤ p ∧ p < r.off 0 + r.size 0) : r.shape.Idx :=
  fun a => match a with | ⟨0, _⟩ => ⟨p - r.off 0, Nat.sub_lt_left_of_lt_add h.1 h.2⟩

/-- In a 16-lane window at offset `off` that lane is `p − off`. -/
theorem laneIdx_unit (off : Fin 1 → Nat) (h : ∀ a, off a + (![16] : Fin 1 → Nat) a ≤ (⟨1, ![n]⟩ : Shape).size a) (p : Nat)
    (hm : off 0 ≤ p ∧ p < off 0 + 16) :
    laneIdx (Rect.unit (s := (⟨1, ![n]⟩ : Shape)) off ![16] h) p hm = ix1 ⟨p - off 0, by omega⟩ :=
  funext fun a => match a with | ⟨0, _⟩ => rfl

/-- What a list of unit-stride stores leaves at word `p` over contents `f`, by recursion on the list: the first piece
    (the LAST store) whose window `[off, off + size)` holds `p` gives its lane `p − off`; no piece: `f`. -/
def readList (f : (⟨1, ![n]⟩ : Shape).Idx → Val e) :
    List (View.Piece Val (⟨1, ![n]⟩ : Shape) e) → (p : Nat) → p < n → Val e
  | [], p, hp => f (ix1 ⟨p, hp⟩)
  | q :: L, p, hp =>
    if h : q.1.off 0 ≤ p ∧ p < q.1.off 0 + q.1.size 0 then
      q.2 (laneIdx q.1 p h)
    else readList f L p hp

@[simp] theorem readList_nil (f : (⟨1, ![n]⟩ : Shape).Idx → Val e) (p : Nat) (hp : p < n) :
    readList f [] p hp = f (ix1 ⟨p, hp⟩) := rfl

@[simp] theorem readList_cons (f : (⟨1, ![n]⟩ : Shape).Idx → Val e) (q : View.Piece Val (⟨1, ![n]⟩ : Shape) e)
    (L : List (View.Piece Val (⟨1, ![n]⟩ : Shape) e)) (p : Nat) (hp : p < n) :
    readList f (q :: L) p hp
      = if h : q.1.off 0 ≤ p ∧ p < q.1.off 0 + q.1.size 0 then
          q.2 (laneIdx q.1 p h)
        else readList f L p hp := rfl

/-- A list of unit-stride stores read at word `p`: first matching piece wins. -/
theorem writes16_list (v : View sig κ sp (⟨1, ![n]⟩ : Shape) e) (f : v.ty.Contents Val)
    (L : List (View.Piece Val (⟨1, ![n]⟩ : Shape) e)) (hL : ∀ q ∈ L, q.1.stride 0 = 1) (p : Nat) (hp : p < n) :
    v.read Val (v.writes Val f L) (ix1 ⟨p, hp⟩) = readList (v.read Val f) L p hp := by
  induction L with
  | nil => rfl
  | cons q L ih =>
    obtain ⟨r, w⟩ := q
    have hs : r.stride 0 = 1 := hL ⟨r, w⟩ List.mem_cons_self
    have ih' := ih fun q hq => hL q (List.mem_cons_of_mem _ hq)
    rw [readList_cons]
    by_cases hm : r.off 0 ≤ p ∧ p < r.off 0 + r.size 0
    · rw [dif_pos hm]
      have hy : r.emb (laneIdx r p hm) = ix1 ⟨p, hp⟩ :=
        funext fun a => Fin.ext (by
          match a with
          | ⟨0, _⟩ =>
            show r.off 0 + r.stride 0 * (p - r.off 0) = p
            rw [hs, Nat.one_mul]
            omega)
      rw [← hy]
      exact View.read_writes_cons_emb v f r w L _
    · rw [dif_neg hm, ← ih', View.writes_cons]
      refine View.read_slice_write_of_not_mem r _ w _ ?_
      rw [Rect.map_emb_univ, LoadRect.mem_set]
      intro hall
      obtain ⟨j, hj, he⟩ := hall (0 : Fin 1)
      have he' : p = r.off 0 + r.stride 0 * j := he
      rw [hs, Nat.one_mul] at he'
      exact hm ⟨by omega, by omega⟩

end Generic

/-! ## The kernel's scratch buffers -/

variable {F : FTy → Type}

/-! ### (a) 16-lane loads -/

theorem readAt16_s1 (off : Fin 1 → Nat) (h : ∀ a, off a + S16.size a ≤ S24672.size a) (c : S24672.Idx → Elt F .f32) (x : S16.Idx) :
    (Memref.whole Cert.KernelIdeal.cc0_scratch1 : Memref Cert.KernelIdeal.sig Kind.scVector Space.vmem Cert.KernelIdeal.S24672 EltTy.f32).view.readAt (Elt F)
        (Rect.unit (s := S24672) off S16.size h).toLoadRect c x
      = c (ix1 ⟨off 0 + (x 0).val, lane_lt off h x⟩) :=
  readAt16 (Val := Elt F) (Memref.whole Cert.KernelIdeal.cc0_scratch1 : Memref Cert.KernelIdeal.sig Kind.scVector Space.vmem Cert.KernelIdeal.S24672 EltTy.f32).view off h c x

theorem readAt16_s2 (off : Fin 1 → Nat) (h : ∀ a, off a + S16.size a ≤ S8192.size a) (c : S8192.Idx → Elt F .i32) (x : S16.Idx) :
    (Memref.whole Cert.KernelIdeal.cc0_scratch2 : Memref Cert.KernelIdeal.sig Kind.scVector Space.vmem Cert.KernelIdeal.S8192 EltTy.i32).view.readAt (Elt F)
        (Rect.unit (s := S8192) off S16.size h).toLoadRect c x
      = c (ix1 ⟨off 0 + (x 0).val, lane_lt off h x⟩) :=
  readAt16 (Val := Elt F) (Memref.whole Cert.KernelIdeal.cc0_scratch2 : Memref Cert.KernelIdeal.sig Kind.scVector Space.vmem Cert.KernelIdeal.S8192 EltTy.i32).view off h c x

theorem readAt16_s3 (off : Fin 1 → Nat) (h : ∀ a, off a + S16.size a ≤ S4096.size a) (c : S4096.Idx → Elt F .i32) (x : S16.Idx) :
    (Memref.whole Cert.KernelIdeal.cc0_scratch3 : Memref Cert.KernelIdeal.sig Kind.scVector Space.vmem Cert.KernelIdeal.S4096 EltTy.i32).view.readAt (Elt F)
        (Rect.unit (s := S4096) off S16.size h).toLoadRect c x
      = c (ix1 ⟨off 0 + (x 0).val, lane_lt off h x⟩) :=
  readAt16 (Val := Elt F) (Memref.whole Cert.KernelIdeal.cc0_scratch3 : Memref Cert.KernelIdeal.sig Kind.scVector Space.vmem Cert.KernelIdeal.S4096 EltTy.i32).view off h c x

theorem readAt16_s4 (off : Fin 1 → Nat) (h : ∀ a, off a + S16.size a ≤ S4096.size a) (c : S4096.Idx → Elt F .i32) (x : S16.Idx) :
    (Memref.whole Cert.KernelIdeal.cc0_scratch4 : Memref Cert.KernelIdeal.sig Kind.scVector Space.vmem Cert.KernelIdeal.S4096 EltTy.i32).view.readAt (Elt F)
        (Rect.unit (s := S4096) off S16.size h).toLoadRect c x
      = c (ix1 ⟨off 0 + (x 0).val, lane_lt off h x⟩) :=
  readAt16 (Val := Elt F) (Memref.whole Cert.KernelIdeal.cc0_scratch4 : Memref Cert.KernelIdeal.sig Kind.scVector Space.vmem Cert.KernelIdeal.S4096 EltTy.i32).view off h c x

theorem readAt16_s5 (off : Fin 1 → Nat) (h : ∀ a, off a + S16.size a ≤ S96.size a) (c : S96.Idx → Elt F .f32) (x : S16.Idx) :
    (Memref.whole Cert.KernelIdeal.cc0_scratch5 : Memref Cert.KernelIdeal.sig Kind.scVector Space.vmem Cert.KernelIdeal.S96 EltTy.f32).view.readAt (Elt F)
        (Rect.unit (s := S96) off S16.size h).toLoadRect c x
      = c (ix1 ⟨off 0 + (x 0).val, lane_lt off h x⟩) :=
  readAt16 (Val := Elt F) (Memref.whole Cert.KernelIdeal.cc0_scratch5 : Memref Cert.KernelIdeal.sig Kind.scVector Space.vmem Cert.KernelIdeal.S96 EltTy.f32).view off h c x

theorem readAt16_s6 (off : Fin 1 → Nat) (h : ∀ a, off a + S16.size a ≤ S1536.size a) (c : S1536.Idx → Elt F .f32) (x : S16.Idx) :
    (Memref.whole Cert.KernelIdeal.cc0_scratch6 : Memref Cert.KernelIdeal.sig Kind.scVector Space.vmem Cert.KernelIdeal.S1536 EltTy.f32).view.readAt (Elt F)
        (Rect.unit (s := S1536) off S16.size h).toLoadRect c x
      = c (ix1 ⟨off 0 + (x 0).val, lane_lt off h x⟩) :=
  readAt16 (Val := Elt F) (Memref.whole Cert.KernelIdeal.cc0_scratch6 : Memref Cert.KernelIdeal.sig Kind.scVector Space.vmem Cert.KernelIdeal.S1536 EltTy.f32).view off h c x

/-! ### (b), (c) 16-lane stores -/

/-- One store on top of the rest of the list `L`, read at word `p` (with `L = []`: one store over `f`). -/
theorem writes16_cons_s6 (f : S1536.Idx → Elt F .f32) (off : Fin 1 → Nat) (h : ∀ a, off a + S16.size a ≤ S1536.size a)
    (w : S16.Idx → Elt F .f32) (L : List (View.Piece (Elt F) S1536 .f32)) (p : Nat) (hp : p < 1536) :
    ((Memref.whole Cert.KernelIdeal.cc0_scratch6 : Memref Cert.KernelIdeal.sig Kind.scVector Space.vmem Cert.KernelIdeal.S1536 EltTy.f32).view.writes (Elt F) f
        (⟨Rect.unit (s := S1536) off S16.size h, w⟩ :: L)) (ix1 ⟨p, hp⟩)
      = if hm : off 0 ≤ p ∧ p < off 0 + 16 then w (ix1 ⟨p - off 0, by omega⟩)
        else ((Memref.whole Cert.KernelIdeal.cc0_scratch6 : Memref Cert.KernelIdeal.sig Kind.scVector Space.vmem Cert.KernelIdeal.S1536 EltTy.f32).view.writes (Elt F) f L) (ix1 ⟨p, hp⟩) :=
  writes16_cons (Val := Elt F) (Memref.whole Cert.KernelIdeal.cc0_scratch6 : Memref Cert.KernelIdeal.sig Kind.scVector Space.vmem Cert.KernelIdeal.S1536 EltTy.f32).view f off h w L p hp

theorem writes16_s6 (f : S1536.Idx → Elt F .f32) (off : Fin 1 → Nat) (h : ∀ a, off a + S16.size a ≤ S1536.size a)
    (w : S16.Idx → Elt F .f32) (p : Nat) (hp : p < 1536) :
    ((Memref.whole Cert.KernelIdeal.cc0_scratch6 : Memref Cert.KernelIdeal.sig Kind.scVector Space.vmem Cert.KernelIdeal.S1536 EltTy.f32).view.writes (Elt F) f
        [⟨Rect.unit (s := S1536) off S16.size h, w⟩]) (ix1 ⟨p, hp⟩)
      = if hm : off 0 ≤ p ∧ p < off 0 + 16 then w (ix1 ⟨p - off 0, by omega⟩) else f (ix1 ⟨p, hp⟩) :=
  writes16_cons (Val := Elt F) (Memref.whole Cert.KernelIdeal.cc0_scratch6 : Memref Cert.KernelIdeal.sig Kind.scVector Space.vmem Cert.KernelIdeal.S1536 EltTy.f32).view f off h w [] p hp

/-- A whole list of stores, read at word `p`: the first piece of the list (the LAST store) that holds `p` wins. -/
theorem writes16_list_s6 (f : S1536.Idx → Elt F .f32) (L : List (View.Piece (Elt F) S1536 .f32))
    (hL : ∀ q ∈ L, q.1.stride 0 = 1) (p : Nat) (hp : p < 1536) :
    ((Memref.whole Cert.KernelIdeal.cc0_scratch6 : Memref Cert.KernelIdeal.sig Kind.scVector Space.vmem Cert.KernelIdeal.S1536 EltTy.f32).view.writes (Elt F) f L) (ix1 ⟨p, hp⟩)
      = readList f L p hp :=
  writes16_list (Val := Elt F) (Memref.whole Cert.KernelIdeal.cc0_scratch6 : Memref Cert.KernelIdeal.sig Kind.scVector Space.vmem Cert.KernelIdeal.S1536 EltTy.f32).view f L hL p hp

/-- One store on top of the rest of the list `L`, read at word `p` (with `L = []`: one store over `f`). -/
theorem writes16_cons_s1 (f : S24672.Idx → Elt F .f32) (off : Fin 1 → Nat) (h : ∀ a, off a + S16.size a ≤ S24672.size a)
    (w : S16.Idx → Elt F .f32) (L : List (View.Piece (Elt F) S24672 .f32)) (p : Nat) (hp : p < 24672) :
    ((Memref.whole Cert.KernelIdeal.cc0_scratch1 : Memref Cert.KernelIdeal.sig Kind.scVector Space.vmem Cert.KernelIdeal.S24672 EltTy.f32).view.writes (Elt F) f
        (⟨Rect.unit (s := S24672) off S16.size h, w⟩ :: L)) (ix1 ⟨p, hp⟩)
      = if hm : off 0 ≤ p ∧ p < off 0 + 16 then w (ix1 ⟨p - off 0, by omega⟩)
        else ((Memref.whole Cert.KernelIdeal.cc0_scratch1 : Memref Cert.KernelIdeal.sig Kind.scVector Space.vmem Cert.KernelIdeal.S24672 EltTy.f32).view.writes (Elt F) f L) (ix1 ⟨p, hp⟩) :=
  writes16_cons (Val := Elt F) (Memref.whole Cert.KernelIdeal.cc0_scratch1 : Memref Cert.KernelIdeal.sig Kind.scVector Space.vmem Cert.KernelIdeal.S24672 EltTy.f32).view f off h w L p hp

theorem writes16_s1 (f : S24672.Idx → Elt F .f32) (off : Fin 1 → Nat) (h : ∀ a, off a + S16.size a ≤ S24672.size a)
    (w : S16.Idx → Elt F .f32) (p : Nat) (hp : p < 24672) :
    ((Memref.whole Cert.KernelIdeal.cc0_scratch1 : Memref Cert.KernelIdeal.sig Kind.scVector Space.vmem Cert.KernelIdeal.S24672 EltTy.f32).view.writes (Elt F) f
        [⟨Rect.unit (s := S24672) off S16.size h, w⟩]) (ix1 ⟨p, hp⟩)
      = if hm : off 0 ≤ p ∧ p < off 0 + 16 then w (ix1 ⟨p - off 0, by omega⟩) else f (ix1 ⟨p, hp⟩) :=
  writes16_cons (Val := Elt F) (Memref.whole Cert.KernelIdeal.cc0_scratch1 : Memref Cert.KernelIdeal.sig Kind.scVector Space.vmem Cert.KernelIdeal.S24672 EltTy.f32).view f off h w [] p hp

/-- A whole list of stores, read at word `p`: the first piece of the list (the LAST store) that holds `p` wins. -/
theorem writes16_list_s1 (f : S24672.Idx → Elt F .f32) (L : List (View.Piece (Elt F) S24672 .f32))
    (hL : ∀ q ∈ L, q.1.stride 0 = 1) (p : Nat) (hp : p < 24672) :
    ((Memref.whole Cert.KernelIdeal.cc0_scratch1 : Memref Cert.KernelIdeal.sig Kind.scVector Space.vmem Cert.KernelIdeal.S24672 EltTy.f32).view.writes (Elt F) f L) (ix1 ⟨p, hp⟩)
      = readList f L p hp :=
  writes16_list (Val := Elt F) (Memref.whole Cert.KernelIdeal.cc0_scratch1 : Memref Cert.KernelIdeal.sig Kind.scVector Space.vmem Cert.KernelIdeal.S24672 EltTy.f32).view f L hL p hp

/-- One store on top of the rest of the list `L`, read at word `p` (with `L = []`: one store over `f`). -/
theorem writes16_cons_s5 (f : S96.Idx → Elt F .f32) (off : Fin 1 → Nat) (h : ∀ a, off a + S16.size a ≤ S96.size a)
    (w : S16.Idx → Elt F .f32) (L : List (View.Piece (Elt F) S96 .f32)) (p : Nat) (hp : p < 96) :
    ((Memref.whole Cert.KernelIdeal.cc0_scratch5 : Memref Cert.KernelIdeal.sig Kind.scVector Space.vmem Cert.KernelIdeal.S96 EltTy.f32).view.writes (Elt F) f
        (⟨Rect.unit (s := S96) off S16.size h, w⟩ :: L)) (ix1 ⟨p, hp⟩)
      = if hm : off 0 ≤ p ∧ p < off 0 + 16 then w (ix1 ⟨p - off 0, by omega⟩)
        else ((Memref.whole Cert.KernelIdeal.cc0_scratch5 : Memref Cert.KernelIdeal.sig Kind.scVector Space.vmem Cert.KernelIdeal.S96 EltTy.f32).view.writes (Elt F) f L) (ix1 ⟨p, hp⟩) :=
  writes16_cons (Val := Elt F) (Memref.whole Cert.KernelIdeal.cc0_scratch5 : Memref Cert.KernelIdeal.sig Kind.scVector Space.vmem Cert.KernelIdeal.S96 EltTy.f32).view f off h w L p hp

theorem writes16_s5 (f : S96.Idx → Elt F .f32) (off : Fin 1 → Nat) (h : ∀ a, off a + S16.size a ≤ S96.size a)
    (w : S16.Idx → Elt F .f32) (p : Nat) (hp : p < 96) :
    ((Memref.whole Cert.KernelIdeal.cc0_scratch5 : Memref Cert.KernelIdeal.sig Kind.scVector Space.vmem Cert.KernelIdeal.S96 EltTy.f32).view.writes (Elt F) f
        [⟨Rect.unit (s := S96) off S16.size h, w⟩]) (ix1 ⟨p, hp⟩)
      = if hm : off 0 ≤ p ∧ p < off 0 + 16 then w (ix1 ⟨p - off 0, by omega⟩) else f (ix1 ⟨p, hp⟩) :=
  writes16_cons (Val := Elt F) (Memref.whole Cert.KernelIdeal.cc0_scratch5 : Memref Cert.KernelIdeal.sig Kind.scVector Space.vmem Cert.KernelIdeal.S96 EltTy.f32).view f off h w [] p hp

/-- A whole list of stores, read at word `p`: the first piece of the list (the LAST store) that holds `p` wins. -/
theorem writes16_list_s5 (f : S96.Idx → Elt F .f32) (L : List (View.Piece (Elt F) S96 .f32))
    (hL : ∀ q ∈ L, q.1.stride 0 = 1) (p : Nat) (hp : p < 96) :
    ((Memref.whole Cert.KernelIdeal.cc0_scratch5 : Memref Cert.KernelIdeal.sig Kind.scVector Space.vmem Cert.KernelIdeal.S96 EltTy.f32).view.writes (Elt F) f L) (ix1 ⟨p, hp⟩)
      = readList f L p hp :=
  writes16_list (Val := Elt F) (Memref.whole Cert.KernelIdeal.cc0_scratch5 : Memref Cert.KernelIdeal.sig Kind.scVector Space.vmem Cert.KernelIdeal.S96 EltTy.f32).view f L hL p hp

end Cert.Proof.KI.Views

end
-- ==== Proof.KI.LoopZero.lean ====
import proofs.«203378_g9921374454198_cont_sun_m_1167_43_alg».proof.Proof.KI.Setup
import proofs.«203378_g9921374454198_cont_sun_m_1167_43_alg».proof.Proof.KI.Inv
import proofs.«203378_g9921374454198_cont_sun_m_1167_43_alg».proof.Proof.KI.Views

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "V0W" => (Memref.whole Cert.KernelIdeal.main_v0_scv : Memref Cert.KernelIdeal.sig Kind.scVector Space.hbm Cert.KernelIdeal.S1024x31425 EltTy.f32)
local notation "A1W" => (Memref.whole Cert.KernelIdeal.main_arg1_scv : Memref Cert.KernelIdeal.sig Kind.scVector Space.hbm Cert.KernelIdeal.S8192 EltTy.i32)
local notation "A2W" => (Memref.whole Cert.KernelIdeal.main_arg2_scv : Memref Cert.KernelIdeal.sig Kind.scVector Space.hbm Cert.KernelIdeal.S4096 EltTy.i32)
local notation "A3W" => (Memref.whole Cert.KernelIdeal.main_arg3_scv : Memref Cert.KernelIdeal.sig Kind.scVector Space.hbm Cert.KernelIdeal.S4096 EltTy.i32)
local notation "V1W" => (Memref.whole Cert.KernelIdeal.main_v1_scv : Memref Cert.KernelIdeal.sig Kind.scVector Space.hbm Cert.KernelIdeal.S1024x24672 EltTy.f32)
local notation "S0W" => (Memref.whole Cert.KernelIdeal.cc0_scratch0 : Memref Cert.KernelIdeal.sig Kind.scVector Space.vmem Cert.KernelIdeal.S31425 EltTy.f32)
local notation "S1W" => (Memref.whole Cert.KernelIdeal.cc0_scratch1 : Memref Cert.KernelIdeal.sig Kind.scVector Space.vmem Cert.KernelIdeal.S24672 EltTy.f32)
local notation "S2W" => (Memref.whole Cert.KernelIdeal.cc0_scratch2 : Memref Cert.KernelIdeal.sig Kind.scVector Space.vmem Cert.KernelIdeal.S8192 EltTy.i32)
local notation "S3W" => (Memref.whole Cert.KernelIdeal.cc0_scratch3 : Memref Cert.KernelIdeal.sig Kind.scVector Space.vmem Cert.KernelIdeal.S4096 EltTy.i32)
local notation "S4W" => (Memref.whole Cert.KernelIdeal.cc0_scratch4 : Memref Cert.KernelIdeal.sig Kind.scVector Space.vmem Cert.KernelIdeal.S4096 EltTy.i32)
local notation "S5W" => (Memref.whole Cert.KernelIdeal.cc0_scratch5 : Memref Cert.KernelIdeal.sig Kind.scVector Space.vmem Cert.KernelIdeal.S96 EltTy.f32)
local notation "S6W" => (Memref.whole Cert.KernelIdeal.cc0_scratch6 : Memref Cert.KernelIdeal.sig Kind.scVector Space.vmem Cert.KernelIdeal.S1536 EltTy.f32)

open Idealize.ShloMosaic.ValueIdx Cert.Proof.KI.Views

variable (d : Dev nD) (L : grid0.Coords)

/-! ## The zeroing loops: trip `k` stores sixteen zeros at words `16·k … 16·k + 15` of the running-sum scratch -/

omit [FloatOps F] in
theorem pay31_apply [FloatOps F] (x : S16.Idx) : (k0_pay31 (F := F)) x = KModel.zeroF := rfl

/-- Sixteen zeros written at `16·k` extend the zeroed prefix from `16·k` to `16·(k+1)`. -/
theorem zero_step (f : Vec F S1536 .f32) (k : Nat) (off : Fin 1 → Nat) (hoff : off = ![16 * k])
    (h : ∀ a, off a + S16.size a ≤ S1536.size a) (hf : ZeroTo f (16 * k)) :
    ZeroTo ((S6W).view.writes (Elt F) f [⟨Rect.unit (s := S1536) off S16.size h, k0_pay31 (F := F)⟩]) (16 * (k + 1)) := by
  subst hoff
  intro p hp hlt
  rw [writes16_s6]
  split
  · exact pay31_apply _
  · rename_i hm
    refine hf p hp ?_
    have : ¬ (16 * k ≤ p ∧ p < 16 * k + 16) := hm
    omega

/-- One trip of the first zeroing loop. -/
theorem trip_zero1 (k : Fin k0_t1_loop.trips) (acc : BitVec 32) :
    invZ (F := F) d L k.val acc ⊢ wp frame (wpE (defs₀ (F := F)) 𝒱₀ (thr d L) none) Set.univ
        (k0_t1_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 k acc)
        (invZ d L (k.val + 1)) := by
  conv => rhs; unfold k0_t1_body
  unfold invZ
  iintro ⟨%f, %hf, Hs6⟩
  sl_exec
  sl_step
  iexists _; isplitr
  rotate_left
  · iexact Hs6
  · ipureintro; exact zero_step f k.val _ (k0_off1_eq k) _ hf

/-- One trip of the zeroing loop inside the batch loop. -/
theorem trip_zero4 (v1 : BitVec 32) (v2 v4 : IVec S16 32) (v5 : FVec F S16 .f32) (hv5 : v5 = k0_pay31 (F := F)) (c0 c1 : BitVec 32) (k3 : Fin k0_t3_loop.trips)
    (k : Fin k0_t4_loop.trips) (acc : BitVec 32) :
    invZ (F := F) d L k.val acc ⊢ wp frame (wpE (defs₀ (F := F)) 𝒱₀ (thr d L) none) Set.univ
        (k0_t4_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 v1 v2 v4 v5 c0 c1 k3 k acc)
        (invZ d L (k.val + 1)) := by
  subst hv5
  conv => rhs; unfold k0_t4_body
  unfold invZ
  iintro ⟨%f, %hf, Hs6⟩
  sl_exec
  sl_step
  iexists _; isplitr
  rotate_left
  · iexact Hs6
  · ipureintro; exact zero_step f k.val _ (k0_off4_eq k) _ hf

end Cert.Proof.KI

end
-- ==== Proof.KI.RowViews.lean ====
/-
  The two row memrefs of the batch loop, as index maps. At trip k3 of the task at grid point L the kernel copies ROW
  b = 64·(L 1) + 32·(L 0) + k3 of the flattened vertices into a scratch, and later a scratch into row b of the
  flattened result, each through a memref that slices the row out of the array and drops the leading axis of size one.
  Such a memref sends position p to the array's entry (b, p); its element set is row b, which is the b-th of the 1024
  equal parts along the batch axis.
-/
import proofs.«203378_g9921374454198_cont_sun_m_1167_43_alg».proof.Proof.KI.Core
import Idealize.ShloMosaic.Lib.ValueIdx
import Idealize.ShloMosaic.Lib.Writes

noncomputable section

namespace Cert.Proof.KI.RowViews

open Cert.KernelIdeal Cert.KernelIdeal.Gen Cert.Proof.KI

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "V0W" => (Memref.whole Cert.KernelIdeal.main_v0_scv : Memref Cert.KernelIdeal.sig Kind.scVector Space.hbm Cert.KernelIdeal.S1024x31425 EltTy.f32)
local notation "V1W" => (Memref.whole Cert.KernelIdeal.main_v1_scv : Memref Cert.KernelIdeal.sig Kind.scVector Space.hbm Cert.KernelIdeal.S1024x24672 EltTy.f32)

/-- Row b of the flattened vertices, and of the flattened result, as the batch loop's trip k3 slices them. -/
abbrev Din (L : grid0.Coords) (k3 : Fin k0_t3_loop.trips) : Memref sig .scVector .hbm S31425 .f32 :=
  ((V0W).slice (Rect.unit (s := S1024x31425) (k0_off3 L k3) S1x31425.size (k0_off3_inb L k3)) (fun _ => rfl)).squeeze S31425 squeezes_S1x31425_S31425
abbrev Dout (L : grid0.Coords) (k3 : Fin k0_t3_loop.trips) : Memref sig .scVector .hbm S24672 .f32 :=
  ((V1W).slice (Rect.unit (s := S1024x24672) (k0_off7 L k3) S1x24672.size (k0_off7_inb L k3)) (fun _ => rfl)).squeeze S24672 squeezes_S1x24672_S24672

/-- The row's number. -/
abbrev rowNo (L : grid0.Coords) (k3 : Fin k0_t3_loop.trips) : Nat := 64 * (L 1).val + 32 * (L 0).val + k3.val

theorem trip_lt (k3 : Fin k0_t3_loop.trips) : k3.val < 32 := lt_of_lt_of_le k3.isLt k0_t3_abs.2.1
theorem rowNo_lt (L : grid0.Coords) (k3 : Fin k0_t3_loop.trips) : rowNo L k3 < 1024 := by
  have h0 : (L 0).val < 2 := (L 0).isLt
  have h1 : (L 1).val < 16 := (L 1).isLt
  have h3 := trip_lt k3
  unfold rowNo; omega

/-- The trip as one of the task's 32. -/
abbrev trip32 (k3 : Fin k0_t3_loop.trips) : Fin 32 := ⟨k3.val, trip_lt k3⟩

theorem tileRow_val (L : grid0.Coords) (k3 : Fin k0_t3_loop.trips) : (tileRow (cL L) (iL L) (trip32 k3)).val = rowNo L k3 := by
  show ((L 1).val * 2 + (L 0).val) * 32 + k3.val = 64 * (L 1).val + 32 * (L 0).val + k3.val
  omega

/-! ## A row of a two-axis array as a unit rectangle -/

/-- The unit rectangle at offset (b, 0) of sizes (1, n1) holds exactly the entries whose first coordinate is b. -/
theorem mem_unit_row {n0 n1 : Nat} {off size : Fin 2 → Nat} {inb : ∀ a, off a + size a ≤ (⟨2, ![n0, n1]⟩ : Shape).size a} (b : Nat)
    (hoff : off = ![b, 0]) (hsize : size = ![1, n1]) (j : (⟨2, ![n0, n1]⟩ : Shape).Idx) :
    j ∈ (Rect.unit (s := ⟨2, ![n0, n1]⟩) off size inb).set ↔ (j 0).val = b := by
  rw [Rect.mem_set_unit]
  subst hoff hsize
  constructor
  · intro h
    have h0 := h 0
    simp only [Matrix.cons_val_zero] at h0
    omega
  · intro h a
    match a with
    | 0 => simp only [Matrix.cons_val_zero]; omega
    | 1 =>
      have h1 : (j 1).val < n1 := (j 1).isLt
      simp only [Matrix.cons_val_one, Matrix.cons_val_zero]; omega

/-- (2) Row r of the flattened result: the entries whose batch coordinate is r. -/
theorem mem_rowSetO (r : Fin 1024) (j : S1024x24672.Idx) : j ∈ rowSetO r ↔ (j 0).val = r.val := by
  show j ∈ ((View.whole (main_v1_scv : Ref sig .scVector)).slice (rowO r)).set ↔ _
  rw [View.set_slice_whole]
  refine mem_unit_row (n0 := 1024) (n1 := 24672) r.val ?_ ?_ j
  · funext a
    match a with
    | 0 => simp [Shape.partIx, Shape.partSize]
    | 1 => simp [Shape.partIx, Shape.partSize]
  · funext a
    match a with
    | 0 => simp [Shape.partSize]
    | 1 => simp [Shape.partSize]

/-- (1) The result row's memref holds the row the task owns at that trip. -/
theorem set_Dout (L : grid0.Coords) (k3 : Fin k0_t3_loop.trips) :
    (Dout L k3).view.set = rowSetO (tileRow (cL L) (iL L) (trip32 k3)) := by
  ext j
  rw [mem_rowSetO, tileRow_val]
  show j ∈ (((View.whole (main_v1_scv : Ref sig .scVector)).slice _).reshape S24672 squeezes_S1x24672_S24672.numel_eq).set ↔ _
  rw [View.set_reshape, View.set_slice_whole]
  exact mem_unit_row (n0 := 1024) (n1 := 24672) (rowNo L k3) (k0_off7_eq L k3) rfl j

theorem pts_Dout (d : Dev nD) (L : grid0.Coords) (k3 : Fin k0_t3_loop.trips) (f : Buf (Elt F) (v1Loc d)) :
    ((Dout L k3).view.loc (V d (cV L) (jV L)) ↦[(Dout L k3).view.set]{fullShare} f : sProp 𝕄)
      = ((V1W).view.loc (V d (cV L) (jV L)) ↦[rowSetO (tileRow (cL L) (iL L) (trip32 k3))]{fullShare} f) := by
  rw [set_Dout]

/-! ## The row memrefs as index maps -/

/-- Dropping the leading axis of size one and placing at offset (b, 0): position q goes to entry (b, q). -/
theorem unit_row_emb {n0 n1 : Nat} {off : Fin 2 → Nat} {inb : ∀ a, off a + (⟨2, ![1, n1]⟩ : Shape).size a ≤ (⟨2, ![n0, n1]⟩ : Shape).size a}
    (b : Nat) (hb : b < n0) (hoff : off = ![b, 0]) (h : (⟨1, ![n1]⟩ : Shape).numel = (⟨2, ![1, n1]⟩ : Shape).numel) (q : Fin n1) :
    (Rect.unit (s := ⟨2, ![n0, n1]⟩) off (⟨2, ![1, n1]⟩ : Shape).size inb).emb (Shape.reshapeEquiv h (ix1 q)) = ix2 ⟨b, hb⟩ q := by
  subst hoff
  rw [Shape.reshapeEquiv_cons_one (n := 1) (d := ![n1]) h (ix1 q)]
  funext a
  match a with
  | 0 => exact Fin.ext (show b + 1 * 0 = b by omega)
  | 1 => exact Fin.ext (show 0 + 1 * q.val = q.val by omega)

theorem emb_Din (L : grid0.Coords) (k3 : Fin k0_t3_loop.trips) (q : Fin 31425) :
    (Din L k3).view.emb (ix1 q) = ix2 ⟨rowNo L k3, rowNo_lt L k3⟩ q :=
  unit_row_emb (n0 := 1024) (n1 := 31425) (rowNo L k3) (rowNo_lt L k3) (k0_off3_eq L k3) squeezes_S1x31425_S31425.numel_eq q

theorem emb_Dout (L : grid0.Coords) (k3 : Fin k0_t3_loop.trips) (q : Fin 24672) :
    (Dout L k3).view.emb (ix1 q) = ix2 ⟨rowNo L k3, rowNo_lt L k3⟩ q :=
  unit_row_emb (n0 := 1024) (n1 := 24672) (rowNo L k3) (rowNo_lt L k3) (k0_off7_eq L k3) squeezes_S1x24672_S24672.numel_eq q

/-- (3) Reading the vertices' row through its memref: position p reads entry (b, p). -/
theorem read_Din (L : grid0.Coords) (k3 : Fin k0_t3_loop.trips) (Xc : Vec F S1024x31425 .f32) (p : Nat) (hp : p < 31425) :
    View.read (Elt F) (Din L k3).view Xc (ix1 ⟨p, hp⟩) = Xc (ix2 ⟨rowNo L k3, rowNo_lt L k3⟩ ⟨p, hp⟩) := by
  rw [View.read_apply, emb_Din]
  rfl

/-- (4) Writing a whole row through the result row's memref: entry (b, q) takes position q of what is written. -/
theorem write_Dout (L : grid0.Coords) (k3 : Fin k0_t3_loop.trips) (fold : Vec F S1024x24672 .f32) (w : Vec F S24672 .f32)
    (j : S1024x24672.Idx) (hj : (j 0).val = rowNo L k3) :
    View.write (Elt F) (Dout L k3).view fold w Finset.univ j = w (ix1 ⟨(j 1).val, (j 1).isLt⟩) := by
  have e : j = (Dout L k3).view.emb (ix1 ⟨(j 1).val, (j 1).isLt⟩) := by
    rw [emb_Dout]
    funext a
    match a with
    | 0 => exact Fin.ext hj
    | 1 => rfl
  have hw := View.write_emb_of_mem (v := (Dout L k3).view) (Val := Elt F) fold w (M := Finset.univ) (x := ix1 ⟨(j 1).val, (j 1).isLt⟩) (Finset.mem_univ _)
  rw [← e] at hw
  exact hw

/-- The whole rectangle of the row's own shape places a position at itself. -/
theorem whole_emb (q : Fin 24672) : (Rect.whole S24672).emb (ix1 q) = ix1 q := by
  funext a
  match a with
  | 0 => exact Fin.ext (show 0 + 1 * q.val = q.val by omega)

/-- The same as a one-piece list of writes through the whole rectangle of the row memref: entry (b, q) takes
    position q of the piece. -/
theorem writes_Dout (L : grid0.Coords) (k3 : Fin k0_t3_loop.trips) (fold : Vec F S1024x24672 .f32) (w : Vec F S24672 .f32)
    (j : S1024x24672.Idx) (hj : (j 0).val = rowNo L k3) :
    (Dout L k3).view.writes (Elt F) fold [⟨Rect.whole S24672, w⟩] j = w (ix1 ⟨(j 1).val, (j 1).isLt⟩) := by
  rw [View.writes_singleton]
  have e : j = ((Dout L k3).view.slice (Rect.whole S24672)).emb (ix1 ⟨(j 1).val, (j 1).isLt⟩) := by
    show j = (Dout L k3).view.emb ((Rect.whole S24672).emb (ix1 ⟨(j 1).val, (j 1).isLt⟩))
    rw [whole_emb, emb_Dout]
    funext a
    match a with
    | 0 => exact Fin.ext hj
    | 1 => rfl
  have hw := View.write_emb_of_mem (v := (Dout L k3).view.slice (Rect.whole S24672)) (Val := Elt F) fold w (M := Finset.univ)
    (x := ix1 ⟨(j 1).val, (j 1).isLt⟩) (Finset.mem_univ _)
  rw [← e] at hw
  exact hw

/-- Off the row such a list of writes changes nothing. -/
theorem writes_Dout_off (L : grid0.Coords) (k3 : Fin k0_t3_loop.trips) (fold : Vec F S1024x24672 .f32) (w : Vec F S24672 .f32)
    (j : S1024x24672.Idx) (hj : (j 0).val ≠ rowNo L k3) :
    (Dout L k3).view.writes (Elt F) fold [⟨Rect.whole S24672, w⟩] j = fold j := by
  refine View.writes_apply_of_forall_ne (v := (Dout L k3).view) (Val := Elt F) fold _ fun y hy => hj ?_
  obtain ⟨q, rfl⟩ : ∃ q : Fin 24672, y = ix1 q := ⟨y 0, eq_ix1 (n := 24672) y⟩
  rw [emb_Dout] at hy
  rw [← hy]

/-- Off the row the array is unchanged by such a write. -/
theorem write_Dout_off (L : grid0.Coords) (k3 : Fin k0_t3_loop.trips) (fold : Vec F S1024x24672 .f32) (w : Vec F S24672 .f32)
    (j : S1024x24672.Idx) (hj : (j 0).val ≠ rowNo L k3) :
    View.write (Elt F) (Dout L k3).view fold w Finset.univ j = fold j := by
  refine View.write_of_not_mem (v := (Dout L k3).view) (Val := Elt F) fold w Finset.univ fun hm => hj ?_
  obtain ⟨x, -, rfl⟩ := Finset.mem_map.mp hm
  obtain ⟨q, rfl⟩ : ∃ q : Fin 24672, x = ix1 q := ⟨x 0, eq_ix1 (n := 24672) x⟩
  rw [emb_Dout]

end Cert.Proof.KI.RowViews

end
-- ==== Proof.KI.IdxPay.lean ====
/-
  The kernel's fifteen index vectors in closed form, as natural numbers.

  Every index word is a sum of 32-bit products: a lane number times a block size, a loaded word times 3, a loop
  counter times 48, and a component 0, 1 or 2. Under the stated ranges of the loaded words (a band number is at most
  31, a vertex number at most 10474) and of the loop counter (below 512) no product and no sum reaches 2^32, so each
  word reads as the natural number the arithmetic names:

    count loop    lane * 96 + band * 3 + c            (into an array of 16 * 96 = 1536 words)
    seg gather    vertex * 3 + c                      (out of an array of 10475 * 3 = 31425 words)
    seg scatter   trip * 48 + lane * 3 + c            (into an array of 24672 words; 511 * 48 + 47 < 24576)
    band gather   vertex * 3 + c                      (31425 words)
    band scatter  lane * 96 + band * 3 + c            (1536 words)

  From the closed forms: every index is inside its array (the fifteen side conditions the body assumes), and in each
  of the nine scatter vectors two different lanes name two different places: the lane's own block of 96 words (or of 3
  words) separates them, since band * 3 + c is at most 95 and c is at most 2.
-/
import proofs.«203378_g9921374454198_cont_sun_m_1167_43_alg».proof.Proof.Gen.KernelIdeal.Skeleton

noncomputable section

namespace Cert.Proof.KI.Idx

open Cert.KernelIdeal Cert.KernelIdeal.Gen Idealize.ShloMosaic

variable {F : FTy → Type} [FloatOps F]

/-! ## Lanes -/

/-- A lane of the 16-lane vector shape is below 16. -/
theorem lane_lt (x : S16.Idx) : (x 0).val < 16 := (x 0).isLt

/-- Two lanes with the same number are the same lane. -/
theorem lane_ext {x x' : S16.Idx} (h : (x 0).val = (x' 0).val) : x = x' := by
  funext a
  obtain rfl : a = 0 := Fin.eq_zero a
  exact Fin.ext h

/-- The lane sequence at lane x is the lane's number, as a word. -/
theorem iota_apply (x : S16.Idx) :
    iota .scVector S16 32 [0] iota_S16_d0_w32_scVector x = BitVec.ofNat 32 (x 0).val := by
  simp only [iota, List.foldl_cons, List.foldl_nil, Nat.zero_mul, Nat.zero_add]

/-- The loop counter of the 512-trip loop is below 512. -/
theorem trip_lt (k : Fin k0_t5_loop.trips) : k.val < 512 := Nat.lt_of_lt_of_le k.isLt k0_t5_abs.2.1

/-! ## The shared sub-terms -/

/-- The lane base: lane * 96. -/
theorem pay30_toNat (x : S16.Idx) : ((k0_pay30 : IVec S16 32) x).toNat = (x 0).val * 96 := by
  have hx := lane_lt x
  unfold k0_pay30
  simp only [muli, broadcast, IntOp.muli, iota, List.foldl_cons, List.foldl_nil, Nat.zero_mul, Nat.zero_add]
  rw [BitVec.toNat_mul]
  simp only [BitVec.toNat_ofNat, Nat.reducePow, Nat.reduceMod]
  omega

/-- Lane base plus band * 3 (count loop). -/
theorem pay33_toNat (v : Vec F S16 .i32) (x : S16.Idx) (hv : (v x).toNat ≤ 31) :
    (k0_pay33 v x).toNat = (x 0).val * 96 + (v x).toNat * 3 := by
  have h30 := pay30_toNat x
  have hx := lane_lt x
  unfold k0_pay33
  simp only [addi, muli, broadcast, IntOp.addi, IntOp.muli]
  rw [BitVec.toNat_add, BitVec.toNat_mul]
  simp only [BitVec.toNat_ofNat, Nat.reducePow, Nat.reduceMod]
  omega

/-- Vertex * 3 (seg gather). -/
theorem pay2_toNat (v : Vec F S16 .i32) (x : S16.Idx) (hv : (v x).toNat ≤ 10474) :
    (k0_pay2 v x).toNat = (v x).toNat * 3 := by
  unfold k0_pay2
  simp only [muli, broadcast, IntOp.muli]
  rw [BitVec.toNat_mul]
  simp only [BitVec.toNat_ofNat, Nat.reducePow, Nat.reduceMod]
  omega

/-- Trip * 48 plus lane * 3 (seg scatter). -/
theorem pay3_toNat (k : Fin k0_t5_loop.trips) (x : S16.Idx) :
    (k0_pay3 (iota .scVector S16 32 [0] iota_S16_d0_w32_scVector) k x).toNat = k.val * 48 + (x 0).val * 3 := by
  have hx := lane_lt x
  have hk := trip_lt k
  unfold k0_pay3
  simp only [addi, muli, broadcast, IntOp.addi, IntOp.muli, Scalar.muli, Scf.iv, iota, List.foldl_cons, List.foldl_nil,
    Nat.zero_mul, Nat.zero_add]
  rw [BitVec.toNat_add, BitVec.toNat_mul, BitVec.toNat_mul, BitVec.toNat_add, BitVec.toNat_mul]
  simp only [BitVec.toNat_ofNat, Nat.reducePow, Nat.reduceMod]
  omega

/-- Vertex * 3 (band gather). -/
theorem pay10_toNat (v : Vec F S16 .i32) (x : S16.Idx) (hv : (v x).toNat ≤ 10474) :
    (k0_pay10 v x).toNat = (v x).toNat * 3 := by
  unfold k0_pay10
  simp only [muli, broadcast, IntOp.muli]
  rw [BitVec.toNat_mul]
  simp only [BitVec.toNat_ofNat, Nat.reducePow, Nat.reduceMod]
  omega

/-- Lane base plus band * 3 (band scatter). -/
theorem pay11_toNat (w : Vec F S16 .i32) (x : S16.Idx) (hw : (w x).toNat ≤ 31) :
    (k0_pay11 k0_pay30 w x).toNat = (x 0).val * 96 + (w x).toNat * 3 := by
  have h30 := pay30_toNat x
  have hx := lane_lt x
  unfold k0_pay11
  simp only [addi, muli, broadcast, IntOp.addi, IntOp.muli]
  rw [BitVec.toNat_add, BitVec.toNat_mul]
  simp only [BitVec.toNat_ofNat, Nat.reducePow, Nat.reduceMod]
  omega

/-! ## The fifteen index vectors -/

/-- Count loop, component 0: lane * 96 + band * 3 + 0. -/
theorem pay34_toNat (v : Vec F S16 .i32) (x : S16.Idx) (hv : (v x).toNat ≤ 31) :
    (k0_pay34 v x).toNat = (x 0).val * 96 + (v x).toNat * 3 + 0 := by
  have hb := pay33_toNat v x hv
  have hx := lane_lt x
  unfold k0_pay34
  simp only [addi, broadcast, IntOp.addi]
  rw [BitVec.toNat_add]
  simp only [BitVec.toNat_ofNat, Nat.reducePow, Nat.reduceMod]
  omega

/-- Count loop, component 1: lane * 96 + band * 3 + 1. -/
theorem pay35_toNat (v : Vec F S16 .i32) (x : S16.Idx) (hv : (v x).toNat ≤ 31) :
    (k0_pay35 v x).toNat = (x 0).val * 96 + (v x).toNat * 3 + 1 := by
  have hb := pay33_toNat v x hv
  have hx := lane_lt x
  unfold k0_pay35
  simp only [addi, broadcast, IntOp.addi]
  rw [BitVec.toNat_add]
  simp only [BitVec.toNat_ofNat, Nat.reducePow, Nat.reduceMod]
  omega

/-- Count loop, component 2: lane * 96 + band * 3 + 2. -/
theorem pay36_toNat (v : Vec F S16 .i32) (x : S16.Idx) (hv : (v x).toNat ≤ 31) :
    (k0_pay36 v x).toNat = (x 0).val * 96 + (v x).toNat * 3 + 2 := by
  have hb := pay33_toNat v x hv
  have hx := lane_lt x
  unfold k0_pay36
  simp only [addi, broadcast, IntOp.addi]
  rw [BitVec.toNat_add]
  simp only [BitVec.toNat_ofNat, Nat.reducePow, Nat.reduceMod]
  omega

/-- Seg gather, component 0: vertex * 3 + 0. -/
theorem pay4_toNat (v : Vec F S16 .i32) (x : S16.Idx) (hv : (v x).toNat ≤ 10474) :
    (k0_pay4 v x).toNat = (v x).toNat * 3 + 0 := by
  have hb := pay2_toNat v x hv
  have hx := lane_lt x
  unfold k0_pay4
  simp only [addi, broadcast, IntOp.addi]
  rw [BitVec.toNat_add]
  simp only [BitVec.toNat_ofNat, Nat.reducePow, Nat.reduceMod]
  omega

/-- Seg gather, component 1: vertex * 3 + 1. -/
theorem pay6_toNat (v : Vec F S16 .i32) (x : S16.Idx) (hv : (v x).toNat ≤ 10474) :
    (k0_pay6 v x).toNat = (v x).toNat * 3 + 1 := by
  have hb := pay2_toNat v x hv
  have hx := lane_lt x
  unfold k0_pay6
  simp only [addi, broadcast, IntOp.addi]
  rw [BitVec.toNat_add]
  simp only [BitVec.toNat_ofNat, Nat.reducePow, Nat.reduceMod]
  omega

/-- Seg gather, component 2: vertex * 3 + 2. -/
theorem pay8_toNat (v : Vec F S16 .i32) (x : S16.Idx) (hv : (v x).toNat ≤ 10474) :
    (k0_pay8 v x).toNat = (v x).toNat * 3 + 2 := by
  have hb := pay2_toNat v x hv
  have hx := lane_lt x
  unfold k0_pay8
  simp only [addi, broadcast, IntOp.addi]
  rw [BitVec.toNat_add]
  simp only [BitVec.toNat_ofNat, Nat.reducePow, Nat.reduceMod]
  omega

/-- Seg scatter, component 0: trip * 48 + lane * 3 + 0. -/
theorem pay5_toNat (k : Fin k0_t5_loop.trips) (x : S16.Idx) :
    (k0_pay5 (iota .scVector S16 32 [0] iota_S16_d0_w32_scVector) k x).toNat = k.val * 48 + (x 0).val * 3 + 0 := by
  have hb := pay3_toNat k x
  have hx := lane_lt x
  have hk := trip_lt k
  unfold k0_pay5
  simp only [addi, broadcast, IntOp.addi]
  rw [BitVec.toNat_add]
  simp only [BitVec.toNat_ofNat, Nat.reducePow, Nat.reduceMod]
  omega

/-- Seg scatter, component 1: trip * 48 + lane * 3 + 1. -/
theorem pay7_toNat (k : Fin k0_t5_loop.trips) (x : S16.Idx) :
    (k0_pay7 (iota .scVector S16 32 [0] iota_S16_d0_w32_scVector) k x).toNat = k.val * 48 + (x 0).val * 3 + 1 := by
  have hb := pay3_toNat k x
  have hx := lane_lt x
  have hk := trip_lt k
  unfold k0_pay7
  simp only [addi, broadcast, IntOp.addi]
  rw [BitVec.toNat_add]
  simp only [BitVec.toNat_ofNat, Nat.reducePow, Nat.reduceMod]
  omega

/-- Seg scatter, component 2: trip * 48 + lane * 3 + 2. -/
theorem pay9_toNat (k : Fin k0_t5_loop.trips) (x : S16.Idx) :
    (k0_pay9 (iota .scVector S16 32 [0] iota_S16_d0_w32_scVector) k x).toNat = k.val * 48 + (x 0).val * 3 + 2 := by
  have hb := pay3_toNat k x
  have hx := lane_lt x
  have hk := trip_lt k
  unfold k0_pay9
  simp only [addi, broadcast, IntOp.addi]
  rw [BitVec.toNat_add]
  simp only [BitVec.toNat_ofNat, Nat.reducePow, Nat.reduceMod]
  omega

/-- Band gather, component 0: vertex * 3 + 0. -/
theorem pay12_toNat (v : Vec F S16 .i32) (x : S16.Idx) (hv : (v x).toNat ≤ 10474) :
    (k0_pay12 v x).toNat = (v x).toNat * 3 + 0 := by
  have hb := pay10_toNat v x hv
  have hx := lane_lt x
  unfold k0_pay12
  simp only [addi, broadcast, IntOp.addi]
  rw [BitVec.toNat_add]
  simp only [BitVec.toNat_ofNat, Nat.reducePow, Nat.reduceMod]
  omega

/-- Band gather, component 1: vertex * 3 + 1. -/
theorem pay14_toNat (v : Vec F S16 .i32) (x : S16.Idx) (hv : (v x).toNat ≤ 10474) :
    (k0_pay14 v x).toNat = (v x).toNat * 3 + 1 := by
  have hb := pay10_toNat v x hv
  have hx := lane_lt x
  unfold k0_pay14
  simp only [addi, broadcast, IntOp.addi]
  rw [BitVec.toNat_add]
  simp only [BitVec.toNat_ofNat, Nat.reducePow, Nat.reduceMod]
  omega

/-- Band gather, component 2: vertex * 3 + 2. -/
theorem pay16_toNat (v : Vec F S16 .i32) (x : S16.Idx) (hv : (v x).toNat ≤ 10474) :
    (k0_pay16 v x).toNat = (v x).toNat * 3 + 2 := by
  have hb := pay10_toNat v x hv
  have hx := lane_lt x
  unfold k0_pay16
  simp only [addi, broadcast, IntOp.addi]
  rw [BitVec.toNat_add]
  simp only [BitVec.toNat_ofNat, Nat.reducePow, Nat.reduceMod]
  omega

/-- Band scatter, component 0: lane * 96 + band * 3 + 0. -/
theorem pay13_toNat (w : Vec F S16 .i32) (x : S16.Idx) (hw : (w x).toNat ≤ 31) :
    (k0_pay13 k0_pay30 w x).toNat = (x 0).val * 96 + (w x).toNat * 3 + 0 := by
  have hb := pay11_toNat w x hw
  have hx := lane_lt x
  unfold k0_pay13
  simp only [addi, broadcast, IntOp.addi]
  rw [BitVec.toNat_add]
  simp only [BitVec.toNat_ofNat, Nat.reducePow, Nat.reduceMod]
  omega

/-- Band scatter, component 1: lane * 96 + band * 3 + 1. -/
theorem pay15_toNat (w : Vec F S16 .i32) (x : S16.Idx) (hw : (w x).toNat ≤ 31) :
    (k0_pay15 k0_pay30 w x).toNat = (x 0).val * 96 + (w x).toNat * 3 + 1 := by
  have hb := pay11_toNat w x hw
  have hx := lane_lt x
  unfold k0_pay15
  simp only [addi, broadcast, IntOp.addi]
  rw [BitVec.toNat_add]
  simp only [BitVec.toNat_ofNat, Nat.reducePow, Nat.reduceMod]
  omega

/-- Band scatter, component 2: lane * 96 + band * 3 + 2. -/
theorem pay17_toNat (w : Vec F S16 .i32) (x : S16.Idx) (hw : (w x).toNat ≤ 31) :
    (k0_pay17 k0_pay30 w x).toNat = (x 0).val * 96 + (w x).toNat * 3 + 2 := by
  have hb := pay11_toNat w x hw
  have hx := lane_lt x
  unfold k0_pay17
  simp only [addi, broadcast, IntOp.addi]
  rw [BitVec.toNat_add]
  simp only [BitVec.toNat_ofNat, Nat.reducePow, Nat.reduceMod]
  omega

/-! ## Every index is inside its array: the side conditions the body assumes -/

/-- Count loop: the index is below 16 * 96 = 1536. -/
theorem chk1 (v : Vec F S16 .i32) (hv : ∀ x, (v x).toNat ≤ 31) : k0_chk1 (k0_pay34 v) := by
  intro a x
  obtain rfl : a = 0 := Fin.eq_zero a
  show (k0_pay34 v x).toNat < 1536
  have hx := lane_lt x
  have := hv x
  rw [pay34_toNat v x (hv x)]
  omega

/-- Count loop: the index is below 16 * 96 = 1536. -/
theorem chk2 (v : Vec F S16 .i32) (hv : ∀ x, (v x).toNat ≤ 31) : k0_chk2 (k0_pay35 v) := by
  intro a x
  obtain rfl : a = 0 := Fin.eq_zero a
  show (k0_pay35 v x).toNat < 1536
  have hx := lane_lt x
  have := hv x
  rw [pay35_toNat v x (hv x)]
  omega

/-- Count loop: the index is below 16 * 96 = 1536. -/
theorem chk3 (v : Vec F S16 .i32) (hv : ∀ x, (v x).toNat ≤ 31) : k0_chk3 (k0_pay36 v) := by
  intro a x
  obtain rfl : a = 0 := Fin.eq_zero a
  show (k0_pay36 v x).toNat < 1536
  have hx := lane_lt x
  have := hv x
  rw [pay36_toNat v x (hv x)]
  omega

/-- Seg gather: the index is below 10475 * 3 = 31425. -/
theorem chk4 (v : Vec F S16 .i32) (hv : ∀ x, (v x).toNat ≤ 10474) : k0_chk4 (k0_pay4 v) := by
  intro a x
  obtain rfl : a = 0 := Fin.eq_zero a
  show (k0_pay4 v x).toNat < 31425
  have hx := lane_lt x
  have := hv x
  rw [pay4_toNat v x (hv x)]
  omega

/-- Seg gather: the index is below 10475 * 3 = 31425. -/
theorem chk6 (v : Vec F S16 .i32) (hv : ∀ x, (v x).toNat ≤ 10474) : k0_chk6 (k0_pay6 v) := by
  intro a x
  obtain rfl : a = 0 := Fin.eq_zero a
  show (k0_pay6 v x).toNat < 31425
  have hx := lane_lt x
  have := hv x
  rw [pay6_toNat v x (hv x)]
  omega

/-- Seg gather: the index is below 10475 * 3 = 31425. -/
theorem chk8 (v : Vec F S16 .i32) (hv : ∀ x, (v x).toNat ≤ 10474) : k0_chk8 (k0_pay8 v) := by
  intro a x
  obtain rfl : a = 0 := Fin.eq_zero a
  show (k0_pay8 v x).toNat < 31425
  have hx := lane_lt x
  have := hv x
  rw [pay8_toNat v x (hv x)]
  omega

/-- Seg scatter: the index is at most 511 * 48 + 47, below 24672. -/
theorem chk5 (k : Fin k0_t5_loop.trips) : k0_chk5 (k0_pay5 (iota .scVector S16 32 [0] iota_S16_d0_w32_scVector) k) := by
  intro a x
  obtain rfl : a = 0 := Fin.eq_zero a
  show (k0_pay5 (iota .scVector S16 32 [0] iota_S16_d0_w32_scVector) k x).toNat < 24672
  have hx := lane_lt x
  have hk := trip_lt k
  rw [pay5_toNat k x]
  omega

/-- Seg scatter: the index is at most 511 * 48 + 47, below 24672. -/
theorem chk7 (k : Fin k0_t5_loop.trips) : k0_chk7 (k0_pay7 (iota .scVector S16 32 [0] iota_S16_d0_w32_scVector) k) := by
  intro a x
  obtain rfl : a = 0 := Fin.eq_zero a
  show (k0_pay7 (iota .scVector S16 32 [0] iota_S16_d0_w32_scVector) k x).toNat < 24672
  have hx := lane_lt x
  have hk := trip_lt k
  rw [pay7_toNat k x]
  omega

/-- Seg scatter: the index is at most 511 * 48 + 47, below 24672. -/
theorem chk9 (k : Fin k0_t5_loop.trips) : k0_chk9 (k0_pay9 (iota .scVector S16 32 [0] iota_S16_d0_w32_scVector) k) := by
  intro a x
  obtain rfl : a = 0 := Fin.eq_zero a
  show (k0_pay9 (iota .scVector S16 32 [0] iota_S16_d0_w32_scVector) k x).toNat < 24672
  have hx := lane_lt x
  have hk := trip_lt k
  rw [pay9_toNat k x]
  omega

/-- Band gather: the index is below 10475 * 3 = 31425. -/
theorem chk10 (v : Vec F S16 .i32) (hv : ∀ x, (v x).toNat ≤ 10474) : k0_chk10 (k0_pay12 v) := by
  intro a x
  obtain rfl : a = 0 := Fin.eq_zero a
  show (k0_pay12 v x).toNat < 31425
  have hx := lane_lt x
  have := hv x
  rw [pay12_toNat v x (hv x)]
  omega

/-- Band gather: the index is below 10475 * 3 = 31425. -/
theorem chk12 (v : Vec F S16 .i32) (hv : ∀ x, (v x).toNat ≤ 10474) : k0_chk12 (k0_pay14 v) := by
  intro a x
  obtain rfl : a = 0 := Fin.eq_zero a
  show (k0_pay14 v x).toNat < 31425
  have hx := lane_lt x
  have := hv x
  rw [pay14_toNat v x (hv x)]
  omega

/-- Band gather: the index is below 10475 * 3 = 31425. -/
theorem chk14 (v : Vec F S16 .i32) (hv : ∀ x, (v x).toNat ≤ 10474) : k0_chk14 (k0_pay16 v) := by
  intro a x
  obtain rfl : a = 0 := Fin.eq_zero a
  show (k0_pay16 v x).toNat < 31425
  have hx := lane_lt x
  have := hv x
  rw [pay16_toNat v x (hv x)]
  omega

/-- Band scatter: the index is below 16 * 96 = 1536. -/
theorem chk11 (w : Vec F S16 .i32) (hw : ∀ x, (w x).toNat ≤ 31) : k0_chk11 (k0_pay13 k0_pay30 w) := by
  intro a x
  obtain rfl : a = 0 := Fin.eq_zero a
  show (k0_pay13 k0_pay30 w x).toNat < 1536
  have hx := lane_lt x
  have := hw x
  rw [pay13_toNat w x (hw x)]
  omega

/-- Band scatter: the index is below 16 * 96 = 1536. -/
theorem chk13 (w : Vec F S16 .i32) (hw : ∀ x, (w x).toNat ≤ 31) : k0_chk13 (k0_pay15 k0_pay30 w) := by
  intro a x
  obtain rfl : a = 0 := Fin.eq_zero a
  show (k0_pay15 k0_pay30 w x).toNat < 1536
  have hx := lane_lt x
  have := hw x
  rw [pay15_toNat w x (hw x)]
  omega

/-- Band scatter: the index is below 16 * 96 = 1536. -/
theorem chk15 (w : Vec F S16 .i32) (hw : ∀ x, (w x).toNat ≤ 31) : k0_chk15 (k0_pay17 k0_pay30 w) := by
  intro a x
  obtain rfl : a = 0 := Fin.eq_zero a
  show (k0_pay17 k0_pay30 w x).toNat < 1536
  have hx := lane_lt x
  have := hw x
  rw [pay17_toNat w x (hw x)]
  omega

/-! ## Different lanes name different places: the nine scatter vectors -/

/-- Count loop: band * 3 + c is at most 95, so the lane's block of 96 words tells the lanes apart. -/
theorem inj34 (v : Vec F S16 .i32) (hv : ∀ x, (v x).toNat ≤ 31) (x x' : S16.Idx)
    (h : (k0_pay34 v x).toNat = (k0_pay34 v x').toNat) : x = x' := by
  rw [pay34_toNat v x (hv x), pay34_toNat v x' (hv x')] at h
  have := hv x; have := hv x'
  exact lane_ext (by omega)

/-- Count loop: band * 3 + c is at most 95, so the lane's block of 96 words tells the lanes apart. -/
theorem inj35 (v : Vec F S16 .i32) (hv : ∀ x, (v x).toNat ≤ 31) (x x' : S16.Idx)
    (h : (k0_pay35 v x).toNat = (k0_pay35 v x').toNat) : x = x' := by
  rw [pay35_toNat v x (hv x), pay35_toNat v x' (hv x')] at h
  have := hv x; have := hv x'
  exact lane_ext (by omega)

/-- Count loop: band * 3 + c is at most 95, so the lane's block of 96 words tells the lanes apart. -/
theorem inj36 (v : Vec F S16 .i32) (hv : ∀ x, (v x).toNat ≤ 31) (x x' : S16.Idx)
    (h : (k0_pay36 v x).toNat = (k0_pay36 v x').toNat) : x = x' := by
  rw [pay36_toNat v x (hv x), pay36_toNat v x' (hv x')] at h
  have := hv x; have := hv x'
  exact lane_ext (by omega)

/-- Seg scatter: within one trip the lane's block of 3 words tells the lanes apart. -/
theorem inj5 (k : Fin k0_t5_loop.trips) (x x' : S16.Idx)
    (h : (k0_pay5 (iota .scVector S16 32 [0] iota_S16_d0_w32_scVector) k x).toNat = (k0_pay5 (iota .scVector S16 32 [0] iota_S16_d0_w32_scVector) k x').toNat) : x = x' := by
  rw [pay5_toNat k x, pay5_toNat k x'] at h
  exact lane_ext (by omega)

/-- Seg scatter: within one trip the lane's block of 3 words tells the lanes apart. -/
theorem inj7 (k : Fin k0_t5_loop.trips) (x x' : S16.Idx)
    (h : (k0_pay7 (iota .scVector S16 32 [0] iota_S16_d0_w32_scVector) k x).toNat = (k0_pay7 (iota .scVector S16 32 [0] iota_S16_d0_w32_scVector) k x').toNat) : x = x' := by
  rw [pay7_toNat k x, pay7_toNat k x'] at h
  exact lane_ext (by omega)

/-- Seg scatter: within one trip the lane's block of 3 words tells the lanes apart. -/
theorem inj9 (k : Fin k0_t5_loop.trips) (x x' : S16.Idx)
    (h : (k0_pay9 (iota .scVector S16 32 [0] iota_S16_d0_w32_scVector) k x).toNat = (k0_pay9 (iota .scVector S16 32 [0] iota_S16_d0_w32_scVector) k x').toNat) : x = x' := by
  rw [pay9_toNat k x, pay9_toNat k x'] at h
  exact lane_ext (by omega)

/-- Band scatter: band * 3 + c is at most 95, so the lane's block of 96 words tells the lanes apart. -/
theorem inj13 (w : Vec F S16 .i32) (hw : ∀ x, (w x).toNat ≤ 31) (x x' : S16.Idx)
    (h : (k0_pay13 k0_pay30 w x).toNat = (k0_pay13 k0_pay30 w x').toNat) : x = x' := by
  rw [pay13_toNat w x (hw x), pay13_toNat w x' (hw x')] at h
  have := hw x; have := hw x'
  exact lane_ext (by omega)

/-- Band scatter: band * 3 + c is at most 95, so the lane's block of 96 words tells the lanes apart. -/
theorem inj15 (w : Vec F S16 .i32) (hw : ∀ x, (w x).toNat ≤ 31) (x x' : S16.Idx)
    (h : (k0_pay15 k0_pay30 w x).toNat = (k0_pay15 k0_pay30 w x').toNat) : x = x' := by
  rw [pay15_toNat w x (hw x), pay15_toNat w x' (hw x')] at h
  have := hw x; have := hw x'
  exact lane_ext (by omega)

/-- Band scatter: band * 3 + c is at most 95, so the lane's block of 96 words tells the lanes apart. -/
theorem inj17 (w : Vec F S16 .i32) (hw : ∀ x, (w x).toNat ≤ 31) (x x' : S16.Idx)
    (h : (k0_pay17 k0_pay30 w x).toNat = (k0_pay17 k0_pay30 w x').toNat) : x = x' := by
  rw [pay17_toNat w x (hw x), pay17_toNat w x' (hw x')] at h
  have := hw x; have := hw x'
  exact lane_ext (by omega)

end Cert.Proof.KI.Idx
-- ==== Proof.LibStoreIdx.lean ====
/-
  An indexed (scatter) store whose lanes name pairwise distinct places, read back at one place; and the indexed (gather)
  load read at one lane.

  The scatter is a left fold over the lanes in ascending order: each lane overwrites (or, with the add flag, adds onto)
  the element at the place its index words name. The fold is analysed over an arbitrary list of lanes:

  * a place that no lane of the list names keeps its old element (no hypothesis on the lanes);
  * if the lanes of the list are pairwise different and name pairwise different places, the place named by a lane of
    the list holds that lane's update of the OLD element: the lanes before it did not touch the place, and the lanes
    after it do not touch it again.

  The store itself is the fold over all the lanes. The rank-one corollaries restate the two facts for a base array of
  one axis, where a place is a natural number below the extent, and for an index vector given as one vector of words.
-/
import Idealize.ShloMosaic.PureOps
import Idealize.ShloMosaic.Lib.ValueIdx

noncomputable section

namespace Cert.Proof.LibStoreIdx

open Idealize.ShloMosaic Idealize.ShloMosaic.ValueIdx

variable {F : FTy → Type} [FloatOps F] {s : Shape} {e : EltTy} {d : Fin 1 → Nat}

/-- What one lane leaves at the place it names: the stored element, or with the add flag the old element plus it. -/
def upd (e : EltTy) (add : Bool) (old new : Elt F e) : Elt F e := if add then Elt.idxAdd e old new else new

/-- One lane's write: the contents after lane k has written (or added) its element at the place it names. -/
def step (idxs : Fin s.rank → IVec ⟨1, d⟩ 32) (v : Vec F ⟨1, d⟩ e) (add : Bool)
    (h : ∀ a x, (idxs a x).toNat < s.size a) (g : Vec F s e) (k : Fin (d 0)) : Vec F s e :=
  fun j => if (∀ a, (j a).val = (idxAt idxs h (Shape.ofLane k) a).val) then
    upd e add (g (idxAt idxs h (Shape.ofLane k))) (v (Shape.ofLane k)) else g j

/-- A lane's write, read at the place the lane names, is the lane's update of what was there. -/
theorem step_same (idxs : Fin s.rank → IVec ⟨1, d⟩ 32) (v : Vec F ⟨1, d⟩ e) (add : Bool)
    (h : ∀ a x, (idxs a x).toNat < s.size a) (g : Vec F s e) (k : Fin (d 0)) :
    step idxs v add h g k (idxAt idxs h (Shape.ofLane k))
      = upd e add (g (idxAt idxs h (Shape.ofLane k))) (v (Shape.ofLane k)) :=
  if_pos fun _ => rfl

/-- A lane's write leaves every other place as it was. -/
theorem step_other (idxs : Fin s.rank → IVec ⟨1, d⟩ 32) (v : Vec F ⟨1, d⟩ e) (add : Bool)
    (h : ∀ a x, (idxs a x).toNat < s.size a) (g : Vec F s e) (k : Fin (d 0)) (j : s.Idx)
    (hj : idxAt idxs h (Shape.ofLane k) ≠ j) : step idxs v add h g k j = g j :=
  if_neg fun hall => hj (funext fun a => Fin.ext (hall a).symm)

/-- The unmasked store is the fold of the lanes' writes over all the lanes, in ascending order. -/
theorem storeIdx_eq_foldl (f : Vec F s e) (idxs : Fin s.rank → IVec ⟨1, d⟩ 32) (v : Vec F ⟨1, d⟩ e) (add : Bool)
    (h : ∀ a x, (idxs a x).toNat < s.size a) :
    storeIdx f idxs v (fun _ => 1#1) add h = (List.finRange (d 0)).foldl (step idxs v add h) f := by
  unfold storeIdx
  congr 1

/-- Folding the writes of a list of lanes leaves a place that none of them names as it was. -/
theorem foldl_miss (idxs : Fin s.rank → IVec ⟨1, d⟩ 32) (v : Vec F ⟨1, d⟩ e) (add : Bool)
    (h : ∀ a x, (idxs a x).toNat < s.size a) (j : s.Idx) :
    ∀ (l : List (Fin (d 0))) (f : Vec F s e), (∀ k ∈ l, idxAt idxs h (Shape.ofLane k) ≠ j) →
      l.foldl (step idxs v add h) f j = f j
  | [], _, _ => rfl
  | k :: l, f, hl => by
    rw [List.foldl_cons, foldl_miss idxs v add h j l _ fun k' hk' => hl k' (List.mem_cons_of_mem _ hk')]
    exact step_other idxs v add h f k j (hl k List.mem_cons_self)

/-- Folding the writes of a list of pairwise different lanes that name pairwise different places: the place a lane of
    the list names holds that lane's update of the element the fold started from. -/
theorem foldl_hit (idxs : Fin s.rank → IVec ⟨1, d⟩ 32) (v : Vec F ⟨1, d⟩ e) (add : Bool)
    (h : ∀ a x, (idxs a x).toNat < s.size a)
    (hinj : ∀ k k' : Fin (d 0), idxAt idxs h (Shape.ofLane k) = idxAt idxs h (Shape.ofLane k') → k = k')
    (k : Fin (d 0)) :
    ∀ (l : List (Fin (d 0))) (f : Vec F s e), l.Nodup → k ∈ l →
      l.foldl (step idxs v add h) f (idxAt idxs h (Shape.ofLane k))
        = upd e add (f (idxAt idxs h (Shape.ofLane k))) (v (Shape.ofLane k))
  | [], _, _, hk => absurd hk List.not_mem_nil
  | k0 :: l, f, hnd, hk => by
    rw [List.foldl_cons]
    rw [List.nodup_cons] at hnd
    rcases List.mem_cons.mp hk with rfl | hkl
    · -- the lane is the head: the later lanes name other places
      rw [foldl_miss idxs v add h _ l _ fun k' hk' heq => hnd.1 (hinj k' k heq ▸ hk')]
      exact step_same idxs v add h f k
    · -- the lane is in the tail: the head names another place
      have hne : idxAt idxs h (Shape.ofLane k0) ≠ idxAt idxs h (Shape.ofLane k) :=
        fun heq => hnd.1 (hinj k0 k heq ▸ hkl)
      rw [foldl_hit idxs v add h hinj k l _ hnd.2 hkl, step_other idxs v add h f k0 _ hne]

/-! ## The store read at a place -/

/-- An unmasked indexed store whose lanes name pairwise distinct places, read at the place lane k names: lane k's
    element, or with the add flag the old element plus lane k's element. -/
theorem storeIdx_hit (f : Vec F s e) (idxs : Fin s.rank → IVec ⟨1, d⟩ 32) (v : Vec F ⟨1, d⟩ e) (add : Bool)
    (h : ∀ a x, (idxs a x).toNat < s.size a)
    (hinj : ∀ k k' : Fin (d 0), idxAt idxs h (Shape.ofLane k) = idxAt idxs h (Shape.ofLane k') → k = k')
    (k : Fin (d 0)) :
    storeIdx f idxs v (fun _ => 1#1) add h (idxAt idxs h (Shape.ofLane k))
      = (if add then Elt.idxAdd e (f (idxAt idxs h (Shape.ofLane k))) (v (Shape.ofLane k)) else v (Shape.ofLane k)) := by
  rw [storeIdx_eq_foldl]
  exact foldl_hit idxs v add h hinj k _ f (List.nodup_finRange _) (List.mem_finRange k)

/-- An unmasked indexed store read at a place that no lane names: the old element. -/
theorem storeIdx_miss (f : Vec F s e) (idxs : Fin s.rank → IVec ⟨1, d⟩ 32) (v : Vec F ⟨1, d⟩ e) (add : Bool)
    (h : ∀ a x, (idxs a x).toNat < s.size a) (j : s.Idx)
    (hj : ∀ k : Fin (d 0), idxAt idxs h (Shape.ofLane k) ≠ j) :
    storeIdx f idxs v (fun _ => 1#1) add h j = f j := by
  rw [storeIdx_eq_foldl]
  exact foldl_miss idxs v add h j _ f fun k _ => hj k

/-! ## Lanes as multi-indices of the rank-one vector shape -/

/-- Every multi-index of a rank-one shape is the lane of its one coordinate. -/
theorem ofLane_coord (x : (⟨1, d⟩ : Shape).Idx) : Shape.ofLane (x 0) = x := by
  funext a
  obtain rfl : a = 0 := Fin.eq_zero a
  rfl

/-- The one coordinate of lane k is k. -/
theorem ofLane_zero (k : Fin (d 0)) : (Shape.ofLane k : (⟨1, d⟩ : Shape).Idx) 0 = k := rfl

/-- The store of pairwise distinct places read at the place a lane x names, the lane given as a multi-index. -/
theorem storeIdx_hit_idx (f : Vec F s e) (idxs : Fin s.rank → IVec ⟨1, d⟩ 32) (v : Vec F ⟨1, d⟩ e) (add : Bool)
    (h : ∀ a x, (idxs a x).toNat < s.size a)
    (hinj : ∀ x x' : (⟨1, d⟩ : Shape).Idx, idxAt idxs h x = idxAt idxs h x' → x = x')
    (x : (⟨1, d⟩ : Shape).Idx) :
    storeIdx f idxs v (fun _ => 1#1) add h (idxAt idxs h x)
      = (if add then Elt.idxAdd e (f (idxAt idxs h x)) (v x) else v x) := by
  have := storeIdx_hit f idxs v add h
    (fun k k' hk => by have := congrFun (hinj _ _ hk) 0; exact this) (x 0)
  rwa [ofLane_coord] at this

/-- The store read at a place no lane names, the lanes given as multi-indices. -/
theorem storeIdx_miss_idx (f : Vec F s e) (idxs : Fin s.rank → IVec ⟨1, d⟩ 32) (v : Vec F ⟨1, d⟩ e) (add : Bool)
    (h : ∀ a x, (idxs a x).toNat < s.size a) (j : s.Idx)
    (hj : ∀ x : (⟨1, d⟩ : Shape).Idx, idxAt idxs h x ≠ j) :
    storeIdx f idxs v (fun _ => 1#1) add h j = f j :=
  storeIdx_miss f idxs v add h j fun k => hj _

/-! ## A base array of one axis: places are natural numbers -/

section RankOne
variable {n : Nat}

/-- On a base of one axis the place lane x names is the natural number its index word reads as. -/
theorem idxAt_ix1 (idxs : Fin (⟨1, ![n]⟩ : Shape).rank → IVec ⟨1, d⟩ 32)
    (h : ∀ a x, (idxs a x).toNat < (⟨1, ![n]⟩ : Shape).size a) (x : (⟨1, d⟩ : Shape).Idx) :
    idxAt idxs h x = ix1 ⟨(idxs 0 x).toNat, h 0 x⟩ := by
  funext a
  obtain rfl : a = 0 := Fin.eq_zero a
  rfl

/-- Two places of a one-axis base are equal exactly when their numbers are. -/
theorem ix1_inj {p q : Nat} (hp : p < n) (hq : q < n) : (ix1 ⟨p, hp⟩ : (⟨1, ![n]⟩ : Shape).Idx) = ix1 ⟨q, hq⟩ ↔ p = q :=
  ⟨fun hpq => congrArg Fin.val (congrFun hpq 0), fun hpq => by subst hpq; rfl⟩

/-- The indexed load on a one-axis base: lane x reads the element at the number its index word reads as. -/
theorem loadIdx_ix1 (f : Vec F (⟨1, ![n]⟩ : Shape) e) (idxs : Fin (⟨1, ![n]⟩ : Shape).rank → IVec ⟨1, d⟩ 32)
    (h : ∀ a x, (idxs a x).toNat < (⟨1, ![n]⟩ : Shape).size a) (x : (⟨1, d⟩ : Shape).Idx) :
    loadIdx f idxs h x = f (ix1 ⟨(idxs 0 x).toNat, h 0 x⟩) :=
  congrArg f (idxAt_ix1 idxs h x)

/-- Pairwise distinct index words: the store on a one-axis base read at the number p that lane x's index word reads as
    is lane x's element, or with the add flag the old element at p plus it. -/
theorem storeIdx_hit_ix1 (f : Vec F (⟨1, ![n]⟩ : Shape) e) (idxs : Fin (⟨1, ![n]⟩ : Shape).rank → IVec ⟨1, d⟩ 32)
    (v : Vec F ⟨1, d⟩ e) (add : Bool) (h : ∀ a x, (idxs a x).toNat < (⟨1, ![n]⟩ : Shape).size a)
    (hinj : ∀ x x' : (⟨1, d⟩ : Shape).Idx, (idxs 0 x).toNat = (idxs 0 x').toNat → x = x')
    (x : (⟨1, d⟩ : Shape).Idx) (p : Nat) (hp : p < n) (hpx : p = (idxs 0 x).toNat) :
    storeIdx f idxs v (fun _ => 1#1) add h (ix1 ⟨p, hp⟩)
      = (if add then Elt.idxAdd e (f (ix1 ⟨p, hp⟩)) (v x) else v x) := by
  subst hpx
  have := storeIdx_hit_idx f idxs v add h
    (fun x x' hxx => hinj x x' (by rw [idxAt_ix1, idxAt_ix1] at hxx; exact (ix1_inj _ _).mp hxx)) x
  rwa [idxAt_ix1] at this

/-- The store on a one-axis base read at a number p that no lane's index word reads as: the old element at p. -/
theorem storeIdx_miss_ix1 (f : Vec F (⟨1, ![n]⟩ : Shape) e) (idxs : Fin (⟨1, ![n]⟩ : Shape).rank → IVec ⟨1, d⟩ 32)
    (v : Vec F ⟨1, d⟩ e) (add : Bool) (h : ∀ a x, (idxs a x).toNat < (⟨1, ![n]⟩ : Shape).size a)
    (p : Nat) (hp : p < n) (hpx : ∀ x : (⟨1, d⟩ : Shape).Idx, (idxs 0 x).toNat ≠ p) :
    storeIdx f idxs v (fun _ => 1#1) add h (ix1 ⟨p, hp⟩) = f (ix1 ⟨p, hp⟩) :=
  storeIdx_miss_idx f idxs v add h _ fun x hx => hpx x (by rw [idxAt_ix1] at hx; exact (ix1_inj _ _).mp hx)

/-! ### The index vector given as one vector of words

A base of one axis takes one index vector; written as the one-element family of a vector iv of words, its lane x
names the number the word iv x reads as. -/

/-- The load through one vector of index words. -/
theorem loadIdx_vec (f : Vec F (⟨1, ![n]⟩ : Shape) e) (iv : IVec ⟨1, d⟩ 32)
    (h : ∀ a x, ((![iv] : Fin 1 → IVec ⟨1, d⟩ 32) a x).toNat < (⟨1, ![n]⟩ : Shape).size a) (x : (⟨1, d⟩ : Shape).Idx) :
    loadIdx f (![iv] : Fin 1 → IVec ⟨1, d⟩ 32) h x = f (ix1 ⟨(iv x).toNat, h 0 x⟩) :=
  loadIdx_ix1 f _ h x

/-- The store through one vector of pairwise distinct index words, read at the number lane x's word reads as. -/
theorem storeIdx_hit_vec (f : Vec F (⟨1, ![n]⟩ : Shape) e) (iv : IVec ⟨1, d⟩ 32) (v : Vec F ⟨1, d⟩ e) (add : Bool)
    (h : ∀ a x, ((![iv] : Fin 1 → IVec ⟨1, d⟩ 32) a x).toNat < (⟨1, ![n]⟩ : Shape).size a)
    (hinj : ∀ x x' : (⟨1, d⟩ : Shape).Idx, (iv x).toNat = (iv x').toNat → x = x')
    (x : (⟨1, d⟩ : Shape).Idx) (p : Nat) (hp : p < n) (hpx : p = (iv x).toNat) :
    storeIdx f (![iv] : Fin 1 → IVec ⟨1, d⟩ 32) v (fun _ => 1#1) add h (ix1 ⟨p, hp⟩)
      = (if add then Elt.idxAdd e (f (ix1 ⟨p, hp⟩)) (v x) else v x) :=
  storeIdx_hit_ix1 f _ v add h hinj x p hp hpx

/-- The store through one vector of index words, read at a number no lane's word reads as. -/
theorem storeIdx_miss_vec (f : Vec F (⟨1, ![n]⟩ : Shape) e) (iv : IVec ⟨1, d⟩ 32) (v : Vec F ⟨1, d⟩ e) (add : Bool)
    (h : ∀ a x, ((![iv] : Fin 1 → IVec ⟨1, d⟩ 32) a x).toNat < (⟨1, ![n]⟩ : Shape).size a)
    (p : Nat) (hp : p < n) (hpx : ∀ x : (⟨1, d⟩ : Shape).Idx, (iv x).toNat ≠ p) :
    storeIdx f (![iv] : Fin 1 → IVec ⟨1, d⟩ 32) v (fun _ => 1#1) add h (ix1 ⟨p, hp⟩) = f (ix1 ⟨p, hp⟩) :=
  storeIdx_miss_ix1 f _ v add h p hp hpx

end RankOne

end Cert.Proof.LibStoreIdx
-- ==== Proof.KI.Trips.lean ====
/-
  One trip of each of the kernel's three indexed loops, read at one place of the array it updates.

  Each trip does three unmasked indexed stores, one per component c = 0, 1, 2, whose sixteen lanes name sixteen
  different places; so each store, read at a place, is the update by the one lane naming the place, or nothing.

  * In the count loop and the band loop a place of the 1536-word array is r * 96 + q with r a lane and q < 96 a slot. Store c names
    r' * 96 + band(r') * 3 + c at lane r'; as band * 3 + c < 96, it names r * 96 + q exactly at lane r' = r and exactly
    when band(r) * 3 + c = q. So over the three stores the place is touched at most once: when band(r) = q / 3, by the
    store c = q % 3, and then the old element is added to once.
  * In the segment loop store c of trip k names k * 48 + r' * 3 + c at lane r'. A place p inside the trip's window of 48
    words is named by exactly one store at exactly one lane, r' = (p - k * 48) / 3 and c = (p - k * 48) % 3; a place
    outside the window by none.

  The gathered vectors are the source array read at vertex * 3 + c.
-/
import proofs.«203378_g9921374454198_cont_sun_m_1167_43_alg».proof.Proof.KI.IdxPay
import proofs.«203378_g9921374454198_cont_sun_m_1167_43_alg».proof.Proof.LibStoreIdx
import proofs.«203378_g9921374454198_cont_sun_m_1167_43_alg».proof.Proof.KModel

noncomputable section

namespace Cert.Proof.KI.Trips

open Cert.KernelIdeal Cert.KernelIdeal.Gen Idealize.ShloMosaic Idealize.ShloMosaic.ValueIdx
open Cert.Proof.LibStoreIdx Cert.Proof.KI.Idx

variable {F : FTy → Type} [FloatOps F]

/-! ## One store read at a place -/

/-- The same element of an array, its number written in two ways. -/
theorem at_congr {n : Nat} {e : EltTy} (f : Vec F (⟨1, ![n]⟩ : Shape) e) {m m' : Nat} (hm : m < n) (hm' : m' < n)
    (h : m = m') : f (ix1 ⟨m, hm⟩) = f (ix1 ⟨m', hm'⟩) := by
  subst h; rfl

/-- The gather read at a lane whose index word reads as m. -/
theorem load_at {n : Nat} {e : EltTy} (f : Vec F (⟨1, ![n]⟩ : Shape) e) (iv : IVec S16 32)
    (h : ∀ a x, ((![iv] : Fin 1 → IVec S16 32) a x).toNat < (⟨1, ![n]⟩ : Shape).size a) (x : S16.Idx)
    (m : Nat) (hm : m < n) (hx : (iv x).toNat = m) :
    loadIdx f (![iv] : Fin 1 → IVec S16 32) h x = f (ix1 ⟨m, hm⟩) := by
  rw [loadIdx_vec]
  exact at_congr f _ hm hx

/-- A store into the 1536-word array whose lane r' names r' * 96 + w(r') * 3 + c, with w(r') * 3 + c < 96: the place
    r * 96 + q is named exactly by lane r, and exactly when w(r) * 3 + c = q. -/
theorem store96_at {e : EltTy} (f : Vec F S1536 e) (iv : IVec S16 32) (val : Vec F S16 e) (add : Bool)
    (h : ∀ a x, ((![iv] : Fin 1 → IVec S16 32) a x).toNat < S1536.size a)
    (w : S16.Idx → Nat) (c : Nat) (hc : c ≤ 2) (hw : ∀ x, w x ≤ 31)
    (hiv : ∀ x, (iv x).toNat = (x 0).val * 96 + w x * 3 + c)
    (r q : Nat) (hr : r < 16) (hq : q < 96) (hP : r * 96 + q < 1536) :
    storeIdx f (![iv] : Fin 1 → IVec S16 32) val (fun _ => 1#1) add h (ix1 ⟨r * 96 + q, hP⟩)
      = if w (ix1 ⟨r, hr⟩) * 3 + c = q then
          (if add then Elt.idxAdd e (f (ix1 ⟨r * 96 + q, hP⟩)) (val (ix1 ⟨r, hr⟩)) else val (ix1 ⟨r, hr⟩))
        else f (ix1 ⟨r * 96 + q, hP⟩) := by
  have hinj : ∀ x x' : S16.Idx, (iv x).toNat = (iv x').toNat → x = x' := fun x x' hxx => by
    rw [hiv x, hiv x'] at hxx
    have := hw x; have := hw x'
    exact lane_ext (by omega)
  by_cases hcq : w (ix1 ⟨r, hr⟩) * 3 + c = q
  · rw [if_pos hcq]
    refine storeIdx_hit_vec f iv val add h hinj (ix1 ⟨r, hr⟩) _ hP ?_
    rw [hiv]
    show r * 96 + q = r * 96 + w (ix1 ⟨r, hr⟩) * 3 + c
    omega
  · rw [if_neg hcq]
    refine storeIdx_miss_vec f iv val add h _ hP fun x hx => ?_
    rw [hiv] at hx
    have := hw x
    have hxr : (x 0).val = r := by omega
    obtain rfl : x = ix1 ⟨r, hr⟩ := lane_ext hxr
    exact hcq (by omega)

/-- A store into the 24672-word array whose lane r' names K + r' * 3 + c: the place K + r * 3 + c' of the window is
    named exactly by lane r, and exactly when c' = c. -/
theorem store3_at {e : EltTy} (f : Vec F S24672 e) (iv : IVec S16 32) (val : Vec F S16 e) (add : Bool)
    (h : ∀ a x, ((![iv] : Fin 1 → IVec S16 32) a x).toNat < S24672.size a)
    (K c : Nat) (hc : c ≤ 2) (hiv : ∀ x, (iv x).toNat = K + (x 0).val * 3 + c)
    (p : Nat) (hp : p < 24672) (r c' : Nat) (hr : r < 16) (hc' : c' ≤ 2) (hpe : p = K + r * 3 + c') :
    storeIdx f (![iv] : Fin 1 → IVec S16 32) val (fun _ => 1#1) add h (ix1 ⟨p, hp⟩)
      = if c' = c then
          (if add then Elt.idxAdd e (f (ix1 ⟨p, hp⟩)) (val (ix1 ⟨r, hr⟩)) else val (ix1 ⟨r, hr⟩))
        else f (ix1 ⟨p, hp⟩) := by
  have hinj : ∀ x x' : S16.Idx, (iv x).toNat = (iv x').toNat → x = x' := fun x x' hxx => by
    rw [hiv x, hiv x'] at hxx
    exact lane_ext (by omega)
  by_cases hcc : c' = c
  · rw [if_pos hcc]
    refine storeIdx_hit_vec f iv val add h hinj (ix1 ⟨r, hr⟩) _ hp ?_
    rw [hiv]
    show p = K + r * 3 + c
    omega
  · rw [if_neg hcc]
    refine storeIdx_miss_vec f iv val add h _ hp fun x hx => ?_
    rw [hiv] at hx
    omega

/-- The same store read outside the window of 48 words from K: no lane names the place. -/
theorem store3_out {e : EltTy} (f : Vec F S24672 e) (iv : IVec S16 32) (val : Vec F S16 e) (add : Bool)
    (h : ∀ a x, ((![iv] : Fin 1 → IVec S16 32) a x).toNat < S24672.size a)
    (K c : Nat) (hc : c ≤ 2) (hiv : ∀ x, (iv x).toNat = K + (x 0).val * 3 + c)
    (p : Nat) (hp : p < 24672) (hout : p < K ∨ K + 48 ≤ p) :
    storeIdx f (![iv] : Fin 1 → IVec S16 32) val (fun _ => 1#1) add h (ix1 ⟨p, hp⟩) = f (ix1 ⟨p, hp⟩) := by
  refine storeIdx_miss_vec f iv val add h _ hp fun x hx => ?_
  rw [hiv] at hx
  have := lane_lt x
  omega

/-! ## The count loop -/

/-- The stored vector of ones, at a lane. -/
theorem pay32_apply (x : S16.Idx) : (k0_pay32 : FVec F S16 .f32) x = KModel.oneF := rfl

/-- One trip of the count loop, read at place r * 96 + q: the three add-stores of the vector of ones add one, once,
    when lane r's band is q / 3 (the store of component q % 3 does it), and nothing otherwise. -/
theorem cnt_trip (f : Vec F S1536 .f32) (v : Vec F S16 .i32) (hv : ∀ x, (v x).toNat ≤ 31)
    (h1 : ∀ a x, ((![k0_pay34 v] : Fin 1 → IVec S16 32) a x).toNat < S1536.size a)
    (h2 : ∀ a x, ((![k0_pay35 v] : Fin 1 → IVec S16 32) a x).toNat < S1536.size a)
    (h3 : ∀ a x, ((![k0_pay36 v] : Fin 1 → IVec S16 32) a x).toNat < S1536.size a)
    (r q : Nat) (hr : r < 16) (hq : q < 96) :
    storeIdx (storeIdx (storeIdx f ![k0_pay34 v] k0_pay32 (fun _ => 1#1) true h1)
        ![k0_pay35 v] k0_pay32 (fun _ => 1#1) true h2)
        ![k0_pay36 v] k0_pay32 (fun _ => 1#1) true h3 (ix1 ⟨r * 96 + q, by omega⟩)
      = if (v (ix1 ⟨r, hr⟩)).toNat = q / 3 then FloatOps.idxAddf (f (ix1 ⟨r * 96 + q, by omega⟩)) KModel.oneF
        else f (ix1 ⟨r * 96 + q, by omega⟩) := by
  have hb := hv (ix1 ⟨r, hr⟩)
  rw [store96_at (e := .f32) _ (k0_pay36 v) (k0_pay32 (F := F)) true h3 (fun x => (v x).toNat) 2 (by omega) hv
        (fun x => pay36_toNat v x (hv x)) r q hr hq,
      store96_at (e := .f32) _ (k0_pay35 v) (k0_pay32 (F := F)) true h2 (fun x => (v x).toNat) 1 (by omega) hv
        (fun x => pay35_toNat v x (hv x)) r q hr hq,
      store96_at (e := .f32) _ (k0_pay34 v) (k0_pay32 (F := F)) true h1 (fun x => (v x).toNat) 0 (by omega) hv
        (fun x => pay34_toNat v x (hv x)) r q hr hq]
  simp only [if_true, Elt.idxAdd_f32, pay32_apply]
  split_ifs <;> first | rfl | (exfalso; omega)

/-! ## The band loop -/

/-- One trip of the band loop, read at place r * 96 + q: when lane r's band is q / 3, coordinate q % 3 of lane r's
    vertex is added, once; otherwise nothing. -/
theorem band_trip (acc : Vec F S1536 .f32) (slab : Vec F S31425 .f32) (bvv bidv : Vec F S16 .i32)
    (hbv : ∀ x, (bvv x).toNat ≤ 10474) (hbid : ∀ x, (bidv x).toNat ≤ 31)
    (hl0 : ∀ a x, ((![k0_pay12 bvv] : Fin 1 → IVec S16 32) a x).toNat < S31425.size a)
    (hl1 : ∀ a x, ((![k0_pay14 bvv] : Fin 1 → IVec S16 32) a x).toNat < S31425.size a)
    (hl2 : ∀ a x, ((![k0_pay16 bvv] : Fin 1 → IVec S16 32) a x).toNat < S31425.size a)
    (hs0 : ∀ a x, ((![k0_pay13 k0_pay30 bidv] : Fin 1 → IVec S16 32) a x).toNat < S1536.size a)
    (hs1 : ∀ a x, ((![k0_pay15 k0_pay30 bidv] : Fin 1 → IVec S16 32) a x).toNat < S1536.size a)
    (hs2 : ∀ a x, ((![k0_pay17 k0_pay30 bidv] : Fin 1 → IVec S16 32) a x).toNat < S1536.size a)
    (r q : Nat) (hr : r < 16) (hq : q < 96) :
    storeIdx (storeIdx (storeIdx acc ![k0_pay13 k0_pay30 bidv] (loadIdx slab ![k0_pay12 bvv] hl0) (fun _ => 1#1) true hs0)
        ![k0_pay15 k0_pay30 bidv] (loadIdx slab ![k0_pay14 bvv] hl1) (fun _ => 1#1) true hs1)
        ![k0_pay17 k0_pay30 bidv] (loadIdx slab ![k0_pay16 bvv] hl2) (fun _ => 1#1) true hs2 (ix1 ⟨r * 96 + q, by omega⟩)
      = if (bidv (ix1 ⟨r, hr⟩)).toNat = q / 3 then
          FloatOps.idxAddf (acc (ix1 ⟨r * 96 + q, by omega⟩))
            (slab (ix1 ⟨(bvv (ix1 ⟨r, hr⟩)).toNat * 3 + q % 3, by have := hbv (ix1 ⟨r, hr⟩); omega⟩))
        else acc (ix1 ⟨r * 96 + q, by omega⟩) := by
  have hb := hbid (ix1 ⟨r, hr⟩)
  have hvx := hbv (ix1 ⟨r, hr⟩)
  rw [store96_at _ (k0_pay17 k0_pay30 bidv) _ true hs2 (fun x => (bidv x).toNat) 2 (by omega) hbid
        (fun x => pay17_toNat bidv x (hbid x)) r q hr hq,
      store96_at _ (k0_pay15 k0_pay30 bidv) _ true hs1 (fun x => (bidv x).toNat) 1 (by omega) hbid
        (fun x => pay15_toNat bidv x (hbid x)) r q hr hq,
      store96_at _ (k0_pay13 k0_pay30 bidv) _ true hs0 (fun x => (bidv x).toNat) 0 (by omega) hbid
        (fun x => pay13_toNat bidv x (hbid x)) r q hr hq,
      load_at slab (k0_pay12 bvv) hl0 (ix1 ⟨r, hr⟩) ((bvv (ix1 ⟨r, hr⟩)).toNat * 3 + 0) (by omega)
        (pay12_toNat bvv _ hvx),
      load_at slab (k0_pay14 bvv) hl1 (ix1 ⟨r, hr⟩) ((bvv (ix1 ⟨r, hr⟩)).toNat * 3 + 1) (by omega)
        (pay14_toNat bvv _ hvx),
      load_at slab (k0_pay16 bvv) hl2 (ix1 ⟨r, hr⟩) ((bvv (ix1 ⟨r, hr⟩)).toNat * 3 + 2) (by omega)
        (pay16_toNat bvv _ hvx)]
  simp only [if_true, Elt.idxAdd_f32]
  split_ifs <;> first | rfl | (exfalso; omega) | (congr 1; exact at_congr slab _ _ (by omega))

/-! ## The segment loop -/

/-- One trip of the segment loop, read at place p: inside the trip's window of 48 words from k * 48 the place holds
    coordinate (p - k * 48) % 3 of the vertex of lane (p - k * 48) / 3; outside it the place is as before. -/
theorem seg_trip (outb : Vec F S24672 .f32) (slab : Vec F S31425 .f32) (segv : Vec F S16 .i32)
    (hseg : ∀ x, (segv x).toNat ≤ 10474) (k : Fin k0_t5_loop.trips)
    (hl0 : ∀ a x, ((![k0_pay4 segv] : Fin 1 → IVec S16 32) a x).toNat < S31425.size a)
    (hl1 : ∀ a x, ((![k0_pay6 segv] : Fin 1 → IVec S16 32) a x).toNat < S31425.size a)
    (hl2 : ∀ a x, ((![k0_pay8 segv] : Fin 1 → IVec S16 32) a x).toNat < S31425.size a)
    (hs0 : ∀ a x, ((![k0_pay5 (iota .scVector S16 32 [0] iota_S16_d0_w32_scVector) k] : Fin 1 → IVec S16 32) a x).toNat < S24672.size a)
    (hs1 : ∀ a x, ((![k0_pay7 (iota .scVector S16 32 [0] iota_S16_d0_w32_scVector) k] : Fin 1 → IVec S16 32) a x).toNat < S24672.size a)
    (hs2 : ∀ a x, ((![k0_pay9 (iota .scVector S16 32 [0] iota_S16_d0_w32_scVector) k] : Fin 1 → IVec S16 32) a x).toNat < S24672.size a)
    (p : Nat) (hp : p < 24672) :
    storeIdx (storeIdx (storeIdx outb ![k0_pay5 (iota .scVector S16 32 [0] iota_S16_d0_w32_scVector) k] (loadIdx slab ![k0_pay4 segv] hl0) (fun _ => 1#1) false hs0)
        ![k0_pay7 (iota .scVector S16 32 [0] iota_S16_d0_w32_scVector) k] (loadIdx slab ![k0_pay6 segv] hl1) (fun _ => 1#1) false hs1)
        ![k0_pay9 (iota .scVector S16 32 [0] iota_S16_d0_w32_scVector) k] (loadIdx slab ![k0_pay8 segv] hl2) (fun _ => 1#1) false hs2 (ix1 ⟨p, hp⟩)
      = if hwin : k.val * 48 ≤ p ∧ p < k.val * 48 + 48 then
          slab (ix1 ⟨(segv (ix1 ⟨(p - k.val * 48) / 3, by omega⟩)).toNat * 3 + (p - k.val * 48) % 3,
            by have := hseg (ix1 ⟨(p - k.val * 48) / 3, by omega⟩); omega⟩)
        else outb (ix1 ⟨p, hp⟩) := by
  by_cases hwin : k.val * 48 ≤ p ∧ p < k.val * 48 + 48
  · rw [dif_pos hwin]
    have hr : (p - k.val * 48) / 3 < 16 := by omega
    have hc' : (p - k.val * 48) % 3 ≤ 2 := by omega
    have hpe : p = k.val * 48 + (p - k.val * 48) / 3 * 3 + (p - k.val * 48) % 3 := by omega
    have hvx := hseg (ix1 ⟨(p - k.val * 48) / 3, hr⟩)
    rw [store3_at _ (k0_pay9 (iota .scVector S16 32 [0] iota_S16_d0_w32_scVector) k) _ false hs2 (k.val * 48) 2 (by omega) (fun x => pay9_toNat k x) p hp _ _ hr hc' hpe,
        store3_at _ (k0_pay7 (iota .scVector S16 32 [0] iota_S16_d0_w32_scVector) k) _ false hs1 (k.val * 48) 1 (by omega) (fun x => pay7_toNat k x) p hp _ _ hr hc' hpe,
        store3_at _ (k0_pay5 (iota .scVector S16 32 [0] iota_S16_d0_w32_scVector) k) _ false hs0 (k.val * 48) 0 (by omega) (fun x => pay5_toNat k x) p hp _ _ hr hc' hpe,
        load_at slab (k0_pay4 segv) hl0 (ix1 ⟨(p - k.val * 48) / 3, hr⟩) _ (by omega) (pay4_toNat segv _ hvx),
        load_at slab (k0_pay6 segv) hl1 (ix1 ⟨(p - k.val * 48) / 3, hr⟩) _ (by omega) (pay6_toNat segv _ hvx),
        load_at slab (k0_pay8 segv) hl2 (ix1 ⟨(p - k.val * 48) / 3, hr⟩) _ (by omega) (pay8_toNat segv _ hvx)]
    simp only [Bool.false_eq_true, if_false]
    split_ifs <;> first | (exfalso; omega) | exact at_congr slab _ _ (by omega)
  · rw [dif_neg hwin]
    have hout : p < k.val * 48 ∨ k.val * 48 + 48 ≤ p := by omega
    rw [store3_out _ (k0_pay9 (iota .scVector S16 32 [0] iota_S16_d0_w32_scVector) k) _ false hs2 (k.val * 48) 2 (by omega) (fun x => pay9_toNat k x) p hp hout,
        store3_out _ (k0_pay7 (iota .scVector S16 32 [0] iota_S16_d0_w32_scVector) k) _ false hs1 (k.val * 48) 1 (by omega) (fun x => pay7_toNat k x) p hp hout,
        store3_out _ (k0_pay5 (iota .scVector S16 32 [0] iota_S16_d0_w32_scVector) k) _ false hs0 (k.val * 48) 0 (by omega) (fun x => pay5_toNat k x) p hp hout]

end Cert.Proof.KI.Trips
-- ==== Proof.KI.LoopSeg.lean ====
/-
  One trip of the segment loop, from the loop's invariant after k trips to the invariant after k + 1 trips.

  The trip loads sixteen vertex numbers (words 16 * k, …, 16 * k + 15 of the segment table), gathers the three
  coordinates of each from the staged vertex row, and stores them at words 48 * k, …, 48 * k + 47 of the row being
  assembled: word p of that window receives coordinate p % 3 of vertex number p / 3 of the table, and the words below
  the window stay as they were.
-/
import proofs.«203378_g9921374454198_cont_sun_m_1167_43_alg».proof.Proof.KI.Inv
import proofs.«203378_g9921374454198_cont_sun_m_1167_43_alg».proof.Proof.KI.Views
import proofs.«203378_g9921374454198_cont_sun_m_1167_43_alg».proof.Proof.KI.Trips

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "V0W" => (Memref.whole Cert.KernelIdeal.main_v0_scv : Memref Cert.KernelIdeal.sig Kind.scVector Space.hbm Cert.KernelIdeal.S1024x31425 EltTy.f32)
local notation "A1W" => (Memref.whole Cert.KernelIdeal.main_arg1_scv : Memref Cert.KernelIdeal.sig Kind.scVector Space.hbm Cert.KernelIdeal.S8192 EltTy.i32)
local notation "A2W" => (Memref.whole Cert.KernelIdeal.main_arg2_scv : Memref Cert.KernelIdeal.sig Kind.scVector Space.hbm Cert.KernelIdeal.S4096 EltTy.i32)
local notation "A3W" => (Memref.whole Cert.KernelIdeal.main_arg3_scv : Memref Cert.KernelIdeal.sig Kind.scVector Space.hbm Cert.KernelIdeal.S4096 EltTy.i32)
local notation "V1W" => (Memref.whole Cert.KernelIdeal.main_v1_scv : Memref Cert.KernelIdeal.sig Kind.scVector Space.hbm Cert.KernelIdeal.S1024x24672 EltTy.f32)
local notation "S0W" => (Memref.whole Cert.KernelIdeal.cc0_scratch0 : Memref Cert.KernelIdeal.sig Kind.scVector Space.vmem Cert.KernelIdeal.S31425 EltTy.f32)
local notation "S1W" => (Memref.whole Cert.KernelIdeal.cc0_scratch1 : Memref Cert.KernelIdeal.sig Kind.scVector Space.vmem Cert.KernelIdeal.S24672 EltTy.f32)
local notation "S2W" => (Memref.whole Cert.KernelIdeal.cc0_scratch2 : Memref Cert.KernelIdeal.sig Kind.scVector Space.vmem Cert.KernelIdeal.S8192 EltTy.i32)
local notation "S3W" => (Memref.whole Cert.KernelIdeal.cc0_scratch3 : Memref Cert.KernelIdeal.sig Kind.scVector Space.vmem Cert.KernelIdeal.S4096 EltTy.i32)
local notation "S4W" => (Memref.whole Cert.KernelIdeal.cc0_scratch4 : Memref Cert.KernelIdeal.sig Kind.scVector Space.vmem Cert.KernelIdeal.S4096 EltTy.i32)
local notation "S5W" => (Memref.whole Cert.KernelIdeal.cc0_scratch5 : Memref Cert.KernelIdeal.sig Kind.scVector Space.vmem Cert.KernelIdeal.S96 EltTy.f32)
local notation "S6W" => (Memref.whole Cert.KernelIdeal.cc0_scratch6 : Memref Cert.KernelIdeal.sig Kind.scVector Space.vmem Cert.KernelIdeal.S1536 EltTy.f32)

variable (d : Dev nD) (L : grid0.Coords)

/-! ## The pure step -/

/-- Lane r of the sixteen words loaded at trip k is word 16 * k + r of the table. -/
theorem seg_lane (seg : Vec F S8192 .i32) (k : Fin k0_t5_loop.trips) (r : Nat) (hr : r < 16) :
    BitVec.toNat (((S2W).view.readAt (Elt F) (Rect.unit (s := S8192) (k0_off5 k) S16.size (k0_off5_inb k)).toLoadRect seg) (ix1 ⟨r, hr⟩)) = KModel.wordAt seg (k.val * 16 + r) := by
  have hk : k.val < 512 := Idx.trip_lt k
  have hlt : k.val * 16 + r < 8192 := by omega
  rw [Views.readAt16_s2]
  unfold KModel.wordAt
  rw [dif_pos hlt]
  refine congrArg BitVec.toNat (Trips.at_congr seg _ hlt ?_)
  rw [k0_off5_eq]
  show 16 * k.val + r = k.val * 16 + r
  omega

/-- One trip's three gathers and stores take the row filled below 48 * k to the row filled below 48 * (k + 1). -/
theorem seg_step (X : Vec F S1024x31425 .f32) (b : Nat) (slab : Vec F S31425 .f32) (seg : Vec F S8192 .i32)
    (hseg : ∀ i, (seg i).toNat ≤ 10474) (hslab : SlabIs X b slab) (f : Vec F S24672 .f32) (k : Fin k0_t5_loop.trips)
    (hf : SegAt X seg b f k.val)
    (hl0 : ∀ a x, ((![k0_pay4 ((S2W).view.readAt (Elt F) (Rect.unit (s := S8192) (k0_off5 k) S16.size (k0_off5_inb k)).toLoadRect seg)] : Fin 1 → IVec S16 32) a x).toNat < S31425.size a)
    (hl1 : ∀ a x, ((![k0_pay6 ((S2W).view.readAt (Elt F) (Rect.unit (s := S8192) (k0_off5 k) S16.size (k0_off5_inb k)).toLoadRect seg)] : Fin 1 → IVec S16 32) a x).toNat < S31425.size a)
    (hl2 : ∀ a x, ((![k0_pay8 ((S2W).view.readAt (Elt F) (Rect.unit (s := S8192) (k0_off5 k) S16.size (k0_off5_inb k)).toLoadRect seg)] : Fin 1 → IVec S16 32) a x).toNat < S31425.size a)
    (hs0 : ∀ a x, ((![k0_pay5 (iota .scVector S16 32 [0] iota_S16_d0_w32_scVector) k] : Fin 1 → IVec S16 32) a x).toNat < S24672.size a)
    (hs1 : ∀ a x, ((![k0_pay7 (iota .scVector S16 32 [0] iota_S16_d0_w32_scVector) k] : Fin 1 → IVec S16 32) a x).toNat < S24672.size a)
    (hs2 : ∀ a x, ((![k0_pay9 (iota .scVector S16 32 [0] iota_S16_d0_w32_scVector) k] : Fin 1 → IVec S16 32) a x).toNat < S24672.size a) :
    SegAt X seg b
      (storeIdx (storeIdx (storeIdx f
        ![k0_pay5 (iota .scVector S16 32 [0] iota_S16_d0_w32_scVector) k] (loadIdx slab ![k0_pay4 ((S2W).view.readAt (Elt F) (Rect.unit (s := S8192) (k0_off5 k) S16.size (k0_off5_inb k)).toLoadRect seg)] hl0) (fun _ => 1#1) false hs0)
        ![k0_pay7 (iota .scVector S16 32 [0] iota_S16_d0_w32_scVector) k] (loadIdx slab ![k0_pay6 ((S2W).view.readAt (Elt F) (Rect.unit (s := S8192) (k0_off5 k) S16.size (k0_off5_inb k)).toLoadRect seg)] hl1) (fun _ => 1#1) false hs1)
        ![k0_pay9 (iota .scVector S16 32 [0] iota_S16_d0_w32_scVector) k] (loadIdx slab ![k0_pay8 ((S2W).view.readAt (Elt F) (Rect.unit (s := S8192) (k0_off5 k) S16.size (k0_off5_inb k)).toLoadRect seg)] hl2) (fun _ => 1#1) false hs2)
      (k.val + 1) := by
  have hv : ∀ x, BitVec.toNat (((S2W).view.readAt (Elt F) (Rect.unit (s := S8192) (k0_off5 k) S16.size (k0_off5_inb k)).toLoadRect seg) x) ≤ 10474 := by
    intro x
    rw [Views.readAt16_s2]
    exact hseg _
  intro p hp hlt
  rw [Trips.seg_trip f slab _ hv k hl0 hl1 hl2 hs0 hs1 hs2 p hp]
  by_cases hwin : k.val * 48 ≤ p ∧ p < k.val * 48 + 48
  · rw [dif_pos hwin, hslab, seg_lane seg k _ (by omega)]
    have h3 : p / 3 = k.val * 16 + (p - k.val * 48) / 3 := by omega
    have h4 : p % 3 = (p - k.val * 48) % 3 := by omega
    rw [h3, h4]
  · rw [dif_neg hwin]
    exact hf p hp (by omega)

/-! ## The trip -/

set_option maxHeartbeats 2000000 in
/-- One trip of the segment loop keeps the invariant: the three gathers from the staged row and the three indexed stores
    fill the next 48 words of the row being assembled. -/
theorem trip_seg (X : Vec F S1024x31425 .f32) (b : Nat) (slab : Vec F S31425 .f32) (seg : Vec F S8192 .i32)
    (hseg : ∀ i, (seg i).toNat ≤ 10474) (hslab : SlabIs X b slab) (v1 : BitVec 32) (k3 : Fin k0_t3_loop.trips)
    (k : Fin k0_t5_loop.trips) (acc : BitVec 32) :
    invSeg d L X b slab seg k.val acc ⊢ wp frame (wpE (defs₀ (F := F)) 𝒱₀ (thr d L) none) Set.univ
        (k0_t5_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 v1 (iota .scVector S16 32 [0] iota_S16_d0_w32_scVector) k0_pay30 (k0_pay31 (F := F)) (0#32) (1#32) k3 k acc)
        (invSeg d L X b slab seg (k.val + 1)) := by
  unfold invSeg k0_t5_body
  iintro ⟨⟨%f, %hf, Hs1⟩, Hs0, Hs2⟩
  have hv : ∀ x, (((S2W).view.readAt (Elt F) (Rect.unit (s := S8192) (k0_off5 k) S16.size (k0_off5_inb k)).toLoadRect seg) x).toNat ≤ 10474 := by
    intro x
    rw [Views.readAt16_s2]
    exact hseg _
  sl_exec (disch := first | sl_exact Idx.chk4 _ hv | sl_exact Idx.chk5 k | sl_exact Idx.chk6 _ hv | sl_exact Idx.chk7 k | sl_exact Idx.chk8 _ hv | sl_exact Idx.chk9 k)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk4 _ hv | sl_exact Idx.chk5 k | sl_exact Idx.chk6 _ hv | sl_exact Idx.chk7 k | sl_exact Idx.chk8 _ hv | sl_exact Idx.chk9 k)
  ihave Hs1 := (Entails.of_eq (pts_acc1 (F := F) d L _).symm) $$ Hs1
  iapply (SparseCore.wp_vectorStoreIdx 𝒱₀ (thr d L) none Set.univ (base := S1W)) $$ Hs1; iintro Hs1
  rw [Memref.read_access_whole, Memref.write_access_whole_univ]
  ihave Hs1 := (Entails.of_eq (pts_acc1 (F := F) d L _)) $$ Hs1
  sl_exec (disch := first | sl_exact Idx.chk4 _ hv | sl_exact Idx.chk5 k | sl_exact Idx.chk6 _ hv | sl_exact Idx.chk7 k | sl_exact Idx.chk8 _ hv | sl_exact Idx.chk9 k)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk4 _ hv | sl_exact Idx.chk5 k | sl_exact Idx.chk6 _ hv | sl_exact Idx.chk7 k | sl_exact Idx.chk8 _ hv | sl_exact Idx.chk9 k)
  ihave Hs1 := (Entails.of_eq (pts_acc1 (F := F) d L _).symm) $$ Hs1
  iapply (SparseCore.wp_vectorStoreIdx 𝒱₀ (thr d L) none Set.univ (base := S1W)) $$ Hs1; iintro Hs1
  rw [Memref.read_access_whole, Memref.write_access_whole_univ]
  ihave Hs1 := (Entails.of_eq (pts_acc1 (F := F) d L _)) $$ Hs1
  sl_exec (disch := first | sl_exact Idx.chk4 _ hv | sl_exact Idx.chk5 k | sl_exact Idx.chk6 _ hv | sl_exact Idx.chk7 k | sl_exact Idx.chk8 _ hv | sl_exact Idx.chk9 k)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk4 _ hv | sl_exact Idx.chk5 k | sl_exact Idx.chk6 _ hv | sl_exact Idx.chk7 k | sl_exact Idx.chk8 _ hv | sl_exact Idx.chk9 k)
  ihave Hs1 := (Entails.of_eq (pts_acc1 (F := F) d L _).symm) $$ Hs1
  iapply (SparseCore.wp_vectorStoreIdx 𝒱₀ (thr d L) none Set.univ (base := S1W)) $$ Hs1; iintro Hs1
  rw [Memref.read_access_whole, Memref.write_access_whole_univ]
  ihave Hs1 := (Entails.of_eq (pts_acc1 (F := F) d L _)) $$ Hs1
  sl_exec (disch := first | sl_exact Idx.chk4 _ hv | sl_exact Idx.chk5 k | sl_exact Idx.chk6 _ hv | sl_exact Idx.chk7 k | sl_exact Idx.chk8 _ hv | sl_exact Idx.chk9 k)
  sl_step
  isplitl [Hs1]
  · iexists _
    isplitr [Hs1]
    rotate_left
    · iexact Hs1
    · ipureintro
      exact seg_step X b slab seg hseg hslab f k hf _ _ _ _ _ _
  isplitl [Hs0]
  · iexact Hs0
  iexact Hs2

end Cert.Proof.KI
-- ==== Proof.KI.LoopBand.lean ====
/-
  One trip of the band loop, from the loop's invariant after k trips to the invariant after k + 1 trips.

  The trip loads sixteen pairs (vertex number, band number) — words 16 * k, …, 16 * k + 15 of the two tables —, gathers
  the three coordinates of each vertex from the staged vertex row, and adds them into the 1536 running sums by three
  indexed add-stores. Read at lane r, slot q, the three stores add coordinate q % 3 of the vertex of pair 16 * k + r
  exactly when the pair's band is q / 3: the band-sum model's recursion step.
-/
import proofs.«203378_g9921374454198_cont_sun_m_1167_43_alg».proof.Proof.KI.Inv
import proofs.«203378_g9921374454198_cont_sun_m_1167_43_alg».proof.Proof.KI.Views
import proofs.«203378_g9921374454198_cont_sun_m_1167_43_alg».proof.Proof.KI.Trips

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "V0W" => (Memref.whole Cert.KernelIdeal.main_v0_scv : Memref Cert.KernelIdeal.sig Kind.scVector Space.hbm Cert.KernelIdeal.S1024x31425 EltTy.f32)
local notation "A1W" => (Memref.whole Cert.KernelIdeal.main_arg1_scv : Memref Cert.KernelIdeal.sig Kind.scVector Space.hbm Cert.KernelIdeal.S8192 EltTy.i32)
local notation "A2W" => (Memref.whole Cert.KernelIdeal.main_arg2_scv : Memref Cert.KernelIdeal.sig Kind.scVector Space.hbm Cert.KernelIdeal.S4096 EltTy.i32)
local notation "A3W" => (Memref.whole Cert.KernelIdeal.main_arg3_scv : Memref Cert.KernelIdeal.sig Kind.scVector Space.hbm Cert.KernelIdeal.S4096 EltTy.i32)
local notation "V1W" => (Memref.whole Cert.KernelIdeal.main_v1_scv : Memref Cert.KernelIdeal.sig Kind.scVector Space.hbm Cert.KernelIdeal.S1024x24672 EltTy.f32)
local notation "S0W" => (Memref.whole Cert.KernelIdeal.cc0_scratch0 : Memref Cert.KernelIdeal.sig Kind.scVector Space.vmem Cert.KernelIdeal.S31425 EltTy.f32)
local notation "S1W" => (Memref.whole Cert.KernelIdeal.cc0_scratch1 : Memref Cert.KernelIdeal.sig Kind.scVector Space.vmem Cert.KernelIdeal.S24672 EltTy.f32)
local notation "S2W" => (Memref.whole Cert.KernelIdeal.cc0_scratch2 : Memref Cert.KernelIdeal.sig Kind.scVector Space.vmem Cert.KernelIdeal.S8192 EltTy.i32)
local notation "S3W" => (Memref.whole Cert.KernelIdeal.cc0_scratch3 : Memref Cert.KernelIdeal.sig Kind.scVector Space.vmem Cert.KernelIdeal.S4096 EltTy.i32)
local notation "S4W" => (Memref.whole Cert.KernelIdeal.cc0_scratch4 : Memref Cert.KernelIdeal.sig Kind.scVector Space.vmem Cert.KernelIdeal.S4096 EltTy.i32)
local notation "S5W" => (Memref.whole Cert.KernelIdeal.cc0_scratch5 : Memref Cert.KernelIdeal.sig Kind.scVector Space.vmem Cert.KernelIdeal.S96 EltTy.f32)
local notation "S6W" => (Memref.whole Cert.KernelIdeal.cc0_scratch6 : Memref Cert.KernelIdeal.sig Kind.scVector Space.vmem Cert.KernelIdeal.S1536 EltTy.f32)

variable (d : Dev nD) (L : grid0.Coords)

/-! ## The pure step -/

/-- Lane r of the sixteen vertex numbers loaded at trip k is word 16 * k + r of the vertex table. -/
theorem band_lane_bv (bv : Vec F S4096 .i32) (k : Fin k0_t6_loop.trips) (r : Nat) (hr : r < 16) :
    BitVec.toNat (((S3W).view.readAt (Elt F) (Rect.unit (s := S4096) (k0_off6 k) S16.size (k0_off6_inb k)).toLoadRect bv) (ix1 ⟨r, hr⟩)) = KModel.wordAt bv (k.val * 16 + r) := by
  have hk : k.val < 256 := Nat.lt_of_lt_of_le k.isLt k0_t6_abs.2.1
  have hlt : k.val * 16 + r < 4096 := by omega
  rw [Views.readAt16_s3]
  unfold KModel.wordAt
  rw [dif_pos hlt]
  refine congrArg BitVec.toNat (Trips.at_congr bv _ hlt ?_)
  rw [k0_off6_eq]
  show 16 * k.val + r = k.val * 16 + r
  omega

/-- Lane r of the sixteen band numbers loaded at trip k is word 16 * k + r of the band table. -/
theorem band_lane_bid (bid : Vec F S4096 .i32) (k : Fin k0_t6_loop.trips) (r : Nat) (hr : r < 16) :
    BitVec.toNat (((S4W).view.readAt (Elt F) (Rect.unit (s := S4096) (k0_off6 k) S16.size (k0_off6_inb k)).toLoadRect bid) (ix1 ⟨r, hr⟩)) = KModel.wordAt bid (k.val * 16 + r) := by
  have hk : k.val < 256 := Nat.lt_of_lt_of_le k.isLt k0_t6_abs.2.1
  have hlt : k.val * 16 + r < 4096 := by omega
  rw [Views.readAt16_s4]
  unfold KModel.wordAt
  rw [dif_pos hlt]
  refine congrArg BitVec.toNat (Trips.at_congr bid _ hlt ?_)
  rw [k0_off6_eq]
  show 16 * k.val + r = k.val * 16 + r
  omega

/-- One trip's three gathers and add-stores take the band sums after k steps to the band sums after k + 1 steps. -/
theorem band_step (X : Vec F S1024x31425 .f32) (b : Nat) (slab : Vec F S31425 .f32) (bv bid : Vec F S4096 .i32)
    (hbv : ∀ i, (bv i).toNat ≤ 10474) (hbid : ∀ i, (bid i).toNat ≤ 31) (hslab : SlabIs X b slab)
    (f : Vec F S1536 .f32) (k : Fin k0_t6_loop.trips) (hf : BandAt X bv bid b f k.val)
    (hl0 : ∀ a x, ((![k0_pay12 ((S3W).view.readAt (Elt F) (Rect.unit (s := S4096) (k0_off6 k) S16.size (k0_off6_inb k)).toLoadRect bv)] : Fin 1 → IVec S16 32) a x).toNat < S31425.size a)
    (hl1 : ∀ a x, ((![k0_pay14 ((S3W).view.readAt (Elt F) (Rect.unit (s := S4096) (k0_off6 k) S16.size (k0_off6_inb k)).toLoadRect bv)] : Fin 1 → IVec S16 32) a x).toNat < S31425.size a)
    (hl2 : ∀ a x, ((![k0_pay16 ((S3W).view.readAt (Elt F) (Rect.unit (s := S4096) (k0_off6 k) S16.size (k0_off6_inb k)).toLoadRect bv)] : Fin 1 → IVec S16 32) a x).toNat < S31425.size a)
    (hs0 : ∀ a x, ((![k0_pay13 k0_pay30 ((S4W).view.readAt (Elt F) (Rect.unit (s := S4096) (k0_off6 k) S16.size (k0_off6_inb k)).toLoadRect bid)] : Fin 1 → IVec S16 32) a x).toNat < S1536.size a)
    (hs1 : ∀ a x, ((![k0_pay15 k0_pay30 ((S4W).view.readAt (Elt F) (Rect.unit (s := S4096) (k0_off6 k) S16.size (k0_off6_inb k)).toLoadRect bid)] : Fin 1 → IVec S16 32) a x).toNat < S1536.size a)
    (hs2 : ∀ a x, ((![k0_pay17 k0_pay30 ((S4W).view.readAt (Elt F) (Rect.unit (s := S4096) (k0_off6 k) S16.size (k0_off6_inb k)).toLoadRect bid)] : Fin 1 → IVec S16 32) a x).toNat < S1536.size a) :
    BandAt X bv bid b
      (storeIdx (storeIdx (storeIdx f
        ![k0_pay13 k0_pay30 ((S4W).view.readAt (Elt F) (Rect.unit (s := S4096) (k0_off6 k) S16.size (k0_off6_inb k)).toLoadRect bid)] (loadIdx slab ![k0_pay12 ((S3W).view.readAt (Elt F) (Rect.unit (s := S4096) (k0_off6 k) S16.size (k0_off6_inb k)).toLoadRect bv)] hl0) (fun _ => 1#1) true hs0)
        ![k0_pay15 k0_pay30 ((S4W).view.readAt (Elt F) (Rect.unit (s := S4096) (k0_off6 k) S16.size (k0_off6_inb k)).toLoadRect bid)] (loadIdx slab ![k0_pay14 ((S3W).view.readAt (Elt F) (Rect.unit (s := S4096) (k0_off6 k) S16.size (k0_off6_inb k)).toLoadRect bv)] hl1) (fun _ => 1#1) true hs1)
        ![k0_pay17 k0_pay30 ((S4W).view.readAt (Elt F) (Rect.unit (s := S4096) (k0_off6 k) S16.size (k0_off6_inb k)).toLoadRect bid)] (loadIdx slab ![k0_pay16 ((S3W).view.readAt (Elt F) (Rect.unit (s := S4096) (k0_off6 k) S16.size (k0_off6_inb k)).toLoadRect bv)] hl2) (fun _ => 1#1) true hs2)
      (k.val + 1) := by
  have hvv : ∀ x, BitVec.toNat (((S3W).view.readAt (Elt F) (Rect.unit (s := S4096) (k0_off6 k) S16.size (k0_off6_inb k)).toLoadRect bv) x) ≤ 10474 := by
    intro x
    rw [Views.readAt16_s3]
    exact hbv _
  have hvd : ∀ x, BitVec.toNat (((S4W).view.readAt (Elt F) (Rect.unit (s := S4096) (k0_off6 k) S16.size (k0_off6_inb k)).toLoadRect bid) x) ≤ 31 := by
    intro x
    rw [Views.readAt16_s4]
    exact hbid _
  intro r q hr hq
  rw [Trips.band_trip f slab _ _ hvv hvd hl0 hl1 hl2 hs0 hs1 hs2 r q hr hq, hslab, band_lane_bid bid k r hr,
    band_lane_bv bv k r hr, hf r q hr hq]
  rfl

/-! ## The trip -/

set_option maxHeartbeats 2000000 in
/-- One trip of the band loop keeps the invariant: the three gathers from the staged row and the three indexed
    add-stores advance the band sums by one step. -/
theorem trip_band (X : Vec F S1024x31425 .f32) (b : Nat) (slab : Vec F S31425 .f32) (bv bid : Vec F S4096 .i32)
    (hbv : ∀ i, (bv i).toNat ≤ 10474) (hbid : ∀ i, (bid i).toNat ≤ 31) (hslab : SlabIs X b slab) (v1 : BitVec 32)
    (k3 : Fin k0_t3_loop.trips) (k : Fin k0_t6_loop.trips) (acc : BitVec 32) :
    invBand d L X b slab bv bid k.val acc ⊢ wp frame (wpE (defs₀ (F := F)) 𝒱₀ (thr d L) none) Set.univ
        (k0_t6_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 v1 (iota .scVector S16 32 [0] iota_S16_d0_w32_scVector) k0_pay30 (k0_pay31 (F := F)) (0#32) (1#32) k3 k acc)
        (invBand d L X b slab bv bid (k.val + 1)) := by
  unfold invBand k0_t6_body
  iintro ⟨⟨%f, %hf, Hs6⟩, Hs0, Hs3, Hs4⟩
  have hvv : ∀ x, (((S3W).view.readAt (Elt F) (Rect.unit (s := S4096) (k0_off6 k) S16.size (k0_off6_inb k)).toLoadRect bv) x).toNat ≤ 10474 := by
    intro x
    rw [Views.readAt16_s3]
    exact hbv _
  have hvd : ∀ x, (((S4W).view.readAt (Elt F) (Rect.unit (s := S4096) (k0_off6 k) S16.size (k0_off6_inb k)).toLoadRect bid) x).toNat ≤ 31 := by
    intro x
    rw [Views.readAt16_s4]
    exact hbid _
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  sl_step
  isplitl [Hs6]
  · iexists _
    isplitr [Hs6]
    rotate_left
    · iexact Hs6
    · ipureintro
      exact band_step X b slab bv bid hbv hbid hslab f k hf _ _ _ _ _ _
  isplitl [Hs0]
  · iexact Hs0
  isplitl [Hs3]
  · iexact Hs3
  iexact Hs4

end Cert.Proof.KI
-- ==== Proof.KI.SumVals.lean ====
/-
  The kernel's unrolled lane sums as values. The 96-word scratch of inverse counts and the last 96 words of the row
  scratch are each written by six 16-lane stores whose payloads add the sixteen lanes' 16-word slices of the running-sum
  scratch, slot by slot, from zero and in lane order. Read at a word, each is the sixteen-term sum at that slot:
  one over max(sum, 1) for the inverse counts, the sum times the inverse count for the row.
-/
import proofs.«203378_g9921374454198_cont_sun_m_1167_43_alg».proof.Proof.KI.Views
import proofs.«203378_g9921374454198_cont_sun_m_1167_43_alg».proof.Proof.KModel
import proofs.«203378_g9921374454198_cont_sun_m_1167_43_alg».proof.Proof.Gen.KernelIdeal.Skeleton

noncomputable section

namespace Cert.Proof.KI.SumVals

open Cert.KernelIdeal Cert.KernelIdeal.Gen Cert.Proof.KI.Views
open Idealize.ShloMosaic Idealize.ShloMosaic.ValueIdx

variable {F : FTy → Type} [FloatOps F]

/-! ## Total accessors -/

/-- Word `p` of the running-sum scratch; zero past its end (never read there). -/
def accAt (acc : Vec F S1536 .f32) (p : Nat) : F .f32 :=
  if h : p < 1536 then acc (ix1 ⟨p, h⟩) else KModel.zeroF

/-- Word `p` of the inverse-count scratch; zero past its end (never read there). -/
def invAt (inv : Vec F S96 .f32) (p : Nat) : F .f32 :=
  if h : p < 96 then inv (ix1 ⟨p, h⟩) else KModel.zeroF

/-- A 16-lane load of the running-sum scratch, lane by lane. -/
theorem load6 (off : Fin 1 → Nat) (h : ∀ a, off a + S16.size a ≤ S1536.size a) (acc : Vec F S1536 .f32) (x : S16.Idx) :
    (Memref.whole Cert.KernelIdeal.cc0_scratch6 : Memref Cert.KernelIdeal.sig Kind.scVector Space.vmem Cert.KernelIdeal.S1536 EltTy.f32).view.readAt (Elt F)
        (Rect.unit (s := S1536) off S16.size h).toLoadRect acc x = accAt acc (off 0 + (x 0).val) := by
  rw [readAt16_s6 off h acc x]
  unfold accAt
  rw [dif_pos (lane_lt off h x)]

/-- A 16-lane load of the inverse-count scratch, lane by lane. -/
theorem load5 (off : Fin 1 → Nat) (h : ∀ a, off a + S16.size a ≤ S96.size a) (inv : Vec F S96 .f32) (x : S16.Idx) :
    (Memref.whole Cert.KernelIdeal.cc0_scratch5 : Memref Cert.KernelIdeal.sig Kind.scVector Space.vmem Cert.KernelIdeal.S96 EltTy.f32).view.readAt (Elt F)
        (Rect.unit (s := S96) off S16.size h).toLoadRect inv x = invAt inv (off 0 + (x 0).val) := by
  rw [readAt16_s5 off h inv x]
  unfold invAt
  rw [dif_pos (lane_lt off h x)]

/-- The same, spelt as a simplification pass leaves the load (the buffer's whole view, the window's sizes a literal). -/
theorem load6s (off : Fin 1 → Nat) (h : ∀ a, off a + (![16] : Fin 1 → Nat) a ≤ S1536.size a) (acc : Vec F S1536 .f32) (x : S16.Idx) :
    (View.whole Cert.KernelIdeal.cc0_scratch6).readAt (Elt F) (Rect.unit (s := S1536) off ![16] h).toLoadRect acc x
      = accAt acc (off 0 + (x 0).val) := load6 off h acc x

theorem load5s (off : Fin 1 → Nat) (h : ∀ a, off a + (![16] : Fin 1 → Nat) a ≤ S96.size a) (inv : Vec F S96 .f32) (x : S16.Idx) :
    (View.whole Cert.KernelIdeal.cc0_scratch5).readAt (Elt F) (Rect.unit (s := S96) off ![16] h).toLoadRect inv x
      = invAt inv (off 0 + (x 0).val) := load5 off h inv x

/-- The same as functions of the lane. -/
theorem load6_fun (off : Fin 1 → Nat) (h : ∀ a, off a + S16.size a ≤ S1536.size a) (acc : Vec F S1536 .f32) :
    (Memref.whole Cert.KernelIdeal.cc0_scratch6 : Memref Cert.KernelIdeal.sig Kind.scVector Space.vmem Cert.KernelIdeal.S1536 EltTy.f32).view.readAt (Elt F)
        (Rect.unit (s := S1536) off S16.size h).toLoadRect acc = fun x => accAt acc (off 0 + (x 0).val) :=
  funext fun x => load6 off h acc x

theorem load5_fun (off : Fin 1 → Nat) (h : ∀ a, off a + S16.size a ≤ S96.size a) (inv : Vec F S96 .f32) :
    (Memref.whole Cert.KernelIdeal.cc0_scratch5 : Memref Cert.KernelIdeal.sig Kind.scVector Space.vmem Cert.KernelIdeal.S96 EltTy.f32).view.readAt (Elt F)
        (Rect.unit (s := S96) off S16.size h).toLoadRect inv = fun x => invAt inv (off 0 + (x 0).val) :=
  funext fun x => load5 off h inv x

/-! ## The six payloads of the inverse counts, lane by lane -/

theorem invLane0 (acc : Vec F S1536 .f32) (x : S16.Idx) (q : Nat) (hx : 0 + (x 0).val = q) :
    (k0_pay38 (k0_pay37
          ((Memref.whole Cert.KernelIdeal.cc0_scratch6 : Memref Cert.KernelIdeal.sig Kind.scVector Space.vmem Cert.KernelIdeal.S1536 EltTy.f32).view.readAt (Elt F) (Rect.unit (s := S1536) ![0] S16.size inb_S1536_S16_0).toLoadRect acc)
          ((Memref.whole Cert.KernelIdeal.cc0_scratch6 : Memref Cert.KernelIdeal.sig Kind.scVector Space.vmem Cert.KernelIdeal.S1536 EltTy.f32).view.readAt (Elt F) (Rect.unit (s := S1536) ![96] S16.size inb_S1536_S16_96).toLoadRect acc)
          ((Memref.whole Cert.KernelIdeal.cc0_scratch6 : Memref Cert.KernelIdeal.sig Kind.scVector Space.vmem Cert.KernelIdeal.S1536 EltTy.f32).view.readAt (Elt F) (Rect.unit (s := S1536) ![192] S16.size inb_S1536_S16_192).toLoadRect acc)
          ((Memref.whole Cert.KernelIdeal.cc0_scratch6 : Memref Cert.KernelIdeal.sig Kind.scVector Space.vmem Cert.KernelIdeal.S1536 EltTy.f32).view.readAt (Elt F) (Rect.unit (s := S1536) ![288] S16.size inb_S1536_S16_288).toLoadRect acc)
          ((Memref.whole Cert.KernelIdeal.cc0_scratch6 : Memref Cert.KernelIdeal.sig Kind.scVector Space.vmem Cert.KernelIdeal.S1536 EltTy.f32).view.readAt (Elt F) (Rect.unit (s := S1536) ![384] S16.size inb_S1536_S16_384).toLoadRect acc)
          ((Memref.whole Cert.KernelIdeal.cc0_scratch6 : Memref Cert.KernelIdeal.sig Kind.scVector Space.vmem Cert.KernelIdeal.S1536 EltTy.f32).view.readAt (Elt F) (Rect.unit (s := S1536) ![480] S16.size inb_S1536_S16_480).toLoadRect acc)
          ((Memref.whole Cert.KernelIdeal.cc0_scratch6 : Memref Cert.KernelIdeal.sig Kind.scVector Space.vmem Cert.KernelIdeal.S1536 EltTy.f32).view.readAt (Elt F) (Rect.unit (s := S1536) ![576] S16.size inb_S1536_S16_576).toLoadRect acc)
          ((Memref.whole Cert.KernelIdeal.cc0_scratch6 : Memref Cert.KernelIdeal.sig Kind.scVector Space.vmem Cert.KernelIdeal.S1536 EltTy.f32).view.readAt (Elt F) (Rect.unit (s := S1536) ![672] S16.size inb_S1536_S16_672).toLoadRect acc)
          ((Memref.whole Cert.KernelIdeal.cc0_scratch6 : Memref Cert.KernelIdeal.sig Kind.scVector Space.vmem Cert.KernelIdeal.S1536 EltTy.f32).view.readAt (Elt F) (Rect.unit (s := S1536) ![768] S16.size inb_S1536_S16_768).toLoadRect acc))
        ((Memref.whole Cert.KernelIdeal.cc0_scratch6 : Memref Cert.KernelIdeal.sig Kind.scVector Space.vmem Cert.KernelIdeal.S1536 EltTy.f32).view.readAt (Elt F) (Rect.unit (s := S1536) ![864] S16.size inb_S1536_S16_864).toLoadRect acc)
        ((Memref.whole Cert.KernelIdeal.cc0_scratch6 : Memref Cert.KernelIdeal.sig Kind.scVector Space.vmem Cert.KernelIdeal.S1536 EltTy.f32).view.readAt (Elt F) (Rect.unit (s := S1536) ![960] S16.size inb_S1536_S16_960).toLoadRect acc)
        ((Memref.whole Cert.KernelIdeal.cc0_scratch6 : Memref Cert.KernelIdeal.sig Kind.scVector Space.vmem Cert.KernelIdeal.S1536 EltTy.f32).view.readAt (Elt F) (Rect.unit (s := S1536) ![1056] S16.size inb_S1536_S16_1056).toLoadRect acc)
        ((Memref.whole Cert.KernelIdeal.cc0_scratch6 : Memref Cert.KernelIdeal.sig Kind.scVector Space.vmem Cert.KernelIdeal.S1536 EltTy.f32).view.readAt (Elt F) (Rect.unit (s := S1536) ![1152] S16.size inb_S1536_S16_1152).toLoadRect acc)
        ((Memref.whole Cert.KernelIdeal.cc0_scratch6 : Memref Cert.KernelIdeal.sig Kind.scVector Space.vmem Cert.KernelIdeal.S1536 EltTy.f32).view.readAt (Elt F) (Rect.unit (s := S1536) ![1248] S16.size inb_S1536_S16_1248).toLoadRect acc)
        ((Memref.whole Cert.KernelIdeal.cc0_scratch6 : Memref Cert.KernelIdeal.sig Kind.scVector Space.vmem Cert.KernelIdeal.S1536 EltTy.f32).view.readAt (Elt F) (Rect.unit (s := S1536) ![1344] S16.size inb_S1536_S16_1344).toLoadRect acc)
        ((Memref.whole Cert.KernelIdeal.cc0_scratch6 : Memref Cert.KernelIdeal.sig Kind.scVector Space.vmem Cert.KernelIdeal.S1536 EltTy.f32).view.readAt (Elt F) (Rect.unit (s := S1536) ![1440] S16.size inb_S1536_S16_1440).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

theorem invLane1 (acc : Vec F S1536 .f32) (x : S16.Idx) (q : Nat) (hx : 16 + (x 0).val = q) :
    (k0_pay40 (k0_pay39 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![16] S16.size inb_S1536_S16_16).toLoadRect acc)
          ((Memref.whole Cert.KernelIdeal.cc0_scratch6 : Memref Cert.KernelIdeal.sig Kind.scVector Space.vmem Cert.KernelIdeal.S1536 EltTy.f32).view.readAt (Elt F) (Rect.unit (s := S1536) ![112] S16.size inb_S1536_S16_112).toLoadRect acc)
          ((Memref.whole Cert.KernelIdeal.cc0_scratch6 : Memref Cert.KernelIdeal.sig Kind.scVector Space.vmem Cert.KernelIdeal.S1536 EltTy.f32).view.readAt (Elt F) (Rect.unit (s := S1536) ![208] S16.size inb_S1536_S16_208).toLoadRect acc)
          ((Memref.whole Cert.KernelIdeal.cc0_scratch6 : Memref Cert.KernelIdeal.sig Kind.scVector Space.vmem Cert.KernelIdeal.S1536 EltTy.f32).view.readAt (Elt F) (Rect.unit (s := S1536) ![304] S16.size inb_S1536_S16_304).toLoadRect acc)
          ((Memref.whole Cert.KernelIdeal.cc0_scratch6 : Memref Cert.KernelIdeal.sig Kind.scVector Space.vmem Cert.KernelIdeal.S1536 EltTy.f32).view.readAt (Elt F) (Rect.unit (s := S1536) ![400] S16.size inb_S1536_S16_400).toLoadRect acc)
          ((Memref.whole Cert.KernelIdeal.cc0_scratch6 : Memref Cert.KernelIdeal.sig Kind.scVector Space.vmem Cert.KernelIdeal.S1536 EltTy.f32).view.readAt (Elt F) (Rect.unit (s := S1536) ![496] S16.size inb_S1536_S16_496).toLoadRect acc)
          ((Memref.whole Cert.KernelIdeal.cc0_scratch6 : Memref Cert.KernelIdeal.sig Kind.scVector Space.vmem Cert.KernelIdeal.S1536 EltTy.f32).view.readAt (Elt F) (Rect.unit (s := S1536) ![592] S16.size inb_S1536_S16_592).toLoadRect acc)
          ((Memref.whole Cert.KernelIdeal.cc0_scratch6 : Memref Cert.KernelIdeal.sig Kind.scVector Space.vmem Cert.KernelIdeal.S1536 EltTy.f32).view.readAt (Elt F) (Rect.unit (s := S1536) ![688] S16.size inb_S1536_S16_688).toLoadRect acc)
          ((Memref.whole Cert.KernelIdeal.cc0_scratch6 : Memref Cert.KernelIdeal.sig Kind.scVector Space.vmem Cert.KernelIdeal.S1536 EltTy.f32).view.readAt (Elt F) (Rect.unit (s := S1536) ![784] S16.size inb_S1536_S16_784).toLoadRect acc)
          ((Memref.whole Cert.KernelIdeal.cc0_scratch6 : Memref Cert.KernelIdeal.sig Kind.scVector Space.vmem Cert.KernelIdeal.S1536 EltTy.f32).view.readAt (Elt F) (Rect.unit (s := S1536) ![880] S16.size inb_S1536_S16_880).toLoadRect acc))
        ((Memref.whole Cert.KernelIdeal.cc0_scratch6 : Memref Cert.KernelIdeal.sig Kind.scVector Space.vmem Cert.KernelIdeal.S1536 EltTy.f32).view.readAt (Elt F) (Rect.unit (s := S1536) ![976] S16.size inb_S1536_S16_976).toLoadRect acc)
        ((Memref.whole Cert.KernelIdeal.cc0_scratch6 : Memref Cert.KernelIdeal.sig Kind.scVector Space.vmem Cert.KernelIdeal.S1536 EltTy.f32).view.readAt (Elt F) (Rect.unit (s := S1536) ![1072] S16.size inb_S1536_S16_1072).toLoadRect acc)
        ((Memref.whole Cert.KernelIdeal.cc0_scratch6 : Memref Cert.KernelIdeal.sig Kind.scVector Space.vmem Cert.KernelIdeal.S1536 EltTy.f32).view.readAt (Elt F) (Rect.unit (s := S1536) ![1168] S16.size inb_S1536_S16_1168).toLoadRect acc)
        ((Memref.whole Cert.KernelIdeal.cc0_scratch6 : Memref Cert.KernelIdeal.sig Kind.scVector Space.vmem Cert.KernelIdeal.S1536 EltTy.f32).view.readAt (Elt F) (Rect.unit (s := S1536) ![1264] S16.size inb_S1536_S16_1264).toLoadRect acc)
        ((Memref.whole Cert.KernelIdeal.cc0_scratch6 : Memref Cert.KernelIdeal.sig Kind.scVector Space.vmem Cert.KernelIdeal.S1536 EltTy.f32).view.readAt (Elt F) (Rect.unit (s := S1536) ![1360] S16.size inb_S1536_S16_1360).toLoadRect acc)
        ((Memref.whole Cert.KernelIdeal.cc0_scratch6 : Memref Cert.KernelIdeal.sig Kind.scVector Space.vmem Cert.KernelIdeal.S1536 EltTy.f32).view.readAt (Elt F) (Rect.unit (s := S1536) ![1456] S16.size inb_S1536_S16_1456).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

theorem invLane2 (acc : Vec F S1536 .f32) (x : S16.Idx) (q : Nat) (hx : 32 + (x 0).val = q) :
    (k0_pay42 (k0_pay41 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![32] S16.size inb_S1536_S16_32).toLoadRect acc)
          ((Memref.whole Cert.KernelIdeal.cc0_scratch6 : Memref Cert.KernelIdeal.sig Kind.scVector Space.vmem Cert.KernelIdeal.S1536 EltTy.f32).view.readAt (Elt F) (Rect.unit (s := S1536) ![128] S16.size inb_S1536_S16_128).toLoadRect acc)
          ((Memref.whole Cert.KernelIdeal.cc0_scratch6 : Memref Cert.KernelIdeal.sig Kind.scVector Space.vmem Cert.KernelIdeal.S1536 EltTy.f32).view.readAt (Elt F) (Rect.unit (s := S1536) ![224] S16.size inb_S1536_S16_224).toLoadRect acc)
          ((Memref.whole Cert.KernelIdeal.cc0_scratch6 : Memref Cert.KernelIdeal.sig Kind.scVector Space.vmem Cert.KernelIdeal.S1536 EltTy.f32).view.readAt (Elt F) (Rect.unit (s := S1536) ![320] S16.size inb_S1536_S16_320).toLoadRect acc)
          ((Memref.whole Cert.KernelIdeal.cc0_scratch6 : Memref Cert.KernelIdeal.sig Kind.scVector Space.vmem Cert.KernelIdeal.S1536 EltTy.f32).view.readAt (Elt F) (Rect.unit (s := S1536) ![416] S16.size inb_S1536_S16_416).toLoadRect acc)
          ((Memref.whole Cert.KernelIdeal.cc0_scratch6 : Memref Cert.KernelIdeal.sig Kind.scVector Space.vmem Cert.KernelIdeal.S1536 EltTy.f32).view.readAt (Elt F) (Rect.unit (s := S1536) ![512] S16.size inb_S1536_S16_512).toLoadRect acc)
          ((Memref.whole Cert.KernelIdeal.cc0_scratch6 : Memref Cert.KernelIdeal.sig Kind.scVector Space.vmem Cert.KernelIdeal.S1536 EltTy.f32).view.readAt (Elt F) (Rect.unit (s := S1536) ![608] S16.size inb_S1536_S16_608).toLoadRect acc)
          ((Memref.whole Cert.KernelIdeal.cc0_scratch6 : Memref Cert.KernelIdeal.sig Kind.scVector Space.vmem Cert.KernelIdeal.S1536 EltTy.f32).view.readAt (Elt F) (Rect.unit (s := S1536) ![704] S16.size inb_S1536_S16_704).toLoadRect acc)
          ((Memref.whole Cert.KernelIdeal.cc0_scratch6 : Memref Cert.KernelIdeal.sig Kind.scVector Space.vmem Cert.KernelIdeal.S1536 EltTy.f32).view.readAt (Elt F) (Rect.unit (s := S1536) ![800] S16.size inb_S1536_S16_800).toLoadRect acc)
          ((Memref.whole Cert.KernelIdeal.cc0_scratch6 : Memref Cert.KernelIdeal.sig Kind.scVector Space.vmem Cert.KernelIdeal.S1536 EltTy.f32).view.readAt (Elt F) (Rect.unit (s := S1536) ![896] S16.size inb_S1536_S16_896).toLoadRect acc)
          ((Memref.whole Cert.KernelIdeal.cc0_scratch6 : Memref Cert.KernelIdeal.sig Kind.scVector Space.vmem Cert.KernelIdeal.S1536 EltTy.f32).view.readAt (Elt F) (Rect.unit (s := S1536) ![992] S16.size inb_S1536_S16_992).toLoadRect acc))
        ((Memref.whole Cert.KernelIdeal.cc0_scratch6 : Memref Cert.KernelIdeal.sig Kind.scVector Space.vmem Cert.KernelIdeal.S1536 EltTy.f32).view.readAt (Elt F) (Rect.unit (s := S1536) ![1088] S16.size inb_S1536_S16_1088).toLoadRect acc)
        ((Memref.whole Cert.KernelIdeal.cc0_scratch6 : Memref Cert.KernelIdeal.sig Kind.scVector Space.vmem Cert.KernelIdeal.S1536 EltTy.f32).view.readAt (Elt F) (Rect.unit (s := S1536) ![1184] S16.size inb_S1536_S16_1184).toLoadRect acc)
        ((Memref.whole Cert.KernelIdeal.cc0_scratch6 : Memref Cert.KernelIdeal.sig Kind.scVector Space.vmem Cert.KernelIdeal.S1536 EltTy.f32).view.readAt (Elt F) (Rect.unit (s := S1536) ![1280] S16.size inb_S1536_S16_1280).toLoadRect acc)
        ((Memref.whole Cert.KernelIdeal.cc0_scratch6 : Memref Cert.KernelIdeal.sig Kind.scVector Space.vmem Cert.KernelIdeal.S1536 EltTy.f32).view.readAt (Elt F) (Rect.unit (s := S1536) ![1376] S16.size inb_S1536_S16_1376).toLoadRect acc)
        ((Memref.whole Cert.KernelIdeal.cc0_scratch6 : Memref Cert.KernelIdeal.sig Kind.scVector Space.vmem Cert.KernelIdeal.S1536 EltTy.f32).view.readAt (Elt F) (Rect.unit (s := S1536) ![1472] S16.size inb_S1536_S16_1472).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

theorem invLane3 (acc : Vec F S1536 .f32) (x : S16.Idx) (q : Nat) (hx : 48 + (x 0).val = q) :
    (k0_pay44 (k0_pay43 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![48] S16.size inb_S1536_S16_48).toLoadRect acc)
          ((Memref.whole Cert.KernelIdeal.cc0_scratch6 : Memref Cert.KernelIdeal.sig Kind.scVector Space.vmem Cert.KernelIdeal.S1536 EltTy.f32).view.readAt (Elt F) (Rect.unit (s := S1536) ![144] S16.size inb_S1536_S16_144).toLoadRect acc)
          ((Memref.whole Cert.KernelIdeal.cc0_scratch6 : Memref Cert.KernelIdeal.sig Kind.scVector Space.vmem Cert.KernelIdeal.S1536 EltTy.f32).view.readAt (Elt F) (Rect.unit (s := S1536) ![240] S16.size inb_S1536_S16_240).toLoadRect acc)
          ((Memref.whole Cert.KernelIdeal.cc0_scratch6 : Memref Cert.KernelIdeal.sig Kind.scVector Space.vmem Cert.KernelIdeal.S1536 EltTy.f32).view.readAt (Elt F) (Rect.unit (s := S1536) ![336] S16.size inb_S1536_S16_336).toLoadRect acc)
          ((Memref.whole Cert.KernelIdeal.cc0_scratch6 : Memref Cert.KernelIdeal.sig Kind.scVector Space.vmem Cert.KernelIdeal.S1536 EltTy.f32).view.readAt (Elt F) (Rect.unit (s := S1536) ![432] S16.size inb_S1536_S16_432).toLoadRect acc)
          ((Memref.whole Cert.KernelIdeal.cc0_scratch6 : Memref Cert.KernelIdeal.sig Kind.scVector Space.vmem Cert.KernelIdeal.S1536 EltTy.f32).view.readAt (Elt F) (Rect.unit (s := S1536) ![528] S16.size inb_S1536_S16_528).toLoadRect acc)
          ((Memref.whole Cert.KernelIdeal.cc0_scratch6 : Memref Cert.KernelIdeal.sig Kind.scVector Space.vmem Cert.KernelIdeal.S1536 EltTy.f32).view.readAt (Elt F) (Rect.unit (s := S1536) ![624] S16.size inb_S1536_S16_624).toLoadRect acc)
          ((Memref.whole Cert.KernelIdeal.cc0_scratch6 : Memref Cert.KernelIdeal.sig Kind.scVector Space.vmem Cert.KernelIdeal.S1536 EltTy.f32).view.readAt (Elt F) (Rect.unit (s := S1536) ![720] S16.size inb_S1536_S16_720).toLoadRect acc)
          ((Memref.whole Cert.KernelIdeal.cc0_scratch6 : Memref Cert.KernelIdeal.sig Kind.scVector Space.vmem Cert.KernelIdeal.S1536 EltTy.f32).view.readAt (Elt F) (Rect.unit (s := S1536) ![816] S16.size inb_S1536_S16_816).toLoadRect acc)
          ((Memref.whole Cert.KernelIdeal.cc0_scratch6 : Memref Cert.KernelIdeal.sig Kind.scVector Space.vmem Cert.KernelIdeal.S1536 EltTy.f32).view.readAt (Elt F) (Rect.unit (s := S1536) ![912] S16.size inb_S1536_S16_912).toLoadRect acc)
          ((Memref.whole Cert.KernelIdeal.cc0_scratch6 : Memref Cert.KernelIdeal.sig Kind.scVector Space.vmem Cert.KernelIdeal.S1536 EltTy.f32).view.readAt (Elt F) (Rect.unit (s := S1536) ![1008] S16.size inb_S1536_S16_1008).toLoadRect acc)
          ((Memref.whole Cert.KernelIdeal.cc0_scratch6 : Memref Cert.KernelIdeal.sig Kind.scVector Space.vmem Cert.KernelIdeal.S1536 EltTy.f32).view.readAt (Elt F) (Rect.unit (s := S1536) ![1104] S16.size inb_S1536_S16_1104).toLoadRect acc))
        ((Memref.whole Cert.KernelIdeal.cc0_scratch6 : Memref Cert.KernelIdeal.sig Kind.scVector Space.vmem Cert.KernelIdeal.S1536 EltTy.f32).view.readAt (Elt F) (Rect.unit (s := S1536) ![1200] S16.size inb_S1536_S16_1200).toLoadRect acc)
        ((Memref.whole Cert.KernelIdeal.cc0_scratch6 : Memref Cert.KernelIdeal.sig Kind.scVector Space.vmem Cert.KernelIdeal.S1536 EltTy.f32).view.readAt (Elt F) (Rect.unit (s := S1536) ![1296] S16.size inb_S1536_S16_1296).toLoadRect acc)
        ((Memref.whole Cert.KernelIdeal.cc0_scratch6 : Memref Cert.KernelIdeal.sig Kind.scVector Space.vmem Cert.KernelIdeal.S1536 EltTy.f32).view.readAt (Elt F) (Rect.unit (s := S1536) ![1392] S16.size inb_S1536_S16_1392).toLoadRect acc)
        ((Memref.whole Cert.KernelIdeal.cc0_scratch6 : Memref Cert.KernelIdeal.sig Kind.scVector Space.vmem Cert.KernelIdeal.S1536 EltTy.f32).view.readAt (Elt F) (Rect.unit (s := S1536) ![1488] S16.size inb_S1536_S16_1488).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

theorem invLane4 (acc : Vec F S1536 .f32) (x : S16.Idx) (q : Nat) (hx : 64 + (x 0).val = q) :
    (k0_pay46 (k0_pay45 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![64] S16.size inb_S1536_S16_64).toLoadRect acc)
          ((Memref.whole Cert.KernelIdeal.cc0_scratch6 : Memref Cert.KernelIdeal.sig Kind.scVector Space.vmem Cert.KernelIdeal.S1536 EltTy.f32).view.readAt (Elt F) (Rect.unit (s := S1536) ![160] S16.size inb_S1536_S16_160).toLoadRect acc)
          ((Memref.whole Cert.KernelIdeal.cc0_scratch6 : Memref Cert.KernelIdeal.sig Kind.scVector Space.vmem Cert.KernelIdeal.S1536 EltTy.f32).view.readAt (Elt F) (Rect.unit (s := S1536) ![256] S16.size inb_S1536_S16_256).toLoadRect acc)
          ((Memref.whole Cert.KernelIdeal.cc0_scratch6 : Memref Cert.KernelIdeal.sig Kind.scVector Space.vmem Cert.KernelIdeal.S1536 EltTy.f32).view.readAt (Elt F) (Rect.unit (s := S1536) ![352] S16.size inb_S1536_S16_352).toLoadRect acc)
          ((Memref.whole Cert.KernelIdeal.cc0_scratch6 : Memref Cert.KernelIdeal.sig Kind.scVector Space.vmem Cert.KernelIdeal.S1536 EltTy.f32).view.readAt (Elt F) (Rect.unit (s := S1536) ![448] S16.size inb_S1536_S16_448).toLoadRect acc)
          ((Memref.whole Cert.KernelIdeal.cc0_scratch6 : Memref Cert.KernelIdeal.sig Kind.scVector Space.vmem Cert.KernelIdeal.S1536 EltTy.f32).view.readAt (Elt F) (Rect.unit (s := S1536) ![544] S16.size inb_S1536_S16_544).toLoadRect acc)
          ((Memref.whole Cert.KernelIdeal.cc0_scratch6 : Memref Cert.KernelIdeal.sig Kind.scVector Space.vmem Cert.KernelIdeal.S1536 EltTy.f32).view.readAt (Elt F) (Rect.unit (s := S1536) ![640] S16.size inb_S1536_S16_640).toLoadRect acc)
          ((Memref.whole Cert.KernelIdeal.cc0_scratch6 : Memref Cert.KernelIdeal.sig Kind.scVector Space.vmem Cert.KernelIdeal.S1536 EltTy.f32).view.readAt (Elt F) (Rect.unit (s := S1536) ![736] S16.size inb_S1536_S16_736).toLoadRect acc)
          ((Memref.whole Cert.KernelIdeal.cc0_scratch6 : Memref Cert.KernelIdeal.sig Kind.scVector Space.vmem Cert.KernelIdeal.S1536 EltTy.f32).view.readAt (Elt F) (Rect.unit (s := S1536) ![832] S16.size inb_S1536_S16_832).toLoadRect acc)
          ((Memref.whole Cert.KernelIdeal.cc0_scratch6 : Memref Cert.KernelIdeal.sig Kind.scVector Space.vmem Cert.KernelIdeal.S1536 EltTy.f32).view.readAt (Elt F) (Rect.unit (s := S1536) ![928] S16.size inb_S1536_S16_928).toLoadRect acc)
          ((Memref.whole Cert.KernelIdeal.cc0_scratch6 : Memref Cert.KernelIdeal.sig Kind.scVector Space.vmem Cert.KernelIdeal.S1536 EltTy.f32).view.readAt (Elt F) (Rect.unit (s := S1536) ![1024] S16.size inb_S1536_S16_1024).toLoadRect acc)
          ((Memref.whole Cert.KernelIdeal.cc0_scratch6 : Memref Cert.KernelIdeal.sig Kind.scVector Space.vmem Cert.KernelIdeal.S1536 EltTy.f32).view.readAt (Elt F) (Rect.unit (s := S1536) ![1120] S16.size inb_S1536_S16_1120).toLoadRect acc)
          ((Memref.whole Cert.KernelIdeal.cc0_scratch6 : Memref Cert.KernelIdeal.sig Kind.scVector Space.vmem Cert.KernelIdeal.S1536 EltTy.f32).view.readAt (Elt F) (Rect.unit (s := S1536) ![1216] S16.size inb_S1536_S16_1216).toLoadRect acc))
        ((Memref.whole Cert.KernelIdeal.cc0_scratch6 : Memref Cert.KernelIdeal.sig Kind.scVector Space.vmem Cert.KernelIdeal.S1536 EltTy.f32).view.readAt (Elt F) (Rect.unit (s := S1536) ![1312] S16.size inb_S1536_S16_1312).toLoadRect acc)
        ((Memref.whole Cert.KernelIdeal.cc0_scratch6 : Memref Cert.KernelIdeal.sig Kind.scVector Space.vmem Cert.KernelIdeal.S1536 EltTy.f32).view.readAt (Elt F) (Rect.unit (s := S1536) ![1408] S16.size inb_S1536_S16_1408).toLoadRect acc)
        ((Memref.whole Cert.KernelIdeal.cc0_scratch6 : Memref Cert.KernelIdeal.sig Kind.scVector Space.vmem Cert.KernelIdeal.S1536 EltTy.f32).view.readAt (Elt F) (Rect.unit (s := S1536) ![1504] S16.size inb_S1536_S16_1504).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

theorem invLane5 (acc : Vec F S1536 .f32) (x : S16.Idx) (q : Nat) (hx : 80 + (x 0).val = q) :
    (k0_pay1 (k0_pay47 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![80] S16.size inb_S1536_S16_80).toLoadRect acc)
          ((Memref.whole Cert.KernelIdeal.cc0_scratch6 : Memref Cert.KernelIdeal.sig Kind.scVector Space.vmem Cert.KernelIdeal.S1536 EltTy.f32).view.readAt (Elt F) (Rect.unit (s := S1536) ![176] S16.size inb_S1536_S16_176).toLoadRect acc)
          ((Memref.whole Cert.KernelIdeal.cc0_scratch6 : Memref Cert.KernelIdeal.sig Kind.scVector Space.vmem Cert.KernelIdeal.S1536 EltTy.f32).view.readAt (Elt F) (Rect.unit (s := S1536) ![272] S16.size inb_S1536_S16_272).toLoadRect acc)
          ((Memref.whole Cert.KernelIdeal.cc0_scratch6 : Memref Cert.KernelIdeal.sig Kind.scVector Space.vmem Cert.KernelIdeal.S1536 EltTy.f32).view.readAt (Elt F) (Rect.unit (s := S1536) ![368] S16.size inb_S1536_S16_368).toLoadRect acc)
          ((Memref.whole Cert.KernelIdeal.cc0_scratch6 : Memref Cert.KernelIdeal.sig Kind.scVector Space.vmem Cert.KernelIdeal.S1536 EltTy.f32).view.readAt (Elt F) (Rect.unit (s := S1536) ![464] S16.size inb_S1536_S16_464).toLoadRect acc)
          ((Memref.whole Cert.KernelIdeal.cc0_scratch6 : Memref Cert.KernelIdeal.sig Kind.scVector Space.vmem Cert.KernelIdeal.S1536 EltTy.f32).view.readAt (Elt F) (Rect.unit (s := S1536) ![560] S16.size inb_S1536_S16_560).toLoadRect acc)
          ((Memref.whole Cert.KernelIdeal.cc0_scratch6 : Memref Cert.KernelIdeal.sig Kind.scVector Space.vmem Cert.KernelIdeal.S1536 EltTy.f32).view.readAt (Elt F) (Rect.unit (s := S1536) ![656] S16.size inb_S1536_S16_656).toLoadRect acc)
          ((Memref.whole Cert.KernelIdeal.cc0_scratch6 : Memref Cert.KernelIdeal.sig Kind.scVector Space.vmem Cert.KernelIdeal.S1536 EltTy.f32).view.readAt (Elt F) (Rect.unit (s := S1536) ![752] S16.size inb_S1536_S16_752).toLoadRect acc)
          ((Memref.whole Cert.KernelIdeal.cc0_scratch6 : Memref Cert.KernelIdeal.sig Kind.scVector Space.vmem Cert.KernelIdeal.S1536 EltTy.f32).view.readAt (Elt F) (Rect.unit (s := S1536) ![848] S16.size inb_S1536_S16_848).toLoadRect acc)
          ((Memref.whole Cert.KernelIdeal.cc0_scratch6 : Memref Cert.KernelIdeal.sig Kind.scVector Space.vmem Cert.KernelIdeal.S1536 EltTy.f32).view.readAt (Elt F) (Rect.unit (s := S1536) ![944] S16.size inb_S1536_S16_944).toLoadRect acc)
          ((Memref.whole Cert.KernelIdeal.cc0_scratch6 : Memref Cert.KernelIdeal.sig Kind.scVector Space.vmem Cert.KernelIdeal.S1536 EltTy.f32).view.readAt (Elt F) (Rect.unit (s := S1536) ![1040] S16.size inb_S1536_S16_1040).toLoadRect acc)
          ((Memref.whole Cert.KernelIdeal.cc0_scratch6 : Memref Cert.KernelIdeal.sig Kind.scVector Space.vmem Cert.KernelIdeal.S1536 EltTy.f32).view.readAt (Elt F) (Rect.unit (s := S1536) ![1136] S16.size inb_S1536_S16_1136).toLoadRect acc)
          ((Memref.whole Cert.KernelIdeal.cc0_scratch6 : Memref Cert.KernelIdeal.sig Kind.scVector Space.vmem Cert.KernelIdeal.S1536 EltTy.f32).view.readAt (Elt F) (Rect.unit (s := S1536) ![1232] S16.size inb_S1536_S16_1232).toLoadRect acc)
          ((Memref.whole Cert.KernelIdeal.cc0_scratch6 : Memref Cert.KernelIdeal.sig Kind.scVector Space.vmem Cert.KernelIdeal.S1536 EltTy.f32).view.readAt (Elt F) (Rect.unit (s := S1536) ![1328] S16.size inb_S1536_S16_1328).toLoadRect acc))
        ((Memref.whole Cert.KernelIdeal.cc0_scratch6 : Memref Cert.KernelIdeal.sig Kind.scVector Space.vmem Cert.KernelIdeal.S1536 EltTy.f32).view.readAt (Elt F) (Rect.unit (s := S1536) ![1424] S16.size inb_S1536_S16_1424).toLoadRect acc)
        ((Memref.whole Cert.KernelIdeal.cc0_scratch6 : Memref Cert.KernelIdeal.sig Kind.scVector Space.vmem Cert.KernelIdeal.S1536 EltTy.f32).view.readAt (Elt F) (Rect.unit (s := S1536) ![1520] S16.size inb_S1536_S16_1520).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

/-! ## The six payloads of the row's last 96 words, lane by lane -/

theorem outLane0 (inv : Vec F S96 .f32) (acc : Vec F S1536 .f32) (x : S16.Idx) (q : Nat) (hx : 0 + (x 0).val = q) :
    (k0_pay19 (k0_pay18 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![0] S16.size inb_S1536_S16_0).toLoadRect acc)
          ((Memref.whole Cert.KernelIdeal.cc0_scratch6 : Memref Cert.KernelIdeal.sig Kind.scVector Space.vmem Cert.KernelIdeal.S1536 EltTy.f32).view.readAt (Elt F) (Rect.unit (s := S1536) ![96] S16.size inb_S1536_S16_96).toLoadRect acc)
          ((Memref.whole Cert.KernelIdeal.cc0_scratch6 : Memref Cert.KernelIdeal.sig Kind.scVector Space.vmem Cert.KernelIdeal.S1536 EltTy.f32).view.readAt (Elt F) (Rect.unit (s := S1536) ![192] S16.size inb_S1536_S16_192).toLoadRect acc)
          ((Memref.whole Cert.KernelIdeal.cc0_scratch6 : Memref Cert.KernelIdeal.sig Kind.scVector Space.vmem Cert.KernelIdeal.S1536 EltTy.f32).view.readAt (Elt F) (Rect.unit (s := S1536) ![288] S16.size inb_S1536_S16_288).toLoadRect acc)
          ((Memref.whole Cert.KernelIdeal.cc0_scratch6 : Memref Cert.KernelIdeal.sig Kind.scVector Space.vmem Cert.KernelIdeal.S1536 EltTy.f32).view.readAt (Elt F) (Rect.unit (s := S1536) ![384] S16.size inb_S1536_S16_384).toLoadRect acc)
          ((Memref.whole Cert.KernelIdeal.cc0_scratch6 : Memref Cert.KernelIdeal.sig Kind.scVector Space.vmem Cert.KernelIdeal.S1536 EltTy.f32).view.readAt (Elt F) (Rect.unit (s := S1536) ![480] S16.size inb_S1536_S16_480).toLoadRect acc)
          ((Memref.whole Cert.KernelIdeal.cc0_scratch6 : Memref Cert.KernelIdeal.sig Kind.scVector Space.vmem Cert.KernelIdeal.S1536 EltTy.f32).view.readAt (Elt F) (Rect.unit (s := S1536) ![576] S16.size inb_S1536_S16_576).toLoadRect acc))
        ((Memref.whole Cert.KernelIdeal.cc0_scratch6 : Memref Cert.KernelIdeal.sig Kind.scVector Space.vmem Cert.KernelIdeal.S1536 EltTy.f32).view.readAt (Elt F) (Rect.unit (s := S1536) ![672] S16.size inb_S1536_S16_672).toLoadRect acc)
        ((Memref.whole Cert.KernelIdeal.cc0_scratch6 : Memref Cert.KernelIdeal.sig Kind.scVector Space.vmem Cert.KernelIdeal.S1536 EltTy.f32).view.readAt (Elt F) (Rect.unit (s := S1536) ![768] S16.size inb_S1536_S16_768).toLoadRect acc)
        ((Memref.whole Cert.KernelIdeal.cc0_scratch6 : Memref Cert.KernelIdeal.sig Kind.scVector Space.vmem Cert.KernelIdeal.S1536 EltTy.f32).view.readAt (Elt F) (Rect.unit (s := S1536) ![864] S16.size inb_S1536_S16_864).toLoadRect acc)
        ((Memref.whole Cert.KernelIdeal.cc0_scratch6 : Memref Cert.KernelIdeal.sig Kind.scVector Space.vmem Cert.KernelIdeal.S1536 EltTy.f32).view.readAt (Elt F) (Rect.unit (s := S1536) ![960] S16.size inb_S1536_S16_960).toLoadRect acc)
        ((Memref.whole Cert.KernelIdeal.cc0_scratch6 : Memref Cert.KernelIdeal.sig Kind.scVector Space.vmem Cert.KernelIdeal.S1536 EltTy.f32).view.readAt (Elt F) (Rect.unit (s := S1536) ![1056] S16.size inb_S1536_S16_1056).toLoadRect acc)
        ((Memref.whole Cert.KernelIdeal.cc0_scratch6 : Memref Cert.KernelIdeal.sig Kind.scVector Space.vmem Cert.KernelIdeal.S1536 EltTy.f32).view.readAt (Elt F) (Rect.unit (s := S1536) ![1152] S16.size inb_S1536_S16_1152).toLoadRect acc)
        ((Memref.whole Cert.KernelIdeal.cc0_scratch6 : Memref Cert.KernelIdeal.sig Kind.scVector Space.vmem Cert.KernelIdeal.S1536 EltTy.f32).view.readAt (Elt F) (Rect.unit (s := S1536) ![1248] S16.size inb_S1536_S16_1248).toLoadRect acc)
        ((Memref.whole Cert.KernelIdeal.cc0_scratch6 : Memref Cert.KernelIdeal.sig Kind.scVector Space.vmem Cert.KernelIdeal.S1536 EltTy.f32).view.readAt (Elt F) (Rect.unit (s := S1536) ![1344] S16.size inb_S1536_S16_1344).toLoadRect acc)
        ((Memref.whole Cert.KernelIdeal.cc0_scratch6 : Memref Cert.KernelIdeal.sig Kind.scVector Space.vmem Cert.KernelIdeal.S1536 EltTy.f32).view.readAt (Elt F) (Rect.unit (s := S1536) ![1440] S16.size inb_S1536_S16_1440).toLoadRect acc)
        ((Memref.whole Cert.KernelIdeal.cc0_scratch5 : Memref Cert.KernelIdeal.sig Kind.scVector Space.vmem Cert.KernelIdeal.S96 EltTy.f32).view.readAt (Elt F) (Rect.unit (s := S96) ![0] S16.size inb_S96_S16_0).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

theorem outLane1 (inv : Vec F S96 .f32) (acc : Vec F S1536 .f32) (x : S16.Idx) (q : Nat) (hx : 16 + (x 0).val = q) :
    (k0_pay21 (k0_pay20 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![16] S16.size inb_S1536_S16_16).toLoadRect acc)
          ((Memref.whole Cert.KernelIdeal.cc0_scratch6 : Memref Cert.KernelIdeal.sig Kind.scVector Space.vmem Cert.KernelIdeal.S1536 EltTy.f32).view.readAt (Elt F) (Rect.unit (s := S1536) ![112] S16.size inb_S1536_S16_112).toLoadRect acc)
          ((Memref.whole Cert.KernelIdeal.cc0_scratch6 : Memref Cert.KernelIdeal.sig Kind.scVector Space.vmem Cert.KernelIdeal.S1536 EltTy.f32).view.readAt (Elt F) (Rect.unit (s := S1536) ![208] S16.size inb_S1536_S16_208).toLoadRect acc)
          ((Memref.whole Cert.KernelIdeal.cc0_scratch6 : Memref Cert.KernelIdeal.sig Kind.scVector Space.vmem Cert.KernelIdeal.S1536 EltTy.f32).view.readAt (Elt F) (Rect.unit (s := S1536) ![304] S16.size inb_S1536_S16_304).toLoadRect acc)
          ((Memref.whole Cert.KernelIdeal.cc0_scratch6 : Memref Cert.KernelIdeal.sig Kind.scVector Space.vmem Cert.KernelIdeal.S1536 EltTy.f32).view.readAt (Elt F) (Rect.unit (s := S1536) ![400] S16.size inb_S1536_S16_400).toLoadRect acc)
          ((Memref.whole Cert.KernelIdeal.cc0_scratch6 : Memref Cert.KernelIdeal.sig Kind.scVector Space.vmem Cert.KernelIdeal.S1536 EltTy.f32).view.readAt (Elt F) (Rect.unit (s := S1536) ![496] S16.size inb_S1536_S16_496).toLoadRect acc)
          ((Memref.whole Cert.KernelIdeal.cc0_scratch6 : Memref Cert.KernelIdeal.sig Kind.scVector Space.vmem Cert.KernelIdeal.S1536 EltTy.f32).view.readAt (Elt F) (Rect.unit (s := S1536) ![592] S16.size inb_S1536_S16_592).toLoadRect acc)
          ((Memref.whole Cert.KernelIdeal.cc0_scratch6 : Memref Cert.KernelIdeal.sig Kind.scVector Space.vmem Cert.KernelIdeal.S1536 EltTy.f32).view.readAt (Elt F) (Rect.unit (s := S1536) ![688] S16.size inb_S1536_S16_688).toLoadRect acc)
          ((Memref.whole Cert.KernelIdeal.cc0_scratch6 : Memref Cert.KernelIdeal.sig Kind.scVector Space.vmem Cert.KernelIdeal.S1536 EltTy.f32).view.readAt (Elt F) (Rect.unit (s := S1536) ![784] S16.size inb_S1536_S16_784).toLoadRect acc))
        ((Memref.whole Cert.KernelIdeal.cc0_scratch6 : Memref Cert.KernelIdeal.sig Kind.scVector Space.vmem Cert.KernelIdeal.S1536 EltTy.f32).view.readAt (Elt F) (Rect.unit (s := S1536) ![880] S16.size inb_S1536_S16_880).toLoadRect acc)
        ((Memref.whole Cert.KernelIdeal.cc0_scratch6 : Memref Cert.KernelIdeal.sig Kind.scVector Space.vmem Cert.KernelIdeal.S1536 EltTy.f32).view.readAt (Elt F) (Rect.unit (s := S1536) ![976] S16.size inb_S1536_S16_976).toLoadRect acc)
        ((Memref.whole Cert.KernelIdeal.cc0_scratch6 : Memref Cert.KernelIdeal.sig Kind.scVector Space.vmem Cert.KernelIdeal.S1536 EltTy.f32).view.readAt (Elt F) (Rect.unit (s := S1536) ![1072] S16.size inb_S1536_S16_1072).toLoadRect acc)
        ((Memref.whole Cert.KernelIdeal.cc0_scratch6 : Memref Cert.KernelIdeal.sig Kind.scVector Space.vmem Cert.KernelIdeal.S1536 EltTy.f32).view.readAt (Elt F) (Rect.unit (s := S1536) ![1168] S16.size inb_S1536_S16_1168).toLoadRect acc)
        ((Memref.whole Cert.KernelIdeal.cc0_scratch6 : Memref Cert.KernelIdeal.sig Kind.scVector Space.vmem Cert.KernelIdeal.S1536 EltTy.f32).view.readAt (Elt F) (Rect.unit (s := S1536) ![1264] S16.size inb_S1536_S16_1264).toLoadRect acc)
        ((Memref.whole Cert.KernelIdeal.cc0_scratch6 : Memref Cert.KernelIdeal.sig Kind.scVector Space.vmem Cert.KernelIdeal.S1536 EltTy.f32).view.readAt (Elt F) (Rect.unit (s := S1536) ![1360] S16.size inb_S1536_S16_1360).toLoadRect acc)
        ((Memref.whole Cert.KernelIdeal.cc0_scratch6 : Memref Cert.KernelIdeal.sig Kind.scVector Space.vmem Cert.KernelIdeal.S1536 EltTy.f32).view.readAt (Elt F) (Rect.unit (s := S1536) ![1456] S16.size inb_S1536_S16_1456).toLoadRect acc)
        ((Memref.whole Cert.KernelIdeal.cc0_scratch5 : Memref Cert.KernelIdeal.sig Kind.scVector Space.vmem Cert.KernelIdeal.S96 EltTy.f32).view.readAt (Elt F) (Rect.unit (s := S96) ![16] S16.size inb_S96_S16_16).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

theorem outLane2 (inv : Vec F S96 .f32) (acc : Vec F S1536 .f32) (x : S16.Idx) (q : Nat) (hx : 32 + (x 0).val = q) :
    (k0_pay23 (k0_pay22 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![32] S16.size inb_S1536_S16_32).toLoadRect acc)
          ((Memref.whole Cert.KernelIdeal.cc0_scratch6 : Memref Cert.KernelIdeal.sig Kind.scVector Space.vmem Cert.KernelIdeal.S1536 EltTy.f32).view.readAt (Elt F) (Rect.unit (s := S1536) ![128] S16.size inb_S1536_S16_128).toLoadRect acc)
          ((Memref.whole Cert.KernelIdeal.cc0_scratch6 : Memref Cert.KernelIdeal.sig Kind.scVector Space.vmem Cert.KernelIdeal.S1536 EltTy.f32).view.readAt (Elt F) (Rect.unit (s := S1536) ![224] S16.size inb_S1536_S16_224).toLoadRect acc)
          ((Memref.whole Cert.KernelIdeal.cc0_scratch6 : Memref Cert.KernelIdeal.sig Kind.scVector Space.vmem Cert.KernelIdeal.S1536 EltTy.f32).view.readAt (Elt F) (Rect.unit (s := S1536) ![320] S16.size inb_S1536_S16_320).toLoadRect acc)
          ((Memref.whole Cert.KernelIdeal.cc0_scratch6 : Memref Cert.KernelIdeal.sig Kind.scVector Space.vmem Cert.KernelIdeal.S1536 EltTy.f32).view.readAt (Elt F) (Rect.unit (s := S1536) ![416] S16.size inb_S1536_S16_416).toLoadRect acc)
          ((Memref.whole Cert.KernelIdeal.cc0_scratch6 : Memref Cert.KernelIdeal.sig Kind.scVector Space.vmem Cert.KernelIdeal.S1536 EltTy.f32).view.readAt (Elt F) (Rect.unit (s := S1536) ![512] S16.size inb_S1536_S16_512).toLoadRect acc)
          ((Memref.whole Cert.KernelIdeal.cc0_scratch6 : Memref Cert.KernelIdeal.sig Kind.scVector Space.vmem Cert.KernelIdeal.S1536 EltTy.f32).view.readAt (Elt F) (Rect.unit (s := S1536) ![608] S16.size inb_S1536_S16_608).toLoadRect acc)
          ((Memref.whole Cert.KernelIdeal.cc0_scratch6 : Memref Cert.KernelIdeal.sig Kind.scVector Space.vmem Cert.KernelIdeal.S1536 EltTy.f32).view.readAt (Elt F) (Rect.unit (s := S1536) ![704] S16.size inb_S1536_S16_704).toLoadRect acc)
          ((Memref.whole Cert.KernelIdeal.cc0_scratch6 : Memref Cert.KernelIdeal.sig Kind.scVector Space.vmem Cert.KernelIdeal.S1536 EltTy.f32).view.readAt (Elt F) (Rect.unit (s := S1536) ![800] S16.size inb_S1536_S16_800).toLoadRect acc)
          ((Memref.whole Cert.KernelIdeal.cc0_scratch6 : Memref Cert.KernelIdeal.sig Kind.scVector Space.vmem Cert.KernelIdeal.S1536 EltTy.f32).view.readAt (Elt F) (Rect.unit (s := S1536) ![896] S16.size inb_S1536_S16_896).toLoadRect acc)
          ((Memref.whole Cert.KernelIdeal.cc0_scratch6 : Memref Cert.KernelIdeal.sig Kind.scVector Space.vmem Cert.KernelIdeal.S1536 EltTy.f32).view.readAt (Elt F) (Rect.unit (s := S1536) ![992] S16.size inb_S1536_S16_992).toLoadRect acc))
        ((Memref.whole Cert.KernelIdeal.cc0_scratch6 : Memref Cert.KernelIdeal.sig Kind.scVector Space.vmem Cert.KernelIdeal.S1536 EltTy.f32).view.readAt (Elt F) (Rect.unit (s := S1536) ![1088] S16.size inb_S1536_S16_1088).toLoadRect acc)
        ((Memref.whole Cert.KernelIdeal.cc0_scratch6 : Memref Cert.KernelIdeal.sig Kind.scVector Space.vmem Cert.KernelIdeal.S1536 EltTy.f32).view.readAt (Elt F) (Rect.unit (s := S1536) ![1184] S16.size inb_S1536_S16_1184).toLoadRect acc)
        ((Memref.whole Cert.KernelIdeal.cc0_scratch6 : Memref Cert.KernelIdeal.sig Kind.scVector Space.vmem Cert.KernelIdeal.S1536 EltTy.f32).view.readAt (Elt F) (Rect.unit (s := S1536) ![1280] S16.size inb_S1536_S16_1280).toLoadRect acc)
        ((Memref.whole Cert.KernelIdeal.cc0_scratch6 : Memref Cert.KernelIdeal.sig Kind.scVector Space.vmem Cert.KernelIdeal.S1536 EltTy.f32).view.readAt (Elt F) (Rect.unit (s := S1536) ![1376] S16.size inb_S1536_S16_1376).toLoadRect acc)
        ((Memref.whole Cert.KernelIdeal.cc0_scratch6 : Memref Cert.KernelIdeal.sig Kind.scVector Space.vmem Cert.KernelIdeal.S1536 EltTy.f32).view.readAt (Elt F) (Rect.unit (s := S1536) ![1472] S16.size inb_S1536_S16_1472).toLoadRect acc)
        ((Memref.whole Cert.KernelIdeal.cc0_scratch5 : Memref Cert.KernelIdeal.sig Kind.scVector Space.vmem Cert.KernelIdeal.S96 EltTy.f32).view.readAt (Elt F) (Rect.unit (s := S96) ![32] S16.size inb_S96_S16_32).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

theorem outLane3 (inv : Vec F S96 .f32) (acc : Vec F S1536 .f32) (x : S16.Idx) (q : Nat) (hx : 48 + (x 0).val = q) :
    (k0_pay25 (k0_pay24 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![48] S16.size inb_S1536_S16_48).toLoadRect acc)
          ((Memref.whole Cert.KernelIdeal.cc0_scratch6 : Memref Cert.KernelIdeal.sig Kind.scVector Space.vmem Cert.KernelIdeal.S1536 EltTy.f32).view.readAt (Elt F) (Rect.unit (s := S1536) ![144] S16.size inb_S1536_S16_144).toLoadRect acc)
          ((Memref.whole Cert.KernelIdeal.cc0_scratch6 : Memref Cert.KernelIdeal.sig Kind.scVector Space.vmem Cert.KernelIdeal.S1536 EltTy.f32).view.readAt (Elt F) (Rect.unit (s := S1536) ![240] S16.size inb_S1536_S16_240).toLoadRect acc)
          ((Memref.whole Cert.KernelIdeal.cc0_scratch6 : Memref Cert.KernelIdeal.sig Kind.scVector Space.vmem Cert.KernelIdeal.S1536 EltTy.f32).view.readAt (Elt F) (Rect.unit (s := S1536) ![336] S16.size inb_S1536_S16_336).toLoadRect acc)
          ((Memref.whole Cert.KernelIdeal.cc0_scratch6 : Memref Cert.KernelIdeal.sig Kind.scVector Space.vmem Cert.KernelIdeal.S1536 EltTy.f32).view.readAt (Elt F) (Rect.unit (s := S1536) ![432] S16.size inb_S1536_S16_432).toLoadRect acc)
          ((Memref.whole Cert.KernelIdeal.cc0_scratch6 : Memref Cert.KernelIdeal.sig Kind.scVector Space.vmem Cert.KernelIdeal.S1536 EltTy.f32).view.readAt (Elt F) (Rect.unit (s := S1536) ![528] S16.size inb_S1536_S16_528).toLoadRect acc)
          ((Memref.whole Cert.KernelIdeal.cc0_scratch6 : Memref Cert.KernelIdeal.sig Kind.scVector Space.vmem Cert.KernelIdeal.S1536 EltTy.f32).view.readAt (Elt F) (Rect.unit (s := S1536) ![624] S16.size inb_S1536_S16_624).toLoadRect acc)
          ((Memref.whole Cert.KernelIdeal.cc0_scratch6 : Memref Cert.KernelIdeal.sig Kind.scVector Space.vmem Cert.KernelIdeal.S1536 EltTy.f32).view.readAt (Elt F) (Rect.unit (s := S1536) ![720] S16.size inb_S1536_S16_720).toLoadRect acc)
          ((Memref.whole Cert.KernelIdeal.cc0_scratch6 : Memref Cert.KernelIdeal.sig Kind.scVector Space.vmem Cert.KernelIdeal.S1536 EltTy.f32).view.readAt (Elt F) (Rect.unit (s := S1536) ![816] S16.size inb_S1536_S16_816).toLoadRect acc)
          ((Memref.whole Cert.KernelIdeal.cc0_scratch6 : Memref Cert.KernelIdeal.sig Kind.scVector Space.vmem Cert.KernelIdeal.S1536 EltTy.f32).view.readAt (Elt F) (Rect.unit (s := S1536) ![912] S16.size inb_S1536_S16_912).toLoadRect acc)
          ((Memref.whole Cert.KernelIdeal.cc0_scratch6 : Memref Cert.KernelIdeal.sig Kind.scVector Space.vmem Cert.KernelIdeal.S1536 EltTy.f32).view.readAt (Elt F) (Rect.unit (s := S1536) ![1008] S16.size inb_S1536_S16_1008).toLoadRect acc)
          ((Memref.whole Cert.KernelIdeal.cc0_scratch6 : Memref Cert.KernelIdeal.sig Kind.scVector Space.vmem Cert.KernelIdeal.S1536 EltTy.f32).view.readAt (Elt F) (Rect.unit (s := S1536) ![1104] S16.size inb_S1536_S16_1104).toLoadRect acc)
          ((Memref.whole Cert.KernelIdeal.cc0_scratch6 : Memref Cert.KernelIdeal.sig Kind.scVector Space.vmem Cert.KernelIdeal.S1536 EltTy.f32).view.readAt (Elt F) (Rect.unit (s := S1536) ![1200] S16.size inb_S1536_S16_1200).toLoadRect acc))
        ((Memref.whole Cert.KernelIdeal.cc0_scratch6 : Memref Cert.KernelIdeal.sig Kind.scVector Space.vmem Cert.KernelIdeal.S1536 EltTy.f32).view.readAt (Elt F) (Rect.unit (s := S1536) ![1296] S16.size inb_S1536_S16_1296).toLoadRect acc)
        ((Memref.whole Cert.KernelIdeal.cc0_scratch6 : Memref Cert.KernelIdeal.sig Kind.scVector Space.vmem Cert.KernelIdeal.S1536 EltTy.f32).view.readAt (Elt F) (Rect.unit (s := S1536) ![1392] S16.size inb_S1536_S16_1392).toLoadRect acc)
        ((Memref.whole Cert.KernelIdeal.cc0_scratch6 : Memref Cert.KernelIdeal.sig Kind.scVector Space.vmem Cert.KernelIdeal.S1536 EltTy.f32).view.readAt (Elt F) (Rect.unit (s := S1536) ![1488] S16.size inb_S1536_S16_1488).toLoadRect acc)
        ((Memref.whole Cert.KernelIdeal.cc0_scratch5 : Memref Cert.KernelIdeal.sig Kind.scVector Space.vmem Cert.KernelIdeal.S96 EltTy.f32).view.readAt (Elt F) (Rect.unit (s := S96) ![48] S16.size inb_S96_S16_48).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

theorem outLane4 (inv : Vec F S96 .f32) (acc : Vec F S1536 .f32) (x : S16.Idx) (q : Nat) (hx : 64 + (x 0).val = q) :
    (k0_pay27 (k0_pay26 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![64] S16.size inb_S1536_S16_64).toLoadRect acc)
          ((Memref.whole Cert.KernelIdeal.cc0_scratch6 : Memref Cert.KernelIdeal.sig Kind.scVector Space.vmem Cert.KernelIdeal.S1536 EltTy.f32).view.readAt (Elt F) (Rect.unit (s := S1536) ![160] S16.size inb_S1536_S16_160).toLoadRect acc)
          ((Memref.whole Cert.KernelIdeal.cc0_scratch6 : Memref Cert.KernelIdeal.sig Kind.scVector Space.vmem Cert.KernelIdeal.S1536 EltTy.f32).view.readAt (Elt F) (Rect.unit (s := S1536) ![256] S16.size inb_S1536_S16_256).toLoadRect acc)
          ((Memref.whole Cert.KernelIdeal.cc0_scratch6 : Memref Cert.KernelIdeal.sig Kind.scVector Space.vmem Cert.KernelIdeal.S1536 EltTy.f32).view.readAt (Elt F) (Rect.unit (s := S1536) ![352] S16.size inb_S1536_S16_352).toLoadRect acc)
          ((Memref.whole Cert.KernelIdeal.cc0_scratch6 : Memref Cert.KernelIdeal.sig Kind.scVector Space.vmem Cert.KernelIdeal.S1536 EltTy.f32).view.readAt (Elt F) (Rect.unit (s := S1536) ![448] S16.size inb_S1536_S16_448).toLoadRect acc)
          ((Memref.whole Cert.KernelIdeal.cc0_scratch6 : Memref Cert.KernelIdeal.sig Kind.scVector Space.vmem Cert.KernelIdeal.S1536 EltTy.f32).view.readAt (Elt F) (Rect.unit (s := S1536) ![544] S16.size inb_S1536_S16_544).toLoadRect acc)
          ((Memref.whole Cert.KernelIdeal.cc0_scratch6 : Memref Cert.KernelIdeal.sig Kind.scVector Space.vmem Cert.KernelIdeal.S1536 EltTy.f32).view.readAt (Elt F) (Rect.unit (s := S1536) ![640] S16.size inb_S1536_S16_640).toLoadRect acc)
          ((Memref.whole Cert.KernelIdeal.cc0_scratch6 : Memref Cert.KernelIdeal.sig Kind.scVector Space.vmem Cert.KernelIdeal.S1536 EltTy.f32).view.readAt (Elt F) (Rect.unit (s := S1536) ![736] S16.size inb_S1536_S16_736).toLoadRect acc)
          ((Memref.whole Cert.KernelIdeal.cc0_scratch6 : Memref Cert.KernelIdeal.sig Kind.scVector Space.vmem Cert.KernelIdeal.S1536 EltTy.f32).view.readAt (Elt F) (Rect.unit (s := S1536) ![832] S16.size inb_S1536_S16_832).toLoadRect acc)
          ((Memref.whole Cert.KernelIdeal.cc0_scratch6 : Memref Cert.KernelIdeal.sig Kind.scVector Space.vmem Cert.KernelIdeal.S1536 EltTy.f32).view.readAt (Elt F) (Rect.unit (s := S1536) ![928] S16.size inb_S1536_S16_928).toLoadRect acc)
          ((Memref.whole Cert.KernelIdeal.cc0_scratch6 : Memref Cert.KernelIdeal.sig Kind.scVector Space.vmem Cert.KernelIdeal.S1536 EltTy.f32).view.readAt (Elt F) (Rect.unit (s := S1536) ![1024] S16.size inb_S1536_S16_1024).toLoadRect acc)
          ((Memref.whole Cert.KernelIdeal.cc0_scratch6 : Memref Cert.KernelIdeal.sig Kind.scVector Space.vmem Cert.KernelIdeal.S1536 EltTy.f32).view.readAt (Elt F) (Rect.unit (s := S1536) ![1120] S16.size inb_S1536_S16_1120).toLoadRect acc)
          ((Memref.whole Cert.KernelIdeal.cc0_scratch6 : Memref Cert.KernelIdeal.sig Kind.scVector Space.vmem Cert.KernelIdeal.S1536 EltTy.f32).view.readAt (Elt F) (Rect.unit (s := S1536) ![1216] S16.size inb_S1536_S16_1216).toLoadRect acc)
          ((Memref.whole Cert.KernelIdeal.cc0_scratch6 : Memref Cert.KernelIdeal.sig Kind.scVector Space.vmem Cert.KernelIdeal.S1536 EltTy.f32).view.readAt (Elt F) (Rect.unit (s := S1536) ![1312] S16.size inb_S1536_S16_1312).toLoadRect acc)
          ((Memref.whole Cert.KernelIdeal.cc0_scratch6 : Memref Cert.KernelIdeal.sig Kind.scVector Space.vmem Cert.KernelIdeal.S1536 EltTy.f32).view.readAt (Elt F) (Rect.unit (s := S1536) ![1408] S16.size inb_S1536_S16_1408).toLoadRect acc))
        ((Memref.whole Cert.KernelIdeal.cc0_scratch6 : Memref Cert.KernelIdeal.sig Kind.scVector Space.vmem Cert.KernelIdeal.S1536 EltTy.f32).view.readAt (Elt F) (Rect.unit (s := S1536) ![1504] S16.size inb_S1536_S16_1504).toLoadRect acc)
        ((Memref.whole Cert.KernelIdeal.cc0_scratch5 : Memref Cert.KernelIdeal.sig Kind.scVector Space.vmem Cert.KernelIdeal.S96 EltTy.f32).view.readAt (Elt F) (Rect.unit (s := S96) ![64] S16.size inb_S96_S16_64).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

theorem outLane5 (inv : Vec F S96 .f32) (acc : Vec F S1536 .f32) (x : S16.Idx) (q : Nat) (hx : 80 + (x 0).val = q) :
    (k0_pay29 (k0_pay28 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![80] S16.size inb_S1536_S16_80).toLoadRect acc)
          ((Memref.whole Cert.KernelIdeal.cc0_scratch6 : Memref Cert.KernelIdeal.sig Kind.scVector Space.vmem Cert.KernelIdeal.S1536 EltTy.f32).view.readAt (Elt F) (Rect.unit (s := S1536) ![176] S16.size inb_S1536_S16_176).toLoadRect acc)
          ((Memref.whole Cert.KernelIdeal.cc0_scratch6 : Memref Cert.KernelIdeal.sig Kind.scVector Space.vmem Cert.KernelIdeal.S1536 EltTy.f32).view.readAt (Elt F) (Rect.unit (s := S1536) ![272] S16.size inb_S1536_S16_272).toLoadRect acc)
          ((Memref.whole Cert.KernelIdeal.cc0_scratch6 : Memref Cert.KernelIdeal.sig Kind.scVector Space.vmem Cert.KernelIdeal.S1536 EltTy.f32).view.readAt (Elt F) (Rect.unit (s := S1536) ![368] S16.size inb_S1536_S16_368).toLoadRect acc)
          ((Memref.whole Cert.KernelIdeal.cc0_scratch6 : Memref Cert.KernelIdeal.sig Kind.scVector Space.vmem Cert.KernelIdeal.S1536 EltTy.f32).view.readAt (Elt F) (Rect.unit (s := S1536) ![464] S16.size inb_S1536_S16_464).toLoadRect acc)
          ((Memref.whole Cert.KernelIdeal.cc0_scratch6 : Memref Cert.KernelIdeal.sig Kind.scVector Space.vmem Cert.KernelIdeal.S1536 EltTy.f32).view.readAt (Elt F) (Rect.unit (s := S1536) ![560] S16.size inb_S1536_S16_560).toLoadRect acc)
          ((Memref.whole Cert.KernelIdeal.cc0_scratch6 : Memref Cert.KernelIdeal.sig Kind.scVector Space.vmem Cert.KernelIdeal.S1536 EltTy.f32).view.readAt (Elt F) (Rect.unit (s := S1536) ![656] S16.size inb_S1536_S16_656).toLoadRect acc)
          ((Memref.whole Cert.KernelIdeal.cc0_scratch6 : Memref Cert.KernelIdeal.sig Kind.scVector Space.vmem Cert.KernelIdeal.S1536 EltTy.f32).view.readAt (Elt F) (Rect.unit (s := S1536) ![752] S16.size inb_S1536_S16_752).toLoadRect acc))
        ((Memref.whole Cert.KernelIdeal.cc0_scratch6 : Memref Cert.KernelIdeal.sig Kind.scVector Space.vmem Cert.KernelIdeal.S1536 EltTy.f32).view.readAt (Elt F) (Rect.unit (s := S1536) ![848] S16.size inb_S1536_S16_848).toLoadRect acc)
        ((Memref.whole Cert.KernelIdeal.cc0_scratch6 : Memref Cert.KernelIdeal.sig Kind.scVector Space.vmem Cert.KernelIdeal.S1536 EltTy.f32).view.readAt (Elt F) (Rect.unit (s := S1536) ![944] S16.size inb_S1536_S16_944).toLoadRect acc)
        ((Memref.whole Cert.KernelIdeal.cc0_scratch6 : Memref Cert.KernelIdeal.sig Kind.scVector Space.vmem Cert.KernelIdeal.S1536 EltTy.f32).view.readAt (Elt F) (Rect.unit (s := S1536) ![1040] S16.size inb_S1536_S16_1040).toLoadRect acc)
        ((Memref.whole Cert.KernelIdeal.cc0_scratch6 : Memref Cert.KernelIdeal.sig Kind.scVector Space.vmem Cert.KernelIdeal.S1536 EltTy.f32).view.readAt (Elt F) (Rect.unit (s := S1536) ![1136] S16.size inb_S1536_S16_1136).toLoadRect acc)
        ((Memref.whole Cert.KernelIdeal.cc0_scratch6 : Memref Cert.KernelIdeal.sig Kind.scVector Space.vmem Cert.KernelIdeal.S1536 EltTy.f32).view.readAt (Elt F) (Rect.unit (s := S1536) ![1232] S16.size inb_S1536_S16_1232).toLoadRect acc)
        ((Memref.whole Cert.KernelIdeal.cc0_scratch6 : Memref Cert.KernelIdeal.sig Kind.scVector Space.vmem Cert.KernelIdeal.S1536 EltTy.f32).view.readAt (Elt F) (Rect.unit (s := S1536) ![1328] S16.size inb_S1536_S16_1328).toLoadRect acc)
        ((Memref.whole Cert.KernelIdeal.cc0_scratch6 : Memref Cert.KernelIdeal.sig Kind.scVector Space.vmem Cert.KernelIdeal.S1536 EltTy.f32).view.readAt (Elt F) (Rect.unit (s := S1536) ![1424] S16.size inb_S1536_S16_1424).toLoadRect acc)
        ((Memref.whole Cert.KernelIdeal.cc0_scratch6 : Memref Cert.KernelIdeal.sig Kind.scVector Space.vmem Cert.KernelIdeal.S1536 EltTy.f32).view.readAt (Elt F) (Rect.unit (s := S1536) ![1520] S16.size inb_S1536_S16_1520).toLoadRect acc)
        ((Memref.whole Cert.KernelIdeal.cc0_scratch5 : Memref Cert.KernelIdeal.sig Kind.scVector Space.vmem Cert.KernelIdeal.S96 EltTy.f32).view.readAt (Elt F) (Rect.unit (s := S96) ![80] S16.size inb_S96_S16_80).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

/-! ## The piece lists -/

/-- What the kernel stores into the inverse-count scratch, the last store first. -/
def invPieces (acc : Vec F S1536 .f32) : List (View.Piece (Elt F) S96 .f32) :=
  [⟨Rect.unit (s := S96) ![80] S16.size inb_S96_S16_80,
      k0_pay1 (k0_pay47 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![80] S16.size inb_S1536_S16_80).toLoadRect acc)
          ((Memref.whole Cert.KernelIdeal.cc0_scratch6 : Memref Cert.KernelIdeal.sig Kind.scVector Space.vmem Cert.KernelIdeal.S1536 EltTy.f32).view.readAt (Elt F) (Rect.unit (s := S1536) ![176] S16.size inb_S1536_S16_176).toLoadRect acc)
          ((Memref.whole Cert.KernelIdeal.cc0_scratch6 : Memref Cert.KernelIdeal.sig Kind.scVector Space.vmem Cert.KernelIdeal.S1536 EltTy.f32).view.readAt (Elt F) (Rect.unit (s := S1536) ![272] S16.size inb_S1536_S16_272).toLoadRect acc)
          ((Memref.whole Cert.KernelIdeal.cc0_scratch6 : Memref Cert.KernelIdeal.sig Kind.scVector Space.vmem Cert.KernelIdeal.S1536 EltTy.f32).view.readAt (Elt F) (Rect.unit (s := S1536) ![368] S16.size inb_S1536_S16_368).toLoadRect acc)
          ((Memref.whole Cert.KernelIdeal.cc0_scratch6 : Memref Cert.KernelIdeal.sig Kind.scVector Space.vmem Cert.KernelIdeal.S1536 EltTy.f32).view.readAt (Elt F) (Rect.unit (s := S1536) ![464] S16.size inb_S1536_S16_464).toLoadRect acc)
          ((Memref.whole Cert.KernelIdeal.cc0_scratch6 : Memref Cert.KernelIdeal.sig Kind.scVector Space.vmem Cert.KernelIdeal.S1536 EltTy.f32).view.readAt (Elt F) (Rect.unit (s := S1536) ![560] S16.size inb_S1536_S16_560).toLoadRect acc)
          ((Memref.whole Cert.KernelIdeal.cc0_scratch6 : Memref Cert.KernelIdeal.sig Kind.scVector Space.vmem Cert.KernelIdeal.S1536 EltTy.f32).view.readAt (Elt F) (Rect.unit (s := S1536) ![656] S16.size inb_S1536_S16_656).toLoadRect acc)
          ((Memref.whole Cert.KernelIdeal.cc0_scratch6 : Memref Cert.KernelIdeal.sig Kind.scVector Space.vmem Cert.KernelIdeal.S1536 EltTy.f32).view.readAt (Elt F) (Rect.unit (s := S1536) ![752] S16.size inb_S1536_S16_752).toLoadRect acc)
          ((Memref.whole Cert.KernelIdeal.cc0_scratch6 : Memref Cert.KernelIdeal.sig Kind.scVector Space.vmem Cert.KernelIdeal.S1536 EltTy.f32).view.readAt (Elt F) (Rect.unit (s := S1536) ![848] S16.size inb_S1536_S16_848).toLoadRect acc)
          ((Memref.whole Cert.KernelIdeal.cc0_scratch6 : Memref Cert.KernelIdeal.sig Kind.scVector Space.vmem Cert.KernelIdeal.S1536 EltTy.f32).view.readAt (Elt F) (Rect.unit (s := S1536) ![944] S16.size inb_S1536_S16_944).toLoadRect acc)
          ((Memref.whole Cert.KernelIdeal.cc0_scratch6 : Memref Cert.KernelIdeal.sig Kind.scVector Space.vmem Cert.KernelIdeal.S1536 EltTy.f32).view.readAt (Elt F) (Rect.unit (s := S1536) ![1040] S16.size inb_S1536_S16_1040).toLoadRect acc)
          ((Memref.whole Cert.KernelIdeal.cc0_scratch6 : Memref Cert.KernelIdeal.sig Kind.scVector Space.vmem Cert.KernelIdeal.S1536 EltTy.f32).view.readAt (Elt F) (Rect.unit (s := S1536) ![1136] S16.size inb_S1536_S16_1136).toLoadRect acc)
          ((Memref.whole Cert.KernelIdeal.cc0_scratch6 : Memref Cert.KernelIdeal.sig Kind.scVector Space.vmem Cert.KernelIdeal.S1536 EltTy.f32).view.readAt (Elt F) (Rect.unit (s := S1536) ![1232] S16.size inb_S1536_S16_1232).toLoadRect acc)
          ((Memref.whole Cert.KernelIdeal.cc0_scratch6 : Memref Cert.KernelIdeal.sig Kind.scVector Space.vmem Cert.KernelIdeal.S1536 EltTy.f32).view.readAt (Elt F) (Rect.unit (s := S1536) ![1328] S16.size inb_S1536_S16_1328).toLoadRect acc))
        ((Memref.whole Cert.KernelIdeal.cc0_scratch6 : Memref Cert.KernelIdeal.sig Kind.scVector Space.vmem Cert.KernelIdeal.S1536 EltTy.f32).view.readAt (Elt F) (Rect.unit (s := S1536) ![1424] S16.size inb_S1536_S16_1424).toLoadRect acc)
        ((Memref.whole Cert.KernelIdeal.cc0_scratch6 : Memref Cert.KernelIdeal.sig Kind.scVector Space.vmem Cert.KernelIdeal.S1536 EltTy.f32).view.readAt (Elt F) (Rect.unit (s := S1536) ![1520] S16.size inb_S1536_S16_1520).toLoadRect acc)⟩,
    ⟨Rect.unit (s := S96) ![64] S16.size inb_S96_S16_64,
      k0_pay46 (k0_pay45 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![64] S16.size inb_S1536_S16_64).toLoadRect acc)
          ((Memref.whole Cert.KernelIdeal.cc0_scratch6 : Memref Cert.KernelIdeal.sig Kind.scVector Space.vmem Cert.KernelIdeal.S1536 EltTy.f32).view.readAt (Elt F) (Rect.unit (s := S1536) ![160] S16.size inb_S1536_S16_160).toLoadRect acc)
          ((Memref.whole Cert.KernelIdeal.cc0_scratch6 : Memref Cert.KernelIdeal.sig Kind.scVector Space.vmem Cert.KernelIdeal.S1536 EltTy.f32).view.readAt (Elt F) (Rect.unit (s := S1536) ![256] S16.size inb_S1536_S16_256).toLoadRect acc)
          ((Memref.whole Cert.KernelIdeal.cc0_scratch6 : Memref Cert.KernelIdeal.sig Kind.scVector Space.vmem Cert.KernelIdeal.S1536 EltTy.f32).view.readAt (Elt F) (Rect.unit (s := S1536) ![352] S16.size inb_S1536_S16_352).toLoadRect acc)
          ((Memref.whole Cert.KernelIdeal.cc0_scratch6 : Memref Cert.KernelIdeal.sig Kind.scVector Space.vmem Cert.KernelIdeal.S1536 EltTy.f32).view.readAt (Elt F) (Rect.unit (s := S1536) ![448] S16.size inb_S1536_S16_448).toLoadRect acc)
          ((Memref.whole Cert.KernelIdeal.cc0_scratch6 : Memref Cert.KernelIdeal.sig Kind.scVector Space.vmem Cert.KernelIdeal.S1536 EltTy.f32).view.readAt (Elt F) (Rect.unit (s := S1536) ![544] S16.size inb_S1536_S16_544).toLoadRect acc)
          ((Memref.whole Cert.KernelIdeal.cc0_scratch6 : Memref Cert.KernelIdeal.sig Kind.scVector Space.vmem Cert.KernelIdeal.S1536 EltTy.f32).view.readAt (Elt F) (Rect.unit (s := S1536) ![640] S16.size inb_S1536_S16_640).toLoadRect acc)
          ((Memref.whole Cert.KernelIdeal.cc0_scratch6 : Memref Cert.KernelIdeal.sig Kind.scVector Space.vmem Cert.KernelIdeal.S1536 EltTy.f32).view.readAt (Elt F) (Rect.unit (s := S1536) ![736] S16.size inb_S1536_S16_736).toLoadRect acc)
          ((Memref.whole Cert.KernelIdeal.cc0_scratch6 : Memref Cert.KernelIdeal.sig Kind.scVector Space.vmem Cert.KernelIdeal.S1536 EltTy.f32).view.readAt (Elt F) (Rect.unit (s := S1536) ![832] S16.size inb_S1536_S16_832).toLoadRect acc)
          ((Memref.whole Cert.KernelIdeal.cc0_scratch6 : Memref Cert.KernelIdeal.sig Kind.scVector Space.vmem Cert.KernelIdeal.S1536 EltTy.f32).view.readAt (Elt F) (Rect.unit (s := S1536) ![928] S16.size inb_S1536_S16_928).toLoadRect acc)
          ((Memref.whole Cert.KernelIdeal.cc0_scratch6 : Memref Cert.KernelIdeal.sig Kind.scVector Space.vmem Cert.KernelIdeal.S1536 EltTy.f32).view.readAt (Elt F) (Rect.unit (s := S1536) ![1024] S16.size inb_S1536_S16_1024).toLoadRect acc)
          ((Memref.whole Cert.KernelIdeal.cc0_scratch6 : Memref Cert.KernelIdeal.sig Kind.scVector Space.vmem Cert.KernelIdeal.S1536 EltTy.f32).view.readAt (Elt F) (Rect.unit (s := S1536) ![1120] S16.size inb_S1536_S16_1120).toLoadRect acc)
          ((Memref.whole Cert.KernelIdeal.cc0_scratch6 : Memref Cert.KernelIdeal.sig Kind.scVector Space.vmem Cert.KernelIdeal.S1536 EltTy.f32).view.readAt (Elt F) (Rect.unit (s := S1536) ![1216] S16.size inb_S1536_S16_1216).toLoadRect acc))
        ((Memref.whole Cert.KernelIdeal.cc0_scratch6 : Memref Cert.KernelIdeal.sig Kind.scVector Space.vmem Cert.KernelIdeal.S1536 EltTy.f32).view.readAt (Elt F) (Rect.unit (s := S1536) ![1312] S16.size inb_S1536_S16_1312).toLoadRect acc)
        ((Memref.whole Cert.KernelIdeal.cc0_scratch6 : Memref Cert.KernelIdeal.sig Kind.scVector Space.vmem Cert.KernelIdeal.S1536 EltTy.f32).view.readAt (Elt F) (Rect.unit (s := S1536) ![1408] S16.size inb_S1536_S16_1408).toLoadRect acc)
        ((Memref.whole Cert.KernelIdeal.cc0_scratch6 : Memref Cert.KernelIdeal.sig Kind.scVector Space.vmem Cert.KernelIdeal.S1536 EltTy.f32).view.readAt (Elt F) (Rect.unit (s := S1536) ![1504] S16.size inb_S1536_S16_1504).toLoadRect acc)⟩,
    ⟨Rect.unit (s := S96) ![48] S16.size inb_S96_S16_48,
      k0_pay44 (k0_pay43 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![48] S16.size inb_S1536_S16_48).toLoadRect acc)
          ((Memref.whole Cert.KernelIdeal.cc0_scratch6 : Memref Cert.KernelIdeal.sig Kind.scVector Space.vmem Cert.KernelIdeal.S1536 EltTy.f32).view.readAt (Elt F) (Rect.unit (s := S1536) ![144] S16.size inb_S1536_S16_144).toLoadRect acc)
          ((Memref.whole Cert.KernelIdeal.cc0_scratch6 : Memref Cert.KernelIdeal.sig Kind.scVector Space.vmem Cert.KernelIdeal.S1536 EltTy.f32).view.readAt (Elt F) (Rect.unit (s := S1536) ![240] S16.size inb_S1536_S16_240).toLoadRect acc)
          ((Memref.whole Cert.KernelIdeal.cc0_scratch6 : Memref Cert.KernelIdeal.sig Kind.scVector Space.vmem Cert.KernelIdeal.S1536 EltTy.f32).view.readAt (Elt F) (Rect.unit (s := S1536) ![336] S16.size inb_S1536_S16_336).toLoadRect acc)
          ((Memref.whole Cert.KernelIdeal.cc0_scratch6 : Memref Cert.KernelIdeal.sig Kind.scVector Space.vmem Cert.KernelIdeal.S1536 EltTy.f32).view.readAt (Elt F) (Rect.unit (s := S1536) ![432] S16.size inb_S1536_S16_432).toLoadRect acc)
          ((Memref.whole Cert.KernelIdeal.cc0_scratch6 : Memref Cert.KernelIdeal.sig Kind.scVector Space.vmem Cert.KernelIdeal.S1536 EltTy.f32).view.readAt (Elt F) (Rect.unit (s := S1536) ![528] S16.size inb_S1536_S16_528).toLoadRect acc)
          ((Memref.whole Cert.KernelIdeal.cc0_scratch6 : Memref Cert.KernelIdeal.sig Kind.scVector Space.vmem Cert.KernelIdeal.S1536 EltTy.f32).view.readAt (Elt F) (Rect.unit (s := S1536) ![624] S16.size inb_S1536_S16_624).toLoadRect acc)
          ((Memref.whole Cert.KernelIdeal.cc0_scratch6 : Memref Cert.KernelIdeal.sig Kind.scVector Space.vmem Cert.KernelIdeal.S1536 EltTy.f32).view.readAt (Elt F) (Rect.unit (s := S1536) ![720] S16.size inb_S1536_S16_720).toLoadRect acc)
          ((Memref.whole Cert.KernelIdeal.cc0_scratch6 : Memref Cert.KernelIdeal.sig Kind.scVector Space.vmem Cert.KernelIdeal.S1536 EltTy.f32).view.readAt (Elt F) (Rect.unit (s := S1536) ![816] S16.size inb_S1536_S16_816).toLoadRect acc)
          ((Memref.whole Cert.KernelIdeal.cc0_scratch6 : Memref Cert.KernelIdeal.sig Kind.scVector Space.vmem Cert.KernelIdeal.S1536 EltTy.f32).view.readAt (Elt F) (Rect.unit (s := S1536) ![912] S16.size inb_S1536_S16_912).toLoadRect acc)
          ((Memref.whole Cert.KernelIdeal.cc0_scratch6 : Memref Cert.KernelIdeal.sig Kind.scVector Space.vmem Cert.KernelIdeal.S1536 EltTy.f32).view.readAt (Elt F) (Rect.unit (s := S1536) ![1008] S16.size inb_S1536_S16_1008).toLoadRect acc)
          ((Memref.whole Cert.KernelIdeal.cc0_scratch6 : Memref Cert.KernelIdeal.sig Kind.scVector Space.vmem Cert.KernelIdeal.S1536 EltTy.f32).view.readAt (Elt F) (Rect.unit (s := S1536) ![1104] S16.size inb_S1536_S16_1104).toLoadRect acc))
        ((Memref.whole Cert.KernelIdeal.cc0_scratch6 : Memref Cert.KernelIdeal.sig Kind.scVector Space.vmem Cert.KernelIdeal.S1536 EltTy.f32).view.readAt (Elt F) (Rect.unit (s := S1536) ![1200] S16.size inb_S1536_S16_1200).toLoadRect acc)
        ((Memref.whole Cert.KernelIdeal.cc0_scratch6 : Memref Cert.KernelIdeal.sig Kind.scVector Space.vmem Cert.KernelIdeal.S1536 EltTy.f32).view.readAt (Elt F) (Rect.unit (s := S1536) ![1296] S16.size inb_S1536_S16_1296).toLoadRect acc)
        ((Memref.whole Cert.KernelIdeal.cc0_scratch6 : Memref Cert.KernelIdeal.sig Kind.scVector Space.vmem Cert.KernelIdeal.S1536 EltTy.f32).view.readAt (Elt F) (Rect.unit (s := S1536) ![1392] S16.size inb_S1536_S16_1392).toLoadRect acc)
        ((Memref.whole Cert.KernelIdeal.cc0_scratch6 : Memref Cert.KernelIdeal.sig Kind.scVector Space.vmem Cert.KernelIdeal.S1536 EltTy.f32).view.readAt (Elt F) (Rect.unit (s := S1536) ![1488] S16.size inb_S1536_S16_1488).toLoadRect acc)⟩,
    ⟨Rect.unit (s := S96) ![32] S16.size inb_S96_S16_32,
      k0_pay42 (k0_pay41 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![32] S16.size inb_S1536_S16_32).toLoadRect acc)
          ((Memref.whole Cert.KernelIdeal.cc0_scratch6 : Memref Cert.KernelIdeal.sig Kind.scVector Space.vmem Cert.KernelIdeal.S1536 EltTy.f32).view.readAt (Elt F) (Rect.unit (s := S1536) ![128] S16.size inb_S1536_S16_128).toLoadRect acc)
          ((Memref.whole Cert.KernelIdeal.cc0_scratch6 : Memref Cert.KernelIdeal.sig Kind.scVector Space.vmem Cert.KernelIdeal.S1536 EltTy.f32).view.readAt (Elt F) (Rect.unit (s := S1536) ![224] S16.size inb_S1536_S16_224).toLoadRect acc)
          ((Memref.whole Cert.KernelIdeal.cc0_scratch6 : Memref Cert.KernelIdeal.sig Kind.scVector Space.vmem Cert.KernelIdeal.S1536 EltTy.f32).view.readAt (Elt F) (Rect.unit (s := S1536) ![320] S16.size inb_S1536_S16_320).toLoadRect acc)
          ((Memref.whole Cert.KernelIdeal.cc0_scratch6 : Memref Cert.KernelIdeal.sig Kind.scVector Space.vmem Cert.KernelIdeal.S1536 EltTy.f32).view.readAt (Elt F) (Rect.unit (s := S1536) ![416] S16.size inb_S1536_S16_416).toLoadRect acc)
          ((Memref.whole Cert.KernelIdeal.cc0_scratch6 : Memref Cert.KernelIdeal.sig Kind.scVector Space.vmem Cert.KernelIdeal.S1536 EltTy.f32).view.readAt (Elt F) (Rect.unit (s := S1536) ![512] S16.size inb_S1536_S16_512).toLoadRect acc)
          ((Memref.whole Cert.KernelIdeal.cc0_scratch6 : Memref Cert.KernelIdeal.sig Kind.scVector Space.vmem Cert.KernelIdeal.S1536 EltTy.f32).view.readAt (Elt F) (Rect.unit (s := S1536) ![608] S16.size inb_S1536_S16_608).toLoadRect acc)
          ((Memref.whole Cert.KernelIdeal.cc0_scratch6 : Memref Cert.KernelIdeal.sig Kind.scVector Space.vmem Cert.KernelIdeal.S1536 EltTy.f32).view.readAt (Elt F) (Rect.unit (s := S1536) ![704] S16.size inb_S1536_S16_704).toLoadRect acc)
          ((Memref.whole Cert.KernelIdeal.cc0_scratch6 : Memref Cert.KernelIdeal.sig Kind.scVector Space.vmem Cert.KernelIdeal.S1536 EltTy.f32).view.readAt (Elt F) (Rect.unit (s := S1536) ![800] S16.size inb_S1536_S16_800).toLoadRect acc)
          ((Memref.whole Cert.KernelIdeal.cc0_scratch6 : Memref Cert.KernelIdeal.sig Kind.scVector Space.vmem Cert.KernelIdeal.S1536 EltTy.f32).view.readAt (Elt F) (Rect.unit (s := S1536) ![896] S16.size inb_S1536_S16_896).toLoadRect acc)
          ((Memref.whole Cert.KernelIdeal.cc0_scratch6 : Memref Cert.KernelIdeal.sig Kind.scVector Space.vmem Cert.KernelIdeal.S1536 EltTy.f32).view.readAt (Elt F) (Rect.unit (s := S1536) ![992] S16.size inb_S1536_S16_992).toLoadRect acc))
        ((Memref.whole Cert.KernelIdeal.cc0_scratch6 : Memref Cert.KernelIdeal.sig Kind.scVector Space.vmem Cert.KernelIdeal.S1536 EltTy.f32).view.readAt (Elt F) (Rect.unit (s := S1536) ![1088] S16.size inb_S1536_S16_1088).toLoadRect acc)
        ((Memref.whole Cert.KernelIdeal.cc0_scratch6 : Memref Cert.KernelIdeal.sig Kind.scVector Space.vmem Cert.KernelIdeal.S1536 EltTy.f32).view.readAt (Elt F) (Rect.unit (s := S1536) ![1184] S16.size inb_S1536_S16_1184).toLoadRect acc)
        ((Memref.whole Cert.KernelIdeal.cc0_scratch6 : Memref Cert.KernelIdeal.sig Kind.scVector Space.vmem Cert.KernelIdeal.S1536 EltTy.f32).view.readAt (Elt F) (Rect.unit (s := S1536) ![1280] S16.size inb_S1536_S16_1280).toLoadRect acc)
        ((Memref.whole Cert.KernelIdeal.cc0_scratch6 : Memref Cert.KernelIdeal.sig Kind.scVector Space.vmem Cert.KernelIdeal.S1536 EltTy.f32).view.readAt (Elt F) (Rect.unit (s := S1536) ![1376] S16.size inb_S1536_S16_1376).toLoadRect acc)
        ((Memref.whole Cert.KernelIdeal.cc0_scratch6 : Memref Cert.KernelIdeal.sig Kind.scVector Space.vmem Cert.KernelIdeal.S1536 EltTy.f32).view.readAt (Elt F) (Rect.unit (s := S1536) ![1472] S16.size inb_S1536_S16_1472).toLoadRect acc)⟩,
    ⟨Rect.unit (s := S96) ![16] S16.size inb_S96_S16_16,
      k0_pay40 (k0_pay39 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![16] S16.size inb_S1536_S16_16).toLoadRect acc)
          ((Memref.whole Cert.KernelIdeal.cc0_scratch6 : Memref Cert.KernelIdeal.sig Kind.scVector Space.vmem Cert.KernelIdeal.S1536 EltTy.f32).view.readAt (Elt F) (Rect.unit (s := S1536) ![112] S16.size inb_S1536_S16_112).toLoadRect acc)
          ((Memref.whole Cert.KernelIdeal.cc0_scratch6 : Memref Cert.KernelIdeal.sig Kind.scVector Space.vmem Cert.KernelIdeal.S1536 EltTy.f32).view.readAt (Elt F) (Rect.unit (s := S1536) ![208] S16.size inb_S1536_S16_208).toLoadRect acc)
          ((Memref.whole Cert.KernelIdeal.cc0_scratch6 : Memref Cert.KernelIdeal.sig Kind.scVector Space.vmem Cert.KernelIdeal.S1536 EltTy.f32).view.readAt (Elt F) (Rect.unit (s := S1536) ![304] S16.size inb_S1536_S16_304).toLoadRect acc)
          ((Memref.whole Cert.KernelIdeal.cc0_scratch6 : Memref Cert.KernelIdeal.sig Kind.scVector Space.vmem Cert.KernelIdeal.S1536 EltTy.f32).view.readAt (Elt F) (Rect.unit (s := S1536) ![400] S16.size inb_S1536_S16_400).toLoadRect acc)
          ((Memref.whole Cert.KernelIdeal.cc0_scratch6 : Memref Cert.KernelIdeal.sig Kind.scVector Space.vmem Cert.KernelIdeal.S1536 EltTy.f32).view.readAt (Elt F) (Rect.unit (s := S1536) ![496] S16.size inb_S1536_S16_496).toLoadRect acc)
          ((Memref.whole Cert.KernelIdeal.cc0_scratch6 : Memref Cert.KernelIdeal.sig Kind.scVector Space.vmem Cert.KernelIdeal.S1536 EltTy.f32).view.readAt (Elt F) (Rect.unit (s := S1536) ![592] S16.size inb_S1536_S16_592).toLoadRect acc)
          ((Memref.whole Cert.KernelIdeal.cc0_scratch6 : Memref Cert.KernelIdeal.sig Kind.scVector Space.vmem Cert.KernelIdeal.S1536 EltTy.f32).view.readAt (Elt F) (Rect.unit (s := S1536) ![688] S16.size inb_S1536_S16_688).toLoadRect acc)
          ((Memref.whole Cert.KernelIdeal.cc0_scratch6 : Memref Cert.KernelIdeal.sig Kind.scVector Space.vmem Cert.KernelIdeal.S1536 EltTy.f32).view.readAt (Elt F) (Rect.unit (s := S1536) ![784] S16.size inb_S1536_S16_784).toLoadRect acc)
          ((Memref.whole Cert.KernelIdeal.cc0_scratch6 : Memref Cert.KernelIdeal.sig Kind.scVector Space.vmem Cert.KernelIdeal.S1536 EltTy.f32).view.readAt (Elt F) (Rect.unit (s := S1536) ![880] S16.size inb_S1536_S16_880).toLoadRect acc))
        ((Memref.whole Cert.KernelIdeal.cc0_scratch6 : Memref Cert.KernelIdeal.sig Kind.scVector Space.vmem Cert.KernelIdeal.S1536 EltTy.f32).view.readAt (Elt F) (Rect.unit (s := S1536) ![976] S16.size inb_S1536_S16_976).toLoadRect acc)
        ((Memref.whole Cert.KernelIdeal.cc0_scratch6 : Memref Cert.KernelIdeal.sig Kind.scVector Space.vmem Cert.KernelIdeal.S1536 EltTy.f32).view.readAt (Elt F) (Rect.unit (s := S1536) ![1072] S16.size inb_S1536_S16_1072).toLoadRect acc)
        ((Memref.whole Cert.KernelIdeal.cc0_scratch6 : Memref Cert.KernelIdeal.sig Kind.scVector Space.vmem Cert.KernelIdeal.S1536 EltTy.f32).view.readAt (Elt F) (Rect.unit (s := S1536) ![1168] S16.size inb_S1536_S16_1168).toLoadRect acc)
        ((Memref.whole Cert.KernelIdeal.cc0_scratch6 : Memref Cert.KernelIdeal.sig Kind.scVector Space.vmem Cert.KernelIdeal.S1536 EltTy.f32).view.readAt (Elt F) (Rect.unit (s := S1536) ![1264] S16.size inb_S1536_S16_1264).toLoadRect acc)
        ((Memref.whole Cert.KernelIdeal.cc0_scratch6 : Memref Cert.KernelIdeal.sig Kind.scVector Space.vmem Cert.KernelIdeal.S1536 EltTy.f32).view.readAt (Elt F) (Rect.unit (s := S1536) ![1360] S16.size inb_S1536_S16_1360).toLoadRect acc)
        ((Memref.whole Cert.KernelIdeal.cc0_scratch6 : Memref Cert.KernelIdeal.sig Kind.scVector Space.vmem Cert.KernelIdeal.S1536 EltTy.f32).view.readAt (Elt F) (Rect.unit (s := S1536) ![1456] S16.size inb_S1536_S16_1456).toLoadRect acc)⟩,
    ⟨Rect.unit (s := S96) ![0] S16.size inb_S96_S16_0,
      k0_pay38 (k0_pay37
          ((Memref.whole Cert.KernelIdeal.cc0_scratch6 : Memref Cert.KernelIdeal.sig Kind.scVector Space.vmem Cert.KernelIdeal.S1536 EltTy.f32).view.readAt (Elt F) (Rect.unit (s := S1536) ![0] S16.size inb_S1536_S16_0).toLoadRect acc)
          ((Memref.whole Cert.KernelIdeal.cc0_scratch6 : Memref Cert.KernelIdeal.sig Kind.scVector Space.vmem Cert.KernelIdeal.S1536 EltTy.f32).view.readAt (Elt F) (Rect.unit (s := S1536) ![96] S16.size inb_S1536_S16_96).toLoadRect acc)
          ((Memref.whole Cert.KernelIdeal.cc0_scratch6 : Memref Cert.KernelIdeal.sig Kind.scVector Space.vmem Cert.KernelIdeal.S1536 EltTy.f32).view.readAt (Elt F) (Rect.unit (s := S1536) ![192] S16.size inb_S1536_S16_192).toLoadRect acc)
          ((Memref.whole Cert.KernelIdeal.cc0_scratch6 : Memref Cert.KernelIdeal.sig Kind.scVector Space.vmem Cert.KernelIdeal.S1536 EltTy.f32).view.readAt (Elt F) (Rect.unit (s := S1536) ![288] S16.size inb_S1536_S16_288).toLoadRect acc)
          ((Memref.whole Cert.KernelIdeal.cc0_scratch6 : Memref Cert.KernelIdeal.sig Kind.scVector Space.vmem Cert.KernelIdeal.S1536 EltTy.f32).view.readAt (Elt F) (Rect.unit (s := S1536) ![384] S16.size inb_S1536_S16_384).toLoadRect acc)
          ((Memref.whole Cert.KernelIdeal.cc0_scratch6 : Memref Cert.KernelIdeal.sig Kind.scVector Space.vmem Cert.KernelIdeal.S1536 EltTy.f32).view.readAt (Elt F) (Rect.unit (s := S1536) ![480] S16.size inb_S1536_S16_480).toLoadRect acc)
          ((Memref.whole Cert.KernelIdeal.cc0_scratch6 : Memref Cert.KernelIdeal.sig Kind.scVector Space.vmem Cert.KernelIdeal.S1536 EltTy.f32).view.readAt (Elt F) (Rect.unit (s := S1536) ![576] S16.size inb_S1536_S16_576).toLoadRect acc)
          ((Memref.whole Cert.KernelIdeal.cc0_scratch6 : Memref Cert.KernelIdeal.sig Kind.scVector Space.vmem Cert.KernelIdeal.S1536 EltTy.f32).view.readAt (Elt F) (Rect.unit (s := S1536) ![672] S16.size inb_S1536_S16_672).toLoadRect acc)
          ((Memref.whole Cert.KernelIdeal.cc0_scratch6 : Memref Cert.KernelIdeal.sig Kind.scVector Space.vmem Cert.KernelIdeal.S1536 EltTy.f32).view.readAt (Elt F) (Rect.unit (s := S1536) ![768] S16.size inb_S1536_S16_768).toLoadRect acc))
        ((Memref.whole Cert.KernelIdeal.cc0_scratch6 : Memref Cert.KernelIdeal.sig Kind.scVector Space.vmem Cert.KernelIdeal.S1536 EltTy.f32).view.readAt (Elt F) (Rect.unit (s := S1536) ![864] S16.size inb_S1536_S16_864).toLoadRect acc)
        ((Memref.whole Cert.KernelIdeal.cc0_scratch6 : Memref Cert.KernelIdeal.sig Kind.scVector Space.vmem Cert.KernelIdeal.S1536 EltTy.f32).view.readAt (Elt F) (Rect.unit (s := S1536) ![960] S16.size inb_S1536_S16_960).toLoadRect acc)
        ((Memref.whole Cert.KernelIdeal.cc0_scratch6 : Memref Cert.KernelIdeal.sig Kind.scVector Space.vmem Cert.KernelIdeal.S1536 EltTy.f32).view.readAt (Elt F) (Rect.unit (s := S1536) ![1056] S16.size inb_S1536_S16_1056).toLoadRect acc)
        ((Memref.whole Cert.KernelIdeal.cc0_scratch6 : Memref Cert.KernelIdeal.sig Kind.scVector Space.vmem Cert.KernelIdeal.S1536 EltTy.f32).view.readAt (Elt F) (Rect.unit (s := S1536) ![1152] S16.size inb_S1536_S16_1152).toLoadRect acc)
        ((Memref.whole Cert.KernelIdeal.cc0_scratch6 : Memref Cert.KernelIdeal.sig Kind.scVector Space.vmem Cert.KernelIdeal.S1536 EltTy.f32).view.readAt (Elt F) (Rect.unit (s := S1536) ![1248] S16.size inb_S1536_S16_1248).toLoadRect acc)
        ((Memref.whole Cert.KernelIdeal.cc0_scratch6 : Memref Cert.KernelIdeal.sig Kind.scVector Space.vmem Cert.KernelIdeal.S1536 EltTy.f32).view.readAt (Elt F) (Rect.unit (s := S1536) ![1344] S16.size inb_S1536_S16_1344).toLoadRect acc)
        ((Memref.whole Cert.KernelIdeal.cc0_scratch6 : Memref Cert.KernelIdeal.sig Kind.scVector Space.vmem Cert.KernelIdeal.S1536 EltTy.f32).view.readAt (Elt F) (Rect.unit (s := S1536) ![1440] S16.size inb_S1536_S16_1440).toLoadRect acc)⟩]

/-- What the kernel stores into the last 96 words of the row scratch, the last store first. -/
def outPieces (inv : Vec F S96 .f32) (acc : Vec F S1536 .f32) : List (View.Piece (Elt F) S24672 .f32) :=
  [⟨Rect.unit (s := S24672) ![24656] S16.size inb_S24672_S16_24656,
      k0_pay29 (k0_pay28 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![80] S16.size inb_S1536_S16_80).toLoadRect acc)
          ((Memref.whole Cert.KernelIdeal.cc0_scratch6 : Memref Cert.KernelIdeal.sig Kind.scVector Space.vmem Cert.KernelIdeal.S1536 EltTy.f32).view.readAt (Elt F) (Rect.unit (s := S1536) ![176] S16.size inb_S1536_S16_176).toLoadRect acc)
          ((Memref.whole Cert.KernelIdeal.cc0_scratch6 : Memref Cert.KernelIdeal.sig Kind.scVector Space.vmem Cert.KernelIdeal.S1536 EltTy.f32).view.readAt (Elt F) (Rect.unit (s := S1536) ![272] S16.size inb_S1536_S16_272).toLoadRect acc)
          ((Memref.whole Cert.KernelIdeal.cc0_scratch6 : Memref Cert.KernelIdeal.sig Kind.scVector Space.vmem Cert.KernelIdeal.S1536 EltTy.f32).view.readAt (Elt F) (Rect.unit (s := S1536) ![368] S16.size inb_S1536_S16_368).toLoadRect acc)
          ((Memref.whole Cert.KernelIdeal.cc0_scratch6 : Memref Cert.KernelIdeal.sig Kind.scVector Space.vmem Cert.KernelIdeal.S1536 EltTy.f32).view.readAt (Elt F) (Rect.unit (s := S1536) ![464] S16.size inb_S1536_S16_464).toLoadRect acc)
          ((Memref.whole Cert.KernelIdeal.cc0_scratch6 : Memref Cert.KernelIdeal.sig Kind.scVector Space.vmem Cert.KernelIdeal.S1536 EltTy.f32).view.readAt (Elt F) (Rect.unit (s := S1536) ![560] S16.size inb_S1536_S16_560).toLoadRect acc)
          ((Memref.whole Cert.KernelIdeal.cc0_scratch6 : Memref Cert.KernelIdeal.sig Kind.scVector Space.vmem Cert.KernelIdeal.S1536 EltTy.f32).view.readAt (Elt F) (Rect.unit (s := S1536) ![656] S16.size inb_S1536_S16_656).toLoadRect acc)
          ((Memref.whole Cert.KernelIdeal.cc0_scratch6 : Memref Cert.KernelIdeal.sig Kind.scVector Space.vmem Cert.KernelIdeal.S1536 EltTy.f32).view.readAt (Elt F) (Rect.unit (s := S1536) ![752] S16.size inb_S1536_S16_752).toLoadRect acc))
        ((Memref.whole Cert.KernelIdeal.cc0_scratch6 : Memref Cert.KernelIdeal.sig Kind.scVector Space.vmem Cert.KernelIdeal.S1536 EltTy.f32).view.readAt (Elt F) (Rect.unit (s := S1536) ![848] S16.size inb_S1536_S16_848).toLoadRect acc)
        ((Memref.whole Cert.KernelIdeal.cc0_scratch6 : Memref Cert.KernelIdeal.sig Kind.scVector Space.vmem Cert.KernelIdeal.S1536 EltTy.f32).view.readAt (Elt F) (Rect.unit (s := S1536) ![944] S16.size inb_S1536_S16_944).toLoadRect acc)
        ((Memref.whole Cert.KernelIdeal.cc0_scratch6 : Memref Cert.KernelIdeal.sig Kind.scVector Space.vmem Cert.KernelIdeal.S1536 EltTy.f32).view.readAt (Elt F) (Rect.unit (s := S1536) ![1040] S16.size inb_S1536_S16_1040).toLoadRect acc)
        ((Memref.whole Cert.KernelIdeal.cc0_scratch6 : Memref Cert.KernelIdeal.sig Kind.scVector Space.vmem Cert.KernelIdeal.S1536 EltTy.f32).view.readAt (Elt F) (Rect.unit (s := S1536) ![1136] S16.size inb_S1536_S16_1136).toLoadRect acc)
        ((Memref.whole Cert.KernelIdeal.cc0_scratch6 : Memref Cert.KernelIdeal.sig Kind.scVector Space.vmem Cert.KernelIdeal.S1536 EltTy.f32).view.readAt (Elt F) (Rect.unit (s := S1536) ![1232] S16.size inb_S1536_S16_1232).toLoadRect acc)
        ((Memref.whole Cert.KernelIdeal.cc0_scratch6 : Memref Cert.KernelIdeal.sig Kind.scVector Space.vmem Cert.KernelIdeal.S1536 EltTy.f32).view.readAt (Elt F) (Rect.unit (s := S1536) ![1328] S16.size inb_S1536_S16_1328).toLoadRect acc)
        ((Memref.whole Cert.KernelIdeal.cc0_scratch6 : Memref Cert.KernelIdeal.sig Kind.scVector Space.vmem Cert.KernelIdeal.S1536 EltTy.f32).view.readAt (Elt F) (Rect.unit (s := S1536) ![1424] S16.size inb_S1536_S16_1424).toLoadRect acc)
        ((Memref.whole Cert.KernelIdeal.cc0_scratch6 : Memref Cert.KernelIdeal.sig Kind.scVector Space.vmem Cert.KernelIdeal.S1536 EltTy.f32).view.readAt (Elt F) (Rect.unit (s := S1536) ![1520] S16.size inb_S1536_S16_1520).toLoadRect acc)
        ((Memref.whole Cert.KernelIdeal.cc0_scratch5 : Memref Cert.KernelIdeal.sig Kind.scVector Space.vmem Cert.KernelIdeal.S96 EltTy.f32).view.readAt (Elt F) (Rect.unit (s := S96) ![80] S16.size inb_S96_S16_80).toLoadRect inv)⟩,
    ⟨Rect.unit (s := S24672) ![24640] S16.size inb_S24672_S16_24640,
      k0_pay27 (k0_pay26 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![64] S16.size inb_S1536_S16_64).toLoadRect acc)
          ((Memref.whole Cert.KernelIdeal.cc0_scratch6 : Memref Cert.KernelIdeal.sig Kind.scVector Space.vmem Cert.KernelIdeal.S1536 EltTy.f32).view.readAt (Elt F) (Rect.unit (s := S1536) ![160] S16.size inb_S1536_S16_160).toLoadRect acc)
          ((Memref.whole Cert.KernelIdeal.cc0_scratch6 : Memref Cert.KernelIdeal.sig Kind.scVector Space.vmem Cert.KernelIdeal.S1536 EltTy.f32).view.readAt (Elt F) (Rect.unit (s := S1536) ![256] S16.size inb_S1536_S16_256).toLoadRect acc)
          ((Memref.whole Cert.KernelIdeal.cc0_scratch6 : Memref Cert.KernelIdeal.sig Kind.scVector Space.vmem Cert.KernelIdeal.S1536 EltTy.f32).view.readAt (Elt F) (Rect.unit (s := S1536) ![352] S16.size inb_S1536_S16_352).toLoadRect acc)
          ((Memref.whole Cert.KernelIdeal.cc0_scratch6 : Memref Cert.KernelIdeal.sig Kind.scVector Space.vmem Cert.KernelIdeal.S1536 EltTy.f32).view.readAt (Elt F) (Rect.unit (s := S1536) ![448] S16.size inb_S1536_S16_448).toLoadRect acc)
          ((Memref.whole Cert.KernelIdeal.cc0_scratch6 : Memref Cert.KernelIdeal.sig Kind.scVector Space.vmem Cert.KernelIdeal.S1536 EltTy.f32).view.readAt (Elt F) (Rect.unit (s := S1536) ![544] S16.size inb_S1536_S16_544).toLoadRect acc)
          ((Memref.whole Cert.KernelIdeal.cc0_scratch6 : Memref Cert.KernelIdeal.sig Kind.scVector Space.vmem Cert.KernelIdeal.S1536 EltTy.f32).view.readAt (Elt F) (Rect.unit (s := S1536) ![640] S16.size inb_S1536_S16_640).toLoadRect acc)
          ((Memref.whole Cert.KernelIdeal.cc0_scratch6 : Memref Cert.KernelIdeal.sig Kind.scVector Space.vmem Cert.KernelIdeal.S1536 EltTy.f32).view.readAt (Elt F) (Rect.unit (s := S1536) ![736] S16.size inb_S1536_S16_736).toLoadRect acc)
          ((Memref.whole Cert.KernelIdeal.cc0_scratch6 : Memref Cert.KernelIdeal.sig Kind.scVector Space.vmem Cert.KernelIdeal.S1536 EltTy.f32).view.readAt (Elt F) (Rect.unit (s := S1536) ![832] S16.size inb_S1536_S16_832).toLoadRect acc)
          ((Memref.whole Cert.KernelIdeal.cc0_scratch6 : Memref Cert.KernelIdeal.sig Kind.scVector Space.vmem Cert.KernelIdeal.S1536 EltTy.f32).view.readAt (Elt F) (Rect.unit (s := S1536) ![928] S16.size inb_S1536_S16_928).toLoadRect acc)
          ((Memref.whole Cert.KernelIdeal.cc0_scratch6 : Memref Cert.KernelIdeal.sig Kind.scVector Space.vmem Cert.KernelIdeal.S1536 EltTy.f32).view.readAt (Elt F) (Rect.unit (s := S1536) ![1024] S16.size inb_S1536_S16_1024).toLoadRect acc)
          ((Memref.whole Cert.KernelIdeal.cc0_scratch6 : Memref Cert.KernelIdeal.sig Kind.scVector Space.vmem Cert.KernelIdeal.S1536 EltTy.f32).view.readAt (Elt F) (Rect.unit (s := S1536) ![1120] S16.size inb_S1536_S16_1120).toLoadRect acc)
          ((Memref.whole Cert.KernelIdeal.cc0_scratch6 : Memref Cert.KernelIdeal.sig Kind.scVector Space.vmem Cert.KernelIdeal.S1536 EltTy.f32).view.readAt (Elt F) (Rect.unit (s := S1536) ![1216] S16.size inb_S1536_S16_1216).toLoadRect acc)
          ((Memref.whole Cert.KernelIdeal.cc0_scratch6 : Memref Cert.KernelIdeal.sig Kind.scVector Space.vmem Cert.KernelIdeal.S1536 EltTy.f32).view.readAt (Elt F) (Rect.unit (s := S1536) ![1312] S16.size inb_S1536_S16_1312).toLoadRect acc)
          ((Memref.whole Cert.KernelIdeal.cc0_scratch6 : Memref Cert.KernelIdeal.sig Kind.scVector Space.vmem Cert.KernelIdeal.S1536 EltTy.f32).view.readAt (Elt F) (Rect.unit (s := S1536) ![1408] S16.size inb_S1536_S16_1408).toLoadRect acc))
        ((Memref.whole Cert.KernelIdeal.cc0_scratch6 : Memref Cert.KernelIdeal.sig Kind.scVector Space.vmem Cert.KernelIdeal.S1536 EltTy.f32).view.readAt (Elt F) (Rect.unit (s := S1536) ![1504] S16.size inb_S1536_S16_1504).toLoadRect acc)
        ((Memref.whole Cert.KernelIdeal.cc0_scratch5 : Memref Cert.KernelIdeal.sig Kind.scVector Space.vmem Cert.KernelIdeal.S96 EltTy.f32).view.readAt (Elt F) (Rect.unit (s := S96) ![64] S16.size inb_S96_S16_64).toLoadRect inv)⟩,
    ⟨Rect.unit (s := S24672) ![24624] S16.size inb_S24672_S16_24624,
      k0_pay25 (k0_pay24 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![48] S16.size inb_S1536_S16_48).toLoadRect acc)
          ((Memref.whole Cert.KernelIdeal.cc0_scratch6 : Memref Cert.KernelIdeal.sig Kind.scVector Space.vmem Cert.KernelIdeal.S1536 EltTy.f32).view.readAt (Elt F) (Rect.unit (s := S1536) ![144] S16.size inb_S1536_S16_144).toLoadRect acc)
          ((Memref.whole Cert.KernelIdeal.cc0_scratch6 : Memref Cert.KernelIdeal.sig Kind.scVector Space.vmem Cert.KernelIdeal.S1536 EltTy.f32).view.readAt (Elt F) (Rect.unit (s := S1536) ![240] S16.size inb_S1536_S16_240).toLoadRect acc)
          ((Memref.whole Cert.KernelIdeal.cc0_scratch6 : Memref Cert.KernelIdeal.sig Kind.scVector Space.vmem Cert.KernelIdeal.S1536 EltTy.f32).view.readAt (Elt F) (Rect.unit (s := S1536) ![336] S16.size inb_S1536_S16_336).toLoadRect acc)
          ((Memref.whole Cert.KernelIdeal.cc0_scratch6 : Memref Cert.KernelIdeal.sig Kind.scVector Space.vmem Cert.KernelIdeal.S1536 EltTy.f32).view.readAt (Elt F) (Rect.unit (s := S1536) ![432] S16.size inb_S1536_S16_432).toLoadRect acc)
          ((Memref.whole Cert.KernelIdeal.cc0_scratch6 : Memref Cert.KernelIdeal.sig Kind.scVector Space.vmem Cert.KernelIdeal.S1536 EltTy.f32).view.readAt (Elt F) (Rect.unit (s := S1536) ![528] S16.size inb_S1536_S16_528).toLoadRect acc)
          ((Memref.whole Cert.KernelIdeal.cc0_scratch6 : Memref Cert.KernelIdeal.sig Kind.scVector Space.vmem Cert.KernelIdeal.S1536 EltTy.f32).view.readAt (Elt F) (Rect.unit (s := S1536) ![624] S16.size inb_S1536_S16_624).toLoadRect acc)
          ((Memref.whole Cert.KernelIdeal.cc0_scratch6 : Memref Cert.KernelIdeal.sig Kind.scVector Space.vmem Cert.KernelIdeal.S1536 EltTy.f32).view.readAt (Elt F) (Rect.unit (s := S1536) ![720] S16.size inb_S1536_S16_720).toLoadRect acc)
          ((Memref.whole Cert.KernelIdeal.cc0_scratch6 : Memref Cert.KernelIdeal.sig Kind.scVector Space.vmem Cert.KernelIdeal.S1536 EltTy.f32).view.readAt (Elt F) (Rect.unit (s := S1536) ![816] S16.size inb_S1536_S16_816).toLoadRect acc)
          ((Memref.whole Cert.KernelIdeal.cc0_scratch6 : Memref Cert.KernelIdeal.sig Kind.scVector Space.vmem Cert.KernelIdeal.S1536 EltTy.f32).view.readAt (Elt F) (Rect.unit (s := S1536) ![912] S16.size inb_S1536_S16_912).toLoadRect acc)
          ((Memref.whole Cert.KernelIdeal.cc0_scratch6 : Memref Cert.KernelIdeal.sig Kind.scVector Space.vmem Cert.KernelIdeal.S1536 EltTy.f32).view.readAt (Elt F) (Rect.unit (s := S1536) ![1008] S16.size inb_S1536_S16_1008).toLoadRect acc)
          ((Memref.whole Cert.KernelIdeal.cc0_scratch6 : Memref Cert.KernelIdeal.sig Kind.scVector Space.vmem Cert.KernelIdeal.S1536 EltTy.f32).view.readAt (Elt F) (Rect.unit (s := S1536) ![1104] S16.size inb_S1536_S16_1104).toLoadRect acc)
          ((Memref.whole Cert.KernelIdeal.cc0_scratch6 : Memref Cert.KernelIdeal.sig Kind.scVector Space.vmem Cert.KernelIdeal.S1536 EltTy.f32).view.readAt (Elt F) (Rect.unit (s := S1536) ![1200] S16.size inb_S1536_S16_1200).toLoadRect acc))
        ((Memref.whole Cert.KernelIdeal.cc0_scratch6 : Memref Cert.KernelIdeal.sig Kind.scVector Space.vmem Cert.KernelIdeal.S1536 EltTy.f32).view.readAt (Elt F) (Rect.unit (s := S1536) ![1296] S16.size inb_S1536_S16_1296).toLoadRect acc)
        ((Memref.whole Cert.KernelIdeal.cc0_scratch6 : Memref Cert.KernelIdeal.sig Kind.scVector Space.vmem Cert.KernelIdeal.S1536 EltTy.f32).view.readAt (Elt F) (Rect.unit (s := S1536) ![1392] S16.size inb_S1536_S16_1392).toLoadRect acc)
        ((Memref.whole Cert.KernelIdeal.cc0_scratch6 : Memref Cert.KernelIdeal.sig Kind.scVector Space.vmem Cert.KernelIdeal.S1536 EltTy.f32).view.readAt (Elt F) (Rect.unit (s := S1536) ![1488] S16.size inb_S1536_S16_1488).toLoadRect acc)
        ((Memref.whole Cert.KernelIdeal.cc0_scratch5 : Memref Cert.KernelIdeal.sig Kind.scVector Space.vmem Cert.KernelIdeal.S96 EltTy.f32).view.readAt (Elt F) (Rect.unit (s := S96) ![48] S16.size inb_S96_S16_48).toLoadRect inv)⟩,
    ⟨Rect.unit (s := S24672) ![24608] S16.size inb_S24672_S16_24608,
      k0_pay23 (k0_pay22 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![32] S16.size inb_S1536_S16_32).toLoadRect acc)
          ((Memref.whole Cert.KernelIdeal.cc0_scratch6 : Memref Cert.KernelIdeal.sig Kind.scVector Space.vmem Cert.KernelIdeal.S1536 EltTy.f32).view.readAt (Elt F) (Rect.unit (s := S1536) ![128] S16.size inb_S1536_S16_128).toLoadRect acc)
          ((Memref.whole Cert.KernelIdeal.cc0_scratch6 : Memref Cert.KernelIdeal.sig Kind.scVector Space.vmem Cert.KernelIdeal.S1536 EltTy.f32).view.readAt (Elt F) (Rect.unit (s := S1536) ![224] S16.size inb_S1536_S16_224).toLoadRect acc)
          ((Memref.whole Cert.KernelIdeal.cc0_scratch6 : Memref Cert.KernelIdeal.sig Kind.scVector Space.vmem Cert.KernelIdeal.S1536 EltTy.f32).view.readAt (Elt F) (Rect.unit (s := S1536) ![320] S16.size inb_S1536_S16_320).toLoadRect acc)
          ((Memref.whole Cert.KernelIdeal.cc0_scratch6 : Memref Cert.KernelIdeal.sig Kind.scVector Space.vmem Cert.KernelIdeal.S1536 EltTy.f32).view.readAt (Elt F) (Rect.unit (s := S1536) ![416] S16.size inb_S1536_S16_416).toLoadRect acc)
          ((Memref.whole Cert.KernelIdeal.cc0_scratch6 : Memref Cert.KernelIdeal.sig Kind.scVector Space.vmem Cert.KernelIdeal.S1536 EltTy.f32).view.readAt (Elt F) (Rect.unit (s := S1536) ![512] S16.size inb_S1536_S16_512).toLoadRect acc)
          ((Memref.whole Cert.KernelIdeal.cc0_scratch6 : Memref Cert.KernelIdeal.sig Kind.scVector Space.vmem Cert.KernelIdeal.S1536 EltTy.f32).view.readAt (Elt F) (Rect.unit (s := S1536) ![608] S16.size inb_S1536_S16_608).toLoadRect acc)
          ((Memref.whole Cert.KernelIdeal.cc0_scratch6 : Memref Cert.KernelIdeal.sig Kind.scVector Space.vmem Cert.KernelIdeal.S1536 EltTy.f32).view.readAt (Elt F) (Rect.unit (s := S1536) ![704] S16.size inb_S1536_S16_704).toLoadRect acc)
          ((Memref.whole Cert.KernelIdeal.cc0_scratch6 : Memref Cert.KernelIdeal.sig Kind.scVector Space.vmem Cert.KernelIdeal.S1536 EltTy.f32).view.readAt (Elt F) (Rect.unit (s := S1536) ![800] S16.size inb_S1536_S16_800).toLoadRect acc)
          ((Memref.whole Cert.KernelIdeal.cc0_scratch6 : Memref Cert.KernelIdeal.sig Kind.scVector Space.vmem Cert.KernelIdeal.S1536 EltTy.f32).view.readAt (Elt F) (Rect.unit (s := S1536) ![896] S16.size inb_S1536_S16_896).toLoadRect acc)
          ((Memref.whole Cert.KernelIdeal.cc0_scratch6 : Memref Cert.KernelIdeal.sig Kind.scVector Space.vmem Cert.KernelIdeal.S1536 EltTy.f32).view.readAt (Elt F) (Rect.unit (s := S1536) ![992] S16.size inb_S1536_S16_992).toLoadRect acc))
        ((Memref.whole Cert.KernelIdeal.cc0_scratch6 : Memref Cert.KernelIdeal.sig Kind.scVector Space.vmem Cert.KernelIdeal.S1536 EltTy.f32).view.readAt (Elt F) (Rect.unit (s := S1536) ![1088] S16.size inb_S1536_S16_1088).toLoadRect acc)
        ((Memref.whole Cert.KernelIdeal.cc0_scratch6 : Memref Cert.KernelIdeal.sig Kind.scVector Space.vmem Cert.KernelIdeal.S1536 EltTy.f32).view.readAt (Elt F) (Rect.unit (s := S1536) ![1184] S16.size inb_S1536_S16_1184).toLoadRect acc)
        ((Memref.whole Cert.KernelIdeal.cc0_scratch6 : Memref Cert.KernelIdeal.sig Kind.scVector Space.vmem Cert.KernelIdeal.S1536 EltTy.f32).view.readAt (Elt F) (Rect.unit (s := S1536) ![1280] S16.size inb_S1536_S16_1280).toLoadRect acc)
        ((Memref.whole Cert.KernelIdeal.cc0_scratch6 : Memref Cert.KernelIdeal.sig Kind.scVector Space.vmem Cert.KernelIdeal.S1536 EltTy.f32).view.readAt (Elt F) (Rect.unit (s := S1536) ![1376] S16.size inb_S1536_S16_1376).toLoadRect acc)
        ((Memref.whole Cert.KernelIdeal.cc0_scratch6 : Memref Cert.KernelIdeal.sig Kind.scVector Space.vmem Cert.KernelIdeal.S1536 EltTy.f32).view.readAt (Elt F) (Rect.unit (s := S1536) ![1472] S16.size inb_S1536_S16_1472).toLoadRect acc)
        ((Memref.whole Cert.KernelIdeal.cc0_scratch5 : Memref Cert.KernelIdeal.sig Kind.scVector Space.vmem Cert.KernelIdeal.S96 EltTy.f32).view.readAt (Elt F) (Rect.unit (s := S96) ![32] S16.size inb_S96_S16_32).toLoadRect inv)⟩,
    ⟨Rect.unit (s := S24672) ![24592] S16.size inb_S24672_S16_24592,
      k0_pay21 (k0_pay20 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![16] S16.size inb_S1536_S16_16).toLoadRect acc)
          ((Memref.whole Cert.KernelIdeal.cc0_scratch6 : Memref Cert.KernelIdeal.sig Kind.scVector Space.vmem Cert.KernelIdeal.S1536 EltTy.f32).view.readAt (Elt F) (Rect.unit (s := S1536) ![112] S16.size inb_S1536_S16_112).toLoadRect acc)
          ((Memref.whole Cert.KernelIdeal.cc0_scratch6 : Memref Cert.KernelIdeal.sig Kind.scVector Space.vmem Cert.KernelIdeal.S1536 EltTy.f32).view.readAt (Elt F) (Rect.unit (s := S1536) ![208] S16.size inb_S1536_S16_208).toLoadRect acc)
          ((Memref.whole Cert.KernelIdeal.cc0_scratch6 : Memref Cert.KernelIdeal.sig Kind.scVector Space.vmem Cert.KernelIdeal.S1536 EltTy.f32).view.readAt (Elt F) (Rect.unit (s := S1536) ![304] S16.size inb_S1536_S16_304).toLoadRect acc)
          ((Memref.whole Cert.KernelIdeal.cc0_scratch6 : Memref Cert.KernelIdeal.sig Kind.scVector Space.vmem Cert.KernelIdeal.S1536 EltTy.f32).view.readAt (Elt F) (Rect.unit (s := S1536) ![400] S16.size inb_S1536_S16_400).toLoadRect acc)
          ((Memref.whole Cert.KernelIdeal.cc0_scratch6 : Memref Cert.KernelIdeal.sig Kind.scVector Space.vmem Cert.KernelIdeal.S1536 EltTy.f32).view.readAt (Elt F) (Rect.unit (s := S1536) ![496] S16.size inb_S1536_S16_496).toLoadRect acc)
          ((Memref.whole Cert.KernelIdeal.cc0_scratch6 : Memref Cert.KernelIdeal.sig Kind.scVector Space.vmem Cert.KernelIdeal.S1536 EltTy.f32).view.readAt (Elt F) (Rect.unit (s := S1536) ![592] S16.size inb_S1536_S16_592).toLoadRect acc)
          ((Memref.whole Cert.KernelIdeal.cc0_scratch6 : Memref Cert.KernelIdeal.sig Kind.scVector Space.vmem Cert.KernelIdeal.S1536 EltTy.f32).view.readAt (Elt F) (Rect.unit (s := S1536) ![688] S16.size inb_S1536_S16_688).toLoadRect acc)
          ((Memref.whole Cert.KernelIdeal.cc0_scratch6 : Memref Cert.KernelIdeal.sig Kind.scVector Space.vmem Cert.KernelIdeal.S1536 EltTy.f32).view.readAt (Elt F) (Rect.unit (s := S1536) ![784] S16.size inb_S1536_S16_784).toLoadRect acc))
        ((Memref.whole Cert.KernelIdeal.cc0_scratch6 : Memref Cert.KernelIdeal.sig Kind.scVector Space.vmem Cert.KernelIdeal.S1536 EltTy.f32).view.readAt (Elt F) (Rect.unit (s := S1536) ![880] S16.size inb_S1536_S16_880).toLoadRect acc)
        ((Memref.whole Cert.KernelIdeal.cc0_scratch6 : Memref Cert.KernelIdeal.sig Kind.scVector Space.vmem Cert.KernelIdeal.S1536 EltTy.f32).view.readAt (Elt F) (Rect.unit (s := S1536) ![976] S16.size inb_S1536_S16_976).toLoadRect acc)
        ((Memref.whole Cert.KernelIdeal.cc0_scratch6 : Memref Cert.KernelIdeal.sig Kind.scVector Space.vmem Cert.KernelIdeal.S1536 EltTy.f32).view.readAt (Elt F) (Rect.unit (s := S1536) ![1072] S16.size inb_S1536_S16_1072).toLoadRect acc)
        ((Memref.whole Cert.KernelIdeal.cc0_scratch6 : Memref Cert.KernelIdeal.sig Kind.scVector Space.vmem Cert.KernelIdeal.S1536 EltTy.f32).view.readAt (Elt F) (Rect.unit (s := S1536) ![1168] S16.size inb_S1536_S16_1168).toLoadRect acc)
        ((Memref.whole Cert.KernelIdeal.cc0_scratch6 : Memref Cert.KernelIdeal.sig Kind.scVector Space.vmem Cert.KernelIdeal.S1536 EltTy.f32).view.readAt (Elt F) (Rect.unit (s := S1536) ![1264] S16.size inb_S1536_S16_1264).toLoadRect acc)
        ((Memref.whole Cert.KernelIdeal.cc0_scratch6 : Memref Cert.KernelIdeal.sig Kind.scVector Space.vmem Cert.KernelIdeal.S1536 EltTy.f32).view.readAt (Elt F) (Rect.unit (s := S1536) ![1360] S16.size inb_S1536_S16_1360).toLoadRect acc)
        ((Memref.whole Cert.KernelIdeal.cc0_scratch6 : Memref Cert.KernelIdeal.sig Kind.scVector Space.vmem Cert.KernelIdeal.S1536 EltTy.f32).view.readAt (Elt F) (Rect.unit (s := S1536) ![1456] S16.size inb_S1536_S16_1456).toLoadRect acc)
        ((Memref.whole Cert.KernelIdeal.cc0_scratch5 : Memref Cert.KernelIdeal.sig Kind.scVector Space.vmem Cert.KernelIdeal.S96 EltTy.f32).view.readAt (Elt F) (Rect.unit (s := S96) ![16] S16.size inb_S96_S16_16).toLoadRect inv)⟩,
    ⟨Rect.unit (s := S24672) ![24576] S16.size inb_S24672_S16_24576,
      k0_pay19 (k0_pay18 (k0_pay31 (F := F))
          ((Memref.whole Cert.KernelIdeal.cc0_scratch6 : Memref Cert.KernelIdeal.sig Kind.scVector Space.vmem Cert.KernelIdeal.S1536 EltTy.f32).view.readAt (Elt F) (Rect.unit (s := S1536) ![0] S16.size inb_S1536_S16_0).toLoadRect acc)
          ((Memref.whole Cert.KernelIdeal.cc0_scratch6 : Memref Cert.KernelIdeal.sig Kind.scVector Space.vmem Cert.KernelIdeal.S1536 EltTy.f32).view.readAt (Elt F) (Rect.unit (s := S1536) ![96] S16.size inb_S1536_S16_96).toLoadRect acc)
          ((Memref.whole Cert.KernelIdeal.cc0_scratch6 : Memref Cert.KernelIdeal.sig Kind.scVector Space.vmem Cert.KernelIdeal.S1536 EltTy.f32).view.readAt (Elt F) (Rect.unit (s := S1536) ![192] S16.size inb_S1536_S16_192).toLoadRect acc)
          ((Memref.whole Cert.KernelIdeal.cc0_scratch6 : Memref Cert.KernelIdeal.sig Kind.scVector Space.vmem Cert.KernelIdeal.S1536 EltTy.f32).view.readAt (Elt F) (Rect.unit (s := S1536) ![288] S16.size inb_S1536_S16_288).toLoadRect acc)
          ((Memref.whole Cert.KernelIdeal.cc0_scratch6 : Memref Cert.KernelIdeal.sig Kind.scVector Space.vmem Cert.KernelIdeal.S1536 EltTy.f32).view.readAt (Elt F) (Rect.unit (s := S1536) ![384] S16.size inb_S1536_S16_384).toLoadRect acc)
          ((Memref.whole Cert.KernelIdeal.cc0_scratch6 : Memref Cert.KernelIdeal.sig Kind.scVector Space.vmem Cert.KernelIdeal.S1536 EltTy.f32).view.readAt (Elt F) (Rect.unit (s := S1536) ![480] S16.size inb_S1536_S16_480).toLoadRect acc)
          ((Memref.whole Cert.KernelIdeal.cc0_scratch6 : Memref Cert.KernelIdeal.sig Kind.scVector Space.vmem Cert.KernelIdeal.S1536 EltTy.f32).view.readAt (Elt F) (Rect.unit (s := S1536) ![576] S16.size inb_S1536_S16_576).toLoadRect acc))
        ((Memref.whole Cert.KernelIdeal.cc0_scratch6 : Memref Cert.KernelIdeal.sig Kind.scVector Space.vmem Cert.KernelIdeal.S1536 EltTy.f32).view.readAt (Elt F) (Rect.unit (s := S1536) ![672] S16.size inb_S1536_S16_672).toLoadRect acc)
        ((Memref.whole Cert.KernelIdeal.cc0_scratch6 : Memref Cert.KernelIdeal.sig Kind.scVector Space.vmem Cert.KernelIdeal.S1536 EltTy.f32).view.readAt (Elt F) (Rect.unit (s := S1536) ![768] S16.size inb_S1536_S16_768).toLoadRect acc)
        ((Memref.whole Cert.KernelIdeal.cc0_scratch6 : Memref Cert.KernelIdeal.sig Kind.scVector Space.vmem Cert.KernelIdeal.S1536 EltTy.f32).view.readAt (Elt F) (Rect.unit (s := S1536) ![864] S16.size inb_S1536_S16_864).toLoadRect acc)
        ((Memref.whole Cert.KernelIdeal.cc0_scratch6 : Memref Cert.KernelIdeal.sig Kind.scVector Space.vmem Cert.KernelIdeal.S1536 EltTy.f32).view.readAt (Elt F) (Rect.unit (s := S1536) ![960] S16.size inb_S1536_S16_960).toLoadRect acc)
        ((Memref.whole Cert.KernelIdeal.cc0_scratch6 : Memref Cert.KernelIdeal.sig Kind.scVector Space.vmem Cert.KernelIdeal.S1536 EltTy.f32).view.readAt (Elt F) (Rect.unit (s := S1536) ![1056] S16.size inb_S1536_S16_1056).toLoadRect acc)
        ((Memref.whole Cert.KernelIdeal.cc0_scratch6 : Memref Cert.KernelIdeal.sig Kind.scVector Space.vmem Cert.KernelIdeal.S1536 EltTy.f32).view.readAt (Elt F) (Rect.unit (s := S1536) ![1152] S16.size inb_S1536_S16_1152).toLoadRect acc)
        ((Memref.whole Cert.KernelIdeal.cc0_scratch6 : Memref Cert.KernelIdeal.sig Kind.scVector Space.vmem Cert.KernelIdeal.S1536 EltTy.f32).view.readAt (Elt F) (Rect.unit (s := S1536) ![1248] S16.size inb_S1536_S16_1248).toLoadRect acc)
        ((Memref.whole Cert.KernelIdeal.cc0_scratch6 : Memref Cert.KernelIdeal.sig Kind.scVector Space.vmem Cert.KernelIdeal.S1536 EltTy.f32).view.readAt (Elt F) (Rect.unit (s := S1536) ![1344] S16.size inb_S1536_S16_1344).toLoadRect acc)
        ((Memref.whole Cert.KernelIdeal.cc0_scratch6 : Memref Cert.KernelIdeal.sig Kind.scVector Space.vmem Cert.KernelIdeal.S1536 EltTy.f32).view.readAt (Elt F) (Rect.unit (s := S1536) ![1440] S16.size inb_S1536_S16_1440).toLoadRect acc)
        ((Memref.whole Cert.KernelIdeal.cc0_scratch5 : Memref Cert.KernelIdeal.sig Kind.scVector Space.vmem Cert.KernelIdeal.S96 EltTy.f32).view.readAt (Elt F) (Rect.unit (s := S96) ![0] S16.size inb_S96_S16_0).toLoadRect inv)⟩]

/-! ## The piece lists read at a word -/

theorem invPieces_accAt (acc : Vec F S1536 .f32) (junk : Vec F S96 .f32) (q : Nat) (hq : q < 96) :
    ((Memref.whole Cert.KernelIdeal.cc0_scratch5 : Memref Cert.KernelIdeal.sig Kind.scVector Space.vmem Cert.KernelIdeal.S96 EltTy.f32).view.writes (Elt F) junk
        (invPieces acc)) (ix1 ⟨q, hq⟩)
      = FloatOps.divf (KModel.oneF (F := F)) (FloatOps.maximumf (KModel.laneSum fun r => accAt acc (r * 96 + q)) KModel.oneF) := by
  unfold invPieces
  by_cases h5 : 80 ≤ q
  · rw [writes16_cons_s5, dif_pos (by show 80 ≤ q ∧ q < 80 + 16; omega)]
    exact invLane5 acc _ q (by show 80 + (q - 80) = q; omega)
  by_cases h4 : 64 ≤ q
  · rw [writes16_cons_s5, dif_neg (by show ¬ (80 ≤ q ∧ q < 80 + 16); omega),
      writes16_cons_s5, dif_pos (by show 64 ≤ q ∧ q < 64 + 16; omega)]
    exact invLane4 acc _ q (by show 64 + (q - 64) = q; omega)
  by_cases h3 : 48 ≤ q
  · rw [writes16_cons_s5, dif_neg (by show ¬ (80 ≤ q ∧ q < 80 + 16); omega),
      writes16_cons_s5, dif_neg (by show ¬ (64 ≤ q ∧ q < 64 + 16); omega),
      writes16_cons_s5, dif_pos (by show 48 ≤ q ∧ q < 48 + 16; omega)]
    exact invLane3 acc _ q (by show 48 + (q - 48) = q; omega)
  by_cases h2 : 32 ≤ q
  · rw [writes16_cons_s5, dif_neg (by show ¬ (80 ≤ q ∧ q < 80 + 16); omega),
      writes16_cons_s5, dif_neg (by show ¬ (64 ≤ q ∧ q < 64 + 16); omega),
      writes16_cons_s5, dif_neg (by show ¬ (48 ≤ q ∧ q < 48 + 16); omega),
      writes16_cons_s5, dif_pos (by show 32 ≤ q ∧ q < 32 + 16; omega)]
    exact invLane2 acc _ q (by show 32 + (q - 32) = q; omega)
  by_cases h1 : 16 ≤ q
  · rw [writes16_cons_s5, dif_neg (by show ¬ (80 ≤ q ∧ q < 80 + 16); omega),
      writes16_cons_s5, dif_neg (by show ¬ (64 ≤ q ∧ q < 64 + 16); omega),
      writes16_cons_s5, dif_neg (by show ¬ (48 ≤ q ∧ q < 48 + 16); omega),
      writes16_cons_s5, dif_neg (by show ¬ (32 ≤ q ∧ q < 32 + 16); omega),
      writes16_cons_s5, dif_pos (by show 16 ≤ q ∧ q < 16 + 16; omega)]
    exact invLane1 acc _ q (by show 16 + (q - 16) = q; omega)
  · rw [writes16_cons_s5, dif_neg (by show ¬ (80 ≤ q ∧ q < 80 + 16); omega),
      writes16_cons_s5, dif_neg (by show ¬ (64 ≤ q ∧ q < 64 + 16); omega),
      writes16_cons_s5, dif_neg (by show ¬ (48 ≤ q ∧ q < 48 + 16); omega),
      writes16_cons_s5, dif_neg (by show ¬ (32 ≤ q ∧ q < 32 + 16); omega),
      writes16_cons_s5, dif_neg (by show ¬ (16 ≤ q ∧ q < 16 + 16); omega),
      writes16_cons_s5, dif_pos (by show 0 ≤ q ∧ q < 0 + 16; omega)]
    exact invLane0 acc _ q (by show 0 + (q - 0) = q; omega)

theorem invPieces_apply (acc : Vec F S1536 .f32) (junk : Vec F S96 .f32) (q : Nat) (hq : q < 96) :
    ((Memref.whole Cert.KernelIdeal.cc0_scratch5 : Memref Cert.KernelIdeal.sig Kind.scVector Space.vmem Cert.KernelIdeal.S96 EltTy.f32).view.writes (Elt F) junk
        (invPieces acc)) (ix1 ⟨q, hq⟩)
      = FloatOps.divf (KModel.oneF (F := F)) (FloatOps.maximumf
          (KModel.laneSum fun r => if h : r * 96 + q < 1536 then acc (ix1 ⟨r * 96 + q, h⟩) else KModel.zeroF) KModel.oneF) :=
  invPieces_accAt acc junk q hq

theorem outPieces_accAt (inv : Vec F S96 .f32) (acc : Vec F S1536 .f32) (b1 : Vec F S24672 .f32) (p : Nat) (hp : p < 24672) :
    ((Memref.whole Cert.KernelIdeal.cc0_scratch1 : Memref Cert.KernelIdeal.sig Kind.scVector Space.vmem Cert.KernelIdeal.S24672 EltTy.f32).view.writes (Elt F) b1
        (outPieces inv acc)) (ix1 ⟨p, hp⟩)
      = if 24576 ≤ p then FloatOps.mulf (KModel.laneSum fun r => accAt acc (r * 96 + (p - 24576))) (invAt inv (p - 24576))
        else b1 (ix1 ⟨p, hp⟩) := by
  unfold outPieces
  by_cases h0 : 24576 ≤ p
  · rw [if_pos h0]
    by_cases h5 : 24656 ≤ p
    · rw [writes16_cons_s1, dif_pos (by show 24656 ≤ p ∧ p < 24656 + 16; omega)]
      exact outLane5 inv acc _ (p - 24576) (by show 80 + (p - 24656) = p - 24576; omega)
    by_cases h4 : 24640 ≤ p
    · rw [writes16_cons_s1, dif_neg (by show ¬ (24656 ≤ p ∧ p < 24656 + 16); omega),
        writes16_cons_s1, dif_pos (by show 24640 ≤ p ∧ p < 24640 + 16; omega)]
      exact outLane4 inv acc _ (p - 24576) (by show 64 + (p - 24640) = p - 24576; omega)
    by_cases h3 : 24624 ≤ p
    · rw [writes16_cons_s1, dif_neg (by show ¬ (24656 ≤ p ∧ p < 24656 + 16); omega),
        writes16_cons_s1, dif_neg (by show ¬ (24640 ≤ p ∧ p < 24640 + 16); omega),
        writes16_cons_s1, dif_pos (by show 24624 ≤ p ∧ p < 24624 + 16; omega)]
      exact outLane3 inv acc _ (p - 24576) (by show 48 + (p - 24624) = p - 24576; omega)
    by_cases h2 : 24608 ≤ p
    · rw [writes16_cons_s1, dif_neg (by show ¬ (24656 ≤ p ∧ p < 24656 + 16); omega),
        writes16_cons_s1, dif_neg (by show ¬ (24640 ≤ p ∧ p < 24640 + 16); omega),
        writes16_cons_s1, dif_neg (by show ¬ (24624 ≤ p ∧ p < 24624 + 16); omega),
        writes16_cons_s1, dif_pos (by show 24608 ≤ p ∧ p < 24608 + 16; omega)]
      exact outLane2 inv acc _ (p - 24576) (by show 32 + (p - 24608) = p - 24576; omega)
    by_cases h1 : 24592 ≤ p
    · rw [writes16_cons_s1, dif_neg (by show ¬ (24656 ≤ p ∧ p < 24656 + 16); omega),
        writes16_cons_s1, dif_neg (by show ¬ (24640 ≤ p ∧ p < 24640 + 16); omega),
        writes16_cons_s1, dif_neg (by show ¬ (24624 ≤ p ∧ p < 24624 + 16); omega),
        writes16_cons_s1, dif_neg (by show ¬ (24608 ≤ p ∧ p < 24608 + 16); omega),
        writes16_cons_s1, dif_pos (by show 24592 ≤ p ∧ p < 24592 + 16; omega)]
      exact outLane1 inv acc _ (p - 24576) (by show 16 + (p - 24592) = p - 24576; omega)
    · rw [writes16_cons_s1, dif_neg (by show ¬ (24656 ≤ p ∧ p < 24656 + 16); omega),
        writes16_cons_s1, dif_neg (by show ¬ (24640 ≤ p ∧ p < 24640 + 16); omega),
        writes16_cons_s1, dif_neg (by show ¬ (24624 ≤ p ∧ p < 24624 + 16); omega),
        writes16_cons_s1, dif_neg (by show ¬ (24608 ≤ p ∧ p < 24608 + 16); omega),
        writes16_cons_s1, dif_neg (by show ¬ (24592 ≤ p ∧ p < 24592 + 16); omega),
        writes16_cons_s1, dif_pos (by show 24576 ≤ p ∧ p < 24576 + 16; omega)]
      exact outLane0 inv acc _ (p - 24576) (by show 0 + (p - 24576) = p - 24576; omega)
  · rw [if_neg h0,
      writes16_cons_s1, dif_neg (by show ¬ (24656 ≤ p ∧ p < 24656 + 16); omega),
      writes16_cons_s1, dif_neg (by show ¬ (24640 ≤ p ∧ p < 24640 + 16); omega),
      writes16_cons_s1, dif_neg (by show ¬ (24624 ≤ p ∧ p < 24624 + 16); omega),
      writes16_cons_s1, dif_neg (by show ¬ (24608 ≤ p ∧ p < 24608 + 16); omega),
      writes16_cons_s1, dif_neg (by show ¬ (24592 ≤ p ∧ p < 24592 + 16); omega),
      writes16_cons_s1, dif_neg (by show ¬ (24576 ≤ p ∧ p < 24576 + 16); omega)]
    rfl

theorem outPieces_apply (inv : Vec F S96 .f32) (acc : Vec F S1536 .f32) (b1 : Vec F S24672 .f32) (p : Nat) (hp : p < 24672) :
    ((Memref.whole Cert.KernelIdeal.cc0_scratch1 : Memref Cert.KernelIdeal.sig Kind.scVector Space.vmem Cert.KernelIdeal.S24672 EltTy.f32).view.writes (Elt F) b1
        (outPieces inv acc)) (ix1 ⟨p, hp⟩)
      = if h : 24576 ≤ p then
          FloatOps.mulf (KModel.laneSum fun r => if h' : r * 96 + (p - 24576) < 1536 then acc (ix1 ⟨r * 96 + (p - 24576), h'⟩) else KModel.zeroF)
            (inv (ix1 ⟨p - 24576, by omega⟩))
        else b1 (ix1 ⟨p, hp⟩) := by
  rw [outPieces_accAt inv acc b1 p hp]
  by_cases h : 24576 ≤ p
  · rw [if_pos h, dif_pos h]
    unfold invAt
    rw [dif_pos (by omega : p - 24576 < 96)]
    rfl
  · rw [if_neg h, dif_neg h]

end Cert.Proof.KI.SumVals

end
-- ==== Proof.KI.Batch.lean ====
/-
  One trip of the batch loop: batch b = 32·(2·i + c) + k of task (c, i). Its vertex row is copied into the staging
  scratch; the running sums are zeroed; the gather loop fills the first 24576 words of the row being assembled with
  the coordinates of the segment vertices; the band loop adds each pair's vertex into its lane's slot; the sixteen
  lanes' sums, times the reciprocal counts, make the last 96 words; the row is copied out to row b of the result.
  From the loops' invariants at their ends the row copied out is the model's row b, entry by entry.
-/
import proofs.«203378_g9921374454198_cont_sun_m_1167_43_alg».proof.Proof.KI.Setup
import proofs.«203378_g9921374454198_cont_sun_m_1167_43_alg».proof.Proof.KI.InvB
import proofs.«203378_g9921374454198_cont_sun_m_1167_43_alg».proof.Proof.KI.LoopZero
import proofs.«203378_g9921374454198_cont_sun_m_1167_43_alg».proof.Proof.KI.RowViews
import proofs.«203378_g9921374454198_cont_sun_m_1167_43_alg».proof.Proof.KI.Pre
import proofs.«203378_g9921374454198_cont_sun_m_1167_43_alg».proof.Proof.KI.LoopSeg
import proofs.«203378_g9921374454198_cont_sun_m_1167_43_alg».proof.Proof.KI.LoopBand
import proofs.«203378_g9921374454198_cont_sun_m_1167_43_alg».proof.Proof.KI.SumVals

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "V0W" => (Memref.whole Cert.KernelIdeal.main_v0_scv : Memref Cert.KernelIdeal.sig Kind.scVector Space.hbm Cert.KernelIdeal.S1024x31425 EltTy.f32)
local notation "A1W" => (Memref.whole Cert.KernelIdeal.main_arg1_scv : Memref Cert.KernelIdeal.sig Kind.scVector Space.hbm Cert.KernelIdeal.S8192 EltTy.i32)
local notation "A2W" => (Memref.whole Cert.KernelIdeal.main_arg2_scv : Memref Cert.KernelIdeal.sig Kind.scVector Space.hbm Cert.KernelIdeal.S4096 EltTy.i32)
local notation "A3W" => (Memref.whole Cert.KernelIdeal.main_arg3_scv : Memref Cert.KernelIdeal.sig Kind.scVector Space.hbm Cert.KernelIdeal.S4096 EltTy.i32)
local notation "V1W" => (Memref.whole Cert.KernelIdeal.main_v1_scv : Memref Cert.KernelIdeal.sig Kind.scVector Space.hbm Cert.KernelIdeal.S1024x24672 EltTy.f32)
local notation "S0W" => (Memref.whole Cert.KernelIdeal.cc0_scratch0 : Memref Cert.KernelIdeal.sig Kind.scVector Space.vmem Cert.KernelIdeal.S31425 EltTy.f32)
local notation "S1W" => (Memref.whole Cert.KernelIdeal.cc0_scratch1 : Memref Cert.KernelIdeal.sig Kind.scVector Space.vmem Cert.KernelIdeal.S24672 EltTy.f32)
local notation "S2W" => (Memref.whole Cert.KernelIdeal.cc0_scratch2 : Memref Cert.KernelIdeal.sig Kind.scVector Space.vmem Cert.KernelIdeal.S8192 EltTy.i32)
local notation "S3W" => (Memref.whole Cert.KernelIdeal.cc0_scratch3 : Memref Cert.KernelIdeal.sig Kind.scVector Space.vmem Cert.KernelIdeal.S4096 EltTy.i32)
local notation "S4W" => (Memref.whole Cert.KernelIdeal.cc0_scratch4 : Memref Cert.KernelIdeal.sig Kind.scVector Space.vmem Cert.KernelIdeal.S4096 EltTy.i32)
local notation "S5W" => (Memref.whole Cert.KernelIdeal.cc0_scratch5 : Memref Cert.KernelIdeal.sig Kind.scVector Space.vmem Cert.KernelIdeal.S96 EltTy.f32)
local notation "S6W" => (Memref.whole Cert.KernelIdeal.cc0_scratch6 : Memref Cert.KernelIdeal.sig Kind.scVector Space.vmem Cert.KernelIdeal.S1536 EltTy.f32)

open Idealize.ShloMosaic.ValueIdx Cert.Proof.KI.Views Cert.Proof.KI.RowViews

variable (m : (ℓ : Loc nD τ sig) → Buf (Elt F) ℓ) (KO : (d : Dev nD) → Buf (Elt F) (v1Loc d)) (d : Dev nD) (L : grid0.Coords)

theorem trips4 : k0_t4_loop.trips = 96 := by decide
theorem trips5 : k0_t5_loop.trips = 512 := by decide
theorem trips6 : k0_t6_loop.trips = 256 := by decide

/-- The lanes' sum reads its family at the sixteen lanes only. -/
theorem laneSum_congr (a a' : Nat → F .f32) (h : ∀ r, r < 16 → a r = a' r) : KModel.laneSum a = KModel.laneSum a' := by
  unfold KModel.laneSum
  refine List.foldl_ext _ _ _ fun s r hr => ?_
  rw [h r (List.mem_range.mp hr)]

/-- What the assembled row holds is the model's row: the gathered part from the gather loop's invariant at its end,
    the 96 centroid words from the band sums and the reciprocal counts. -/
theorem row_final (Xd : Vec F S1024x31425 .f32) (seg : Vec F S8192 .i32) (bv bid : Vec F S4096 .i32) (b : Nat)
    (c5 : Vec F S96 .f32) (hc5 : ∀ q (hq : q < 96), c5 (ix1 ⟨q, hq⟩) = KModel.invCnt bid q)
    (b1 : Vec F S24672 .f32) (hb1 : SegAt Xd seg b b1 512) (c6 : Vec F S1536 .f32) (hc6 : BandAt Xd bv bid b c6 256)
    (s1 : Vec F S24672 .f32)
    (hs1 : ∀ p (hp : p < 24672), s1 (ix1 ⟨p, hp⟩) = if h : 24576 ≤ p then FloatOps.mulf (KModel.laneSum fun r => if h' : r * 96 + (p - 24576) < 1536 then c6 (ix1 ⟨r * 96 + (p - 24576), h'⟩) else KModel.zeroF) (c5 (ix1 ⟨p - 24576, by omega⟩)) else b1 (ix1 ⟨p, hp⟩))
    (p : Nat) (hp : p < 24672) : s1 (ix1 ⟨p, hp⟩) = KModel.rowOut Xd seg bv bid b p := by
  rw [hs1 p hp]
  unfold KModel.rowOut
  by_cases h : 24576 ≤ p
  · rw [dif_pos h, if_neg (by omega), hc5]
    refine congrArg (fun s => FloatOps.mulf s (KModel.invCnt bid (p - 24576))) ?_
    refine laneSum_congr _ _ fun r hr => ?_
    rw [dif_pos (by omega)]
    exact hc6 r (p - 24576) hr (by omega)
  · rw [dif_neg h, if_pos (by omega)]
    exact hb1 p hp (by omega)

set_option maxHeartbeats 4000000 in
theorem trip_batch (O : CellTallies nD τ sig (HIx 1)) (W : Waits sig (HIx 1)) (sh : PosShare TreeShare)
    (Xd : Vec F S1024x31425 .f32) (seg : Vec F S8192 .i32) (bv bid : Vec F S4096 .i32) (hr : Ranges seg bv bid)
    (c5 : Vec F S96 .f32) (hc5 : ∀ q (hq : q < 96), c5 (ix1 ⟨q, hq⟩) = KModel.invCnt bid q)
    (hKO : ∀ j, KO d j = KModel.KO Xd seg bv bid j)
    (v1 : BitVec 32) (k3 : Fin k0_t3_loop.trips) (acc : BitVec 32) :
    invB m KO d L O W sh Xd seg bv bid c5 k3.val acc ⊢ wp frame (wpE (defs₀ (F := F)) 𝒱₀ (thr d L) none) Set.univ
        (k0_t3_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 v1 (iota .scVector S16 32 [0] iota_S16_d0_w32_scVector) k0_pay30 (k0_pay31 (F := F)) k3 acc)
        (invB m KO d L O W sh Xd seg bv bid c5 (k3.val + 1)) := by
  have hk : k3.val < 32 := trip_lt k3
  conv => rhs; unfold k0_t3_body
  unfold invB
  iintro ⟨Hmw, Hv0, Hdone, Htodo, ⟨%a0, Hs0⟩, ⟨%a1, Hs1⟩, Hs2, Hs3, Hs4, Hs5, ⟨%a6, Hs6⟩, Hm3, Hm4, %W', %hW', HO⟩
  ihave Htodo := (Entails.of_eq (todo_take (rowTodo m d L) k3.val hk)) $$ Htodo
  icases Htodo with ⟨Hrow, Htodo⟩
  ihave Hrow := (Entails.of_eq (pts_Dout (F := F) d L k3 _).symm) $$ Hrow
  -- the batch's vertex row comes in
  sl_exec
  ihave Hs0 := (pts_name _) $$ Hs0
  icases Hs0 with ⟨%slab, %hslabE, Hs0⟩
  have hslab : SlabIs Xd (rowNo L k3) slab := by
    intro p hp
    have e : slab = View.read (Elt F) (Din L k3).view Xd := by
      rw [hslabE]; simp only [Memref.view_whole, View.write_whole_univ]; rfl
    rw [e, read_Din]; unfold KModel.xAt; rw [dif_pos ⟨rowNo_lt L k3, hp⟩]
  -- the running sums are zeroed
  sl_for (invZ (F := F) d L) $$ [Hs6]
  case region => intro k acc'; exact trip_zero4 d L v1 _ _ _ rfl _ _ k3 k acc'
  · unfold invZ; iexists _; isplitr
    rotate_left
    · iexact Hs6
    · ipureintro; intro p hp h; omega
  iintro %_ HI
  unfold invZ
  icases HI with ⟨%z6, %hz6, Hs6⟩
  sl_exec
  -- the gather
  sl_for (invSeg (F := F) d L Xd (rowNo L k3) slab seg) $$ [Hs1 Hs0 Hs2]
  case region => intro k acc'; exact trip_seg d L Xd _ slab seg hr.seg_le hslab v1 k3 k acc'
  · unfold invSeg
    isplitl [Hs1]
    · iexists _; isplitr
      rotate_left
      · iexact Hs1
      · ipureintro; intro p hp h; omega
    isplitl [Hs0]; · iexact Hs0
    iexact Hs2
  iintro %_ HI
  unfold invSeg
  icases HI with ⟨⟨%b1, %hb1, Hs1⟩, Hs0, Hs2⟩
  sl_exec
  -- the band sums
  sl_for (invBand (F := F) d L Xd (rowNo L k3) slab bv bid) $$ [Hs6 Hs0 Hs3 Hs4]
  case region => intro k acc'; exact trip_band d L Xd _ slab bv bid hr.bv_le hr.bid_le hslab v1 k3 k acc'
  · unfold invBand
    isplitl [Hs6]
    · iexists _; isplitr
      rotate_left
      · iexact Hs6
      · ipureintro; intro r q hr' hq; exact hz6 _ _ (by have h96 : Scf.trips k0_t4_loop.lb k0_t4_loop.ub k0_t4_loop.st = 96 := trips4; rw [h96]; omega)
    isplitl [Hs0]; · iexact Hs0
    isplitl [Hs3]; · iexact Hs3
    iexact Hs4
  iintro %_ HI
  unfold invBand
  icases HI with ⟨⟨%c6, %hc6, Hs6⟩, Hs0, Hs3, Hs4⟩
  -- the lanes' sums times the reciprocal counts, and the row goes out
  sl_exec
  ihave Hrow := (pts_name _) $$ Hrow
  icases Hrow with ⟨%fr, %hfrE, Hrow⟩
  have hb1' : SegAt Xd seg (rowNo L k3) b1 512 := hb1
  have hc6' : BandAt Xd bv bid (rowNo L k3) c6 256 := hc6
  have hs1 : ∀ p (hp : p < 24672), ((S1W).view.writes (Elt F) b1 (trip_batch.sl.Hs1_6 c5 c6)) (ix1 ⟨p, hp⟩)
      = if h : 24576 ≤ p then FloatOps.mulf (KModel.laneSum fun r => if h' : r * 96 + (p - 24576) < 1536 then c6 (ix1 ⟨r * 96 + (p - 24576), h'⟩) else KModel.zeroF) (c5 (ix1 ⟨p - 24576, by omega⟩)) else b1 (ix1 ⟨p, hp⟩) := by
    intro p hp
    exact SumVals.outPieces_apply c5 c6 b1 p hp
  have hrow : ∀ j ∈ rowSetO (tileRow (cL L) (iL L) (trip32 k3)), fr j = KO d j := by
    intro j hj
    have hj0 : (j 0).val = rowNo L k3 := by rw [← tileRow_val]; exact (mem_rowSetO _ j).mp hj
    rw [hfrE, hKO]
    rw [writes_Dout L k3 _ _ j hj0]
    have hlt : (j 1).val < 24672 := (j 1).isLt
    refine (row_final Xd seg bv bid (rowNo L k3) c5 hc5 b1 hb1' c6 hc6'
      ((S1W).view.writes (Elt F) b1 (trip_batch.sl.Hs1_6 c5 c6)) hs1 (j 1).val hlt).trans ?_
    unfold KModel.KO; rw [hj0]
  ihave Hrow := (Entails.of_eq (pts_Dout (F := F) d L k3 _)) $$ Hrow
  sl_step
  isplitl [Hmw]; · iexact Hmw
  isplitl [Hv0]; · iexact Hv0
  isplitl [Hdone Hrow]
  · iapply (Entails.of_eq (done_put (rowDone KO d L) k3.val hk).symm)
    isplitl [Hrow]
    · iexists fr; isplitr
      · ipureintro; exact hrow
      · iexact Hrow
    · iexact Hdone
  isplitl [Htodo]; · iexact Htodo
  isplitl [Hs0]; · iexists _; iexact Hs0
  isplitl [Hs1]; · iexists _; iexact Hs1
  isplitl [Hs2]; · iexact Hs2
  isplitl [Hs3]; · iexact Hs3
  isplitl [Hs4]; · iexact Hs4
  isplitl [Hs5]; · iexact Hs5
  isplitl [Hs6]; · iexists _; iexact Hs6
  isplitl [Hm3]; · iexact Hm3
  isplitl [Hm4]; · iexact Hm4
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact hW' p hp

end Cert.Proof.KI

end
-- ==== Proof.KI.LoopCnt.lean ====
/-
  One trip of the count loop, from the loop's invariant after k trips to the invariant after k + 1 trips.

  The trip loads sixteen band numbers (words 16 * k, …, 16 * k + 15 of the band table) and does three indexed
  add-stores of the vector of ones into the 1536 running counts. Read at lane r, slot q, the three stores add one
  exactly when the band of pair 16 * k + r is q / 3: the count model's recursion step.
-/
import proofs.«203378_g9921374454198_cont_sun_m_1167_43_alg».proof.Proof.KI.Inv
import proofs.«203378_g9921374454198_cont_sun_m_1167_43_alg».proof.Proof.KI.Views
import proofs.«203378_g9921374454198_cont_sun_m_1167_43_alg».proof.Proof.KI.Trips

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "V0W" => (Memref.whole Cert.KernelIdeal.main_v0_scv : Memref Cert.KernelIdeal.sig Kind.scVector Space.hbm Cert.KernelIdeal.S1024x31425 EltTy.f32)
local notation "A1W" => (Memref.whole Cert.KernelIdeal.main_arg1_scv : Memref Cert.KernelIdeal.sig Kind.scVector Space.hbm Cert.KernelIdeal.S8192 EltTy.i32)
local notation "A2W" => (Memref.whole Cert.KernelIdeal.main_arg2_scv : Memref Cert.KernelIdeal.sig Kind.scVector Space.hbm Cert.KernelIdeal.S4096 EltTy.i32)
local notation "A3W" => (Memref.whole Cert.KernelIdeal.main_arg3_scv : Memref Cert.KernelIdeal.sig Kind.scVector Space.hbm Cert.KernelIdeal.S4096 EltTy.i32)
local notation "V1W" => (Memref.whole Cert.KernelIdeal.main_v1_scv : Memref Cert.KernelIdeal.sig Kind.scVector Space.hbm Cert.KernelIdeal.S1024x24672 EltTy.f32)
local notation "S0W" => (Memref.whole Cert.KernelIdeal.cc0_scratch0 : Memref Cert.KernelIdeal.sig Kind.scVector Space.vmem Cert.KernelIdeal.S31425 EltTy.f32)
local notation "S1W" => (Memref.whole Cert.KernelIdeal.cc0_scratch1 : Memref Cert.KernelIdeal.sig Kind.scVector Space.vmem Cert.KernelIdeal.S24672 EltTy.f32)
local notation "S2W" => (Memref.whole Cert.KernelIdeal.cc0_scratch2 : Memref Cert.KernelIdeal.sig Kind.scVector Space.vmem Cert.KernelIdeal.S8192 EltTy.i32)
local notation "S3W" => (Memref.whole Cert.KernelIdeal.cc0_scratch3 : Memref Cert.KernelIdeal.sig Kind.scVector Space.vmem Cert.KernelIdeal.S4096 EltTy.i32)
local notation "S4W" => (Memref.whole Cert.KernelIdeal.cc0_scratch4 : Memref Cert.KernelIdeal.sig Kind.scVector Space.vmem Cert.KernelIdeal.S4096 EltTy.i32)
local notation "S5W" => (Memref.whole Cert.KernelIdeal.cc0_scratch5 : Memref Cert.KernelIdeal.sig Kind.scVector Space.vmem Cert.KernelIdeal.S96 EltTy.f32)
local notation "S6W" => (Memref.whole Cert.KernelIdeal.cc0_scratch6 : Memref Cert.KernelIdeal.sig Kind.scVector Space.vmem Cert.KernelIdeal.S1536 EltTy.f32)

variable (d : Dev nD) (L : grid0.Coords)

/-! ## The pure step -/

/-- Lane r of the sixteen words loaded at trip k is word 16 * k + r of the table. -/
theorem cnt_lane (bid : Vec F S4096 .i32) (k : Fin k0_t2_loop.trips) (r : Nat) (hr : r < 16) :
    BitVec.toNat ((S4W).view.readAt (Elt F) (Rect.unit (s := S4096) (k0_off2 k) S16.size (k0_off2_inb k)).toLoadRect bid (ix1 ⟨r, hr⟩))
      = KModel.wordAt bid (k.val * 16 + r) := by
  have hk : k.val < 256 := Nat.lt_of_lt_of_le k.isLt k0_t2_abs.2.1
  have hlt : k.val * 16 + r < 4096 := by omega
  rw [Views.readAt16_s4]
  unfold KModel.wordAt
  rw [dif_pos hlt]
  refine congrArg BitVec.toNat (Trips.at_congr bid _ hlt ?_)
  rw [k0_off2_eq]
  show 16 * k.val + r = k.val * 16 + r
  omega

/-- One trip's three add-stores take the counts after k steps to the counts after k + 1 steps. -/
theorem cnt_step (bid : Vec F S4096 .i32) (hbid : ∀ i, (bid i).toNat ≤ 31) (f : Vec F S1536 .f32) (k : Fin k0_t2_loop.trips)
    (hf : CntAt bid f k.val)
    (h1 : ∀ a x, ((![k0_pay34 ((S4W).view.readAt (Elt F) (Rect.unit (s := S4096) (k0_off2 k) S16.size (k0_off2_inb k)).toLoadRect bid)] : Fin 1 → IVec S16 32) a x).toNat < S1536.size a)
    (h2 : ∀ a x, ((![k0_pay35 ((S4W).view.readAt (Elt F) (Rect.unit (s := S4096) (k0_off2 k) S16.size (k0_off2_inb k)).toLoadRect bid)] : Fin 1 → IVec S16 32) a x).toNat < S1536.size a)
    (h3 : ∀ a x, ((![k0_pay36 ((S4W).view.readAt (Elt F) (Rect.unit (s := S4096) (k0_off2 k) S16.size (k0_off2_inb k)).toLoadRect bid)] : Fin 1 → IVec S16 32) a x).toNat < S1536.size a) :
    CntAt bid
      (storeIdx (storeIdx (storeIdx f
        ![k0_pay34 ((S4W).view.readAt (Elt F) (Rect.unit (s := S4096) (k0_off2 k) S16.size (k0_off2_inb k)).toLoadRect bid)] k0_pay32 (fun _ => 1#1) true h1)
        ![k0_pay35 ((S4W).view.readAt (Elt F) (Rect.unit (s := S4096) (k0_off2 k) S16.size (k0_off2_inb k)).toLoadRect bid)] k0_pay32 (fun _ => 1#1) true h2)
        ![k0_pay36 ((S4W).view.readAt (Elt F) (Rect.unit (s := S4096) (k0_off2 k) S16.size (k0_off2_inb k)).toLoadRect bid)] k0_pay32 (fun _ => 1#1) true h3)
      (k.val + 1) := by
  have hv : ∀ x, BitVec.toNat ((S4W).view.readAt (Elt F) (Rect.unit (s := S4096) (k0_off2 k) S16.size (k0_off2_inb k)).toLoadRect bid x) ≤ 31 := by
    intro x
    rw [Views.readAt16_s4]
    exact hbid _
  intro r q hr hq
  rw [Trips.cnt_trip f _ hv h1 h2 h3 r q hr hq, cnt_lane bid k r hr, hf r q hr hq]
  rfl

/-! ## The trip -/

set_option maxHeartbeats 2000000 in
/-- One trip of the count loop keeps the invariant: the three indexed add-stores advance the counts by one step. -/
theorem trip_cnt (bid : Vec F S4096 .i32) (hbid : ∀ i, (bid i).toNat ≤ 31) (k : Fin k0_t2_loop.trips) (acc : BitVec 32) :
    invCnt d L bid k.val acc ⊢ wp frame (wpE (defs₀ (F := F)) 𝒱₀ (thr d L) none) Set.univ
        (k0_t2_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 k acc)
        (invCnt d L bid (k.val + 1)) := by
  unfold invCnt k0_t2_body
  iintro ⟨⟨%f, %hf, Hs6⟩, Hs4⟩
  have hv : ∀ x, ((S4W).view.readAt (Elt F) (Rect.unit (s := S4096) (k0_off2 k) S16.size (k0_off2_inb k)).toLoadRect bid x).toNat ≤ 31 := by
    intro x
    rw [Views.readAt16_s4]
    exact hbid _
  sl_exec (disch := first | sl_exact Idx.chk1 _ hv | sl_exact Idx.chk2 _ hv | sl_exact Idx.chk3 _ hv)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk1 _ hv | sl_exact Idx.chk2 _ hv | sl_exact Idx.chk3 _ hv)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk1 _ hv | sl_exact Idx.chk2 _ hv | sl_exact Idx.chk3 _ hv)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk1 _ hv | sl_exact Idx.chk2 _ hv | sl_exact Idx.chk3 _ hv)
  sl_step
  isplitl [Hs6]
  · iexists _
    isplitr [Hs6]
    rotate_left
    · iexact Hs6
    · ipureintro
      exact cnt_step bid hbid f k hf _ _ _
  iexact Hs4

end Cert.Proof.KI
-- ==== Proof.KI.CoreProof.lean ====
import proofs.«203378_g9921374454198_cont_sun_m_1167_43_alg».proof.Proof.KI.Setup
import proofs.«203378_g9921374454198_cont_sun_m_1167_43_alg».proof.Proof.KI.Batch
import proofs.«203378_g9921374454198_cont_sun_m_1167_43_alg».proof.Proof.KI.LoopCnt
import proofs.«203378_g9921374454198_cont_sun_m_1167_43_alg».proof.Proof.KI.Launch

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "V0W" => (Memref.whole Cert.KernelIdeal.main_v0_scv : Memref Cert.KernelIdeal.sig Kind.scVector Space.hbm Cert.KernelIdeal.S1024x31425 EltTy.f32)
local notation "A1W" => (Memref.whole Cert.KernelIdeal.main_arg1_scv : Memref Cert.KernelIdeal.sig Kind.scVector Space.hbm Cert.KernelIdeal.S8192 EltTy.i32)
local notation "A2W" => (Memref.whole Cert.KernelIdeal.main_arg2_scv : Memref Cert.KernelIdeal.sig Kind.scVector Space.hbm Cert.KernelIdeal.S4096 EltTy.i32)
local notation "A3W" => (Memref.whole Cert.KernelIdeal.main_arg3_scv : Memref Cert.KernelIdeal.sig Kind.scVector Space.hbm Cert.KernelIdeal.S4096 EltTy.i32)
local notation "V1W" => (Memref.whole Cert.KernelIdeal.main_v1_scv : Memref Cert.KernelIdeal.sig Kind.scVector Space.hbm Cert.KernelIdeal.S1024x24672 EltTy.f32)
local notation "S0W" => (Memref.whole Cert.KernelIdeal.cc0_scratch0 : Memref Cert.KernelIdeal.sig Kind.scVector Space.vmem Cert.KernelIdeal.S31425 EltTy.f32)
local notation "S1W" => (Memref.whole Cert.KernelIdeal.cc0_scratch1 : Memref Cert.KernelIdeal.sig Kind.scVector Space.vmem Cert.KernelIdeal.S24672 EltTy.f32)
local notation "S2W" => (Memref.whole Cert.KernelIdeal.cc0_scratch2 : Memref Cert.KernelIdeal.sig Kind.scVector Space.vmem Cert.KernelIdeal.S8192 EltTy.i32)
local notation "S3W" => (Memref.whole Cert.KernelIdeal.cc0_scratch3 : Memref Cert.KernelIdeal.sig Kind.scVector Space.vmem Cert.KernelIdeal.S4096 EltTy.i32)
local notation "S4W" => (Memref.whole Cert.KernelIdeal.cc0_scratch4 : Memref Cert.KernelIdeal.sig Kind.scVector Space.vmem Cert.KernelIdeal.S4096 EltTy.i32)
local notation "S5W" => (Memref.whole Cert.KernelIdeal.cc0_scratch5 : Memref Cert.KernelIdeal.sig Kind.scVector Space.vmem Cert.KernelIdeal.S96 EltTy.f32)
local notation "S6W" => (Memref.whole Cert.KernelIdeal.cc0_scratch6 : Memref Cert.KernelIdeal.sig Kind.scVector Space.vmem Cert.KernelIdeal.S1536 EltTy.f32)

open Idealize.ShloMosaic.ValueIdx Cert.Proof.KI.Views Cert.Proof.KI.RowViews

variable (m : (ℓ : Loc nD τ sig) → Buf (Elt F) ℓ) (d : Dev nD) (L : grid0.Coords)

omit [FloatOps F] in
/-- A whole table copied into a scratch of its shape: the scratch holds the table. -/
theorem copied_s2 (g : Buf (Elt F) ((S2W).view.loc (thr d L))) (f : Buf (Elt F) ((A1W).view.loc (thr d L))) :
    View.write (Elt F) (S2W).view g (ReadAs.same.apply (View.read (Elt F) (A1W).view f)) Finset.univ = f := by
  simp only [Memref.view_whole, View.write_whole_univ, View.read_whole]
omit [FloatOps F] in
theorem copied_s3 (g : Buf (Elt F) ((S3W).view.loc (thr d L))) (f : Buf (Elt F) ((A2W).view.loc (thr d L))) :
    View.write (Elt F) (S3W).view g (ReadAs.same.apply (View.read (Elt F) (A2W).view f)) Finset.univ = f := by
  simp only [Memref.view_whole, View.write_whole_univ, View.read_whole]
omit [FloatOps F] in
theorem copied_s4 (g : Buf (Elt F) ((S4W).view.loc (thr d L))) (f : Buf (Elt F) ((A3W).view.loc (thr d L))) :
    View.write (Elt F) (S4W).view g (ReadAs.same.apply (View.read (Elt F) (A3W).view f)) Finset.univ = f := by
  simp only [Memref.view_whole, View.write_whole_univ, View.read_whole]

omit [FloatOps F] in
/-- What a task is handed, spelt out: the four read shares and the 32 rows at their launch contents. -/
theorem go_eq (X : (d : Dev nD) → Buf (Elt F) (v0Loc d)) :
    TileGo' m X d L = iprop((((V0W).view.loc (thr d L) ↦{Transfers.shareTok fullShare 32 (tileNo (cL L) (iL L))} X d)
        ∗ ((A1W).view.loc (thr d L) ↦{Transfers.shareTok fullShare 32 (tileNo (cL L) (iL L))} m (a1Loc d))
        ∗ ((A2W).view.loc (thr d L) ↦{Transfers.shareTok fullShare 32 (tileNo (cL L) (iL L))} m (a2Loc d))
        ∗ ((A3W).view.loc (thr d L) ↦{Transfers.shareTok fullShare 32 (tileNo (cL L) (iL L))} m (a3Loc d)))
      ∗ bigSep Finset.univ (rowTodo m d L)) := rfl
omit [FloatOps F] in
/-- What it hands back, spelt out: the shares and the 32 rows served. -/
theorem td_eq (X : (d : Dev nD) → Buf (Elt F) (v0Loc d)) (KO : (d : Dev nD) → Buf (Elt F) (v1Loc d)) :
    TileTd' m X KO d L = iprop((((V0W).view.loc (thr d L) ↦{Transfers.shareTok fullShare 32 (tileNo (cL L) (iL L))} X d)
        ∗ ((A1W).view.loc (thr d L) ↦{Transfers.shareTok fullShare 32 (tileNo (cL L) (iL L))} m (a1Loc d))
        ∗ ((A2W).view.loc (thr d L) ↦{Transfers.shareTok fullShare 32 (tileNo (cL L) (iL L))} m (a2Loc d))
        ∗ ((A3W).view.loc (thr d L) ↦{Transfers.shareTok fullShare 32 (tileNo (cL L) (iL L))} m (a3Loc d)))
      ∗ bigSep Finset.univ (rowDone KO d L)) := rfl

/-! ## One task, whole

The three index tables are copied into scratch; the running sums are zeroed; the counting loop counts each band's
pairs per lane; the lanes' counts are added up and inverted (1 / max(count, 1)); then the 32 batches, one trip each;
at the end every row of the task holds the model's row. -/
set_option maxHeartbeats 1000000 in
theorem core (hr : ∀ d, Ranges (m (a1Loc d)) (m (a2Loc d)) (m (a3Loc d))) :
    CoreSpec m (fun d => reshapeIn (m (a0Loc d))) (fun d => KModel.KO (reshapeIn (m (a0Loc d))) (m (a1Loc d)) (m (a2Loc d)) (m (a3Loc d))) := by
  intro d L O W hO g0 g1 g2 g3 g4 g5 g6
  have hrd := hr d
  conv => rhs; unfold body; rw [cc0__body_eq_skeleton]; unfold cc0__body_skel
  iintro ⟨#Hmw, Hgo, Hs0, Hs1, Hs2, Hs3, Hs4, Hs5, Hs6, Hm0, Hm1, Hm2, Hm3, Hm4, HO⟩
  ihave Hgo := (Entails.of_eq (go_eq m d L (fun d => reshapeIn (m (a0Loc d))))) $$ Hgo
  icases Hgo with ⟨⟨Hv0, Ha1, Ha2, Ha3⟩, Hrows⟩
  -- the three index tables come into their scratch buffers
  sl_exec
  ihave Hs2 := (pts_name _) $$ Hs2
  icases Hs2 with ⟨%segS, %hsegE, Hs2⟩
  obtain rfl : segS = m (a1Loc d) := hsegE.trans (copied_s2 d L g2 _)
  ihave Hs3 := (pts_name _) $$ Hs3
  icases Hs3 with ⟨%bvS, %hbvE, Hs3⟩
  obtain rfl : bvS = m (a2Loc d) := hbvE.trans (copied_s3 d L g3 _)
  ihave Hs4 := (pts_name _) $$ Hs4
  icases Hs4 with ⟨%bidS, %hbidE, Hs4⟩
  obtain rfl : bidS = m (a3Loc d) := hbidE.trans (copied_s4 d L g4 _)
  -- the running sums are zeroed
  sl_for (invZ (F := F) d L) $$ [Hs6]
  case region => intro k acc; exact trip_zero1 d L k acc
  · unfold invZ; iexists _; isplitr
    rotate_left
    · iexact Hs6
    · ipureintro; intro p hp h; omega
  iintro %_ HI
  unfold invZ
  icases HI with ⟨%z6, %hz6, Hs6⟩
  sl_exec
  -- the pairs of each band are counted, lane by lane
  sl_for (invCnt (F := F) d L (m (a3Loc d))) $$ [Hs6 Hs4]
  case region => intro k acc; exact trip_cnt d L _ hrd.bid_le k acc
  · unfold invCnt
    isplitl [Hs6]
    · iexists _; isplitr
      rotate_left
      · iexact Hs6
      · ipureintro; intro r q hr' hq
        exact hz6 _ _ (by have h96 : Scf.trips k0_t1_loop.lb k0_t1_loop.ub k0_t1_loop.st = 96 := by decide
                          rw [h96]; omega)
    iexact Hs4
  iintro %_ HI
  unfold invCnt
  icases HI with ⟨⟨%f6, %hf6, Hs6⟩, Hs4⟩
  -- the lanes' counts are added up and inverted
  sl_exec
  ihave Hs5 := (pts_name _) $$ Hs5
  icases Hs5 with ⟨%c5, %hc5E, Hs5⟩
  have hf6' : CntAt (m (a3Loc d)) f6 256 := hf6
  have hc5 : ∀ q (hq : q < 96), c5 (ix1 ⟨q, hq⟩) = KModel.invCnt (m (a3Loc d)) q := by
    intro q hq
    rw [hc5E]
    refine (SumVals.invPieces_apply f6 _ q hq).trans ?_
    unfold KModel.invCnt
    refine congrArg (fun s => FloatOps.divf KModel.oneF (FloatOps.maximumf s KModel.oneF)) ?_
    refine laneSum_congr _ _ fun r hr' => ?_
    rw [dif_pos (by omega)]
    exact hf6' r q hr' hq
  -- the 32 batches
  sl_for (invB m (fun d => KModel.KO (reshapeIn (m (a0Loc d))) (m (a1Loc d)) (m (a2Loc d)) (m (a3Loc d))) d L O
      (insert (SemLoc.dma cc0_scoped2.sem, (default : HIx 1)) (insert (SemLoc.dma cc0_scoped1.sem, (default : HIx 1)) (insert (SemLoc.dma cc0_scoped0.sem, (default : HIx 1)) W)))
      (Transfers.shareTok fullShare 32 (tileNo (cL L) (iL L))) (reshapeIn (m (a0Loc d))) (m (a1Loc d)) (m (a2Loc d)) (m (a3Loc d)) c5)
    $$ [Hmw Hv0 Hrows Hs0 Hs1 Hs2 Hs3 Hs4 Hs5 Hs6 Hm3 Hm4 HO]
  case region => intro k acc; exact trip_batch m _ d L O _ _ _ _ _ _ hrd c5 hc5 (fun j => rfl) _ k acc
  · unfold invB
    rw [filter_lt_zero, filter_le_zero, BI.bigSep_empty]
    isplitl [Hmw]; · iexact Hmw
    isplitl [Hv0]; · iexact Hv0
    isplitr; · iempintro
    isplitl [Hrows]; · iexact Hrows
    isplitl [Hs0]; · iexists _; iexact Hs0
    isplitl [Hs1]; · iexists _; iexact Hs1
    isplitl [Hs2]; · iexact Hs2
    isplitl [Hs3]; · iexact Hs3
    isplitl [Hs4]; · iexact Hs4
    isplitl [Hs5]; · iexact Hs5
    isplitl [Hs6]; · iexists _; iexact Hs6
    isplitl [Hm3]; · iexact Hm3
    isplitl [Hm4]; · iexact Hm4
    iexists _; isplitr
    rotate_left
    · iexact HO
    · ipureintro; exact fun p hp => .inl hp
  iintro %_ HI
  unfold invB
  icases HI with ⟨-, Hv0, Hdone, -, ⟨%a0, Hs0⟩, ⟨%a1, Hs1⟩, Hs2, Hs3, Hs4, Hs5, ⟨%a6, Hs6⟩, Hm3, Hm4, %W', %hW', HO⟩
  have h32 : Scf.trips k0_t3_loop.lb k0_t3_loop.ub k0_t3_loop.st = 32 := by decide
  rw [h32, filter_lt_all]
  sl_exec
  sl_step
  isplitl [Hv0 Ha1 Ha2 Ha3 Hdone]
  · iapply (Entails.of_eq (td_eq m d L (fun d => reshapeIn (m (a0Loc d))) _).symm)
    isplitl [Hv0 Ha1 Ha2 Ha3]
    · isplitl [Hv0]; · iexact Hv0
      isplitl [Ha1]; · iexact Ha1
      isplitl [Ha2]; · iexact Ha2
      iexact Ha3
    · iexact Hdone
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hs5]; · iexists _; iexact Hs5
  isplitl [Hs6]; · iexists _; iexact Hs6
  isplitl [Hm0]; · iexact Hm0
  isplitl [Hm1]; · iexact Hm1
  isplitl [Hm2]; · iexact Hm2
  isplitl [Hm3]; · iexact Hm3
  isplitl [Hm4]; · iexact Hm4
  iexists _; isplitr
  rotate_left
  · iexact HO
  · ipureintro; intro p hp
    rcases hW' p hp with h | h
    · rcases Finset.mem_insert.mp h with h | h
      · exact .inr (h ▸ rfl)
      rcases Finset.mem_insert.mp h with h | h
      · exact .inr (h ▸ rfl)
      rcases Finset.mem_insert.mp h with h | h
      · exact .inr (h ▸ rfl)
      · exact .inl h
    · exact .inr h

end Cert.Proof.KI

end
-- ==== Proof.KB.Inv.lean ====
import proofs.«203378_g9921374454198_cont_sun_m_1167_43_alg».proof.Proof.KB.Setup
import proofs.«203378_g9921374454198_cont_sun_m_1167_43_alg».proof.Proof.KModel

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "V0W" => (Memref.whole Cert.Kernel.main_v0_scv : Memref Cert.Kernel.sig Kind.scVector Space.hbm Cert.Kernel.S1024x31425 EltTy.f32)
local notation "A1W" => (Memref.whole Cert.Kernel.main_arg1_scv : Memref Cert.Kernel.sig Kind.scVector Space.hbm Cert.Kernel.S8192 EltTy.i32)
local notation "A2W" => (Memref.whole Cert.Kernel.main_arg2_scv : Memref Cert.Kernel.sig Kind.scVector Space.hbm Cert.Kernel.S4096 EltTy.i32)
local notation "A3W" => (Memref.whole Cert.Kernel.main_arg3_scv : Memref Cert.Kernel.sig Kind.scVector Space.hbm Cert.Kernel.S4096 EltTy.i32)
local notation "V1W" => (Memref.whole Cert.Kernel.main_v1_scv : Memref Cert.Kernel.sig Kind.scVector Space.hbm Cert.Kernel.S1024x24672 EltTy.f32)
local notation "S0W" => (Memref.whole Cert.Kernel.cc0_scratch0 : Memref Cert.Kernel.sig Kind.scVector Space.vmem Cert.Kernel.S31425 EltTy.f32)
local notation "S1W" => (Memref.whole Cert.Kernel.cc0_scratch1 : Memref Cert.Kernel.sig Kind.scVector Space.vmem Cert.Kernel.S24672 EltTy.f32)
local notation "S2W" => (Memref.whole Cert.Kernel.cc0_scratch2 : Memref Cert.Kernel.sig Kind.scVector Space.vmem Cert.Kernel.S8192 EltTy.i32)
local notation "S3W" => (Memref.whole Cert.Kernel.cc0_scratch3 : Memref Cert.Kernel.sig Kind.scVector Space.vmem Cert.Kernel.S4096 EltTy.i32)
local notation "S4W" => (Memref.whole Cert.Kernel.cc0_scratch4 : Memref Cert.Kernel.sig Kind.scVector Space.vmem Cert.Kernel.S4096 EltTy.i32)
local notation "S5W" => (Memref.whole Cert.Kernel.cc0_scratch5 : Memref Cert.Kernel.sig Kind.scVector Space.vmem Cert.Kernel.S96 EltTy.f32)
local notation "S6W" => (Memref.whole Cert.Kernel.cc0_scratch6 : Memref Cert.Kernel.sig Kind.scVector Space.vmem Cert.Kernel.S1536 EltTy.f32)

open Idealize.ShloMosaic.ValueIdx

variable (d : Dev nD) (L : grid0.Coords)

/-- The vector subcore at grid point `L` of device `d`. -/
abbrev thr : Thread nD τ := V d (cV L) (jV L)

/-! ## What the scratch buffers hold, as facts about their contents

The running-sum scratch (1536 words: 16 lanes × 96 slots) and the row being assembled (24672 words) are described
entry by entry against the kernel's value model (`KModel`). -/

/-- Words below `n` of the running-sum scratch are zero. -/
def ZeroTo (f : Vec F S1536 .f32) (n : Nat) : Prop :=
  ∀ p (hp : p < 1536), p < n → f (ValueIdx.ix1 ⟨p, hp⟩) = KModel.zeroF

/-- After `k` steps of counting: lane `r`, slot `q` holds the model's count. -/
def CntAt (bid : Vec F S4096 .i32) (f : Vec F S1536 .f32) (k : Nat) : Prop :=
  ∀ r q (hr : r < 16) (hq : q < 96), f (ValueIdx.ix1 ⟨r * 96 + q, by omega⟩) = KModel.cntAcc bid k r q

/-- After `k` steps of the band sums for batch `b`. -/
def BandAt (X : Vec F S1024x31425 .f32) (bv bid : Vec F S4096 .i32) (b : Nat) (f : Vec F S1536 .f32) (k : Nat) : Prop :=
  ∀ r q (hr : r < 16) (hq : q < 96), f (ValueIdx.ix1 ⟨r * 96 + q, by omega⟩) = KModel.bandAcc X bv bid b k r q

/-- After `k` steps of the gather: the first `48·k` words of the row hold the gathered coordinates. -/
def SegAt (X : Vec F S1024x31425 .f32) (seg : Vec F S8192 .i32) (b : Nat) (f : Vec F S24672 .f32) (k : Nat) : Prop :=
  ∀ p (hp : p < 24672), p < 48 * k → f (ValueIdx.ix1 ⟨p, hp⟩) = KModel.xAt X b (KModel.wordAt seg (p / 3) * 3 + p % 3)

/-- The staged vertex row is row `b` of the flattened vertices. -/
def SlabIs (X : Vec F S1024x31425 .f32) (b : Nat) (slab : Vec F S31425 .f32) : Prop :=
  ∀ p (hp : p < 31425), slab (ValueIdx.ix1 ⟨p, hp⟩) = KModel.xAt X b p

/-! ## The loops' invariants -/

/-- The zeroing loop: after `k` trips the first `16·k` words are zero. -/
def invZ (k : Nat) (_ : BitVec 32) : sProp 𝕄 :=
  iprop(∃ f : Vec F S1536 .f32, ⌜ZeroTo f (16 * k)⌝ ∗ (S6W).view.loc (thr d L) ↦{fullShare} f)

/-- The counting loop. -/
def invCnt (bid : Vec F S4096 .i32) (k : Nat) (_ : BitVec 32) : sProp 𝕄 :=
  iprop((∃ f : Vec F S1536 .f32, ⌜CntAt bid f k⌝ ∗ (S6W).view.loc (thr d L) ↦{fullShare} f)
    ∗ ((S4W).view.loc (thr d L) ↦{fullShare} bid))

/-- The gather loop of batch `b`. -/
def invSeg (X : Vec F S1024x31425 .f32) (b : Nat) (slab : Vec F S31425 .f32) (seg : Vec F S8192 .i32) (k : Nat) (_ : BitVec 32) : sProp 𝕄 :=
  iprop((∃ f : Vec F S24672 .f32, ⌜SegAt X seg b f k⌝ ∗ (S1W).view.loc (thr d L) ↦{fullShare} f)
    ∗ ((S0W).view.loc (thr d L) ↦{fullShare} slab) ∗ ((S2W).view.loc (thr d L) ↦{fullShare} seg))

/-- The band-sum loop of batch `b`. -/
def invBand (X : Vec F S1024x31425 .f32) (b : Nat) (slab : Vec F S31425 .f32) (bv bid : Vec F S4096 .i32) (k : Nat) (_ : BitVec 32) : sProp 𝕄 :=
  iprop((∃ f : Vec F S1536 .f32, ⌜BandAt X bv bid b f k⌝ ∗ (S6W).view.loc (thr d L) ↦{fullShare} f)
    ∗ ((S0W).view.loc (thr d L) ↦{fullShare} slab) ∗ ((S3W).view.loc (thr d L) ↦{fullShare} bv)
    ∗ ((S4W).view.loc (thr d L) ↦{fullShare} bid))

/-! ## The held scratch, respelt for the indexed load and store rules -/

omit [FloatOps F] in
theorem pts_acc0 (f : Buf (Elt F) ((S0W).view.loc (thr d L))) :
    ((((S0W).access (Rect.whole _)).loc (thr d L) ↦[((S0W).access (Rect.whole _)).set]{fullShare} f : sProp 𝕄))
      = ((S0W).view.loc (thr d L) ↦{fullShare} f) := by
  rw [Memref.set_access_whole]
omit [FloatOps F] in
theorem pts_accq0 (q : PosShare TreeShare) (f : Buf (Elt F) ((S0W).view.loc (thr d L))) :
    ((((S0W).access (Rect.whole _)).loc (thr d L) ↦{q} f : sProp 𝕄))
      = ((S0W).view.loc (thr d L) ↦{q} f) := rfl

omit [FloatOps F] in
theorem pts_acc1 (f : Buf (Elt F) ((S1W).view.loc (thr d L))) :
    ((((S1W).access (Rect.whole _)).loc (thr d L) ↦[((S1W).access (Rect.whole _)).set]{fullShare} f : sProp 𝕄))
      = ((S1W).view.loc (thr d L) ↦{fullShare} f) := by
  rw [Memref.set_access_whole]
omit [FloatOps F] in
theorem pts_accq1 (q : PosShare TreeShare) (f : Buf (Elt F) ((S1W).view.loc (thr d L))) :
    ((((S1W).access (Rect.whole _)).loc (thr d L) ↦{q} f : sProp 𝕄))
      = ((S1W).view.loc (thr d L) ↦{q} f) := rfl

omit [FloatOps F] in
theorem pts_acc6 (f : Buf (Elt F) ((S6W).view.loc (thr d L))) :
    ((((S6W).access (Rect.whole _)).loc (thr d L) ↦[((S6W).access (Rect.whole _)).set]{fullShare} f : sProp 𝕄))
      = ((S6W).view.loc (thr d L) ↦{fullShare} f) := by
  rw [Memref.set_access_whole]
omit [FloatOps F] in
theorem pts_accq6 (q : PosShare TreeShare) (f : Buf (Elt F) ((S6W).view.loc (thr d L))) :
    ((((S6W).access (Rect.whole _)).loc (thr d L) ↦{q} f : sProp 𝕄))
      = ((S6W).view.loc (thr d L) ↦{q} f) := rfl

end Cert.Proof.KB

end
-- ==== Proof.KB.InvB.lean ====
import proofs.«203378_g9921374454198_cont_sun_m_1167_43_alg».proof.Proof.KB.Setup
import proofs.«203378_g9921374454198_cont_sun_m_1167_43_alg».proof.Proof.KB.Core
import proofs.«203378_g9921374454198_cont_sun_m_1167_43_alg».proof.Proof.KB.Inv

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "V0W" => (Memref.whole Cert.Kernel.main_v0_scv : Memref Cert.Kernel.sig Kind.scVector Space.hbm Cert.Kernel.S1024x31425 EltTy.f32)
local notation "A1W" => (Memref.whole Cert.Kernel.main_arg1_scv : Memref Cert.Kernel.sig Kind.scVector Space.hbm Cert.Kernel.S8192 EltTy.i32)
local notation "A2W" => (Memref.whole Cert.Kernel.main_arg2_scv : Memref Cert.Kernel.sig Kind.scVector Space.hbm Cert.Kernel.S4096 EltTy.i32)
local notation "A3W" => (Memref.whole Cert.Kernel.main_arg3_scv : Memref Cert.Kernel.sig Kind.scVector Space.hbm Cert.Kernel.S4096 EltTy.i32)
local notation "V1W" => (Memref.whole Cert.Kernel.main_v1_scv : Memref Cert.Kernel.sig Kind.scVector Space.hbm Cert.Kernel.S1024x24672 EltTy.f32)
local notation "S0W" => (Memref.whole Cert.Kernel.cc0_scratch0 : Memref Cert.Kernel.sig Kind.scVector Space.vmem Cert.Kernel.S31425 EltTy.f32)
local notation "S1W" => (Memref.whole Cert.Kernel.cc0_scratch1 : Memref Cert.Kernel.sig Kind.scVector Space.vmem Cert.Kernel.S24672 EltTy.f32)
local notation "S2W" => (Memref.whole Cert.Kernel.cc0_scratch2 : Memref Cert.Kernel.sig Kind.scVector Space.vmem Cert.Kernel.S8192 EltTy.i32)
local notation "S3W" => (Memref.whole Cert.Kernel.cc0_scratch3 : Memref Cert.Kernel.sig Kind.scVector Space.vmem Cert.Kernel.S4096 EltTy.i32)
local notation "S4W" => (Memref.whole Cert.Kernel.cc0_scratch4 : Memref Cert.Kernel.sig Kind.scVector Space.vmem Cert.Kernel.S4096 EltTy.i32)
local notation "S5W" => (Memref.whole Cert.Kernel.cc0_scratch5 : Memref Cert.Kernel.sig Kind.scVector Space.vmem Cert.Kernel.S96 EltTy.f32)
local notation "S6W" => (Memref.whole Cert.Kernel.cc0_scratch6 : Memref Cert.Kernel.sig Kind.scVector Space.vmem Cert.Kernel.S1536 EltTy.f32)

open Idealize.ShloMosaic.ValueIdx

variable (m : (ℓ : Loc nD τ sig) → Buf (Elt F) ℓ) (KO : (d : Dev nD) → Buf (Elt F) (v1Loc d)) (d : Dev nD) (L : grid0.Coords)

/-! ## The batch loop's invariant

A task serves 32 batches, one per trip. Before trip `k` the rows of the batches already served hold the expected
contents, the others still hold what they held at the launch; the three index tables sit in their scratch buffers, the
reciprocal counts in theirs; the staging row, the row being assembled and the running sums hold anything. -/

/-- A served row: it holds the expected contents. -/
abbrev rowDone (bi : Fin 32) : sProp 𝕄 :=
  iprop(∃ f, ⌜∀ j ∈ rowSetO (tileRow (cL L) (iL L) bi), f j = KO d j⌝
    ∗ (V1W).view.loc (thr d L) ↦[rowSetO (tileRow (cL L) (iL L) bi)]{fullShare} f)
/-- A row not yet served: at its launch contents. -/
abbrev rowTodo (bi : Fin 32) : sProp 𝕄 :=
  iprop((V1W).view.loc (thr d L) ↦[rowSetO (tileRow (cL L) (iL L) bi)]{fullShare} m (v1Loc d))

def invB (O : CellTallies nD τ sig (HIx 1)) (W : Waits sig (HIx 1)) (sh : PosShare TreeShare)
    (Xd : Vec F S1024x31425 .f32) (seg : Vec F S8192 .i32) (bv bid : Vec F S4096 .i32) (c5 : Vec F S96 .f32)
    (k : Nat) (_ : BitVec 32) : sProp 𝕄 :=
  iprop(Transfers.MayWaits (thr d L) (none : HIx 1) O
    ∗ ((V0W).view.loc (thr d L) ↦{sh} Xd)
    ∗ (bigSep (Finset.univ.filter fun bi : Fin 32 => bi.val < k) (rowDone KO d L))
    ∗ (bigSep (Finset.univ.filter fun bi : Fin 32 => k ≤ bi.val) (rowTodo m d L))
    ∗ (∃ f, (S0W).view.loc (thr d L) ↦{fullShare} f) ∗ (∃ f, (S1W).view.loc (thr d L) ↦{fullShare} f)
    ∗ ((S2W).view.loc (thr d L) ↦{fullShare} seg) ∗ ((S3W).view.loc (thr d L) ↦{fullShare} bv)
    ∗ ((S4W).view.loc (thr d L) ↦{fullShare} bid) ∗ ((S5W).view.loc (thr d L) ↦{fullShare} c5)
    ∗ (∃ f, (S6W).view.loc (thr d L) ↦{fullShare} f)
    ∗ semVal (thr d L, SemLoc.dma cc0_scoped3.sem) 0 ∗ semVal (thr d L, SemLoc.dma cc0_scoped4.sem) 0
    ∗ ∃ W', ⌜∀ p ∈ W', p ∈ W ∨ p.2 = none⌝ ∗ owes (thr d L) O W')

/-! ## Rows served and rows to serve, one step -/

theorem filter_le_step (k : Fin 32) :
    (Finset.univ.filter fun bi : Fin 32 => k.val ≤ bi.val) = insert k (Finset.univ.filter fun bi : Fin 32 => k.val + 1 ≤ bi.val) := by
  ext bi; simp only [Finset.mem_filter, Finset.mem_univ, true_and, Finset.mem_insert]
  constructor
  · intro h; rcases Nat.eq_or_lt_of_le h with h | h
    · exact .inl (Fin.ext h.symm)
    · exact .inr h
  · rintro (h | h)
    · subst h; exact le_rfl
    · omega
theorem not_mem_filter_le_succ (k : Fin 32) : k ∉ (Finset.univ.filter fun bi : Fin 32 => k.val + 1 ≤ bi.val) := by
  simp
theorem filter_lt_step (k : Fin 32) :
    (Finset.univ.filter fun bi : Fin 32 => bi.val < k.val + 1) = insert k (Finset.univ.filter fun bi : Fin 32 => bi.val < k.val) := by
  ext bi; simp only [Finset.mem_filter, Finset.mem_univ, true_and, Finset.mem_insert]
  constructor
  · intro h; rcases Nat.eq_or_lt_of_le (Nat.lt_succ_iff.mp h) with h | h
    · exact .inl (Fin.ext h)
    · exact .inr h
  · rintro (h | h)
    · subst h; omega
    · omega
theorem not_mem_filter_lt (k : Fin 32) : k ∉ (Finset.univ.filter fun bi : Fin 32 => bi.val < k.val) := by
  simp
theorem filter_lt_zero : (Finset.univ.filter fun bi : Fin 32 => bi.val < 0) = ∅ := by
  ext bi; simp
theorem filter_le_zero : (Finset.univ.filter fun bi : Fin 32 => 0 ≤ bi.val) = Finset.univ := by
  ext bi; simp
theorem filter_lt_all : (Finset.univ.filter fun bi : Fin 32 => bi.val < 32) = Finset.univ := by
  ext bi; simp
theorem filter_le_all : (Finset.univ.filter fun bi : Fin 32 => 32 ≤ bi.val) = ∅ := by
  ext bi; simp

theorem filter_le_step' (k : Nat) (hk : k < 32) :
    (Finset.univ.filter fun bi : Fin 32 => k ≤ bi.val) = insert (⟨k, hk⟩ : Fin 32) (Finset.univ.filter fun bi : Fin 32 => k + 1 ≤ bi.val) :=
  filter_le_step ⟨k, hk⟩
theorem filter_lt_step' (k : Nat) (hk : k < 32) :
    (Finset.univ.filter fun bi : Fin 32 => bi.val < k + 1) = insert (⟨k, hk⟩ : Fin 32) (Finset.univ.filter fun bi : Fin 32 => bi.val < k) :=
  filter_lt_step ⟨k, hk⟩

omit [FloatOps F] in
/-- The rows still to serve, with the next one taken out. -/
theorem todo_take (Φ : Fin 32 → sProp 𝕄) (k : Nat) (hk : k < 32) :
    bigSep (Finset.univ.filter fun bi : Fin 32 => k ≤ bi.val) Φ
      = iprop(Φ ⟨k, hk⟩ ∗ bigSep (Finset.univ.filter fun bi : Fin 32 => k + 1 ≤ bi.val) Φ) := by
  rw [filter_le_step' k hk, SparseCore.bigSep_insert' (not_mem_filter_le_succ ⟨k, hk⟩)]
omit [FloatOps F] in
/-- The rows served, with one more put in. -/
theorem done_put (Φ : Fin 32 → sProp 𝕄) (k : Nat) (hk : k < 32) :
    bigSep (Finset.univ.filter fun bi : Fin 32 => bi.val < k + 1) Φ
      = iprop(Φ ⟨k, hk⟩ ∗ bigSep (Finset.univ.filter fun bi : Fin 32 => bi.val < k) Φ) := by
  rw [filter_lt_step' k hk, SparseCore.bigSep_insert' (not_mem_filter_lt ⟨k, hk⟩)]

omit [FloatOps F] in
/-- A points-to's contents, given a name. -/
theorem pts_name {ℓ : Loc nD τ sig} {S : Finset (Idx ℓ)} {q : PosShare TreeShare} (c : Buf (Elt F) ℓ) :
    (ℓ ↦[S]{q} c : sProp 𝕄) ⊢ iprop(∃ s, ⌜s = c⌝ ∗ ℓ ↦[S]{q} s) := by
  iintro H; iexists c; isplitr
  · ipureintro; rfl
  · iexact H

end Cert.Proof.KB

end
-- ==== Proof.KB.Views.lean ====
/-
  What a 1-D scratch buffer holds, read at a word: a 16-lane load reads the words at its offset plus the lane; after
  16-lane stores a word holds the payload lane of the LAST store that covers it, else what was there before.
  Stated for any whole 1-D buffer and then spelt for the kernel's scratch buffers.
-/
import proofs.«203378_g9921374454198_cont_sun_m_1167_43_alg».proof.Proof.KB.Setup
import Idealize.ShloMosaic.Lib.WritesUnit
import Idealize.ShloMosaic.Lib.ValueIdx

noncomputable section

namespace Cert.Proof.KB.Views

open Cert.Kernel Cert.Kernel.Gen
open Idealize.ShloMosaic Idealize.ShloMosaic.ValueIdx

/-! ## Any 1-D buffer -/

section Generic

variable {sig : RefSig} {κ : Kind} {sp : Space} {n : Nat} {e : EltTy} {Val : EltTy → Type}

/-- A lane of a 16-lane window inside `n` words is a word below `n`. -/
theorem lane_lt (off : Fin 1 → Nat) (h : ∀ a, off a + (![16] : Fin 1 → Nat) a ≤ (⟨1, ![n]⟩ : Shape).size a)
    (x : (⟨1, ![16]⟩ : Shape).Idx) : off 0 + (x 0).val < n := by
  have h0 : off 0 + 16 ≤ n := h 0
  have hx : (x 0).val < 16 := (x 0).isLt
  omega

/-- A 16-lane load at offset `off`: lane `x` reads word `off + x`. -/
theorem readAt16 (v : View sig κ sp (⟨1, ![n]⟩ : Shape) e) (off : Fin 1 → Nat)
    (h : ∀ a, off a + (![16] : Fin 1 → Nat) a ≤ (⟨1, ![n]⟩ : Shape).size a) (c : v.ty.Contents Val)
    (x : (⟨1, ![16]⟩ : Shape).Idx) :
    v.readAt Val (Rect.unit (s := (⟨1, ![n]⟩ : Shape)) off ![16] h).toLoadRect c x
      = v.read Val c (ix1 ⟨off 0 + (x 0).val, lane_lt off h x⟩) := by
  rw [View.readAt_apply]
  refine congrArg (v.read Val c) (funext fun a => Fin.ext ?_)
  match a with
  | ⟨0, _⟩ =>
    show off 0 + 1 * (x 0).val = off 0 + (x 0).val
    rw [Nat.one_mul]

/-- One 16-lane store on top of a list of stores, read at word `p`: the store's lane `p − off` if it covers `p`, else
    what the rest of the list left. -/
theorem writes16_cons (v : View sig κ sp (⟨1, ![n]⟩ : Shape) e) (f : v.ty.Contents Val) (off : Fin 1 → Nat)
    (h : ∀ a, off a + (![16] : Fin 1 → Nat) a ≤ (⟨1, ![n]⟩ : Shape).size a) (w : (⟨1, ![16]⟩ : Shape).Idx → Val e)
    (L : List (View.Piece Val (⟨1, ![n]⟩ : Shape) e)) (p : Nat) (hp : p < n) :
    v.read Val (v.writes Val f ((⟨Rect.unit (s := (⟨1, ![n]⟩ : Shape)) off ![16] h, w⟩ : View.Piece Val _ e) :: L)) (ix1 ⟨p, hp⟩)
      = if hm : off 0 ≤ p ∧ p < off 0 + 16 then w (ix1 ⟨p - off 0, by omega⟩)
        else v.read Val (v.writes Val f L) (ix1 ⟨p, hp⟩) := by
  by_cases hm : off 0 ≤ p ∧ p < off 0 + 16
  · rw [dif_pos hm]
    exact View.read_writes_cons_unit_of_mem v f h w L (ix1 ⟨p, hp⟩) (ix1 ⟨p - off 0, by omega⟩) rfl
      (fun a => match a with
        | ⟨0, _⟩ => by
          show p = off 0 + (p - off 0)
          omega)
  · rw [dif_neg hm]
    exact View.read_writes_cons_unit_of_not_mem v f h w L (ix1 ⟨p, hp⟩) rfl (0 : Fin 1) (by
      show p < off 0 ∨ off 0 + 16 ≤ p
      omega)

/-- Word `p` of a window `[off, off + size)` as the window's own lane `p − off`. -/
abbrev laneIdx (r : Rect (⟨1, ![n]⟩ : Shape)) (p : Nat) (h : r.off 0 ≤ p ∧ p < r.off 0 + r.size 0) : r.shape.Idx :=
  fun a => match a with | ⟨0, _⟩ => ⟨p - r.off 0, Nat.sub_lt_left_of_lt_add h.1 h.2⟩

/-- In a 16-lane window at offset `off` that lane is `p − off`. -/
theorem laneIdx_unit (off : Fin 1 → Nat) (h : ∀ a, off a + (![16] : Fin 1 → Nat) a ≤ (⟨1, ![n]⟩ : Shape).size a) (p : Nat)
    (hm : off 0 ≤ p ∧ p < off 0 + 16) :
    laneIdx (Rect.unit (s := (⟨1, ![n]⟩ : Shape)) off ![16] h) p hm = ix1 ⟨p - off 0, by omega⟩ :=
  funext fun a => match a with | ⟨0, _⟩ => rfl

/-- What a list of unit-stride stores leaves at word `p` over contents `f`, by recursion on the list: the first piece
    (the LAST store) whose window `[off, off + size)` holds `p` gives its lane `p − off`; no piece: `f`. -/
def readList (f : (⟨1, ![n]⟩ : Shape).Idx → Val e) :
    List (View.Piece Val (⟨1, ![n]⟩ : Shape) e) → (p : Nat) → p < n → Val e
  | [], p, hp => f (ix1 ⟨p, hp⟩)
  | q :: L, p, hp =>
    if h : q.1.off 0 ≤ p ∧ p < q.1.off 0 + q.1.size 0 then
      q.2 (laneIdx q.1 p h)
    else readList f L p hp

@[simp] theorem readList_nil (f : (⟨1, ![n]⟩ : Shape).Idx → Val e) (p : Nat) (hp : p < n) :
    readList f [] p hp = f (ix1 ⟨p, hp⟩) := rfl

@[simp] theorem readList_cons (f : (⟨1, ![n]⟩ : Shape).Idx → Val e) (q : View.Piece Val (⟨1, ![n]⟩ : Shape) e)
    (L : List (View.Piece Val (⟨1, ![n]⟩ : Shape) e)) (p : Nat) (hp : p < n) :
    readList f (q :: L) p hp
      = if h : q.1.off 0 ≤ p ∧ p < q.1.off 0 + q.1.size 0 then
          q.2 (laneIdx q.1 p h)
        else readList f L p hp := rfl

/-- A list of unit-stride stores read at word `p`: first matching piece wins. -/
theorem writes16_list (v : View sig κ sp (⟨1, ![n]⟩ : Shape) e) (f : v.ty.Contents Val)
    (L : List (View.Piece Val (⟨1, ![n]⟩ : Shape) e)) (hL : ∀ q ∈ L, q.1.stride 0 = 1) (p : Nat) (hp : p < n) :
    v.read Val (v.writes Val f L) (ix1 ⟨p, hp⟩) = readList (v.read Val f) L p hp := by
  induction L with
  | nil => rfl
  | cons q L ih =>
    obtain ⟨r, w⟩ := q
    have hs : r.stride 0 = 1 := hL ⟨r, w⟩ List.mem_cons_self
    have ih' := ih fun q hq => hL q (List.mem_cons_of_mem _ hq)
    rw [readList_cons]
    by_cases hm : r.off 0 ≤ p ∧ p < r.off 0 + r.size 0
    · rw [dif_pos hm]
      have hy : r.emb (laneIdx r p hm) = ix1 ⟨p, hp⟩ :=
        funext fun a => Fin.ext (by
          match a with
          | ⟨0, _⟩ =>
            show r.off 0 + r.stride 0 * (p - r.off 0) = p
            rw [hs, Nat.one_mul]
            omega)
      rw [← hy]
      exact View.read_writes_cons_emb v f r w L _
    · rw [dif_neg hm, ← ih', View.writes_cons]
      refine View.read_slice_write_of_not_mem r _ w _ ?_
      rw [Rect.map_emb_univ, LoadRect.mem_set]
      intro hall
      obtain ⟨j, hj, he⟩ := hall (0 : Fin 1)
      have he' : p = r.off 0 + r.stride 0 * j := he
      rw [hs, Nat.one_mul] at he'
      exact hm ⟨by omega, by omega⟩

end Generic

/-! ## The kernel's scratch buffers -/

variable {F : FTy → Type}

/-! ### (a) 16-lane loads -/

theorem readAt16_s1 (off : Fin 1 → Nat) (h : ∀ a, off a + S16.size a ≤ S24672.size a) (c : S24672.Idx → Elt F .f32) (x : S16.Idx) :
    (Memref.whole Cert.Kernel.cc0_scratch1 : Memref Cert.Kernel.sig Kind.scVector Space.vmem Cert.Kernel.S24672 EltTy.f32).view.readAt (Elt F)
        (Rect.unit (s := S24672) off S16.size h).toLoadRect c x
      = c (ix1 ⟨off 0 + (x 0).val, lane_lt off h x⟩) :=
  readAt16 (Val := Elt F) (Memref.whole Cert.Kernel.cc0_scratch1 : Memref Cert.Kernel.sig Kind.scVector Space.vmem Cert.Kernel.S24672 EltTy.f32).view off h c x

theorem readAt16_s2 (off : Fin 1 → Nat) (h : ∀ a, off a + S16.size a ≤ S8192.size a) (c : S8192.Idx → Elt F .i32) (x : S16.Idx) :
    (Memref.whole Cert.Kernel.cc0_scratch2 : Memref Cert.Kernel.sig Kind.scVector Space.vmem Cert.Kernel.S8192 EltTy.i32).view.readAt (Elt F)
        (Rect.unit (s := S8192) off S16.size h).toLoadRect c x
      = c (ix1 ⟨off 0 + (x 0).val, lane_lt off h x⟩) :=
  readAt16 (Val := Elt F) (Memref.whole Cert.Kernel.cc0_scratch2 : Memref Cert.Kernel.sig Kind.scVector Space.vmem Cert.Kernel.S8192 EltTy.i32).view off h c x

theorem readAt16_s3 (off : Fin 1 → Nat) (h : ∀ a, off a + S16.size a ≤ S4096.size a) (c : S4096.Idx → Elt F .i32) (x : S16.Idx) :
    (Memref.whole Cert.Kernel.cc0_scratch3 : Memref Cert.Kernel.sig Kind.scVector Space.vmem Cert.Kernel.S4096 EltTy.i32).view.readAt (Elt F)
        (Rect.unit (s := S4096) off S16.size h).toLoadRect c x
      = c (ix1 ⟨off 0 + (x 0).val, lane_lt off h x⟩) :=
  readAt16 (Val := Elt F) (Memref.whole Cert.Kernel.cc0_scratch3 : Memref Cert.Kernel.sig Kind.scVector Space.vmem Cert.Kernel.S4096 EltTy.i32).view off h c x

theorem readAt16_s4 (off : Fin 1 → Nat) (h : ∀ a, off a + S16.size a ≤ S4096.size a) (c : S4096.Idx → Elt F .i32) (x : S16.Idx) :
    (Memref.whole Cert.Kernel.cc0_scratch4 : Memref Cert.Kernel.sig Kind.scVector Space.vmem Cert.Kernel.S4096 EltTy.i32).view.readAt (Elt F)
        (Rect.unit (s := S4096) off S16.size h).toLoadRect c x
      = c (ix1 ⟨off 0 + (x 0).val, lane_lt off h x⟩) :=
  readAt16 (Val := Elt F) (Memref.whole Cert.Kernel.cc0_scratch4 : Memref Cert.Kernel.sig Kind.scVector Space.vmem Cert.Kernel.S4096 EltTy.i32).view off h c x

theorem readAt16_s5 (off : Fin 1 → Nat) (h : ∀ a, off a + S16.size a ≤ S96.size a) (c : S96.Idx → Elt F .f32) (x : S16.Idx) :
    (Memref.whole Cert.Kernel.cc0_scratch5 : Memref Cert.Kernel.sig Kind.scVector Space.vmem Cert.Kernel.S96 EltTy.f32).view.readAt (Elt F)
        (Rect.unit (s := S96) off S16.size h).toLoadRect c x
      = c (ix1 ⟨off 0 + (x 0).val, lane_lt off h x⟩) :=
  readAt16 (Val := Elt F) (Memref.whole Cert.Kernel.cc0_scratch5 : Memref Cert.Kernel.sig Kind.scVector Space.vmem Cert.Kernel.S96 EltTy.f32).view off h c x

theorem readAt16_s6 (off : Fin 1 → Nat) (h : ∀ a, off a + S16.size a ≤ S1536.size a) (c : S1536.Idx → Elt F .f32) (x : S16.Idx) :
    (Memref.whole Cert.Kernel.cc0_scratch6 : Memref Cert.Kernel.sig Kind.scVector Space.vmem Cert.Kernel.S1536 EltTy.f32).view.readAt (Elt F)
        (Rect.unit (s := S1536) off S16.size h).toLoadRect c x
      = c (ix1 ⟨off 0 + (x 0).val, lane_lt off h x⟩) :=
  readAt16 (Val := Elt F) (Memref.whole Cert.Kernel.cc0_scratch6 : Memref Cert.Kernel.sig Kind.scVector Space.vmem Cert.Kernel.S1536 EltTy.f32).view off h c x

/-! ### (b), (c) 16-lane stores -/

/-- One store on top of the rest of the list `L`, read at word `p` (with `L = []`: one store over `f`). -/
theorem writes16_cons_s6 (f : S1536.Idx → Elt F .f32) (off : Fin 1 → Nat) (h : ∀ a, off a + S16.size a ≤ S1536.size a)
    (w : S16.Idx → Elt F .f32) (L : List (View.Piece (Elt F) S1536 .f32)) (p : Nat) (hp : p < 1536) :
    ((Memref.whole Cert.Kernel.cc0_scratch6 : Memref Cert.Kernel.sig Kind.scVector Space.vmem Cert.Kernel.S1536 EltTy.f32).view.writes (Elt F) f
        (⟨Rect.unit (s := S1536) off S16.size h, w⟩ :: L)) (ix1 ⟨p, hp⟩)
      = if hm : off 0 ≤ p ∧ p < off 0 + 16 then w (ix1 ⟨p - off 0, by omega⟩)
        else ((Memref.whole Cert.Kernel.cc0_scratch6 : Memref Cert.Kernel.sig Kind.scVector Space.vmem Cert.Kernel.S1536 EltTy.f32).view.writes (Elt F) f L) (ix1 ⟨p, hp⟩) :=
  writes16_cons (Val := Elt F) (Memref.whole Cert.Kernel.cc0_scratch6 : Memref Cert.Kernel.sig Kind.scVector Space.vmem Cert.Kernel.S1536 EltTy.f32).view f off h w L p hp

theorem writes16_s6 (f : S1536.Idx → Elt F .f32) (off : Fin 1 → Nat) (h : ∀ a, off a + S16.size a ≤ S1536.size a)
    (w : S16.Idx → Elt F .f32) (p : Nat) (hp : p < 1536) :
    ((Memref.whole Cert.Kernel.cc0_scratch6 : Memref Cert.Kernel.sig Kind.scVector Space.vmem Cert.Kernel.S1536 EltTy.f32).view.writes (Elt F) f
        [⟨Rect.unit (s := S1536) off S16.size h, w⟩]) (ix1 ⟨p, hp⟩)
      = if hm : off 0 ≤ p ∧ p < off 0 + 16 then w (ix1 ⟨p - off 0, by omega⟩) else f (ix1 ⟨p, hp⟩) :=
  writes16_cons (Val := Elt F) (Memref.whole Cert.Kernel.cc0_scratch6 : Memref Cert.Kernel.sig Kind.scVector Space.vmem Cert.Kernel.S1536 EltTy.f32).view f off h w [] p hp

/-- A whole list of stores, read at word `p`: the first piece of the list (the LAST store) that holds `p` wins. -/
theorem writes16_list_s6 (f : S1536.Idx → Elt F .f32) (L : List (View.Piece (Elt F) S1536 .f32))
    (hL : ∀ q ∈ L, q.1.stride 0 = 1) (p : Nat) (hp : p < 1536) :
    ((Memref.whole Cert.Kernel.cc0_scratch6 : Memref Cert.Kernel.sig Kind.scVector Space.vmem Cert.Kernel.S1536 EltTy.f32).view.writes (Elt F) f L) (ix1 ⟨p, hp⟩)
      = readList f L p hp :=
  writes16_list (Val := Elt F) (Memref.whole Cert.Kernel.cc0_scratch6 : Memref Cert.Kernel.sig Kind.scVector Space.vmem Cert.Kernel.S1536 EltTy.f32).view f L hL p hp

/-- One store on top of the rest of the list `L`, read at word `p` (with `L = []`: one store over `f`). -/
theorem writes16_cons_s1 (f : S24672.Idx → Elt F .f32) (off : Fin 1 → Nat) (h : ∀ a, off a + S16.size a ≤ S24672.size a)
    (w : S16.Idx → Elt F .f32) (L : List (View.Piece (Elt F) S24672 .f32)) (p : Nat) (hp : p < 24672) :
    ((Memref.whole Cert.Kernel.cc0_scratch1 : Memref Cert.Kernel.sig Kind.scVector Space.vmem Cert.Kernel.S24672 EltTy.f32).view.writes (Elt F) f
        (⟨Rect.unit (s := S24672) off S16.size h, w⟩ :: L)) (ix1 ⟨p, hp⟩)
      = if hm : off 0 ≤ p ∧ p < off 0 + 16 then w (ix1 ⟨p - off 0, by omega⟩)
        else ((Memref.whole Cert.Kernel.cc0_scratch1 : Memref Cert.Kernel.sig Kind.scVector Space.vmem Cert.Kernel.S24672 EltTy.f32).view.writes (Elt F) f L) (ix1 ⟨p, hp⟩) :=
  writes16_cons (Val := Elt F) (Memref.whole Cert.Kernel.cc0_scratch1 : Memref Cert.Kernel.sig Kind.scVector Space.vmem Cert.Kernel.S24672 EltTy.f32).view f off h w L p hp

theorem writes16_s1 (f : S24672.Idx → Elt F .f32) (off : Fin 1 → Nat) (h : ∀ a, off a + S16.size a ≤ S24672.size a)
    (w : S16.Idx → Elt F .f32) (p : Nat) (hp : p < 24672) :
    ((Memref.whole Cert.Kernel.cc0_scratch1 : Memref Cert.Kernel.sig Kind.scVector Space.vmem Cert.Kernel.S24672 EltTy.f32).view.writes (Elt F) f
        [⟨Rect.unit (s := S24672) off S16.size h, w⟩]) (ix1 ⟨p, hp⟩)
      = if hm : off 0 ≤ p ∧ p < off 0 + 16 then w (ix1 ⟨p - off 0, by omega⟩) else f (ix1 ⟨p, hp⟩) :=
  writes16_cons (Val := Elt F) (Memref.whole Cert.Kernel.cc0_scratch1 : Memref Cert.Kernel.sig Kind.scVector Space.vmem Cert.Kernel.S24672 EltTy.f32).view f off h w [] p hp

/-- A whole list of stores, read at word `p`: the first piece of the list (the LAST store) that holds `p` wins. -/
theorem writes16_list_s1 (f : S24672.Idx → Elt F .f32) (L : List (View.Piece (Elt F) S24672 .f32))
    (hL : ∀ q ∈ L, q.1.stride 0 = 1) (p : Nat) (hp : p < 24672) :
    ((Memref.whole Cert.Kernel.cc0_scratch1 : Memref Cert.Kernel.sig Kind.scVector Space.vmem Cert.Kernel.S24672 EltTy.f32).view.writes (Elt F) f L) (ix1 ⟨p, hp⟩)
      = readList f L p hp :=
  writes16_list (Val := Elt F) (Memref.whole Cert.Kernel.cc0_scratch1 : Memref Cert.Kernel.sig Kind.scVector Space.vmem Cert.Kernel.S24672 EltTy.f32).view f L hL p hp

/-- One store on top of the rest of the list `L`, read at word `p` (with `L = []`: one store over `f`). -/
theorem writes16_cons_s5 (f : S96.Idx → Elt F .f32) (off : Fin 1 → Nat) (h : ∀ a, off a + S16.size a ≤ S96.size a)
    (w : S16.Idx → Elt F .f32) (L : List (View.Piece (Elt F) S96 .f32)) (p : Nat) (hp : p < 96) :
    ((Memref.whole Cert.Kernel.cc0_scratch5 : Memref Cert.Kernel.sig Kind.scVector Space.vmem Cert.Kernel.S96 EltTy.f32).view.writes (Elt F) f
        (⟨Rect.unit (s := S96) off S16.size h, w⟩ :: L)) (ix1 ⟨p, hp⟩)
      = if hm : off 0 ≤ p ∧ p < off 0 + 16 then w (ix1 ⟨p - off 0, by omega⟩)
        else ((Memref.whole Cert.Kernel.cc0_scratch5 : Memref Cert.Kernel.sig Kind.scVector Space.vmem Cert.Kernel.S96 EltTy.f32).view.writes (Elt F) f L) (ix1 ⟨p, hp⟩) :=
  writes16_cons (Val := Elt F) (Memref.whole Cert.Kernel.cc0_scratch5 : Memref Cert.Kernel.sig Kind.scVector Space.vmem Cert.Kernel.S96 EltTy.f32).view f off h w L p hp

theorem writes16_s5 (f : S96.Idx → Elt F .f32) (off : Fin 1 → Nat) (h : ∀ a, off a + S16.size a ≤ S96.size a)
    (w : S16.Idx → Elt F .f32) (p : Nat) (hp : p < 96) :
    ((Memref.whole Cert.Kernel.cc0_scratch5 : Memref Cert.Kernel.sig Kind.scVector Space.vmem Cert.Kernel.S96 EltTy.f32).view.writes (Elt F) f
        [⟨Rect.unit (s := S96) off S16.size h, w⟩]) (ix1 ⟨p, hp⟩)
      = if hm : off 0 ≤ p ∧ p < off 0 + 16 then w (ix1 ⟨p - off 0, by omega⟩) else f (ix1 ⟨p, hp⟩) :=
  writes16_cons (Val := Elt F) (Memref.whole Cert.Kernel.cc0_scratch5 : Memref Cert.Kernel.sig Kind.scVector Space.vmem Cert.Kernel.S96 EltTy.f32).view f off h w [] p hp

/-- A whole list of stores, read at word `p`: the first piece of the list (the LAST store) that holds `p` wins. -/
theorem writes16_list_s5 (f : S96.Idx → Elt F .f32) (L : List (View.Piece (Elt F) S96 .f32))
    (hL : ∀ q ∈ L, q.1.stride 0 = 1) (p : Nat) (hp : p < 96) :
    ((Memref.whole Cert.Kernel.cc0_scratch5 : Memref Cert.Kernel.sig Kind.scVector Space.vmem Cert.Kernel.S96 EltTy.f32).view.writes (Elt F) f L) (ix1 ⟨p, hp⟩)
      = readList f L p hp :=
  writes16_list (Val := Elt F) (Memref.whole Cert.Kernel.cc0_scratch5 : Memref Cert.Kernel.sig Kind.scVector Space.vmem Cert.Kernel.S96 EltTy.f32).view f L hL p hp

end Cert.Proof.KB.Views

end
-- ==== Proof.KB.LoopZero.lean ====
import proofs.«203378_g9921374454198_cont_sun_m_1167_43_alg».proof.Proof.KB.Setup
import proofs.«203378_g9921374454198_cont_sun_m_1167_43_alg».proof.Proof.KB.Inv
import proofs.«203378_g9921374454198_cont_sun_m_1167_43_alg».proof.Proof.KB.Views

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "V0W" => (Memref.whole Cert.Kernel.main_v0_scv : Memref Cert.Kernel.sig Kind.scVector Space.hbm Cert.Kernel.S1024x31425 EltTy.f32)
local notation "A1W" => (Memref.whole Cert.Kernel.main_arg1_scv : Memref Cert.Kernel.sig Kind.scVector Space.hbm Cert.Kernel.S8192 EltTy.i32)
local notation "A2W" => (Memref.whole Cert.Kernel.main_arg2_scv : Memref Cert.Kernel.sig Kind.scVector Space.hbm Cert.Kernel.S4096 EltTy.i32)
local notation "A3W" => (Memref.whole Cert.Kernel.main_arg3_scv : Memref Cert.Kernel.sig Kind.scVector Space.hbm Cert.Kernel.S4096 EltTy.i32)
local notation "V1W" => (Memref.whole Cert.Kernel.main_v1_scv : Memref Cert.Kernel.sig Kind.scVector Space.hbm Cert.Kernel.S1024x24672 EltTy.f32)
local notation "S0W" => (Memref.whole Cert.Kernel.cc0_scratch0 : Memref Cert.Kernel.sig Kind.scVector Space.vmem Cert.Kernel.S31425 EltTy.f32)
local notation "S1W" => (Memref.whole Cert.Kernel.cc0_scratch1 : Memref Cert.Kernel.sig Kind.scVector Space.vmem Cert.Kernel.S24672 EltTy.f32)
local notation "S2W" => (Memref.whole Cert.Kernel.cc0_scratch2 : Memref Cert.Kernel.sig Kind.scVector Space.vmem Cert.Kernel.S8192 EltTy.i32)
local notation "S3W" => (Memref.whole Cert.Kernel.cc0_scratch3 : Memref Cert.Kernel.sig Kind.scVector Space.vmem Cert.Kernel.S4096 EltTy.i32)
local notation "S4W" => (Memref.whole Cert.Kernel.cc0_scratch4 : Memref Cert.Kernel.sig Kind.scVector Space.vmem Cert.Kernel.S4096 EltTy.i32)
local notation "S5W" => (Memref.whole Cert.Kernel.cc0_scratch5 : Memref Cert.Kernel.sig Kind.scVector Space.vmem Cert.Kernel.S96 EltTy.f32)
local notation "S6W" => (Memref.whole Cert.Kernel.cc0_scratch6 : Memref Cert.Kernel.sig Kind.scVector Space.vmem Cert.Kernel.S1536 EltTy.f32)

open Idealize.ShloMosaic.ValueIdx Cert.Proof.KB.Views

variable (d : Dev nD) (L : grid0.Coords)

/-! ## The zeroing loops: trip `k` stores sixteen zeros at words `16·k … 16·k + 15` of the running-sum scratch -/

omit [FloatOps F] in
theorem pay31_apply [FloatOps F] (x : S16.Idx) : (k0_pay31 (F := F)) x = KModel.zeroF := rfl

/-- Sixteen zeros written at `16·k` extend the zeroed prefix from `16·k` to `16·(k+1)`. -/
theorem zero_step (f : Vec F S1536 .f32) (k : Nat) (off : Fin 1 → Nat) (hoff : off = ![16 * k])
    (h : ∀ a, off a + S16.size a ≤ S1536.size a) (hf : ZeroTo f (16 * k)) :
    ZeroTo ((S6W).view.writes (Elt F) f [⟨Rect.unit (s := S1536) off S16.size h, k0_pay31 (F := F)⟩]) (16 * (k + 1)) := by
  subst hoff
  intro p hp hlt
  rw [writes16_s6]
  split
  · exact pay31_apply _
  · rename_i hm
    refine hf p hp ?_
    have : ¬ (16 * k ≤ p ∧ p < 16 * k + 16) := hm
    omega

/-- One trip of the first zeroing loop. -/
theorem trip_zero1 (k : Fin k0_t1_loop.trips) (acc : BitVec 32) :
    invZ (F := F) d L k.val acc ⊢ wp frame (wpE (defs₀ (F := F)) 𝒱₀ (thr d L) none) Set.univ
        (k0_t1_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 k acc)
        (invZ d L (k.val + 1)) := by
  conv => rhs; unfold k0_t1_body
  unfold invZ
  iintro ⟨%f, %hf, Hs6⟩
  sl_exec
  sl_step
  iexists _; isplitr
  rotate_left
  · iexact Hs6
  · ipureintro; exact zero_step f k.val _ (k0_off1_eq k) _ hf

/-- One trip of the zeroing loop inside the batch loop. -/
theorem trip_zero4 (v1 : BitVec 32) (v2 v4 : IVec S16 32) (v5 : FVec F S16 .f32) (hv5 : v5 = k0_pay31 (F := F)) (c0 c1 : BitVec 32) (k3 : Fin k0_t3_loop.trips)
    (k : Fin k0_t4_loop.trips) (acc : BitVec 32) :
    invZ (F := F) d L k.val acc ⊢ wp frame (wpE (defs₀ (F := F)) 𝒱₀ (thr d L) none) Set.univ
        (k0_t4_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 v1 v2 v4 v5 c0 c1 k3 k acc)
        (invZ d L (k.val + 1)) := by
  subst hv5
  conv => rhs; unfold k0_t4_body
  unfold invZ
  iintro ⟨%f, %hf, Hs6⟩
  sl_exec
  sl_step
  iexists _; isplitr
  rotate_left
  · iexact Hs6
  · ipureintro; exact zero_step f k.val _ (k0_off4_eq k) _ hf

end Cert.Proof.KB

end
-- ==== Proof.KB.RowViews.lean ====
/-
  The two row memrefs of the batch loop, as index maps. At trip k3 of the task at grid point L the kernel copies ROW
  b = 64·(L 1) + 32·(L 0) + k3 of the flattened vertices into a scratch, and later a scratch into row b of the
  flattened result, each through a memref that slices the row out of the array and drops the leading axis of size one.
  Such a memref sends position p to the array's entry (b, p); its element set is row b, which is the b-th of the 1024
  equal parts along the batch axis.
-/
import proofs.«203378_g9921374454198_cont_sun_m_1167_43_alg».proof.Proof.KB.Core
import Idealize.ShloMosaic.Lib.ValueIdx
import Idealize.ShloMosaic.Lib.Writes

noncomputable section

namespace Cert.Proof.KB.RowViews

open Cert.Kernel Cert.Kernel.Gen Cert.Proof.KB

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "V0W" => (Memref.whole Cert.Kernel.main_v0_scv : Memref Cert.Kernel.sig Kind.scVector Space.hbm Cert.Kernel.S1024x31425 EltTy.f32)
local notation "V1W" => (Memref.whole Cert.Kernel.main_v1_scv : Memref Cert.Kernel.sig Kind.scVector Space.hbm Cert.Kernel.S1024x24672 EltTy.f32)

/-- Row b of the flattened vertices, and of the flattened result, as the batch loop's trip k3 slices them. -/
abbrev Din (L : grid0.Coords) (k3 : Fin k0_t3_loop.trips) : Memref sig .scVector .hbm S31425 .f32 :=
  ((V0W).slice (Rect.unit (s := S1024x31425) (k0_off3 L k3) S1x31425.size (k0_off3_inb L k3)) (fun _ => rfl)).squeeze S31425 squeezes_S1x31425_S31425
abbrev Dout (L : grid0.Coords) (k3 : Fin k0_t3_loop.trips) : Memref sig .scVector .hbm S24672 .f32 :=
  ((V1W).slice (Rect.unit (s := S1024x24672) (k0_off7 L k3) S1x24672.size (k0_off7_inb L k3)) (fun _ => rfl)).squeeze S24672 squeezes_S1x24672_S24672

/-- The row's number. -/
abbrev rowNo (L : grid0.Coords) (k3 : Fin k0_t3_loop.trips) : Nat := 64 * (L 1).val + 32 * (L 0).val + k3.val

theorem trip_lt (k3 : Fin k0_t3_loop.trips) : k3.val < 32 := lt_of_lt_of_le k3.isLt k0_t3_abs.2.1
theorem rowNo_lt (L : grid0.Coords) (k3 : Fin k0_t3_loop.trips) : rowNo L k3 < 1024 := by
  have h0 : (L 0).val < 2 := (L 0).isLt
  have h1 : (L 1).val < 16 := (L 1).isLt
  have h3 := trip_lt k3
  unfold rowNo; omega

/-- The trip as one of the task's 32. -/
abbrev trip32 (k3 : Fin k0_t3_loop.trips) : Fin 32 := ⟨k3.val, trip_lt k3⟩

theorem tileRow_val (L : grid0.Coords) (k3 : Fin k0_t3_loop.trips) : (tileRow (cL L) (iL L) (trip32 k3)).val = rowNo L k3 := by
  show ((L 1).val * 2 + (L 0).val) * 32 + k3.val = 64 * (L 1).val + 32 * (L 0).val + k3.val
  omega

/-! ## A row of a two-axis array as a unit rectangle -/

/-- The unit rectangle at offset (b, 0) of sizes (1, n1) holds exactly the entries whose first coordinate is b. -/
theorem mem_unit_row {n0 n1 : Nat} {off size : Fin 2 → Nat} {inb : ∀ a, off a + size a ≤ (⟨2, ![n0, n1]⟩ : Shape).size a} (b : Nat)
    (hoff : off = ![b, 0]) (hsize : size = ![1, n1]) (j : (⟨2, ![n0, n1]⟩ : Shape).Idx) :
    j ∈ (Rect.unit (s := ⟨2, ![n0, n1]⟩) off size inb).set ↔ (j 0).val = b := by
  rw [Rect.mem_set_unit]
  subst hoff hsize
  constructor
  · intro h
    have h0 := h 0
    simp only [Matrix.cons_val_zero] at h0
    omega
  · intro h a
    match a with
    | 0 => simp only [Matrix.cons_val_zero]; omega
    | 1 =>
      have h1 : (j 1).val < n1 := (j 1).isLt
      simp only [Matrix.cons_val_one, Matrix.cons_val_zero]; omega

/-- (2) Row r of the flattened result: the entries whose batch coordinate is r. -/
theorem mem_rowSetO (r : Fin 1024) (j : S1024x24672.Idx) : j ∈ rowSetO r ↔ (j 0).val = r.val := by
  show j ∈ ((View.whole (main_v1_scv : Ref sig .scVector)).slice (rowO r)).set ↔ _
  rw [View.set_slice_whole]
  refine mem_unit_row (n0 := 1024) (n1 := 24672) r.val ?_ ?_ j
  · funext a
    match a with
    | 0 => simp [Shape.partIx, Shape.partSize]
    | 1 => simp [Shape.partIx, Shape.partSize]
  · funext a
    match a with
    | 0 => simp [Shape.partSize]
    | 1 => simp [Shape.partSize]

/-- (1) The result row's memref holds the row the task owns at that trip. -/
theorem set_Dout (L : grid0.Coords) (k3 : Fin k0_t3_loop.trips) :
    (Dout L k3).view.set = rowSetO (tileRow (cL L) (iL L) (trip32 k3)) := by
  ext j
  rw [mem_rowSetO, tileRow_val]
  show j ∈ (((View.whole (main_v1_scv : Ref sig .scVector)).slice _).reshape S24672 squeezes_S1x24672_S24672.numel_eq).set ↔ _
  rw [View.set_reshape, View.set_slice_whole]
  exact mem_unit_row (n0 := 1024) (n1 := 24672) (rowNo L k3) (k0_off7_eq L k3) rfl j

theorem pts_Dout (d : Dev nD) (L : grid0.Coords) (k3 : Fin k0_t3_loop.trips) (f : Buf (Elt F) (v1Loc d)) :
    ((Dout L k3).view.loc (V d (cV L) (jV L)) ↦[(Dout L k3).view.set]{fullShare} f : sProp 𝕄)
      = ((V1W).view.loc (V d (cV L) (jV L)) ↦[rowSetO (tileRow (cL L) (iL L) (trip32 k3))]{fullShare} f) := by
  rw [set_Dout]

/-! ## The row memrefs as index maps -/

/-- Dropping the leading axis of size one and placing at offset (b, 0): position q goes to entry (b, q). -/
theorem unit_row_emb {n0 n1 : Nat} {off : Fin 2 → Nat} {inb : ∀ a, off a + (⟨2, ![1, n1]⟩ : Shape).size a ≤ (⟨2, ![n0, n1]⟩ : Shape).size a}
    (b : Nat) (hb : b < n0) (hoff : off = ![b, 0]) (h : (⟨1, ![n1]⟩ : Shape).numel = (⟨2, ![1, n1]⟩ : Shape).numel) (q : Fin n1) :
    (Rect.unit (s := ⟨2, ![n0, n1]⟩) off (⟨2, ![1, n1]⟩ : Shape).size inb).emb (Shape.reshapeEquiv h (ix1 q)) = ix2 ⟨b, hb⟩ q := by
  subst hoff
  rw [Shape.reshapeEquiv_cons_one (n := 1) (d := ![n1]) h (ix1 q)]
  funext a
  match a with
  | 0 => exact Fin.ext (show b + 1 * 0 = b by omega)
  | 1 => exact Fin.ext (show 0 + 1 * q.val = q.val by omega)

theorem emb_Din (L : grid0.Coords) (k3 : Fin k0_t3_loop.trips) (q : Fin 31425) :
    (Din L k3).view.emb (ix1 q) = ix2 ⟨rowNo L k3, rowNo_lt L k3⟩ q :=
  unit_row_emb (n0 := 1024) (n1 := 31425) (rowNo L k3) (rowNo_lt L k3) (k0_off3_eq L k3) squeezes_S1x31425_S31425.numel_eq q

theorem emb_Dout (L : grid0.Coords) (k3 : Fin k0_t3_loop.trips) (q : Fin 24672) :
    (Dout L k3).view.emb (ix1 q) = ix2 ⟨rowNo L k3, rowNo_lt L k3⟩ q :=
  unit_row_emb (n0 := 1024) (n1 := 24672) (rowNo L k3) (rowNo_lt L k3) (k0_off7_eq L k3) squeezes_S1x24672_S24672.numel_eq q

/-- (3) Reading the vertices' row through its memref: position p reads entry (b, p). -/
theorem read_Din (L : grid0.Coords) (k3 : Fin k0_t3_loop.trips) (Xc : Vec F S1024x31425 .f32) (p : Nat) (hp : p < 31425) :
    View.read (Elt F) (Din L k3).view Xc (ix1 ⟨p, hp⟩) = Xc (ix2 ⟨rowNo L k3, rowNo_lt L k3⟩ ⟨p, hp⟩) := by
  rw [View.read_apply, emb_Din]
  rfl

/-- (4) Writing a whole row through the result row's memref: entry (b, q) takes position q of what is written. -/
theorem write_Dout (L : grid0.Coords) (k3 : Fin k0_t3_loop.trips) (fold : Vec F S1024x24672 .f32) (w : Vec F S24672 .f32)
    (j : S1024x24672.Idx) (hj : (j 0).val = rowNo L k3) :
    View.write (Elt F) (Dout L k3).view fold w Finset.univ j = w (ix1 ⟨(j 1).val, (j 1).isLt⟩) := by
  have e : j = (Dout L k3).view.emb (ix1 ⟨(j 1).val, (j 1).isLt⟩) := by
    rw [emb_Dout]
    funext a
    match a with
    | 0 => exact Fin.ext hj
    | 1 => rfl
  have hw := View.write_emb_of_mem (v := (Dout L k3).view) (Val := Elt F) fold w (M := Finset.univ) (x := ix1 ⟨(j 1).val, (j 1).isLt⟩) (Finset.mem_univ _)
  rw [← e] at hw
  exact hw

/-- The whole rectangle of the row's own shape places a position at itself. -/
theorem whole_emb (q : Fin 24672) : (Rect.whole S24672).emb (ix1 q) = ix1 q := by
  funext a
  match a with
  | 0 => exact Fin.ext (show 0 + 1 * q.val = q.val by omega)

/-- The same as a one-piece list of writes through the whole rectangle of the row memref: entry (b, q) takes
    position q of the piece. -/
theorem writes_Dout (L : grid0.Coords) (k3 : Fin k0_t3_loop.trips) (fold : Vec F S1024x24672 .f32) (w : Vec F S24672 .f32)
    (j : S1024x24672.Idx) (hj : (j 0).val = rowNo L k3) :
    (Dout L k3).view.writes (Elt F) fold [⟨Rect.whole S24672, w⟩] j = w (ix1 ⟨(j 1).val, (j 1).isLt⟩) := by
  rw [View.writes_singleton]
  have e : j = ((Dout L k3).view.slice (Rect.whole S24672)).emb (ix1 ⟨(j 1).val, (j 1).isLt⟩) := by
    show j = (Dout L k3).view.emb ((Rect.whole S24672).emb (ix1 ⟨(j 1).val, (j 1).isLt⟩))
    rw [whole_emb, emb_Dout]
    funext a
    match a with
    | 0 => exact Fin.ext hj
    | 1 => rfl
  have hw := View.write_emb_of_mem (v := (Dout L k3).view.slice (Rect.whole S24672)) (Val := Elt F) fold w (M := Finset.univ)
    (x := ix1 ⟨(j 1).val, (j 1).isLt⟩) (Finset.mem_univ _)
  rw [← e] at hw
  exact hw

/-- Off the row such a list of writes changes nothing. -/
theorem writes_Dout_off (L : grid0.Coords) (k3 : Fin k0_t3_loop.trips) (fold : Vec F S1024x24672 .f32) (w : Vec F S24672 .f32)
    (j : S1024x24672.Idx) (hj : (j 0).val ≠ rowNo L k3) :
    (Dout L k3).view.writes (Elt F) fold [⟨Rect.whole S24672, w⟩] j = fold j := by
  refine View.writes_apply_of_forall_ne (v := (Dout L k3).view) (Val := Elt F) fold _ fun y hy => hj ?_
  obtain ⟨q, rfl⟩ : ∃ q : Fin 24672, y = ix1 q := ⟨y 0, eq_ix1 (n := 24672) y⟩
  rw [emb_Dout] at hy
  rw [← hy]

/-- Off the row the array is unchanged by such a write. -/
theorem write_Dout_off (L : grid0.Coords) (k3 : Fin k0_t3_loop.trips) (fold : Vec F S1024x24672 .f32) (w : Vec F S24672 .f32)
    (j : S1024x24672.Idx) (hj : (j 0).val ≠ rowNo L k3) :
    View.write (Elt F) (Dout L k3).view fold w Finset.univ j = fold j := by
  refine View.write_of_not_mem (v := (Dout L k3).view) (Val := Elt F) fold w Finset.univ fun hm => hj ?_
  obtain ⟨x, -, rfl⟩ := Finset.mem_map.mp hm
  obtain ⟨q, rfl⟩ : ∃ q : Fin 24672, x = ix1 q := ⟨x 0, eq_ix1 (n := 24672) x⟩
  rw [emb_Dout]

end Cert.Proof.KB.RowViews

end
-- ==== Proof.KB.IdxPay.lean ====
/-
  The kernel's fifteen index vectors in closed form, as natural numbers.

  Every index word is a sum of 32-bit products: a lane number times a block size, a loaded word times 3, a loop
  counter times 48, and a component 0, 1 or 2. Under the stated ranges of the loaded words (a band number is at most
  31, a vertex number at most 10474) and of the loop counter (below 512) no product and no sum reaches 2^32, so each
  word reads as the natural number the arithmetic names:

    count loop    lane * 96 + band * 3 + c            (into an array of 16 * 96 = 1536 words)
    seg gather    vertex * 3 + c                      (out of an array of 10475 * 3 = 31425 words)
    seg scatter   trip * 48 + lane * 3 + c            (into an array of 24672 words; 511 * 48 + 47 < 24576)
    band gather   vertex * 3 + c                      (31425 words)
    band scatter  lane * 96 + band * 3 + c            (1536 words)

  From the closed forms: every index is inside its array (the fifteen side conditions the body assumes), and in each
  of the nine scatter vectors two different lanes name two different places: the lane's own block of 96 words (or of 3
  words) separates them, since band * 3 + c is at most 95 and c is at most 2.
-/
import proofs.«203378_g9921374454198_cont_sun_m_1167_43_alg».proof.Proof.Gen.Kernel.Skeleton

noncomputable section

namespace Cert.Proof.KB.Idx

open Cert.Kernel Cert.Kernel.Gen Idealize.ShloMosaic

variable {F : FTy → Type} [FloatOps F]

/-! ## Lanes -/

/-- A lane of the 16-lane vector shape is below 16. -/
theorem lane_lt (x : S16.Idx) : (x 0).val < 16 := (x 0).isLt

/-- Two lanes with the same number are the same lane. -/
theorem lane_ext {x x' : S16.Idx} (h : (x 0).val = (x' 0).val) : x = x' := by
  funext a
  obtain rfl : a = 0 := Fin.eq_zero a
  exact Fin.ext h

/-- The lane sequence at lane x is the lane's number, as a word. -/
theorem iota_apply (x : S16.Idx) :
    iota .scVector S16 32 [0] iota_S16_d0_w32_scVector x = BitVec.ofNat 32 (x 0).val := by
  simp only [iota, List.foldl_cons, List.foldl_nil, Nat.zero_mul, Nat.zero_add]

/-- The loop counter of the 512-trip loop is below 512. -/
theorem trip_lt (k : Fin k0_t5_loop.trips) : k.val < 512 := Nat.lt_of_lt_of_le k.isLt k0_t5_abs.2.1

/-! ## The shared sub-terms -/

/-- The lane base: lane * 96. -/
theorem pay30_toNat (x : S16.Idx) : ((k0_pay30 : IVec S16 32) x).toNat = (x 0).val * 96 := by
  have hx := lane_lt x
  unfold k0_pay30
  simp only [muli, broadcast, IntOp.muli, iota, List.foldl_cons, List.foldl_nil, Nat.zero_mul, Nat.zero_add]
  rw [BitVec.toNat_mul]
  simp only [BitVec.toNat_ofNat, Nat.reducePow, Nat.reduceMod]
  omega

/-- Lane base plus band * 3 (count loop). -/
theorem pay33_toNat (v : Vec F S16 .i32) (x : S16.Idx) (hv : (v x).toNat ≤ 31) :
    (k0_pay33 v x).toNat = (x 0).val * 96 + (v x).toNat * 3 := by
  have h30 := pay30_toNat x
  have hx := lane_lt x
  unfold k0_pay33
  simp only [addi, muli, broadcast, IntOp.addi, IntOp.muli]
  rw [BitVec.toNat_add, BitVec.toNat_mul]
  simp only [BitVec.toNat_ofNat, Nat.reducePow, Nat.reduceMod]
  omega

/-- Vertex * 3 (seg gather). -/
theorem pay2_toNat (v : Vec F S16 .i32) (x : S16.Idx) (hv : (v x).toNat ≤ 10474) :
    (k0_pay2 v x).toNat = (v x).toNat * 3 := by
  unfold k0_pay2
  simp only [muli, broadcast, IntOp.muli]
  rw [BitVec.toNat_mul]
  simp only [BitVec.toNat_ofNat, Nat.reducePow, Nat.reduceMod]
  omega

/-- Trip * 48 plus lane * 3 (seg scatter). -/
theorem pay3_toNat (k : Fin k0_t5_loop.trips) (x : S16.Idx) :
    (k0_pay3 (iota .scVector S16 32 [0] iota_S16_d0_w32_scVector) k x).toNat = k.val * 48 + (x 0).val * 3 := by
  have hx := lane_lt x
  have hk := trip_lt k
  unfold k0_pay3
  simp only [addi, muli, broadcast, IntOp.addi, IntOp.muli, Scalar.muli, Scf.iv, iota, List.foldl_cons, List.foldl_nil,
    Nat.zero_mul, Nat.zero_add]
  rw [BitVec.toNat_add, BitVec.toNat_mul, BitVec.toNat_mul, BitVec.toNat_add, BitVec.toNat_mul]
  simp only [BitVec.toNat_ofNat, Nat.reducePow, Nat.reduceMod]
  omega

/-- Vertex * 3 (band gather). -/
theorem pay10_toNat (v : Vec F S16 .i32) (x : S16.Idx) (hv : (v x).toNat ≤ 10474) :
    (k0_pay10 v x).toNat = (v x).toNat * 3 := by
  unfold k0_pay10
  simp only [muli, broadcast, IntOp.muli]
  rw [BitVec.toNat_mul]
  simp only [BitVec.toNat_ofNat, Nat.reducePow, Nat.reduceMod]
  omega

/-- Lane base plus band * 3 (band scatter). -/
theorem pay11_toNat (w : Vec F S16 .i32) (x : S16.Idx) (hw : (w x).toNat ≤ 31) :
    (k0_pay11 k0_pay30 w x).toNat = (x 0).val * 96 + (w x).toNat * 3 := by
  have h30 := pay30_toNat x
  have hx := lane_lt x
  unfold k0_pay11
  simp only [addi, muli, broadcast, IntOp.addi, IntOp.muli]
  rw [BitVec.toNat_add, BitVec.toNat_mul]
  simp only [BitVec.toNat_ofNat, Nat.reducePow, Nat.reduceMod]
  omega

/-! ## The fifteen index vectors -/

/-- Count loop, component 0: lane * 96 + band * 3 + 0. -/
theorem pay34_toNat (v : Vec F S16 .i32) (x : S16.Idx) (hv : (v x).toNat ≤ 31) :
    (k0_pay34 v x).toNat = (x 0).val * 96 + (v x).toNat * 3 + 0 := by
  have hb := pay33_toNat v x hv
  have hx := lane_lt x
  unfold k0_pay34
  simp only [addi, broadcast, IntOp.addi]
  rw [BitVec.toNat_add]
  simp only [BitVec.toNat_ofNat, Nat.reducePow, Nat.reduceMod]
  omega

/-- Count loop, component 1: lane * 96 + band * 3 + 1. -/
theorem pay35_toNat (v : Vec F S16 .i32) (x : S16.Idx) (hv : (v x).toNat ≤ 31) :
    (k0_pay35 v x).toNat = (x 0).val * 96 + (v x).toNat * 3 + 1 := by
  have hb := pay33_toNat v x hv
  have hx := lane_lt x
  unfold k0_pay35
  simp only [addi, broadcast, IntOp.addi]
  rw [BitVec.toNat_add]
  simp only [BitVec.toNat_ofNat, Nat.reducePow, Nat.reduceMod]
  omega

/-- Count loop, component 2: lane * 96 + band * 3 + 2. -/
theorem pay36_toNat (v : Vec F S16 .i32) (x : S16.Idx) (hv : (v x).toNat ≤ 31) :
    (k0_pay36 v x).toNat = (x 0).val * 96 + (v x).toNat * 3 + 2 := by
  have hb := pay33_toNat v x hv
  have hx := lane_lt x
  unfold k0_pay36
  simp only [addi, broadcast, IntOp.addi]
  rw [BitVec.toNat_add]
  simp only [BitVec.toNat_ofNat, Nat.reducePow, Nat.reduceMod]
  omega

/-- Seg gather, component 0: vertex * 3 + 0. -/
theorem pay4_toNat (v : Vec F S16 .i32) (x : S16.Idx) (hv : (v x).toNat ≤ 10474) :
    (k0_pay4 v x).toNat = (v x).toNat * 3 + 0 := by
  have hb := pay2_toNat v x hv
  have hx := lane_lt x
  unfold k0_pay4
  simp only [addi, broadcast, IntOp.addi]
  rw [BitVec.toNat_add]
  simp only [BitVec.toNat_ofNat, Nat.reducePow, Nat.reduceMod]
  omega

/-- Seg gather, component 1: vertex * 3 + 1. -/
theorem pay6_toNat (v : Vec F S16 .i32) (x : S16.Idx) (hv : (v x).toNat ≤ 10474) :
    (k0_pay6 v x).toNat = (v x).toNat * 3 + 1 := by
  have hb := pay2_toNat v x hv
  have hx := lane_lt x
  unfold k0_pay6
  simp only [addi, broadcast, IntOp.addi]
  rw [BitVec.toNat_add]
  simp only [BitVec.toNat_ofNat, Nat.reducePow, Nat.reduceMod]
  omega

/-- Seg gather, component 2: vertex * 3 + 2. -/
theorem pay8_toNat (v : Vec F S16 .i32) (x : S16.Idx) (hv : (v x).toNat ≤ 10474) :
    (k0_pay8 v x).toNat = (v x).toNat * 3 + 2 := by
  have hb := pay2_toNat v x hv
  have hx := lane_lt x
  unfold k0_pay8
  simp only [addi, broadcast, IntOp.addi]
  rw [BitVec.toNat_add]
  simp only [BitVec.toNat_ofNat, Nat.reducePow, Nat.reduceMod]
  omega

/-- Seg scatter, component 0: trip * 48 + lane * 3 + 0. -/
theorem pay5_toNat (k : Fin k0_t5_loop.trips) (x : S16.Idx) :
    (k0_pay5 (iota .scVector S16 32 [0] iota_S16_d0_w32_scVector) k x).toNat = k.val * 48 + (x 0).val * 3 + 0 := by
  have hb := pay3_toNat k x
  have hx := lane_lt x
  have hk := trip_lt k
  unfold k0_pay5
  simp only [addi, broadcast, IntOp.addi]
  rw [BitVec.toNat_add]
  simp only [BitVec.toNat_ofNat, Nat.reducePow, Nat.reduceMod]
  omega

/-- Seg scatter, component 1: trip * 48 + lane * 3 + 1. -/
theorem pay7_toNat (k : Fin k0_t5_loop.trips) (x : S16.Idx) :
    (k0_pay7 (iota .scVector S16 32 [0] iota_S16_d0_w32_scVector) k x).toNat = k.val * 48 + (x 0).val * 3 + 1 := by
  have hb := pay3_toNat k x
  have hx := lane_lt x
  have hk := trip_lt k
  unfold k0_pay7
  simp only [addi, broadcast, IntOp.addi]
  rw [BitVec.toNat_add]
  simp only [BitVec.toNat_ofNat, Nat.reducePow, Nat.reduceMod]
  omega

/-- Seg scatter, component 2: trip * 48 + lane * 3 + 2. -/
theorem pay9_toNat (k : Fin k0_t5_loop.trips) (x : S16.Idx) :
    (k0_pay9 (iota .scVector S16 32 [0] iota_S16_d0_w32_scVector) k x).toNat = k.val * 48 + (x 0).val * 3 + 2 := by
  have hb := pay3_toNat k x
  have hx := lane_lt x
  have hk := trip_lt k
  unfold k0_pay9
  simp only [addi, broadcast, IntOp.addi]
  rw [BitVec.toNat_add]
  simp only [BitVec.toNat_ofNat, Nat.reducePow, Nat.reduceMod]
  omega

/-- Band gather, component 0: vertex * 3 + 0. -/
theorem pay12_toNat (v : Vec F S16 .i32) (x : S16.Idx) (hv : (v x).toNat ≤ 10474) :
    (k0_pay12 v x).toNat = (v x).toNat * 3 + 0 := by
  have hb := pay10_toNat v x hv
  have hx := lane_lt x
  unfold k0_pay12
  simp only [addi, broadcast, IntOp.addi]
  rw [BitVec.toNat_add]
  simp only [BitVec.toNat_ofNat, Nat.reducePow, Nat.reduceMod]
  omega

/-- Band gather, component 1: vertex * 3 + 1. -/
theorem pay14_toNat (v : Vec F S16 .i32) (x : S16.Idx) (hv : (v x).toNat ≤ 10474) :
    (k0_pay14 v x).toNat = (v x).toNat * 3 + 1 := by
  have hb := pay10_toNat v x hv
  have hx := lane_lt x
  unfold k0_pay14
  simp only [addi, broadcast, IntOp.addi]
  rw [BitVec.toNat_add]
  simp only [BitVec.toNat_ofNat, Nat.reducePow, Nat.reduceMod]
  omega

/-- Band gather, component 2: vertex * 3 + 2. -/
theorem pay16_toNat (v : Vec F S16 .i32) (x : S16.Idx) (hv : (v x).toNat ≤ 10474) :
    (k0_pay16 v x).toNat = (v x).toNat * 3 + 2 := by
  have hb := pay10_toNat v x hv
  have hx := lane_lt x
  unfold k0_pay16
  simp only [addi, broadcast, IntOp.addi]
  rw [BitVec.toNat_add]
  simp only [BitVec.toNat_ofNat, Nat.reducePow, Nat.reduceMod]
  omega

/-- Band scatter, component 0: lane * 96 + band * 3 + 0. -/
theorem pay13_toNat (w : Vec F S16 .i32) (x : S16.Idx) (hw : (w x).toNat ≤ 31) :
    (k0_pay13 k0_pay30 w x).toNat = (x 0).val * 96 + (w x).toNat * 3 + 0 := by
  have hb := pay11_toNat w x hw
  have hx := lane_lt x
  unfold k0_pay13
  simp only [addi, broadcast, IntOp.addi]
  rw [BitVec.toNat_add]
  simp only [BitVec.toNat_ofNat, Nat.reducePow, Nat.reduceMod]
  omega

/-- Band scatter, component 1: lane * 96 + band * 3 + 1. -/
theorem pay15_toNat (w : Vec F S16 .i32) (x : S16.Idx) (hw : (w x).toNat ≤ 31) :
    (k0_pay15 k0_pay30 w x).toNat = (x 0).val * 96 + (w x).toNat * 3 + 1 := by
  have hb := pay11_toNat w x hw
  have hx := lane_lt x
  unfold k0_pay15
  simp only [addi, broadcast, IntOp.addi]
  rw [BitVec.toNat_add]
  simp only [BitVec.toNat_ofNat, Nat.reducePow, Nat.reduceMod]
  omega

/-- Band scatter, component 2: lane * 96 + band * 3 + 2. -/
theorem pay17_toNat (w : Vec F S16 .i32) (x : S16.Idx) (hw : (w x).toNat ≤ 31) :
    (k0_pay17 k0_pay30 w x).toNat = (x 0).val * 96 + (w x).toNat * 3 + 2 := by
  have hb := pay11_toNat w x hw
  have hx := lane_lt x
  unfold k0_pay17
  simp only [addi, broadcast, IntOp.addi]
  rw [BitVec.toNat_add]
  simp only [BitVec.toNat_ofNat, Nat.reducePow, Nat.reduceMod]
  omega

/-! ## Every index is inside its array: the side conditions the body assumes -/

/-- Count loop: the index is below 16 * 96 = 1536. -/
theorem chk1 (v : Vec F S16 .i32) (hv : ∀ x, (v x).toNat ≤ 31) : k0_chk1 (k0_pay34 v) := by
  intro a x
  obtain rfl : a = 0 := Fin.eq_zero a
  show (k0_pay34 v x).toNat < 1536
  have hx := lane_lt x
  have := hv x
  rw [pay34_toNat v x (hv x)]
  omega

/-- Count loop: the index is below 16 * 96 = 1536. -/
theorem chk2 (v : Vec F S16 .i32) (hv : ∀ x, (v x).toNat ≤ 31) : k0_chk2 (k0_pay35 v) := by
  intro a x
  obtain rfl : a = 0 := Fin.eq_zero a
  show (k0_pay35 v x).toNat < 1536
  have hx := lane_lt x
  have := hv x
  rw [pay35_toNat v x (hv x)]
  omega

/-- Count loop: the index is below 16 * 96 = 1536. -/
theorem chk3 (v : Vec F S16 .i32) (hv : ∀ x, (v x).toNat ≤ 31) : k0_chk3 (k0_pay36 v) := by
  intro a x
  obtain rfl : a = 0 := Fin.eq_zero a
  show (k0_pay36 v x).toNat < 1536
  have hx := lane_lt x
  have := hv x
  rw [pay36_toNat v x (hv x)]
  omega

/-- Seg gather: the index is below 10475 * 3 = 31425. -/
theorem chk4 (v : Vec F S16 .i32) (hv : ∀ x, (v x).toNat ≤ 10474) : k0_chk4 (k0_pay4 v) := by
  intro a x
  obtain rfl : a = 0 := Fin.eq_zero a
  show (k0_pay4 v x).toNat < 31425
  have hx := lane_lt x
  have := hv x
  rw [pay4_toNat v x (hv x)]
  omega

/-- Seg gather: the index is below 10475 * 3 = 31425. -/
theorem chk6 (v : Vec F S16 .i32) (hv : ∀ x, (v x).toNat ≤ 10474) : k0_chk6 (k0_pay6 v) := by
  intro a x
  obtain rfl : a = 0 := Fin.eq_zero a
  show (k0_pay6 v x).toNat < 31425
  have hx := lane_lt x
  have := hv x
  rw [pay6_toNat v x (hv x)]
  omega

/-- Seg gather: the index is below 10475 * 3 = 31425. -/
theorem chk8 (v : Vec F S16 .i32) (hv : ∀ x, (v x).toNat ≤ 10474) : k0_chk8 (k0_pay8 v) := by
  intro a x
  obtain rfl : a = 0 := Fin.eq_zero a
  show (k0_pay8 v x).toNat < 31425
  have hx := lane_lt x
  have := hv x
  rw [pay8_toNat v x (hv x)]
  omega

/-- Seg scatter: the index is at most 511 * 48 + 47, below 24672. -/
theorem chk5 (k : Fin k0_t5_loop.trips) : k0_chk5 (k0_pay5 (iota .scVector S16 32 [0] iota_S16_d0_w32_scVector) k) := by
  intro a x
  obtain rfl : a = 0 := Fin.eq_zero a
  show (k0_pay5 (iota .scVector S16 32 [0] iota_S16_d0_w32_scVector) k x).toNat < 24672
  have hx := lane_lt x
  have hk := trip_lt k
  rw [pay5_toNat k x]
  omega

/-- Seg scatter: the index is at most 511 * 48 + 47, below 24672. -/
theorem chk7 (k : Fin k0_t5_loop.trips) : k0_chk7 (k0_pay7 (iota .scVector S16 32 [0] iota_S16_d0_w32_scVector) k) := by
  intro a x
  obtain rfl : a = 0 := Fin.eq_zero a
  show (k0_pay7 (iota .scVector S16 32 [0] iota_S16_d0_w32_scVector) k x).toNat < 24672
  have hx := lane_lt x
  have hk := trip_lt k
  rw [pay7_toNat k x]
  omega

/-- Seg scatter: the index is at most 511 * 48 + 47, below 24672. -/
theorem chk9 (k : Fin k0_t5_loop.trips) : k0_chk9 (k0_pay9 (iota .scVector S16 32 [0] iota_S16_d0_w32_scVector) k) := by
  intro a x
  obtain rfl : a = 0 := Fin.eq_zero a
  show (k0_pay9 (iota .scVector S16 32 [0] iota_S16_d0_w32_scVector) k x).toNat < 24672
  have hx := lane_lt x
  have hk := trip_lt k
  rw [pay9_toNat k x]
  omega

/-- Band gather: the index is below 10475 * 3 = 31425. -/
theorem chk10 (v : Vec F S16 .i32) (hv : ∀ x, (v x).toNat ≤ 10474) : k0_chk10 (k0_pay12 v) := by
  intro a x
  obtain rfl : a = 0 := Fin.eq_zero a
  show (k0_pay12 v x).toNat < 31425
  have hx := lane_lt x
  have := hv x
  rw [pay12_toNat v x (hv x)]
  omega

/-- Band gather: the index is below 10475 * 3 = 31425. -/
theorem chk12 (v : Vec F S16 .i32) (hv : ∀ x, (v x).toNat ≤ 10474) : k0_chk12 (k0_pay14 v) := by
  intro a x
  obtain rfl : a = 0 := Fin.eq_zero a
  show (k0_pay14 v x).toNat < 31425
  have hx := lane_lt x
  have := hv x
  rw [pay14_toNat v x (hv x)]
  omega

/-- Band gather: the index is below 10475 * 3 = 31425. -/
theorem chk14 (v : Vec F S16 .i32) (hv : ∀ x, (v x).toNat ≤ 10474) : k0_chk14 (k0_pay16 v) := by
  intro a x
  obtain rfl : a = 0 := Fin.eq_zero a
  show (k0_pay16 v x).toNat < 31425
  have hx := lane_lt x
  have := hv x
  rw [pay16_toNat v x (hv x)]
  omega

/-- Band scatter: the index is below 16 * 96 = 1536. -/
theorem chk11 (w : Vec F S16 .i32) (hw : ∀ x, (w x).toNat ≤ 31) : k0_chk11 (k0_pay13 k0_pay30 w) := by
  intro a x
  obtain rfl : a = 0 := Fin.eq_zero a
  show (k0_pay13 k0_pay30 w x).toNat < 1536
  have hx := lane_lt x
  have := hw x
  rw [pay13_toNat w x (hw x)]
  omega

/-- Band scatter: the index is below 16 * 96 = 1536. -/
theorem chk13 (w : Vec F S16 .i32) (hw : ∀ x, (w x).toNat ≤ 31) : k0_chk13 (k0_pay15 k0_pay30 w) := by
  intro a x
  obtain rfl : a = 0 := Fin.eq_zero a
  show (k0_pay15 k0_pay30 w x).toNat < 1536
  have hx := lane_lt x
  have := hw x
  rw [pay15_toNat w x (hw x)]
  omega

/-- Band scatter: the index is below 16 * 96 = 1536. -/
theorem chk15 (w : Vec F S16 .i32) (hw : ∀ x, (w x).toNat ≤ 31) : k0_chk15 (k0_pay17 k0_pay30 w) := by
  intro a x
  obtain rfl : a = 0 := Fin.eq_zero a
  show (k0_pay17 k0_pay30 w x).toNat < 1536
  have hx := lane_lt x
  have := hw x
  rw [pay17_toNat w x (hw x)]
  omega

/-! ## Different lanes name different places: the nine scatter vectors -/

/-- Count loop: band * 3 + c is at most 95, so the lane's block of 96 words tells the lanes apart. -/
theorem inj34 (v : Vec F S16 .i32) (hv : ∀ x, (v x).toNat ≤ 31) (x x' : S16.Idx)
    (h : (k0_pay34 v x).toNat = (k0_pay34 v x').toNat) : x = x' := by
  rw [pay34_toNat v x (hv x), pay34_toNat v x' (hv x')] at h
  have := hv x; have := hv x'
  exact lane_ext (by omega)

/-- Count loop: band * 3 + c is at most 95, so the lane's block of 96 words tells the lanes apart. -/
theorem inj35 (v : Vec F S16 .i32) (hv : ∀ x, (v x).toNat ≤ 31) (x x' : S16.Idx)
    (h : (k0_pay35 v x).toNat = (k0_pay35 v x').toNat) : x = x' := by
  rw [pay35_toNat v x (hv x), pay35_toNat v x' (hv x')] at h
  have := hv x; have := hv x'
  exact lane_ext (by omega)

/-- Count loop: band * 3 + c is at most 95, so the lane's block of 96 words tells the lanes apart. -/
theorem inj36 (v : Vec F S16 .i32) (hv : ∀ x, (v x).toNat ≤ 31) (x x' : S16.Idx)
    (h : (k0_pay36 v x).toNat = (k0_pay36 v x').toNat) : x = x' := by
  rw [pay36_toNat v x (hv x), pay36_toNat v x' (hv x')] at h
  have := hv x; have := hv x'
  exact lane_ext (by omega)

/-- Seg scatter: within one trip the lane's block of 3 words tells the lanes apart. -/
theorem inj5 (k : Fin k0_t5_loop.trips) (x x' : S16.Idx)
    (h : (k0_pay5 (iota .scVector S16 32 [0] iota_S16_d0_w32_scVector) k x).toNat = (k0_pay5 (iota .scVector S16 32 [0] iota_S16_d0_w32_scVector) k x').toNat) : x = x' := by
  rw [pay5_toNat k x, pay5_toNat k x'] at h
  exact lane_ext (by omega)

/-- Seg scatter: within one trip the lane's block of 3 words tells the lanes apart. -/
theorem inj7 (k : Fin k0_t5_loop.trips) (x x' : S16.Idx)
    (h : (k0_pay7 (iota .scVector S16 32 [0] iota_S16_d0_w32_scVector) k x).toNat = (k0_pay7 (iota .scVector S16 32 [0] iota_S16_d0_w32_scVector) k x').toNat) : x = x' := by
  rw [pay7_toNat k x, pay7_toNat k x'] at h
  exact lane_ext (by omega)

/-- Seg scatter: within one trip the lane's block of 3 words tells the lanes apart. -/
theorem inj9 (k : Fin k0_t5_loop.trips) (x x' : S16.Idx)
    (h : (k0_pay9 (iota .scVector S16 32 [0] iota_S16_d0_w32_scVector) k x).toNat = (k0_pay9 (iota .scVector S16 32 [0] iota_S16_d0_w32_scVector) k x').toNat) : x = x' := by
  rw [pay9_toNat k x, pay9_toNat k x'] at h
  exact lane_ext (by omega)

/-- Band scatter: band * 3 + c is at most 95, so the lane's block of 96 words tells the lanes apart. -/
theorem inj13 (w : Vec F S16 .i32) (hw : ∀ x, (w x).toNat ≤ 31) (x x' : S16.Idx)
    (h : (k0_pay13 k0_pay30 w x).toNat = (k0_pay13 k0_pay30 w x').toNat) : x = x' := by
  rw [pay13_toNat w x (hw x), pay13_toNat w x' (hw x')] at h
  have := hw x; have := hw x'
  exact lane_ext (by omega)

/-- Band scatter: band * 3 + c is at most 95, so the lane's block of 96 words tells the lanes apart. -/
theorem inj15 (w : Vec F S16 .i32) (hw : ∀ x, (w x).toNat ≤ 31) (x x' : S16.Idx)
    (h : (k0_pay15 k0_pay30 w x).toNat = (k0_pay15 k0_pay30 w x').toNat) : x = x' := by
  rw [pay15_toNat w x (hw x), pay15_toNat w x' (hw x')] at h
  have := hw x; have := hw x'
  exact lane_ext (by omega)

/-- Band scatter: band * 3 + c is at most 95, so the lane's block of 96 words tells the lanes apart. -/
theorem inj17 (w : Vec F S16 .i32) (hw : ∀ x, (w x).toNat ≤ 31) (x x' : S16.Idx)
    (h : (k0_pay17 k0_pay30 w x).toNat = (k0_pay17 k0_pay30 w x').toNat) : x = x' := by
  rw [pay17_toNat w x (hw x), pay17_toNat w x' (hw x')] at h
  have := hw x; have := hw x'
  exact lane_ext (by omega)

end Cert.Proof.KB.Idx
-- ==== Proof.KB.Trips.lean ====
/-
  One trip of each of the kernel's three indexed loops, read at one place of the array it updates.

  Each trip does three unmasked indexed stores, one per component c = 0, 1, 2, whose sixteen lanes name sixteen
  different places; so each store, read at a place, is the update by the one lane naming the place, or nothing.

  * In the count loop and the band loop a place of the 1536-word array is r * 96 + q with r a lane and q < 96 a slot. Store c names
    r' * 96 + band(r') * 3 + c at lane r'; as band * 3 + c < 96, it names r * 96 + q exactly at lane r' = r and exactly
    when band(r) * 3 + c = q. So over the three stores the place is touched at most once: when band(r) = q / 3, by the
    store c = q % 3, and then the old element is added to once.
  * In the segment loop store c of trip k names k * 48 + r' * 3 + c at lane r'. A place p inside the trip's window of 48
    words is named by exactly one store at exactly one lane, r' = (p - k * 48) / 3 and c = (p - k * 48) % 3; a place
    outside the window by none.

  The gathered vectors are the source array read at vertex * 3 + c.
-/
import proofs.«203378_g9921374454198_cont_sun_m_1167_43_alg».proof.Proof.KB.IdxPay
import proofs.«203378_g9921374454198_cont_sun_m_1167_43_alg».proof.Proof.LibStoreIdx
import proofs.«203378_g9921374454198_cont_sun_m_1167_43_alg».proof.Proof.KModel

noncomputable section

namespace Cert.Proof.KB.Trips

open Cert.Kernel Cert.Kernel.Gen Idealize.ShloMosaic Idealize.ShloMosaic.ValueIdx
open Cert.Proof.LibStoreIdx Cert.Proof.KB.Idx

variable {F : FTy → Type} [FloatOps F]

/-! ## One store read at a place -/

/-- The same element of an array, its number written in two ways. -/
theorem at_congr {n : Nat} {e : EltTy} (f : Vec F (⟨1, ![n]⟩ : Shape) e) {m m' : Nat} (hm : m < n) (hm' : m' < n)
    (h : m = m') : f (ix1 ⟨m, hm⟩) = f (ix1 ⟨m', hm'⟩) := by
  subst h; rfl

/-- The gather read at a lane whose index word reads as m. -/
theorem load_at {n : Nat} {e : EltTy} (f : Vec F (⟨1, ![n]⟩ : Shape) e) (iv : IVec S16 32)
    (h : ∀ a x, ((![iv] : Fin 1 → IVec S16 32) a x).toNat < (⟨1, ![n]⟩ : Shape).size a) (x : S16.Idx)
    (m : Nat) (hm : m < n) (hx : (iv x).toNat = m) :
    loadIdx f (![iv] : Fin 1 → IVec S16 32) h x = f (ix1 ⟨m, hm⟩) := by
  rw [loadIdx_vec]
  exact at_congr f _ hm hx

/-- A store into the 1536-word array whose lane r' names r' * 96 + w(r') * 3 + c, with w(r') * 3 + c < 96: the place
    r * 96 + q is named exactly by lane r, and exactly when w(r) * 3 + c = q. -/
theorem store96_at {e : EltTy} (f : Vec F S1536 e) (iv : IVec S16 32) (val : Vec F S16 e) (add : Bool)
    (h : ∀ a x, ((![iv] : Fin 1 → IVec S16 32) a x).toNat < S1536.size a)
    (w : S16.Idx → Nat) (c : Nat) (hc : c ≤ 2) (hw : ∀ x, w x ≤ 31)
    (hiv : ∀ x, (iv x).toNat = (x 0).val * 96 + w x * 3 + c)
    (r q : Nat) (hr : r < 16) (hq : q < 96) (hP : r * 96 + q < 1536) :
    storeIdx f (![iv] : Fin 1 → IVec S16 32) val (fun _ => 1#1) add h (ix1 ⟨r * 96 + q, hP⟩)
      = if w (ix1 ⟨r, hr⟩) * 3 + c = q then
          (if add then Elt.idxAdd e (f (ix1 ⟨r * 96 + q, hP⟩)) (val (ix1 ⟨r, hr⟩)) else val (ix1 ⟨r, hr⟩))
        else f (ix1 ⟨r * 96 + q, hP⟩) := by
  have hinj : ∀ x x' : S16.Idx, (iv x).toNat = (iv x').toNat → x = x' := fun x x' hxx => by
    rw [hiv x, hiv x'] at hxx
    have := hw x; have := hw x'
    exact lane_ext (by omega)
  by_cases hcq : w (ix1 ⟨r, hr⟩) * 3 + c = q
  · rw [if_pos hcq]
    refine storeIdx_hit_vec f iv val add h hinj (ix1 ⟨r, hr⟩) _ hP ?_
    rw [hiv]
    show r * 96 + q = r * 96 + w (ix1 ⟨r, hr⟩) * 3 + c
    omega
  · rw [if_neg hcq]
    refine storeIdx_miss_vec f iv val add h _ hP fun x hx => ?_
    rw [hiv] at hx
    have := hw x
    have hxr : (x 0).val = r := by omega
    obtain rfl : x = ix1 ⟨r, hr⟩ := lane_ext hxr
    exact hcq (by omega)

/-- A store into the 24672-word array whose lane r' names K + r' * 3 + c: the place K + r * 3 + c' of the window is
    named exactly by lane r, and exactly when c' = c. -/
theorem store3_at {e : EltTy} (f : Vec F S24672 e) (iv : IVec S16 32) (val : Vec F S16 e) (add : Bool)
    (h : ∀ a x, ((![iv] : Fin 1 → IVec S16 32) a x).toNat < S24672.size a)
    (K c : Nat) (hc : c ≤ 2) (hiv : ∀ x, (iv x).toNat = K + (x 0).val * 3 + c)
    (p : Nat) (hp : p < 24672) (r c' : Nat) (hr : r < 16) (hc' : c' ≤ 2) (hpe : p = K + r * 3 + c') :
    storeIdx f (![iv] : Fin 1 → IVec S16 32) val (fun _ => 1#1) add h (ix1 ⟨p, hp⟩)
      = if c' = c then
          (if add then Elt.idxAdd e (f (ix1 ⟨p, hp⟩)) (val (ix1 ⟨r, hr⟩)) else val (ix1 ⟨r, hr⟩))
        else f (ix1 ⟨p, hp⟩) := by
  have hinj : ∀ x x' : S16.Idx, (iv x).toNat = (iv x').toNat → x = x' := fun x x' hxx => by
    rw [hiv x, hiv x'] at hxx
    exact lane_ext (by omega)
  by_cases hcc : c' = c
  · rw [if_pos hcc]
    refine storeIdx_hit_vec f iv val add h hinj (ix1 ⟨r, hr⟩) _ hp ?_
    rw [hiv]
    show p = K + r * 3 + c
    omega
  · rw [if_neg hcc]
    refine storeIdx_miss_vec f iv val add h _ hp fun x hx => ?_
    rw [hiv] at hx
    omega

/-- The same store read outside the window of 48 words from K: no lane names the place. -/
theorem store3_out {e : EltTy} (f : Vec F S24672 e) (iv : IVec S16 32) (val : Vec F S16 e) (add : Bool)
    (h : ∀ a x, ((![iv] : Fin 1 → IVec S16 32) a x).toNat < S24672.size a)
    (K c : Nat) (hc : c ≤ 2) (hiv : ∀ x, (iv x).toNat = K + (x 0).val * 3 + c)
    (p : Nat) (hp : p < 24672) (hout : p < K ∨ K + 48 ≤ p) :
    storeIdx f (![iv] : Fin 1 → IVec S16 32) val (fun _ => 1#1) add h (ix1 ⟨p, hp⟩) = f (ix1 ⟨p, hp⟩) := by
  refine storeIdx_miss_vec f iv val add h _ hp fun x hx => ?_
  rw [hiv] at hx
  have := lane_lt x
  omega

/-! ## The count loop -/

/-- The stored vector of ones, at a lane. -/
theorem pay32_apply (x : S16.Idx) : (k0_pay32 : FVec F S16 .f32) x = KModel.oneF := rfl

/-- One trip of the count loop, read at place r * 96 + q: the three add-stores of the vector of ones add one, once,
    when lane r's band is q / 3 (the store of component q % 3 does it), and nothing otherwise. -/
theorem cnt_trip (f : Vec F S1536 .f32) (v : Vec F S16 .i32) (hv : ∀ x, (v x).toNat ≤ 31)
    (h1 : ∀ a x, ((![k0_pay34 v] : Fin 1 → IVec S16 32) a x).toNat < S1536.size a)
    (h2 : ∀ a x, ((![k0_pay35 v] : Fin 1 → IVec S16 32) a x).toNat < S1536.size a)
    (h3 : ∀ a x, ((![k0_pay36 v] : Fin 1 → IVec S16 32) a x).toNat < S1536.size a)
    (r q : Nat) (hr : r < 16) (hq : q < 96) :
    storeIdx (storeIdx (storeIdx f ![k0_pay34 v] k0_pay32 (fun _ => 1#1) true h1)
        ![k0_pay35 v] k0_pay32 (fun _ => 1#1) true h2)
        ![k0_pay36 v] k0_pay32 (fun _ => 1#1) true h3 (ix1 ⟨r * 96 + q, by omega⟩)
      = if (v (ix1 ⟨r, hr⟩)).toNat = q / 3 then FloatOps.idxAddf (f (ix1 ⟨r * 96 + q, by omega⟩)) KModel.oneF
        else f (ix1 ⟨r * 96 + q, by omega⟩) := by
  have hb := hv (ix1 ⟨r, hr⟩)
  rw [store96_at (e := .f32) _ (k0_pay36 v) (k0_pay32 (F := F)) true h3 (fun x => (v x).toNat) 2 (by omega) hv
        (fun x => pay36_toNat v x (hv x)) r q hr hq,
      store96_at (e := .f32) _ (k0_pay35 v) (k0_pay32 (F := F)) true h2 (fun x => (v x).toNat) 1 (by omega) hv
        (fun x => pay35_toNat v x (hv x)) r q hr hq,
      store96_at (e := .f32) _ (k0_pay34 v) (k0_pay32 (F := F)) true h1 (fun x => (v x).toNat) 0 (by omega) hv
        (fun x => pay34_toNat v x (hv x)) r q hr hq]
  simp only [if_true, Elt.idxAdd_f32, pay32_apply]
  split_ifs <;> first | rfl | (exfalso; omega)

/-! ## The band loop -/

/-- One trip of the band loop, read at place r * 96 + q: when lane r's band is q / 3, coordinate q % 3 of lane r's
    vertex is added, once; otherwise nothing. -/
theorem band_trip (acc : Vec F S1536 .f32) (slab : Vec F S31425 .f32) (bvv bidv : Vec F S16 .i32)
    (hbv : ∀ x, (bvv x).toNat ≤ 10474) (hbid : ∀ x, (bidv x).toNat ≤ 31)
    (hl0 : ∀ a x, ((![k0_pay12 bvv] : Fin 1 → IVec S16 32) a x).toNat < S31425.size a)
    (hl1 : ∀ a x, ((![k0_pay14 bvv] : Fin 1 → IVec S16 32) a x).toNat < S31425.size a)
    (hl2 : ∀ a x, ((![k0_pay16 bvv] : Fin 1 → IVec S16 32) a x).toNat < S31425.size a)
    (hs0 : ∀ a x, ((![k0_pay13 k0_pay30 bidv] : Fin 1 → IVec S16 32) a x).toNat < S1536.size a)
    (hs1 : ∀ a x, ((![k0_pay15 k0_pay30 bidv] : Fin 1 → IVec S16 32) a x).toNat < S1536.size a)
    (hs2 : ∀ a x, ((![k0_pay17 k0_pay30 bidv] : Fin 1 → IVec S16 32) a x).toNat < S1536.size a)
    (r q : Nat) (hr : r < 16) (hq : q < 96) :
    storeIdx (storeIdx (storeIdx acc ![k0_pay13 k0_pay30 bidv] (loadIdx slab ![k0_pay12 bvv] hl0) (fun _ => 1#1) true hs0)
        ![k0_pay15 k0_pay30 bidv] (loadIdx slab ![k0_pay14 bvv] hl1) (fun _ => 1#1) true hs1)
        ![k0_pay17 k0_pay30 bidv] (loadIdx slab ![k0_pay16 bvv] hl2) (fun _ => 1#1) true hs2 (ix1 ⟨r * 96 + q, by omega⟩)
      = if (bidv (ix1 ⟨r, hr⟩)).toNat = q / 3 then
          FloatOps.idxAddf (acc (ix1 ⟨r * 96 + q, by omega⟩))
            (slab (ix1 ⟨(bvv (ix1 ⟨r, hr⟩)).toNat * 3 + q % 3, by have := hbv (ix1 ⟨r, hr⟩); omega⟩))
        else acc (ix1 ⟨r * 96 + q, by omega⟩) := by
  have hb := hbid (ix1 ⟨r, hr⟩)
  have hvx := hbv (ix1 ⟨r, hr⟩)
  rw [store96_at _ (k0_pay17 k0_pay30 bidv) _ true hs2 (fun x => (bidv x).toNat) 2 (by omega) hbid
        (fun x => pay17_toNat bidv x (hbid x)) r q hr hq,
      store96_at _ (k0_pay15 k0_pay30 bidv) _ true hs1 (fun x => (bidv x).toNat) 1 (by omega) hbid
        (fun x => pay15_toNat bidv x (hbid x)) r q hr hq,
      store96_at _ (k0_pay13 k0_pay30 bidv) _ true hs0 (fun x => (bidv x).toNat) 0 (by omega) hbid
        (fun x => pay13_toNat bidv x (hbid x)) r q hr hq,
      load_at slab (k0_pay12 bvv) hl0 (ix1 ⟨r, hr⟩) ((bvv (ix1 ⟨r, hr⟩)).toNat * 3 + 0) (by omega)
        (pay12_toNat bvv _ hvx),
      load_at slab (k0_pay14 bvv) hl1 (ix1 ⟨r, hr⟩) ((bvv (ix1 ⟨r, hr⟩)).toNat * 3 + 1) (by omega)
        (pay14_toNat bvv _ hvx),
      load_at slab (k0_pay16 bvv) hl2 (ix1 ⟨r, hr⟩) ((bvv (ix1 ⟨r, hr⟩)).toNat * 3 + 2) (by omega)
        (pay16_toNat bvv _ hvx)]
  simp only [if_true, Elt.idxAdd_f32]
  split_ifs <;> first | rfl | (exfalso; omega) | (congr 1; exact at_congr slab _ _ (by omega))

/-! ## The segment loop -/

/-- One trip of the segment loop, read at place p: inside the trip's window of 48 words from k * 48 the place holds
    coordinate (p - k * 48) % 3 of the vertex of lane (p - k * 48) / 3; outside it the place is as before. -/
theorem seg_trip (outb : Vec F S24672 .f32) (slab : Vec F S31425 .f32) (segv : Vec F S16 .i32)
    (hseg : ∀ x, (segv x).toNat ≤ 10474) (k : Fin k0_t5_loop.trips)
    (hl0 : ∀ a x, ((![k0_pay4 segv] : Fin 1 → IVec S16 32) a x).toNat < S31425.size a)
    (hl1 : ∀ a x, ((![k0_pay6 segv] : Fin 1 → IVec S16 32) a x).toNat < S31425.size a)
    (hl2 : ∀ a x, ((![k0_pay8 segv] : Fin 1 → IVec S16 32) a x).toNat < S31425.size a)
    (hs0 : ∀ a x, ((![k0_pay5 (iota .scVector S16 32 [0] iota_S16_d0_w32_scVector) k] : Fin 1 → IVec S16 32) a x).toNat < S24672.size a)
    (hs1 : ∀ a x, ((![k0_pay7 (iota .scVector S16 32 [0] iota_S16_d0_w32_scVector) k] : Fin 1 → IVec S16 32) a x).toNat < S24672.size a)
    (hs2 : ∀ a x, ((![k0_pay9 (iota .scVector S16 32 [0] iota_S16_d0_w32_scVector) k] : Fin 1 → IVec S16 32) a x).toNat < S24672.size a)
    (p : Nat) (hp : p < 24672) :
    storeIdx (storeIdx (storeIdx outb ![k0_pay5 (iota .scVector S16 32 [0] iota_S16_d0_w32_scVector) k] (loadIdx slab ![k0_pay4 segv] hl0) (fun _ => 1#1) false hs0)
        ![k0_pay7 (iota .scVector S16 32 [0] iota_S16_d0_w32_scVector) k] (loadIdx slab ![k0_pay6 segv] hl1) (fun _ => 1#1) false hs1)
        ![k0_pay9 (iota .scVector S16 32 [0] iota_S16_d0_w32_scVector) k] (loadIdx slab ![k0_pay8 segv] hl2) (fun _ => 1#1) false hs2 (ix1 ⟨p, hp⟩)
      = if hwin : k.val * 48 ≤ p ∧ p < k.val * 48 + 48 then
          slab (ix1 ⟨(segv (ix1 ⟨(p - k.val * 48) / 3, by omega⟩)).toNat * 3 + (p - k.val * 48) % 3,
            by have := hseg (ix1 ⟨(p - k.val * 48) / 3, by omega⟩); omega⟩)
        else outb (ix1 ⟨p, hp⟩) := by
  by_cases hwin : k.val * 48 ≤ p ∧ p < k.val * 48 + 48
  · rw [dif_pos hwin]
    have hr : (p - k.val * 48) / 3 < 16 := by omega
    have hc' : (p - k.val * 48) % 3 ≤ 2 := by omega
    have hpe : p = k.val * 48 + (p - k.val * 48) / 3 * 3 + (p - k.val * 48) % 3 := by omega
    have hvx := hseg (ix1 ⟨(p - k.val * 48) / 3, hr⟩)
    rw [store3_at _ (k0_pay9 (iota .scVector S16 32 [0] iota_S16_d0_w32_scVector) k) _ false hs2 (k.val * 48) 2 (by omega) (fun x => pay9_toNat k x) p hp _ _ hr hc' hpe,
        store3_at _ (k0_pay7 (iota .scVector S16 32 [0] iota_S16_d0_w32_scVector) k) _ false hs1 (k.val * 48) 1 (by omega) (fun x => pay7_toNat k x) p hp _ _ hr hc' hpe,
        store3_at _ (k0_pay5 (iota .scVector S16 32 [0] iota_S16_d0_w32_scVector) k) _ false hs0 (k.val * 48) 0 (by omega) (fun x => pay5_toNat k x) p hp _ _ hr hc' hpe,
        load_at slab (k0_pay4 segv) hl0 (ix1 ⟨(p - k.val * 48) / 3, hr⟩) _ (by omega) (pay4_toNat segv _ hvx),
        load_at slab (k0_pay6 segv) hl1 (ix1 ⟨(p - k.val * 48) / 3, hr⟩) _ (by omega) (pay6_toNat segv _ hvx),
        load_at slab (k0_pay8 segv) hl2 (ix1 ⟨(p - k.val * 48) / 3, hr⟩) _ (by omega) (pay8_toNat segv _ hvx)]
    simp only [Bool.false_eq_true, if_false]
    split_ifs <;> first | (exfalso; omega) | exact at_congr slab _ _ (by omega)
  · rw [dif_neg hwin]
    have hout : p < k.val * 48 ∨ k.val * 48 + 48 ≤ p := by omega
    rw [store3_out _ (k0_pay9 (iota .scVector S16 32 [0] iota_S16_d0_w32_scVector) k) _ false hs2 (k.val * 48) 2 (by omega) (fun x => pay9_toNat k x) p hp hout,
        store3_out _ (k0_pay7 (iota .scVector S16 32 [0] iota_S16_d0_w32_scVector) k) _ false hs1 (k.val * 48) 1 (by omega) (fun x => pay7_toNat k x) p hp hout,
        store3_out _ (k0_pay5 (iota .scVector S16 32 [0] iota_S16_d0_w32_scVector) k) _ false hs0 (k.val * 48) 0 (by omega) (fun x => pay5_toNat k x) p hp hout]

end Cert.Proof.KB.Trips
-- ==== Proof.KB.LoopSeg.lean ====
/-
  One trip of the segment loop, from the loop's invariant after k trips to the invariant after k + 1 trips.

  The trip loads sixteen vertex numbers (words 16 * k, …, 16 * k + 15 of the segment table), gathers the three
  coordinates of each from the staged vertex row, and stores them at words 48 * k, …, 48 * k + 47 of the row being
  assembled: word p of that window receives coordinate p % 3 of vertex number p / 3 of the table, and the words below
  the window stay as they were.
-/
import proofs.«203378_g9921374454198_cont_sun_m_1167_43_alg».proof.Proof.KB.Inv
import proofs.«203378_g9921374454198_cont_sun_m_1167_43_alg».proof.Proof.KB.Views
import proofs.«203378_g9921374454198_cont_sun_m_1167_43_alg».proof.Proof.KB.Trips

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "V0W" => (Memref.whole Cert.Kernel.main_v0_scv : Memref Cert.Kernel.sig Kind.scVector Space.hbm Cert.Kernel.S1024x31425 EltTy.f32)
local notation "A1W" => (Memref.whole Cert.Kernel.main_arg1_scv : Memref Cert.Kernel.sig Kind.scVector Space.hbm Cert.Kernel.S8192 EltTy.i32)
local notation "A2W" => (Memref.whole Cert.Kernel.main_arg2_scv : Memref Cert.Kernel.sig Kind.scVector Space.hbm Cert.Kernel.S4096 EltTy.i32)
local notation "A3W" => (Memref.whole Cert.Kernel.main_arg3_scv : Memref Cert.Kernel.sig Kind.scVector Space.hbm Cert.Kernel.S4096 EltTy.i32)
local notation "V1W" => (Memref.whole Cert.Kernel.main_v1_scv : Memref Cert.Kernel.sig Kind.scVector Space.hbm Cert.Kernel.S1024x24672 EltTy.f32)
local notation "S0W" => (Memref.whole Cert.Kernel.cc0_scratch0 : Memref Cert.Kernel.sig Kind.scVector Space.vmem Cert.Kernel.S31425 EltTy.f32)
local notation "S1W" => (Memref.whole Cert.Kernel.cc0_scratch1 : Memref Cert.Kernel.sig Kind.scVector Space.vmem Cert.Kernel.S24672 EltTy.f32)
local notation "S2W" => (Memref.whole Cert.Kernel.cc0_scratch2 : Memref Cert.Kernel.sig Kind.scVector Space.vmem Cert.Kernel.S8192 EltTy.i32)
local notation "S3W" => (Memref.whole Cert.Kernel.cc0_scratch3 : Memref Cert.Kernel.sig Kind.scVector Space.vmem Cert.Kernel.S4096 EltTy.i32)
local notation "S4W" => (Memref.whole Cert.Kernel.cc0_scratch4 : Memref Cert.Kernel.sig Kind.scVector Space.vmem Cert.Kernel.S4096 EltTy.i32)
local notation "S5W" => (Memref.whole Cert.Kernel.cc0_scratch5 : Memref Cert.Kernel.sig Kind.scVector Space.vmem Cert.Kernel.S96 EltTy.f32)
local notation "S6W" => (Memref.whole Cert.Kernel.cc0_scratch6 : Memref Cert.Kernel.sig Kind.scVector Space.vmem Cert.Kernel.S1536 EltTy.f32)

variable (d : Dev nD) (L : grid0.Coords)

/-! ## The pure step -/

/-- Lane r of the sixteen words loaded at trip k is word 16 * k + r of the table. -/
theorem seg_lane (seg : Vec F S8192 .i32) (k : Fin k0_t5_loop.trips) (r : Nat) (hr : r < 16) :
    BitVec.toNat (((S2W).view.readAt (Elt F) (Rect.unit (s := S8192) (k0_off5 k) S16.size (k0_off5_inb k)).toLoadRect seg) (ix1 ⟨r, hr⟩)) = KModel.wordAt seg (k.val * 16 + r) := by
  have hk : k.val < 512 := Idx.trip_lt k
  have hlt : k.val * 16 + r < 8192 := by omega
  rw [Views.readAt16_s2]
  unfold KModel.wordAt
  rw [dif_pos hlt]
  refine congrArg BitVec.toNat (Trips.at_congr seg _ hlt ?_)
  rw [k0_off5_eq]
  show 16 * k.val + r = k.val * 16 + r
  omega

/-- One trip's three gathers and stores take the row filled below 48 * k to the row filled below 48 * (k + 1). -/
theorem seg_step (X : Vec F S1024x31425 .f32) (b : Nat) (slab : Vec F S31425 .f32) (seg : Vec F S8192 .i32)
    (hseg : ∀ i, (seg i).toNat ≤ 10474) (hslab : SlabIs X b slab) (f : Vec F S24672 .f32) (k : Fin k0_t5_loop.trips)
    (hf : SegAt X seg b f k.val)
    (hl0 : ∀ a x, ((![k0_pay4 ((S2W).view.readAt (Elt F) (Rect.unit (s := S8192) (k0_off5 k) S16.size (k0_off5_inb k)).toLoadRect seg)] : Fin 1 → IVec S16 32) a x).toNat < S31425.size a)
    (hl1 : ∀ a x, ((![k0_pay6 ((S2W).view.readAt (Elt F) (Rect.unit (s := S8192) (k0_off5 k) S16.size (k0_off5_inb k)).toLoadRect seg)] : Fin 1 → IVec S16 32) a x).toNat < S31425.size a)
    (hl2 : ∀ a x, ((![k0_pay8 ((S2W).view.readAt (Elt F) (Rect.unit (s := S8192) (k0_off5 k) S16.size (k0_off5_inb k)).toLoadRect seg)] : Fin 1 → IVec S16 32) a x).toNat < S31425.size a)
    (hs0 : ∀ a x, ((![k0_pay5 (iota .scVector S16 32 [0] iota_S16_d0_w32_scVector) k] : Fin 1 → IVec S16 32) a x).toNat < S24672.size a)
    (hs1 : ∀ a x, ((![k0_pay7 (iota .scVector S16 32 [0] iota_S16_d0_w32_scVector) k] : Fin 1 → IVec S16 32) a x).toNat < S24672.size a)
    (hs2 : ∀ a x, ((![k0_pay9 (iota .scVector S16 32 [0] iota_S16_d0_w32_scVector) k] : Fin 1 → IVec S16 32) a x).toNat < S24672.size a) :
    SegAt X seg b
      (storeIdx (storeIdx (storeIdx f
        ![k0_pay5 (iota .scVector S16 32 [0] iota_S16_d0_w32_scVector) k] (loadIdx slab ![k0_pay4 ((S2W).view.readAt (Elt F) (Rect.unit (s := S8192) (k0_off5 k) S16.size (k0_off5_inb k)).toLoadRect seg)] hl0) (fun _ => 1#1) false hs0)
        ![k0_pay7 (iota .scVector S16 32 [0] iota_S16_d0_w32_scVector) k] (loadIdx slab ![k0_pay6 ((S2W).view.readAt (Elt F) (Rect.unit (s := S8192) (k0_off5 k) S16.size (k0_off5_inb k)).toLoadRect seg)] hl1) (fun _ => 1#1) false hs1)
        ![k0_pay9 (iota .scVector S16 32 [0] iota_S16_d0_w32_scVector) k] (loadIdx slab ![k0_pay8 ((S2W).view.readAt (Elt F) (Rect.unit (s := S8192) (k0_off5 k) S16.size (k0_off5_inb k)).toLoadRect seg)] hl2) (fun _ => 1#1) false hs2)
      (k.val + 1) := by
  have hv : ∀ x, BitVec.toNat (((S2W).view.readAt (Elt F) (Rect.unit (s := S8192) (k0_off5 k) S16.size (k0_off5_inb k)).toLoadRect seg) x) ≤ 10474 := by
    intro x
    rw [Views.readAt16_s2]
    exact hseg _
  intro p hp hlt
  rw [Trips.seg_trip f slab _ hv k hl0 hl1 hl2 hs0 hs1 hs2 p hp]
  by_cases hwin : k.val * 48 ≤ p ∧ p < k.val * 48 + 48
  · rw [dif_pos hwin, hslab, seg_lane seg k _ (by omega)]
    have h3 : p / 3 = k.val * 16 + (p - k.val * 48) / 3 := by omega
    have h4 : p % 3 = (p - k.val * 48) % 3 := by omega
    rw [h3, h4]
  · rw [dif_neg hwin]
    exact hf p hp (by omega)

/-! ## The trip -/

set_option maxHeartbeats 2000000 in
/-- One trip of the segment loop keeps the invariant: the three gathers from the staged row and the three indexed stores
    fill the next 48 words of the row being assembled. -/
theorem trip_seg (X : Vec F S1024x31425 .f32) (b : Nat) (slab : Vec F S31425 .f32) (seg : Vec F S8192 .i32)
    (hseg : ∀ i, (seg i).toNat ≤ 10474) (hslab : SlabIs X b slab) (v1 : BitVec 32) (k3 : Fin k0_t3_loop.trips)
    (k : Fin k0_t5_loop.trips) (acc : BitVec 32) :
    invSeg d L X b slab seg k.val acc ⊢ wp frame (wpE (defs₀ (F := F)) 𝒱₀ (thr d L) none) Set.univ
        (k0_t5_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 v1 (iota .scVector S16 32 [0] iota_S16_d0_w32_scVector) k0_pay30 (k0_pay31 (F := F)) (0#32) (1#32) k3 k acc)
        (invSeg d L X b slab seg (k.val + 1)) := by
  unfold invSeg k0_t5_body
  iintro ⟨⟨%f, %hf, Hs1⟩, Hs0, Hs2⟩
  have hv : ∀ x, (((S2W).view.readAt (Elt F) (Rect.unit (s := S8192) (k0_off5 k) S16.size (k0_off5_inb k)).toLoadRect seg) x).toNat ≤ 10474 := by
    intro x
    rw [Views.readAt16_s2]
    exact hseg _
  sl_exec (disch := first | sl_exact Idx.chk4 _ hv | sl_exact Idx.chk5 k | sl_exact Idx.chk6 _ hv | sl_exact Idx.chk7 k | sl_exact Idx.chk8 _ hv | sl_exact Idx.chk9 k)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk4 _ hv | sl_exact Idx.chk5 k | sl_exact Idx.chk6 _ hv | sl_exact Idx.chk7 k | sl_exact Idx.chk8 _ hv | sl_exact Idx.chk9 k)
  ihave Hs1 := (Entails.of_eq (pts_acc1 (F := F) d L _).symm) $$ Hs1
  iapply (SparseCore.wp_vectorStoreIdx 𝒱₀ (thr d L) none Set.univ (base := S1W)) $$ Hs1; iintro Hs1
  rw [Memref.read_access_whole, Memref.write_access_whole_univ]
  ihave Hs1 := (Entails.of_eq (pts_acc1 (F := F) d L _)) $$ Hs1
  sl_exec (disch := first | sl_exact Idx.chk4 _ hv | sl_exact Idx.chk5 k | sl_exact Idx.chk6 _ hv | sl_exact Idx.chk7 k | sl_exact Idx.chk8 _ hv | sl_exact Idx.chk9 k)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk4 _ hv | sl_exact Idx.chk5 k | sl_exact Idx.chk6 _ hv | sl_exact Idx.chk7 k | sl_exact Idx.chk8 _ hv | sl_exact Idx.chk9 k)
  ihave Hs1 := (Entails.of_eq (pts_acc1 (F := F) d L _).symm) $$ Hs1
  iapply (SparseCore.wp_vectorStoreIdx 𝒱₀ (thr d L) none Set.univ (base := S1W)) $$ Hs1; iintro Hs1
  rw [Memref.read_access_whole, Memref.write_access_whole_univ]
  ihave Hs1 := (Entails.of_eq (pts_acc1 (F := F) d L _)) $$ Hs1
  sl_exec (disch := first | sl_exact Idx.chk4 _ hv | sl_exact Idx.chk5 k | sl_exact Idx.chk6 _ hv | sl_exact Idx.chk7 k | sl_exact Idx.chk8 _ hv | sl_exact Idx.chk9 k)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk4 _ hv | sl_exact Idx.chk5 k | sl_exact Idx.chk6 _ hv | sl_exact Idx.chk7 k | sl_exact Idx.chk8 _ hv | sl_exact Idx.chk9 k)
  ihave Hs1 := (Entails.of_eq (pts_acc1 (F := F) d L _).symm) $$ Hs1
  iapply (SparseCore.wp_vectorStoreIdx 𝒱₀ (thr d L) none Set.univ (base := S1W)) $$ Hs1; iintro Hs1
  rw [Memref.read_access_whole, Memref.write_access_whole_univ]
  ihave Hs1 := (Entails.of_eq (pts_acc1 (F := F) d L _)) $$ Hs1
  sl_exec (disch := first | sl_exact Idx.chk4 _ hv | sl_exact Idx.chk5 k | sl_exact Idx.chk6 _ hv | sl_exact Idx.chk7 k | sl_exact Idx.chk8 _ hv | sl_exact Idx.chk9 k)
  sl_step
  isplitl [Hs1]
  · iexists _
    isplitr [Hs1]
    rotate_left
    · iexact Hs1
    · ipureintro
      exact seg_step X b slab seg hseg hslab f k hf _ _ _ _ _ _
  isplitl [Hs0]
  · iexact Hs0
  iexact Hs2

end Cert.Proof.KB
-- ==== Proof.KB.LoopBand.lean ====
/-
  One trip of the band loop, from the loop's invariant after k trips to the invariant after k + 1 trips.

  The trip loads sixteen pairs (vertex number, band number) — words 16 * k, …, 16 * k + 15 of the two tables —, gathers
  the three coordinates of each vertex from the staged vertex row, and adds them into the 1536 running sums by three
  indexed add-stores. Read at lane r, slot q, the three stores add coordinate q % 3 of the vertex of pair 16 * k + r
  exactly when the pair's band is q / 3: the band-sum model's recursion step.
-/
import proofs.«203378_g9921374454198_cont_sun_m_1167_43_alg».proof.Proof.KB.Inv
import proofs.«203378_g9921374454198_cont_sun_m_1167_43_alg».proof.Proof.KB.Views
import proofs.«203378_g9921374454198_cont_sun_m_1167_43_alg».proof.Proof.KB.Trips

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "V0W" => (Memref.whole Cert.Kernel.main_v0_scv : Memref Cert.Kernel.sig Kind.scVector Space.hbm Cert.Kernel.S1024x31425 EltTy.f32)
local notation "A1W" => (Memref.whole Cert.Kernel.main_arg1_scv : Memref Cert.Kernel.sig Kind.scVector Space.hbm Cert.Kernel.S8192 EltTy.i32)
local notation "A2W" => (Memref.whole Cert.Kernel.main_arg2_scv : Memref Cert.Kernel.sig Kind.scVector Space.hbm Cert.Kernel.S4096 EltTy.i32)
local notation "A3W" => (Memref.whole Cert.Kernel.main_arg3_scv : Memref Cert.Kernel.sig Kind.scVector Space.hbm Cert.Kernel.S4096 EltTy.i32)
local notation "V1W" => (Memref.whole Cert.Kernel.main_v1_scv : Memref Cert.Kernel.sig Kind.scVector Space.hbm Cert.Kernel.S1024x24672 EltTy.f32)
local notation "S0W" => (Memref.whole Cert.Kernel.cc0_scratch0 : Memref Cert.Kernel.sig Kind.scVector Space.vmem Cert.Kernel.S31425 EltTy.f32)
local notation "S1W" => (Memref.whole Cert.Kernel.cc0_scratch1 : Memref Cert.Kernel.sig Kind.scVector Space.vmem Cert.Kernel.S24672 EltTy.f32)
local notation "S2W" => (Memref.whole Cert.Kernel.cc0_scratch2 : Memref Cert.Kernel.sig Kind.scVector Space.vmem Cert.Kernel.S8192 EltTy.i32)
local notation "S3W" => (Memref.whole Cert.Kernel.cc0_scratch3 : Memref Cert.Kernel.sig Kind.scVector Space.vmem Cert.Kernel.S4096 EltTy.i32)
local notation "S4W" => (Memref.whole Cert.Kernel.cc0_scratch4 : Memref Cert.Kernel.sig Kind.scVector Space.vmem Cert.Kernel.S4096 EltTy.i32)
local notation "S5W" => (Memref.whole Cert.Kernel.cc0_scratch5 : Memref Cert.Kernel.sig Kind.scVector Space.vmem Cert.Kernel.S96 EltTy.f32)
local notation "S6W" => (Memref.whole Cert.Kernel.cc0_scratch6 : Memref Cert.Kernel.sig Kind.scVector Space.vmem Cert.Kernel.S1536 EltTy.f32)

variable (d : Dev nD) (L : grid0.Coords)

/-! ## The pure step -/

/-- Lane r of the sixteen vertex numbers loaded at trip k is word 16 * k + r of the vertex table. -/
theorem band_lane_bv (bv : Vec F S4096 .i32) (k : Fin k0_t6_loop.trips) (r : Nat) (hr : r < 16) :
    BitVec.toNat (((S3W).view.readAt (Elt F) (Rect.unit (s := S4096) (k0_off6 k) S16.size (k0_off6_inb k)).toLoadRect bv) (ix1 ⟨r, hr⟩)) = KModel.wordAt bv (k.val * 16 + r) := by
  have hk : k.val < 256 := Nat.lt_of_lt_of_le k.isLt k0_t6_abs.2.1
  have hlt : k.val * 16 + r < 4096 := by omega
  rw [Views.readAt16_s3]
  unfold KModel.wordAt
  rw [dif_pos hlt]
  refine congrArg BitVec.toNat (Trips.at_congr bv _ hlt ?_)
  rw [k0_off6_eq]
  show 16 * k.val + r = k.val * 16 + r
  omega

/-- Lane r of the sixteen band numbers loaded at trip k is word 16 * k + r of the band table. -/
theorem band_lane_bid (bid : Vec F S4096 .i32) (k : Fin k0_t6_loop.trips) (r : Nat) (hr : r < 16) :
    BitVec.toNat (((S4W).view.readAt (Elt F) (Rect.unit (s := S4096) (k0_off6 k) S16.size (k0_off6_inb k)).toLoadRect bid) (ix1 ⟨r, hr⟩)) = KModel.wordAt bid (k.val * 16 + r) := by
  have hk : k.val < 256 := Nat.lt_of_lt_of_le k.isLt k0_t6_abs.2.1
  have hlt : k.val * 16 + r < 4096 := by omega
  rw [Views.readAt16_s4]
  unfold KModel.wordAt
  rw [dif_pos hlt]
  refine congrArg BitVec.toNat (Trips.at_congr bid _ hlt ?_)
  rw [k0_off6_eq]
  show 16 * k.val + r = k.val * 16 + r
  omega

/-- One trip's three gathers and add-stores take the band sums after k steps to the band sums after k + 1 steps. -/
theorem band_step (X : Vec F S1024x31425 .f32) (b : Nat) (slab : Vec F S31425 .f32) (bv bid : Vec F S4096 .i32)
    (hbv : ∀ i, (bv i).toNat ≤ 10474) (hbid : ∀ i, (bid i).toNat ≤ 31) (hslab : SlabIs X b slab)
    (f : Vec F S1536 .f32) (k : Fin k0_t6_loop.trips) (hf : BandAt X bv bid b f k.val)
    (hl0 : ∀ a x, ((![k0_pay12 ((S3W).view.readAt (Elt F) (Rect.unit (s := S4096) (k0_off6 k) S16.size (k0_off6_inb k)).toLoadRect bv)] : Fin 1 → IVec S16 32) a x).toNat < S31425.size a)
    (hl1 : ∀ a x, ((![k0_pay14 ((S3W).view.readAt (Elt F) (Rect.unit (s := S4096) (k0_off6 k) S16.size (k0_off6_inb k)).toLoadRect bv)] : Fin 1 → IVec S16 32) a x).toNat < S31425.size a)
    (hl2 : ∀ a x, ((![k0_pay16 ((S3W).view.readAt (Elt F) (Rect.unit (s := S4096) (k0_off6 k) S16.size (k0_off6_inb k)).toLoadRect bv)] : Fin 1 → IVec S16 32) a x).toNat < S31425.size a)
    (hs0 : ∀ a x, ((![k0_pay13 k0_pay30 ((S4W).view.readAt (Elt F) (Rect.unit (s := S4096) (k0_off6 k) S16.size (k0_off6_inb k)).toLoadRect bid)] : Fin 1 → IVec S16 32) a x).toNat < S1536.size a)
    (hs1 : ∀ a x, ((![k0_pay15 k0_pay30 ((S4W).view.readAt (Elt F) (Rect.unit (s := S4096) (k0_off6 k) S16.size (k0_off6_inb k)).toLoadRect bid)] : Fin 1 → IVec S16 32) a x).toNat < S1536.size a)
    (hs2 : ∀ a x, ((![k0_pay17 k0_pay30 ((S4W).view.readAt (Elt F) (Rect.unit (s := S4096) (k0_off6 k) S16.size (k0_off6_inb k)).toLoadRect bid)] : Fin 1 → IVec S16 32) a x).toNat < S1536.size a) :
    BandAt X bv bid b
      (storeIdx (storeIdx (storeIdx f
        ![k0_pay13 k0_pay30 ((S4W).view.readAt (Elt F) (Rect.unit (s := S4096) (k0_off6 k) S16.size (k0_off6_inb k)).toLoadRect bid)] (loadIdx slab ![k0_pay12 ((S3W).view.readAt (Elt F) (Rect.unit (s := S4096) (k0_off6 k) S16.size (k0_off6_inb k)).toLoadRect bv)] hl0) (fun _ => 1#1) true hs0)
        ![k0_pay15 k0_pay30 ((S4W).view.readAt (Elt F) (Rect.unit (s := S4096) (k0_off6 k) S16.size (k0_off6_inb k)).toLoadRect bid)] (loadIdx slab ![k0_pay14 ((S3W).view.readAt (Elt F) (Rect.unit (s := S4096) (k0_off6 k) S16.size (k0_off6_inb k)).toLoadRect bv)] hl1) (fun _ => 1#1) true hs1)
        ![k0_pay17 k0_pay30 ((S4W).view.readAt (Elt F) (Rect.unit (s := S4096) (k0_off6 k) S16.size (k0_off6_inb k)).toLoadRect bid)] (loadIdx slab ![k0_pay16 ((S3W).view.readAt (Elt F) (Rect.unit (s := S4096) (k0_off6 k) S16.size (k0_off6_inb k)).toLoadRect bv)] hl2) (fun _ => 1#1) true hs2)
      (k.val + 1) := by
  have hvv : ∀ x, BitVec.toNat (((S3W).view.readAt (Elt F) (Rect.unit (s := S4096) (k0_off6 k) S16.size (k0_off6_inb k)).toLoadRect bv) x) ≤ 10474 := by
    intro x
    rw [Views.readAt16_s3]
    exact hbv _
  have hvd : ∀ x, BitVec.toNat (((S4W).view.readAt (Elt F) (Rect.unit (s := S4096) (k0_off6 k) S16.size (k0_off6_inb k)).toLoadRect bid) x) ≤ 31 := by
    intro x
    rw [Views.readAt16_s4]
    exact hbid _
  intro r q hr hq
  rw [Trips.band_trip f slab _ _ hvv hvd hl0 hl1 hl2 hs0 hs1 hs2 r q hr hq, hslab, band_lane_bid bid k r hr,
    band_lane_bv bv k r hr, hf r q hr hq]
  rfl

/-! ## The trip -/

set_option maxHeartbeats 2000000 in
/-- One trip of the band loop keeps the invariant: the three gathers from the staged row and the three indexed
    add-stores advance the band sums by one step. -/
theorem trip_band (X : Vec F S1024x31425 .f32) (b : Nat) (slab : Vec F S31425 .f32) (bv bid : Vec F S4096 .i32)
    (hbv : ∀ i, (bv i).toNat ≤ 10474) (hbid : ∀ i, (bid i).toNat ≤ 31) (hslab : SlabIs X b slab) (v1 : BitVec 32)
    (k3 : Fin k0_t3_loop.trips) (k : Fin k0_t6_loop.trips) (acc : BitVec 32) :
    invBand d L X b slab bv bid k.val acc ⊢ wp frame (wpE (defs₀ (F := F)) 𝒱₀ (thr d L) none) Set.univ
        (k0_t6_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 v1 (iota .scVector S16 32 [0] iota_S16_d0_w32_scVector) k0_pay30 (k0_pay31 (F := F)) (0#32) (1#32) k3 k acc)
        (invBand d L X b slab bv bid (k.val + 1)) := by
  unfold invBand k0_t6_body
  iintro ⟨⟨%f, %hf, Hs6⟩, Hs0, Hs3, Hs4⟩
  have hvv : ∀ x, (((S3W).view.readAt (Elt F) (Rect.unit (s := S4096) (k0_off6 k) S16.size (k0_off6_inb k)).toLoadRect bv) x).toNat ≤ 10474 := by
    intro x
    rw [Views.readAt16_s3]
    exact hbv _
  have hvd : ∀ x, (((S4W).view.readAt (Elt F) (Rect.unit (s := S4096) (k0_off6 k) S16.size (k0_off6_inb k)).toLoadRect bid) x).toNat ≤ 31 := by
    intro x
    rw [Views.readAt16_s4]
    exact hbid _
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs0 := (Entails.of_eq (pts_accq0 (F := F) d L _ _).symm) $$ Hs0
  iapply (SparseCore.wp_vectorLoadIdx 𝒱₀ (thr d L) none Set.univ (base := S0W) (S := Finset.univ) (q := fullShare) (Finset.subset_univ _)) $$ Hs0; iintro Hs0
  rw [Memref.read_access_whole]
  ihave Hs0 := (Entails.of_eq (pts_accq0 (F := F) d L _ _)) $$ Hs0
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk10 _ hvv | sl_exact Idx.chk11 _ hvd | sl_exact Idx.chk12 _ hvv | sl_exact Idx.chk13 _ hvd | sl_exact Idx.chk14 _ hvv | sl_exact Idx.chk15 _ hvd)
  sl_step
  isplitl [Hs6]
  · iexists _
    isplitr [Hs6]
    rotate_left
    · iexact Hs6
    · ipureintro
      exact band_step X b slab bv bid hbv hbid hslab f k hf _ _ _ _ _ _
  isplitl [Hs0]
  · iexact Hs0
  isplitl [Hs3]
  · iexact Hs3
  iexact Hs4

end Cert.Proof.KB
-- ==== Proof.KB.SumVals.lean ====
/-
  The kernel's unrolled lane sums as values. The 96-word scratch of inverse counts and the last 96 words of the row
  scratch are each written by six 16-lane stores whose payloads add the sixteen lanes' 16-word slices of the running-sum
  scratch, slot by slot, from zero and in lane order. Read at a word, each is the sixteen-term sum at that slot:
  one over max(sum, 1) for the inverse counts, the sum times the inverse count for the row.
-/
import proofs.«203378_g9921374454198_cont_sun_m_1167_43_alg».proof.Proof.KB.Views
import proofs.«203378_g9921374454198_cont_sun_m_1167_43_alg».proof.Proof.KModel
import proofs.«203378_g9921374454198_cont_sun_m_1167_43_alg».proof.Proof.Gen.Kernel.Skeleton

noncomputable section

namespace Cert.Proof.KB.SumVals

open Cert.Kernel Cert.Kernel.Gen Cert.Proof.KB.Views
open Idealize.ShloMosaic Idealize.ShloMosaic.ValueIdx

variable {F : FTy → Type} [FloatOps F]

/-! ## Total accessors -/

/-- Word `p` of the running-sum scratch; zero past its end (never read there). -/
def accAt (acc : Vec F S1536 .f32) (p : Nat) : F .f32 :=
  if h : p < 1536 then acc (ix1 ⟨p, h⟩) else KModel.zeroF

/-- Word `p` of the inverse-count scratch; zero past its end (never read there). -/
def invAt (inv : Vec F S96 .f32) (p : Nat) : F .f32 :=
  if h : p < 96 then inv (ix1 ⟨p, h⟩) else KModel.zeroF

/-- A 16-lane load of the running-sum scratch, lane by lane. -/
theorem load6 (off : Fin 1 → Nat) (h : ∀ a, off a + S16.size a ≤ S1536.size a) (acc : Vec F S1536 .f32) (x : S16.Idx) :
    (Memref.whole Cert.Kernel.cc0_scratch6 : Memref Cert.Kernel.sig Kind.scVector Space.vmem Cert.Kernel.S1536 EltTy.f32).view.readAt (Elt F)
        (Rect.unit (s := S1536) off S16.size h).toLoadRect acc x = accAt acc (off 0 + (x 0).val) := by
  rw [readAt16_s6 off h acc x]
  unfold accAt
  rw [dif_pos (lane_lt off h x)]

/-- A 16-lane load of the inverse-count scratch, lane by lane. -/
theorem load5 (off : Fin 1 → Nat) (h : ∀ a, off a + S16.size a ≤ S96.size a) (inv : Vec F S96 .f32) (x : S16.Idx) :
    (Memref.whole Cert.Kernel.cc0_scratch5 : Memref Cert.Kernel.sig Kind.scVector Space.vmem Cert.Kernel.S96 EltTy.f32).view.readAt (Elt F)
        (Rect.unit (s := S96) off S16.size h).toLoadRect inv x = invAt inv (off 0 + (x 0).val) := by
  rw [readAt16_s5 off h inv x]
  unfold invAt
  rw [dif_pos (lane_lt off h x)]

/-- The same, spelt as a simplification pass leaves the load (the buffer's whole view, the window's sizes a literal). -/
theorem load6s (off : Fin 1 → Nat) (h : ∀ a, off a + (![16] : Fin 1 → Nat) a ≤ S1536.size a) (acc : Vec F S1536 .f32) (x : S16.Idx) :
    (View.whole Cert.Kernel.cc0_scratch6).readAt (Elt F) (Rect.unit (s := S1536) off ![16] h).toLoadRect acc x
      = accAt acc (off 0 + (x 0).val) := load6 off h acc x

theorem load5s (off : Fin 1 → Nat) (h : ∀ a, off a + (![16] : Fin 1 → Nat) a ≤ S96.size a) (inv : Vec F S96 .f32) (x : S16.Idx) :
    (View.whole Cert.Kernel.cc0_scratch5).readAt (Elt F) (Rect.unit (s := S96) off ![16] h).toLoadRect inv x
      = invAt inv (off 0 + (x 0).val) := load5 off h inv x

/-- The same as functions of the lane. -/
theorem load6_fun (off : Fin 1 → Nat) (h : ∀ a, off a + S16.size a ≤ S1536.size a) (acc : Vec F S1536 .f32) :
    (Memref.whole Cert.Kernel.cc0_scratch6 : Memref Cert.Kernel.sig Kind.scVector Space.vmem Cert.Kernel.S1536 EltTy.f32).view.readAt (Elt F)
        (Rect.unit (s := S1536) off S16.size h).toLoadRect acc = fun x => accAt acc (off 0 + (x 0).val) :=
  funext fun x => load6 off h acc x

theorem load5_fun (off : Fin 1 → Nat) (h : ∀ a, off a + S16.size a ≤ S96.size a) (inv : Vec F S96 .f32) :
    (Memref.whole Cert.Kernel.cc0_scratch5 : Memref Cert.Kernel.sig Kind.scVector Space.vmem Cert.Kernel.S96 EltTy.f32).view.readAt (Elt F)
        (Rect.unit (s := S96) off S16.size h).toLoadRect inv = fun x => invAt inv (off 0 + (x 0).val) :=
  funext fun x => load5 off h inv x

/-! ## The six payloads of the inverse counts, lane by lane -/

theorem invLane0 (acc : Vec F S1536 .f32) (x : S16.Idx) (q : Nat) (hx : 0 + (x 0).val = q) :
    (k0_pay38 (k0_pay37
          ((Memref.whole Cert.Kernel.cc0_scratch6 : Memref Cert.Kernel.sig Kind.scVector Space.vmem Cert.Kernel.S1536 EltTy.f32).view.readAt (Elt F) (Rect.unit (s := S1536) ![0] S16.size inb_S1536_S16_0).toLoadRect acc)
          ((Memref.whole Cert.Kernel.cc0_scratch6 : Memref Cert.Kernel.sig Kind.scVector Space.vmem Cert.Kernel.S1536 EltTy.f32).view.readAt (Elt F) (Rect.unit (s := S1536) ![96] S16.size inb_S1536_S16_96).toLoadRect acc)
          ((Memref.whole Cert.Kernel.cc0_scratch6 : Memref Cert.Kernel.sig Kind.scVector Space.vmem Cert.Kernel.S1536 EltTy.f32).view.readAt (Elt F) (Rect.unit (s := S1536) ![192] S16.size inb_S1536_S16_192).toLoadRect acc)
          ((Memref.whole Cert.Kernel.cc0_scratch6 : Memref Cert.Kernel.sig Kind.scVector Space.vmem Cert.Kernel.S1536 EltTy.f32).view.readAt (Elt F) (Rect.unit (s := S1536) ![288] S16.size inb_S1536_S16_288).toLoadRect acc)
          ((Memref.whole Cert.Kernel.cc0_scratch6 : Memref Cert.Kernel.sig Kind.scVector Space.vmem Cert.Kernel.S1536 EltTy.f32).view.readAt (Elt F) (Rect.unit (s := S1536) ![384] S16.size inb_S1536_S16_384).toLoadRect acc)
          ((Memref.whole Cert.Kernel.cc0_scratch6 : Memref Cert.Kernel.sig Kind.scVector Space.vmem Cert.Kernel.S1536 EltTy.f32).view.readAt (Elt F) (Rect.unit (s := S1536) ![480] S16.size inb_S1536_S16_480).toLoadRect acc)
          ((Memref.whole Cert.Kernel.cc0_scratch6 : Memref Cert.Kernel.sig Kind.scVector Space.vmem Cert.Kernel.S1536 EltTy.f32).view.readAt (Elt F) (Rect.unit (s := S1536) ![576] S16.size inb_S1536_S16_576).toLoadRect acc)
          ((Memref.whole Cert.Kernel.cc0_scratch6 : Memref Cert.Kernel.sig Kind.scVector Space.vmem Cert.Kernel.S1536 EltTy.f32).view.readAt (Elt F) (Rect.unit (s := S1536) ![672] S16.size inb_S1536_S16_672).toLoadRect acc)
          ((Memref.whole Cert.Kernel.cc0_scratch6 : Memref Cert.Kernel.sig Kind.scVector Space.vmem Cert.Kernel.S1536 EltTy.f32).view.readAt (Elt F) (Rect.unit (s := S1536) ![768] S16.size inb_S1536_S16_768).toLoadRect acc))
        ((Memref.whole Cert.Kernel.cc0_scratch6 : Memref Cert.Kernel.sig Kind.scVector Space.vmem Cert.Kernel.S1536 EltTy.f32).view.readAt (Elt F) (Rect.unit (s := S1536) ![864] S16.size inb_S1536_S16_864).toLoadRect acc)
        ((Memref.whole Cert.Kernel.cc0_scratch6 : Memref Cert.Kernel.sig Kind.scVector Space.vmem Cert.Kernel.S1536 EltTy.f32).view.readAt (Elt F) (Rect.unit (s := S1536) ![960] S16.size inb_S1536_S16_960).toLoadRect acc)
        ((Memref.whole Cert.Kernel.cc0_scratch6 : Memref Cert.Kernel.sig Kind.scVector Space.vmem Cert.Kernel.S1536 EltTy.f32).view.readAt (Elt F) (Rect.unit (s := S1536) ![1056] S16.size inb_S1536_S16_1056).toLoadRect acc)
        ((Memref.whole Cert.Kernel.cc0_scratch6 : Memref Cert.Kernel.sig Kind.scVector Space.vmem Cert.Kernel.S1536 EltTy.f32).view.readAt (Elt F) (Rect.unit (s := S1536) ![1152] S16.size inb_S1536_S16_1152).toLoadRect acc)
        ((Memref.whole Cert.Kernel.cc0_scratch6 : Memref Cert.Kernel.sig Kind.scVector Space.vmem Cert.Kernel.S1536 EltTy.f32).view.readAt (Elt F) (Rect.unit (s := S1536) ![1248] S16.size inb_S1536_S16_1248).toLoadRect acc)
        ((Memref.whole Cert.Kernel.cc0_scratch6 : Memref Cert.Kernel.sig Kind.scVector Space.vmem Cert.Kernel.S1536 EltTy.f32).view.readAt (Elt F) (Rect.unit (s := S1536) ![1344] S16.size inb_S1536_S16_1344).toLoadRect acc)
        ((Memref.whole Cert.Kernel.cc0_scratch6 : Memref Cert.Kernel.sig Kind.scVector Space.vmem Cert.Kernel.S1536 EltTy.f32).view.readAt (Elt F) (Rect.unit (s := S1536) ![1440] S16.size inb_S1536_S16_1440).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

theorem invLane1 (acc : Vec F S1536 .f32) (x : S16.Idx) (q : Nat) (hx : 16 + (x 0).val = q) :
    (k0_pay40 (k0_pay39 (k0_pay31 (F := F))
          ((Memref.whole Cert.Kernel.cc0_scratch6 : Memref Cert.Kernel.sig Kind.scVector Space.vmem Cert.Kernel.S1536 EltTy.f32).view.readAt (Elt F) (Rect.unit (s := S1536) ![16] S16.size inb_S1536_S16_16).toLoadRect acc)
          ((Memref.whole Cert.Kernel.cc0_scratch6 : Memref Cert.Kernel.sig Kind.scVector Space.vmem Cert.Kernel.S1536 EltTy.f32).view.readAt (Elt F) (Rect.unit (s := S1536) ![112] S16.size inb_S1536_S16_112).toLoadRect acc)
          ((Memref.whole Cert.Kernel.cc0_scratch6 : Memref Cert.Kernel.sig Kind.scVector Space.vmem Cert.Kernel.S1536 EltTy.f32).view.readAt (Elt F) (Rect.unit (s := S1536) ![208] S16.size inb_S1536_S16_208).toLoadRect acc)
          ((Memref.whole Cert.Kernel.cc0_scratch6 : Memref Cert.Kernel.sig Kind.scVector Space.vmem Cert.Kernel.S1536 EltTy.f32).view.readAt (Elt F) (Rect.unit (s := S1536) ![304] S16.size inb_S1536_S16_304).toLoadRect acc)
          ((Memref.whole Cert.Kernel.cc0_scratch6 : Memref Cert.Kernel.sig Kind.scVector Space.vmem Cert.Kernel.S1536 EltTy.f32).view.readAt (Elt F) (Rect.unit (s := S1536) ![400] S16.size inb_S1536_S16_400).toLoadRect acc)
          ((Memref.whole Cert.Kernel.cc0_scratch6 : Memref Cert.Kernel.sig Kind.scVector Space.vmem Cert.Kernel.S1536 EltTy.f32).view.readAt (Elt F) (Rect.unit (s := S1536) ![496] S16.size inb_S1536_S16_496).toLoadRect acc)
          ((Memref.whole Cert.Kernel.cc0_scratch6 : Memref Cert.Kernel.sig Kind.scVector Space.vmem Cert.Kernel.S1536 EltTy.f32).view.readAt (Elt F) (Rect.unit (s := S1536) ![592] S16.size inb_S1536_S16_592).toLoadRect acc)
          ((Memref.whole Cert.Kernel.cc0_scratch6 : Memref Cert.Kernel.sig Kind.scVector Space.vmem Cert.Kernel.S1536 EltTy.f32).view.readAt (Elt F) (Rect.unit (s := S1536) ![688] S16.size inb_S1536_S16_688).toLoadRect acc)
          ((Memref.whole Cert.Kernel.cc0_scratch6 : Memref Cert.Kernel.sig Kind.scVector Space.vmem Cert.Kernel.S1536 EltTy.f32).view.readAt (Elt F) (Rect.unit (s := S1536) ![784] S16.size inb_S1536_S16_784).toLoadRect acc)
          ((Memref.whole Cert.Kernel.cc0_scratch6 : Memref Cert.Kernel.sig Kind.scVector Space.vmem Cert.Kernel.S1536 EltTy.f32).view.readAt (Elt F) (Rect.unit (s := S1536) ![880] S16.size inb_S1536_S16_880).toLoadRect acc))
        ((Memref.whole Cert.Kernel.cc0_scratch6 : Memref Cert.Kernel.sig Kind.scVector Space.vmem Cert.Kernel.S1536 EltTy.f32).view.readAt (Elt F) (Rect.unit (s := S1536) ![976] S16.size inb_S1536_S16_976).toLoadRect acc)
        ((Memref.whole Cert.Kernel.cc0_scratch6 : Memref Cert.Kernel.sig Kind.scVector Space.vmem Cert.Kernel.S1536 EltTy.f32).view.readAt (Elt F) (Rect.unit (s := S1536) ![1072] S16.size inb_S1536_S16_1072).toLoadRect acc)
        ((Memref.whole Cert.Kernel.cc0_scratch6 : Memref Cert.Kernel.sig Kind.scVector Space.vmem Cert.Kernel.S1536 EltTy.f32).view.readAt (Elt F) (Rect.unit (s := S1536) ![1168] S16.size inb_S1536_S16_1168).toLoadRect acc)
        ((Memref.whole Cert.Kernel.cc0_scratch6 : Memref Cert.Kernel.sig Kind.scVector Space.vmem Cert.Kernel.S1536 EltTy.f32).view.readAt (Elt F) (Rect.unit (s := S1536) ![1264] S16.size inb_S1536_S16_1264).toLoadRect acc)
        ((Memref.whole Cert.Kernel.cc0_scratch6 : Memref Cert.Kernel.sig Kind.scVector Space.vmem Cert.Kernel.S1536 EltTy.f32).view.readAt (Elt F) (Rect.unit (s := S1536) ![1360] S16.size inb_S1536_S16_1360).toLoadRect acc)
        ((Memref.whole Cert.Kernel.cc0_scratch6 : Memref Cert.Kernel.sig Kind.scVector Space.vmem Cert.Kernel.S1536 EltTy.f32).view.readAt (Elt F) (Rect.unit (s := S1536) ![1456] S16.size inb_S1536_S16_1456).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

theorem invLane2 (acc : Vec F S1536 .f32) (x : S16.Idx) (q : Nat) (hx : 32 + (x 0).val = q) :
    (k0_pay42 (k0_pay41 (k0_pay31 (F := F))
          ((Memref.whole Cert.Kernel.cc0_scratch6 : Memref Cert.Kernel.sig Kind.scVector Space.vmem Cert.Kernel.S1536 EltTy.f32).view.readAt (Elt F) (Rect.unit (s := S1536) ![32] S16.size inb_S1536_S16_32).toLoadRect acc)
          ((Memref.whole Cert.Kernel.cc0_scratch6 : Memref Cert.Kernel.sig Kind.scVector Space.vmem Cert.Kernel.S1536 EltTy.f32).view.readAt (Elt F) (Rect.unit (s := S1536) ![128] S16.size inb_S1536_S16_128).toLoadRect acc)
          ((Memref.whole Cert.Kernel.cc0_scratch6 : Memref Cert.Kernel.sig Kind.scVector Space.vmem Cert.Kernel.S1536 EltTy.f32).view.readAt (Elt F) (Rect.unit (s := S1536) ![224] S16.size inb_S1536_S16_224).toLoadRect acc)
          ((Memref.whole Cert.Kernel.cc0_scratch6 : Memref Cert.Kernel.sig Kind.scVector Space.vmem Cert.Kernel.S1536 EltTy.f32).view.readAt (Elt F) (Rect.unit (s := S1536) ![320] S16.size inb_S1536_S16_320).toLoadRect acc)
          ((Memref.whole Cert.Kernel.cc0_scratch6 : Memref Cert.Kernel.sig Kind.scVector Space.vmem Cert.Kernel.S1536 EltTy.f32).view.readAt (Elt F) (Rect.unit (s := S1536) ![416] S16.size inb_S1536_S16_416).toLoadRect acc)
          ((Memref.whole Cert.Kernel.cc0_scratch6 : Memref Cert.Kernel.sig Kind.scVector Space.vmem Cert.Kernel.S1536 EltTy.f32).view.readAt (Elt F) (Rect.unit (s := S1536) ![512] S16.size inb_S1536_S16_512).toLoadRect acc)
          ((Memref.whole Cert.Kernel.cc0_scratch6 : Memref Cert.Kernel.sig Kind.scVector Space.vmem Cert.Kernel.S1536 EltTy.f32).view.readAt (Elt F) (Rect.unit (s := S1536) ![608] S16.size inb_S1536_S16_608).toLoadRect acc)
          ((Memref.whole Cert.Kernel.cc0_scratch6 : Memref Cert.Kernel.sig Kind.scVector Space.vmem Cert.Kernel.S1536 EltTy.f32).view.readAt (Elt F) (Rect.unit (s := S1536) ![704] S16.size inb_S1536_S16_704).toLoadRect acc)
          ((Memref.whole Cert.Kernel.cc0_scratch6 : Memref Cert.Kernel.sig Kind.scVector Space.vmem Cert.Kernel.S1536 EltTy.f32).view.readAt (Elt F) (Rect.unit (s := S1536) ![800] S16.size inb_S1536_S16_800).toLoadRect acc)
          ((Memref.whole Cert.Kernel.cc0_scratch6 : Memref Cert.Kernel.sig Kind.scVector Space.vmem Cert.Kernel.S1536 EltTy.f32).view.readAt (Elt F) (Rect.unit (s := S1536) ![896] S16.size inb_S1536_S16_896).toLoadRect acc)
          ((Memref.whole Cert.Kernel.cc0_scratch6 : Memref Cert.Kernel.sig Kind.scVector Space.vmem Cert.Kernel.S1536 EltTy.f32).view.readAt (Elt F) (Rect.unit (s := S1536) ![992] S16.size inb_S1536_S16_992).toLoadRect acc))
        ((Memref.whole Cert.Kernel.cc0_scratch6 : Memref Cert.Kernel.sig Kind.scVector Space.vmem Cert.Kernel.S1536 EltTy.f32).view.readAt (Elt F) (Rect.unit (s := S1536) ![1088] S16.size inb_S1536_S16_1088).toLoadRect acc)
        ((Memref.whole Cert.Kernel.cc0_scratch6 : Memref Cert.Kernel.sig Kind.scVector Space.vmem Cert.Kernel.S1536 EltTy.f32).view.readAt (Elt F) (Rect.unit (s := S1536) ![1184] S16.size inb_S1536_S16_1184).toLoadRect acc)
        ((Memref.whole Cert.Kernel.cc0_scratch6 : Memref Cert.Kernel.sig Kind.scVector Space.vmem Cert.Kernel.S1536 EltTy.f32).view.readAt (Elt F) (Rect.unit (s := S1536) ![1280] S16.size inb_S1536_S16_1280).toLoadRect acc)
        ((Memref.whole Cert.Kernel.cc0_scratch6 : Memref Cert.Kernel.sig Kind.scVector Space.vmem Cert.Kernel.S1536 EltTy.f32).view.readAt (Elt F) (Rect.unit (s := S1536) ![1376] S16.size inb_S1536_S16_1376).toLoadRect acc)
        ((Memref.whole Cert.Kernel.cc0_scratch6 : Memref Cert.Kernel.sig Kind.scVector Space.vmem Cert.Kernel.S1536 EltTy.f32).view.readAt (Elt F) (Rect.unit (s := S1536) ![1472] S16.size inb_S1536_S16_1472).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

theorem invLane3 (acc : Vec F S1536 .f32) (x : S16.Idx) (q : Nat) (hx : 48 + (x 0).val = q) :
    (k0_pay44 (k0_pay43 (k0_pay31 (F := F))
          ((Memref.whole Cert.Kernel.cc0_scratch6 : Memref Cert.Kernel.sig Kind.scVector Space.vmem Cert.Kernel.S1536 EltTy.f32).view.readAt (Elt F) (Rect.unit (s := S1536) ![48] S16.size inb_S1536_S16_48).toLoadRect acc)
          ((Memref.whole Cert.Kernel.cc0_scratch6 : Memref Cert.Kernel.sig Kind.scVector Space.vmem Cert.Kernel.S1536 EltTy.f32).view.readAt (Elt F) (Rect.unit (s := S1536) ![144] S16.size inb_S1536_S16_144).toLoadRect acc)
          ((Memref.whole Cert.Kernel.cc0_scratch6 : Memref Cert.Kernel.sig Kind.scVector Space.vmem Cert.Kernel.S1536 EltTy.f32).view.readAt (Elt F) (Rect.unit (s := S1536) ![240] S16.size inb_S1536_S16_240).toLoadRect acc)
          ((Memref.whole Cert.Kernel.cc0_scratch6 : Memref Cert.Kernel.sig Kind.scVector Space.vmem Cert.Kernel.S1536 EltTy.f32).view.readAt (Elt F) (Rect.unit (s := S1536) ![336] S16.size inb_S1536_S16_336).toLoadRect acc)
          ((Memref.whole Cert.Kernel.cc0_scratch6 : Memref Cert.Kernel.sig Kind.scVector Space.vmem Cert.Kernel.S1536 EltTy.f32).view.readAt (Elt F) (Rect.unit (s := S1536) ![432] S16.size inb_S1536_S16_432).toLoadRect acc)
          ((Memref.whole Cert.Kernel.cc0_scratch6 : Memref Cert.Kernel.sig Kind.scVector Space.vmem Cert.Kernel.S1536 EltTy.f32).view.readAt (Elt F) (Rect.unit (s := S1536) ![528] S16.size inb_S1536_S16_528).toLoadRect acc)
          ((Memref.whole Cert.Kernel.cc0_scratch6 : Memref Cert.Kernel.sig Kind.scVector Space.vmem Cert.Kernel.S1536 EltTy.f32).view.readAt (Elt F) (Rect.unit (s := S1536) ![624] S16.size inb_S1536_S16_624).toLoadRect acc)
          ((Memref.whole Cert.Kernel.cc0_scratch6 : Memref Cert.Kernel.sig Kind.scVector Space.vmem Cert.Kernel.S1536 EltTy.f32).view.readAt (Elt F) (Rect.unit (s := S1536) ![720] S16.size inb_S1536_S16_720).toLoadRect acc)
          ((Memref.whole Cert.Kernel.cc0_scratch6 : Memref Cert.Kernel.sig Kind.scVector Space.vmem Cert.Kernel.S1536 EltTy.f32).view.readAt (Elt F) (Rect.unit (s := S1536) ![816] S16.size inb_S1536_S16_816).toLoadRect acc)
          ((Memref.whole Cert.Kernel.cc0_scratch6 : Memref Cert.Kernel.sig Kind.scVector Space.vmem Cert.Kernel.S1536 EltTy.f32).view.readAt (Elt F) (Rect.unit (s := S1536) ![912] S16.size inb_S1536_S16_912).toLoadRect acc)
          ((Memref.whole Cert.Kernel.cc0_scratch6 : Memref Cert.Kernel.sig Kind.scVector Space.vmem Cert.Kernel.S1536 EltTy.f32).view.readAt (Elt F) (Rect.unit (s := S1536) ![1008] S16.size inb_S1536_S16_1008).toLoadRect acc)
          ((Memref.whole Cert.Kernel.cc0_scratch6 : Memref Cert.Kernel.sig Kind.scVector Space.vmem Cert.Kernel.S1536 EltTy.f32).view.readAt (Elt F) (Rect.unit (s := S1536) ![1104] S16.size inb_S1536_S16_1104).toLoadRect acc))
        ((Memref.whole Cert.Kernel.cc0_scratch6 : Memref Cert.Kernel.sig Kind.scVector Space.vmem Cert.Kernel.S1536 EltTy.f32).view.readAt (Elt F) (Rect.unit (s := S1536) ![1200] S16.size inb_S1536_S16_1200).toLoadRect acc)
        ((Memref.whole Cert.Kernel.cc0_scratch6 : Memref Cert.Kernel.sig Kind.scVector Space.vmem Cert.Kernel.S1536 EltTy.f32).view.readAt (Elt F) (Rect.unit (s := S1536) ![1296] S16.size inb_S1536_S16_1296).toLoadRect acc)
        ((Memref.whole Cert.Kernel.cc0_scratch6 : Memref Cert.Kernel.sig Kind.scVector Space.vmem Cert.Kernel.S1536 EltTy.f32).view.readAt (Elt F) (Rect.unit (s := S1536) ![1392] S16.size inb_S1536_S16_1392).toLoadRect acc)
        ((Memref.whole Cert.Kernel.cc0_scratch6 : Memref Cert.Kernel.sig Kind.scVector Space.vmem Cert.Kernel.S1536 EltTy.f32).view.readAt (Elt F) (Rect.unit (s := S1536) ![1488] S16.size inb_S1536_S16_1488).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

theorem invLane4 (acc : Vec F S1536 .f32) (x : S16.Idx) (q : Nat) (hx : 64 + (x 0).val = q) :
    (k0_pay46 (k0_pay45 (k0_pay31 (F := F))
          ((Memref.whole Cert.Kernel.cc0_scratch6 : Memref Cert.Kernel.sig Kind.scVector Space.vmem Cert.Kernel.S1536 EltTy.f32).view.readAt (Elt F) (Rect.unit (s := S1536) ![64] S16.size inb_S1536_S16_64).toLoadRect acc)
          ((Memref.whole Cert.Kernel.cc0_scratch6 : Memref Cert.Kernel.sig Kind.scVector Space.vmem Cert.Kernel.S1536 EltTy.f32).view.readAt (Elt F) (Rect.unit (s := S1536) ![160] S16.size inb_S1536_S16_160).toLoadRect acc)
          ((Memref.whole Cert.Kernel.cc0_scratch6 : Memref Cert.Kernel.sig Kind.scVector Space.vmem Cert.Kernel.S1536 EltTy.f32).view.readAt (Elt F) (Rect.unit (s := S1536) ![256] S16.size inb_S1536_S16_256).toLoadRect acc)
          ((Memref.whole Cert.Kernel.cc0_scratch6 : Memref Cert.Kernel.sig Kind.scVector Space.vmem Cert.Kernel.S1536 EltTy.f32).view.readAt (Elt F) (Rect.unit (s := S1536) ![352] S16.size inb_S1536_S16_352).toLoadRect acc)
          ((Memref.whole Cert.Kernel.cc0_scratch6 : Memref Cert.Kernel.sig Kind.scVector Space.vmem Cert.Kernel.S1536 EltTy.f32).view.readAt (Elt F) (Rect.unit (s := S1536) ![448] S16.size inb_S1536_S16_448).toLoadRect acc)
          ((Memref.whole Cert.Kernel.cc0_scratch6 : Memref Cert.Kernel.sig Kind.scVector Space.vmem Cert.Kernel.S1536 EltTy.f32).view.readAt (Elt F) (Rect.unit (s := S1536) ![544] S16.size inb_S1536_S16_544).toLoadRect acc)
          ((Memref.whole Cert.Kernel.cc0_scratch6 : Memref Cert.Kernel.sig Kind.scVector Space.vmem Cert.Kernel.S1536 EltTy.f32).view.readAt (Elt F) (Rect.unit (s := S1536) ![640] S16.size inb_S1536_S16_640).toLoadRect acc)
          ((Memref.whole Cert.Kernel.cc0_scratch6 : Memref Cert.Kernel.sig Kind.scVector Space.vmem Cert.Kernel.S1536 EltTy.f32).view.readAt (Elt F) (Rect.unit (s := S1536) ![736] S16.size inb_S1536_S16_736).toLoadRect acc)
          ((Memref.whole Cert.Kernel.cc0_scratch6 : Memref Cert.Kernel.sig Kind.scVector Space.vmem Cert.Kernel.S1536 EltTy.f32).view.readAt (Elt F) (Rect.unit (s := S1536) ![832] S16.size inb_S1536_S16_832).toLoadRect acc)
          ((Memref.whole Cert.Kernel.cc0_scratch6 : Memref Cert.Kernel.sig Kind.scVector Space.vmem Cert.Kernel.S1536 EltTy.f32).view.readAt (Elt F) (Rect.unit (s := S1536) ![928] S16.size inb_S1536_S16_928).toLoadRect acc)
          ((Memref.whole Cert.Kernel.cc0_scratch6 : Memref Cert.Kernel.sig Kind.scVector Space.vmem Cert.Kernel.S1536 EltTy.f32).view.readAt (Elt F) (Rect.unit (s := S1536) ![1024] S16.size inb_S1536_S16_1024).toLoadRect acc)
          ((Memref.whole Cert.Kernel.cc0_scratch6 : Memref Cert.Kernel.sig Kind.scVector Space.vmem Cert.Kernel.S1536 EltTy.f32).view.readAt (Elt F) (Rect.unit (s := S1536) ![1120] S16.size inb_S1536_S16_1120).toLoadRect acc)
          ((Memref.whole Cert.Kernel.cc0_scratch6 : Memref Cert.Kernel.sig Kind.scVector Space.vmem Cert.Kernel.S1536 EltTy.f32).view.readAt (Elt F) (Rect.unit (s := S1536) ![1216] S16.size inb_S1536_S16_1216).toLoadRect acc))
        ((Memref.whole Cert.Kernel.cc0_scratch6 : Memref Cert.Kernel.sig Kind.scVector Space.vmem Cert.Kernel.S1536 EltTy.f32).view.readAt (Elt F) (Rect.unit (s := S1536) ![1312] S16.size inb_S1536_S16_1312).toLoadRect acc)
        ((Memref.whole Cert.Kernel.cc0_scratch6 : Memref Cert.Kernel.sig Kind.scVector Space.vmem Cert.Kernel.S1536 EltTy.f32).view.readAt (Elt F) (Rect.unit (s := S1536) ![1408] S16.size inb_S1536_S16_1408).toLoadRect acc)
        ((Memref.whole Cert.Kernel.cc0_scratch6 : Memref Cert.Kernel.sig Kind.scVector Space.vmem Cert.Kernel.S1536 EltTy.f32).view.readAt (Elt F) (Rect.unit (s := S1536) ![1504] S16.size inb_S1536_S16_1504).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

theorem invLane5 (acc : Vec F S1536 .f32) (x : S16.Idx) (q : Nat) (hx : 80 + (x 0).val = q) :
    (k0_pay1 (k0_pay47 (k0_pay31 (F := F))
          ((Memref.whole Cert.Kernel.cc0_scratch6 : Memref Cert.Kernel.sig Kind.scVector Space.vmem Cert.Kernel.S1536 EltTy.f32).view.readAt (Elt F) (Rect.unit (s := S1536) ![80] S16.size inb_S1536_S16_80).toLoadRect acc)
          ((Memref.whole Cert.Kernel.cc0_scratch6 : Memref Cert.Kernel.sig Kind.scVector Space.vmem Cert.Kernel.S1536 EltTy.f32).view.readAt (Elt F) (Rect.unit (s := S1536) ![176] S16.size inb_S1536_S16_176).toLoadRect acc)
          ((Memref.whole Cert.Kernel.cc0_scratch6 : Memref Cert.Kernel.sig Kind.scVector Space.vmem Cert.Kernel.S1536 EltTy.f32).view.readAt (Elt F) (Rect.unit (s := S1536) ![272] S16.size inb_S1536_S16_272).toLoadRect acc)
          ((Memref.whole Cert.Kernel.cc0_scratch6 : Memref Cert.Kernel.sig Kind.scVector Space.vmem Cert.Kernel.S1536 EltTy.f32).view.readAt (Elt F) (Rect.unit (s := S1536) ![368] S16.size inb_S1536_S16_368).toLoadRect acc)
          ((Memref.whole Cert.Kernel.cc0_scratch6 : Memref Cert.Kernel.sig Kind.scVector Space.vmem Cert.Kernel.S1536 EltTy.f32).view.readAt (Elt F) (Rect.unit (s := S1536) ![464] S16.size inb_S1536_S16_464).toLoadRect acc)
          ((Memref.whole Cert.Kernel.cc0_scratch6 : Memref Cert.Kernel.sig Kind.scVector Space.vmem Cert.Kernel.S1536 EltTy.f32).view.readAt (Elt F) (Rect.unit (s := S1536) ![560] S16.size inb_S1536_S16_560).toLoadRect acc)
          ((Memref.whole Cert.Kernel.cc0_scratch6 : Memref Cert.Kernel.sig Kind.scVector Space.vmem Cert.Kernel.S1536 EltTy.f32).view.readAt (Elt F) (Rect.unit (s := S1536) ![656] S16.size inb_S1536_S16_656).toLoadRect acc)
          ((Memref.whole Cert.Kernel.cc0_scratch6 : Memref Cert.Kernel.sig Kind.scVector Space.vmem Cert.Kernel.S1536 EltTy.f32).view.readAt (Elt F) (Rect.unit (s := S1536) ![752] S16.size inb_S1536_S16_752).toLoadRect acc)
          ((Memref.whole Cert.Kernel.cc0_scratch6 : Memref Cert.Kernel.sig Kind.scVector Space.vmem Cert.Kernel.S1536 EltTy.f32).view.readAt (Elt F) (Rect.unit (s := S1536) ![848] S16.size inb_S1536_S16_848).toLoadRect acc)
          ((Memref.whole Cert.Kernel.cc0_scratch6 : Memref Cert.Kernel.sig Kind.scVector Space.vmem Cert.Kernel.S1536 EltTy.f32).view.readAt (Elt F) (Rect.unit (s := S1536) ![944] S16.size inb_S1536_S16_944).toLoadRect acc)
          ((Memref.whole Cert.Kernel.cc0_scratch6 : Memref Cert.Kernel.sig Kind.scVector Space.vmem Cert.Kernel.S1536 EltTy.f32).view.readAt (Elt F) (Rect.unit (s := S1536) ![1040] S16.size inb_S1536_S16_1040).toLoadRect acc)
          ((Memref.whole Cert.Kernel.cc0_scratch6 : Memref Cert.Kernel.sig Kind.scVector Space.vmem Cert.Kernel.S1536 EltTy.f32).view.readAt (Elt F) (Rect.unit (s := S1536) ![1136] S16.size inb_S1536_S16_1136).toLoadRect acc)
          ((Memref.whole Cert.Kernel.cc0_scratch6 : Memref Cert.Kernel.sig Kind.scVector Space.vmem Cert.Kernel.S1536 EltTy.f32).view.readAt (Elt F) (Rect.unit (s := S1536) ![1232] S16.size inb_S1536_S16_1232).toLoadRect acc)
          ((Memref.whole Cert.Kernel.cc0_scratch6 : Memref Cert.Kernel.sig Kind.scVector Space.vmem Cert.Kernel.S1536 EltTy.f32).view.readAt (Elt F) (Rect.unit (s := S1536) ![1328] S16.size inb_S1536_S16_1328).toLoadRect acc))
        ((Memref.whole Cert.Kernel.cc0_scratch6 : Memref Cert.Kernel.sig Kind.scVector Space.vmem Cert.Kernel.S1536 EltTy.f32).view.readAt (Elt F) (Rect.unit (s := S1536) ![1424] S16.size inb_S1536_S16_1424).toLoadRect acc)
        ((Memref.whole Cert.Kernel.cc0_scratch6 : Memref Cert.Kernel.sig Kind.scVector Space.vmem Cert.Kernel.S1536 EltTy.f32).view.readAt (Elt F) (Rect.unit (s := S1536) ![1520] S16.size inb_S1536_S16_1520).toLoadRect acc)) x
      = FloatOps.divf (KModel.oneF (F := F)) (FloatOps.maximumf (KModel.laneSum fun r => accAt acc (r * 96 + q)) KModel.oneF) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, maximumf, divf, broadcast, load6s, Matrix.cons_val_zero]
  simp only [KModel.laneSum, List.range, List.range.loop, List.foldl, ← Nat.add_assoc, Nat.reduceMul, Nat.reduceAdd, Nat.zero_add]
  rfl

/-! ## The six payloads of the row's last 96 words, lane by lane -/

theorem outLane0 (inv : Vec F S96 .f32) (acc : Vec F S1536 .f32) (x : S16.Idx) (q : Nat) (hx : 0 + (x 0).val = q) :
    (k0_pay19 (k0_pay18 (k0_pay31 (F := F))
          ((Memref.whole Cert.Kernel.cc0_scratch6 : Memref Cert.Kernel.sig Kind.scVector Space.vmem Cert.Kernel.S1536 EltTy.f32).view.readAt (Elt F) (Rect.unit (s := S1536) ![0] S16.size inb_S1536_S16_0).toLoadRect acc)
          ((Memref.whole Cert.Kernel.cc0_scratch6 : Memref Cert.Kernel.sig Kind.scVector Space.vmem Cert.Kernel.S1536 EltTy.f32).view.readAt (Elt F) (Rect.unit (s := S1536) ![96] S16.size inb_S1536_S16_96).toLoadRect acc)
          ((Memref.whole Cert.Kernel.cc0_scratch6 : Memref Cert.Kernel.sig Kind.scVector Space.vmem Cert.Kernel.S1536 EltTy.f32).view.readAt (Elt F) (Rect.unit (s := S1536) ![192] S16.size inb_S1536_S16_192).toLoadRect acc)
          ((Memref.whole Cert.Kernel.cc0_scratch6 : Memref Cert.Kernel.sig Kind.scVector Space.vmem Cert.Kernel.S1536 EltTy.f32).view.readAt (Elt F) (Rect.unit (s := S1536) ![288] S16.size inb_S1536_S16_288).toLoadRect acc)
          ((Memref.whole Cert.Kernel.cc0_scratch6 : Memref Cert.Kernel.sig Kind.scVector Space.vmem Cert.Kernel.S1536 EltTy.f32).view.readAt (Elt F) (Rect.unit (s := S1536) ![384] S16.size inb_S1536_S16_384).toLoadRect acc)
          ((Memref.whole Cert.Kernel.cc0_scratch6 : Memref Cert.Kernel.sig Kind.scVector Space.vmem Cert.Kernel.S1536 EltTy.f32).view.readAt (Elt F) (Rect.unit (s := S1536) ![480] S16.size inb_S1536_S16_480).toLoadRect acc)
          ((Memref.whole Cert.Kernel.cc0_scratch6 : Memref Cert.Kernel.sig Kind.scVector Space.vmem Cert.Kernel.S1536 EltTy.f32).view.readAt (Elt F) (Rect.unit (s := S1536) ![576] S16.size inb_S1536_S16_576).toLoadRect acc))
        ((Memref.whole Cert.Kernel.cc0_scratch6 : Memref Cert.Kernel.sig Kind.scVector Space.vmem Cert.Kernel.S1536 EltTy.f32).view.readAt (Elt F) (Rect.unit (s := S1536) ![672] S16.size inb_S1536_S16_672).toLoadRect acc)
        ((Memref.whole Cert.Kernel.cc0_scratch6 : Memref Cert.Kernel.sig Kind.scVector Space.vmem Cert.Kernel.S1536 EltTy.f32).view.readAt (Elt F) (Rect.unit (s := S1536) ![768] S16.size inb_S1536_S16_768).toLoadRect acc)
        ((Memref.whole Cert.Kernel.cc0_scratch6 : Memref Cert.Kernel.sig Kind.scVector Space.vmem Cert.Kernel.S1536 EltTy.f32).view.readAt (Elt F) (Rect.unit (s := S1536) ![864] S16.size inb_S1536_S16_864).toLoadRect acc)
        ((Memref.whole Cert.Kernel.cc0_scratch6 : Memref Cert.Kernel.sig Kind.scVector Space.vmem Cert.Kernel.S1536 EltTy.f32).view.readAt (Elt F) (Rect.unit (s := S1536) ![960] S16.size inb_S1536_S16_960).toLoadRect acc)
        ((Memref.whole Cert.Kernel.cc0_scratch6 : Memref Cert.Kernel.sig Kind.scVector Space.vmem Cert.Kernel.S1536 EltTy.f32).view.readAt (Elt F) (Rect.unit (s := S1536) ![1056] S16.size inb_S1536_S16_1056).toLoadRect acc)
        ((Memref.whole Cert.Kernel.cc0_scratch6 : Memref Cert.Kernel.sig Kind.scVector Space.vmem Cert.Kernel.S1536 EltTy.f32).view.readAt (Elt F) (Rect.unit (s := S1536) ![1152] S16.size inb_S1536_S16_1152).toLoadRect acc)
        ((Memref.whole Cert.Kernel.cc0_scratch6 : Memref Cert.Kernel.sig Kind.scVector Space.vmem Cert.Kernel.S1536 EltTy.f32).view.readAt (Elt F) (Rect.unit (s := S1536) ![1248] S16.size inb_S1536_S16_1248).toLoadRect acc)
        ((Memref.whole Cert.Kernel.cc0_scratch6 : Memref Cert.Kernel.sig Kind.scVector Space.vmem Cert.Kernel.S1536 EltTy.f32).view.readAt (Elt F) (Rect.unit (s := S1536) ![1344] S16.size inb_S1536_S16_1344).toLoadRect acc)
        ((Memref.whole Cert.Kernel.cc0_scratch6 : Memref Cert.Kernel.sig Kind.scVector Space.vmem Cert.Kernel.S1536 EltTy.f32).view.readAt (Elt F) (Rect.unit (s := S1536) ![1440] S16.size inb_S1536_S16_1440).toLoadRect acc)
        ((Memref.whole Cert.Kernel.cc0_scratch5 : Memref Cert.Kernel.sig Kind.scVector Space.vmem Cert.Kernel.S96 EltTy.f32).view.readAt (Elt F) (Rect.unit (s := S96) ![0] S16.size inb_S96_S16_0).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

theorem outLane1 (inv : Vec F S96 .f32) (acc : Vec F S1536 .f32) (x : S16.Idx) (q : Nat) (hx : 16 + (x 0).val = q) :
    (k0_pay21 (k0_pay20 (k0_pay31 (F := F))
          ((Memref.whole Cert.Kernel.cc0_scratch6 : Memref Cert.Kernel.sig Kind.scVector Space.vmem Cert.Kernel.S1536 EltTy.f32).view.readAt (Elt F) (Rect.unit (s := S1536) ![16] S16.size inb_S1536_S16_16).toLoadRect acc)
          ((Memref.whole Cert.Kernel.cc0_scratch6 : Memref Cert.Kernel.sig Kind.scVector Space.vmem Cert.Kernel.S1536 EltTy.f32).view.readAt (Elt F) (Rect.unit (s := S1536) ![112] S16.size inb_S1536_S16_112).toLoadRect acc)
          ((Memref.whole Cert.Kernel.cc0_scratch6 : Memref Cert.Kernel.sig Kind.scVector Space.vmem Cert.Kernel.S1536 EltTy.f32).view.readAt (Elt F) (Rect.unit (s := S1536) ![208] S16.size inb_S1536_S16_208).toLoadRect acc)
          ((Memref.whole Cert.Kernel.cc0_scratch6 : Memref Cert.Kernel.sig Kind.scVector Space.vmem Cert.Kernel.S1536 EltTy.f32).view.readAt (Elt F) (Rect.unit (s := S1536) ![304] S16.size inb_S1536_S16_304).toLoadRect acc)
          ((Memref.whole Cert.Kernel.cc0_scratch6 : Memref Cert.Kernel.sig Kind.scVector Space.vmem Cert.Kernel.S1536 EltTy.f32).view.readAt (Elt F) (Rect.unit (s := S1536) ![400] S16.size inb_S1536_S16_400).toLoadRect acc)
          ((Memref.whole Cert.Kernel.cc0_scratch6 : Memref Cert.Kernel.sig Kind.scVector Space.vmem Cert.Kernel.S1536 EltTy.f32).view.readAt (Elt F) (Rect.unit (s := S1536) ![496] S16.size inb_S1536_S16_496).toLoadRect acc)
          ((Memref.whole Cert.Kernel.cc0_scratch6 : Memref Cert.Kernel.sig Kind.scVector Space.vmem Cert.Kernel.S1536 EltTy.f32).view.readAt (Elt F) (Rect.unit (s := S1536) ![592] S16.size inb_S1536_S16_592).toLoadRect acc)
          ((Memref.whole Cert.Kernel.cc0_scratch6 : Memref Cert.Kernel.sig Kind.scVector Space.vmem Cert.Kernel.S1536 EltTy.f32).view.readAt (Elt F) (Rect.unit (s := S1536) ![688] S16.size inb_S1536_S16_688).toLoadRect acc)
          ((Memref.whole Cert.Kernel.cc0_scratch6 : Memref Cert.Kernel.sig Kind.scVector Space.vmem Cert.Kernel.S1536 EltTy.f32).view.readAt (Elt F) (Rect.unit (s := S1536) ![784] S16.size inb_S1536_S16_784).toLoadRect acc))
        ((Memref.whole Cert.Kernel.cc0_scratch6 : Memref Cert.Kernel.sig Kind.scVector Space.vmem Cert.Kernel.S1536 EltTy.f32).view.readAt (Elt F) (Rect.unit (s := S1536) ![880] S16.size inb_S1536_S16_880).toLoadRect acc)
        ((Memref.whole Cert.Kernel.cc0_scratch6 : Memref Cert.Kernel.sig Kind.scVector Space.vmem Cert.Kernel.S1536 EltTy.f32).view.readAt (Elt F) (Rect.unit (s := S1536) ![976] S16.size inb_S1536_S16_976).toLoadRect acc)
        ((Memref.whole Cert.Kernel.cc0_scratch6 : Memref Cert.Kernel.sig Kind.scVector Space.vmem Cert.Kernel.S1536 EltTy.f32).view.readAt (Elt F) (Rect.unit (s := S1536) ![1072] S16.size inb_S1536_S16_1072).toLoadRect acc)
        ((Memref.whole Cert.Kernel.cc0_scratch6 : Memref Cert.Kernel.sig Kind.scVector Space.vmem Cert.Kernel.S1536 EltTy.f32).view.readAt (Elt F) (Rect.unit (s := S1536) ![1168] S16.size inb_S1536_S16_1168).toLoadRect acc)
        ((Memref.whole Cert.Kernel.cc0_scratch6 : Memref Cert.Kernel.sig Kind.scVector Space.vmem Cert.Kernel.S1536 EltTy.f32).view.readAt (Elt F) (Rect.unit (s := S1536) ![1264] S16.size inb_S1536_S16_1264).toLoadRect acc)
        ((Memref.whole Cert.Kernel.cc0_scratch6 : Memref Cert.Kernel.sig Kind.scVector Space.vmem Cert.Kernel.S1536 EltTy.f32).view.readAt (Elt F) (Rect.unit (s := S1536) ![1360] S16.size inb_S1536_S16_1360).toLoadRect acc)
        ((Memref.whole Cert.Kernel.cc0_scratch6 : Memref Cert.Kernel.sig Kind.scVector Space.vmem Cert.Kernel.S1536 EltTy.f32).view.readAt (Elt F) (Rect.unit (s := S1536) ![1456] S16.size inb_S1536_S16_1456).toLoadRect acc)
        ((Memref.whole Cert.Kernel.cc0_scratch5 : Memref Cert.Kernel.sig Kind.scVector Space.vmem Cert.Kernel.S96 EltTy.f32).view.readAt (Elt F) (Rect.unit (s := S96) ![16] S16.size inb_S96_S16_16).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

theorem outLane2 (inv : Vec F S96 .f32) (acc : Vec F S1536 .f32) (x : S16.Idx) (q : Nat) (hx : 32 + (x 0).val = q) :
    (k0_pay23 (k0_pay22 (k0_pay31 (F := F))
          ((Memref.whole Cert.Kernel.cc0_scratch6 : Memref Cert.Kernel.sig Kind.scVector Space.vmem Cert.Kernel.S1536 EltTy.f32).view.readAt (Elt F) (Rect.unit (s := S1536) ![32] S16.size inb_S1536_S16_32).toLoadRect acc)
          ((Memref.whole Cert.Kernel.cc0_scratch6 : Memref Cert.Kernel.sig Kind.scVector Space.vmem Cert.Kernel.S1536 EltTy.f32).view.readAt (Elt F) (Rect.unit (s := S1536) ![128] S16.size inb_S1536_S16_128).toLoadRect acc)
          ((Memref.whole Cert.Kernel.cc0_scratch6 : Memref Cert.Kernel.sig Kind.scVector Space.vmem Cert.Kernel.S1536 EltTy.f32).view.readAt (Elt F) (Rect.unit (s := S1536) ![224] S16.size inb_S1536_S16_224).toLoadRect acc)
          ((Memref.whole Cert.Kernel.cc0_scratch6 : Memref Cert.Kernel.sig Kind.scVector Space.vmem Cert.Kernel.S1536 EltTy.f32).view.readAt (Elt F) (Rect.unit (s := S1536) ![320] S16.size inb_S1536_S16_320).toLoadRect acc)
          ((Memref.whole Cert.Kernel.cc0_scratch6 : Memref Cert.Kernel.sig Kind.scVector Space.vmem Cert.Kernel.S1536 EltTy.f32).view.readAt (Elt F) (Rect.unit (s := S1536) ![416] S16.size inb_S1536_S16_416).toLoadRect acc)
          ((Memref.whole Cert.Kernel.cc0_scratch6 : Memref Cert.Kernel.sig Kind.scVector Space.vmem Cert.Kernel.S1536 EltTy.f32).view.readAt (Elt F) (Rect.unit (s := S1536) ![512] S16.size inb_S1536_S16_512).toLoadRect acc)
          ((Memref.whole Cert.Kernel.cc0_scratch6 : Memref Cert.Kernel.sig Kind.scVector Space.vmem Cert.Kernel.S1536 EltTy.f32).view.readAt (Elt F) (Rect.unit (s := S1536) ![608] S16.size inb_S1536_S16_608).toLoadRect acc)
          ((Memref.whole Cert.Kernel.cc0_scratch6 : Memref Cert.Kernel.sig Kind.scVector Space.vmem Cert.Kernel.S1536 EltTy.f32).view.readAt (Elt F) (Rect.unit (s := S1536) ![704] S16.size inb_S1536_S16_704).toLoadRect acc)
          ((Memref.whole Cert.Kernel.cc0_scratch6 : Memref Cert.Kernel.sig Kind.scVector Space.vmem Cert.Kernel.S1536 EltTy.f32).view.readAt (Elt F) (Rect.unit (s := S1536) ![800] S16.size inb_S1536_S16_800).toLoadRect acc)
          ((Memref.whole Cert.Kernel.cc0_scratch6 : Memref Cert.Kernel.sig Kind.scVector Space.vmem Cert.Kernel.S1536 EltTy.f32).view.readAt (Elt F) (Rect.unit (s := S1536) ![896] S16.size inb_S1536_S16_896).toLoadRect acc)
          ((Memref.whole Cert.Kernel.cc0_scratch6 : Memref Cert.Kernel.sig Kind.scVector Space.vmem Cert.Kernel.S1536 EltTy.f32).view.readAt (Elt F) (Rect.unit (s := S1536) ![992] S16.size inb_S1536_S16_992).toLoadRect acc))
        ((Memref.whole Cert.Kernel.cc0_scratch6 : Memref Cert.Kernel.sig Kind.scVector Space.vmem Cert.Kernel.S1536 EltTy.f32).view.readAt (Elt F) (Rect.unit (s := S1536) ![1088] S16.size inb_S1536_S16_1088).toLoadRect acc)
        ((Memref.whole Cert.Kernel.cc0_scratch6 : Memref Cert.Kernel.sig Kind.scVector Space.vmem Cert.Kernel.S1536 EltTy.f32).view.readAt (Elt F) (Rect.unit (s := S1536) ![1184] S16.size inb_S1536_S16_1184).toLoadRect acc)
        ((Memref.whole Cert.Kernel.cc0_scratch6 : Memref Cert.Kernel.sig Kind.scVector Space.vmem Cert.Kernel.S1536 EltTy.f32).view.readAt (Elt F) (Rect.unit (s := S1536) ![1280] S16.size inb_S1536_S16_1280).toLoadRect acc)
        ((Memref.whole Cert.Kernel.cc0_scratch6 : Memref Cert.Kernel.sig Kind.scVector Space.vmem Cert.Kernel.S1536 EltTy.f32).view.readAt (Elt F) (Rect.unit (s := S1536) ![1376] S16.size inb_S1536_S16_1376).toLoadRect acc)
        ((Memref.whole Cert.Kernel.cc0_scratch6 : Memref Cert.Kernel.sig Kind.scVector Space.vmem Cert.Kernel.S1536 EltTy.f32).view.readAt (Elt F) (Rect.unit (s := S1536) ![1472] S16.size inb_S1536_S16_1472).toLoadRect acc)
        ((Memref.whole Cert.Kernel.cc0_scratch5 : Memref Cert.Kernel.sig Kind.scVector Space.vmem Cert.Kernel.S96 EltTy.f32).view.readAt (Elt F) (Rect.unit (s := S96) ![32] S16.size inb_S96_S16_32).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

theorem outLane3 (inv : Vec F S96 .f32) (acc : Vec F S1536 .f32) (x : S16.Idx) (q : Nat) (hx : 48 + (x 0).val = q) :
    (k0_pay25 (k0_pay24 (k0_pay31 (F := F))
          ((Memref.whole Cert.Kernel.cc0_scratch6 : Memref Cert.Kernel.sig Kind.scVector Space.vmem Cert.Kernel.S1536 EltTy.f32).view.readAt (Elt F) (Rect.unit (s := S1536) ![48] S16.size inb_S1536_S16_48).toLoadRect acc)
          ((Memref.whole Cert.Kernel.cc0_scratch6 : Memref Cert.Kernel.sig Kind.scVector Space.vmem Cert.Kernel.S1536 EltTy.f32).view.readAt (Elt F) (Rect.unit (s := S1536) ![144] S16.size inb_S1536_S16_144).toLoadRect acc)
          ((Memref.whole Cert.Kernel.cc0_scratch6 : Memref Cert.Kernel.sig Kind.scVector Space.vmem Cert.Kernel.S1536 EltTy.f32).view.readAt (Elt F) (Rect.unit (s := S1536) ![240] S16.size inb_S1536_S16_240).toLoadRect acc)
          ((Memref.whole Cert.Kernel.cc0_scratch6 : Memref Cert.Kernel.sig Kind.scVector Space.vmem Cert.Kernel.S1536 EltTy.f32).view.readAt (Elt F) (Rect.unit (s := S1536) ![336] S16.size inb_S1536_S16_336).toLoadRect acc)
          ((Memref.whole Cert.Kernel.cc0_scratch6 : Memref Cert.Kernel.sig Kind.scVector Space.vmem Cert.Kernel.S1536 EltTy.f32).view.readAt (Elt F) (Rect.unit (s := S1536) ![432] S16.size inb_S1536_S16_432).toLoadRect acc)
          ((Memref.whole Cert.Kernel.cc0_scratch6 : Memref Cert.Kernel.sig Kind.scVector Space.vmem Cert.Kernel.S1536 EltTy.f32).view.readAt (Elt F) (Rect.unit (s := S1536) ![528] S16.size inb_S1536_S16_528).toLoadRect acc)
          ((Memref.whole Cert.Kernel.cc0_scratch6 : Memref Cert.Kernel.sig Kind.scVector Space.vmem Cert.Kernel.S1536 EltTy.f32).view.readAt (Elt F) (Rect.unit (s := S1536) ![624] S16.size inb_S1536_S16_624).toLoadRect acc)
          ((Memref.whole Cert.Kernel.cc0_scratch6 : Memref Cert.Kernel.sig Kind.scVector Space.vmem Cert.Kernel.S1536 EltTy.f32).view.readAt (Elt F) (Rect.unit (s := S1536) ![720] S16.size inb_S1536_S16_720).toLoadRect acc)
          ((Memref.whole Cert.Kernel.cc0_scratch6 : Memref Cert.Kernel.sig Kind.scVector Space.vmem Cert.Kernel.S1536 EltTy.f32).view.readAt (Elt F) (Rect.unit (s := S1536) ![816] S16.size inb_S1536_S16_816).toLoadRect acc)
          ((Memref.whole Cert.Kernel.cc0_scratch6 : Memref Cert.Kernel.sig Kind.scVector Space.vmem Cert.Kernel.S1536 EltTy.f32).view.readAt (Elt F) (Rect.unit (s := S1536) ![912] S16.size inb_S1536_S16_912).toLoadRect acc)
          ((Memref.whole Cert.Kernel.cc0_scratch6 : Memref Cert.Kernel.sig Kind.scVector Space.vmem Cert.Kernel.S1536 EltTy.f32).view.readAt (Elt F) (Rect.unit (s := S1536) ![1008] S16.size inb_S1536_S16_1008).toLoadRect acc)
          ((Memref.whole Cert.Kernel.cc0_scratch6 : Memref Cert.Kernel.sig Kind.scVector Space.vmem Cert.Kernel.S1536 EltTy.f32).view.readAt (Elt F) (Rect.unit (s := S1536) ![1104] S16.size inb_S1536_S16_1104).toLoadRect acc)
          ((Memref.whole Cert.Kernel.cc0_scratch6 : Memref Cert.Kernel.sig Kind.scVector Space.vmem Cert.Kernel.S1536 EltTy.f32).view.readAt (Elt F) (Rect.unit (s := S1536) ![1200] S16.size inb_S1536_S16_1200).toLoadRect acc))
        ((Memref.whole Cert.Kernel.cc0_scratch6 : Memref Cert.Kernel.sig Kind.scVector Space.vmem Cert.Kernel.S1536 EltTy.f32).view.readAt (Elt F) (Rect.unit (s := S1536) ![1296] S16.size inb_S1536_S16_1296).toLoadRect acc)
        ((Memref.whole Cert.Kernel.cc0_scratch6 : Memref Cert.Kernel.sig Kind.scVector Space.vmem Cert.Kernel.S1536 EltTy.f32).view.readAt (Elt F) (Rect.unit (s := S1536) ![1392] S16.size inb_S1536_S16_1392).toLoadRect acc)
        ((Memref.whole Cert.Kernel.cc0_scratch6 : Memref Cert.Kernel.sig Kind.scVector Space.vmem Cert.Kernel.S1536 EltTy.f32).view.readAt (Elt F) (Rect.unit (s := S1536) ![1488] S16.size inb_S1536_S16_1488).toLoadRect acc)
        ((Memref.whole Cert.Kernel.cc0_scratch5 : Memref Cert.Kernel.sig Kind.scVector Space.vmem Cert.Kernel.S96 EltTy.f32).view.readAt (Elt F) (Rect.unit (s := S96) ![48] S16.size inb_S96_S16_48).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

theorem outLane4 (inv : Vec F S96 .f32) (acc : Vec F S1536 .f32) (x : S16.Idx) (q : Nat) (hx : 64 + (x 0).val = q) :
    (k0_pay27 (k0_pay26 (k0_pay31 (F := F))
          ((Memref.whole Cert.Kernel.cc0_scratch6 : Memref Cert.Kernel.sig Kind.scVector Space.vmem Cert.Kernel.S1536 EltTy.f32).view.readAt (Elt F) (Rect.unit (s := S1536) ![64] S16.size inb_S1536_S16_64).toLoadRect acc)
          ((Memref.whole Cert.Kernel.cc0_scratch6 : Memref Cert.Kernel.sig Kind.scVector Space.vmem Cert.Kernel.S1536 EltTy.f32).view.readAt (Elt F) (Rect.unit (s := S1536) ![160] S16.size inb_S1536_S16_160).toLoadRect acc)
          ((Memref.whole Cert.Kernel.cc0_scratch6 : Memref Cert.Kernel.sig Kind.scVector Space.vmem Cert.Kernel.S1536 EltTy.f32).view.readAt (Elt F) (Rect.unit (s := S1536) ![256] S16.size inb_S1536_S16_256).toLoadRect acc)
          ((Memref.whole Cert.Kernel.cc0_scratch6 : Memref Cert.Kernel.sig Kind.scVector Space.vmem Cert.Kernel.S1536 EltTy.f32).view.readAt (Elt F) (Rect.unit (s := S1536) ![352] S16.size inb_S1536_S16_352).toLoadRect acc)
          ((Memref.whole Cert.Kernel.cc0_scratch6 : Memref Cert.Kernel.sig Kind.scVector Space.vmem Cert.Kernel.S1536 EltTy.f32).view.readAt (Elt F) (Rect.unit (s := S1536) ![448] S16.size inb_S1536_S16_448).toLoadRect acc)
          ((Memref.whole Cert.Kernel.cc0_scratch6 : Memref Cert.Kernel.sig Kind.scVector Space.vmem Cert.Kernel.S1536 EltTy.f32).view.readAt (Elt F) (Rect.unit (s := S1536) ![544] S16.size inb_S1536_S16_544).toLoadRect acc)
          ((Memref.whole Cert.Kernel.cc0_scratch6 : Memref Cert.Kernel.sig Kind.scVector Space.vmem Cert.Kernel.S1536 EltTy.f32).view.readAt (Elt F) (Rect.unit (s := S1536) ![640] S16.size inb_S1536_S16_640).toLoadRect acc)
          ((Memref.whole Cert.Kernel.cc0_scratch6 : Memref Cert.Kernel.sig Kind.scVector Space.vmem Cert.Kernel.S1536 EltTy.f32).view.readAt (Elt F) (Rect.unit (s := S1536) ![736] S16.size inb_S1536_S16_736).toLoadRect acc)
          ((Memref.whole Cert.Kernel.cc0_scratch6 : Memref Cert.Kernel.sig Kind.scVector Space.vmem Cert.Kernel.S1536 EltTy.f32).view.readAt (Elt F) (Rect.unit (s := S1536) ![832] S16.size inb_S1536_S16_832).toLoadRect acc)
          ((Memref.whole Cert.Kernel.cc0_scratch6 : Memref Cert.Kernel.sig Kind.scVector Space.vmem Cert.Kernel.S1536 EltTy.f32).view.readAt (Elt F) (Rect.unit (s := S1536) ![928] S16.size inb_S1536_S16_928).toLoadRect acc)
          ((Memref.whole Cert.Kernel.cc0_scratch6 : Memref Cert.Kernel.sig Kind.scVector Space.vmem Cert.Kernel.S1536 EltTy.f32).view.readAt (Elt F) (Rect.unit (s := S1536) ![1024] S16.size inb_S1536_S16_1024).toLoadRect acc)
          ((Memref.whole Cert.Kernel.cc0_scratch6 : Memref Cert.Kernel.sig Kind.scVector Space.vmem Cert.Kernel.S1536 EltTy.f32).view.readAt (Elt F) (Rect.unit (s := S1536) ![1120] S16.size inb_S1536_S16_1120).toLoadRect acc)
          ((Memref.whole Cert.Kernel.cc0_scratch6 : Memref Cert.Kernel.sig Kind.scVector Space.vmem Cert.Kernel.S1536 EltTy.f32).view.readAt (Elt F) (Rect.unit (s := S1536) ![1216] S16.size inb_S1536_S16_1216).toLoadRect acc)
          ((Memref.whole Cert.Kernel.cc0_scratch6 : Memref Cert.Kernel.sig Kind.scVector Space.vmem Cert.Kernel.S1536 EltTy.f32).view.readAt (Elt F) (Rect.unit (s := S1536) ![1312] S16.size inb_S1536_S16_1312).toLoadRect acc)
          ((Memref.whole Cert.Kernel.cc0_scratch6 : Memref Cert.Kernel.sig Kind.scVector Space.vmem Cert.Kernel.S1536 EltTy.f32).view.readAt (Elt F) (Rect.unit (s := S1536) ![1408] S16.size inb_S1536_S16_1408).toLoadRect acc))
        ((Memref.whole Cert.Kernel.cc0_scratch6 : Memref Cert.Kernel.sig Kind.scVector Space.vmem Cert.Kernel.S1536 EltTy.f32).view.readAt (Elt F) (Rect.unit (s := S1536) ![1504] S16.size inb_S1536_S16_1504).toLoadRect acc)
        ((Memref.whole Cert.Kernel.cc0_scratch5 : Memref Cert.Kernel.sig Kind.scVector Space.vmem Cert.Kernel.S96 EltTy.f32).view.readAt (Elt F) (Rect.unit (s := S96) ![64] S16.size inb_S96_S16_64).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

theorem outLane5 (inv : Vec F S96 .f32) (acc : Vec F S1536 .f32) (x : S16.Idx) (q : Nat) (hx : 80 + (x 0).val = q) :
    (k0_pay29 (k0_pay28 (k0_pay31 (F := F))
          ((Memref.whole Cert.Kernel.cc0_scratch6 : Memref Cert.Kernel.sig Kind.scVector Space.vmem Cert.Kernel.S1536 EltTy.f32).view.readAt (Elt F) (Rect.unit (s := S1536) ![80] S16.size inb_S1536_S16_80).toLoadRect acc)
          ((Memref.whole Cert.Kernel.cc0_scratch6 : Memref Cert.Kernel.sig Kind.scVector Space.vmem Cert.Kernel.S1536 EltTy.f32).view.readAt (Elt F) (Rect.unit (s := S1536) ![176] S16.size inb_S1536_S16_176).toLoadRect acc)
          ((Memref.whole Cert.Kernel.cc0_scratch6 : Memref Cert.Kernel.sig Kind.scVector Space.vmem Cert.Kernel.S1536 EltTy.f32).view.readAt (Elt F) (Rect.unit (s := S1536) ![272] S16.size inb_S1536_S16_272).toLoadRect acc)
          ((Memref.whole Cert.Kernel.cc0_scratch6 : Memref Cert.Kernel.sig Kind.scVector Space.vmem Cert.Kernel.S1536 EltTy.f32).view.readAt (Elt F) (Rect.unit (s := S1536) ![368] S16.size inb_S1536_S16_368).toLoadRect acc)
          ((Memref.whole Cert.Kernel.cc0_scratch6 : Memref Cert.Kernel.sig Kind.scVector Space.vmem Cert.Kernel.S1536 EltTy.f32).view.readAt (Elt F) (Rect.unit (s := S1536) ![464] S16.size inb_S1536_S16_464).toLoadRect acc)
          ((Memref.whole Cert.Kernel.cc0_scratch6 : Memref Cert.Kernel.sig Kind.scVector Space.vmem Cert.Kernel.S1536 EltTy.f32).view.readAt (Elt F) (Rect.unit (s := S1536) ![560] S16.size inb_S1536_S16_560).toLoadRect acc)
          ((Memref.whole Cert.Kernel.cc0_scratch6 : Memref Cert.Kernel.sig Kind.scVector Space.vmem Cert.Kernel.S1536 EltTy.f32).view.readAt (Elt F) (Rect.unit (s := S1536) ![656] S16.size inb_S1536_S16_656).toLoadRect acc)
          ((Memref.whole Cert.Kernel.cc0_scratch6 : Memref Cert.Kernel.sig Kind.scVector Space.vmem Cert.Kernel.S1536 EltTy.f32).view.readAt (Elt F) (Rect.unit (s := S1536) ![752] S16.size inb_S1536_S16_752).toLoadRect acc))
        ((Memref.whole Cert.Kernel.cc0_scratch6 : Memref Cert.Kernel.sig Kind.scVector Space.vmem Cert.Kernel.S1536 EltTy.f32).view.readAt (Elt F) (Rect.unit (s := S1536) ![848] S16.size inb_S1536_S16_848).toLoadRect acc)
        ((Memref.whole Cert.Kernel.cc0_scratch6 : Memref Cert.Kernel.sig Kind.scVector Space.vmem Cert.Kernel.S1536 EltTy.f32).view.readAt (Elt F) (Rect.unit (s := S1536) ![944] S16.size inb_S1536_S16_944).toLoadRect acc)
        ((Memref.whole Cert.Kernel.cc0_scratch6 : Memref Cert.Kernel.sig Kind.scVector Space.vmem Cert.Kernel.S1536 EltTy.f32).view.readAt (Elt F) (Rect.unit (s := S1536) ![1040] S16.size inb_S1536_S16_1040).toLoadRect acc)
        ((Memref.whole Cert.Kernel.cc0_scratch6 : Memref Cert.Kernel.sig Kind.scVector Space.vmem Cert.Kernel.S1536 EltTy.f32).view.readAt (Elt F) (Rect.unit (s := S1536) ![1136] S16.size inb_S1536_S16_1136).toLoadRect acc)
        ((Memref.whole Cert.Kernel.cc0_scratch6 : Memref Cert.Kernel.sig Kind.scVector Space.vmem Cert.Kernel.S1536 EltTy.f32).view.readAt (Elt F) (Rect.unit (s := S1536) ![1232] S16.size inb_S1536_S16_1232).toLoadRect acc)
        ((Memref.whole Cert.Kernel.cc0_scratch6 : Memref Cert.Kernel.sig Kind.scVector Space.vmem Cert.Kernel.S1536 EltTy.f32).view.readAt (Elt F) (Rect.unit (s := S1536) ![1328] S16.size inb_S1536_S16_1328).toLoadRect acc)
        ((Memref.whole Cert.Kernel.cc0_scratch6 : Memref Cert.Kernel.sig Kind.scVector Space.vmem Cert.Kernel.S1536 EltTy.f32).view.readAt (Elt F) (Rect.unit (s := S1536) ![1424] S16.size inb_S1536_S16_1424).toLoadRect acc)
        ((Memref.whole Cert.Kernel.cc0_scratch6 : Memref Cert.Kernel.sig Kind.scVector Space.vmem Cert.Kernel.S1536 EltTy.f32).view.readAt (Elt F) (Rect.unit (s := S1536) ![1520] S16.size inb_S1536_S16_1520).toLoadRect acc)
        ((Memref.whole Cert.Kernel.cc0_scratch5 : Memref Cert.Kernel.sig Kind.scVector Space.vmem Cert.Kernel.S96 EltTy.f32).view.readAt (Elt F) (Rect.unit (s := S96) ![80] S16.size inb_S96_S16_80).toLoadRect inv)) x
      = FloatOps.mulf (KModel.laneSum fun r => accAt acc (r * 96 + q)) (invAt inv q) := by
  subst hx
  simp only [k0_pay1, k0_pay18, k0_pay19, k0_pay20, k0_pay21, k0_pay22, k0_pay23, k0_pay24, k0_pay25, k0_pay26, k0_pay27, k0_pay28, k0_pay29, k0_pay31, k0_pay37, k0_pay38, k0_pay39, k0_pay40, k0_pay41, k0_pay42, k0_pay43, k0_pay44, k0_pay45, k0_pay46, k0_pay47, addf, mulf, broadcast, load6s, load5s, Matrix.cons_val_zero]
  simp only [KModel.laneSum, List.range, List.range.loop, List.foldl, ← Nat.add_assoc, Nat.reduceMul, Nat.reduceAdd, Nat.zero_add]
  rfl

/-! ## The piece lists -/

/-- What the kernel stores into the inverse-count scratch, the last store first. -/
def invPieces (acc : Vec F S1536 .f32) : List (View.Piece (Elt F) S96 .f32) :=
  [⟨Rect.unit (s := S96) ![80] S16.size inb_S96_S16_80,
      k0_pay1 (k0_pay47 (k0_pay31 (F := F))
          ((Memref.whole Cert.Kernel.cc0_scratch6 : Memref Cert.Kernel.sig Kind.scVector Space.vmem Cert.Kernel.S1536 EltTy.f32).view.readAt (Elt F) (Rect.unit (s := S1536) ![80] S16.size inb_S1536_S16_80).toLoadRect acc)
          ((Memref.whole Cert.Kernel.cc0_scratch6 : Memref Cert.Kernel.sig Kind.scVector Space.vmem Cert.Kernel.S1536 EltTy.f32).view.readAt (Elt F) (Rect.unit (s := S1536) ![176] S16.size inb_S1536_S16_176).toLoadRect acc)
          ((Memref.whole Cert.Kernel.cc0_scratch6 : Memref Cert.Kernel.sig Kind.scVector Space.vmem Cert.Kernel.S1536 EltTy.f32).view.readAt (Elt F) (Rect.unit (s := S1536) ![272] S16.size inb_S1536_S16_272).toLoadRect acc)
          ((Memref.whole Cert.Kernel.cc0_scratch6 : Memref Cert.Kernel.sig Kind.scVector Space.vmem Cert.Kernel.S1536 EltTy.f32).view.readAt (Elt F) (Rect.unit (s := S1536) ![368] S16.size inb_S1536_S16_368).toLoadRect acc)
          ((Memref.whole Cert.Kernel.cc0_scratch6 : Memref Cert.Kernel.sig Kind.scVector Space.vmem Cert.Kernel.S1536 EltTy.f32).view.readAt (Elt F) (Rect.unit (s := S1536) ![464] S16.size inb_S1536_S16_464).toLoadRect acc)
          ((Memref.whole Cert.Kernel.cc0_scratch6 : Memref Cert.Kernel.sig Kind.scVector Space.vmem Cert.Kernel.S1536 EltTy.f32).view.readAt (Elt F) (Rect.unit (s := S1536) ![560] S16.size inb_S1536_S16_560).toLoadRect acc)
          ((Memref.whole Cert.Kernel.cc0_scratch6 : Memref Cert.Kernel.sig Kind.scVector Space.vmem Cert.Kernel.S1536 EltTy.f32).view.readAt (Elt F) (Rect.unit (s := S1536) ![656] S16.size inb_S1536_S16_656).toLoadRect acc)
          ((Memref.whole Cert.Kernel.cc0_scratch6 : Memref Cert.Kernel.sig Kind.scVector Space.vmem Cert.Kernel.S1536 EltTy.f32).view.readAt (Elt F) (Rect.unit (s := S1536) ![752] S16.size inb_S1536_S16_752).toLoadRect acc)
          ((Memref.whole Cert.Kernel.cc0_scratch6 : Memref Cert.Kernel.sig Kind.scVector Space.vmem Cert.Kernel.S1536 EltTy.f32).view.readAt (Elt F) (Rect.unit (s := S1536) ![848] S16.size inb_S1536_S16_848).toLoadRect acc)
          ((Memref.whole Cert.Kernel.cc0_scratch6 : Memref Cert.Kernel.sig Kind.scVector Space.vmem Cert.Kernel.S1536 EltTy.f32).view.readAt (Elt F) (Rect.unit (s := S1536) ![944] S16.size inb_S1536_S16_944).toLoadRect acc)
          ((Memref.whole Cert.Kernel.cc0_scratch6 : Memref Cert.Kernel.sig Kind.scVector Space.vmem Cert.Kernel.S1536 EltTy.f32).view.readAt (Elt F) (Rect.unit (s := S1536) ![1040] S16.size inb_S1536_S16_1040).toLoadRect acc)
          ((Memref.whole Cert.Kernel.cc0_scratch6 : Memref Cert.Kernel.sig Kind.scVector Space.vmem Cert.Kernel.S1536 EltTy.f32).view.readAt (Elt F) (Rect.unit (s := S1536) ![1136] S16.size inb_S1536_S16_1136).toLoadRect acc)
          ((Memref.whole Cert.Kernel.cc0_scratch6 : Memref Cert.Kernel.sig Kind.scVector Space.vmem Cert.Kernel.S1536 EltTy.f32).view.readAt (Elt F) (Rect.unit (s := S1536) ![1232] S16.size inb_S1536_S16_1232).toLoadRect acc)
          ((Memref.whole Cert.Kernel.cc0_scratch6 : Memref Cert.Kernel.sig Kind.scVector Space.vmem Cert.Kernel.S1536 EltTy.f32).view.readAt (Elt F) (Rect.unit (s := S1536) ![1328] S16.size inb_S1536_S16_1328).toLoadRect acc))
        ((Memref.whole Cert.Kernel.cc0_scratch6 : Memref Cert.Kernel.sig Kind.scVector Space.vmem Cert.Kernel.S1536 EltTy.f32).view.readAt (Elt F) (Rect.unit (s := S1536) ![1424] S16.size inb_S1536_S16_1424).toLoadRect acc)
        ((Memref.whole Cert.Kernel.cc0_scratch6 : Memref Cert.Kernel.sig Kind.scVector Space.vmem Cert.Kernel.S1536 EltTy.f32).view.readAt (Elt F) (Rect.unit (s := S1536) ![1520] S16.size inb_S1536_S16_1520).toLoadRect acc)⟩,
    ⟨Rect.unit (s := S96) ![64] S16.size inb_S96_S16_64,
      k0_pay46 (k0_pay45 (k0_pay31 (F := F))
          ((Memref.whole Cert.Kernel.cc0_scratch6 : Memref Cert.Kernel.sig Kind.scVector Space.vmem Cert.Kernel.S1536 EltTy.f32).view.readAt (Elt F) (Rect.unit (s := S1536) ![64] S16.size inb_S1536_S16_64).toLoadRect acc)
          ((Memref.whole Cert.Kernel.cc0_scratch6 : Memref Cert.Kernel.sig Kind.scVector Space.vmem Cert.Kernel.S1536 EltTy.f32).view.readAt (Elt F) (Rect.unit (s := S1536) ![160] S16.size inb_S1536_S16_160).toLoadRect acc)
          ((Memref.whole Cert.Kernel.cc0_scratch6 : Memref Cert.Kernel.sig Kind.scVector Space.vmem Cert.Kernel.S1536 EltTy.f32).view.readAt (Elt F) (Rect.unit (s := S1536) ![256] S16.size inb_S1536_S16_256).toLoadRect acc)
          ((Memref.whole Cert.Kernel.cc0_scratch6 : Memref Cert.Kernel.sig Kind.scVector Space.vmem Cert.Kernel.S1536 EltTy.f32).view.readAt (Elt F) (Rect.unit (s := S1536) ![352] S16.size inb_S1536_S16_352).toLoadRect acc)
          ((Memref.whole Cert.Kernel.cc0_scratch6 : Memref Cert.Kernel.sig Kind.scVector Space.vmem Cert.Kernel.S1536 EltTy.f32).view.readAt (Elt F) (Rect.unit (s := S1536) ![448] S16.size inb_S1536_S16_448).toLoadRect acc)
          ((Memref.whole Cert.Kernel.cc0_scratch6 : Memref Cert.Kernel.sig Kind.scVector Space.vmem Cert.Kernel.S1536 EltTy.f32).view.readAt (Elt F) (Rect.unit (s := S1536) ![544] S16.size inb_S1536_S16_544).toLoadRect acc)
          ((Memref.whole Cert.Kernel.cc0_scratch6 : Memref Cert.Kernel.sig Kind.scVector Space.vmem Cert.Kernel.S1536 EltTy.f32).view.readAt (Elt F) (Rect.unit (s := S1536) ![640] S16.size inb_S1536_S16_640).toLoadRect acc)
          ((Memref.whole Cert.Kernel.cc0_scratch6 : Memref Cert.Kernel.sig Kind.scVector Space.vmem Cert.Kernel.S1536 EltTy.f32).view.readAt (Elt F) (Rect.unit (s := S1536) ![736] S16.size inb_S1536_S16_736).toLoadRect acc)
          ((Memref.whole Cert.Kernel.cc0_scratch6 : Memref Cert.Kernel.sig Kind.scVector Space.vmem Cert.Kernel.S1536 EltTy.f32).view.readAt (Elt F) (Rect.unit (s := S1536) ![832] S16.size inb_S1536_S16_832).toLoadRect acc)
          ((Memref.whole Cert.Kernel.cc0_scratch6 : Memref Cert.Kernel.sig Kind.scVector Space.vmem Cert.Kernel.S1536 EltTy.f32).view.readAt (Elt F) (Rect.unit (s := S1536) ![928] S16.size inb_S1536_S16_928).toLoadRect acc)
          ((Memref.whole Cert.Kernel.cc0_scratch6 : Memref Cert.Kernel.sig Kind.scVector Space.vmem Cert.Kernel.S1536 EltTy.f32).view.readAt (Elt F) (Rect.unit (s := S1536) ![1024] S16.size inb_S1536_S16_1024).toLoadRect acc)
          ((Memref.whole Cert.Kernel.cc0_scratch6 : Memref Cert.Kernel.sig Kind.scVector Space.vmem Cert.Kernel.S1536 EltTy.f32).view.readAt (Elt F) (Rect.unit (s := S1536) ![1120] S16.size inb_S1536_S16_1120).toLoadRect acc)
          ((Memref.whole Cert.Kernel.cc0_scratch6 : Memref Cert.Kernel.sig Kind.scVector Space.vmem Cert.Kernel.S1536 EltTy.f32).view.readAt (Elt F) (Rect.unit (s := S1536) ![1216] S16.size inb_S1536_S16_1216).toLoadRect acc))
        ((Memref.whole Cert.Kernel.cc0_scratch6 : Memref Cert.Kernel.sig Kind.scVector Space.vmem Cert.Kernel.S1536 EltTy.f32).view.readAt (Elt F) (Rect.unit (s := S1536) ![1312] S16.size inb_S1536_S16_1312).toLoadRect acc)
        ((Memref.whole Cert.Kernel.cc0_scratch6 : Memref Cert.Kernel.sig Kind.scVector Space.vmem Cert.Kernel.S1536 EltTy.f32).view.readAt (Elt F) (Rect.unit (s := S1536) ![1408] S16.size inb_S1536_S16_1408).toLoadRect acc)
        ((Memref.whole Cert.Kernel.cc0_scratch6 : Memref Cert.Kernel.sig Kind.scVector Space.vmem Cert.Kernel.S1536 EltTy.f32).view.readAt (Elt F) (Rect.unit (s := S1536) ![1504] S16.size inb_S1536_S16_1504).toLoadRect acc)⟩,
    ⟨Rect.unit (s := S96) ![48] S16.size inb_S96_S16_48,
      k0_pay44 (k0_pay43 (k0_pay31 (F := F))
          ((Memref.whole Cert.Kernel.cc0_scratch6 : Memref Cert.Kernel.sig Kind.scVector Space.vmem Cert.Kernel.S1536 EltTy.f32).view.readAt (Elt F) (Rect.unit (s := S1536) ![48] S16.size inb_S1536_S16_48).toLoadRect acc)
          ((Memref.whole Cert.Kernel.cc0_scratch6 : Memref Cert.Kernel.sig Kind.scVector Space.vmem Cert.Kernel.S1536 EltTy.f32).view.readAt (Elt F) (Rect.unit (s := S1536) ![144] S16.size inb_S1536_S16_144).toLoadRect acc)
          ((Memref.whole Cert.Kernel.cc0_scratch6 : Memref Cert.Kernel.sig Kind.scVector Space.vmem Cert.Kernel.S1536 EltTy.f32).view.readAt (Elt F) (Rect.unit (s := S1536) ![240] S16.size inb_S1536_S16_240).toLoadRect acc)
          ((Memref.whole Cert.Kernel.cc0_scratch6 : Memref Cert.Kernel.sig Kind.scVector Space.vmem Cert.Kernel.S1536 EltTy.f32).view.readAt (Elt F) (Rect.unit (s := S1536) ![336] S16.size inb_S1536_S16_336).toLoadRect acc)
          ((Memref.whole Cert.Kernel.cc0_scratch6 : Memref Cert.Kernel.sig Kind.scVector Space.vmem Cert.Kernel.S1536 EltTy.f32).view.readAt (Elt F) (Rect.unit (s := S1536) ![432] S16.size inb_S1536_S16_432).toLoadRect acc)
          ((Memref.whole Cert.Kernel.cc0_scratch6 : Memref Cert.Kernel.sig Kind.scVector Space.vmem Cert.Kernel.S1536 EltTy.f32).view.readAt (Elt F) (Rect.unit (s := S1536) ![528] S16.size inb_S1536_S16_528).toLoadRect acc)
          ((Memref.whole Cert.Kernel.cc0_scratch6 : Memref Cert.Kernel.sig Kind.scVector Space.vmem Cert.Kernel.S1536 EltTy.f32).view.readAt (Elt F) (Rect.unit (s := S1536) ![624] S16.size inb_S1536_S16_624).toLoadRect acc)
          ((Memref.whole Cert.Kernel.cc0_scratch6 : Memref Cert.Kernel.sig Kind.scVector Space.vmem Cert.Kernel.S1536 EltTy.f32).view.readAt (Elt F) (Rect.unit (s := S1536) ![720] S16.size inb_S1536_S16_720).toLoadRect acc)
          ((Memref.whole Cert.Kernel.cc0_scratch6 : Memref Cert.Kernel.sig Kind.scVector Space.vmem Cert.Kernel.S1536 EltTy.f32).view.readAt (Elt F) (Rect.unit (s := S1536) ![816] S16.size inb_S1536_S16_816).toLoadRect acc)
          ((Memref.whole Cert.Kernel.cc0_scratch6 : Memref Cert.Kernel.sig Kind.scVector Space.vmem Cert.Kernel.S1536 EltTy.f32).view.readAt (Elt F) (Rect.unit (s := S1536) ![912] S16.size inb_S1536_S16_912).toLoadRect acc)
          ((Memref.whole Cert.Kernel.cc0_scratch6 : Memref Cert.Kernel.sig Kind.scVector Space.vmem Cert.Kernel.S1536 EltTy.f32).view.readAt (Elt F) (Rect.unit (s := S1536) ![1008] S16.size inb_S1536_S16_1008).toLoadRect acc)
          ((Memref.whole Cert.Kernel.cc0_scratch6 : Memref Cert.Kernel.sig Kind.scVector Space.vmem Cert.Kernel.S1536 EltTy.f32).view.readAt (Elt F) (Rect.unit (s := S1536) ![1104] S16.size inb_S1536_S16_1104).toLoadRect acc))
        ((Memref.whole Cert.Kernel.cc0_scratch6 : Memref Cert.Kernel.sig Kind.scVector Space.vmem Cert.Kernel.S1536 EltTy.f32).view.readAt (Elt F) (Rect.unit (s := S1536) ![1200] S16.size inb_S1536_S16_1200).toLoadRect acc)
        ((Memref.whole Cert.Kernel.cc0_scratch6 : Memref Cert.Kernel.sig Kind.scVector Space.vmem Cert.Kernel.S1536 EltTy.f32).view.readAt (Elt F) (Rect.unit (s := S1536) ![1296] S16.size inb_S1536_S16_1296).toLoadRect acc)
        ((Memref.whole Cert.Kernel.cc0_scratch6 : Memref Cert.Kernel.sig Kind.scVector Space.vmem Cert.Kernel.S1536 EltTy.f32).view.readAt (Elt F) (Rect.unit (s := S1536) ![1392] S16.size inb_S1536_S16_1392).toLoadRect acc)
        ((Memref.whole Cert.Kernel.cc0_scratch6 : Memref Cert.Kernel.sig Kind.scVector Space.vmem Cert.Kernel.S1536 EltTy.f32).view.readAt (Elt F) (Rect.unit (s := S1536) ![1488] S16.size inb_S1536_S16_1488).toLoadRect acc)⟩,
    ⟨Rect.unit (s := S96) ![32] S16.size inb_S96_S16_32,
      k0_pay42 (k0_pay41 (k0_pay31 (F := F))
          ((Memref.whole Cert.Kernel.cc0_scratch6 : Memref Cert.Kernel.sig Kind.scVector Space.vmem Cert.Kernel.S1536 EltTy.f32).view.readAt (Elt F) (Rect.unit (s := S1536) ![32] S16.size inb_S1536_S16_32).toLoadRect acc)
          ((Memref.whole Cert.Kernel.cc0_scratch6 : Memref Cert.Kernel.sig Kind.scVector Space.vmem Cert.Kernel.S1536 EltTy.f32).view.readAt (Elt F) (Rect.unit (s := S1536) ![128] S16.size inb_S1536_S16_128).toLoadRect acc)
          ((Memref.whole Cert.Kernel.cc0_scratch6 : Memref Cert.Kernel.sig Kind.scVector Space.vmem Cert.Kernel.S1536 EltTy.f32).view.readAt (Elt F) (Rect.unit (s := S1536) ![224] S16.size inb_S1536_S16_224).toLoadRect acc)
          ((Memref.whole Cert.Kernel.cc0_scratch6 : Memref Cert.Kernel.sig Kind.scVector Space.vmem Cert.Kernel.S1536 EltTy.f32).view.readAt (Elt F) (Rect.unit (s := S1536) ![320] S16.size inb_S1536_S16_320).toLoadRect acc)
          ((Memref.whole Cert.Kernel.cc0_scratch6 : Memref Cert.Kernel.sig Kind.scVector Space.vmem Cert.Kernel.S1536 EltTy.f32).view.readAt (Elt F) (Rect.unit (s := S1536) ![416] S16.size inb_S1536_S16_416).toLoadRect acc)
          ((Memref.whole Cert.Kernel.cc0_scratch6 : Memref Cert.Kernel.sig Kind.scVector Space.vmem Cert.Kernel.S1536 EltTy.f32).view.readAt (Elt F) (Rect.unit (s := S1536) ![512] S16.size inb_S1536_S16_512).toLoadRect acc)
          ((Memref.whole Cert.Kernel.cc0_scratch6 : Memref Cert.Kernel.sig Kind.scVector Space.vmem Cert.Kernel.S1536 EltTy.f32).view.readAt (Elt F) (Rect.unit (s := S1536) ![608] S16.size inb_S1536_S16_608).toLoadRect acc)
          ((Memref.whole Cert.Kernel.cc0_scratch6 : Memref Cert.Kernel.sig Kind.scVector Space.vmem Cert.Kernel.S1536 EltTy.f32).view.readAt (Elt F) (Rect.unit (s := S1536) ![704] S16.size inb_S1536_S16_704).toLoadRect acc)
          ((Memref.whole Cert.Kernel.cc0_scratch6 : Memref Cert.Kernel.sig Kind.scVector Space.vmem Cert.Kernel.S1536 EltTy.f32).view.readAt (Elt F) (Rect.unit (s := S1536) ![800] S16.size inb_S1536_S16_800).toLoadRect acc)
          ((Memref.whole Cert.Kernel.cc0_scratch6 : Memref Cert.Kernel.sig Kind.scVector Space.vmem Cert.Kernel.S1536 EltTy.f32).view.readAt (Elt F) (Rect.unit (s := S1536) ![896] S16.size inb_S1536_S16_896).toLoadRect acc)
          ((Memref.whole Cert.Kernel.cc0_scratch6 : Memref Cert.Kernel.sig Kind.scVector Space.vmem Cert.Kernel.S1536 EltTy.f32).view.readAt (Elt F) (Rect.unit (s := S1536) ![992] S16.size inb_S1536_S16_992).toLoadRect acc))
        ((Memref.whole Cert.Kernel.cc0_scratch6 : Memref Cert.Kernel.sig Kind.scVector Space.vmem Cert.Kernel.S1536 EltTy.f32).view.readAt (Elt F) (Rect.unit (s := S1536) ![1088] S16.size inb_S1536_S16_1088).toLoadRect acc)
        ((Memref.whole Cert.Kernel.cc0_scratch6 : Memref Cert.Kernel.sig Kind.scVector Space.vmem Cert.Kernel.S1536 EltTy.f32).view.readAt (Elt F) (Rect.unit (s := S1536) ![1184] S16.size inb_S1536_S16_1184).toLoadRect acc)
        ((Memref.whole Cert.Kernel.cc0_scratch6 : Memref Cert.Kernel.sig Kind.scVector Space.vmem Cert.Kernel.S1536 EltTy.f32).view.readAt (Elt F) (Rect.unit (s := S1536) ![1280] S16.size inb_S1536_S16_1280).toLoadRect acc)
        ((Memref.whole Cert.Kernel.cc0_scratch6 : Memref Cert.Kernel.sig Kind.scVector Space.vmem Cert.Kernel.S1536 EltTy.f32).view.readAt (Elt F) (Rect.unit (s := S1536) ![1376] S16.size inb_S1536_S16_1376).toLoadRect acc)
        ((Memref.whole Cert.Kernel.cc0_scratch6 : Memref Cert.Kernel.sig Kind.scVector Space.vmem Cert.Kernel.S1536 EltTy.f32).view.readAt (Elt F) (Rect.unit (s := S1536) ![1472] S16.size inb_S1536_S16_1472).toLoadRect acc)⟩,
    ⟨Rect.unit (s := S96) ![16] S16.size inb_S96_S16_16,
      k0_pay40 (k0_pay39 (k0_pay31 (F := F))
          ((Memref.whole Cert.Kernel.cc0_scratch6 : Memref Cert.Kernel.sig Kind.scVector Space.vmem Cert.Kernel.S1536 EltTy.f32).view.readAt (Elt F) (Rect.unit (s := S1536) ![16] S16.size inb_S1536_S16_16).toLoadRect acc)
          ((Memref.whole Cert.Kernel.cc0_scratch6 : Memref Cert.Kernel.sig Kind.scVector Space.vmem Cert.Kernel.S1536 EltTy.f32).view.readAt (Elt F) (Rect.unit (s := S1536) ![112] S16.size inb_S1536_S16_112).toLoadRect acc)
          ((Memref.whole Cert.Kernel.cc0_scratch6 : Memref Cert.Kernel.sig Kind.scVector Space.vmem Cert.Kernel.S1536 EltTy.f32).view.readAt (Elt F) (Rect.unit (s := S1536) ![208] S16.size inb_S1536_S16_208).toLoadRect acc)
          ((Memref.whole Cert.Kernel.cc0_scratch6 : Memref Cert.Kernel.sig Kind.scVector Space.vmem Cert.Kernel.S1536 EltTy.f32).view.readAt (Elt F) (Rect.unit (s := S1536) ![304] S16.size inb_S1536_S16_304).toLoadRect acc)
          ((Memref.whole Cert.Kernel.cc0_scratch6 : Memref Cert.Kernel.sig Kind.scVector Space.vmem Cert.Kernel.S1536 EltTy.f32).view.readAt (Elt F) (Rect.unit (s := S1536) ![400] S16.size inb_S1536_S16_400).toLoadRect acc)
          ((Memref.whole Cert.Kernel.cc0_scratch6 : Memref Cert.Kernel.sig Kind.scVector Space.vmem Cert.Kernel.S1536 EltTy.f32).view.readAt (Elt F) (Rect.unit (s := S1536) ![496] S16.size inb_S1536_S16_496).toLoadRect acc)
          ((Memref.whole Cert.Kernel.cc0_scratch6 : Memref Cert.Kernel.sig Kind.scVector Space.vmem Cert.Kernel.S1536 EltTy.f32).view.readAt (Elt F) (Rect.unit (s := S1536) ![592] S16.size inb_S1536_S16_592).toLoadRect acc)
          ((Memref.whole Cert.Kernel.cc0_scratch6 : Memref Cert.Kernel.sig Kind.scVector Space.vmem Cert.Kernel.S1536 EltTy.f32).view.readAt (Elt F) (Rect.unit (s := S1536) ![688] S16.size inb_S1536_S16_688).toLoadRect acc)
          ((Memref.whole Cert.Kernel.cc0_scratch6 : Memref Cert.Kernel.sig Kind.scVector Space.vmem Cert.Kernel.S1536 EltTy.f32).view.readAt (Elt F) (Rect.unit (s := S1536) ![784] S16.size inb_S1536_S16_784).toLoadRect acc)
          ((Memref.whole Cert.Kernel.cc0_scratch6 : Memref Cert.Kernel.sig Kind.scVector Space.vmem Cert.Kernel.S1536 EltTy.f32).view.readAt (Elt F) (Rect.unit (s := S1536) ![880] S16.size inb_S1536_S16_880).toLoadRect acc))
        ((Memref.whole Cert.Kernel.cc0_scratch6 : Memref Cert.Kernel.sig Kind.scVector Space.vmem Cert.Kernel.S1536 EltTy.f32).view.readAt (Elt F) (Rect.unit (s := S1536) ![976] S16.size inb_S1536_S16_976).toLoadRect acc)
        ((Memref.whole Cert.Kernel.cc0_scratch6 : Memref Cert.Kernel.sig Kind.scVector Space.vmem Cert.Kernel.S1536 EltTy.f32).view.readAt (Elt F) (Rect.unit (s := S1536) ![1072] S16.size inb_S1536_S16_1072).toLoadRect acc)
        ((Memref.whole Cert.Kernel.cc0_scratch6 : Memref Cert.Kernel.sig Kind.scVector Space.vmem Cert.Kernel.S1536 EltTy.f32).view.readAt (Elt F) (Rect.unit (s := S1536) ![1168] S16.size inb_S1536_S16_1168).toLoadRect acc)
        ((Memref.whole Cert.Kernel.cc0_scratch6 : Memref Cert.Kernel.sig Kind.scVector Space.vmem Cert.Kernel.S1536 EltTy.f32).view.readAt (Elt F) (Rect.unit (s := S1536) ![1264] S16.size inb_S1536_S16_1264).toLoadRect acc)
        ((Memref.whole Cert.Kernel.cc0_scratch6 : Memref Cert.Kernel.sig Kind.scVector Space.vmem Cert.Kernel.S1536 EltTy.f32).view.readAt (Elt F) (Rect.unit (s := S1536) ![1360] S16.size inb_S1536_S16_1360).toLoadRect acc)
        ((Memref.whole Cert.Kernel.cc0_scratch6 : Memref Cert.Kernel.sig Kind.scVector Space.vmem Cert.Kernel.S1536 EltTy.f32).view.readAt (Elt F) (Rect.unit (s := S1536) ![1456] S16.size inb_S1536_S16_1456).toLoadRect acc)⟩,
    ⟨Rect.unit (s := S96) ![0] S16.size inb_S96_S16_0,
      k0_pay38 (k0_pay37
          ((Memref.whole Cert.Kernel.cc0_scratch6 : Memref Cert.Kernel.sig Kind.scVector Space.vmem Cert.Kernel.S1536 EltTy.f32).view.readAt (Elt F) (Rect.unit (s := S1536) ![0] S16.size inb_S1536_S16_0).toLoadRect acc)
          ((Memref.whole Cert.Kernel.cc0_scratch6 : Memref Cert.Kernel.sig Kind.scVector Space.vmem Cert.Kernel.S1536 EltTy.f32).view.readAt (Elt F) (Rect.unit (s := S1536) ![96] S16.size inb_S1536_S16_96).toLoadRect acc)
          ((Memref.whole Cert.Kernel.cc0_scratch6 : Memref Cert.Kernel.sig Kind.scVector Space.vmem Cert.Kernel.S1536 EltTy.f32).view.readAt (Elt F) (Rect.unit (s := S1536) ![192] S16.size inb_S1536_S16_192).toLoadRect acc)
          ((Memref.whole Cert.Kernel.cc0_scratch6 : Memref Cert.Kernel.sig Kind.scVector Space.vmem Cert.Kernel.S1536 EltTy.f32).view.readAt (Elt F) (Rect.unit (s := S1536) ![288] S16.size inb_S1536_S16_288).toLoadRect acc)
          ((Memref.whole Cert.Kernel.cc0_scratch6 : Memref Cert.Kernel.sig Kind.scVector Space.vmem Cert.Kernel.S1536 EltTy.f32).view.readAt (Elt F) (Rect.unit (s := S1536) ![384] S16.size inb_S1536_S16_384).toLoadRect acc)
          ((Memref.whole Cert.Kernel.cc0_scratch6 : Memref Cert.Kernel.sig Kind.scVector Space.vmem Cert.Kernel.S1536 EltTy.f32).view.readAt (Elt F) (Rect.unit (s := S1536) ![480] S16.size inb_S1536_S16_480).toLoadRect acc)
          ((Memref.whole Cert.Kernel.cc0_scratch6 : Memref Cert.Kernel.sig Kind.scVector Space.vmem Cert.Kernel.S1536 EltTy.f32).view.readAt (Elt F) (Rect.unit (s := S1536) ![576] S16.size inb_S1536_S16_576).toLoadRect acc)
          ((Memref.whole Cert.Kernel.cc0_scratch6 : Memref Cert.Kernel.sig Kind.scVector Space.vmem Cert.Kernel.S1536 EltTy.f32).view.readAt (Elt F) (Rect.unit (s := S1536) ![672] S16.size inb_S1536_S16_672).toLoadRect acc)
          ((Memref.whole Cert.Kernel.cc0_scratch6 : Memref Cert.Kernel.sig Kind.scVector Space.vmem Cert.Kernel.S1536 EltTy.f32).view.readAt (Elt F) (Rect.unit (s := S1536) ![768] S16.size inb_S1536_S16_768).toLoadRect acc))
        ((Memref.whole Cert.Kernel.cc0_scratch6 : Memref Cert.Kernel.sig Kind.scVector Space.vmem Cert.Kernel.S1536 EltTy.f32).view.readAt (Elt F) (Rect.unit (s := S1536) ![864] S16.size inb_S1536_S16_864).toLoadRect acc)
        ((Memref.whole Cert.Kernel.cc0_scratch6 : Memref Cert.Kernel.sig Kind.scVector Space.vmem Cert.Kernel.S1536 EltTy.f32).view.readAt (Elt F) (Rect.unit (s := S1536) ![960] S16.size inb_S1536_S16_960).toLoadRect acc)
        ((Memref.whole Cert.Kernel.cc0_scratch6 : Memref Cert.Kernel.sig Kind.scVector Space.vmem Cert.Kernel.S1536 EltTy.f32).view.readAt (Elt F) (Rect.unit (s := S1536) ![1056] S16.size inb_S1536_S16_1056).toLoadRect acc)
        ((Memref.whole Cert.Kernel.cc0_scratch6 : Memref Cert.Kernel.sig Kind.scVector Space.vmem Cert.Kernel.S1536 EltTy.f32).view.readAt (Elt F) (Rect.unit (s := S1536) ![1152] S16.size inb_S1536_S16_1152).toLoadRect acc)
        ((Memref.whole Cert.Kernel.cc0_scratch6 : Memref Cert.Kernel.sig Kind.scVector Space.vmem Cert.Kernel.S1536 EltTy.f32).view.readAt (Elt F) (Rect.unit (s := S1536) ![1248] S16.size inb_S1536_S16_1248).toLoadRect acc)
        ((Memref.whole Cert.Kernel.cc0_scratch6 : Memref Cert.Kernel.sig Kind.scVector Space.vmem Cert.Kernel.S1536 EltTy.f32).view.readAt (Elt F) (Rect.unit (s := S1536) ![1344] S16.size inb_S1536_S16_1344).toLoadRect acc)
        ((Memref.whole Cert.Kernel.cc0_scratch6 : Memref Cert.Kernel.sig Kind.scVector Space.vmem Cert.Kernel.S1536 EltTy.f32).view.readAt (Elt F) (Rect.unit (s := S1536) ![1440] S16.size inb_S1536_S16_1440).toLoadRect acc)⟩]

/-- What the kernel stores into the last 96 words of the row scratch, the last store first. -/
def outPieces (inv : Vec F S96 .f32) (acc : Vec F S1536 .f32) : List (View.Piece (Elt F) S24672 .f32) :=
  [⟨Rect.unit (s := S24672) ![24656] S16.size inb_S24672_S16_24656,
      k0_pay29 (k0_pay28 (k0_pay31 (F := F))
          ((Memref.whole Cert.Kernel.cc0_scratch6 : Memref Cert.Kernel.sig Kind.scVector Space.vmem Cert.Kernel.S1536 EltTy.f32).view.readAt (Elt F) (Rect.unit (s := S1536) ![80] S16.size inb_S1536_S16_80).toLoadRect acc)
          ((Memref.whole Cert.Kernel.cc0_scratch6 : Memref Cert.Kernel.sig Kind.scVector Space.vmem Cert.Kernel.S1536 EltTy.f32).view.readAt (Elt F) (Rect.unit (s := S1536) ![176] S16.size inb_S1536_S16_176).toLoadRect acc)
          ((Memref.whole Cert.Kernel.cc0_scratch6 : Memref Cert.Kernel.sig Kind.scVector Space.vmem Cert.Kernel.S1536 EltTy.f32).view.readAt (Elt F) (Rect.unit (s := S1536) ![272] S16.size inb_S1536_S16_272).toLoadRect acc)
          ((Memref.whole Cert.Kernel.cc0_scratch6 : Memref Cert.Kernel.sig Kind.scVector Space.vmem Cert.Kernel.S1536 EltTy.f32).view.readAt (Elt F) (Rect.unit (s := S1536) ![368] S16.size inb_S1536_S16_368).toLoadRect acc)
          ((Memref.whole Cert.Kernel.cc0_scratch6 : Memref Cert.Kernel.sig Kind.scVector Space.vmem Cert.Kernel.S1536 EltTy.f32).view.readAt (Elt F) (Rect.unit (s := S1536) ![464] S16.size inb_S1536_S16_464).toLoadRect acc)
          ((Memref.whole Cert.Kernel.cc0_scratch6 : Memref Cert.Kernel.sig Kind.scVector Space.vmem Cert.Kernel.S1536 EltTy.f32).view.readAt (Elt F) (Rect.unit (s := S1536) ![560] S16.size inb_S1536_S16_560).toLoadRect acc)
          ((Memref.whole Cert.Kernel.cc0_scratch6 : Memref Cert.Kernel.sig Kind.scVector Space.vmem Cert.Kernel.S1536 EltTy.f32).view.readAt (Elt F) (Rect.unit (s := S1536) ![656] S16.size inb_S1536_S16_656).toLoadRect acc)
          ((Memref.whole Cert.Kernel.cc0_scratch6 : Memref Cert.Kernel.sig Kind.scVector Space.vmem Cert.Kernel.S1536 EltTy.f32).view.readAt (Elt F) (Rect.unit (s := S1536) ![752] S16.size inb_S1536_S16_752).toLoadRect acc))
        ((Memref.whole Cert.Kernel.cc0_scratch6 : Memref Cert.Kernel.sig Kind.scVector Space.vmem Cert.Kernel.S1536 EltTy.f32).view.readAt (Elt F) (Rect.unit (s := S1536) ![848] S16.size inb_S1536_S16_848).toLoadRect acc)
        ((Memref.whole Cert.Kernel.cc0_scratch6 : Memref Cert.Kernel.sig Kind.scVector Space.vmem Cert.Kernel.S1536 EltTy.f32).view.readAt (Elt F) (Rect.unit (s := S1536) ![944] S16.size inb_S1536_S16_944).toLoadRect acc)
        ((Memref.whole Cert.Kernel.cc0_scratch6 : Memref Cert.Kernel.sig Kind.scVector Space.vmem Cert.Kernel.S1536 EltTy.f32).view.readAt (Elt F) (Rect.unit (s := S1536) ![1040] S16.size inb_S1536_S16_1040).toLoadRect acc)
        ((Memref.whole Cert.Kernel.cc0_scratch6 : Memref Cert.Kernel.sig Kind.scVector Space.vmem Cert.Kernel.S1536 EltTy.f32).view.readAt (Elt F) (Rect.unit (s := S1536) ![1136] S16.size inb_S1536_S16_1136).toLoadRect acc)
        ((Memref.whole Cert.Kernel.cc0_scratch6 : Memref Cert.Kernel.sig Kind.scVector Space.vmem Cert.Kernel.S1536 EltTy.f32).view.readAt (Elt F) (Rect.unit (s := S1536) ![1232] S16.size inb_S1536_S16_1232).toLoadRect acc)
        ((Memref.whole Cert.Kernel.cc0_scratch6 : Memref Cert.Kernel.sig Kind.scVector Space.vmem Cert.Kernel.S1536 EltTy.f32).view.readAt (Elt F) (Rect.unit (s := S1536) ![1328] S16.size inb_S1536_S16_1328).toLoadRect acc)
        ((Memref.whole Cert.Kernel.cc0_scratch6 : Memref Cert.Kernel.sig Kind.scVector Space.vmem Cert.Kernel.S1536 EltTy.f32).view.readAt (Elt F) (Rect.unit (s := S1536) ![1424] S16.size inb_S1536_S16_1424).toLoadRect acc)
        ((Memref.whole Cert.Kernel.cc0_scratch6 : Memref Cert.Kernel.sig Kind.scVector Space.vmem Cert.Kernel.S1536 EltTy.f32).view.readAt (Elt F) (Rect.unit (s := S1536) ![1520] S16.size inb_S1536_S16_1520).toLoadRect acc)
        ((Memref.whole Cert.Kernel.cc0_scratch5 : Memref Cert.Kernel.sig Kind.scVector Space.vmem Cert.Kernel.S96 EltTy.f32).view.readAt (Elt F) (Rect.unit (s := S96) ![80] S16.size inb_S96_S16_80).toLoadRect inv)⟩,
    ⟨Rect.unit (s := S24672) ![24640] S16.size inb_S24672_S16_24640,
      k0_pay27 (k0_pay26 (k0_pay31 (F := F))
          ((Memref.whole Cert.Kernel.cc0_scratch6 : Memref Cert.Kernel.sig Kind.scVector Space.vmem Cert.Kernel.S1536 EltTy.f32).view.readAt (Elt F) (Rect.unit (s := S1536) ![64] S16.size inb_S1536_S16_64).toLoadRect acc)
          ((Memref.whole Cert.Kernel.cc0_scratch6 : Memref Cert.Kernel.sig Kind.scVector Space.vmem Cert.Kernel.S1536 EltTy.f32).view.readAt (Elt F) (Rect.unit (s := S1536) ![160] S16.size inb_S1536_S16_160).toLoadRect acc)
          ((Memref.whole Cert.Kernel.cc0_scratch6 : Memref Cert.Kernel.sig Kind.scVector Space.vmem Cert.Kernel.S1536 EltTy.f32).view.readAt (Elt F) (Rect.unit (s := S1536) ![256] S16.size inb_S1536_S16_256).toLoadRect acc)
          ((Memref.whole Cert.Kernel.cc0_scratch6 : Memref Cert.Kernel.sig Kind.scVector Space.vmem Cert.Kernel.S1536 EltTy.f32).view.readAt (Elt F) (Rect.unit (s := S1536) ![352] S16.size inb_S1536_S16_352).toLoadRect acc)
          ((Memref.whole Cert.Kernel.cc0_scratch6 : Memref Cert.Kernel.sig Kind.scVector Space.vmem Cert.Kernel.S1536 EltTy.f32).view.readAt (Elt F) (Rect.unit (s := S1536) ![448] S16.size inb_S1536_S16_448).toLoadRect acc)
          ((Memref.whole Cert.Kernel.cc0_scratch6 : Memref Cert.Kernel.sig Kind.scVector Space.vmem Cert.Kernel.S1536 EltTy.f32).view.readAt (Elt F) (Rect.unit (s := S1536) ![544] S16.size inb_S1536_S16_544).toLoadRect acc)
          ((Memref.whole Cert.Kernel.cc0_scratch6 : Memref Cert.Kernel.sig Kind.scVector Space.vmem Cert.Kernel.S1536 EltTy.f32).view.readAt (Elt F) (Rect.unit (s := S1536) ![640] S16.size inb_S1536_S16_640).toLoadRect acc)
          ((Memref.whole Cert.Kernel.cc0_scratch6 : Memref Cert.Kernel.sig Kind.scVector Space.vmem Cert.Kernel.S1536 EltTy.f32).view.readAt (Elt F) (Rect.unit (s := S1536) ![736] S16.size inb_S1536_S16_736).toLoadRect acc)
          ((Memref.whole Cert.Kernel.cc0_scratch6 : Memref Cert.Kernel.sig Kind.scVector Space.vmem Cert.Kernel.S1536 EltTy.f32).view.readAt (Elt F) (Rect.unit (s := S1536) ![832] S16.size inb_S1536_S16_832).toLoadRect acc)
          ((Memref.whole Cert.Kernel.cc0_scratch6 : Memref Cert.Kernel.sig Kind.scVector Space.vmem Cert.Kernel.S1536 EltTy.f32).view.readAt (Elt F) (Rect.unit (s := S1536) ![928] S16.size inb_S1536_S16_928).toLoadRect acc)
          ((Memref.whole Cert.Kernel.cc0_scratch6 : Memref Cert.Kernel.sig Kind.scVector Space.vmem Cert.Kernel.S1536 EltTy.f32).view.readAt (Elt F) (Rect.unit (s := S1536) ![1024] S16.size inb_S1536_S16_1024).toLoadRect acc)
          ((Memref.whole Cert.Kernel.cc0_scratch6 : Memref Cert.Kernel.sig Kind.scVector Space.vmem Cert.Kernel.S1536 EltTy.f32).view.readAt (Elt F) (Rect.unit (s := S1536) ![1120] S16.size inb_S1536_S16_1120).toLoadRect acc)
          ((Memref.whole Cert.Kernel.cc0_scratch6 : Memref Cert.Kernel.sig Kind.scVector Space.vmem Cert.Kernel.S1536 EltTy.f32).view.readAt (Elt F) (Rect.unit (s := S1536) ![1216] S16.size inb_S1536_S16_1216).toLoadRect acc)
          ((Memref.whole Cert.Kernel.cc0_scratch6 : Memref Cert.Kernel.sig Kind.scVector Space.vmem Cert.Kernel.S1536 EltTy.f32).view.readAt (Elt F) (Rect.unit (s := S1536) ![1312] S16.size inb_S1536_S16_1312).toLoadRect acc)
          ((Memref.whole Cert.Kernel.cc0_scratch6 : Memref Cert.Kernel.sig Kind.scVector Space.vmem Cert.Kernel.S1536 EltTy.f32).view.readAt (Elt F) (Rect.unit (s := S1536) ![1408] S16.size inb_S1536_S16_1408).toLoadRect acc))
        ((Memref.whole Cert.Kernel.cc0_scratch6 : Memref Cert.Kernel.sig Kind.scVector Space.vmem Cert.Kernel.S1536 EltTy.f32).view.readAt (Elt F) (Rect.unit (s := S1536) ![1504] S16.size inb_S1536_S16_1504).toLoadRect acc)
        ((Memref.whole Cert.Kernel.cc0_scratch5 : Memref Cert.Kernel.sig Kind.scVector Space.vmem Cert.Kernel.S96 EltTy.f32).view.readAt (Elt F) (Rect.unit (s := S96) ![64] S16.size inb_S96_S16_64).toLoadRect inv)⟩,
    ⟨Rect.unit (s := S24672) ![24624] S16.size inb_S24672_S16_24624,
      k0_pay25 (k0_pay24 (k0_pay31 (F := F))
          ((Memref.whole Cert.Kernel.cc0_scratch6 : Memref Cert.Kernel.sig Kind.scVector Space.vmem Cert.Kernel.S1536 EltTy.f32).view.readAt (Elt F) (Rect.unit (s := S1536) ![48] S16.size inb_S1536_S16_48).toLoadRect acc)
          ((Memref.whole Cert.Kernel.cc0_scratch6 : Memref Cert.Kernel.sig Kind.scVector Space.vmem Cert.Kernel.S1536 EltTy.f32).view.readAt (Elt F) (Rect.unit (s := S1536) ![144] S16.size inb_S1536_S16_144).toLoadRect acc)
          ((Memref.whole Cert.Kernel.cc0_scratch6 : Memref Cert.Kernel.sig Kind.scVector Space.vmem Cert.Kernel.S1536 EltTy.f32).view.readAt (Elt F) (Rect.unit (s := S1536) ![240] S16.size inb_S1536_S16_240).toLoadRect acc)
          ((Memref.whole Cert.Kernel.cc0_scratch6 : Memref Cert.Kernel.sig Kind.scVector Space.vmem Cert.Kernel.S1536 EltTy.f32).view.readAt (Elt F) (Rect.unit (s := S1536) ![336] S16.size inb_S1536_S16_336).toLoadRect acc)
          ((Memref.whole Cert.Kernel.cc0_scratch6 : Memref Cert.Kernel.sig Kind.scVector Space.vmem Cert.Kernel.S1536 EltTy.f32).view.readAt (Elt F) (Rect.unit (s := S1536) ![432] S16.size inb_S1536_S16_432).toLoadRect acc)
          ((Memref.whole Cert.Kernel.cc0_scratch6 : Memref Cert.Kernel.sig Kind.scVector Space.vmem Cert.Kernel.S1536 EltTy.f32).view.readAt (Elt F) (Rect.unit (s := S1536) ![528] S16.size inb_S1536_S16_528).toLoadRect acc)
          ((Memref.whole Cert.Kernel.cc0_scratch6 : Memref Cert.Kernel.sig Kind.scVector Space.vmem Cert.Kernel.S1536 EltTy.f32).view.readAt (Elt F) (Rect.unit (s := S1536) ![624] S16.size inb_S1536_S16_624).toLoadRect acc)
          ((Memref.whole Cert.Kernel.cc0_scratch6 : Memref Cert.Kernel.sig Kind.scVector Space.vmem Cert.Kernel.S1536 EltTy.f32).view.readAt (Elt F) (Rect.unit (s := S1536) ![720] S16.size inb_S1536_S16_720).toLoadRect acc)
          ((Memref.whole Cert.Kernel.cc0_scratch6 : Memref Cert.Kernel.sig Kind.scVector Space.vmem Cert.Kernel.S1536 EltTy.f32).view.readAt (Elt F) (Rect.unit (s := S1536) ![816] S16.size inb_S1536_S16_816).toLoadRect acc)
          ((Memref.whole Cert.Kernel.cc0_scratch6 : Memref Cert.Kernel.sig Kind.scVector Space.vmem Cert.Kernel.S1536 EltTy.f32).view.readAt (Elt F) (Rect.unit (s := S1536) ![912] S16.size inb_S1536_S16_912).toLoadRect acc)
          ((Memref.whole Cert.Kernel.cc0_scratch6 : Memref Cert.Kernel.sig Kind.scVector Space.vmem Cert.Kernel.S1536 EltTy.f32).view.readAt (Elt F) (Rect.unit (s := S1536) ![1008] S16.size inb_S1536_S16_1008).toLoadRect acc)
          ((Memref.whole Cert.Kernel.cc0_scratch6 : Memref Cert.Kernel.sig Kind.scVector Space.vmem Cert.Kernel.S1536 EltTy.f32).view.readAt (Elt F) (Rect.unit (s := S1536) ![1104] S16.size inb_S1536_S16_1104).toLoadRect acc)
          ((Memref.whole Cert.Kernel.cc0_scratch6 : Memref Cert.Kernel.sig Kind.scVector Space.vmem Cert.Kernel.S1536 EltTy.f32).view.readAt (Elt F) (Rect.unit (s := S1536) ![1200] S16.size inb_S1536_S16_1200).toLoadRect acc))
        ((Memref.whole Cert.Kernel.cc0_scratch6 : Memref Cert.Kernel.sig Kind.scVector Space.vmem Cert.Kernel.S1536 EltTy.f32).view.readAt (Elt F) (Rect.unit (s := S1536) ![1296] S16.size inb_S1536_S16_1296).toLoadRect acc)
        ((Memref.whole Cert.Kernel.cc0_scratch6 : Memref Cert.Kernel.sig Kind.scVector Space.vmem Cert.Kernel.S1536 EltTy.f32).view.readAt (Elt F) (Rect.unit (s := S1536) ![1392] S16.size inb_S1536_S16_1392).toLoadRect acc)
        ((Memref.whole Cert.Kernel.cc0_scratch6 : Memref Cert.Kernel.sig Kind.scVector Space.vmem Cert.Kernel.S1536 EltTy.f32).view.readAt (Elt F) (Rect.unit (s := S1536) ![1488] S16.size inb_S1536_S16_1488).toLoadRect acc)
        ((Memref.whole Cert.Kernel.cc0_scratch5 : Memref Cert.Kernel.sig Kind.scVector Space.vmem Cert.Kernel.S96 EltTy.f32).view.readAt (Elt F) (Rect.unit (s := S96) ![48] S16.size inb_S96_S16_48).toLoadRect inv)⟩,
    ⟨Rect.unit (s := S24672) ![24608] S16.size inb_S24672_S16_24608,
      k0_pay23 (k0_pay22 (k0_pay31 (F := F))
          ((Memref.whole Cert.Kernel.cc0_scratch6 : Memref Cert.Kernel.sig Kind.scVector Space.vmem Cert.Kernel.S1536 EltTy.f32).view.readAt (Elt F) (Rect.unit (s := S1536) ![32] S16.size inb_S1536_S16_32).toLoadRect acc)
          ((Memref.whole Cert.Kernel.cc0_scratch6 : Memref Cert.Kernel.sig Kind.scVector Space.vmem Cert.Kernel.S1536 EltTy.f32).view.readAt (Elt F) (Rect.unit (s := S1536) ![128] S16.size inb_S1536_S16_128).toLoadRect acc)
          ((Memref.whole Cert.Kernel.cc0_scratch6 : Memref Cert.Kernel.sig Kind.scVector Space.vmem Cert.Kernel.S1536 EltTy.f32).view.readAt (Elt F) (Rect.unit (s := S1536) ![224] S16.size inb_S1536_S16_224).toLoadRect acc)
          ((Memref.whole Cert.Kernel.cc0_scratch6 : Memref Cert.Kernel.sig Kind.scVector Space.vmem Cert.Kernel.S1536 EltTy.f32).view.readAt (Elt F) (Rect.unit (s := S1536) ![320] S16.size inb_S1536_S16_320).toLoadRect acc)
          ((Memref.whole Cert.Kernel.cc0_scratch6 : Memref Cert.Kernel.sig Kind.scVector Space.vmem Cert.Kernel.S1536 EltTy.f32).view.readAt (Elt F) (Rect.unit (s := S1536) ![416] S16.size inb_S1536_S16_416).toLoadRect acc)
          ((Memref.whole Cert.Kernel.cc0_scratch6 : Memref Cert.Kernel.sig Kind.scVector Space.vmem Cert.Kernel.S1536 EltTy.f32).view.readAt (Elt F) (Rect.unit (s := S1536) ![512] S16.size inb_S1536_S16_512).toLoadRect acc)
          ((Memref.whole Cert.Kernel.cc0_scratch6 : Memref Cert.Kernel.sig Kind.scVector Space.vmem Cert.Kernel.S1536 EltTy.f32).view.readAt (Elt F) (Rect.unit (s := S1536) ![608] S16.size inb_S1536_S16_608).toLoadRect acc)
          ((Memref.whole Cert.Kernel.cc0_scratch6 : Memref Cert.Kernel.sig Kind.scVector Space.vmem Cert.Kernel.S1536 EltTy.f32).view.readAt (Elt F) (Rect.unit (s := S1536) ![704] S16.size inb_S1536_S16_704).toLoadRect acc)
          ((Memref.whole Cert.Kernel.cc0_scratch6 : Memref Cert.Kernel.sig Kind.scVector Space.vmem Cert.Kernel.S1536 EltTy.f32).view.readAt (Elt F) (Rect.unit (s := S1536) ![800] S16.size inb_S1536_S16_800).toLoadRect acc)
          ((Memref.whole Cert.Kernel.cc0_scratch6 : Memref Cert.Kernel.sig Kind.scVector Space.vmem Cert.Kernel.S1536 EltTy.f32).view.readAt (Elt F) (Rect.unit (s := S1536) ![896] S16.size inb_S1536_S16_896).toLoadRect acc)
          ((Memref.whole Cert.Kernel.cc0_scratch6 : Memref Cert.Kernel.sig Kind.scVector Space.vmem Cert.Kernel.S1536 EltTy.f32).view.readAt (Elt F) (Rect.unit (s := S1536) ![992] S16.size inb_S1536_S16_992).toLoadRect acc))
        ((Memref.whole Cert.Kernel.cc0_scratch6 : Memref Cert.Kernel.sig Kind.scVector Space.vmem Cert.Kernel.S1536 EltTy.f32).view.readAt (Elt F) (Rect.unit (s := S1536) ![1088] S16.size inb_S1536_S16_1088).toLoadRect acc)
        ((Memref.whole Cert.Kernel.cc0_scratch6 : Memref Cert.Kernel.sig Kind.scVector Space.vmem Cert.Kernel.S1536 EltTy.f32).view.readAt (Elt F) (Rect.unit (s := S1536) ![1184] S16.size inb_S1536_S16_1184).toLoadRect acc)
        ((Memref.whole Cert.Kernel.cc0_scratch6 : Memref Cert.Kernel.sig Kind.scVector Space.vmem Cert.Kernel.S1536 EltTy.f32).view.readAt (Elt F) (Rect.unit (s := S1536) ![1280] S16.size inb_S1536_S16_1280).toLoadRect acc)
        ((Memref.whole Cert.Kernel.cc0_scratch6 : Memref Cert.Kernel.sig Kind.scVector Space.vmem Cert.Kernel.S1536 EltTy.f32).view.readAt (Elt F) (Rect.unit (s := S1536) ![1376] S16.size inb_S1536_S16_1376).toLoadRect acc)
        ((Memref.whole Cert.Kernel.cc0_scratch6 : Memref Cert.Kernel.sig Kind.scVector Space.vmem Cert.Kernel.S1536 EltTy.f32).view.readAt (Elt F) (Rect.unit (s := S1536) ![1472] S16.size inb_S1536_S16_1472).toLoadRect acc)
        ((Memref.whole Cert.Kernel.cc0_scratch5 : Memref Cert.Kernel.sig Kind.scVector Space.vmem Cert.Kernel.S96 EltTy.f32).view.readAt (Elt F) (Rect.unit (s := S96) ![32] S16.size inb_S96_S16_32).toLoadRect inv)⟩,
    ⟨Rect.unit (s := S24672) ![24592] S16.size inb_S24672_S16_24592,
      k0_pay21 (k0_pay20 (k0_pay31 (F := F))
          ((Memref.whole Cert.Kernel.cc0_scratch6 : Memref Cert.Kernel.sig Kind.scVector Space.vmem Cert.Kernel.S1536 EltTy.f32).view.readAt (Elt F) (Rect.unit (s := S1536) ![16] S16.size inb_S1536_S16_16).toLoadRect acc)
          ((Memref.whole Cert.Kernel.cc0_scratch6 : Memref Cert.Kernel.sig Kind.scVector Space.vmem Cert.Kernel.S1536 EltTy.f32).view.readAt (Elt F) (Rect.unit (s := S1536) ![112] S16.size inb_S1536_S16_112).toLoadRect acc)
          ((Memref.whole Cert.Kernel.cc0_scratch6 : Memref Cert.Kernel.sig Kind.scVector Space.vmem Cert.Kernel.S1536 EltTy.f32).view.readAt (Elt F) (Rect.unit (s := S1536) ![208] S16.size inb_S1536_S16_208).toLoadRect acc)
          ((Memref.whole Cert.Kernel.cc0_scratch6 : Memref Cert.Kernel.sig Kind.scVector Space.vmem Cert.Kernel.S1536 EltTy.f32).view.readAt (Elt F) (Rect.unit (s := S1536) ![304] S16.size inb_S1536_S16_304).toLoadRect acc)
          ((Memref.whole Cert.Kernel.cc0_scratch6 : Memref Cert.Kernel.sig Kind.scVector Space.vmem Cert.Kernel.S1536 EltTy.f32).view.readAt (Elt F) (Rect.unit (s := S1536) ![400] S16.size inb_S1536_S16_400).toLoadRect acc)
          ((Memref.whole Cert.Kernel.cc0_scratch6 : Memref Cert.Kernel.sig Kind.scVector Space.vmem Cert.Kernel.S1536 EltTy.f32).view.readAt (Elt F) (Rect.unit (s := S1536) ![496] S16.size inb_S1536_S16_496).toLoadRect acc)
          ((Memref.whole Cert.Kernel.cc0_scratch6 : Memref Cert.Kernel.sig Kind.scVector Space.vmem Cert.Kernel.S1536 EltTy.f32).view.readAt (Elt F) (Rect.unit (s := S1536) ![592] S16.size inb_S1536_S16_592).toLoadRect acc)
          ((Memref.whole Cert.Kernel.cc0_scratch6 : Memref Cert.Kernel.sig Kind.scVector Space.vmem Cert.Kernel.S1536 EltTy.f32).view.readAt (Elt F) (Rect.unit (s := S1536) ![688] S16.size inb_S1536_S16_688).toLoadRect acc)
          ((Memref.whole Cert.Kernel.cc0_scratch6 : Memref Cert.Kernel.sig Kind.scVector Space.vmem Cert.Kernel.S1536 EltTy.f32).view.readAt (Elt F) (Rect.unit (s := S1536) ![784] S16.size inb_S1536_S16_784).toLoadRect acc))
        ((Memref.whole Cert.Kernel.cc0_scratch6 : Memref Cert.Kernel.sig Kind.scVector Space.vmem Cert.Kernel.S1536 EltTy.f32).view.readAt (Elt F) (Rect.unit (s := S1536) ![880] S16.size inb_S1536_S16_880).toLoadRect acc)
        ((Memref.whole Cert.Kernel.cc0_scratch6 : Memref Cert.Kernel.sig Kind.scVector Space.vmem Cert.Kernel.S1536 EltTy.f32).view.readAt (Elt F) (Rect.unit (s := S1536) ![976] S16.size inb_S1536_S16_976).toLoadRect acc)
        ((Memref.whole Cert.Kernel.cc0_scratch6 : Memref Cert.Kernel.sig Kind.scVector Space.vmem Cert.Kernel.S1536 EltTy.f32).view.readAt (Elt F) (Rect.unit (s := S1536) ![1072] S16.size inb_S1536_S16_1072).toLoadRect acc)
        ((Memref.whole Cert.Kernel.cc0_scratch6 : Memref Cert.Kernel.sig Kind.scVector Space.vmem Cert.Kernel.S1536 EltTy.f32).view.readAt (Elt F) (Rect.unit (s := S1536) ![1168] S16.size inb_S1536_S16_1168).toLoadRect acc)
        ((Memref.whole Cert.Kernel.cc0_scratch6 : Memref Cert.Kernel.sig Kind.scVector Space.vmem Cert.Kernel.S1536 EltTy.f32).view.readAt (Elt F) (Rect.unit (s := S1536) ![1264] S16.size inb_S1536_S16_1264).toLoadRect acc)
        ((Memref.whole Cert.Kernel.cc0_scratch6 : Memref Cert.Kernel.sig Kind.scVector Space.vmem Cert.Kernel.S1536 EltTy.f32).view.readAt (Elt F) (Rect.unit (s := S1536) ![1360] S16.size inb_S1536_S16_1360).toLoadRect acc)
        ((Memref.whole Cert.Kernel.cc0_scratch6 : Memref Cert.Kernel.sig Kind.scVector Space.vmem Cert.Kernel.S1536 EltTy.f32).view.readAt (Elt F) (Rect.unit (s := S1536) ![1456] S16.size inb_S1536_S16_1456).toLoadRect acc)
        ((Memref.whole Cert.Kernel.cc0_scratch5 : Memref Cert.Kernel.sig Kind.scVector Space.vmem Cert.Kernel.S96 EltTy.f32).view.readAt (Elt F) (Rect.unit (s := S96) ![16] S16.size inb_S96_S16_16).toLoadRect inv)⟩,
    ⟨Rect.unit (s := S24672) ![24576] S16.size inb_S24672_S16_24576,
      k0_pay19 (k0_pay18 (k0_pay31 (F := F))
          ((Memref.whole Cert.Kernel.cc0_scratch6 : Memref Cert.Kernel.sig Kind.scVector Space.vmem Cert.Kernel.S1536 EltTy.f32).view.readAt (Elt F) (Rect.unit (s := S1536) ![0] S16.size inb_S1536_S16_0).toLoadRect acc)
          ((Memref.whole Cert.Kernel.cc0_scratch6 : Memref Cert.Kernel.sig Kind.scVector Space.vmem Cert.Kernel.S1536 EltTy.f32).view.readAt (Elt F) (Rect.unit (s := S1536) ![96] S16.size inb_S1536_S16_96).toLoadRect acc)
          ((Memref.whole Cert.Kernel.cc0_scratch6 : Memref Cert.Kernel.sig Kind.scVector Space.vmem Cert.Kernel.S1536 EltTy.f32).view.readAt (Elt F) (Rect.unit (s := S1536) ![192] S16.size inb_S1536_S16_192).toLoadRect acc)
          ((Memref.whole Cert.Kernel.cc0_scratch6 : Memref Cert.Kernel.sig Kind.scVector Space.vmem Cert.Kernel.S1536 EltTy.f32).view.readAt (Elt F) (Rect.unit (s := S1536) ![288] S16.size inb_S1536_S16_288).toLoadRect acc)
          ((Memref.whole Cert.Kernel.cc0_scratch6 : Memref Cert.Kernel.sig Kind.scVector Space.vmem Cert.Kernel.S1536 EltTy.f32).view.readAt (Elt F) (Rect.unit (s := S1536) ![384] S16.size inb_S1536_S16_384).toLoadRect acc)
          ((Memref.whole Cert.Kernel.cc0_scratch6 : Memref Cert.Kernel.sig Kind.scVector Space.vmem Cert.Kernel.S1536 EltTy.f32).view.readAt (Elt F) (Rect.unit (s := S1536) ![480] S16.size inb_S1536_S16_480).toLoadRect acc)
          ((Memref.whole Cert.Kernel.cc0_scratch6 : Memref Cert.Kernel.sig Kind.scVector Space.vmem Cert.Kernel.S1536 EltTy.f32).view.readAt (Elt F) (Rect.unit (s := S1536) ![576] S16.size inb_S1536_S16_576).toLoadRect acc))
        ((Memref.whole Cert.Kernel.cc0_scratch6 : Memref Cert.Kernel.sig Kind.scVector Space.vmem Cert.Kernel.S1536 EltTy.f32).view.readAt (Elt F) (Rect.unit (s := S1536) ![672] S16.size inb_S1536_S16_672).toLoadRect acc)
        ((Memref.whole Cert.Kernel.cc0_scratch6 : Memref Cert.Kernel.sig Kind.scVector Space.vmem Cert.Kernel.S1536 EltTy.f32).view.readAt (Elt F) (Rect.unit (s := S1536) ![768] S16.size inb_S1536_S16_768).toLoadRect acc)
        ((Memref.whole Cert.Kernel.cc0_scratch6 : Memref Cert.Kernel.sig Kind.scVector Space.vmem Cert.Kernel.S1536 EltTy.f32).view.readAt (Elt F) (Rect.unit (s := S1536) ![864] S16.size inb_S1536_S16_864).toLoadRect acc)
        ((Memref.whole Cert.Kernel.cc0_scratch6 : Memref Cert.Kernel.sig Kind.scVector Space.vmem Cert.Kernel.S1536 EltTy.f32).view.readAt (Elt F) (Rect.unit (s := S1536) ![960] S16.size inb_S1536_S16_960).toLoadRect acc)
        ((Memref.whole Cert.Kernel.cc0_scratch6 : Memref Cert.Kernel.sig Kind.scVector Space.vmem Cert.Kernel.S1536 EltTy.f32).view.readAt (Elt F) (Rect.unit (s := S1536) ![1056] S16.size inb_S1536_S16_1056).toLoadRect acc)
        ((Memref.whole Cert.Kernel.cc0_scratch6 : Memref Cert.Kernel.sig Kind.scVector Space.vmem Cert.Kernel.S1536 EltTy.f32).view.readAt (Elt F) (Rect.unit (s := S1536) ![1152] S16.size inb_S1536_S16_1152).toLoadRect acc)
        ((Memref.whole Cert.Kernel.cc0_scratch6 : Memref Cert.Kernel.sig Kind.scVector Space.vmem Cert.Kernel.S1536 EltTy.f32).view.readAt (Elt F) (Rect.unit (s := S1536) ![1248] S16.size inb_S1536_S16_1248).toLoadRect acc)
        ((Memref.whole Cert.Kernel.cc0_scratch6 : Memref Cert.Kernel.sig Kind.scVector Space.vmem Cert.Kernel.S1536 EltTy.f32).view.readAt (Elt F) (Rect.unit (s := S1536) ![1344] S16.size inb_S1536_S16_1344).toLoadRect acc)
        ((Memref.whole Cert.Kernel.cc0_scratch6 : Memref Cert.Kernel.sig Kind.scVector Space.vmem Cert.Kernel.S1536 EltTy.f32).view.readAt (Elt F) (Rect.unit (s := S1536) ![1440] S16.size inb_S1536_S16_1440).toLoadRect acc)
        ((Memref.whole Cert.Kernel.cc0_scratch5 : Memref Cert.Kernel.sig Kind.scVector Space.vmem Cert.Kernel.S96 EltTy.f32).view.readAt (Elt F) (Rect.unit (s := S96) ![0] S16.size inb_S96_S16_0).toLoadRect inv)⟩]

/-! ## The piece lists read at a word -/

theorem invPieces_accAt (acc : Vec F S1536 .f32) (junk : Vec F S96 .f32) (q : Nat) (hq : q < 96) :
    ((Memref.whole Cert.Kernel.cc0_scratch5 : Memref Cert.Kernel.sig Kind.scVector Space.vmem Cert.Kernel.S96 EltTy.f32).view.writes (Elt F) junk
        (invPieces acc)) (ix1 ⟨q, hq⟩)
      = FloatOps.divf (KModel.oneF (F := F)) (FloatOps.maximumf (KModel.laneSum fun r => accAt acc (r * 96 + q)) KModel.oneF) := by
  unfold invPieces
  by_cases h5 : 80 ≤ q
  · rw [writes16_cons_s5, dif_pos (by show 80 ≤ q ∧ q < 80 + 16; omega)]
    exact invLane5 acc _ q (by show 80 + (q - 80) = q; omega)
  by_cases h4 : 64 ≤ q
  · rw [writes16_cons_s5, dif_neg (by show ¬ (80 ≤ q ∧ q < 80 + 16); omega),
      writes16_cons_s5, dif_pos (by show 64 ≤ q ∧ q < 64 + 16; omega)]
    exact invLane4 acc _ q (by show 64 + (q - 64) = q; omega)
  by_cases h3 : 48 ≤ q
  · rw [writes16_cons_s5, dif_neg (by show ¬ (80 ≤ q ∧ q < 80 + 16); omega),
      writes16_cons_s5, dif_neg (by show ¬ (64 ≤ q ∧ q < 64 + 16); omega),
      writes16_cons_s5, dif_pos (by show 48 ≤ q ∧ q < 48 + 16; omega)]
    exact invLane3 acc _ q (by show 48 + (q - 48) = q; omega)
  by_cases h2 : 32 ≤ q
  · rw [writes16_cons_s5, dif_neg (by show ¬ (80 ≤ q ∧ q < 80 + 16); omega),
      writes16_cons_s5, dif_neg (by show ¬ (64 ≤ q ∧ q < 64 + 16); omega),
      writes16_cons_s5, dif_neg (by show ¬ (48 ≤ q ∧ q < 48 + 16); omega),
      writes16_cons_s5, dif_pos (by show 32 ≤ q ∧ q < 32 + 16; omega)]
    exact invLane2 acc _ q (by show 32 + (q - 32) = q; omega)
  by_cases h1 : 16 ≤ q
  · rw [writes16_cons_s5, dif_neg (by show ¬ (80 ≤ q ∧ q < 80 + 16); omega),
      writes16_cons_s5, dif_neg (by show ¬ (64 ≤ q ∧ q < 64 + 16); omega),
      writes16_cons_s5, dif_neg (by show ¬ (48 ≤ q ∧ q < 48 + 16); omega),
      writes16_cons_s5, dif_neg (by show ¬ (32 ≤ q ∧ q < 32 + 16); omega),
      writes16_cons_s5, dif_pos (by show 16 ≤ q ∧ q < 16 + 16; omega)]
    exact invLane1 acc _ q (by show 16 + (q - 16) = q; omega)
  · rw [writes16_cons_s5, dif_neg (by show ¬ (80 ≤ q ∧ q < 80 + 16); omega),
      writes16_cons_s5, dif_neg (by show ¬ (64 ≤ q ∧ q < 64 + 16); omega),
      writes16_cons_s5, dif_neg (by show ¬ (48 ≤ q ∧ q < 48 + 16); omega),
      writes16_cons_s5, dif_neg (by show ¬ (32 ≤ q ∧ q < 32 + 16); omega),
      writes16_cons_s5, dif_neg (by show ¬ (16 ≤ q ∧ q < 16 + 16); omega),
      writes16_cons_s5, dif_pos (by show 0 ≤ q ∧ q < 0 + 16; omega)]
    exact invLane0 acc _ q (by show 0 + (q - 0) = q; omega)

theorem invPieces_apply (acc : Vec F S1536 .f32) (junk : Vec F S96 .f32) (q : Nat) (hq : q < 96) :
    ((Memref.whole Cert.Kernel.cc0_scratch5 : Memref Cert.Kernel.sig Kind.scVector Space.vmem Cert.Kernel.S96 EltTy.f32).view.writes (Elt F) junk
        (invPieces acc)) (ix1 ⟨q, hq⟩)
      = FloatOps.divf (KModel.oneF (F := F)) (FloatOps.maximumf
          (KModel.laneSum fun r => if h : r * 96 + q < 1536 then acc (ix1 ⟨r * 96 + q, h⟩) else KModel.zeroF) KModel.oneF) :=
  invPieces_accAt acc junk q hq

theorem outPieces_accAt (inv : Vec F S96 .f32) (acc : Vec F S1536 .f32) (b1 : Vec F S24672 .f32) (p : Nat) (hp : p < 24672) :
    ((Memref.whole Cert.Kernel.cc0_scratch1 : Memref Cert.Kernel.sig Kind.scVector Space.vmem Cert.Kernel.S24672 EltTy.f32).view.writes (Elt F) b1
        (outPieces inv acc)) (ix1 ⟨p, hp⟩)
      = if 24576 ≤ p then FloatOps.mulf (KModel.laneSum fun r => accAt acc (r * 96 + (p - 24576))) (invAt inv (p - 24576))
        else b1 (ix1 ⟨p, hp⟩) := by
  unfold outPieces
  by_cases h0 : 24576 ≤ p
  · rw [if_pos h0]
    by_cases h5 : 24656 ≤ p
    · rw [writes16_cons_s1, dif_pos (by show 24656 ≤ p ∧ p < 24656 + 16; omega)]
      exact outLane5 inv acc _ (p - 24576) (by show 80 + (p - 24656) = p - 24576; omega)
    by_cases h4 : 24640 ≤ p
    · rw [writes16_cons_s1, dif_neg (by show ¬ (24656 ≤ p ∧ p < 24656 + 16); omega),
        writes16_cons_s1, dif_pos (by show 24640 ≤ p ∧ p < 24640 + 16; omega)]
      exact outLane4 inv acc _ (p - 24576) (by show 64 + (p - 24640) = p - 24576; omega)
    by_cases h3 : 24624 ≤ p
    · rw [writes16_cons_s1, dif_neg (by show ¬ (24656 ≤ p ∧ p < 24656 + 16); omega),
        writes16_cons_s1, dif_neg (by show ¬ (24640 ≤ p ∧ p < 24640 + 16); omega),
        writes16_cons_s1, dif_pos (by show 24624 ≤ p ∧ p < 24624 + 16; omega)]
      exact outLane3 inv acc _ (p - 24576) (by show 48 + (p - 24624) = p - 24576; omega)
    by_cases h2 : 24608 ≤ p
    · rw [writes16_cons_s1, dif_neg (by show ¬ (24656 ≤ p ∧ p < 24656 + 16); omega),
        writes16_cons_s1, dif_neg (by show ¬ (24640 ≤ p ∧ p < 24640 + 16); omega),
        writes16_cons_s1, dif_neg (by show ¬ (24624 ≤ p ∧ p < 24624 + 16); omega),
        writes16_cons_s1, dif_pos (by show 24608 ≤ p ∧ p < 24608 + 16; omega)]
      exact outLane2 inv acc _ (p - 24576) (by show 32 + (p - 24608) = p - 24576; omega)
    by_cases h1 : 24592 ≤ p
    · rw [writes16_cons_s1, dif_neg (by show ¬ (24656 ≤ p ∧ p < 24656 + 16); omega),
        writes16_cons_s1, dif_neg (by show ¬ (24640 ≤ p ∧ p < 24640 + 16); omega),
        writes16_cons_s1, dif_neg (by show ¬ (24624 ≤ p ∧ p < 24624 + 16); omega),
        writes16_cons_s1, dif_neg (by show ¬ (24608 ≤ p ∧ p < 24608 + 16); omega),
        writes16_cons_s1, dif_pos (by show 24592 ≤ p ∧ p < 24592 + 16; omega)]
      exact outLane1 inv acc _ (p - 24576) (by show 16 + (p - 24592) = p - 24576; omega)
    · rw [writes16_cons_s1, dif_neg (by show ¬ (24656 ≤ p ∧ p < 24656 + 16); omega),
        writes16_cons_s1, dif_neg (by show ¬ (24640 ≤ p ∧ p < 24640 + 16); omega),
        writes16_cons_s1, dif_neg (by show ¬ (24624 ≤ p ∧ p < 24624 + 16); omega),
        writes16_cons_s1, dif_neg (by show ¬ (24608 ≤ p ∧ p < 24608 + 16); omega),
        writes16_cons_s1, dif_neg (by show ¬ (24592 ≤ p ∧ p < 24592 + 16); omega),
        writes16_cons_s1, dif_pos (by show 24576 ≤ p ∧ p < 24576 + 16; omega)]
      exact outLane0 inv acc _ (p - 24576) (by show 0 + (p - 24576) = p - 24576; omega)
  · rw [if_neg h0,
      writes16_cons_s1, dif_neg (by show ¬ (24656 ≤ p ∧ p < 24656 + 16); omega),
      writes16_cons_s1, dif_neg (by show ¬ (24640 ≤ p ∧ p < 24640 + 16); omega),
      writes16_cons_s1, dif_neg (by show ¬ (24624 ≤ p ∧ p < 24624 + 16); omega),
      writes16_cons_s1, dif_neg (by show ¬ (24608 ≤ p ∧ p < 24608 + 16); omega),
      writes16_cons_s1, dif_neg (by show ¬ (24592 ≤ p ∧ p < 24592 + 16); omega),
      writes16_cons_s1, dif_neg (by show ¬ (24576 ≤ p ∧ p < 24576 + 16); omega)]
    rfl

theorem outPieces_apply (inv : Vec F S96 .f32) (acc : Vec F S1536 .f32) (b1 : Vec F S24672 .f32) (p : Nat) (hp : p < 24672) :
    ((Memref.whole Cert.Kernel.cc0_scratch1 : Memref Cert.Kernel.sig Kind.scVector Space.vmem Cert.Kernel.S24672 EltTy.f32).view.writes (Elt F) b1
        (outPieces inv acc)) (ix1 ⟨p, hp⟩)
      = if h : 24576 ≤ p then
          FloatOps.mulf (KModel.laneSum fun r => if h' : r * 96 + (p - 24576) < 1536 then acc (ix1 ⟨r * 96 + (p - 24576), h'⟩) else KModel.zeroF)
            (inv (ix1 ⟨p - 24576, by omega⟩))
        else b1 (ix1 ⟨p, hp⟩) := by
  rw [outPieces_accAt inv acc b1 p hp]
  by_cases h : 24576 ≤ p
  · rw [if_pos h, dif_pos h]
    unfold invAt
    rw [dif_pos (by omega : p - 24576 < 96)]
    rfl
  · rw [if_neg h, dif_neg h]

end Cert.Proof.KB.SumVals

end
-- ==== Proof.KB.Batch.lean ====
/-
  One trip of the batch loop: batch b = 32·(2·i + c) + k of task (c, i). Its vertex row is copied into the staging
  scratch; the running sums are zeroed; the gather loop fills the first 24576 words of the row being assembled with
  the coordinates of the segment vertices; the band loop adds each pair's vertex into its lane's slot; the sixteen
  lanes' sums, times the reciprocal counts, make the last 96 words; the row is copied out to row b of the result.
  From the loops' invariants at their ends the row copied out is the model's row b, entry by entry.
-/
import proofs.«203378_g9921374454198_cont_sun_m_1167_43_alg».proof.Proof.KB.Setup
import proofs.«203378_g9921374454198_cont_sun_m_1167_43_alg».proof.Proof.KB.InvB
import proofs.«203378_g9921374454198_cont_sun_m_1167_43_alg».proof.Proof.KB.LoopZero
import proofs.«203378_g9921374454198_cont_sun_m_1167_43_alg».proof.Proof.KB.RowViews
import proofs.«203378_g9921374454198_cont_sun_m_1167_43_alg».proof.Proof.KB.Pre
import proofs.«203378_g9921374454198_cont_sun_m_1167_43_alg».proof.Proof.KB.LoopSeg
import proofs.«203378_g9921374454198_cont_sun_m_1167_43_alg».proof.Proof.KB.LoopBand
import proofs.«203378_g9921374454198_cont_sun_m_1167_43_alg».proof.Proof.KB.SumVals

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "V0W" => (Memref.whole Cert.Kernel.main_v0_scv : Memref Cert.Kernel.sig Kind.scVector Space.hbm Cert.Kernel.S1024x31425 EltTy.f32)
local notation "A1W" => (Memref.whole Cert.Kernel.main_arg1_scv : Memref Cert.Kernel.sig Kind.scVector Space.hbm Cert.Kernel.S8192 EltTy.i32)
local notation "A2W" => (Memref.whole Cert.Kernel.main_arg2_scv : Memref Cert.Kernel.sig Kind.scVector Space.hbm Cert.Kernel.S4096 EltTy.i32)
local notation "A3W" => (Memref.whole Cert.Kernel.main_arg3_scv : Memref Cert.Kernel.sig Kind.scVector Space.hbm Cert.Kernel.S4096 EltTy.i32)
local notation "V1W" => (Memref.whole Cert.Kernel.main_v1_scv : Memref Cert.Kernel.sig Kind.scVector Space.hbm Cert.Kernel.S1024x24672 EltTy.f32)
local notation "S0W" => (Memref.whole Cert.Kernel.cc0_scratch0 : Memref Cert.Kernel.sig Kind.scVector Space.vmem Cert.Kernel.S31425 EltTy.f32)
local notation "S1W" => (Memref.whole Cert.Kernel.cc0_scratch1 : Memref Cert.Kernel.sig Kind.scVector Space.vmem Cert.Kernel.S24672 EltTy.f32)
local notation "S2W" => (Memref.whole Cert.Kernel.cc0_scratch2 : Memref Cert.Kernel.sig Kind.scVector Space.vmem Cert.Kernel.S8192 EltTy.i32)
local notation "S3W" => (Memref.whole Cert.Kernel.cc0_scratch3 : Memref Cert.Kernel.sig Kind.scVector Space.vmem Cert.Kernel.S4096 EltTy.i32)
local notation "S4W" => (Memref.whole Cert.Kernel.cc0_scratch4 : Memref Cert.Kernel.sig Kind.scVector Space.vmem Cert.Kernel.S4096 EltTy.i32)
local notation "S5W" => (Memref.whole Cert.Kernel.cc0_scratch5 : Memref Cert.Kernel.sig Kind.scVector Space.vmem Cert.Kernel.S96 EltTy.f32)
local notation "S6W" => (Memref.whole Cert.Kernel.cc0_scratch6 : Memref Cert.Kernel.sig Kind.scVector Space.vmem Cert.Kernel.S1536 EltTy.f32)

open Idealize.ShloMosaic.ValueIdx Cert.Proof.KB.Views Cert.Proof.KB.RowViews

variable (m : (ℓ : Loc nD τ sig) → Buf (Elt F) ℓ) (KO : (d : Dev nD) → Buf (Elt F) (v1Loc d)) (d : Dev nD) (L : grid0.Coords)

theorem trips4 : k0_t4_loop.trips = 96 := by decide
theorem trips5 : k0_t5_loop.trips = 512 := by decide
theorem trips6 : k0_t6_loop.trips = 256 := by decide

/-- The lanes' sum reads its family at the sixteen lanes only. -/
theorem laneSum_congr (a a' : Nat → F .f32) (h : ∀ r, r < 16 → a r = a' r) : KModel.laneSum a = KModel.laneSum a' := by
  unfold KModel.laneSum
  refine List.foldl_ext _ _ _ fun s r hr => ?_
  rw [h r (List.mem_range.mp hr)]

/-- What the assembled row holds is the model's row: the gathered part from the gather loop's invariant at its end,
    the 96 centroid words from the band sums and the reciprocal counts. -/
theorem row_final (Xd : Vec F S1024x31425 .f32) (seg : Vec F S8192 .i32) (bv bid : Vec F S4096 .i32) (b : Nat)
    (c5 : Vec F S96 .f32) (hc5 : ∀ q (hq : q < 96), c5 (ix1 ⟨q, hq⟩) = KModel.invCnt bid q)
    (b1 : Vec F S24672 .f32) (hb1 : SegAt Xd seg b b1 512) (c6 : Vec F S1536 .f32) (hc6 : BandAt Xd bv bid b c6 256)
    (s1 : Vec F S24672 .f32)
    (hs1 : ∀ p (hp : p < 24672), s1 (ix1 ⟨p, hp⟩) = if h : 24576 ≤ p then FloatOps.mulf (KModel.laneSum fun r => if h' : r * 96 + (p - 24576) < 1536 then c6 (ix1 ⟨r * 96 + (p - 24576), h'⟩) else KModel.zeroF) (c5 (ix1 ⟨p - 24576, by omega⟩)) else b1 (ix1 ⟨p, hp⟩))
    (p : Nat) (hp : p < 24672) : s1 (ix1 ⟨p, hp⟩) = KModel.rowOut Xd seg bv bid b p := by
  rw [hs1 p hp]
  unfold KModel.rowOut
  by_cases h : 24576 ≤ p
  · rw [dif_pos h, if_neg (by omega), hc5]
    refine congrArg (fun s => FloatOps.mulf s (KModel.invCnt bid (p - 24576))) ?_
    refine laneSum_congr _ _ fun r hr => ?_
    rw [dif_pos (by omega)]
    exact hc6 r (p - 24576) hr (by omega)
  · rw [dif_neg h, if_pos (by omega)]
    exact hb1 p hp (by omega)

set_option maxHeartbeats 4000000 in
theorem trip_batch (O : CellTallies nD τ sig (HIx 1)) (W : Waits sig (HIx 1)) (sh : PosShare TreeShare)
    (Xd : Vec F S1024x31425 .f32) (seg : Vec F S8192 .i32) (bv bid : Vec F S4096 .i32) (hr : Ranges seg bv bid)
    (c5 : Vec F S96 .f32) (hc5 : ∀ q (hq : q < 96), c5 (ix1 ⟨q, hq⟩) = KModel.invCnt bid q)
    (hKO : ∀ j, KO d j = KModel.KO Xd seg bv bid j)
    (v1 : BitVec 32) (k3 : Fin k0_t3_loop.trips) (acc : BitVec 32) :
    invB m KO d L O W sh Xd seg bv bid c5 k3.val acc ⊢ wp frame (wpE (defs₀ (F := F)) 𝒱₀ (thr d L) none) Set.univ
        (k0_t3_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 v1 (iota .scVector S16 32 [0] iota_S16_d0_w32_scVector) k0_pay30 (k0_pay31 (F := F)) k3 acc)
        (invB m KO d L O W sh Xd seg bv bid c5 (k3.val + 1)) := by
  have hk : k3.val < 32 := trip_lt k3
  conv => rhs; unfold k0_t3_body
  unfold invB
  iintro ⟨Hmw, Hv0, Hdone, Htodo, ⟨%a0, Hs0⟩, ⟨%a1, Hs1⟩, Hs2, Hs3, Hs4, Hs5, ⟨%a6, Hs6⟩, Hm3, Hm4, %W', %hW', HO⟩
  ihave Htodo := (Entails.of_eq (todo_take (rowTodo m d L) k3.val hk)) $$ Htodo
  icases Htodo with ⟨Hrow, Htodo⟩
  ihave Hrow := (Entails.of_eq (pts_Dout (F := F) d L k3 _).symm) $$ Hrow
  -- the batch's vertex row comes in
  sl_exec
  ihave Hs0 := (pts_name _) $$ Hs0
  icases Hs0 with ⟨%slab, %hslabE, Hs0⟩
  have hslab : SlabIs Xd (rowNo L k3) slab := by
    intro p hp
    have e : slab = View.read (Elt F) (Din L k3).view Xd := by
      rw [hslabE]; simp only [Memref.view_whole, View.write_whole_univ]; rfl
    rw [e, read_Din]; unfold KModel.xAt; rw [dif_pos ⟨rowNo_lt L k3, hp⟩]
  -- the running sums are zeroed
  sl_for (invZ (F := F) d L) $$ [Hs6]
  case region => intro k acc'; exact trip_zero4 d L v1 _ _ _ rfl _ _ k3 k acc'
  · unfold invZ; iexists _; isplitr
    rotate_left
    · iexact Hs6
    · ipureintro; intro p hp h; omega
  iintro %_ HI
  unfold invZ
  icases HI with ⟨%z6, %hz6, Hs6⟩
  sl_exec
  -- the gather
  sl_for (invSeg (F := F) d L Xd (rowNo L k3) slab seg) $$ [Hs1 Hs0 Hs2]
  case region => intro k acc'; exact trip_seg d L Xd _ slab seg hr.seg_le hslab v1 k3 k acc'
  · unfold invSeg
    isplitl [Hs1]
    · iexists _; isplitr
      rotate_left
      · iexact Hs1
      · ipureintro; intro p hp h; omega
    isplitl [Hs0]; · iexact Hs0
    iexact Hs2
  iintro %_ HI
  unfold invSeg
  icases HI with ⟨⟨%b1, %hb1, Hs1⟩, Hs0, Hs2⟩
  sl_exec
  -- the band sums
  sl_for (invBand (F := F) d L Xd (rowNo L k3) slab bv bid) $$ [Hs6 Hs0 Hs3 Hs4]
  case region => intro k acc'; exact trip_band d L Xd _ slab bv bid hr.bv_le hr.bid_le hslab v1 k3 k acc'
  · unfold invBand
    isplitl [Hs6]
    · iexists _; isplitr
      rotate_left
      · iexact Hs6
      · ipureintro; intro r q hr' hq; exact hz6 _ _ (by have h96 : Scf.trips k0_t4_loop.lb k0_t4_loop.ub k0_t4_loop.st = 96 := trips4; rw [h96]; omega)
    isplitl [Hs0]; · iexact Hs0
    isplitl [Hs3]; · iexact Hs3
    iexact Hs4
  iintro %_ HI
  unfold invBand
  icases HI with ⟨⟨%c6, %hc6, Hs6⟩, Hs0, Hs3, Hs4⟩
  -- the lanes' sums times the reciprocal counts, and the row goes out
  sl_exec
  ihave Hrow := (pts_name _) $$ Hrow
  icases Hrow with ⟨%fr, %hfrE, Hrow⟩
  have hb1' : SegAt Xd seg (rowNo L k3) b1 512 := hb1
  have hc6' : BandAt Xd bv bid (rowNo L k3) c6 256 := hc6
  have hs1 : ∀ p (hp : p < 24672), ((S1W).view.writes (Elt F) b1 (trip_batch.sl.Hs1_6 c5 c6)) (ix1 ⟨p, hp⟩)
      = if h : 24576 ≤ p then FloatOps.mulf (KModel.laneSum fun r => if h' : r * 96 + (p - 24576) < 1536 then c6 (ix1 ⟨r * 96 + (p - 24576), h'⟩) else KModel.zeroF) (c5 (ix1 ⟨p - 24576, by omega⟩)) else b1 (ix1 ⟨p, hp⟩) := by
    intro p hp
    exact SumVals.outPieces_apply c5 c6 b1 p hp
  have hrow : ∀ j ∈ rowSetO (tileRow (cL L) (iL L) (trip32 k3)), fr j = KO d j := by
    intro j hj
    have hj0 : (j 0).val = rowNo L k3 := by rw [← tileRow_val]; exact (mem_rowSetO _ j).mp hj
    rw [hfrE, hKO]
    rw [writes_Dout L k3 _ _ j hj0]
    have hlt : (j 1).val < 24672 := (j 1).isLt
    refine (row_final Xd seg bv bid (rowNo L k3) c5 hc5 b1 hb1' c6 hc6'
      ((S1W).view.writes (Elt F) b1 (trip_batch.sl.Hs1_6 c5 c6)) hs1 (j 1).val hlt).trans ?_
    unfold KModel.KO; rw [hj0]
  ihave Hrow := (Entails.of_eq (pts_Dout (F := F) d L k3 _)) $$ Hrow
  sl_step
  isplitl [Hmw]; · iexact Hmw
  isplitl [Hv0]; · iexact Hv0
  isplitl [Hdone Hrow]
  · iapply (Entails.of_eq (done_put (rowDone KO d L) k3.val hk).symm)
    isplitl [Hrow]
    · iexists fr; isplitr
      · ipureintro; exact hrow
      · iexact Hrow
    · iexact Hdone
  isplitl [Htodo]; · iexact Htodo
  isplitl [Hs0]; · iexists _; iexact Hs0
  isplitl [Hs1]; · iexists _; iexact Hs1
  isplitl [Hs2]; · iexact Hs2
  isplitl [Hs3]; · iexact Hs3
  isplitl [Hs4]; · iexact Hs4
  isplitl [Hs5]; · iexact Hs5
  isplitl [Hs6]; · iexists _; iexact Hs6
  isplitl [Hm3]; · iexact Hm3
  isplitl [Hm4]; · iexact Hm4
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact hW' p hp

end Cert.Proof.KB

end
-- ==== Proof.KB.LoopCnt.lean ====
/-
  One trip of the count loop, from the loop's invariant after k trips to the invariant after k + 1 trips.

  The trip loads sixteen band numbers (words 16 * k, …, 16 * k + 15 of the band table) and does three indexed
  add-stores of the vector of ones into the 1536 running counts. Read at lane r, slot q, the three stores add one
  exactly when the band of pair 16 * k + r is q / 3: the count model's recursion step.
-/
import proofs.«203378_g9921374454198_cont_sun_m_1167_43_alg».proof.Proof.KB.Inv
import proofs.«203378_g9921374454198_cont_sun_m_1167_43_alg».proof.Proof.KB.Views
import proofs.«203378_g9921374454198_cont_sun_m_1167_43_alg».proof.Proof.KB.Trips

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "V0W" => (Memref.whole Cert.Kernel.main_v0_scv : Memref Cert.Kernel.sig Kind.scVector Space.hbm Cert.Kernel.S1024x31425 EltTy.f32)
local notation "A1W" => (Memref.whole Cert.Kernel.main_arg1_scv : Memref Cert.Kernel.sig Kind.scVector Space.hbm Cert.Kernel.S8192 EltTy.i32)
local notation "A2W" => (Memref.whole Cert.Kernel.main_arg2_scv : Memref Cert.Kernel.sig Kind.scVector Space.hbm Cert.Kernel.S4096 EltTy.i32)
local notation "A3W" => (Memref.whole Cert.Kernel.main_arg3_scv : Memref Cert.Kernel.sig Kind.scVector Space.hbm Cert.Kernel.S4096 EltTy.i32)
local notation "V1W" => (Memref.whole Cert.Kernel.main_v1_scv : Memref Cert.Kernel.sig Kind.scVector Space.hbm Cert.Kernel.S1024x24672 EltTy.f32)
local notation "S0W" => (Memref.whole Cert.Kernel.cc0_scratch0 : Memref Cert.Kernel.sig Kind.scVector Space.vmem Cert.Kernel.S31425 EltTy.f32)
local notation "S1W" => (Memref.whole Cert.Kernel.cc0_scratch1 : Memref Cert.Kernel.sig Kind.scVector Space.vmem Cert.Kernel.S24672 EltTy.f32)
local notation "S2W" => (Memref.whole Cert.Kernel.cc0_scratch2 : Memref Cert.Kernel.sig Kind.scVector Space.vmem Cert.Kernel.S8192 EltTy.i32)
local notation "S3W" => (Memref.whole Cert.Kernel.cc0_scratch3 : Memref Cert.Kernel.sig Kind.scVector Space.vmem Cert.Kernel.S4096 EltTy.i32)
local notation "S4W" => (Memref.whole Cert.Kernel.cc0_scratch4 : Memref Cert.Kernel.sig Kind.scVector Space.vmem Cert.Kernel.S4096 EltTy.i32)
local notation "S5W" => (Memref.whole Cert.Kernel.cc0_scratch5 : Memref Cert.Kernel.sig Kind.scVector Space.vmem Cert.Kernel.S96 EltTy.f32)
local notation "S6W" => (Memref.whole Cert.Kernel.cc0_scratch6 : Memref Cert.Kernel.sig Kind.scVector Space.vmem Cert.Kernel.S1536 EltTy.f32)

variable (d : Dev nD) (L : grid0.Coords)

/-! ## The pure step -/

/-- Lane r of the sixteen words loaded at trip k is word 16 * k + r of the table. -/
theorem cnt_lane (bid : Vec F S4096 .i32) (k : Fin k0_t2_loop.trips) (r : Nat) (hr : r < 16) :
    BitVec.toNat ((S4W).view.readAt (Elt F) (Rect.unit (s := S4096) (k0_off2 k) S16.size (k0_off2_inb k)).toLoadRect bid (ix1 ⟨r, hr⟩))
      = KModel.wordAt bid (k.val * 16 + r) := by
  have hk : k.val < 256 := Nat.lt_of_lt_of_le k.isLt k0_t2_abs.2.1
  have hlt : k.val * 16 + r < 4096 := by omega
  rw [Views.readAt16_s4]
  unfold KModel.wordAt
  rw [dif_pos hlt]
  refine congrArg BitVec.toNat (Trips.at_congr bid _ hlt ?_)
  rw [k0_off2_eq]
  show 16 * k.val + r = k.val * 16 + r
  omega

/-- One trip's three add-stores take the counts after k steps to the counts after k + 1 steps. -/
theorem cnt_step (bid : Vec F S4096 .i32) (hbid : ∀ i, (bid i).toNat ≤ 31) (f : Vec F S1536 .f32) (k : Fin k0_t2_loop.trips)
    (hf : CntAt bid f k.val)
    (h1 : ∀ a x, ((![k0_pay34 ((S4W).view.readAt (Elt F) (Rect.unit (s := S4096) (k0_off2 k) S16.size (k0_off2_inb k)).toLoadRect bid)] : Fin 1 → IVec S16 32) a x).toNat < S1536.size a)
    (h2 : ∀ a x, ((![k0_pay35 ((S4W).view.readAt (Elt F) (Rect.unit (s := S4096) (k0_off2 k) S16.size (k0_off2_inb k)).toLoadRect bid)] : Fin 1 → IVec S16 32) a x).toNat < S1536.size a)
    (h3 : ∀ a x, ((![k0_pay36 ((S4W).view.readAt (Elt F) (Rect.unit (s := S4096) (k0_off2 k) S16.size (k0_off2_inb k)).toLoadRect bid)] : Fin 1 → IVec S16 32) a x).toNat < S1536.size a) :
    CntAt bid
      (storeIdx (storeIdx (storeIdx f
        ![k0_pay34 ((S4W).view.readAt (Elt F) (Rect.unit (s := S4096) (k0_off2 k) S16.size (k0_off2_inb k)).toLoadRect bid)] k0_pay32 (fun _ => 1#1) true h1)
        ![k0_pay35 ((S4W).view.readAt (Elt F) (Rect.unit (s := S4096) (k0_off2 k) S16.size (k0_off2_inb k)).toLoadRect bid)] k0_pay32 (fun _ => 1#1) true h2)
        ![k0_pay36 ((S4W).view.readAt (Elt F) (Rect.unit (s := S4096) (k0_off2 k) S16.size (k0_off2_inb k)).toLoadRect bid)] k0_pay32 (fun _ => 1#1) true h3)
      (k.val + 1) := by
  have hv : ∀ x, BitVec.toNat ((S4W).view.readAt (Elt F) (Rect.unit (s := S4096) (k0_off2 k) S16.size (k0_off2_inb k)).toLoadRect bid x) ≤ 31 := by
    intro x
    rw [Views.readAt16_s4]
    exact hbid _
  intro r q hr hq
  rw [Trips.cnt_trip f _ hv h1 h2 h3 r q hr hq, cnt_lane bid k r hr, hf r q hr hq]
  rfl

/-! ## The trip -/

set_option maxHeartbeats 2000000 in
/-- One trip of the count loop keeps the invariant: the three indexed add-stores advance the counts by one step. -/
theorem trip_cnt (bid : Vec F S4096 .i32) (hbid : ∀ i, (bid i).toNat ≤ 31) (k : Fin k0_t2_loop.trips) (acc : BitVec 32) :
    invCnt d L bid k.val acc ⊢ wp frame (wpE (defs₀ (F := F)) 𝒱₀ (thr d L) none) Set.univ
        (k0_t2_body (F := F) L V0W (Memref.isWhole_whole _) A1W (Memref.isWhole_whole _) A2W (Memref.isWhole_whole _) A3W (Memref.isWhole_whole _) V1W (Memref.isWhole_whole _) S0W (Memref.isWhole_whole _) S1W (Memref.isWhole_whole _) S2W (Memref.isWhole_whole _) S3W (Memref.isWhole_whole _) S4W (Memref.isWhole_whole _) S5W (Memref.isWhole_whole _) S6W (Memref.isWhole_whole _) cc0_scratch7 cc0_scratch8 cc0_scoped0 cc0_scoped1 cc0_scoped2 cc0_scoped3 cc0_scoped4 k acc)
        (invCnt d L bid (k.val + 1)) := by
  unfold invCnt k0_t2_body
  iintro ⟨⟨%f, %hf, Hs6⟩, Hs4⟩
  have hv : ∀ x, ((S4W).view.readAt (Elt F) (Rect.unit (s := S4096) (k0_off2 k) S16.size (k0_off2_inb k)).toLoadRect bid x).toNat ≤ 31 := by
    intro x
    rw [Views.readAt16_s4]
    exact hbid _
  sl_exec (disch := first | sl_exact Idx.chk1 _ hv | sl_exact Idx.chk2 _ hv | sl_exact Idx.chk3 _ hv)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk1 _ hv | sl_exact Idx.chk2 _ hv | sl_exact Idx.chk3 _ hv)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk1 _ hv | sl_exact Idx.chk2 _ hv | sl_exact Idx.chk3 _ hv)
  ihave Hs6 := (Entails.of_eq (pts_acc6 (F := F) d L _).symm) $$ Hs6
  iapply (SparseCore.wp_vectorStoreIdx 𝒱₀ (thr d L) none Set.univ (base := S6W)) $$ Hs6; iintro Hs6
  rw [Memref.read_access_whole, Memref.write_access_whole_univ]
  ihave Hs6 := (Entails.of_eq (pts_acc6 (F := F) d L _)) $$ Hs6
  sl_exec (disch := first | sl_exact Idx.chk1 _ hv | sl_exact Idx.chk2 _ hv | sl_exact Idx.chk3 _ hv)
  sl_step
  isplitl [Hs6]
  · iexists _
    isplitr [Hs6]
    rotate_left
    · iexact Hs6
    · ipureintro
      exact cnt_step bid hbid f k hf _ _ _
  iexact Hs4

end Cert.Proof.KB
-- ==== Proof.KB.CoreProof.lean ====
import proofs.«203378_g9921374454198_cont_sun_m_1167_43_alg».proof.Proof.KB.Setup
import proofs.«203378_g9921374454198_cont_sun_m_1167_43_alg».proof.Proof.KB.Batch
import proofs.«203378_g9921374454198_cont_sun_m_1167_43_alg».proof.Proof.KB.LoopCnt
import proofs.«203378_g9921374454198_cont_sun_m_1167_43_alg».proof.Proof.KB.Launch

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "V0W" => (Memref.whole Cert.Kernel.main_v0_scv : Memref Cert.Kernel.sig Kind.scVector Space.hbm Cert.Kernel.S1024x31425 EltTy.f32)
local notation "A1W" => (Memref.whole Cert.Kernel.main_arg1_scv : Memref Cert.Kernel.sig Kind.scVector Space.hbm Cert.Kernel.S8192 EltTy.i32)
local notation "A2W" => (Memref.whole Cert.Kernel.main_arg2_scv : Memref Cert.Kernel.sig Kind.scVector Space.hbm Cert.Kernel.S4096 EltTy.i32)
local notation "A3W" => (Memref.whole Cert.Kernel.main_arg3_scv : Memref Cert.Kernel.sig Kind.scVector Space.hbm Cert.Kernel.S4096 EltTy.i32)
local notation "V1W" => (Memref.whole Cert.Kernel.main_v1_scv : Memref Cert.Kernel.sig Kind.scVector Space.hbm Cert.Kernel.S1024x24672 EltTy.f32)
local notation "S0W" => (Memref.whole Cert.Kernel.cc0_scratch0 : Memref Cert.Kernel.sig Kind.scVector Space.vmem Cert.Kernel.S31425 EltTy.f32)
local notation "S1W" => (Memref.whole Cert.Kernel.cc0_scratch1 : Memref Cert.Kernel.sig Kind.scVector Space.vmem Cert.Kernel.S24672 EltTy.f32)
local notation "S2W" => (Memref.whole Cert.Kernel.cc0_scratch2 : Memref Cert.Kernel.sig Kind.scVector Space.vmem Cert.Kernel.S8192 EltTy.i32)
local notation "S3W" => (Memref.whole Cert.Kernel.cc0_scratch3 : Memref Cert.Kernel.sig Kind.scVector Space.vmem Cert.Kernel.S4096 EltTy.i32)
local notation "S4W" => (Memref.whole Cert.Kernel.cc0_scratch4 : Memref Cert.Kernel.sig Kind.scVector Space.vmem Cert.Kernel.S4096 EltTy.i32)
local notation "S5W" => (Memref.whole Cert.Kernel.cc0_scratch5 : Memref Cert.Kernel.sig Kind.scVector Space.vmem Cert.Kernel.S96 EltTy.f32)
local notation "S6W" => (Memref.whole Cert.Kernel.cc0_scratch6 : Memref Cert.Kernel.sig Kind.scVector Space.vmem Cert.Kernel.S1536 EltTy.f32)

open Idealize.ShloMosaic.ValueIdx Cert.Proof.KB.Views Cert.Proof.KB.RowViews

variable (m : (ℓ : Loc nD τ sig) → Buf (Elt F) ℓ) (d : Dev nD) (L : grid0.Coords)

omit [FloatOps F] in
/-- A whole table copied into a scratch of its shape: the scratch holds the table. -/
theorem copied_s2 (g : Buf (Elt F) ((S2W).view.loc (thr d L))) (f : Buf (Elt F) ((A1W).view.loc (thr d L))) :
    View.write (Elt F) (S2W).view g (ReadAs.same.apply (View.read (Elt F) (A1W).view f)) Finset.univ = f := by
  simp only [Memref.view_whole, View.write_whole_univ, View.read_whole]
omit [FloatOps F] in
theorem copied_s3 (g : Buf (Elt F) ((S3W).view.loc (thr d L))) (f : Buf (Elt F) ((A2W).view.loc (thr d L))) :
    View.write (Elt F) (S3W).view g (ReadAs.same.apply (View.read (Elt F) (A2W).view f)) Finset.univ = f := by
  simp only [Memref.view_whole, View.write_whole_univ, View.read_whole]
omit [FloatOps F] in
theorem copied_s4 (g : Buf (Elt F) ((S4W).view.loc (thr d L))) (f : Buf (Elt F) ((A3W).view.loc (thr d L))) :
    View.write (Elt F) (S4W).view g (ReadAs.same.apply (View.read (Elt F) (A3W).view f)) Finset.univ = f := by
  simp only [Memref.view_whole, View.write_whole_univ, View.read_whole]

omit [FloatOps F] in
/-- What a task is handed, spelt out: the four read shares and the 32 rows at their launch contents. -/
theorem go_eq (X : (d : Dev nD) → Buf (Elt F) (v0Loc d)) :
    TileGo' m X d L = iprop((((V0W).view.loc (thr d L) ↦{Transfers.shareTok fullShare 32 (tileNo (cL L) (iL L))} X d)
        ∗ ((A1W).view.loc (thr d L) ↦{Transfers.shareTok fullShare 32 (tileNo (cL L) (iL L))} m (a1Loc d))
        ∗ ((A2W).view.loc (thr d L) ↦{Transfers.shareTok fullShare 32 (tileNo (cL L) (iL L))} m (a2Loc d))
        ∗ ((A3W).view.loc (thr d L) ↦{Transfers.shareTok fullShare 32 (tileNo (cL L) (iL L))} m (a3Loc d)))
      ∗ bigSep Finset.univ (rowTodo m d L)) := rfl
omit [FloatOps F] in
/-- What it hands back, spelt out: the shares and the 32 rows served. -/
theorem td_eq (X : (d : Dev nD) → Buf (Elt F) (v0Loc d)) (KO : (d : Dev nD) → Buf (Elt F) (v1Loc d)) :
    TileTd' m X KO d L = iprop((((V0W).view.loc (thr d L) ↦{Transfers.shareTok fullShare 32 (tileNo (cL L) (iL L))} X d)
        ∗ ((A1W).view.loc (thr d L) ↦{Transfers.shareTok fullShare 32 (tileNo (cL L) (iL L))} m (a1Loc d))
        ∗ ((A2W).view.loc (thr d L) ↦{Transfers.shareTok fullShare 32 (tileNo (cL L) (iL L))} m (a2Loc d))
        ∗ ((A3W).view.loc (thr d L) ↦{Transfers.shareTok fullShare 32 (tileNo (cL L) (iL L))} m (a3Loc d)))
      ∗ bigSep Finset.univ (rowDone KO d L)) := rfl

/-! ## One task, whole

The three index tables are copied into scratch; the running sums are zeroed; the counting loop counts each band's
pairs per lane; the lanes' counts are added up and inverted (1 / max(count, 1)); then the 32 batches, one trip each;
at the end every row of the task holds the model's row. -/
set_option maxHeartbeats 1000000 in
theorem core (hr : ∀ d, Ranges (m (a1Loc d)) (m (a2Loc d)) (m (a3Loc d))) :
    CoreSpec m (fun d => reshapeIn (m (a0Loc d))) (fun d => KModel.KO (reshapeIn (m (a0Loc d))) (m (a1Loc d)) (m (a2Loc d)) (m (a3Loc d))) := by
  intro d L O W hO g0 g1 g2 g3 g4 g5 g6
  have hrd := hr d
  conv => rhs; unfold body; rw [cc0__body_eq_skeleton]; unfold cc0__body_skel
  iintro ⟨#Hmw, Hgo, Hs0, Hs1, Hs2, Hs3, Hs4, Hs5, Hs6, Hm0, Hm1, Hm2, Hm3, Hm4, HO⟩
  ihave Hgo := (Entails.of_eq (go_eq m d L (fun d => reshapeIn (m (a0Loc d))))) $$ Hgo
  icases Hgo with ⟨⟨Hv0, Ha1, Ha2, Ha3⟩, Hrows⟩
  -- the three index tables come into their scratch buffers
  sl_exec
  ihave Hs2 := (pts_name _) $$ Hs2
  icases Hs2 with ⟨%segS, %hsegE, Hs2⟩
  obtain rfl : segS = m (a1Loc d) := hsegE.trans (copied_s2 d L g2 _)
  ihave Hs3 := (pts_name _) $$ Hs3
  icases Hs3 with ⟨%bvS, %hbvE, Hs3⟩
  obtain rfl : bvS = m (a2Loc d) := hbvE.trans (copied_s3 d L g3 _)
  ihave Hs4 := (pts_name _) $$ Hs4
  icases Hs4 with ⟨%bidS, %hbidE, Hs4⟩
  obtain rfl : bidS = m (a3Loc d) := hbidE.trans (copied_s4 d L g4 _)
  -- the running sums are zeroed
  sl_for (invZ (F := F) d L) $$ [Hs6]
  case region => intro k acc; exact trip_zero1 d L k acc
  · unfold invZ; iexists _; isplitr
    rotate_left
    · iexact Hs6
    · ipureintro; intro p hp h; omega
  iintro %_ HI
  unfold invZ
  icases HI with ⟨%z6, %hz6, Hs6⟩
  sl_exec
  -- the pairs of each band are counted, lane by lane
  sl_for (invCnt (F := F) d L (m (a3Loc d))) $$ [Hs6 Hs4]
  case region => intro k acc; exact trip_cnt d L _ hrd.bid_le k acc
  · unfold invCnt
    isplitl [Hs6]
    · iexists _; isplitr
      rotate_left
      · iexact Hs6
      · ipureintro; intro r q hr' hq
        exact hz6 _ _ (by have h96 : Scf.trips k0_t1_loop.lb k0_t1_loop.ub k0_t1_loop.st = 96 := by decide
                          rw [h96]; omega)
    iexact Hs4
  iintro %_ HI
  unfold invCnt
  icases HI with ⟨⟨%f6, %hf6, Hs6⟩, Hs4⟩
  -- the lanes' counts are added up and inverted
  sl_exec
  ihave Hs5 := (pts_name _) $$ Hs5
  icases Hs5 with ⟨%c5, %hc5E, Hs5⟩
  have hf6' : CntAt (m (a3Loc d)) f6 256 := hf6
  have hc5 : ∀ q (hq : q < 96), c5 (ix1 ⟨q, hq⟩) = KModel.invCnt (m (a3Loc d)) q := by
    intro q hq
    rw [hc5E]
    refine (SumVals.invPieces_apply f6 _ q hq).trans ?_
    unfold KModel.invCnt
    refine congrArg (fun s => FloatOps.divf KModel.oneF (FloatOps.maximumf s KModel.oneF)) ?_
    refine laneSum_congr _ _ fun r hr' => ?_
    rw [dif_pos (by omega)]
    exact hf6' r q hr' hq
  -- the 32 batches
  sl_for (invB m (fun d => KModel.KO (reshapeIn (m (a0Loc d))) (m (a1Loc d)) (m (a2Loc d)) (m (a3Loc d))) d L O
      (insert (SemLoc.dma cc0_scoped2.sem, (default : HIx 1)) (insert (SemLoc.dma cc0_scoped1.sem, (default : HIx 1)) (insert (SemLoc.dma cc0_scoped0.sem, (default : HIx 1)) W)))
      (Transfers.shareTok fullShare 32 (tileNo (cL L) (iL L))) (reshapeIn (m (a0Loc d))) (m (a1Loc d)) (m (a2Loc d)) (m (a3Loc d)) c5)
    $$ [Hmw Hv0 Hrows Hs0 Hs1 Hs2 Hs3 Hs4 Hs5 Hs6 Hm3 Hm4 HO]
  case region => intro k acc; exact trip_batch m _ d L O _ _ _ _ _ _ hrd c5 hc5 (fun j => rfl) _ k acc
  · unfold invB
    rw [filter_lt_zero, filter_le_zero, BI.bigSep_empty]
    isplitl [Hmw]; · iexact Hmw
    isplitl [Hv0]; · iexact Hv0
    isplitr; · iempintro
    isplitl [Hrows]; · iexact Hrows
    isplitl [Hs0]; · iexists _; iexact Hs0
    isplitl [Hs1]; · iexists _; iexact Hs1
    isplitl [Hs2]; · iexact Hs2
    isplitl [Hs3]; · iexact Hs3
    isplitl [Hs4]; · iexact Hs4
    isplitl [Hs5]; · iexact Hs5
    isplitl [Hs6]; · iexists _; iexact Hs6
    isplitl [Hm3]; · iexact Hm3
    isplitl [Hm4]; · iexact Hm4
    iexists _; isplitr
    rotate_left
    · iexact HO
    · ipureintro; exact fun p hp => .inl hp
  iintro %_ HI
  unfold invB
  icases HI with ⟨-, Hv0, Hdone, -, ⟨%a0, Hs0⟩, ⟨%a1, Hs1⟩, Hs2, Hs3, Hs4, Hs5, ⟨%a6, Hs6⟩, Hm3, Hm4, %W', %hW', HO⟩
  have h32 : Scf.trips k0_t3_loop.lb k0_t3_loop.ub k0_t3_loop.st = 32 := by decide
  rw [h32, filter_lt_all]
  sl_exec
  sl_step
  isplitl [Hv0 Ha1 Ha2 Ha3 Hdone]
  · iapply (Entails.of_eq (td_eq m d L (fun d => reshapeIn (m (a0Loc d))) _).symm)
    isplitl [Hv0 Ha1 Ha2 Ha3]
    · isplitl [Hv0]; · iexact Hv0
      isplitl [Ha1]; · iexact Ha1
      isplitl [Ha2]; · iexact Ha2
      iexact Ha3
    · iexact Hdone
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hs5]; · iexists _; iexact Hs5
  isplitl [Hs6]; · iexists _; iexact Hs6
  isplitl [Hm0]; · iexact Hm0
  isplitl [Hm1]; · iexact Hm1
  isplitl [Hm2]; · iexact Hm2
  isplitl [Hm3]; · iexact Hm3
  isplitl [Hm4]; · iexact Hm4
  iexists _; isplitr
  rotate_left
  · iexact HO
  · ipureintro; intro p hp
    rcases hW' p hp with h | h
    · rcases Finset.mem_insert.mp h with h | h
      · exact .inr (h ▸ rfl)
      rcases Finset.mem_insert.mp h with h | h
      · exact .inr (h ▸ rfl)
      rcases Finset.mem_insert.mp h with h | h
      · exact .inr (h ▸ rfl)
      · exact .inl h
    · exact .inr h

end Cert.Proof.KB

end
-- ==== Proof.lean ====
/- The proof of `Cert.Claim` — frame_Kernel ∧ frame_KernelIdeal ∧ frame_ReferenceIdeal ∧ preserves_Kernel_KernelIdeal ∧ algebraic_KernelIdeal_ReferenceIdeal.

   Both printed kernels (the word-level one at the bit-exact floats, the idealized one at the extended reals) run, from
   the task's contract, to a final memory that holds in the result array the kernel model KO of the arguments,
   unflattened, and the four arguments unchanged; the frames drop the value. At the extended reals the model, between
   the two reshapes, IS the specification G of the four arguments; the reference program's run ends with G of ITS
   arguments, which agree with the kernel's: so the two results are equal entry by entry. -/
import proofs.«203378_g9921374454198_cont_sun_m_1167_43_alg».proof.Defs
import proofs.«203378_g9921374454198_cont_sun_m_1167_43_alg».proof.Proof.Gen.Kernel
import proofs.«203378_g9921374454198_cont_sun_m_1167_43_alg».proof.Proof.Gen.Kernel.Skeleton
import proofs.«203378_g9921374454198_cont_sun_m_1167_43_alg».proof.Proof.Gen.KernelIdeal
import proofs.«203378_g9921374454198_cont_sun_m_1167_43_alg».proof.Proof.Gen.KernelIdeal.Skeleton
import proofs.«203378_g9921374454198_cont_sun_m_1167_43_alg».proof.Proof.Gen.ReferenceIdeal
import proofs.«203378_g9921374454198_cont_sun_m_1167_43_alg».proof.Proof.Gen.Pre_input_domain
import Idealize.ShloMosaic.Adequacy
import Idealize.ShloMosaic.Init
import proofs.«203378_g9921374454198_cont_sun_m_1167_43_alg».proof.Proof.Ref
import proofs.«203378_g9921374454198_cont_sun_m_1167_43_alg».proof.Proof.KValueKI
import proofs.«203378_g9921374454198_cont_sun_m_1167_43_alg».proof.Proof.KI.Launch
import proofs.«203378_g9921374454198_cont_sun_m_1167_43_alg».proof.Proof.KI.Wrap
import proofs.«203378_g9921374454198_cont_sun_m_1167_43_alg».proof.Proof.KI.Pre
import proofs.«203378_g9921374454198_cont_sun_m_1167_43_alg».proof.Proof.KB.Launch
import proofs.«203378_g9921374454198_cont_sun_m_1167_43_alg».proof.Proof.KB.Wrap
import proofs.«203378_g9921374454198_cont_sun_m_1167_43_alg».proof.Proof.KB.Pre
import proofs.«203378_g9921374454198_cont_sun_m_1167_43_alg».proof.Proof.KI.CoreProof
import proofs.«203378_g9921374454198_cont_sun_m_1167_43_alg».proof.Proof.KB.CoreProof

noncomputable section

namespace Cert.Proof

open Idealize.ShloMosaic Idealize.SL.Sem

/-! ## The two kernels' runs -/

/-- The idealized kernel, at any float instance: from index tables in range, every weakly fair execution of the 35
    threads terminates with the kernel model of the arguments, unflattened, in the result array, and the arguments
    unchanged. -/
theorem runKI {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hr : ∀ d, KI.Ranges (m (KI.a1Loc d)) (m (KI.a2Loc d)) (m (KI.a3Loc d))) :
    θ_run (Cert.KernelIdeal.defs (F := F)) (Cert.KernelIdeal.threads (F := F)) ⟨m, fun _ => 0, ρ⟩
      (fun r => ∀ c : Dev Cert.KernelIdeal.nD,
        r.2.mem (KI.v2Loc c) = KI.reshapeOut (KModel.KO (KI.reshapeIn (m (KI.a0Loc c))) (m (KI.a1Loc c)) (m (KI.a2Loc c)) (m (KI.a3Loc c)))
        ∧ r.2.mem (KI.a0Loc c) = m (KI.a0Loc c) ∧ r.2.mem (KI.a1Loc c) = m (KI.a1Loc c) ∧ r.2.mem (KI.a2Loc c) = m (KI.a2Loc c)
        ∧ r.2.mem (KI.a3Loc c) = m (KI.a3Loc c)) :=
  KI.run_main m ρ (fun d => KI.reshapeIn (m (KI.a0Loc d)))
    (fun d => KModel.KO (KI.reshapeIn (m (KI.a0Loc d))) (m (KI.a1Loc d)) (m (KI.a2Loc d)) (m (KI.a3Loc d)))
    (fun _ => rfl) (KI.tileSpec_of_core m _ _ (KI.core m hr))

/-- The word-level kernel, likewise. -/
theorem runKB {F : FTy → Type} [FloatOps F] [∀ e, Nonempty (Elt F e)]
    (m : (ℓ : Loc Cert.Kernel.nD Cert.Kernel.τ Cert.Kernel.sig) → Buf (Elt F) ℓ) (ρ : Dev Cert.Kernel.nD → PrngReg)
    (hr : ∀ d, KB.Ranges (m (KB.a1Loc d)) (m (KB.a2Loc d)) (m (KB.a3Loc d))) :
    θ_run (Cert.Kernel.defs (F := F)) (Cert.Kernel.threads (F := F)) ⟨m, fun _ => 0, ρ⟩
      (fun r => ∀ c : Dev Cert.Kernel.nD,
        r.2.mem (KB.v2Loc c) = KB.reshapeOut (KModel.KO (KB.reshapeIn (m (KB.a0Loc c))) (m (KB.a1Loc c)) (m (KB.a2Loc c)) (m (KB.a3Loc c)))
        ∧ r.2.mem (KB.a0Loc c) = m (KB.a0Loc c) ∧ r.2.mem (KB.a1Loc c) = m (KB.a1Loc c) ∧ r.2.mem (KB.a2Loc c) = m (KB.a2Loc c)
        ∧ r.2.mem (KB.a3Loc c) = m (KB.a3Loc c)) :=
  KB.run_main m ρ (fun d => KB.reshapeIn (m (KB.a0Loc d)))
    (fun d => KModel.KO (KB.reshapeIn (m (KB.a0Loc d))) (m (KB.a1Loc d)) (m (KB.a2Loc d)) (m (KB.a3Loc d)))
    (fun _ => rfl) (KB.tileSpec_of_core m _ _ (KB.core m hr))

/-! ## The five claims -/

theorem frame_Kernel : Cert.frame_Kernel := fun m ρ hpre =>
  (θ_run (Cert.Kernel.defs (F := Bits)) _ _).mono (fun _ h c => (h c).2) (runKB (F := Bits) m ρ (KB.ranges_of_pre m hpre))

theorem frame_KernelIdeal : Cert.frame_KernelIdeal := fun m ρ hpre =>
  (θ_run (Cert.KernelIdeal.defs (F := Ideal)) _ _).mono (fun _ h c => (h c).2) (runKI (F := Ideal) m ρ (KI.ranges_of_pre m hpre))

theorem frame_ReferenceIdeal : Cert.frame_ReferenceIdeal := fun m ρ _ => Ref.run_frame m ρ

/-- The reference's precondition, from the kernel's and the agreement of the arguments: it is one predicate of the four
    argument arrays. -/
theorem pre_ref (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.Pre_ReferenceIdeal m' := fun c => by
  obtain ⟨h0, h1, h2, h3⟩ := hagree c
  rw [h0, h1, h2, h3]
  exact hpre c

theorem algebraic : Cert.algebraic_KernelIdeal_ReferenceIdeal := fun m ρ m' ρ' hpre hagree =>
  ⟨fun c => Spec.G (m (KI.a0Loc c)) (m (KI.a1Loc c)) (m (KI.a2Loc c)) (m (KI.a3Loc c)),
    (θ_run (Cert.KernelIdeal.defs (F := Ideal)) _ _).mono
      (fun _ h c => ⟨(h c).1.trans (KValue.reshapeOut_KO_eq_G (m (KI.a0Loc c)) (m (KI.a1Loc c)) (m (KI.a2Loc c)) (m (KI.a3Loc c))), (h c).2⟩)
      (runKI (F := Ideal) m ρ (KI.ranges_of_pre m hpre)),
    (θ_run (Cert.ReferenceIdeal.defs (F := Ideal)) _ _).mono
      (fun _ h c => ⟨by
        obtain ⟨h0, h1, h2, h3⟩ := hagree c
        rw [(h c).1, h0, h1, h2, h3], (h c).2⟩)
      (Ref.run m' ρ' (pre_ref m m' hpre hagree))⟩

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
